-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v520) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S8x128x128 : Shape := ⟨3, ![8, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : IVec S8x128x128 32) (main_arg2 : IVec S8x128x128 32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  main_v3
-- ==== Kernel.lean ====
abbrev S8x256x128x128 : Shape := ⟨4, ![8, 256, 128, 128]⟩
abbrev S8x128x128 : Shape := ⟨3, ![8, 128, 128]⟩
abbrev S_ : Shape := ⟨0, ![]⟩
abbrev S128x128 : Shape := ⟨2, ![128, 128]⟩
abbrev S1 : Shape := ⟨1, ![1]⟩
abbrev S2 : Shape := ⟨1, ![2]⟩
abbrev S124x124 : Shape := ⟨2, ![124, 124]⟩
abbrev S1x128x128 : Shape := ⟨3, ![1, 128, 128]⟩
abbrev S8 : Shape := ⟨1, ![8]⟩
abbrev S8x8x128x128 : Shape := ⟨4, ![8, 8, 128, 128]⟩
abbrev S24x8x128x128 : Shape := ⟨4, ![24, 8, 128, 128]⟩
abbrev S1x8x128x128 : Shape := ⟨4, ![1, 8, 128, 128]⟩
abbrev S8x128 : Shape := ⟨2, ![8, 128]⟩

abbrev nBuf : Space → Nat
  | .hbm => 63
  | .vmem => 7
  | .smem => 0
  | _ => 0

abbrev bufTy : (tb : Table) → Fin (tcTables nBuf tb) → BufTy
  | .hbm, ⟨0, _⟩ => ⟨S8x256x128x128, .f32⟩
  | .hbm, ⟨1, _⟩ => ⟨S8x128x128, .i32⟩
  | .hbm, ⟨2, _⟩ => ⟨S8x128x128, .i32⟩
  | .hbm, ⟨3, _⟩ => ⟨S_, .i32⟩
  | .hbm, ⟨4, _⟩ => ⟨S8x128x128, .i32⟩
  | .hbm, ⟨5, _⟩ => ⟨S8x128x128, .i1⟩
  | .hbm, ⟨6, _⟩ => ⟨S_, .i32⟩
  | .hbm, ⟨7, _⟩ => ⟨S_, .i32⟩
  | .hbm, ⟨8, _⟩ => ⟨S8x128x128, .i32⟩
  | .hbm, ⟨9, _⟩ => ⟨S8x128x128, .i32⟩
  | .hbm, ⟨10, _⟩ => ⟨S_, .i32⟩
  | .hbm, ⟨11, _⟩ => ⟨S8x128x128, .i32⟩
  | .hbm, ⟨12, _⟩ => ⟨S8x128x128, .i1⟩
  | .hbm, ⟨13, _⟩ => ⟨S_, .i32⟩
  | .hbm, ⟨14, _⟩ => ⟨S_, .i32⟩
  | .hbm, ⟨15, _⟩ => ⟨S8x128x128, .i32⟩
  | .hbm, ⟨16, _⟩ => ⟨S8x128x128, .i32⟩
  | .hbm, ⟨17, _⟩ => ⟨S8x128x128, .i32⟩
  | .hbm, ⟨18, _⟩ => ⟨S_, .i1⟩
  | .hbm, ⟨19, _⟩ => ⟨S128x128, .i1⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S_, .i1⟩
  | .hbm, ⟨26, _⟩ => ⟨S124x124, .i1⟩
  | .hbm, ⟨27, _⟩ => ⟨S128x128, .i1⟩
  | .hbm, ⟨28, _⟩ => ⟨S_, .i32⟩
  | .hbm, ⟨29, _⟩ => ⟨S8x128x128, .i32⟩
  | .hbm, ⟨30, _⟩ => ⟨S8x128x128, .i1⟩
  | .hbm, ⟨31, _⟩ => ⟨S1x128x128, .i1⟩
  | .hbm, ⟨32, _⟩ => ⟨S8x128x128, .i1⟩
  | .hbm, ⟨33, _⟩ => ⟨S8x128x128, .i1⟩
  | .hbm, ⟨34, _⟩ => ⟨S_, .i32⟩
  | .hbm, ⟨35, _⟩ => ⟨S8x128x128, .i32⟩
  | .hbm, ⟨36, _⟩ => ⟨S8x128x128, .i1⟩
  | .hbm, ⟨37, _⟩ => ⟨S_, .i1⟩
  | .hbm, ⟨38, _⟩ => ⟨S8, .i1⟩
  | .hbm, ⟨39, _⟩ => ⟨S8x128x128, .i32⟩
  | .hbm, ⟨40, _⟩ => ⟨S_, .i32⟩
  | .hbm, ⟨41, _⟩ => ⟨S8, .i32⟩
  | .hbm, ⟨42, _⟩ => ⟨S8, .f32⟩
  | .hbm, ⟨43, _⟩ => ⟨S8x128x128, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8, .f32⟩
  | .hbm, ⟨52, _⟩ => ⟨S8, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S8x8x128x128, .f32⟩
  | .local _ .vmem, ⟨1, _⟩ => ⟨S8x8x128x128, .f32⟩
  | .local _ .vmem, ⟨2, _⟩ => ⟨S8x128x128, .i32⟩
  | .local _ .vmem, ⟨3, _⟩ => ⟨S8x128x128, .f32⟩
  | .local _ .vmem, ⟨4, _⟩ => ⟨S8, .f32⟩
  | .local _ .vmem, ⟨5, _⟩ => ⟨S24x8x128x128, .f32⟩
  | .local _ .vmem, ⟨6, _⟩ => ⟨S8x128x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_c_7 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_8 : Ref sig .tc := ⟨.hbm, 34, rfl⟩
abbrev main_v18 : Ref sig .tc := ⟨.hbm, 35, rfl⟩
abbrev main_v19 : Ref sig .tc := ⟨.hbm, 36, rfl⟩
abbrev main_c_9 : Ref sig .tc := ⟨.hbm, 37, rfl⟩
abbrev main_v20 : Ref sig .tc := ⟨.hbm, 38, rfl⟩
abbrev main_v21 : Ref sig .tc := ⟨.hbm, 39, rfl⟩
abbrev main_c_10 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_v27 : Ref sig .tc := ⟨.hbm, 47, rfl⟩
abbrev main_cst_11 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_12 : Ref sig .tc := ⟨.hbm, 53, rfl⟩
abbrev main_v32 : Ref sig .tc := ⟨.hbm, 54, rfl⟩
abbrev main_c_13 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_14 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v251 : BitVec 1 := Scalar.cmpi .eq arg0 c31_i32
  let v252 : BitVec 32 := Scalar.extui v251
  let c0_i32_247 : BitVec 32 := 0#32
  let v253 : BitVec 1 := Scalar.cmpi .ne v252 c0_i32_247
  v253

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S8x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S8x128x128 : S_.BroadcastsInDim S8x128x128 (![] : Fin 0 → Fin S8x128x128.rank)
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S_S124x124 : S_.BroadcastsInDim S124x124 (![] : Fin 0 → Fin S124x124.rank)
  bcast_S128x128_S1x128x128_1_2 : S128x128.BroadcastsInDim S1x128x128 (![1, 2] : Fin 2 → Fin S1x128x128.rank)
  bcast_S1x128x128_S8x128x128_0_1_2 : S1x128x128.BroadcastsInDim S8x128x128 (![0, 1, 2] : Fin 3 → Fin S8x128x128.rank)
  reducesTo_S8x128x128_S8_d1_2 : S8x128x128.ReducesTo [1, 2] S8
  h_S_ : 0 < S_.numel
  natLt_1_32 : 1 < 32
  inb_S24x8x128x128_S24x8x128x128_0_0_0_0 : ∀ a, (![0, 0, 0, 0] : Fin 4 → Nat) a + S24x8x128x128.size a ≤ S24x8x128x128.size a
  h_S24x8x128x128 : 0 < S24x8x128x128.numel
  shapeCasts_S24x8x128x128_S24x8x128x128 : S24x8x128x128.ShapeCasts S24x8x128x128
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  inb_S8x8x128x128_S8x8x128x128_0_0_0_0 : ∀ a, (![0, 0, 0, 0] : Fin 4 → Nat) a + S8x8x128x128.size a ≤ S8x8x128x128.size a
  h_S8x8x128x128 : 0 < S8x8x128x128.numel
  reduces_S8x8x128x128_S8x128x128 : S8x8x128x128.Reduces [1] S8x128x128
  rotates_S8x8x128x128_d2 : S8x8x128x128.Rotates 2 none
  rotates_S8x8x128x128_d3 : S8x8x128x128.Rotates 3 none
  inb_S24x8x128x128_S1x8x128x128_0_0_0_0 : ∀ a, (![0, 0, 0, 0] : Fin 4 → Nat) a + S1x8x128x128.size a ≤ S24x8x128x128.size a
  h_S1x8x128x128 : 0 < S1x8x128x128.numel
  shapeCasts_S1x8x128x128_S8x128x128 : S1x8x128x128.ShapeCasts S8x128x128
  shapeCasts_S8x128x128_S1x8x128x128 : S8x128x128.ShapeCasts S1x8x128x128
  inb_S24x8x128x128_S1x8x128x128_1_0_0_0 : ∀ a, (![1, 0, 0, 0] : Fin 4 → Nat) a + S1x8x128x128.size a ≤ S24x8x128x128.size a
  inb_S24x8x128x128_S1x8x128x128_2_0_0_0 : ∀ a, (![2, 0, 0, 0] : Fin 4 → Nat) a + S1x8x128x128.size a ≤ S24x8x128x128.size a
  inb_S24x8x128x128_S1x8x128x128_3_0_0_0 : ∀ a, (![3, 0, 0, 0] : Fin 4 → Nat) a + S1x8x128x128.size a ≤ S24x8x128x128.size a
  inb_S24x8x128x128_S1x8x128x128_4_0_0_0 : ∀ a, (![4, 0, 0, 0] : Fin 4 → Nat) a + S1x8x128x128.size a ≤ S24x8x128x128.size a
  inb_S24x8x128x128_S1x8x128x128_5_0_0_0 : ∀ a, (![5, 0, 0, 0] : Fin 4 → Nat) a + S1x8x128x128.size a ≤ S24x8x128x128.size a
  inb_S24x8x128x128_S1x8x128x128_6_0_0_0 : ∀ a, (![6, 0, 0, 0] : Fin 4 → Nat) a + S1x8x128x128.size a ≤ S24x8x128x128.size a
  inb_S24x8x128x128_S1x8x128x128_7_0_0_0 : ∀ a, (![7, 0, 0, 0] : Fin 4 → Nat) a + S1x8x128x128.size a ≤ S24x8x128x128.size a
  inb_S24x8x128x128_S1x8x128x128_8_0_0_0 : ∀ a, (![8, 0, 0, 0] : Fin 4 → Nat) a + S1x8x128x128.size a ≤ S24x8x128x128.size a
  inb_S24x8x128x128_S1x8x128x128_9_0_0_0 : ∀ a, (![9, 0, 0, 0] : Fin 4 → Nat) a + S1x8x128x128.size a ≤ S24x8x128x128.size a
  inb_S24x8x128x128_S1x8x128x128_10_0_0_0 : ∀ a, (![10, 0, 0, 0] : Fin 4 → Nat) a + S1x8x128x128.size a ≤ S24x8x128x128.size a
  inb_S24x8x128x128_S1x8x128x128_11_0_0_0 : ∀ a, (![11, 0, 0, 0] : Fin 4 → Nat) a + S1x8x128x128.size a ≤ S24x8x128x128.size a
  inb_S24x8x128x128_S1x8x128x128_12_0_0_0 : ∀ a, (![12, 0, 0, 0] : Fin 4 → Nat) a + S1x8x128x128.size a ≤ S24x8x128x128.size a
  inb_S24x8x128x128_S1x8x128x128_13_0_0_0 : ∀ a, (![13, 0, 0, 0] : Fin 4 → Nat) a + S1x8x128x128.size a ≤ S24x8x128x128.size a
  inb_S24x8x128x128_S1x8x128x128_14_0_0_0 : ∀ a, (![14, 0, 0, 0] : Fin 4 → Nat) a + S1x8x128x128.size a ≤ S24x8x128x128.size a
  inb_S24x8x128x128_S1x8x128x128_15_0_0_0 : ∀ a, (![15, 0, 0, 0] : Fin 4 → Nat) a + S1x8x128x128.size a ≤ S24x8x128x128.size a
  inb_S24x8x128x128_S1x8x128x128_16_0_0_0 : ∀ a, (![16, 0, 0, 0] : Fin 4 → Nat) a + S1x8x128x128.size a ≤ S24x8x128x128.size a
  inb_S24x8x128x128_S1x8x128x128_17_0_0_0 : ∀ a, (![17, 0, 0, 0] : Fin 4 → Nat) a + S1x8x128x128.size a ≤ S24x8x128x128.size a
  inb_S24x8x128x128_S1x8x128x128_18_0_0_0 : ∀ a, (![18, 0, 0, 0] : Fin 4 → Nat) a + S1x8x128x128.size a ≤ S24x8x128x128.size a
  inb_S24x8x128x128_S1x8x128x128_19_0_0_0 : ∀ a, (![19, 0, 0, 0] : Fin 4 → Nat) a + S1x8x128x128.size a ≤ S24x8x128x128.size a
  inb_S24x8x128x128_S1x8x128x128_20_0_0_0 : ∀ a, (![20, 0, 0, 0] : Fin 4 → Nat) a + S1x8x128x128.size a ≤ S24x8x128x128.size a
  inb_S24x8x128x128_S1x8x128x128_21_0_0_0 : ∀ a, (![21, 0, 0, 0] : Fin 4 → Nat) a + S1x8x128x128.size a ≤ S24x8x128x128.size a
  inb_S24x8x128x128_S1x8x128x128_22_0_0_0 : ∀ a, (![22, 0, 0, 0] : Fin 4 → Nat) a + S1x8x128x128.size a ≤ S24x8x128x128.size a
  inb_S24x8x128x128_S1x8x128x128_23_0_0_0 : ∀ a, (![23, 0, 0, 0] : Fin 4 → Nat) a + S1x8x128x128.size a ≤ S24x8x128x128.size a
  rotates_S8x128x128_d1 : S8x128x128.Rotates 1 none
  rotates_S8x128x128_d2 : S8x128x128.Rotates 2 none
  reduces_S8x128x128_S8x128 : S8x128x128.Reduces [2] S8x128
  reduces_S8x128_S8 : S8x128.Reduces [1] S8
  inb_S8_S8_0 : ∀ a, (![0] : Fin 1 → Nat) a + S8.size a ≤ S8.size a
  h_S8 : 0 < S8.numel
  bcast_S_S8 : S_.BroadcastsInDim S8 (![] : Fin 0 → Fin S8.rank)
  reducesTo_S8_S_d0 : S8.ReducesTo [0] S_
  scatter_S128x128_S2_S124x124_01_n_01_0_wf : ScatterDims.WF S128x128 S2 S124x124 [0, 1] [] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x128x128.size a ≤ S8x256x128x128.size a
  hwx0_0 : ∀ i : grid0.Coords, EltTy.bits .f32 = 32 ∨ (Rect.block (s := S8x256x128x128) S8x8x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S8x128x128.size a
  hwx0_1 : ∀ i : grid0.Coords, EltTy.bits .i32 = 32 ∨ (Rect.block (s := S8x128x128) S8x128x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128x128.size a ≤ S8x128x128.size a
  hwx0_2 : ∀ i : grid0.Coords, EltTy.bits .f32 = 32 ∨ (Rect.block (s := S8x128x128) S8x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)

variable [Facts₀]

def scatter_S128x128_S2_S124x124_01_n_01_0 : ScatterDims S128x128 S2 S124x124 where
  updateWindowDims := [0, 1]
  insertedWindowDims := []
  scatterDimsToOperandDims := [0, 1]
  indexVectorDim := 0
  wf := scatter_S128x128_S2_S124x124_01_n_01_0_wf

abbrev win0_0 : Pipeline.Window sig grid0 :=
  Pipeline.Window.ofSpec (Memref.whole main_arg0) S8x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x256x128x128 : Shape := ⟨4, ![8, 256, 128, 128]⟩
abbrev S8x128x128 : Shape := ⟨3, ![8, 128, 128]⟩
abbrev S_ : Shape := ⟨0, ![]⟩
abbrev S128x128 : Shape := ⟨2, ![128, 128]⟩
abbrev S1 : Shape := ⟨1, ![1]⟩
abbrev S2 : Shape := ⟨1, ![2]⟩
abbrev S124x124 : Shape := ⟨2, ![124, 124]⟩
abbrev S1x128x128 : Shape := ⟨3, ![1, 128, 128]⟩
abbrev S8 : Shape := ⟨1, ![8]⟩
abbrev S8x256x2x128 : Shape := ⟨4, ![8, 256, 2, 128]⟩
abbrev S8x256x126x128 : Shape := ⟨4, ![8, 256, 126, 128]⟩
abbrev S8x256x128x2 : Shape := ⟨4, ![8, 256, 128, 2]⟩
abbrev S8x256x128x126 : Shape := ⟨4, ![8, 256, 128, 126]⟩
abbrev S8x2x128 : Shape := ⟨3, ![8, 2, 128]⟩
abbrev S8x126x128 : Shape := ⟨3, ![8, 126, 128]⟩
abbrev S8x128x2 : Shape := ⟨3, ![8, 128, 2]⟩
abbrev S8x128x126 : Shape := ⟨3, ![8, 128, 126]⟩
abbrev S8x256x128x1 : Shape := ⟨4, ![8, 256, 128, 1]⟩
abbrev S8x256x128x127 : Shape := ⟨4, ![8, 256, 128, 127]⟩
abbrev S8x128x1 : Shape := ⟨3, ![8, 128, 1]⟩
abbrev S8x128x127 : Shape := ⟨3, ![8, 128, 127]⟩
abbrev S8x256x128x0 : Shape := ⟨4, ![8, 256, 128, 0]⟩
abbrev S8x128x0 : Shape := ⟨3, ![8, 128, 0]⟩
abbrev S8x256x1x128 : Shape := ⟨4, ![8, 256, 1, 128]⟩
abbrev S8x256x127x128 : Shape := ⟨4, ![8, 256, 127, 128]⟩
abbrev S8x1x128 : Shape := ⟨3, ![8, 1, 128]⟩
abbrev S8x127x128 : Shape := ⟨3, ![8, 127, 128]⟩
abbrev S8x256x0x128 : Shape := ⟨4, ![8, 256, 0, 128]⟩
abbrev S8x0x128 : Shape := ⟨3, ![8, 0, 128]⟩

abbrev nBuf : Space → Nat
  | .hbm => 1003
  | .vmem => 0
  | .smem => 0
  | _ => 0

abbrev hbmTy0_0 (i : Nat) : BufTy := match i % 128 with
  | 0 => ⟨S8x256x128x128, .f32⟩
  | 1 => ⟨S8x128x128, .i32⟩
  | 2 => ⟨S8x128x128, .i32⟩
  | 3 => ⟨S_, .i32⟩
  | 4 => ⟨S8x128x128, .i32⟩
  | 5 => ⟨S8x128x128, .i1⟩
  | 6 => ⟨S_, .i32⟩
  | 7 => ⟨S_, .i32⟩
  | 8 => ⟨S8x128x128, .i32⟩
  | 9 => ⟨S8x128x128, .i32⟩
  | 10 => ⟨S_, .i32⟩
  | 11 => ⟨S8x128x128, .i32⟩
  | 12 => ⟨S8x128x128, .i1⟩
  | 13 => ⟨S_, .i32⟩
  | 14 => ⟨S_, .i32⟩
  | 15 => ⟨S8x128x128, .i32⟩
  | 16 => ⟨S8x128x128, .i32⟩
  | 17 => ⟨S8x128x128, .i32⟩
  | 18 => ⟨S_, .i1⟩
  | 19 => ⟨S128x128, .i1⟩
  | 20 => ⟨S_, .i32⟩
  | 21 => ⟨S1, .i32⟩
  | 22 => ⟨S_, .i32⟩
  | 23 => ⟨S1, .i32⟩
  | 24 => ⟨S2, .i32⟩
  | 25 => ⟨S_, .i1⟩
  | 26 => ⟨S124x124, .i1⟩
  | 27 => ⟨S128x128, .i1⟩
  | 28 => ⟨S_, .i32⟩
  | 29 => ⟨S8x128x128, .i32⟩
  | 30 => ⟨S8x128x128, .i1⟩
  | 31 => ⟨S1x128x128, .i1⟩
  | 32 => ⟨S8x128x128, .i1⟩
  | 33 => ⟨S8x128x128, .i1⟩
  | 34 => ⟨S_, .i32⟩
  | 35 => ⟨S8x128x128, .i32⟩
  | 36 => ⟨S8x128x128, .i1⟩
  | 37 => ⟨S_, .i1⟩
  | 38 => ⟨S8, .i1⟩
  | 39 => ⟨S8x128x128, .i32⟩
  | 40 => ⟨S_, .i32⟩
  | 41 => ⟨S8, .i32⟩
  | 42 => ⟨S8, .f32⟩
  | 43 => ⟨S8x256x128x128, .f32⟩
  | 44 => ⟨S_, .f32⟩
  | 45 => ⟨S8x128x128, .f32⟩
  | 46 => ⟨S8x128x128, .f32⟩
  | 47 => ⟨S_, .f32⟩
  | 48 => ⟨S8x128x128, .f32⟩
  | 49 => ⟨S8x128x128, .f32⟩
  | 50 => ⟨S8x128x128, .f32⟩
  | 51 => ⟨S_, .f32⟩
  | 52 => ⟨S8, .f32⟩
  | 53 => ⟨S8x256x2x128, .f32⟩
  | 54 => ⟨S8x256x126x128, .f32⟩
  | 55 => ⟨S8x256x128x128, .f32⟩
  | 56 => ⟨S8x256x128x2, .f32⟩
  | 57 => ⟨S8x256x128x126, .f32⟩
  | 58 => ⟨S8x256x128x128, .f32⟩
  | 59 => ⟨S8x2x128, .f32⟩
  | 60 => ⟨S8x126x128, .f32⟩
  | 61 => ⟨S8x128x128, .f32⟩
  | 62 => ⟨S8x128x2, .f32⟩
  | 63 => ⟨S8x128x126, .f32⟩
  | 64 => ⟨S8x128x128, .f32⟩
  | 65 => ⟨S8x2x128, .i32⟩
  | 66 => ⟨S8x126x128, .i32⟩
  | 67 => ⟨S8x128x128, .i32⟩
  | 68 => ⟨S8x128x2, .i32⟩
  | 69 => ⟨S8x128x126, .i32⟩
  | 70 => ⟨S8x128x128, .i32⟩
  | 71 => ⟨S8x256x128x128, .f32⟩
  | 72 => ⟨S_, .f32⟩
  | 73 => ⟨S8x128x128, .f32⟩
  | 74 => ⟨S8x128x128, .f32⟩
  | 75 => ⟨S8x128x128, .f32⟩
  | 76 => ⟨S8x128x128, .i1⟩
  | 77 => ⟨S_, .i32⟩
  | 78 => ⟨S8x128x128, .i32⟩
  | 79 => ⟨S8x128x128, .i1⟩
  | 80 => ⟨S8x128x128, .i1⟩
  | 81 => ⟨S8x128x128, .f32⟩
  | 82 => ⟨S8x128x128, .f32⟩
  | 83 => ⟨S8x128x128, .f32⟩
  | 84 => ⟨S8x128x128, .f32⟩
  | 85 => ⟨S_, .f32⟩
  | 86 => ⟨S8, .f32⟩
  | 87 => ⟨S_, .f32⟩
  | 88 => ⟨S8, .f32⟩
  | 89 => ⟨S8, .f32⟩
  | 90 => ⟨S8, .f32⟩
  | 91 => ⟨S8, .f32⟩
  | 92 => ⟨S8x256x2x128, .f32⟩
  | 93 => ⟨S8x256x126x128, .f32⟩
  | 94 => ⟨S8x256x128x128, .f32⟩
  | 95 => ⟨S8x256x128x1, .f32⟩
  | 96 => ⟨S8x256x128x127, .f32⟩
  | 97 => ⟨S8x256x128x128, .f32⟩
  | 98 => ⟨S8x2x128, .f32⟩
  | 99 => ⟨S8x126x128, .f32⟩
  | 100 => ⟨S8x128x128, .f32⟩
  | 101 => ⟨S8x128x1, .f32⟩
  | 102 => ⟨S8x128x127, .f32⟩
  | 103 => ⟨S8x128x128, .f32⟩
  | 104 => ⟨S8x2x128, .i32⟩
  | 105 => ⟨S8x126x128, .i32⟩
  | 106 => ⟨S8x128x128, .i32⟩
  | 107 => ⟨S8x128x1, .i32⟩
  | 108 => ⟨S8x128x127, .i32⟩
  | 109 => ⟨S8x128x128, .i32⟩
  | 110 => ⟨S8x256x128x128, .f32⟩
  | 111 => ⟨S_, .f32⟩
  | 112 => ⟨S8x128x128, .f32⟩
  | 113 => ⟨S8x128x128, .f32⟩
  | 114 => ⟨S8x128x128, .f32⟩
  | 115 => ⟨S8x128x128, .i1⟩
  | 116 => ⟨S_, .i32⟩
  | 117 => ⟨S8x128x128, .i32⟩
  | 118 => ⟨S8x128x128, .i1⟩
  | 119 => ⟨S8x128x128, .i1⟩
  | 120 => ⟨S8x128x128, .f32⟩
  | 121 => ⟨S8x128x128, .f32⟩
  | 122 => ⟨S8x128x128, .f32⟩
  | 123 => ⟨S8x128x128, .f32⟩
  | 124 => ⟨S_, .f32⟩
  | 125 => ⟨S8, .f32⟩
  | 126 => ⟨S_, .f32⟩
  | 127 => ⟨S8, .f32⟩
  | _ => ⟨S8x256x128x128, .f32⟩

abbrev hbmTy0_1 (i : Nat) : BufTy := match i % 128 with
  | 0 => ⟨S8, .f32⟩
  | 1 => ⟨S8, .f32⟩
  | 2 => ⟨S8, .f32⟩
  | 3 => ⟨S8x256x2x128, .f32⟩
  | 4 => ⟨S8x256x126x128, .f32⟩
  | 5 => ⟨S8x256x128x128, .f32⟩
  | 6 => ⟨S8x256x128x128, .f32⟩
  | 7 => ⟨S8x256x128x0, .f32⟩
  | 8 => ⟨S8x256x128x128, .f32⟩
  | 9 => ⟨S8x2x128, .f32⟩
  | 10 => ⟨S8x126x128, .f32⟩
  | 11 => ⟨S8x128x128, .f32⟩
  | 12 => ⟨S8x128x128, .f32⟩
  | 13 => ⟨S8x128x0, .f32⟩
  | 14 => ⟨S8x128x128, .f32⟩
  | 15 => ⟨S8x2x128, .i32⟩
  | 16 => ⟨S8x126x128, .i32⟩
  | 17 => ⟨S8x128x128, .i32⟩
  | 18 => ⟨S8x128x128, .i32⟩
  | 19 => ⟨S8x128x0, .i32⟩
  | 20 => ⟨S8x128x128, .i32⟩
  | 21 => ⟨S8x256x128x128, .f32⟩
  | 22 => ⟨S_, .f32⟩
  | 23 => ⟨S8x128x128, .f32⟩
  | 24 => ⟨S8x128x128, .f32⟩
  | 25 => ⟨S8x128x128, .f32⟩
  | 26 => ⟨S8x128x128, .i1⟩
  | 27 => ⟨S_, .i32⟩
  | 28 => ⟨S8x128x128, .i32⟩
  | 29 => ⟨S8x128x128, .i1⟩
  | 30 => ⟨S8x128x128, .i1⟩
  | 31 => ⟨S8x128x128, .f32⟩
  | 32 => ⟨S8x128x128, .f32⟩
  | 33 => ⟨S8x128x128, .f32⟩
  | 34 => ⟨S8x128x128, .f32⟩
  | 35 => ⟨S_, .f32⟩
  | 36 => ⟨S8, .f32⟩
  | 37 => ⟨S_, .f32⟩
  | 38 => ⟨S8, .f32⟩
  | 39 => ⟨S8, .f32⟩
  | 40 => ⟨S8, .f32⟩
  | 41 => ⟨S8, .f32⟩
  | 42 => ⟨S8x256x2x128, .f32⟩
  | 43 => ⟨S8x256x126x128, .f32⟩
  | 44 => ⟨S8x256x128x128, .f32⟩
  | 45 => ⟨S8x256x128x127, .f32⟩
  | 46 => ⟨S8x256x128x1, .f32⟩
  | 47 => ⟨S8x256x128x128, .f32⟩
  | 48 => ⟨S8x2x128, .f32⟩
  | 49 => ⟨S8x126x128, .f32⟩
  | 50 => ⟨S8x128x128, .f32⟩
  | 51 => ⟨S8x128x127, .f32⟩
  | 52 => ⟨S8x128x1, .f32⟩
  | 53 => ⟨S8x128x128, .f32⟩
  | 54 => ⟨S8x2x128, .i32⟩
  | 55 => ⟨S8x126x128, .i32⟩
  | 56 => ⟨S8x128x128, .i32⟩
  | 57 => ⟨S8x128x127, .i32⟩
  | 58 => ⟨S8x128x1, .i32⟩
  | 59 => ⟨S8x128x128, .i32⟩
  | 60 => ⟨S8x256x128x128, .f32⟩
  | 61 => ⟨S_, .f32⟩
  | 62 => ⟨S8x128x128, .f32⟩
  | 63 => ⟨S8x128x128, .f32⟩
  | 64 => ⟨S8x128x128, .f32⟩
  | 65 => ⟨S8x128x128, .i1⟩
  | 66 => ⟨S_, .i32⟩
  | 67 => ⟨S8x128x128, .i32⟩
  | 68 => ⟨S8x128x128, .i1⟩
  | 69 => ⟨S8x128x128, .i1⟩
  | 70 => ⟨S8x128x128, .f32⟩
  | 71 => ⟨S8x128x128, .f32⟩
  | 72 => ⟨S8x128x128, .f32⟩
  | 73 => ⟨S8x128x128, .f32⟩
  | 74 => ⟨S_, .f32⟩
  | 75 => ⟨S8, .f32⟩
  | 76 => ⟨S_, .f32⟩
  | 77 => ⟨S8, .f32⟩
  | 78 => ⟨S8, .f32⟩
  | 79 => ⟨S8, .f32⟩
  | 80 => ⟨S8, .f32⟩
  | 81 => ⟨S8x256x2x128, .f32⟩
  | 82 => ⟨S8x256x126x128, .f32⟩
  | 83 => ⟨S8x256x128x128, .f32⟩
  | 84 => ⟨S8x256x128x126, .f32⟩
  | 85 => ⟨S8x256x128x2, .f32⟩
  | 86 => ⟨S8x256x128x128, .f32⟩
  | 87 => ⟨S8x2x128, .f32⟩
  | 88 => ⟨S8x126x128, .f32⟩
  | 89 => ⟨S8x128x128, .f32⟩
  | 90 => ⟨S8x128x126, .f32⟩
  | 91 => ⟨S8x128x2, .f32⟩
  | 92 => ⟨S8x128x128, .f32⟩
  | 93 => ⟨S8x2x128, .i32⟩
  | 94 => ⟨S8x126x128, .i32⟩
  | 95 => ⟨S8x128x128, .i32⟩
  | 96 => ⟨S8x128x126, .i32⟩
  | 97 => ⟨S8x128x2, .i32⟩
  | 98 => ⟨S8x128x128, .i32⟩
  | 99 => ⟨S8x256x128x128, .f32⟩
  | 100 => ⟨S_, .f32⟩
  | 101 => ⟨S8x128x128, .f32⟩
  | 102 => ⟨S8x128x128, .f32⟩
  | 103 => ⟨S8x128x128, .f32⟩
  | 104 => ⟨S8x128x128, .i1⟩
  | 105 => ⟨S_, .i32⟩
  | 106 => ⟨S8x128x128, .i32⟩
  | 107 => ⟨S8x128x128, .i1⟩
  | 108 => ⟨S8x128x128, .i1⟩
  | 109 => ⟨S8x128x128, .f32⟩
  | 110 => ⟨S8x128x128, .f32⟩
  | 111 => ⟨S8x128x128, .f32⟩
  | 112 => ⟨S8x128x128, .f32⟩
  | 113 => ⟨S_, .f32⟩
  | 114 => ⟨S8, .f32⟩
  | 115 => ⟨S_, .f32⟩
  | 116 => ⟨S8, .f32⟩
  | 117 => ⟨S8, .f32⟩
  | 118 => ⟨S8, .f32⟩
  | 119 => ⟨S8, .f32⟩
  | 120 => ⟨S8x256x1x128, .f32⟩
  | 121 => ⟨S8x256x127x128, .f32⟩
  | 122 => ⟨S8x256x128x128, .f32⟩
  | 123 => ⟨S8x256x128x2, .f32⟩
  | 124 => ⟨S8x256x128x126, .f32⟩
  | 125 => ⟨S8x256x128x128, .f32⟩
  | 126 => ⟨S8x1x128, .f32⟩
  | 127 => ⟨S8x127x128, .f32⟩
  | _ => ⟨S8x256x128x128, .f32⟩

abbrev hbmTy0_2 (i : Nat) : BufTy := match i % 128 with
  | 0 => ⟨S8x128x128, .f32⟩
  | 1 => ⟨S8x128x2, .f32⟩
  | 2 => ⟨S8x128x126, .f32⟩
  | 3 => ⟨S8x128x128, .f32⟩
  | 4 => ⟨S8x1x128, .i32⟩
  | 5 => ⟨S8x127x128, .i32⟩
  | 6 => ⟨S8x128x128, .i32⟩
  | 7 => ⟨S8x128x2, .i32⟩
  | 8 => ⟨S8x128x126, .i32⟩
  | 9 => ⟨S8x128x128, .i32⟩
  | 10 => ⟨S8x256x128x128, .f32⟩
  | 11 => ⟨S_, .f32⟩
  | 12 => ⟨S8x128x128, .f32⟩
  | 13 => ⟨S8x128x128, .f32⟩
  | 14 => ⟨S8x128x128, .f32⟩
  | 15 => ⟨S8x128x128, .i1⟩
  | 16 => ⟨S_, .i32⟩
  | 17 => ⟨S8x128x128, .i32⟩
  | 18 => ⟨S8x128x128, .i1⟩
  | 19 => ⟨S8x128x128, .i1⟩
  | 20 => ⟨S8x128x128, .f32⟩
  | 21 => ⟨S8x128x128, .f32⟩
  | 22 => ⟨S8x128x128, .f32⟩
  | 23 => ⟨S8x128x128, .f32⟩
  | 24 => ⟨S_, .f32⟩
  | 25 => ⟨S8, .f32⟩
  | 26 => ⟨S_, .f32⟩
  | 27 => ⟨S8, .f32⟩
  | 28 => ⟨S8, .f32⟩
  | 29 => ⟨S8, .f32⟩
  | 30 => ⟨S8, .f32⟩
  | 31 => ⟨S8x256x1x128, .f32⟩
  | 32 => ⟨S8x256x127x128, .f32⟩
  | 33 => ⟨S8x256x128x128, .f32⟩
  | 34 => ⟨S8x256x128x1, .f32⟩
  | 35 => ⟨S8x256x128x127, .f32⟩
  | 36 => ⟨S8x256x128x128, .f32⟩
  | 37 => ⟨S8x1x128, .f32⟩
  | 38 => ⟨S8x127x128, .f32⟩
  | 39 => ⟨S8x128x128, .f32⟩
  | 40 => ⟨S8x128x1, .f32⟩
  | 41 => ⟨S8x128x127, .f32⟩
  | 42 => ⟨S8x128x128, .f32⟩
  | 43 => ⟨S8x1x128, .i32⟩
  | 44 => ⟨S8x127x128, .i32⟩
  | 45 => ⟨S8x128x128, .i32⟩
  | 46 => ⟨S8x128x1, .i32⟩
  | 47 => ⟨S8x128x127, .i32⟩
  | 48 => ⟨S8x128x128, .i32⟩
  | 49 => ⟨S8x256x128x128, .f32⟩
  | 50 => ⟨S_, .f32⟩
  | 51 => ⟨S8x128x128, .f32⟩
  | 52 => ⟨S8x128x128, .f32⟩
  | 53 => ⟨S8x128x128, .f32⟩
  | 54 => ⟨S8x128x128, .i1⟩
  | 55 => ⟨S_, .i32⟩
  | 56 => ⟨S8x128x128, .i32⟩
  | 57 => ⟨S8x128x128, .i1⟩
  | 58 => ⟨S8x128x128, .i1⟩
  | 59 => ⟨S8x128x128, .f32⟩
  | 60 => ⟨S8x128x128, .f32⟩
  | 61 => ⟨S8x128x128, .f32⟩
  | 62 => ⟨S8x128x128, .f32⟩
  | 63 => ⟨S_, .f32⟩
  | 64 => ⟨S8, .f32⟩
  | 65 => ⟨S_, .f32⟩
  | 66 => ⟨S8, .f32⟩
  | 67 => ⟨S8, .f32⟩
  | 68 => ⟨S8, .f32⟩
  | 69 => ⟨S8, .f32⟩
  | 70 => ⟨S8x256x1x128, .f32⟩
  | 71 => ⟨S8x256x127x128, .f32⟩
  | 72 => ⟨S8x256x128x128, .f32⟩
  | 73 => ⟨S8x256x128x128, .f32⟩
  | 74 => ⟨S8x256x128x0, .f32⟩
  | 75 => ⟨S8x256x128x128, .f32⟩
  | 76 => ⟨S8x1x128, .f32⟩
  | 77 => ⟨S8x127x128, .f32⟩
  | 78 => ⟨S8x128x128, .f32⟩
  | 79 => ⟨S8x128x128, .f32⟩
  | 80 => ⟨S8x128x0, .f32⟩
  | 81 => ⟨S8x128x128, .f32⟩
  | 82 => ⟨S8x1x128, .i32⟩
  | 83 => ⟨S8x127x128, .i32⟩
  | 84 => ⟨S8x128x128, .i32⟩
  | 85 => ⟨S8x128x128, .i32⟩
  | 86 => ⟨S8x128x0, .i32⟩
  | 87 => ⟨S8x128x128, .i32⟩
  | 88 => ⟨S8x256x128x128, .f32⟩
  | 89 => ⟨S_, .f32⟩
  | 90 => ⟨S8x128x128, .f32⟩
  | 91 => ⟨S8x128x128, .f32⟩
  | 92 => ⟨S8x128x128, .f32⟩
  | 93 => ⟨S8x128x128, .i1⟩
  | 94 => ⟨S_, .i32⟩
  | 95 => ⟨S8x128x128, .i32⟩
  | 96 => ⟨S8x128x128, .i1⟩
  | 97 => ⟨S8x128x128, .i1⟩
  | 98 => ⟨S8x128x128, .f32⟩
  | 99 => ⟨S8x128x128, .f32⟩
  | 100 => ⟨S8x128x128, .f32⟩
  | 101 => ⟨S8x128x128, .f32⟩
  | 102 => ⟨S_, .f32⟩
  | 103 => ⟨S8, .f32⟩
  | 104 => ⟨S_, .f32⟩
  | 105 => ⟨S8, .f32⟩
  | 106 => ⟨S8, .f32⟩
  | 107 => ⟨S8, .f32⟩
  | 108 => ⟨S8, .f32⟩
  | 109 => ⟨S8x256x1x128, .f32⟩
  | 110 => ⟨S8x256x127x128, .f32⟩
  | 111 => ⟨S8x256x128x128, .f32⟩
  | 112 => ⟨S8x256x128x127, .f32⟩
  | 113 => ⟨S8x256x128x1, .f32⟩
  | 114 => ⟨S8x256x128x128, .f32⟩
  | 115 => ⟨S8x1x128, .f32⟩
  | 116 => ⟨S8x127x128, .f32⟩
  | 117 => ⟨S8x128x128, .f32⟩
  | 118 => ⟨S8x128x127, .f32⟩
  | 119 => ⟨S8x128x1, .f32⟩
  | 120 => ⟨S8x128x128, .f32⟩
  | 121 => ⟨S8x1x128, .i32⟩
  | 122 => ⟨S8x127x128, .i32⟩
  | 123 => ⟨S8x128x128, .i32⟩
  | 124 => ⟨S8x128x127, .i32⟩
  | 125 => ⟨S8x128x1, .i32⟩
  | 126 => ⟨S8x128x128, .i32⟩
  | 127 => ⟨S8x256x128x128, .f32⟩
  | _ => ⟨S8x256x128x128, .f32⟩

abbrev hbmTy0_3 (i : Nat) : BufTy := match i % 128 with
  | 0 => ⟨S_, .f32⟩
  | 1 => ⟨S8x128x128, .f32⟩
  | 2 => ⟨S8x128x128, .f32⟩
  | 3 => ⟨S8x128x128, .f32⟩
  | 4 => ⟨S8x128x128, .i1⟩
  | 5 => ⟨S_, .i32⟩
  | 6 => ⟨S8x128x128, .i32⟩
  | 7 => ⟨S8x128x128, .i1⟩
  | 8 => ⟨S8x128x128, .i1⟩
  | 9 => ⟨S8x128x128, .f32⟩
  | 10 => ⟨S8x128x128, .f32⟩
  | 11 => ⟨S8x128x128, .f32⟩
  | 12 => ⟨S8x128x128, .f32⟩
  | 13 => ⟨S_, .f32⟩
  | 14 => ⟨S8, .f32⟩
  | 15 => ⟨S_, .f32⟩
  | 16 => ⟨S8, .f32⟩
  | 17 => ⟨S8, .f32⟩
  | 18 => ⟨S8, .f32⟩
  | 19 => ⟨S8, .f32⟩
  | 20 => ⟨S8x256x1x128, .f32⟩
  | 21 => ⟨S8x256x127x128, .f32⟩
  | 22 => ⟨S8x256x128x128, .f32⟩
  | 23 => ⟨S8x256x128x126, .f32⟩
  | 24 => ⟨S8x256x128x2, .f32⟩
  | 25 => ⟨S8x256x128x128, .f32⟩
  | 26 => ⟨S8x1x128, .f32⟩
  | 27 => ⟨S8x127x128, .f32⟩
  | 28 => ⟨S8x128x128, .f32⟩
  | 29 => ⟨S8x128x126, .f32⟩
  | 30 => ⟨S8x128x2, .f32⟩
  | 31 => ⟨S8x128x128, .f32⟩
  | 32 => ⟨S8x1x128, .i32⟩
  | 33 => ⟨S8x127x128, .i32⟩
  | 34 => ⟨S8x128x128, .i32⟩
  | 35 => ⟨S8x128x126, .i32⟩
  | 36 => ⟨S8x128x2, .i32⟩
  | 37 => ⟨S8x128x128, .i32⟩
  | 38 => ⟨S8x256x128x128, .f32⟩
  | 39 => ⟨S_, .f32⟩
  | 40 => ⟨S8x128x128, .f32⟩
  | 41 => ⟨S8x128x128, .f32⟩
  | 42 => ⟨S8x128x128, .f32⟩
  | 43 => ⟨S8x128x128, .i1⟩
  | 44 => ⟨S_, .i32⟩
  | 45 => ⟨S8x128x128, .i32⟩
  | 46 => ⟨S8x128x128, .i1⟩
  | 47 => ⟨S8x128x128, .i1⟩
  | 48 => ⟨S8x128x128, .f32⟩
  | 49 => ⟨S8x128x128, .f32⟩
  | 50 => ⟨S8x128x128, .f32⟩
  | 51 => ⟨S8x128x128, .f32⟩
  | 52 => ⟨S_, .f32⟩
  | 53 => ⟨S8, .f32⟩
  | 54 => ⟨S_, .f32⟩
  | 55 => ⟨S8, .f32⟩
  | 56 => ⟨S8, .f32⟩
  | 57 => ⟨S8, .f32⟩
  | 58 => ⟨S8, .f32⟩
  | 59 => ⟨S8x256x128x128, .f32⟩
  | 60 => ⟨S8x256x0x128, .f32⟩
  | 61 => ⟨S8x256x128x128, .f32⟩
  | 62 => ⟨S8x256x128x2, .f32⟩
  | 63 => ⟨S8x256x128x126, .f32⟩
  | 64 => ⟨S8x256x128x128, .f32⟩
  | 65 => ⟨S8x128x128, .f32⟩
  | 66 => ⟨S8x0x128, .f32⟩
  | 67 => ⟨S8x128x128, .f32⟩
  | 68 => ⟨S8x128x2, .f32⟩
  | 69 => ⟨S8x128x126, .f32⟩
  | 70 => ⟨S8x128x128, .f32⟩
  | 71 => ⟨S8x128x128, .i32⟩
  | 72 => ⟨S8x0x128, .i32⟩
  | 73 => ⟨S8x128x128, .i32⟩
  | 74 => ⟨S8x128x2, .i32⟩
  | 75 => ⟨S8x128x126, .i32⟩
  | 76 => ⟨S8x128x128, .i32⟩
  | 77 => ⟨S8x256x128x128, .f32⟩
  | 78 => ⟨S_, .f32⟩
  | 79 => ⟨S8x128x128, .f32⟩
  | 80 => ⟨S8x128x128, .f32⟩
  | 81 => ⟨S8x128x128, .f32⟩
  | 82 => ⟨S8x128x128, .i1⟩
  | 83 => ⟨S_, .i32⟩
  | 84 => ⟨S8x128x128, .i32⟩
  | 85 => ⟨S8x128x128, .i1⟩
  | 86 => ⟨S8x128x128, .i1⟩
  | 87 => ⟨S8x128x128, .f32⟩
  | 88 => ⟨S8x128x128, .f32⟩
  | 89 => ⟨S8x128x128, .f32⟩
  | 90 => ⟨S8x128x128, .f32⟩
  | 91 => ⟨S_, .f32⟩
  | 92 => ⟨S8, .f32⟩
  | 93 => ⟨S_, .f32⟩
  | 94 => ⟨S8, .f32⟩
  | 95 => ⟨S8, .f32⟩
  | 96 => ⟨S8, .f32⟩
  | 97 => ⟨S8, .f32⟩
  | 98 => ⟨S8x256x128x128, .f32⟩
  | 99 => ⟨S8x256x0x128, .f32⟩
  | 100 => ⟨S8x256x128x128, .f32⟩
  | 101 => ⟨S8x256x128x1, .f32⟩
  | 102 => ⟨S8x256x128x127, .f32⟩
  | 103 => ⟨S8x256x128x128, .f32⟩
  | 104 => ⟨S8x128x128, .f32⟩
  | 105 => ⟨S8x0x128, .f32⟩
  | 106 => ⟨S8x128x128, .f32⟩
  | 107 => ⟨S8x128x1, .f32⟩
  | 108 => ⟨S8x128x127, .f32⟩
  | 109 => ⟨S8x128x128, .f32⟩
  | 110 => ⟨S8x128x128, .i32⟩
  | 111 => ⟨S8x0x128, .i32⟩
  | 112 => ⟨S8x128x128, .i32⟩
  | 113 => ⟨S8x128x1, .i32⟩
  | 114 => ⟨S8x128x127, .i32⟩
  | 115 => ⟨S8x128x128, .i32⟩
  | 116 => ⟨S8x256x128x128, .f32⟩
  | 117 => ⟨S_, .f32⟩
  | 118 => ⟨S8x128x128, .f32⟩
  | 119 => ⟨S8x128x128, .f32⟩
  | 120 => ⟨S8x128x128, .f32⟩
  | 121 => ⟨S8x128x128, .i1⟩
  | 122 => ⟨S_, .i32⟩
  | 123 => ⟨S8x128x128, .i32⟩
  | 124 => ⟨S8x128x128, .i1⟩
  | 125 => ⟨S8x128x128, .i1⟩
  | 126 => ⟨S8x128x128, .f32⟩
  | 127 => ⟨S8x128x128, .f32⟩
  | _ => ⟨S8x256x128x128, .f32⟩

abbrev hbmTy0_4 (i : Nat) : BufTy := match i % 128 with
  | 0 => ⟨S8x128x128, .f32⟩
  | 1 => ⟨S8x128x128, .f32⟩
  | 2 => ⟨S_, .f32⟩
  | 3 => ⟨S8, .f32⟩
  | 4 => ⟨S_, .f32⟩
  | 5 => ⟨S8, .f32⟩
  | 6 => ⟨S8, .f32⟩
  | 7 => ⟨S8, .f32⟩
  | 8 => ⟨S8, .f32⟩
  | 9 => ⟨S8x256x128x128, .f32⟩
  | 10 => ⟨S8x256x0x128, .f32⟩
  | 11 => ⟨S8x256x128x128, .f32⟩
  | 12 => ⟨S8x256x128x127, .f32⟩
  | 13 => ⟨S8x256x128x1, .f32⟩
  | 14 => ⟨S8x256x128x128, .f32⟩
  | 15 => ⟨S8x128x128, .f32⟩
  | 16 => ⟨S8x0x128, .f32⟩
  | 17 => ⟨S8x128x128, .f32⟩
  | 18 => ⟨S8x128x127, .f32⟩
  | 19 => ⟨S8x128x1, .f32⟩
  | 20 => ⟨S8x128x128, .f32⟩
  | 21 => ⟨S8x128x128, .i32⟩
  | 22 => ⟨S8x0x128, .i32⟩
  | 23 => ⟨S8x128x128, .i32⟩
  | 24 => ⟨S8x128x127, .i32⟩
  | 25 => ⟨S8x128x1, .i32⟩
  | 26 => ⟨S8x128x128, .i32⟩
  | 27 => ⟨S8x256x128x128, .f32⟩
  | 28 => ⟨S_, .f32⟩
  | 29 => ⟨S8x128x128, .f32⟩
  | 30 => ⟨S8x128x128, .f32⟩
  | 31 => ⟨S8x128x128, .f32⟩
  | 32 => ⟨S8x128x128, .i1⟩
  | 33 => ⟨S_, .i32⟩
  | 34 => ⟨S8x128x128, .i32⟩
  | 35 => ⟨S8x128x128, .i1⟩
  | 36 => ⟨S8x128x128, .i1⟩
  | 37 => ⟨S8x128x128, .f32⟩
  | 38 => ⟨S8x128x128, .f32⟩
  | 39 => ⟨S8x128x128, .f32⟩
  | 40 => ⟨S8x128x128, .f32⟩
  | 41 => ⟨S_, .f32⟩
  | 42 => ⟨S8, .f32⟩
  | 43 => ⟨S_, .f32⟩
  | 44 => ⟨S8, .f32⟩
  | 45 => ⟨S8, .f32⟩
  | 46 => ⟨S8, .f32⟩
  | 47 => ⟨S8, .f32⟩
  | 48 => ⟨S8x256x128x128, .f32⟩
  | 49 => ⟨S8x256x0x128, .f32⟩
  | 50 => ⟨S8x256x128x128, .f32⟩
  | 51 => ⟨S8x256x128x126, .f32⟩
  | 52 => ⟨S8x256x128x2, .f32⟩
  | 53 => ⟨S8x256x128x128, .f32⟩
  | 54 => ⟨S8x128x128, .f32⟩
  | 55 => ⟨S8x0x128, .f32⟩
  | 56 => ⟨S8x128x128, .f32⟩
  | 57 => ⟨S8x128x126, .f32⟩
  | 58 => ⟨S8x128x2, .f32⟩
  | 59 => ⟨S8x128x128, .f32⟩
  | 60 => ⟨S8x128x128, .i32⟩
  | 61 => ⟨S8x0x128, .i32⟩
  | 62 => ⟨S8x128x128, .i32⟩
  | 63 => ⟨S8x128x126, .i32⟩
  | 64 => ⟨S8x128x2, .i32⟩
  | 65 => ⟨S8x128x128, .i32⟩
  | 66 => ⟨S8x256x128x128, .f32⟩
  | 67 => ⟨S_, .f32⟩
  | 68 => ⟨S8x128x128, .f32⟩
  | 69 => ⟨S8x128x128, .f32⟩
  | 70 => ⟨S8x128x128, .f32⟩
  | 71 => ⟨S8x128x128, .i1⟩
  | 72 => ⟨S_, .i32⟩
  | 73 => ⟨S8x128x128, .i32⟩
  | 74 => ⟨S8x128x128, .i1⟩
  | 75 => ⟨S8x128x128, .i1⟩
  | 76 => ⟨S8x128x128, .f32⟩
  | 77 => ⟨S8x128x128, .f32⟩
  | 78 => ⟨S8x128x128, .f32⟩
  | 79 => ⟨S8x128x128, .f32⟩
  | 80 => ⟨S_, .f32⟩
  | 81 => ⟨S8, .f32⟩
  | 82 => ⟨S_, .f32⟩
  | 83 => ⟨S8, .f32⟩
  | 84 => ⟨S8, .f32⟩
  | 85 => ⟨S8, .f32⟩
  | 86 => ⟨S8, .f32⟩
  | 87 => ⟨S8x256x127x128, .f32⟩
  | 88 => ⟨S8x256x1x128, .f32⟩
  | 89 => ⟨S8x256x128x128, .f32⟩
  | 90 => ⟨S8x256x128x2, .f32⟩
  | 91 => ⟨S8x256x128x126, .f32⟩
  | 92 => ⟨S8x256x128x128, .f32⟩
  | 93 => ⟨S8x127x128, .f32⟩
  | 94 => ⟨S8x1x128, .f32⟩
  | 95 => ⟨S8x128x128, .f32⟩
  | 96 => ⟨S8x128x2, .f32⟩
  | 97 => ⟨S8x128x126, .f32⟩
  | 98 => ⟨S8x128x128, .f32⟩
  | 99 => ⟨S8x127x128, .i32⟩
  | 100 => ⟨S8x1x128, .i32⟩
  | 101 => ⟨S8x128x128, .i32⟩
  | 102 => ⟨S8x128x2, .i32⟩
  | 103 => ⟨S8x128x126, .i32⟩
  | 104 => ⟨S8x128x128, .i32⟩
  | 105 => ⟨S8x256x128x128, .f32⟩
  | 106 => ⟨S_, .f32⟩
  | 107 => ⟨S8x128x128, .f32⟩
  | 108 => ⟨S8x128x128, .f32⟩
  | 109 => ⟨S8x128x128, .f32⟩
  | 110 => ⟨S8x128x128, .i1⟩
  | 111 => ⟨S_, .i32⟩
  | 112 => ⟨S8x128x128, .i32⟩
  | 113 => ⟨S8x128x128, .i1⟩
  | 114 => ⟨S8x128x128, .i1⟩
  | 115 => ⟨S8x128x128, .f32⟩
  | 116 => ⟨S8x128x128, .f32⟩
  | 117 => ⟨S8x128x128, .f32⟩
  | 118 => ⟨S8x128x128, .f32⟩
  | 119 => ⟨S_, .f32⟩
  | 120 => ⟨S8, .f32⟩
  | 121 => ⟨S_, .f32⟩
  | 122 => ⟨S8, .f32⟩
  | 123 => ⟨S8, .f32⟩
  | 124 => ⟨S8, .f32⟩
  | 125 => ⟨S8, .f32⟩
  | 126 => ⟨S8x256x127x128, .f32⟩
  | 127 => ⟨S8x256x1x128, .f32⟩
  | _ => ⟨S8x256x128x128, .f32⟩

abbrev hbmTy0_5 (i : Nat) : BufTy := match i % 128 with
  | 0 => ⟨S8x256x128x128, .f32⟩
  | 1 => ⟨S8x256x128x1, .f32⟩
  | 2 => ⟨S8x256x128x127, .f32⟩
  | 3 => ⟨S8x256x128x128, .f32⟩
  | 4 => ⟨S8x127x128, .f32⟩
  | 5 => ⟨S8x1x128, .f32⟩
  | 6 => ⟨S8x128x128, .f32⟩
  | 7 => ⟨S8x128x1, .f32⟩
  | 8 => ⟨S8x128x127, .f32⟩
  | 9 => ⟨S8x128x128, .f32⟩
  | 10 => ⟨S8x127x128, .i32⟩
  | 11 => ⟨S8x1x128, .i32⟩
  | 12 => ⟨S8x128x128, .i32⟩
  | 13 => ⟨S8x128x1, .i32⟩
  | 14 => ⟨S8x128x127, .i32⟩
  | 15 => ⟨S8x128x128, .i32⟩
  | 16 => ⟨S8x256x128x128, .f32⟩
  | 17 => ⟨S_, .f32⟩
  | 18 => ⟨S8x128x128, .f32⟩
  | 19 => ⟨S8x128x128, .f32⟩
  | 20 => ⟨S8x128x128, .f32⟩
  | 21 => ⟨S8x128x128, .i1⟩
  | 22 => ⟨S_, .i32⟩
  | 23 => ⟨S8x128x128, .i32⟩
  | 24 => ⟨S8x128x128, .i1⟩
  | 25 => ⟨S8x128x128, .i1⟩
  | 26 => ⟨S8x128x128, .f32⟩
  | 27 => ⟨S8x128x128, .f32⟩
  | 28 => ⟨S8x128x128, .f32⟩
  | 29 => ⟨S8x128x128, .f32⟩
  | 30 => ⟨S_, .f32⟩
  | 31 => ⟨S8, .f32⟩
  | 32 => ⟨S_, .f32⟩
  | 33 => ⟨S8, .f32⟩
  | 34 => ⟨S8, .f32⟩
  | 35 => ⟨S8, .f32⟩
  | 36 => ⟨S8, .f32⟩
  | 37 => ⟨S8x256x127x128, .f32⟩
  | 38 => ⟨S8x256x1x128, .f32⟩
  | 39 => ⟨S8x256x128x128, .f32⟩
  | 40 => ⟨S8x256x128x128, .f32⟩
  | 41 => ⟨S8x256x128x0, .f32⟩
  | 42 => ⟨S8x256x128x128, .f32⟩
  | 43 => ⟨S8x127x128, .f32⟩
  | 44 => ⟨S8x1x128, .f32⟩
  | 45 => ⟨S8x128x128, .f32⟩
  | 46 => ⟨S8x128x128, .f32⟩
  | 47 => ⟨S8x128x0, .f32⟩
  | 48 => ⟨S8x128x128, .f32⟩
  | 49 => ⟨S8x127x128, .i32⟩
  | 50 => ⟨S8x1x128, .i32⟩
  | 51 => ⟨S8x128x128, .i32⟩
  | 52 => ⟨S8x128x128, .i32⟩
  | 53 => ⟨S8x128x0, .i32⟩
  | 54 => ⟨S8x128x128, .i32⟩
  | 55 => ⟨S8x256x128x128, .f32⟩
  | 56 => ⟨S_, .f32⟩
  | 57 => ⟨S8x128x128, .f32⟩
  | 58 => ⟨S8x128x128, .f32⟩
  | 59 => ⟨S8x128x128, .f32⟩
  | 60 => ⟨S8x128x128, .i1⟩
  | 61 => ⟨S_, .i32⟩
  | 62 => ⟨S8x128x128, .i32⟩
  | 63 => ⟨S8x128x128, .i1⟩
  | 64 => ⟨S8x128x128, .i1⟩
  | 65 => ⟨S8x128x128, .f32⟩
  | 66 => ⟨S8x128x128, .f32⟩
  | 67 => ⟨S8x128x128, .f32⟩
  | 68 => ⟨S8x128x128, .f32⟩
  | 69 => ⟨S_, .f32⟩
  | 70 => ⟨S8, .f32⟩
  | 71 => ⟨S_, .f32⟩
  | 72 => ⟨S8, .f32⟩
  | 73 => ⟨S8, .f32⟩
  | 74 => ⟨S8, .f32⟩
  | 75 => ⟨S8, .f32⟩
  | 76 => ⟨S8x256x127x128, .f32⟩
  | 77 => ⟨S8x256x1x128, .f32⟩
  | 78 => ⟨S8x256x128x128, .f32⟩
  | 79 => ⟨S8x256x128x127, .f32⟩
  | 80 => ⟨S8x256x128x1, .f32⟩
  | 81 => ⟨S8x256x128x128, .f32⟩
  | 82 => ⟨S8x127x128, .f32⟩
  | 83 => ⟨S8x1x128, .f32⟩
  | 84 => ⟨S8x128x128, .f32⟩
  | 85 => ⟨S8x128x127, .f32⟩
  | 86 => ⟨S8x128x1, .f32⟩
  | 87 => ⟨S8x128x128, .f32⟩
  | 88 => ⟨S8x127x128, .i32⟩
  | 89 => ⟨S8x1x128, .i32⟩
  | 90 => ⟨S8x128x128, .i32⟩
  | 91 => ⟨S8x128x127, .i32⟩
  | 92 => ⟨S8x128x1, .i32⟩
  | 93 => ⟨S8x128x128, .i32⟩
  | 94 => ⟨S8x256x128x128, .f32⟩
  | 95 => ⟨S_, .f32⟩
  | 96 => ⟨S8x128x128, .f32⟩
  | 97 => ⟨S8x128x128, .f32⟩
  | 98 => ⟨S8x128x128, .f32⟩
  | 99 => ⟨S8x128x128, .i1⟩
  | 100 => ⟨S_, .i32⟩
  | 101 => ⟨S8x128x128, .i32⟩
  | 102 => ⟨S8x128x128, .i1⟩
  | 103 => ⟨S8x128x128, .i1⟩
  | 104 => ⟨S8x128x128, .f32⟩
  | 105 => ⟨S8x128x128, .f32⟩
  | 106 => ⟨S8x128x128, .f32⟩
  | 107 => ⟨S8x128x128, .f32⟩
  | 108 => ⟨S_, .f32⟩
  | 109 => ⟨S8, .f32⟩
  | 110 => ⟨S_, .f32⟩
  | 111 => ⟨S8, .f32⟩
  | 112 => ⟨S8, .f32⟩
  | 113 => ⟨S8, .f32⟩
  | 114 => ⟨S8, .f32⟩
  | 115 => ⟨S8x256x127x128, .f32⟩
  | 116 => ⟨S8x256x1x128, .f32⟩
  | 117 => ⟨S8x256x128x128, .f32⟩
  | 118 => ⟨S8x256x128x126, .f32⟩
  | 119 => ⟨S8x256x128x2, .f32⟩
  | 120 => ⟨S8x256x128x128, .f32⟩
  | 121 => ⟨S8x127x128, .f32⟩
  | 122 => ⟨S8x1x128, .f32⟩
  | 123 => ⟨S8x128x128, .f32⟩
  | 124 => ⟨S8x128x126, .f32⟩
  | 125 => ⟨S8x128x2, .f32⟩
  | 126 => ⟨S8x128x128, .f32⟩
  | 127 => ⟨S8x127x128, .i32⟩
  | _ => ⟨S8x256x128x128, .f32⟩

abbrev hbmTy0_6 (i : Nat) : BufTy := match i % 128 with
  | 0 => ⟨S8x1x128, .i32⟩
  | 1 => ⟨S8x128x128, .i32⟩
  | 2 => ⟨S8x128x126, .i32⟩
  | 3 => ⟨S8x128x2, .i32⟩
  | 4 => ⟨S8x128x128, .i32⟩
  | 5 => ⟨S8x256x128x128, .f32⟩
  | 6 => ⟨S_, .f32⟩
  | 7 => ⟨S8x128x128, .f32⟩
  | 8 => ⟨S8x128x128, .f32⟩
  | 9 => ⟨S8x128x128, .f32⟩
  | 10 => ⟨S8x128x128, .i1⟩
  | 11 => ⟨S_, .i32⟩
  | 12 => ⟨S8x128x128, .i32⟩
  | 13 => ⟨S8x128x128, .i1⟩
  | 14 => ⟨S8x128x128, .i1⟩
  | 15 => ⟨S8x128x128, .f32⟩
  | 16 => ⟨S8x128x128, .f32⟩
  | 17 => ⟨S8x128x128, .f32⟩
  | 18 => ⟨S8x128x128, .f32⟩
  | 19 => ⟨S_, .f32⟩
  | 20 => ⟨S8, .f32⟩
  | 21 => ⟨S_, .f32⟩
  | 22 => ⟨S8, .f32⟩
  | 23 => ⟨S8, .f32⟩
  | 24 => ⟨S8, .f32⟩
  | 25 => ⟨S8, .f32⟩
  | 26 => ⟨S8x256x126x128, .f32⟩
  | 27 => ⟨S8x256x2x128, .f32⟩
  | 28 => ⟨S8x256x128x128, .f32⟩
  | 29 => ⟨S8x256x128x2, .f32⟩
  | 30 => ⟨S8x256x128x126, .f32⟩
  | 31 => ⟨S8x256x128x128, .f32⟩
  | 32 => ⟨S8x126x128, .f32⟩
  | 33 => ⟨S8x2x128, .f32⟩
  | 34 => ⟨S8x128x128, .f32⟩
  | 35 => ⟨S8x128x2, .f32⟩
  | 36 => ⟨S8x128x126, .f32⟩
  | 37 => ⟨S8x128x128, .f32⟩
  | 38 => ⟨S8x126x128, .i32⟩
  | 39 => ⟨S8x2x128, .i32⟩
  | 40 => ⟨S8x128x128, .i32⟩
  | 41 => ⟨S8x128x2, .i32⟩
  | 42 => ⟨S8x128x126, .i32⟩
  | 43 => ⟨S8x128x128, .i32⟩
  | 44 => ⟨S8x256x128x128, .f32⟩
  | 45 => ⟨S_, .f32⟩
  | 46 => ⟨S8x128x128, .f32⟩
  | 47 => ⟨S8x128x128, .f32⟩
  | 48 => ⟨S8x128x128, .f32⟩
  | 49 => ⟨S8x128x128, .i1⟩
  | 50 => ⟨S_, .i32⟩
  | 51 => ⟨S8x128x128, .i32⟩
  | 52 => ⟨S8x128x128, .i1⟩
  | 53 => ⟨S8x128x128, .i1⟩
  | 54 => ⟨S8x128x128, .f32⟩
  | 55 => ⟨S8x128x128, .f32⟩
  | 56 => ⟨S8x128x128, .f32⟩
  | 57 => ⟨S8x128x128, .f32⟩
  | 58 => ⟨S_, .f32⟩
  | 59 => ⟨S8, .f32⟩
  | 60 => ⟨S_, .f32⟩
  | 61 => ⟨S8, .f32⟩
  | 62 => ⟨S8, .f32⟩
  | 63 => ⟨S8, .f32⟩
  | 64 => ⟨S8, .f32⟩
  | 65 => ⟨S8x256x126x128, .f32⟩
  | 66 => ⟨S8x256x2x128, .f32⟩
  | 67 => ⟨S8x256x128x128, .f32⟩
  | 68 => ⟨S8x256x128x1, .f32⟩
  | 69 => ⟨S8x256x128x127, .f32⟩
  | 70 => ⟨S8x256x128x128, .f32⟩
  | 71 => ⟨S8x126x128, .f32⟩
  | 72 => ⟨S8x2x128, .f32⟩
  | 73 => ⟨S8x128x128, .f32⟩
  | 74 => ⟨S8x128x1, .f32⟩
  | 75 => ⟨S8x128x127, .f32⟩
  | 76 => ⟨S8x128x128, .f32⟩
  | 77 => ⟨S8x126x128, .i32⟩
  | 78 => ⟨S8x2x128, .i32⟩
  | 79 => ⟨S8x128x128, .i32⟩
  | 80 => ⟨S8x128x1, .i32⟩
  | 81 => ⟨S8x128x127, .i32⟩
  | 82 => ⟨S8x128x128, .i32⟩
  | 83 => ⟨S8x256x128x128, .f32⟩
  | 84 => ⟨S_, .f32⟩
  | 85 => ⟨S8x128x128, .f32⟩
  | 86 => ⟨S8x128x128, .f32⟩
  | 87 => ⟨S8x128x128, .f32⟩
  | 88 => ⟨S8x128x128, .i1⟩
  | 89 => ⟨S_, .i32⟩
  | 90 => ⟨S8x128x128, .i32⟩
  | 91 => ⟨S8x128x128, .i1⟩
  | 92 => ⟨S8x128x128, .i1⟩
  | 93 => ⟨S8x128x128, .f32⟩
  | 94 => ⟨S8x128x128, .f32⟩
  | 95 => ⟨S8x128x128, .f32⟩
  | 96 => ⟨S8x128x128, .f32⟩
  | 97 => ⟨S_, .f32⟩
  | 98 => ⟨S8, .f32⟩
  | 99 => ⟨S_, .f32⟩
  | 100 => ⟨S8, .f32⟩
  | 101 => ⟨S8, .f32⟩
  | 102 => ⟨S8, .f32⟩
  | 103 => ⟨S8, .f32⟩
  | 104 => ⟨S8x256x126x128, .f32⟩
  | 105 => ⟨S8x256x2x128, .f32⟩
  | 106 => ⟨S8x256x128x128, .f32⟩
  | 107 => ⟨S8x256x128x128, .f32⟩
  | 108 => ⟨S8x256x128x0, .f32⟩
  | 109 => ⟨S8x256x128x128, .f32⟩
  | 110 => ⟨S8x126x128, .f32⟩
  | 111 => ⟨S8x2x128, .f32⟩
  | 112 => ⟨S8x128x128, .f32⟩
  | 113 => ⟨S8x128x128, .f32⟩
  | 114 => ⟨S8x128x0, .f32⟩
  | 115 => ⟨S8x128x128, .f32⟩
  | 116 => ⟨S8x126x128, .i32⟩
  | 117 => ⟨S8x2x128, .i32⟩
  | 118 => ⟨S8x128x128, .i32⟩
  | 119 => ⟨S8x128x128, .i32⟩
  | 120 => ⟨S8x128x0, .i32⟩
  | 121 => ⟨S8x128x128, .i32⟩
  | 122 => ⟨S8x256x128x128, .f32⟩
  | 123 => ⟨S_, .f32⟩
  | 124 => ⟨S8x128x128, .f32⟩
  | 125 => ⟨S8x128x128, .f32⟩
  | 126 => ⟨S8x128x128, .f32⟩
  | 127 => ⟨S8x128x128, .i1⟩
  | _ => ⟨S8x256x128x128, .f32⟩

abbrev hbmTy0_7 (i : Nat) : BufTy := match i % 128 with
  | 0 => ⟨S_, .i32⟩
  | 1 => ⟨S8x128x128, .i32⟩
  | 2 => ⟨S8x128x128, .i1⟩
  | 3 => ⟨S8x128x128, .i1⟩
  | 4 => ⟨S8x128x128, .f32⟩
  | 5 => ⟨S8x128x128, .f32⟩
  | 6 => ⟨S8x128x128, .f32⟩
  | 7 => ⟨S8x128x128, .f32⟩
  | 8 => ⟨S_, .f32⟩
  | 9 => ⟨S8, .f32⟩
  | 10 => ⟨S_, .f32⟩
  | 11 => ⟨S8, .f32⟩
  | 12 => ⟨S8, .f32⟩
  | 13 => ⟨S8, .f32⟩
  | 14 => ⟨S8, .f32⟩
  | 15 => ⟨S8x256x126x128, .f32⟩
  | 16 => ⟨S8x256x2x128, .f32⟩
  | 17 => ⟨S8x256x128x128, .f32⟩
  | 18 => ⟨S8x256x128x127, .f32⟩
  | 19 => ⟨S8x256x128x1, .f32⟩
  | 20 => ⟨S8x256x128x128, .f32⟩
  | 21 => ⟨S8x126x128, .f32⟩
  | 22 => ⟨S8x2x128, .f32⟩
  | 23 => ⟨S8x128x128, .f32⟩
  | 24 => ⟨S8x128x127, .f32⟩
  | 25 => ⟨S8x128x1, .f32⟩
  | 26 => ⟨S8x128x128, .f32⟩
  | 27 => ⟨S8x126x128, .i32⟩
  | 28 => ⟨S8x2x128, .i32⟩
  | 29 => ⟨S8x128x128, .i32⟩
  | 30 => ⟨S8x128x127, .i32⟩
  | 31 => ⟨S8x128x1, .i32⟩
  | 32 => ⟨S8x128x128, .i32⟩
  | 33 => ⟨S8x256x128x128, .f32⟩
  | 34 => ⟨S_, .f32⟩
  | 35 => ⟨S8x128x128, .f32⟩
  | 36 => ⟨S8x128x128, .f32⟩
  | 37 => ⟨S8x128x128, .f32⟩
  | 38 => ⟨S8x128x128, .i1⟩
  | 39 => ⟨S_, .i32⟩
  | 40 => ⟨S8x128x128, .i32⟩
  | 41 => ⟨S8x128x128, .i1⟩
  | 42 => ⟨S8x128x128, .i1⟩
  | 43 => ⟨S8x128x128, .f32⟩
  | 44 => ⟨S8x128x128, .f32⟩
  | 45 => ⟨S8x128x128, .f32⟩
  | 46 => ⟨S8x128x128, .f32⟩
  | 47 => ⟨S_, .f32⟩
  | 48 => ⟨S8, .f32⟩
  | 49 => ⟨S_, .f32⟩
  | 50 => ⟨S8, .f32⟩
  | 51 => ⟨S8, .f32⟩
  | 52 => ⟨S8, .f32⟩
  | 53 => ⟨S8, .f32⟩
  | 54 => ⟨S8x256x126x128, .f32⟩
  | 55 => ⟨S8x256x2x128, .f32⟩
  | 56 => ⟨S8x256x128x128, .f32⟩
  | 57 => ⟨S8x256x128x126, .f32⟩
  | 58 => ⟨S8x256x128x2, .f32⟩
  | 59 => ⟨S8x256x128x128, .f32⟩
  | 60 => ⟨S8x126x128, .f32⟩
  | 61 => ⟨S8x2x128, .f32⟩
  | 62 => ⟨S8x128x128, .f32⟩
  | 63 => ⟨S8x128x126, .f32⟩
  | 64 => ⟨S8x128x2, .f32⟩
  | 65 => ⟨S8x128x128, .f32⟩
  | 66 => ⟨S8x126x128, .i32⟩
  | 67 => ⟨S8x2x128, .i32⟩
  | 68 => ⟨S8x128x128, .i32⟩
  | 69 => ⟨S8x128x126, .i32⟩
  | 70 => ⟨S8x128x2, .i32⟩
  | 71 => ⟨S8x128x128, .i32⟩
  | 72 => ⟨S8x256x128x128, .f32⟩
  | 73 => ⟨S_, .f32⟩
  | 74 => ⟨S8x128x128, .f32⟩
  | 75 => ⟨S8x128x128, .f32⟩
  | 76 => ⟨S8x128x128, .f32⟩
  | 77 => ⟨S8x128x128, .i1⟩
  | 78 => ⟨S_, .i32⟩
  | 79 => ⟨S8x128x128, .i32⟩
  | 80 => ⟨S8x128x128, .i1⟩
  | 81 => ⟨S8x128x128, .i1⟩
  | 82 => ⟨S8x128x128, .f32⟩
  | 83 => ⟨S8x128x128, .f32⟩
  | 84 => ⟨S8x128x128, .f32⟩
  | 85 => ⟨S8x128x128, .f32⟩
  | 86 => ⟨S_, .f32⟩
  | 87 => ⟨S8, .f32⟩
  | 88 => ⟨S_, .f32⟩
  | 89 => ⟨S8, .f32⟩
  | 90 => ⟨S8, .f32⟩
  | 91 => ⟨S8, .f32⟩
  | 92 => ⟨S8, .f32⟩
  | 93 => ⟨S_, .f32⟩
  | 94 => ⟨S8, .f32⟩
  | 95 => ⟨S8, .f32⟩
  | 96 => ⟨S8, .i32⟩
  | 97 => ⟨S_, .i32⟩
  | 98 => ⟨S_, .i32⟩
  | 99 => ⟨S_, .i32⟩
  | 100 => ⟨S_, .i32⟩
  | 101 => ⟨S8, .f32⟩
  | 102 => ⟨S8, .f32⟩
  | 103 => ⟨S_, .f32⟩
  | 104 => ⟨S_, .f32⟩
  | 105 => ⟨S_, .f32⟩
  | 106 => ⟨S_, .f32⟩
  | _ => ⟨S8x256x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_c_7 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_8 : Ref sig .tc := ⟨.hbm, 34, rfl⟩
abbrev main_v18 : Ref sig .tc := ⟨.hbm, 35, rfl⟩
abbrev main_v19 : Ref sig .tc := ⟨.hbm, 36, rfl⟩
abbrev main_c_9 : Ref sig .tc := ⟨.hbm, 37, rfl⟩
abbrev main_v20 : Ref sig .tc := ⟨.hbm, 38, rfl⟩
abbrev main_v21 : Ref sig .tc := ⟨.hbm, 39, rfl⟩
abbrev main_c_10 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_cst_11 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_12 : Ref sig .tc := ⟨.hbm, 51, rfl⟩
abbrev main_v30 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v31 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v32 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_v33 : Ref sig .tc := ⟨.hbm, 70, rfl⟩
abbrev main_v34 : Ref sig .tc := ⟨.hbm, 71, rfl⟩
abbrev main_cst_13 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_14 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_15 : Ref sig .tc := ⟨.hbm, 85, rfl⟩
abbrev main_v46 : Ref sig .tc := ⟨.hbm, 86, rfl⟩
abbrev main_cst_16 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_v51 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_v52 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_v53 : Ref sig .tc := ⟨.hbm, 109, rfl⟩
abbrev main_v54 : Ref sig .tc := ⟨.hbm, 110, rfl⟩
abbrev main_cst_17 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_18 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_cst_19 : Ref sig .tc := ⟨.hbm, 124, rfl⟩
abbrev main_v66 : Ref sig .tc := ⟨.hbm, 125, rfl⟩
abbrev main_cst_20 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_call8_v0 : Ref sig .tc := ⟨.hbm, 131, rfl⟩
abbrev main_call8_v1 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_v71 : Ref sig .tc := ⟨.hbm, 136, rfl⟩
abbrev main_call9_v0 : Ref sig .tc := ⟨.hbm, 137, rfl⟩
abbrev main_call9_v1 : Ref sig .tc := ⟨.hbm, 138, rfl⟩
abbrev main_call9_v2 : Ref sig .tc := ⟨.hbm, 139, rfl⟩
abbrev main_call9_v3 : Ref sig .tc := ⟨.hbm, 140, rfl⟩
abbrev main_call9_v4 : Ref sig .tc := ⟨.hbm, 141, rfl⟩
abbrev main_v72 : Ref sig .tc := ⟨.hbm, 142, rfl⟩
abbrev main_call10_v0 : Ref sig .tc := ⟨.hbm, 143, rfl⟩
abbrev main_call10_v1 : Ref sig .tc := ⟨.hbm, 144, rfl⟩
abbrev main_call10_v2 : Ref sig .tc := ⟨.hbm, 145, rfl⟩
abbrev main_call10_v3 : Ref sig .tc := ⟨.hbm, 146, rfl⟩
abbrev main_call10_v4 : Ref sig .tc := ⟨.hbm, 147, rfl⟩
abbrev main_v73 : Ref sig .tc := ⟨.hbm, 148, rfl⟩
abbrev main_v74 : Ref sig .tc := ⟨.hbm, 149, rfl⟩
abbrev main_cst_21 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_c_22 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_23 : Ref sig .tc := ⟨.hbm, 163, rfl⟩
abbrev main_v86 : Ref sig .tc := ⟨.hbm, 164, rfl⟩
abbrev main_cst_24 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_call11_v0 : Ref sig .tc := ⟨.hbm, 170, rfl⟩
abbrev main_call11_v1 : Ref sig .tc := ⟨.hbm, 171, rfl⟩
abbrev main_call11_v2 : Ref sig .tc := ⟨.hbm, 172, rfl⟩
abbrev main_call11_v3 : Ref sig .tc := ⟨.hbm, 173, rfl⟩
abbrev main_call11_v4 : Ref sig .tc := ⟨.hbm, 174, rfl⟩
abbrev main_v91 : Ref sig .tc := ⟨.hbm, 175, rfl⟩
abbrev main_call12_v0 : Ref sig .tc := ⟨.hbm, 176, rfl⟩
abbrev main_call12_v1 : Ref sig .tc := ⟨.hbm, 177, rfl⟩
abbrev main_call12_v2 : Ref sig .tc := ⟨.hbm, 178, rfl⟩
abbrev main_call12_v3 : Ref sig .tc := ⟨.hbm, 179, rfl⟩
abbrev main_call12_v4 : Ref sig .tc := ⟨.hbm, 180, rfl⟩
abbrev main_v92 : Ref sig .tc := ⟨.hbm, 181, rfl⟩
abbrev main_call13_v0 : Ref sig .tc := ⟨.hbm, 182, rfl⟩
abbrev main_call13_v1 : Ref sig .tc := ⟨.hbm, 183, rfl⟩
abbrev main_call13_v2 : Ref sig .tc := ⟨.hbm, 184, rfl⟩
abbrev main_call13_v3 : Ref sig .tc := ⟨.hbm, 185, rfl⟩
abbrev main_call13_v4 : Ref sig .tc := ⟨.hbm, 186, rfl⟩
abbrev main_v93 : Ref sig .tc := ⟨.hbm, 187, rfl⟩
abbrev main_v94 : Ref sig .tc := ⟨.hbm, 188, rfl⟩
abbrev main_cst_25 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_c_26 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_cst_27 : Ref sig .tc := ⟨.hbm, 202, rfl⟩
abbrev main_v106 : Ref sig .tc := ⟨.hbm, 203, rfl⟩
abbrev main_cst_28 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_call14_v0 : Ref sig .tc := ⟨.hbm, 209, rfl⟩
abbrev main_call14_v1 : Ref sig .tc := ⟨.hbm, 210, rfl⟩
abbrev main_call14_v2 : Ref sig .tc := ⟨.hbm, 211, rfl⟩
abbrev main_call14_v3 : Ref sig .tc := ⟨.hbm, 212, rfl⟩
abbrev main_call14_v4 : Ref sig .tc := ⟨.hbm, 213, rfl⟩
abbrev main_v111 : Ref sig .tc := ⟨.hbm, 214, rfl⟩
abbrev main_call15_v0 : Ref sig .tc := ⟨.hbm, 215, rfl⟩
abbrev main_call15_v1 : Ref sig .tc := ⟨.hbm, 216, rfl⟩
abbrev main_call15_v2 : Ref sig .tc := ⟨.hbm, 217, rfl⟩
abbrev main_call15_v3 : Ref sig .tc := ⟨.hbm, 218, rfl⟩
abbrev main_call15_v4 : Ref sig .tc := ⟨.hbm, 219, rfl⟩
abbrev main_v112 : Ref sig .tc := ⟨.hbm, 220, rfl⟩
abbrev main_call16_v0 : Ref sig .tc := ⟨.hbm, 221, rfl⟩
abbrev main_call16_v1 : Ref sig .tc := ⟨.hbm, 222, rfl⟩
abbrev main_call16_v2 : Ref sig .tc := ⟨.hbm, 223, rfl⟩
abbrev main_call16_v3 : Ref sig .tc := ⟨.hbm, 224, rfl⟩
abbrev main_call16_v4 : Ref sig .tc := ⟨.hbm, 225, rfl⟩
abbrev main_v113 : Ref sig .tc := ⟨.hbm, 226, rfl⟩
abbrev main_v114 : Ref sig .tc := ⟨.hbm, 227, rfl⟩
abbrev main_cst_29 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_c_30 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_cst_31 : Ref sig .tc := ⟨.hbm, 241, rfl⟩
abbrev main_v126 : Ref sig .tc := ⟨.hbm, 242, rfl⟩
abbrev main_cst_32 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_call17_v0 : Ref sig .tc := ⟨.hbm, 248, rfl⟩
abbrev main_call17_v1 : Ref sig .tc := ⟨.hbm, 249, rfl⟩
abbrev main_call17_v2 : Ref sig .tc := ⟨.hbm, 250, rfl⟩
abbrev main_call17_v3 : Ref sig .tc := ⟨.hbm, 251, rfl⟩
abbrev main_call17_v4 : Ref sig .tc := ⟨.hbm, 252, rfl⟩
abbrev main_v131 : Ref sig .tc := ⟨.hbm, 253, rfl⟩
abbrev main_call18_v0 : Ref sig .tc := ⟨.hbm, 254, rfl⟩
abbrev main_call18_v1 : Ref sig .tc := ⟨.hbm, 255, rfl⟩
abbrev main_call18_v2 : Ref sig .tc := ⟨.hbm, 256, rfl⟩
abbrev main_call18_v3 : Ref sig .tc := ⟨.hbm, 257, rfl⟩
abbrev main_call18_v4 : Ref sig .tc := ⟨.hbm, 258, rfl⟩
abbrev main_v132 : Ref sig .tc := ⟨.hbm, 259, rfl⟩
abbrev main_call19_v0 : Ref sig .tc := ⟨.hbm, 260, rfl⟩
abbrev main_call19_v1 : Ref sig .tc := ⟨.hbm, 261, rfl⟩
abbrev main_call19_v2 : Ref sig .tc := ⟨.hbm, 262, rfl⟩
abbrev main_call19_v3 : Ref sig .tc := ⟨.hbm, 263, rfl⟩
abbrev main_call19_v4 : Ref sig .tc := ⟨.hbm, 264, rfl⟩
abbrev main_v133 : Ref sig .tc := ⟨.hbm, 265, rfl⟩
abbrev main_v134 : Ref sig .tc := ⟨.hbm, 266, rfl⟩
abbrev main_cst_33 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_c_34 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_cst_35 : Ref sig .tc := ⟨.hbm, 280, rfl⟩
abbrev main_v146 : Ref sig .tc := ⟨.hbm, 281, rfl⟩
abbrev main_cst_36 : Ref sig .tc := ⟨.hbm, 282, rfl⟩
abbrev main_v147 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_call20_v0 : Ref sig .tc := ⟨.hbm, 287, rfl⟩
abbrev main_call20_v1 : Ref sig .tc := ⟨.hbm, 288, rfl⟩
abbrev main_call20_v2 : Ref sig .tc := ⟨.hbm, 289, rfl⟩
abbrev main_call20_v3 : Ref sig .tc := ⟨.hbm, 290, rfl⟩
abbrev main_call20_v4 : Ref sig .tc := ⟨.hbm, 291, rfl⟩
abbrev main_v151 : Ref sig .tc := ⟨.hbm, 292, rfl⟩
abbrev main_call21_v0 : Ref sig .tc := ⟨.hbm, 293, rfl⟩
abbrev main_call21_v1 : Ref sig .tc := ⟨.hbm, 294, rfl⟩
abbrev main_call21_v2 : Ref sig .tc := ⟨.hbm, 295, rfl⟩
abbrev main_call21_v3 : Ref sig .tc := ⟨.hbm, 296, rfl⟩
abbrev main_call21_v4 : Ref sig .tc := ⟨.hbm, 297, rfl⟩
abbrev main_v152 : Ref sig .tc := ⟨.hbm, 298, rfl⟩
abbrev main_call22_v0 : Ref sig .tc := ⟨.hbm, 299, rfl⟩
abbrev main_call22_v1 : Ref sig .tc := ⟨.hbm, 300, rfl⟩
abbrev main_call22_v2 : Ref sig .tc := ⟨.hbm, 301, rfl⟩
abbrev main_call22_v3 : Ref sig .tc := ⟨.hbm, 302, rfl⟩
abbrev main_call22_v4 : Ref sig .tc := ⟨.hbm, 303, rfl⟩
abbrev main_v153 : Ref sig .tc := ⟨.hbm, 304, rfl⟩
abbrev main_v154 : Ref sig .tc := ⟨.hbm, 305, rfl⟩
abbrev main_cst_37 : Ref sig .tc := ⟨.hbm, 306, rfl⟩
abbrev main_v155 : Ref sig .tc := ⟨.hbm, 307, rfl⟩
abbrev main_v156 : Ref sig .tc := ⟨.hbm, 308, rfl⟩
abbrev main_v157 : Ref sig .tc := ⟨.hbm, 309, rfl⟩
abbrev main_v158 : Ref sig .tc := ⟨.hbm, 310, rfl⟩
abbrev main_c_38 : Ref sig .tc := ⟨.hbm, 311, rfl⟩
abbrev main_v159 : Ref sig .tc := ⟨.hbm, 312, rfl⟩
abbrev main_v160 : Ref sig .tc := ⟨.hbm, 313, rfl⟩
abbrev main_v161 : Ref sig .tc := ⟨.hbm, 314, rfl⟩
abbrev main_v162 : Ref sig .tc := ⟨.hbm, 315, rfl⟩
abbrev main_v163 : Ref sig .tc := ⟨.hbm, 316, rfl⟩
abbrev main_v164 : Ref sig .tc := ⟨.hbm, 317, rfl⟩
abbrev main_v165 : Ref sig .tc := ⟨.hbm, 318, rfl⟩
abbrev main_cst_39 : Ref sig .tc := ⟨.hbm, 319, rfl⟩
abbrev main_v166 : Ref sig .tc := ⟨.hbm, 320, rfl⟩
abbrev main_cst_40 : Ref sig .tc := ⟨.hbm, 321, rfl⟩
abbrev main_v167 : Ref sig .tc := ⟨.hbm, 322, rfl⟩
abbrev main_v168 : Ref sig .tc := ⟨.hbm, 323, rfl⟩
abbrev main_v169 : Ref sig .tc := ⟨.hbm, 324, rfl⟩
abbrev main_v170 : Ref sig .tc := ⟨.hbm, 325, rfl⟩
abbrev main_call23_v0 : Ref sig .tc := ⟨.hbm, 326, rfl⟩
abbrev main_call23_v1 : Ref sig .tc := ⟨.hbm, 327, rfl⟩
abbrev main_call23_v2 : Ref sig .tc := ⟨.hbm, 328, rfl⟩
abbrev main_call23_v3 : Ref sig .tc := ⟨.hbm, 329, rfl⟩
abbrev main_call23_v4 : Ref sig .tc := ⟨.hbm, 330, rfl⟩
abbrev main_v171 : Ref sig .tc := ⟨.hbm, 331, rfl⟩
abbrev main_call24_v0 : Ref sig .tc := ⟨.hbm, 332, rfl⟩
abbrev main_call24_v1 : Ref sig .tc := ⟨.hbm, 333, rfl⟩
abbrev main_call24_v2 : Ref sig .tc := ⟨.hbm, 334, rfl⟩
abbrev main_call24_v3 : Ref sig .tc := ⟨.hbm, 335, rfl⟩
abbrev main_call24_v4 : Ref sig .tc := ⟨.hbm, 336, rfl⟩
abbrev main_v172 : Ref sig .tc := ⟨.hbm, 337, rfl⟩
abbrev main_call25_v0 : Ref sig .tc := ⟨.hbm, 338, rfl⟩
abbrev main_call25_v1 : Ref sig .tc := ⟨.hbm, 339, rfl⟩
abbrev main_call25_v2 : Ref sig .tc := ⟨.hbm, 340, rfl⟩
abbrev main_call25_v3 : Ref sig .tc := ⟨.hbm, 341, rfl⟩
abbrev main_call25_v4 : Ref sig .tc := ⟨.hbm, 342, rfl⟩
abbrev main_v173 : Ref sig .tc := ⟨.hbm, 343, rfl⟩
abbrev main_v174 : Ref sig .tc := ⟨.hbm, 344, rfl⟩
abbrev main_cst_41 : Ref sig .tc := ⟨.hbm, 345, rfl⟩
abbrev main_v175 : Ref sig .tc := ⟨.hbm, 346, rfl⟩
abbrev main_v176 : Ref sig .tc := ⟨.hbm, 347, rfl⟩
abbrev main_v177 : Ref sig .tc := ⟨.hbm, 348, rfl⟩
abbrev main_v178 : Ref sig .tc := ⟨.hbm, 349, rfl⟩
abbrev main_c_42 : Ref sig .tc := ⟨.hbm, 350, rfl⟩
abbrev main_v179 : Ref sig .tc := ⟨.hbm, 351, rfl⟩
abbrev main_v180 : Ref sig .tc := ⟨.hbm, 352, rfl⟩
abbrev main_v181 : Ref sig .tc := ⟨.hbm, 353, rfl⟩
abbrev main_v182 : Ref sig .tc := ⟨.hbm, 354, rfl⟩
abbrev main_v183 : Ref sig .tc := ⟨.hbm, 355, rfl⟩
abbrev main_v184 : Ref sig .tc := ⟨.hbm, 356, rfl⟩
abbrev main_v185 : Ref sig .tc := ⟨.hbm, 357, rfl⟩
abbrev main_cst_43 : Ref sig .tc := ⟨.hbm, 358, rfl⟩
abbrev main_v186 : Ref sig .tc := ⟨.hbm, 359, rfl⟩
abbrev main_cst_44 : Ref sig .tc := ⟨.hbm, 360, rfl⟩
abbrev main_v187 : Ref sig .tc := ⟨.hbm, 361, rfl⟩
abbrev main_v188 : Ref sig .tc := ⟨.hbm, 362, rfl⟩
abbrev main_v189 : Ref sig .tc := ⟨.hbm, 363, rfl⟩
abbrev main_v190 : Ref sig .tc := ⟨.hbm, 364, rfl⟩
abbrev main_call26_v0 : Ref sig .tc := ⟨.hbm, 365, rfl⟩
abbrev main_call26_v1 : Ref sig .tc := ⟨.hbm, 366, rfl⟩
abbrev main_call26_v2 : Ref sig .tc := ⟨.hbm, 367, rfl⟩
abbrev main_call26_v3 : Ref sig .tc := ⟨.hbm, 368, rfl⟩
abbrev main_call26_v4 : Ref sig .tc := ⟨.hbm, 369, rfl⟩
abbrev main_v191 : Ref sig .tc := ⟨.hbm, 370, rfl⟩
abbrev main_call27_v0 : Ref sig .tc := ⟨.hbm, 371, rfl⟩
abbrev main_call27_v1 : Ref sig .tc := ⟨.hbm, 372, rfl⟩
abbrev main_call27_v2 : Ref sig .tc := ⟨.hbm, 373, rfl⟩
abbrev main_call27_v3 : Ref sig .tc := ⟨.hbm, 374, rfl⟩
abbrev main_call27_v4 : Ref sig .tc := ⟨.hbm, 375, rfl⟩
abbrev main_v192 : Ref sig .tc := ⟨.hbm, 376, rfl⟩
abbrev main_call28_v0 : Ref sig .tc := ⟨.hbm, 377, rfl⟩
abbrev main_call28_v1 : Ref sig .tc := ⟨.hbm, 378, rfl⟩
abbrev main_call28_v2 : Ref sig .tc := ⟨.hbm, 379, rfl⟩
abbrev main_call28_v3 : Ref sig .tc := ⟨.hbm, 380, rfl⟩
abbrev main_call28_v4 : Ref sig .tc := ⟨.hbm, 381, rfl⟩
abbrev main_v193 : Ref sig .tc := ⟨.hbm, 382, rfl⟩
abbrev main_v194 : Ref sig .tc := ⟨.hbm, 383, rfl⟩
abbrev main_cst_45 : Ref sig .tc := ⟨.hbm, 384, rfl⟩
abbrev main_v195 : Ref sig .tc := ⟨.hbm, 385, rfl⟩
abbrev main_v196 : Ref sig .tc := ⟨.hbm, 386, rfl⟩
abbrev main_v197 : Ref sig .tc := ⟨.hbm, 387, rfl⟩
abbrev main_v198 : Ref sig .tc := ⟨.hbm, 388, rfl⟩
abbrev main_c_46 : Ref sig .tc := ⟨.hbm, 389, rfl⟩
abbrev main_v199 : Ref sig .tc := ⟨.hbm, 390, rfl⟩
abbrev main_v200 : Ref sig .tc := ⟨.hbm, 391, rfl⟩
abbrev main_v201 : Ref sig .tc := ⟨.hbm, 392, rfl⟩
abbrev main_v202 : Ref sig .tc := ⟨.hbm, 393, rfl⟩
abbrev main_v203 : Ref sig .tc := ⟨.hbm, 394, rfl⟩
abbrev main_v204 : Ref sig .tc := ⟨.hbm, 395, rfl⟩
abbrev main_v205 : Ref sig .tc := ⟨.hbm, 396, rfl⟩
abbrev main_cst_47 : Ref sig .tc := ⟨.hbm, 397, rfl⟩
abbrev main_v206 : Ref sig .tc := ⟨.hbm, 398, rfl⟩
abbrev main_cst_48 : Ref sig .tc := ⟨.hbm, 399, rfl⟩
abbrev main_v207 : Ref sig .tc := ⟨.hbm, 400, rfl⟩
abbrev main_v208 : Ref sig .tc := ⟨.hbm, 401, rfl⟩
abbrev main_v209 : Ref sig .tc := ⟨.hbm, 402, rfl⟩
abbrev main_v210 : Ref sig .tc := ⟨.hbm, 403, rfl⟩
abbrev main_call29_v0 : Ref sig .tc := ⟨.hbm, 404, rfl⟩
abbrev main_call29_v1 : Ref sig .tc := ⟨.hbm, 405, rfl⟩
abbrev main_call29_v2 : Ref sig .tc := ⟨.hbm, 406, rfl⟩
abbrev main_call29_v3 : Ref sig .tc := ⟨.hbm, 407, rfl⟩
abbrev main_call29_v4 : Ref sig .tc := ⟨.hbm, 408, rfl⟩
abbrev main_v211 : Ref sig .tc := ⟨.hbm, 409, rfl⟩
abbrev main_call30_v0 : Ref sig .tc := ⟨.hbm, 410, rfl⟩
abbrev main_call30_v1 : Ref sig .tc := ⟨.hbm, 411, rfl⟩
abbrev main_call30_v2 : Ref sig .tc := ⟨.hbm, 412, rfl⟩
abbrev main_call30_v3 : Ref sig .tc := ⟨.hbm, 413, rfl⟩
abbrev main_call30_v4 : Ref sig .tc := ⟨.hbm, 414, rfl⟩
abbrev main_v212 : Ref sig .tc := ⟨.hbm, 415, rfl⟩
abbrev main_call31_v0 : Ref sig .tc := ⟨.hbm, 416, rfl⟩
abbrev main_call31_v1 : Ref sig .tc := ⟨.hbm, 417, rfl⟩
abbrev main_call31_v2 : Ref sig .tc := ⟨.hbm, 418, rfl⟩
abbrev main_call31_v3 : Ref sig .tc := ⟨.hbm, 419, rfl⟩
abbrev main_call31_v4 : Ref sig .tc := ⟨.hbm, 420, rfl⟩
abbrev main_v213 : Ref sig .tc := ⟨.hbm, 421, rfl⟩
abbrev main_v214 : Ref sig .tc := ⟨.hbm, 422, rfl⟩
abbrev main_cst_49 : Ref sig .tc := ⟨.hbm, 423, rfl⟩
abbrev main_v215 : Ref sig .tc := ⟨.hbm, 424, rfl⟩
abbrev main_v216 : Ref sig .tc := ⟨.hbm, 425, rfl⟩
abbrev main_v217 : Ref sig .tc := ⟨.hbm, 426, rfl⟩
abbrev main_v218 : Ref sig .tc := ⟨.hbm, 427, rfl⟩
abbrev main_c_50 : Ref sig .tc := ⟨.hbm, 428, rfl⟩
abbrev main_v219 : Ref sig .tc := ⟨.hbm, 429, rfl⟩
abbrev main_v220 : Ref sig .tc := ⟨.hbm, 430, rfl⟩
abbrev main_v221 : Ref sig .tc := ⟨.hbm, 431, rfl⟩
abbrev main_v222 : Ref sig .tc := ⟨.hbm, 432, rfl⟩
abbrev main_v223 : Ref sig .tc := ⟨.hbm, 433, rfl⟩
abbrev main_v224 : Ref sig .tc := ⟨.hbm, 434, rfl⟩
abbrev main_v225 : Ref sig .tc := ⟨.hbm, 435, rfl⟩
abbrev main_cst_51 : Ref sig .tc := ⟨.hbm, 436, rfl⟩
abbrev main_v226 : Ref sig .tc := ⟨.hbm, 437, rfl⟩
abbrev main_cst_52 : Ref sig .tc := ⟨.hbm, 438, rfl⟩
abbrev main_v227 : Ref sig .tc := ⟨.hbm, 439, rfl⟩
abbrev main_v228 : Ref sig .tc := ⟨.hbm, 440, rfl⟩
abbrev main_v229 : Ref sig .tc := ⟨.hbm, 441, rfl⟩
abbrev main_v230 : Ref sig .tc := ⟨.hbm, 442, rfl⟩
abbrev main_call32_v0 : Ref sig .tc := ⟨.hbm, 443, rfl⟩
abbrev main_call32_v1 : Ref sig .tc := ⟨.hbm, 444, rfl⟩
abbrev main_call32_v2 : Ref sig .tc := ⟨.hbm, 445, rfl⟩
abbrev main_call32_v3 : Ref sig .tc := ⟨.hbm, 446, rfl⟩
abbrev main_call32_v4 : Ref sig .tc := ⟨.hbm, 447, rfl⟩
abbrev main_v231 : Ref sig .tc := ⟨.hbm, 448, rfl⟩
abbrev main_call33_v0 : Ref sig .tc := ⟨.hbm, 449, rfl⟩
abbrev main_call33_v1 : Ref sig .tc := ⟨.hbm, 450, rfl⟩
abbrev main_call33_v2 : Ref sig .tc := ⟨.hbm, 451, rfl⟩
abbrev main_call33_v3 : Ref sig .tc := ⟨.hbm, 452, rfl⟩
abbrev main_call33_v4 : Ref sig .tc := ⟨.hbm, 453, rfl⟩
abbrev main_v232 : Ref sig .tc := ⟨.hbm, 454, rfl⟩
abbrev main_call34_v0 : Ref sig .tc := ⟨.hbm, 455, rfl⟩
abbrev main_call34_v1 : Ref sig .tc := ⟨.hbm, 456, rfl⟩
abbrev main_call34_v2 : Ref sig .tc := ⟨.hbm, 457, rfl⟩
abbrev main_call34_v3 : Ref sig .tc := ⟨.hbm, 458, rfl⟩
abbrev main_call34_v4 : Ref sig .tc := ⟨.hbm, 459, rfl⟩
abbrev main_v233 : Ref sig .tc := ⟨.hbm, 460, rfl⟩
abbrev main_v234 : Ref sig .tc := ⟨.hbm, 461, rfl⟩
abbrev main_cst_53 : Ref sig .tc := ⟨.hbm, 462, rfl⟩
abbrev main_v235 : Ref sig .tc := ⟨.hbm, 463, rfl⟩
abbrev main_v236 : Ref sig .tc := ⟨.hbm, 464, rfl⟩
abbrev main_v237 : Ref sig .tc := ⟨.hbm, 465, rfl⟩
abbrev main_v238 : Ref sig .tc := ⟨.hbm, 466, rfl⟩
abbrev main_c_54 : Ref sig .tc := ⟨.hbm, 467, rfl⟩
abbrev main_v239 : Ref sig .tc := ⟨.hbm, 468, rfl⟩
abbrev main_v240 : Ref sig .tc := ⟨.hbm, 469, rfl⟩
abbrev main_v241 : Ref sig .tc := ⟨.hbm, 470, rfl⟩
abbrev main_v242 : Ref sig .tc := ⟨.hbm, 471, rfl⟩
abbrev main_v243 : Ref sig .tc := ⟨.hbm, 472, rfl⟩
abbrev main_v244 : Ref sig .tc := ⟨.hbm, 473, rfl⟩
abbrev main_v245 : Ref sig .tc := ⟨.hbm, 474, rfl⟩
abbrev main_cst_55 : Ref sig .tc := ⟨.hbm, 475, rfl⟩
abbrev main_v246 : Ref sig .tc := ⟨.hbm, 476, rfl⟩
abbrev main_cst_56 : Ref sig .tc := ⟨.hbm, 477, rfl⟩
abbrev main_v247 : Ref sig .tc := ⟨.hbm, 478, rfl⟩
abbrev main_v248 : Ref sig .tc := ⟨.hbm, 479, rfl⟩
abbrev main_v249 : Ref sig .tc := ⟨.hbm, 480, rfl⟩
abbrev main_v250 : Ref sig .tc := ⟨.hbm, 481, rfl⟩
abbrev main_call35_v0 : Ref sig .tc := ⟨.hbm, 482, rfl⟩
abbrev main_call35_v1 : Ref sig .tc := ⟨.hbm, 483, rfl⟩
abbrev main_call35_v2 : Ref sig .tc := ⟨.hbm, 484, rfl⟩
abbrev main_call35_v3 : Ref sig .tc := ⟨.hbm, 485, rfl⟩
abbrev main_call35_v4 : Ref sig .tc := ⟨.hbm, 486, rfl⟩
abbrev main_v251 : Ref sig .tc := ⟨.hbm, 487, rfl⟩
abbrev main_call36_v0 : Ref sig .tc := ⟨.hbm, 488, rfl⟩
abbrev main_call36_v1 : Ref sig .tc := ⟨.hbm, 489, rfl⟩
abbrev main_call36_v2 : Ref sig .tc := ⟨.hbm, 490, rfl⟩
abbrev main_call36_v3 : Ref sig .tc := ⟨.hbm, 491, rfl⟩
abbrev main_call36_v4 : Ref sig .tc := ⟨.hbm, 492, rfl⟩
abbrev main_v252 : Ref sig .tc := ⟨.hbm, 493, rfl⟩
abbrev main_call37_v0 : Ref sig .tc := ⟨.hbm, 494, rfl⟩
abbrev main_call37_v1 : Ref sig .tc := ⟨.hbm, 495, rfl⟩
abbrev main_call37_v2 : Ref sig .tc := ⟨.hbm, 496, rfl⟩
abbrev main_call37_v3 : Ref sig .tc := ⟨.hbm, 497, rfl⟩
abbrev main_call37_v4 : Ref sig .tc := ⟨.hbm, 498, rfl⟩
abbrev main_v253 : Ref sig .tc := ⟨.hbm, 499, rfl⟩
abbrev main_v254 : Ref sig .tc := ⟨.hbm, 500, rfl⟩
abbrev main_cst_57 : Ref sig .tc := ⟨.hbm, 501, rfl⟩
abbrev main_v255 : Ref sig .tc := ⟨.hbm, 502, rfl⟩
abbrev main_v256 : Ref sig .tc := ⟨.hbm, 503, rfl⟩
abbrev main_v257 : Ref sig .tc := ⟨.hbm, 504, rfl⟩
abbrev main_v258 : Ref sig .tc := ⟨.hbm, 505, rfl⟩
abbrev main_c_58 : Ref sig .tc := ⟨.hbm, 506, rfl⟩
abbrev main_v259 : Ref sig .tc := ⟨.hbm, 507, rfl⟩
abbrev main_v260 : Ref sig .tc := ⟨.hbm, 508, rfl⟩
abbrev main_v261 : Ref sig .tc := ⟨.hbm, 509, rfl⟩
abbrev main_v262 : Ref sig .tc := ⟨.hbm, 510, rfl⟩
abbrev main_v263 : Ref sig .tc := ⟨.hbm, 511, rfl⟩
abbrev main_v264 : Ref sig .tc := ⟨.hbm, 512, rfl⟩
abbrev main_v265 : Ref sig .tc := ⟨.hbm, 513, rfl⟩
abbrev main_cst_59 : Ref sig .tc := ⟨.hbm, 514, rfl⟩
abbrev main_v266 : Ref sig .tc := ⟨.hbm, 515, rfl⟩
abbrev main_cst_60 : Ref sig .tc := ⟨.hbm, 516, rfl⟩
abbrev main_v267 : Ref sig .tc := ⟨.hbm, 517, rfl⟩
abbrev main_v268 : Ref sig .tc := ⟨.hbm, 518, rfl⟩
abbrev main_v269 : Ref sig .tc := ⟨.hbm, 519, rfl⟩
abbrev main_v270 : Ref sig .tc := ⟨.hbm, 520, rfl⟩
abbrev main_call38_v0 : Ref sig .tc := ⟨.hbm, 521, rfl⟩
abbrev main_call38_v1 : Ref sig .tc := ⟨.hbm, 522, rfl⟩
abbrev main_call38_v2 : Ref sig .tc := ⟨.hbm, 523, rfl⟩
abbrev main_call38_v3 : Ref sig .tc := ⟨.hbm, 524, rfl⟩
abbrev main_call38_v4 : Ref sig .tc := ⟨.hbm, 525, rfl⟩
abbrev main_v271 : Ref sig .tc := ⟨.hbm, 526, rfl⟩
abbrev main_call39_v0 : Ref sig .tc := ⟨.hbm, 527, rfl⟩
abbrev main_call39_v1 : Ref sig .tc := ⟨.hbm, 528, rfl⟩
abbrev main_call39_v2 : Ref sig .tc := ⟨.hbm, 529, rfl⟩
abbrev main_call39_v3 : Ref sig .tc := ⟨.hbm, 530, rfl⟩
abbrev main_call39_v4 : Ref sig .tc := ⟨.hbm, 531, rfl⟩
abbrev main_v272 : Ref sig .tc := ⟨.hbm, 532, rfl⟩
abbrev main_call40_v0 : Ref sig .tc := ⟨.hbm, 533, rfl⟩
abbrev main_call40_v1 : Ref sig .tc := ⟨.hbm, 534, rfl⟩
abbrev main_call40_v2 : Ref sig .tc := ⟨.hbm, 535, rfl⟩
abbrev main_call40_v3 : Ref sig .tc := ⟨.hbm, 536, rfl⟩
abbrev main_call40_v4 : Ref sig .tc := ⟨.hbm, 537, rfl⟩
abbrev main_v273 : Ref sig .tc := ⟨.hbm, 538, rfl⟩
abbrev main_v274 : Ref sig .tc := ⟨.hbm, 539, rfl⟩
abbrev main_cst_61 : Ref sig .tc := ⟨.hbm, 540, rfl⟩
abbrev main_v275 : Ref sig .tc := ⟨.hbm, 541, rfl⟩
abbrev main_v276 : Ref sig .tc := ⟨.hbm, 542, rfl⟩
abbrev main_v277 : Ref sig .tc := ⟨.hbm, 543, rfl⟩
abbrev main_v278 : Ref sig .tc := ⟨.hbm, 544, rfl⟩
abbrev main_c_62 : Ref sig .tc := ⟨.hbm, 545, rfl⟩
abbrev main_v279 : Ref sig .tc := ⟨.hbm, 546, rfl⟩
abbrev main_v280 : Ref sig .tc := ⟨.hbm, 547, rfl⟩
abbrev main_v281 : Ref sig .tc := ⟨.hbm, 548, rfl⟩
abbrev main_v282 : Ref sig .tc := ⟨.hbm, 549, rfl⟩
abbrev main_v283 : Ref sig .tc := ⟨.hbm, 550, rfl⟩
abbrev main_v284 : Ref sig .tc := ⟨.hbm, 551, rfl⟩
abbrev main_v285 : Ref sig .tc := ⟨.hbm, 552, rfl⟩
abbrev main_cst_63 : Ref sig .tc := ⟨.hbm, 553, rfl⟩
abbrev main_v286 : Ref sig .tc := ⟨.hbm, 554, rfl⟩
abbrev main_cst_64 : Ref sig .tc := ⟨.hbm, 555, rfl⟩
abbrev main_v287 : Ref sig .tc := ⟨.hbm, 556, rfl⟩
abbrev main_v288 : Ref sig .tc := ⟨.hbm, 557, rfl⟩
abbrev main_v289 : Ref sig .tc := ⟨.hbm, 558, rfl⟩
abbrev main_v290 : Ref sig .tc := ⟨.hbm, 559, rfl⟩
abbrev main_call41_v0 : Ref sig .tc := ⟨.hbm, 560, rfl⟩
abbrev main_call41_v1 : Ref sig .tc := ⟨.hbm, 561, rfl⟩
abbrev main_call41_v2 : Ref sig .tc := ⟨.hbm, 562, rfl⟩
abbrev main_call41_v3 : Ref sig .tc := ⟨.hbm, 563, rfl⟩
abbrev main_call41_v4 : Ref sig .tc := ⟨.hbm, 564, rfl⟩
abbrev main_v291 : Ref sig .tc := ⟨.hbm, 565, rfl⟩
abbrev main_call42_v0 : Ref sig .tc := ⟨.hbm, 566, rfl⟩
abbrev main_call42_v1 : Ref sig .tc := ⟨.hbm, 567, rfl⟩
abbrev main_call42_v2 : Ref sig .tc := ⟨.hbm, 568, rfl⟩
abbrev main_call42_v3 : Ref sig .tc := ⟨.hbm, 569, rfl⟩
abbrev main_call42_v4 : Ref sig .tc := ⟨.hbm, 570, rfl⟩
abbrev main_v292 : Ref sig .tc := ⟨.hbm, 571, rfl⟩
abbrev main_call43_v0 : Ref sig .tc := ⟨.hbm, 572, rfl⟩
abbrev main_call43_v1 : Ref sig .tc := ⟨.hbm, 573, rfl⟩
abbrev main_call43_v2 : Ref sig .tc := ⟨.hbm, 574, rfl⟩
abbrev main_call43_v3 : Ref sig .tc := ⟨.hbm, 575, rfl⟩
abbrev main_call43_v4 : Ref sig .tc := ⟨.hbm, 576, rfl⟩
abbrev main_v293 : Ref sig .tc := ⟨.hbm, 577, rfl⟩
abbrev main_v294 : Ref sig .tc := ⟨.hbm, 578, rfl⟩
abbrev main_cst_65 : Ref sig .tc := ⟨.hbm, 579, rfl⟩
abbrev main_v295 : Ref sig .tc := ⟨.hbm, 580, rfl⟩
abbrev main_v296 : Ref sig .tc := ⟨.hbm, 581, rfl⟩
abbrev main_v297 : Ref sig .tc := ⟨.hbm, 582, rfl⟩
abbrev main_v298 : Ref sig .tc := ⟨.hbm, 583, rfl⟩
abbrev main_c_66 : Ref sig .tc := ⟨.hbm, 584, rfl⟩
abbrev main_v299 : Ref sig .tc := ⟨.hbm, 585, rfl⟩
abbrev main_v300 : Ref sig .tc := ⟨.hbm, 586, rfl⟩
abbrev main_v301 : Ref sig .tc := ⟨.hbm, 587, rfl⟩
abbrev main_v302 : Ref sig .tc := ⟨.hbm, 588, rfl⟩
abbrev main_v303 : Ref sig .tc := ⟨.hbm, 589, rfl⟩
abbrev main_v304 : Ref sig .tc := ⟨.hbm, 590, rfl⟩
abbrev main_v305 : Ref sig .tc := ⟨.hbm, 591, rfl⟩
abbrev main_cst_67 : Ref sig .tc := ⟨.hbm, 592, rfl⟩
abbrev main_v306 : Ref sig .tc := ⟨.hbm, 593, rfl⟩
abbrev main_cst_68 : Ref sig .tc := ⟨.hbm, 594, rfl⟩
abbrev main_v307 : Ref sig .tc := ⟨.hbm, 595, rfl⟩
abbrev main_v308 : Ref sig .tc := ⟨.hbm, 596, rfl⟩
abbrev main_v309 : Ref sig .tc := ⟨.hbm, 597, rfl⟩
abbrev main_v310 : Ref sig .tc := ⟨.hbm, 598, rfl⟩
abbrev main_call44_v0 : Ref sig .tc := ⟨.hbm, 599, rfl⟩
abbrev main_call44_v1 : Ref sig .tc := ⟨.hbm, 600, rfl⟩
abbrev main_call44_v2 : Ref sig .tc := ⟨.hbm, 601, rfl⟩
abbrev main_call44_v3 : Ref sig .tc := ⟨.hbm, 602, rfl⟩
abbrev main_call44_v4 : Ref sig .tc := ⟨.hbm, 603, rfl⟩
abbrev main_v311 : Ref sig .tc := ⟨.hbm, 604, rfl⟩
abbrev main_call45_v0 : Ref sig .tc := ⟨.hbm, 605, rfl⟩
abbrev main_call45_v1 : Ref sig .tc := ⟨.hbm, 606, rfl⟩
abbrev main_call45_v2 : Ref sig .tc := ⟨.hbm, 607, rfl⟩
abbrev main_call45_v3 : Ref sig .tc := ⟨.hbm, 608, rfl⟩
abbrev main_call45_v4 : Ref sig .tc := ⟨.hbm, 609, rfl⟩
abbrev main_v312 : Ref sig .tc := ⟨.hbm, 610, rfl⟩
abbrev main_call46_v0 : Ref sig .tc := ⟨.hbm, 611, rfl⟩
abbrev main_call46_v1 : Ref sig .tc := ⟨.hbm, 612, rfl⟩
abbrev main_call46_v2 : Ref sig .tc := ⟨.hbm, 613, rfl⟩
abbrev main_call46_v3 : Ref sig .tc := ⟨.hbm, 614, rfl⟩
abbrev main_call46_v4 : Ref sig .tc := ⟨.hbm, 615, rfl⟩
abbrev main_v313 : Ref sig .tc := ⟨.hbm, 616, rfl⟩
abbrev main_v314 : Ref sig .tc := ⟨.hbm, 617, rfl⟩
abbrev main_cst_69 : Ref sig .tc := ⟨.hbm, 618, rfl⟩
abbrev main_v315 : Ref sig .tc := ⟨.hbm, 619, rfl⟩
abbrev main_v316 : Ref sig .tc := ⟨.hbm, 620, rfl⟩
abbrev main_v317 : Ref sig .tc := ⟨.hbm, 621, rfl⟩
abbrev main_v318 : Ref sig .tc := ⟨.hbm, 622, rfl⟩
abbrev main_c_70 : Ref sig .tc := ⟨.hbm, 623, rfl⟩
abbrev main_v319 : Ref sig .tc := ⟨.hbm, 624, rfl⟩
abbrev main_v320 : Ref sig .tc := ⟨.hbm, 625, rfl⟩
abbrev main_v321 : Ref sig .tc := ⟨.hbm, 626, rfl⟩
abbrev main_v322 : Ref sig .tc := ⟨.hbm, 627, rfl⟩
abbrev main_v323 : Ref sig .tc := ⟨.hbm, 628, rfl⟩
abbrev main_v324 : Ref sig .tc := ⟨.hbm, 629, rfl⟩
abbrev main_v325 : Ref sig .tc := ⟨.hbm, 630, rfl⟩
abbrev main_cst_71 : Ref sig .tc := ⟨.hbm, 631, rfl⟩
abbrev main_v326 : Ref sig .tc := ⟨.hbm, 632, rfl⟩
abbrev main_cst_72 : Ref sig .tc := ⟨.hbm, 633, rfl⟩
abbrev main_v327 : Ref sig .tc := ⟨.hbm, 634, rfl⟩
abbrev main_v328 : Ref sig .tc := ⟨.hbm, 635, rfl⟩
abbrev main_v329 : Ref sig .tc := ⟨.hbm, 636, rfl⟩
abbrev main_v330 : Ref sig .tc := ⟨.hbm, 637, rfl⟩
abbrev main_call47_v0 : Ref sig .tc := ⟨.hbm, 638, rfl⟩
abbrev main_call47_v1 : Ref sig .tc := ⟨.hbm, 639, rfl⟩
abbrev main_call47_v2 : Ref sig .tc := ⟨.hbm, 640, rfl⟩
abbrev main_call47_v3 : Ref sig .tc := ⟨.hbm, 641, rfl⟩
abbrev main_call47_v4 : Ref sig .tc := ⟨.hbm, 642, rfl⟩
abbrev main_v331 : Ref sig .tc := ⟨.hbm, 643, rfl⟩
abbrev main_call48_v0 : Ref sig .tc := ⟨.hbm, 644, rfl⟩
abbrev main_call48_v1 : Ref sig .tc := ⟨.hbm, 645, rfl⟩
abbrev main_call48_v2 : Ref sig .tc := ⟨.hbm, 646, rfl⟩
abbrev main_call48_v3 : Ref sig .tc := ⟨.hbm, 647, rfl⟩
abbrev main_call48_v4 : Ref sig .tc := ⟨.hbm, 648, rfl⟩
abbrev main_v332 : Ref sig .tc := ⟨.hbm, 649, rfl⟩
abbrev main_call49_v0 : Ref sig .tc := ⟨.hbm, 650, rfl⟩
abbrev main_call49_v1 : Ref sig .tc := ⟨.hbm, 651, rfl⟩
abbrev main_call49_v2 : Ref sig .tc := ⟨.hbm, 652, rfl⟩
abbrev main_call49_v3 : Ref sig .tc := ⟨.hbm, 653, rfl⟩
abbrev main_call49_v4 : Ref sig .tc := ⟨.hbm, 654, rfl⟩
abbrev main_v333 : Ref sig .tc := ⟨.hbm, 655, rfl⟩
abbrev main_v334 : Ref sig .tc := ⟨.hbm, 656, rfl⟩
abbrev main_cst_73 : Ref sig .tc := ⟨.hbm, 657, rfl⟩
abbrev main_v335 : Ref sig .tc := ⟨.hbm, 658, rfl⟩
abbrev main_v336 : Ref sig .tc := ⟨.hbm, 659, rfl⟩
abbrev main_v337 : Ref sig .tc := ⟨.hbm, 660, rfl⟩
abbrev main_v338 : Ref sig .tc := ⟨.hbm, 661, rfl⟩
abbrev main_c_74 : Ref sig .tc := ⟨.hbm, 662, rfl⟩
abbrev main_v339 : Ref sig .tc := ⟨.hbm, 663, rfl⟩
abbrev main_v340 : Ref sig .tc := ⟨.hbm, 664, rfl⟩
abbrev main_v341 : Ref sig .tc := ⟨.hbm, 665, rfl⟩
abbrev main_v342 : Ref sig .tc := ⟨.hbm, 666, rfl⟩
abbrev main_v343 : Ref sig .tc := ⟨.hbm, 667, rfl⟩
abbrev main_v344 : Ref sig .tc := ⟨.hbm, 668, rfl⟩
abbrev main_v345 : Ref sig .tc := ⟨.hbm, 669, rfl⟩
abbrev main_cst_75 : Ref sig .tc := ⟨.hbm, 670, rfl⟩
abbrev main_v346 : Ref sig .tc := ⟨.hbm, 671, rfl⟩
abbrev main_cst_76 : Ref sig .tc := ⟨.hbm, 672, rfl⟩
abbrev main_v347 : Ref sig .tc := ⟨.hbm, 673, rfl⟩
abbrev main_v348 : Ref sig .tc := ⟨.hbm, 674, rfl⟩
abbrev main_v349 : Ref sig .tc := ⟨.hbm, 675, rfl⟩
abbrev main_v350 : Ref sig .tc := ⟨.hbm, 676, rfl⟩
abbrev main_call50_v0 : Ref sig .tc := ⟨.hbm, 677, rfl⟩
abbrev main_call50_v1 : Ref sig .tc := ⟨.hbm, 678, rfl⟩
abbrev main_call50_v2 : Ref sig .tc := ⟨.hbm, 679, rfl⟩
abbrev main_call50_v3 : Ref sig .tc := ⟨.hbm, 680, rfl⟩
abbrev main_call50_v4 : Ref sig .tc := ⟨.hbm, 681, rfl⟩
abbrev main_v351 : Ref sig .tc := ⟨.hbm, 682, rfl⟩
abbrev main_call51_v0 : Ref sig .tc := ⟨.hbm, 683, rfl⟩
abbrev main_call51_v1 : Ref sig .tc := ⟨.hbm, 684, rfl⟩
abbrev main_call51_v2 : Ref sig .tc := ⟨.hbm, 685, rfl⟩
abbrev main_call51_v3 : Ref sig .tc := ⟨.hbm, 686, rfl⟩
abbrev main_call51_v4 : Ref sig .tc := ⟨.hbm, 687, rfl⟩
abbrev main_v352 : Ref sig .tc := ⟨.hbm, 688, rfl⟩
abbrev main_call52_v0 : Ref sig .tc := ⟨.hbm, 689, rfl⟩
abbrev main_call52_v1 : Ref sig .tc := ⟨.hbm, 690, rfl⟩
abbrev main_call52_v2 : Ref sig .tc := ⟨.hbm, 691, rfl⟩
abbrev main_call52_v3 : Ref sig .tc := ⟨.hbm, 692, rfl⟩
abbrev main_call52_v4 : Ref sig .tc := ⟨.hbm, 693, rfl⟩
abbrev main_v353 : Ref sig .tc := ⟨.hbm, 694, rfl⟩
abbrev main_v354 : Ref sig .tc := ⟨.hbm, 695, rfl⟩
abbrev main_cst_77 : Ref sig .tc := ⟨.hbm, 696, rfl⟩
abbrev main_v355 : Ref sig .tc := ⟨.hbm, 697, rfl⟩
abbrev main_v356 : Ref sig .tc := ⟨.hbm, 698, rfl⟩
abbrev main_v357 : Ref sig .tc := ⟨.hbm, 699, rfl⟩
abbrev main_v358 : Ref sig .tc := ⟨.hbm, 700, rfl⟩
abbrev main_c_78 : Ref sig .tc := ⟨.hbm, 701, rfl⟩
abbrev main_v359 : Ref sig .tc := ⟨.hbm, 702, rfl⟩
abbrev main_v360 : Ref sig .tc := ⟨.hbm, 703, rfl⟩
abbrev main_v361 : Ref sig .tc := ⟨.hbm, 704, rfl⟩
abbrev main_v362 : Ref sig .tc := ⟨.hbm, 705, rfl⟩
abbrev main_v363 : Ref sig .tc := ⟨.hbm, 706, rfl⟩
abbrev main_v364 : Ref sig .tc := ⟨.hbm, 707, rfl⟩
abbrev main_v365 : Ref sig .tc := ⟨.hbm, 708, rfl⟩
abbrev main_cst_79 : Ref sig .tc := ⟨.hbm, 709, rfl⟩
abbrev main_v366 : Ref sig .tc := ⟨.hbm, 710, rfl⟩
abbrev main_cst_80 : Ref sig .tc := ⟨.hbm, 711, rfl⟩
abbrev main_v367 : Ref sig .tc := ⟨.hbm, 712, rfl⟩
abbrev main_v368 : Ref sig .tc := ⟨.hbm, 713, rfl⟩
abbrev main_v369 : Ref sig .tc := ⟨.hbm, 714, rfl⟩
abbrev main_v370 : Ref sig .tc := ⟨.hbm, 715, rfl⟩
abbrev main_call53_v0 : Ref sig .tc := ⟨.hbm, 716, rfl⟩
abbrev main_call53_v1 : Ref sig .tc := ⟨.hbm, 717, rfl⟩
abbrev main_call53_v2 : Ref sig .tc := ⟨.hbm, 718, rfl⟩
abbrev main_call53_v3 : Ref sig .tc := ⟨.hbm, 719, rfl⟩
abbrev main_call53_v4 : Ref sig .tc := ⟨.hbm, 720, rfl⟩
abbrev main_v371 : Ref sig .tc := ⟨.hbm, 721, rfl⟩
abbrev main_call54_v0 : Ref sig .tc := ⟨.hbm, 722, rfl⟩
abbrev main_call54_v1 : Ref sig .tc := ⟨.hbm, 723, rfl⟩
abbrev main_call54_v2 : Ref sig .tc := ⟨.hbm, 724, rfl⟩
abbrev main_call54_v3 : Ref sig .tc := ⟨.hbm, 725, rfl⟩
abbrev main_call54_v4 : Ref sig .tc := ⟨.hbm, 726, rfl⟩
abbrev main_v372 : Ref sig .tc := ⟨.hbm, 727, rfl⟩
abbrev main_call55_v0 : Ref sig .tc := ⟨.hbm, 728, rfl⟩
abbrev main_call55_v1 : Ref sig .tc := ⟨.hbm, 729, rfl⟩
abbrev main_call55_v2 : Ref sig .tc := ⟨.hbm, 730, rfl⟩
abbrev main_call55_v3 : Ref sig .tc := ⟨.hbm, 731, rfl⟩
abbrev main_call55_v4 : Ref sig .tc := ⟨.hbm, 732, rfl⟩
abbrev main_v373 : Ref sig .tc := ⟨.hbm, 733, rfl⟩
abbrev main_v374 : Ref sig .tc := ⟨.hbm, 734, rfl⟩
abbrev main_cst_81 : Ref sig .tc := ⟨.hbm, 735, rfl⟩
abbrev main_v375 : Ref sig .tc := ⟨.hbm, 736, rfl⟩
abbrev main_v376 : Ref sig .tc := ⟨.hbm, 737, rfl⟩
abbrev main_v377 : Ref sig .tc := ⟨.hbm, 738, rfl⟩
abbrev main_v378 : Ref sig .tc := ⟨.hbm, 739, rfl⟩
abbrev main_c_82 : Ref sig .tc := ⟨.hbm, 740, rfl⟩
abbrev main_v379 : Ref sig .tc := ⟨.hbm, 741, rfl⟩
abbrev main_v380 : Ref sig .tc := ⟨.hbm, 742, rfl⟩
abbrev main_v381 : Ref sig .tc := ⟨.hbm, 743, rfl⟩
abbrev main_v382 : Ref sig .tc := ⟨.hbm, 744, rfl⟩
abbrev main_v383 : Ref sig .tc := ⟨.hbm, 745, rfl⟩
abbrev main_v384 : Ref sig .tc := ⟨.hbm, 746, rfl⟩
abbrev main_v385 : Ref sig .tc := ⟨.hbm, 747, rfl⟩
abbrev main_cst_83 : Ref sig .tc := ⟨.hbm, 748, rfl⟩
abbrev main_v386 : Ref sig .tc := ⟨.hbm, 749, rfl⟩
abbrev main_cst_84 : Ref sig .tc := ⟨.hbm, 750, rfl⟩
abbrev main_v387 : Ref sig .tc := ⟨.hbm, 751, rfl⟩
abbrev main_v388 : Ref sig .tc := ⟨.hbm, 752, rfl⟩
abbrev main_v389 : Ref sig .tc := ⟨.hbm, 753, rfl⟩
abbrev main_v390 : Ref sig .tc := ⟨.hbm, 754, rfl⟩
abbrev main_call56_v0 : Ref sig .tc := ⟨.hbm, 755, rfl⟩
abbrev main_call56_v1 : Ref sig .tc := ⟨.hbm, 756, rfl⟩
abbrev main_call56_v2 : Ref sig .tc := ⟨.hbm, 757, rfl⟩
abbrev main_call56_v3 : Ref sig .tc := ⟨.hbm, 758, rfl⟩
abbrev main_call56_v4 : Ref sig .tc := ⟨.hbm, 759, rfl⟩
abbrev main_v391 : Ref sig .tc := ⟨.hbm, 760, rfl⟩
abbrev main_call57_v0 : Ref sig .tc := ⟨.hbm, 761, rfl⟩
abbrev main_call57_v1 : Ref sig .tc := ⟨.hbm, 762, rfl⟩
abbrev main_call57_v2 : Ref sig .tc := ⟨.hbm, 763, rfl⟩
abbrev main_call57_v3 : Ref sig .tc := ⟨.hbm, 764, rfl⟩
abbrev main_call57_v4 : Ref sig .tc := ⟨.hbm, 765, rfl⟩
abbrev main_v392 : Ref sig .tc := ⟨.hbm, 766, rfl⟩
abbrev main_call58_v0 : Ref sig .tc := ⟨.hbm, 767, rfl⟩
abbrev main_call58_v1 : Ref sig .tc := ⟨.hbm, 768, rfl⟩
abbrev main_call58_v2 : Ref sig .tc := ⟨.hbm, 769, rfl⟩
abbrev main_call58_v3 : Ref sig .tc := ⟨.hbm, 770, rfl⟩
abbrev main_call58_v4 : Ref sig .tc := ⟨.hbm, 771, rfl⟩
abbrev main_v393 : Ref sig .tc := ⟨.hbm, 772, rfl⟩
abbrev main_v394 : Ref sig .tc := ⟨.hbm, 773, rfl⟩
abbrev main_cst_85 : Ref sig .tc := ⟨.hbm, 774, rfl⟩
abbrev main_v395 : Ref sig .tc := ⟨.hbm, 775, rfl⟩
abbrev main_v396 : Ref sig .tc := ⟨.hbm, 776, rfl⟩
abbrev main_v397 : Ref sig .tc := ⟨.hbm, 777, rfl⟩
abbrev main_v398 : Ref sig .tc := ⟨.hbm, 778, rfl⟩
abbrev main_c_86 : Ref sig .tc := ⟨.hbm, 779, rfl⟩
abbrev main_v399 : Ref sig .tc := ⟨.hbm, 780, rfl⟩
abbrev main_v400 : Ref sig .tc := ⟨.hbm, 781, rfl⟩
abbrev main_v401 : Ref sig .tc := ⟨.hbm, 782, rfl⟩
abbrev main_v402 : Ref sig .tc := ⟨.hbm, 783, rfl⟩
abbrev main_v403 : Ref sig .tc := ⟨.hbm, 784, rfl⟩
abbrev main_v404 : Ref sig .tc := ⟨.hbm, 785, rfl⟩
abbrev main_v405 : Ref sig .tc := ⟨.hbm, 786, rfl⟩
abbrev main_cst_87 : Ref sig .tc := ⟨.hbm, 787, rfl⟩
abbrev main_v406 : Ref sig .tc := ⟨.hbm, 788, rfl⟩
abbrev main_cst_88 : Ref sig .tc := ⟨.hbm, 789, rfl⟩
abbrev main_v407 : Ref sig .tc := ⟨.hbm, 790, rfl⟩
abbrev main_v408 : Ref sig .tc := ⟨.hbm, 791, rfl⟩
abbrev main_v409 : Ref sig .tc := ⟨.hbm, 792, rfl⟩
abbrev main_v410 : Ref sig .tc := ⟨.hbm, 793, rfl⟩
abbrev main_call59_v0 : Ref sig .tc := ⟨.hbm, 794, rfl⟩
abbrev main_call59_v1 : Ref sig .tc := ⟨.hbm, 795, rfl⟩
abbrev main_call59_v2 : Ref sig .tc := ⟨.hbm, 796, rfl⟩
abbrev main_call59_v3 : Ref sig .tc := ⟨.hbm, 797, rfl⟩
abbrev main_call59_v4 : Ref sig .tc := ⟨.hbm, 798, rfl⟩
abbrev main_v411 : Ref sig .tc := ⟨.hbm, 799, rfl⟩
abbrev main_call60_v0 : Ref sig .tc := ⟨.hbm, 800, rfl⟩
abbrev main_call60_v1 : Ref sig .tc := ⟨.hbm, 801, rfl⟩
abbrev main_call60_v2 : Ref sig .tc := ⟨.hbm, 802, rfl⟩
abbrev main_call60_v3 : Ref sig .tc := ⟨.hbm, 803, rfl⟩
abbrev main_call60_v4 : Ref sig .tc := ⟨.hbm, 804, rfl⟩
abbrev main_v412 : Ref sig .tc := ⟨.hbm, 805, rfl⟩
abbrev main_call61_v0 : Ref sig .tc := ⟨.hbm, 806, rfl⟩
abbrev main_call61_v1 : Ref sig .tc := ⟨.hbm, 807, rfl⟩
abbrev main_call61_v2 : Ref sig .tc := ⟨.hbm, 808, rfl⟩
abbrev main_call61_v3 : Ref sig .tc := ⟨.hbm, 809, rfl⟩
abbrev main_call61_v4 : Ref sig .tc := ⟨.hbm, 810, rfl⟩
abbrev main_v413 : Ref sig .tc := ⟨.hbm, 811, rfl⟩
abbrev main_v414 : Ref sig .tc := ⟨.hbm, 812, rfl⟩
abbrev main_cst_89 : Ref sig .tc := ⟨.hbm, 813, rfl⟩
abbrev main_v415 : Ref sig .tc := ⟨.hbm, 814, rfl⟩
abbrev main_v416 : Ref sig .tc := ⟨.hbm, 815, rfl⟩
abbrev main_v417 : Ref sig .tc := ⟨.hbm, 816, rfl⟩
abbrev main_v418 : Ref sig .tc := ⟨.hbm, 817, rfl⟩
abbrev main_c_90 : Ref sig .tc := ⟨.hbm, 818, rfl⟩
abbrev main_v419 : Ref sig .tc := ⟨.hbm, 819, rfl⟩
abbrev main_v420 : Ref sig .tc := ⟨.hbm, 820, rfl⟩
abbrev main_v421 : Ref sig .tc := ⟨.hbm, 821, rfl⟩
abbrev main_v422 : Ref sig .tc := ⟨.hbm, 822, rfl⟩
abbrev main_v423 : Ref sig .tc := ⟨.hbm, 823, rfl⟩
abbrev main_v424 : Ref sig .tc := ⟨.hbm, 824, rfl⟩
abbrev main_v425 : Ref sig .tc := ⟨.hbm, 825, rfl⟩
abbrev main_cst_91 : Ref sig .tc := ⟨.hbm, 826, rfl⟩
abbrev main_v426 : Ref sig .tc := ⟨.hbm, 827, rfl⟩
abbrev main_cst_92 : Ref sig .tc := ⟨.hbm, 828, rfl⟩
abbrev main_v427 : Ref sig .tc := ⟨.hbm, 829, rfl⟩
abbrev main_v428 : Ref sig .tc := ⟨.hbm, 830, rfl⟩
abbrev main_v429 : Ref sig .tc := ⟨.hbm, 831, rfl⟩
abbrev main_v430 : Ref sig .tc := ⟨.hbm, 832, rfl⟩
abbrev main_call62_v0 : Ref sig .tc := ⟨.hbm, 833, rfl⟩
abbrev main_call62_v1 : Ref sig .tc := ⟨.hbm, 834, rfl⟩
abbrev main_call62_v2 : Ref sig .tc := ⟨.hbm, 835, rfl⟩
abbrev main_call62_v3 : Ref sig .tc := ⟨.hbm, 836, rfl⟩
abbrev main_call62_v4 : Ref sig .tc := ⟨.hbm, 837, rfl⟩
abbrev main_v431 : Ref sig .tc := ⟨.hbm, 838, rfl⟩
abbrev main_call63_v0 : Ref sig .tc := ⟨.hbm, 839, rfl⟩
abbrev main_call63_v1 : Ref sig .tc := ⟨.hbm, 840, rfl⟩
abbrev main_call63_v2 : Ref sig .tc := ⟨.hbm, 841, rfl⟩
abbrev main_call63_v3 : Ref sig .tc := ⟨.hbm, 842, rfl⟩
abbrev main_call63_v4 : Ref sig .tc := ⟨.hbm, 843, rfl⟩
abbrev main_v432 : Ref sig .tc := ⟨.hbm, 844, rfl⟩
abbrev main_call64_v0 : Ref sig .tc := ⟨.hbm, 845, rfl⟩
abbrev main_call64_v1 : Ref sig .tc := ⟨.hbm, 846, rfl⟩
abbrev main_call64_v2 : Ref sig .tc := ⟨.hbm, 847, rfl⟩
abbrev main_call64_v3 : Ref sig .tc := ⟨.hbm, 848, rfl⟩
abbrev main_call64_v4 : Ref sig .tc := ⟨.hbm, 849, rfl⟩
abbrev main_v433 : Ref sig .tc := ⟨.hbm, 850, rfl⟩
abbrev main_v434 : Ref sig .tc := ⟨.hbm, 851, rfl⟩
abbrev main_cst_93 : Ref sig .tc := ⟨.hbm, 852, rfl⟩
abbrev main_v435 : Ref sig .tc := ⟨.hbm, 853, rfl⟩
abbrev main_v436 : Ref sig .tc := ⟨.hbm, 854, rfl⟩
abbrev main_v437 : Ref sig .tc := ⟨.hbm, 855, rfl⟩
abbrev main_v438 : Ref sig .tc := ⟨.hbm, 856, rfl⟩
abbrev main_c_94 : Ref sig .tc := ⟨.hbm, 857, rfl⟩
abbrev main_v439 : Ref sig .tc := ⟨.hbm, 858, rfl⟩
abbrev main_v440 : Ref sig .tc := ⟨.hbm, 859, rfl⟩
abbrev main_v441 : Ref sig .tc := ⟨.hbm, 860, rfl⟩
abbrev main_v442 : Ref sig .tc := ⟨.hbm, 861, rfl⟩
abbrev main_v443 : Ref sig .tc := ⟨.hbm, 862, rfl⟩
abbrev main_v444 : Ref sig .tc := ⟨.hbm, 863, rfl⟩
abbrev main_v445 : Ref sig .tc := ⟨.hbm, 864, rfl⟩
abbrev main_cst_95 : Ref sig .tc := ⟨.hbm, 865, rfl⟩
abbrev main_v446 : Ref sig .tc := ⟨.hbm, 866, rfl⟩
abbrev main_cst_96 : Ref sig .tc := ⟨.hbm, 867, rfl⟩
abbrev main_v447 : Ref sig .tc := ⟨.hbm, 868, rfl⟩
abbrev main_v448 : Ref sig .tc := ⟨.hbm, 869, rfl⟩
abbrev main_v449 : Ref sig .tc := ⟨.hbm, 870, rfl⟩
abbrev main_v450 : Ref sig .tc := ⟨.hbm, 871, rfl⟩
abbrev main_call65_v0 : Ref sig .tc := ⟨.hbm, 872, rfl⟩
abbrev main_call65_v1 : Ref sig .tc := ⟨.hbm, 873, rfl⟩
abbrev main_call65_v2 : Ref sig .tc := ⟨.hbm, 874, rfl⟩
abbrev main_call65_v3 : Ref sig .tc := ⟨.hbm, 875, rfl⟩
abbrev main_call65_v4 : Ref sig .tc := ⟨.hbm, 876, rfl⟩
abbrev main_v451 : Ref sig .tc := ⟨.hbm, 877, rfl⟩
abbrev main_call66_v0 : Ref sig .tc := ⟨.hbm, 878, rfl⟩
abbrev main_call66_v1 : Ref sig .tc := ⟨.hbm, 879, rfl⟩
abbrev main_call66_v2 : Ref sig .tc := ⟨.hbm, 880, rfl⟩
abbrev main_call66_v3 : Ref sig .tc := ⟨.hbm, 881, rfl⟩
abbrev main_call66_v4 : Ref sig .tc := ⟨.hbm, 882, rfl⟩
abbrev main_v452 : Ref sig .tc := ⟨.hbm, 883, rfl⟩
abbrev main_call67_v0 : Ref sig .tc := ⟨.hbm, 884, rfl⟩
abbrev main_call67_v1 : Ref sig .tc := ⟨.hbm, 885, rfl⟩
abbrev main_call67_v2 : Ref sig .tc := ⟨.hbm, 886, rfl⟩
abbrev main_call67_v3 : Ref sig .tc := ⟨.hbm, 887, rfl⟩
abbrev main_call67_v4 : Ref sig .tc := ⟨.hbm, 888, rfl⟩
abbrev main_v453 : Ref sig .tc := ⟨.hbm, 889, rfl⟩
abbrev main_v454 : Ref sig .tc := ⟨.hbm, 890, rfl⟩
abbrev main_cst_97 : Ref sig .tc := ⟨.hbm, 891, rfl⟩
abbrev main_v455 : Ref sig .tc := ⟨.hbm, 892, rfl⟩
abbrev main_v456 : Ref sig .tc := ⟨.hbm, 893, rfl⟩
abbrev main_v457 : Ref sig .tc := ⟨.hbm, 894, rfl⟩
abbrev main_v458 : Ref sig .tc := ⟨.hbm, 895, rfl⟩
abbrev main_c_98 : Ref sig .tc := ⟨.hbm, 896, rfl⟩
abbrev main_v459 : Ref sig .tc := ⟨.hbm, 897, rfl⟩
abbrev main_v460 : Ref sig .tc := ⟨.hbm, 898, rfl⟩
abbrev main_v461 : Ref sig .tc := ⟨.hbm, 899, rfl⟩
abbrev main_v462 : Ref sig .tc := ⟨.hbm, 900, rfl⟩
abbrev main_v463 : Ref sig .tc := ⟨.hbm, 901, rfl⟩
abbrev main_v464 : Ref sig .tc := ⟨.hbm, 902, rfl⟩
abbrev main_v465 : Ref sig .tc := ⟨.hbm, 903, rfl⟩
abbrev main_cst_99 : Ref sig .tc := ⟨.hbm, 904, rfl⟩
abbrev main_v466 : Ref sig .tc := ⟨.hbm, 905, rfl⟩
abbrev main_cst_100 : Ref sig .tc := ⟨.hbm, 906, rfl⟩
abbrev main_v467 : Ref sig .tc := ⟨.hbm, 907, rfl⟩
abbrev main_v468 : Ref sig .tc := ⟨.hbm, 908, rfl⟩
abbrev main_v469 : Ref sig .tc := ⟨.hbm, 909, rfl⟩
abbrev main_v470 : Ref sig .tc := ⟨.hbm, 910, rfl⟩
abbrev main_call68_v0 : Ref sig .tc := ⟨.hbm, 911, rfl⟩
abbrev main_call68_v1 : Ref sig .tc := ⟨.hbm, 912, rfl⟩
abbrev main_call68_v2 : Ref sig .tc := ⟨.hbm, 913, rfl⟩
abbrev main_call68_v3 : Ref sig .tc := ⟨.hbm, 914, rfl⟩
abbrev main_call68_v4 : Ref sig .tc := ⟨.hbm, 915, rfl⟩
abbrev main_v471 : Ref sig .tc := ⟨.hbm, 916, rfl⟩
abbrev main_call69_v0 : Ref sig .tc := ⟨.hbm, 917, rfl⟩
abbrev main_call69_v1 : Ref sig .tc := ⟨.hbm, 918, rfl⟩
abbrev main_call69_v2 : Ref sig .tc := ⟨.hbm, 919, rfl⟩
abbrev main_call69_v3 : Ref sig .tc := ⟨.hbm, 920, rfl⟩
abbrev main_call69_v4 : Ref sig .tc := ⟨.hbm, 921, rfl⟩
abbrev main_v472 : Ref sig .tc := ⟨.hbm, 922, rfl⟩
abbrev main_call70_v0 : Ref sig .tc := ⟨.hbm, 923, rfl⟩
abbrev main_call70_v1 : Ref sig .tc := ⟨.hbm, 924, rfl⟩
abbrev main_call70_v2 : Ref sig .tc := ⟨.hbm, 925, rfl⟩
abbrev main_call70_v3 : Ref sig .tc := ⟨.hbm, 926, rfl⟩
abbrev main_call70_v4 : Ref sig .tc := ⟨.hbm, 927, rfl⟩
abbrev main_v473 : Ref sig .tc := ⟨.hbm, 928, rfl⟩
abbrev main_v474 : Ref sig .tc := ⟨.hbm, 929, rfl⟩
abbrev main_cst_101 : Ref sig .tc := ⟨.hbm, 930, rfl⟩
abbrev main_v475 : Ref sig .tc := ⟨.hbm, 931, rfl⟩
abbrev main_v476 : Ref sig .tc := ⟨.hbm, 932, rfl⟩
abbrev main_v477 : Ref sig .tc := ⟨.hbm, 933, rfl⟩
abbrev main_v478 : Ref sig .tc := ⟨.hbm, 934, rfl⟩
abbrev main_c_102 : Ref sig .tc := ⟨.hbm, 935, rfl⟩
abbrev main_v479 : Ref sig .tc := ⟨.hbm, 936, rfl⟩
abbrev main_v480 : Ref sig .tc := ⟨.hbm, 937, rfl⟩
abbrev main_v481 : Ref sig .tc := ⟨.hbm, 938, rfl⟩
abbrev main_v482 : Ref sig .tc := ⟨.hbm, 939, rfl⟩
abbrev main_v483 : Ref sig .tc := ⟨.hbm, 940, rfl⟩
abbrev main_v484 : Ref sig .tc := ⟨.hbm, 941, rfl⟩
abbrev main_v485 : Ref sig .tc := ⟨.hbm, 942, rfl⟩
abbrev main_cst_103 : Ref sig .tc := ⟨.hbm, 943, rfl⟩
abbrev main_v486 : Ref sig .tc := ⟨.hbm, 944, rfl⟩
abbrev main_cst_104 : Ref sig .tc := ⟨.hbm, 945, rfl⟩
abbrev main_v487 : Ref sig .tc := ⟨.hbm, 946, rfl⟩
abbrev main_v488 : Ref sig .tc := ⟨.hbm, 947, rfl⟩
abbrev main_v489 : Ref sig .tc := ⟨.hbm, 948, rfl⟩
abbrev main_v490 : Ref sig .tc := ⟨.hbm, 949, rfl⟩
abbrev main_call71_v0 : Ref sig .tc := ⟨.hbm, 950, rfl⟩
abbrev main_call71_v1 : Ref sig .tc := ⟨.hbm, 951, rfl⟩
abbrev main_call71_v2 : Ref sig .tc := ⟨.hbm, 952, rfl⟩
abbrev main_call71_v3 : Ref sig .tc := ⟨.hbm, 953, rfl⟩
abbrev main_call71_v4 : Ref sig .tc := ⟨.hbm, 954, rfl⟩
abbrev main_v491 : Ref sig .tc := ⟨.hbm, 955, rfl⟩
abbrev main_call72_v0 : Ref sig .tc := ⟨.hbm, 956, rfl⟩
abbrev main_call72_v1 : Ref sig .tc := ⟨.hbm, 957, rfl⟩
abbrev main_call72_v2 : Ref sig .tc := ⟨.hbm, 958, rfl⟩
abbrev main_call72_v3 : Ref sig .tc := ⟨.hbm, 959, rfl⟩
abbrev main_call72_v4 : Ref sig .tc := ⟨.hbm, 960, rfl⟩
abbrev main_v492 : Ref sig .tc := ⟨.hbm, 961, rfl⟩
abbrev main_call73_v0 : Ref sig .tc := ⟨.hbm, 962, rfl⟩
abbrev main_call73_v1 : Ref sig .tc := ⟨.hbm, 963, rfl⟩
abbrev main_call73_v2 : Ref sig .tc := ⟨.hbm, 964, rfl⟩
abbrev main_call73_v3 : Ref sig .tc := ⟨.hbm, 965, rfl⟩
abbrev main_call73_v4 : Ref sig .tc := ⟨.hbm, 966, rfl⟩
abbrev main_v493 : Ref sig .tc := ⟨.hbm, 967, rfl⟩
abbrev main_v494 : Ref sig .tc := ⟨.hbm, 968, rfl⟩
abbrev main_cst_105 : Ref sig .tc := ⟨.hbm, 969, rfl⟩
abbrev main_v495 : Ref sig .tc := ⟨.hbm, 970, rfl⟩
abbrev main_v496 : Ref sig .tc := ⟨.hbm, 971, rfl⟩
abbrev main_v497 : Ref sig .tc := ⟨.hbm, 972, rfl⟩
abbrev main_v498 : Ref sig .tc := ⟨.hbm, 973, rfl⟩
abbrev main_c_106 : Ref sig .tc := ⟨.hbm, 974, rfl⟩
abbrev main_v499 : Ref sig .tc := ⟨.hbm, 975, rfl⟩
abbrev main_v500 : Ref sig .tc := ⟨.hbm, 976, rfl⟩
abbrev main_v501 : Ref sig .tc := ⟨.hbm, 977, rfl⟩
abbrev main_v502 : Ref sig .tc := ⟨.hbm, 978, rfl⟩
abbrev main_v503 : Ref sig .tc := ⟨.hbm, 979, rfl⟩
abbrev main_v504 : Ref sig .tc := ⟨.hbm, 980, rfl⟩
abbrev main_v505 : Ref sig .tc := ⟨.hbm, 981, rfl⟩
abbrev main_cst_107 : Ref sig .tc := ⟨.hbm, 982, rfl⟩
abbrev main_v506 : Ref sig .tc := ⟨.hbm, 983, rfl⟩
abbrev main_cst_108 : Ref sig .tc := ⟨.hbm, 984, rfl⟩
abbrev main_v507 : Ref sig .tc := ⟨.hbm, 985, rfl⟩
abbrev main_v508 : Ref sig .tc := ⟨.hbm, 986, rfl⟩
abbrev main_v509 : Ref sig .tc := ⟨.hbm, 987, rfl⟩
abbrev main_v510 : Ref sig .tc := ⟨.hbm, 988, rfl⟩
abbrev main_cst_109 : Ref sig .tc := ⟨.hbm, 989, rfl⟩
abbrev main_v511 : Ref sig .tc := ⟨.hbm, 990, rfl⟩
abbrev main_v512 : Ref sig .tc := ⟨.hbm, 991, rfl⟩
abbrev main_v513 : Ref sig .tc := ⟨.hbm, 992, rfl⟩
abbrev main_c_110 : Ref sig .tc := ⟨.hbm, 993, rfl⟩
abbrev main_v514 : Ref sig .tc := ⟨.hbm, 994, rfl⟩
abbrev main_c_111 : Ref sig .tc := ⟨.hbm, 995, rfl⟩
abbrev main_v515 : Ref sig .tc := ⟨.hbm, 996, rfl⟩
abbrev main_v516 : Ref sig .tc := ⟨.hbm, 997, rfl⟩
abbrev main_v517 : Ref sig .tc := ⟨.hbm, 998, rfl⟩
abbrev main_cst_112 : Ref sig .tc := ⟨.hbm, 999, rfl⟩
abbrev main_v518 : Ref sig .tc := ⟨.hbm, 1000, rfl⟩
abbrev main_v519 : Ref sig .tc := ⟨.hbm, 1001, rfl⟩
abbrev main_v520 : Ref sig .tc := ⟨.hbm, 1002, rfl⟩

abbrev nD : Nat := 1
abbrev τ : Topo := Topo.v7x

variable {F : FTy → Type} [FloatOps F]

class Facts₀ : Prop where
  bcast_S_S8x128x128 : S_.BroadcastsInDim S8x128x128 (![] : Fin 0 → Fin S8x128x128.rank)
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S_S124x124 : S_.BroadcastsInDim S124x124 (![] : Fin 0 → Fin S124x124.rank)
  bcast_S128x128_S1x128x128_1_2 : S128x128.BroadcastsInDim S1x128x128 (![1, 2] : Fin 2 → Fin S1x128x128.rank)
  bcast_S1x128x128_S8x128x128_0_1_2 : S1x128x128.BroadcastsInDim S8x128x128 (![0, 1, 2] : Fin 3 → Fin S8x128x128.rank)
  reducesTo_S8x128x128_S8_d1_2 : S8x128x128.ReducesTo [1, 2] S8
  h_S_ : 0 < S_.numel
  natLt_1_32 : 1 < 32
  reducesTo_S8x256x128x128_S8x128x128_d1 : S8x256x128x128.ReducesTo [1] S8x128x128
  bcast_S_S8 : S_.BroadcastsInDim S8 (![] : Fin 0 → Fin S8.rank)
  slices_S8x256x128x128_S8x256x2x128_0_0_126_0 : S8x256x128x128.Slices ![0, 0, 126, 0] S8x256x2x128
  slices_S8x256x128x128_S8x256x126x128_0_0_0_0 : S8x256x128x128.Slices ![0, 0, 0, 0] S8x256x126x128
  concatenates_S8x256x2x128_S8x256x126x128_S8x256x128x128_d2 : Shape.Concatenates [S8x256x2x128, S8x256x126x128] S8x256x128x128 2
  slices_S8x256x128x128_S8x256x128x2_0_0_0_126 : S8x256x128x128.Slices ![0, 0, 0, 126] S8x256x128x2
  slices_S8x256x128x128_S8x256x128x126_0_0_0_0 : S8x256x128x128.Slices ![0, 0, 0, 0] S8x256x128x126
  concatenates_S8x256x128x2_S8x256x128x126_S8x256x128x128_d3 : Shape.Concatenates [S8x256x128x2, S8x256x128x126] S8x256x128x128 3
  slices_S8x128x128_S8x2x128_0_126_0 : S8x128x128.Slices ![0, 126, 0] S8x2x128
  slices_S8x128x128_S8x126x128_0_0_0 : S8x128x128.Slices ![0, 0, 0] S8x126x128
  concatenates_S8x2x128_S8x126x128_S8x128x128_d1 : Shape.Concatenates [S8x2x128, S8x126x128] S8x128x128 1
  slices_S8x128x128_S8x128x2_0_0_126 : S8x128x128.Slices ![0, 0, 126] S8x128x2
  slices_S8x128x128_S8x128x126_0_0_0 : S8x128x128.Slices ![0, 0, 0] S8x128x126
  concatenates_S8x128x2_S8x128x126_S8x128x128_d2 : Shape.Concatenates [S8x128x2, S8x128x126] S8x128x128 2
  slices_S8x256x128x128_S8x256x128x1_0_0_0_127 : S8x256x128x128.Slices ![0, 0, 0, 127] S8x256x128x1
  slices_S8x256x128x128_S8x256x128x127_0_0_0_0 : S8x256x128x128.Slices ![0, 0, 0, 0] S8x256x128x127
  concatenates_S8x256x128x1_S8x256x128x127_S8x256x128x128_d3 : Shape.Concatenates [S8x256x128x1, S8x256x128x127] S8x256x128x128 3
  slices_S8x128x128_S8x128x1_0_0_127 : S8x128x128.Slices ![0, 0, 127] S8x128x1
  slices_S8x128x128_S8x128x127_0_0_0 : S8x128x128.Slices ![0, 0, 0] S8x128x127
  concatenates_S8x128x1_S8x128x127_S8x128x128_d2 : Shape.Concatenates [S8x128x1, S8x128x127] S8x128x128 2
  slices_S8x256x128x128_S8x256x128x128_0_0_0_0 : S8x256x128x128.Slices ![0, 0, 0, 0] S8x256x128x128
  slices_S8x256x128x128_S8x256x128x0_0_0_0_0 : S8x256x128x128.Slices ![0, 0, 0, 0] S8x256x128x0
  concatenates_S8x256x128x128_S8x256x128x0_S8x256x128x128_d3 : Shape.Concatenates [S8x256x128x128, S8x256x128x0] S8x256x128x128 3
  slices_S8x128x128_S8x128x128_0_0_0 : S8x128x128.Slices ![0, 0, 0] S8x128x128
  slices_S8x128x128_S8x128x0_0_0_0 : S8x128x128.Slices ![0, 0, 0] S8x128x0
  concatenates_S8x128x128_S8x128x0_S8x128x128_d2 : Shape.Concatenates [S8x128x128, S8x128x0] S8x128x128 2
  slices_S8x256x128x128_S8x256x128x127_0_0_0_1 : S8x256x128x128.Slices ![0, 0, 0, 1] S8x256x128x127
  slices_S8x256x128x128_S8x256x128x1_0_0_0_0 : S8x256x128x128.Slices ![0, 0, 0, 0] S8x256x128x1
  concatenates_S8x256x128x127_S8x256x128x1_S8x256x128x128_d3 : Shape.Concatenates [S8x256x128x127, S8x256x128x1] S8x256x128x128 3
  slices_S8x128x128_S8x128x127_0_0_1 : S8x128x128.Slices ![0, 0, 1] S8x128x127
  slices_S8x128x128_S8x128x1_0_0_0 : S8x128x128.Slices ![0, 0, 0] S8x128x1
  concatenates_S8x128x127_S8x128x1_S8x128x128_d2 : Shape.Concatenates [S8x128x127, S8x128x1] S8x128x128 2
  slices_S8x256x128x128_S8x256x128x126_0_0_0_2 : S8x256x128x128.Slices ![0, 0, 0, 2] S8x256x128x126
  slices_S8x256x128x128_S8x256x128x2_0_0_0_0 : S8x256x128x128.Slices ![0, 0, 0, 0] S8x256x128x2
  concatenates_S8x256x128x126_S8x256x128x2_S8x256x128x128_d3 : Shape.Concatenates [S8x256x128x126, S8x256x128x2] S8x256x128x128 3
  slices_S8x128x128_S8x128x126_0_0_2 : S8x128x128.Slices ![0, 0, 2] S8x128x126
  slices_S8x128x128_S8x128x2_0_0_0 : S8x128x128.Slices ![0, 0, 0] S8x128x2
  concatenates_S8x128x126_S8x128x2_S8x128x128_d2 : Shape.Concatenates [S8x128x126, S8x128x2] S8x128x128 2
  slices_S8x256x128x128_S8x256x1x128_0_0_127_0 : S8x256x128x128.Slices ![0, 0, 127, 0] S8x256x1x128
  slices_S8x256x128x128_S8x256x127x128_0_0_0_0 : S8x256x128x128.Slices ![0, 0, 0, 0] S8x256x127x128
  concatenates_S8x256x1x128_S8x256x127x128_S8x256x128x128_d2 : Shape.Concatenates [S8x256x1x128, S8x256x127x128] S8x256x128x128 2
  slices_S8x128x128_S8x1x128_0_127_0 : S8x128x128.Slices ![0, 127, 0] S8x1x128
  slices_S8x128x128_S8x127x128_0_0_0 : S8x128x128.Slices ![0, 0, 0] S8x127x128
  concatenates_S8x1x128_S8x127x128_S8x128x128_d1 : Shape.Concatenates [S8x1x128, S8x127x128] S8x128x128 1
  slices_S8x256x128x128_S8x256x0x128_0_0_0_0 : S8x256x128x128.Slices ![0, 0, 0, 0] S8x256x0x128
  concatenates_S8x256x128x128_S8x256x0x128_S8x256x128x128_d2 : Shape.Concatenates [S8x256x128x128, S8x256x0x128] S8x256x128x128 2
  slices_S8x128x128_S8x0x128_0_0_0 : S8x128x128.Slices ![0, 0, 0] S8x0x128
  concatenates_S8x128x128_S8x0x128_S8x128x128_d1 : Shape.Concatenates [S8x128x128, S8x0x128] S8x128x128 1
  slices_S8x256x128x128_S8x256x127x128_0_0_1_0 : S8x256x128x128.Slices ![0, 0, 1, 0] S8x256x127x128
  slices_S8x256x128x128_S8x256x1x128_0_0_0_0 : S8x256x128x128.Slices ![0, 0, 0, 0] S8x256x1x128
  concatenates_S8x256x127x128_S8x256x1x128_S8x256x128x128_d2 : Shape.Concatenates [S8x256x127x128, S8x256x1x128] S8x256x128x128 2
  slices_S8x128x128_S8x127x128_0_1_0 : S8x128x128.Slices ![0, 1, 0] S8x127x128
  slices_S8x128x128_S8x1x128_0_0_0 : S8x128x128.Slices ![0, 0, 0] S8x1x128
  concatenates_S8x127x128_S8x1x128_S8x128x128_d1 : Shape.Concatenates [S8x127x128, S8x1x128] S8x128x128 1
  slices_S8x256x128x128_S8x256x126x128_0_0_2_0 : S8x256x128x128.Slices ![0, 0, 2, 0] S8x256x126x128
  slices_S8x256x128x128_S8x256x2x128_0_0_0_0 : S8x256x128x128.Slices ![0, 0, 0, 0] S8x256x2x128
  concatenates_S8x256x126x128_S8x256x2x128_S8x256x128x128_d2 : Shape.Concatenates [S8x256x126x128, S8x256x2x128] S8x256x128x128 2
  slices_S8x128x128_S8x126x128_0_2_0 : S8x128x128.Slices ![0, 2, 0] S8x126x128
  slices_S8x128x128_S8x2x128_0_0_0 : S8x128x128.Slices ![0, 0, 0] S8x2x128
  concatenates_S8x126x128_S8x2x128_S8x128x128_d1 : Shape.Concatenates [S8x126x128, S8x2x128] S8x128x128 1
  reducesTo_S8_S_d0 : S8.ReducesTo [0] S_
  scatter_S128x128_S2_S124x124_01_n_01_0_wf : ScatterDims.WF S128x128 S2 S124x124 [0, 1] [] [0, 1] 0

variable [Facts₀]

def scatter_S128x128_S2_S124x124_01_n_01_0 : ScatterDims S128x128 S2 S124x124 where
  updateWindowDims := [0, 1]
  insertedWindowDims := []
  scatterDimsToOperandDims := [0, 1]
  indexVectorDim := 0
  wf := scatter_S128x128_S2_S124x124_01_n_01_0_wf

class Facts : Prop extends Facts₀ where

variable [Facts]
-- ==== Proof.Spec.lean ====
/-
  The quantities both programs compute, named once, over the extended reals.

  For a feature array `er : [8, 256, 128, 128]`, labels `seg : [8, 128, 128]` and a 0/1 weight `vf : [8, 128, 128]`:
  * `sqFull er` at a pixel is the sum over the 256 channels of the squared feature, `normOf` its square root
    floored at the small constant;
  * for a cyclic shift by `(a, b)` rows and lanes, `dotFull a b er` at a pixel is the sum over channels of the feature
    times the shifted feature;
  * `shiftTerm a b nrm seg vf dot` is, per image, the sum over all pixels of
    `(dot / (nrm · shifted nrm) − [seg = shifted seg ∧ seg < 2])² · vf`;
  * the 24 shifts are the offsets `(dy, dx)`, `−2 ≤ dy, dx ≤ 2`, centre left out, a negative offset `−d` being the
    rotation by `128 − d`.
-/
import Idealize.ShloMosaic.PureOps.Ideal
import Idealize.ShloMosaic.PureOps.Ideal.Laws
import Idealize.ShloMosaic.Lib.ValueIdx

noncomputable section

namespace Cert.Bridge

open Idealize.ShloMosaic Idealize.ShloMosaic.ValueIdx

abbrev T0 : Shape := ⟨0, ![]⟩
abbrev T1 : Shape := ⟨1, ![8]⟩
abbrev T2 : Shape := ⟨2, ![8, 128]⟩
abbrev T3 : Shape := ⟨3, ![8, 128, 128]⟩
abbrev T4 : Shape := ⟨4, ![8, 256, 128, 128]⟩

/-- The array rotated by `a` along the rows and then by `b` along the lanes. -/
def rot3 {α : Type} (a b : BitVec 32) (x : T3.Idx → α) : T3.Idx → α :=
  dynamicRotate 2 b none (dynamicRotate 1 a none x (by decide)) (by decide)

/-- The same on the four-axis feature array (axes 2 and 3). -/
def rot4 {α : Type} (a b : BitVec 32) (x : T4.Idx → α) : T4.Idx → α :=
  dynamicRotate 3 b none (dynamicRotate 2 a none x (by decide)) (by decide)

/-- Pixel `i = (n, h, w)` at channel `k`. -/
abbrev chan (i : T3.Idx) (k : Fin 256) : T4.Idx := ix4 (i 0) k (i 1) (i 2)

/-- The squared length of a pixel's feature vector. -/
def sqFull (er : FVec Ideal T4 .f32) : FVec Ideal T3 .f32 :=
  fun i => ∑ k : Fin 256, er (chan i k) * er (chan i k)

/-- The inner product of a pixel's feature vector with the shifted pixel's. -/
def dotFull (a b : BitVec 32) (er : FVec Ideal T4 .f32) : FVec Ideal T3 .f32 :=
  fun i => ∑ k : Fin 256, er (chan i k) * rot4 a b er (chan i k)

/-- The length floored at the small constant. -/
def normOf (sq : FVec Ideal T3 .f32) : FVec Ideal T3 .f32 :=
  maximumf (sqrt sq) (broadcast T3 (Scalar.ofBits (F := Ideal) .f32 0x322BCC77#32))

/-- The squared gap between cosine similarity and label agreement, weighted. -/
def gapSq (a b : BitVec 32) (nrm : FVec Ideal T3 .f32) (seg : IVec T3 32) (vf dot : FVec Ideal T3 .f32) :
    FVec Ideal T3 .f32 :=
  mulf (mulf
      (subf (divf dot (mulf nrm (rot3 a b nrm)))
        (sitofp .f32 (extui 32 (andi (cmpi .eq seg (rot3 a b seg)) (cmpi .slt seg (broadcast T3 2#32))) (by decide))))
      (subf (divf dot (mulf nrm (rot3 a b nrm)))
        (sitofp .f32 (extui 32 (andi (cmpi .eq seg (rot3 a b seg)) (cmpi .slt seg (broadcast T3 2#32))) (by decide)))))
    vf

/-- Its sum over an image's pixels: lanes first, then rows. -/
def shiftTerm (a b : BitVec 32) (nrm : FVec Ideal T3 .f32) (seg : IVec T3 32) (vf dot : FVec Ideal T3 .f32) :
    FVec Ideal T1 .f32 :=
  multiReduction .add [1] T1
    (multiReduction .add [2] T2 (gapSq a b nrm seg vf dot) 0x00000000#32 (by decide) (.inl rfl) rfl)
    0x00000000#32 (by decide) (.inl rfl) rfl

/-- The 24 shifts, in the order both programs visit them. -/
def shifts : List (BitVec 32 × BitVec 32) :=
  [(2, 2), (2, 1), (2, 0), (2, 127), (2, 126),
   (1, 2), (1, 1), (1, 0), (1, 127), (1, 126),
   (0, 2), (0, 1), (0, 127), (0, 126),
   (127, 2), (127, 1), (127, 0), (127, 127), (127, 126),
   (126, 2), (126, 1), (126, 0), (126, 127), (126, 126)]

def shA (n : ℕ) : BitVec 32 := (shifts.getD n (0, 0)).1
def shB (n : ℕ) : BitVec 32 := (shifts.getD n (0, 0)).2

/-- Shift `n`'s per-image term of the whole arrays. -/
def termOf (er : FVec Ideal T4 .f32) (seg : IVec T3 32) (vf : FVec Ideal T3 .f32) (n : ℕ) : FVec Ideal T1 .f32 :=
  shiftTerm (shA n) (shB n) (normOf (sqFull er)) seg vf (dotFull (shA n) (shB n) er)

/-- The running total that adds the terms as they are: `((0 + T₀) + T₁) + …`. -/
def runSum (z : FVec Ideal T1 .f32) (T : ℕ → FVec Ideal T1 .f32) : ℕ → FVec Ideal T1 .f32
  | 0 => z
  | n + 1 => addf (runSum z T n) (T n)

/-- The running total that divides each term by `M` before adding it. -/
def runSumDiv (z : FVec Ideal T1 .f32) (T : ℕ → FVec Ideal T1 .f32) (M : FVec Ideal T1 .f32) : ℕ → FVec Ideal T1 .f32
  | 0 => z
  | n + 1 => addf (runSumDiv z T M n) (Host.divf (T n) M)

end Cert.Bridge

end
-- ==== Proof.Tile.lean ====
/-
  One grid point's contribution, on one tile of 8 channels.

  The point adds to the running squared length, at every pixel, the sum over the tile's 8 channels of the squared
  feature (`sqStep`), and to shift `(a, b)`'s running inner product the sum over those channels of the feature times
  the feature at the pixel `a` rows and `b` lanes back, cyclically (`dotStep`). Read at an index, each is the old value
  plus a sum over `Fin 8`.
-/
import proofs.«133983_j1632087573343_1_alg».proof.Proof.Spec
import Idealize.ShloMosaic.Lib.Pipeline.Value
import Idealize.ShloMosaic.Lib.KernelVsHost

noncomputable section

namespace Cert.Bridge

open Idealize.ShloMosaic Idealize.ShloMosaic.ValueIdx

abbrev Q4 : Shape := ⟨4, ![8, 8, 128, 128]⟩
abbrev Q1 : Shape := ⟨4, ![1, 8, 128, 128]⟩
abbrev QA : Shape := ⟨4, ![24, 8, 128, 128]⟩

/-- A coordinate moved back by `n` around a circle of 128. -/
def rotc (n : BitVec 32) (p : Fin 128) : Fin 128 := ⟨(p.val + 128 - n.toNat % 128) % 128, Nat.mod_lt _ (by decide)⟩

def sqStep (x : FVec Ideal Q4 .f32) (old : FVec Ideal T3 .f32) : FVec Ideal T3 .f32 :=
  shapeCast T3 (addf old (multiReduction .add [1] T3 (mulf x x) 0x00000000#32 (by decide) (.inl rfl) rfl)) (by decide)

def dotStep (a b : BitVec 32) (x : FVec Ideal Q4 .f32) (old : FVec Ideal Q1 .f32) : FVec Ideal Q1 .f32 :=
  shapeCast Q1 (addf (shapeCast T3 old (by decide))
    (multiReduction .add [1] T3
      (mulf x (dynamicRotate 3 b none (dynamicRotate 2 a none x (by decide)) (by decide)))
      0x00000000#32 (by decide) (.inl rfl) rfl)) (by decide)

theorem lift_tile (h : Shape.Reduces Q4 [1] T3) (i : T3.Idx) (c : Fin 8) : h.lift i c = ix4 (i 0) c (i 1) (i 2) := by
  funext d
  apply Fin.ext
  match d with
  | ⟨0, _⟩ => rfl
  | ⟨1, _⟩ => rfl
  | ⟨2, _⟩ => rfl
  | ⟨3, _⟩ => rfl

theorem sqStep_apply (x : FVec Ideal Q4 .f32) (old : FVec Ideal T3 .f32) (i : T3.Idx) :
    sqStep x old i = old i + ∑ c : Fin 8, x (ix4 (i 0) c (i 1) (i 2)) * x (ix4 (i 0) c (i 1) (i 2)) := by
  unfold sqStep
  rw [shapeCast_self]
  refine congrArg (old i + ·) ((Ideal.multiReduction_add_single (mulf x x) 0x00000000#32 _ _ _ i).trans
    (Finset.sum_congr rfl fun c _ => ?_))
  exact congrArg (fun k => x k * x k) (lift_tile _ i c)

/-- The tile rotated along rows then lanes, read at a pixel. -/
theorem rot_tile_apply (a b : BitVec 32) (x : Q4.Idx → EReal) (h2 : Q4.Rotates 2 none) (h3 : Q4.Rotates 3 none)
    (n c : Fin 8) (p q : Fin 128) :
    dynamicRotate 3 b none (dynamicRotate 2 a none x h2) h3 (ix4 n c p q) = x (ix4 n c (rotc a p) (rotc b q)) := by
  rw [dynamicRotate_apply 3 b _ h3 (ix4 n c p q) (ix4 n c p (rotc b q)) (fun d => by
    match d with
    | ⟨0, _⟩ => rfl
    | ⟨1, _⟩ => rfl
    | ⟨2, _⟩ => rfl
    | ⟨3, _⟩ => rfl)]
  exact dynamicRotate_apply 2 a x h2 (ix4 n c p (rotc b q)) (ix4 n c (rotc a p) (rotc b q)) (fun d => by
    match d with
    | ⟨0, _⟩ => rfl
    | ⟨1, _⟩ => rfl
    | ⟨2, _⟩ => rfl
    | ⟨3, _⟩ => rfl)

theorem dotStep_apply (a b : BitVec 32) (x : FVec Ideal Q4 .f32) (old : FVec Ideal Q1 .f32) (y : Q1.Idx) :
    dotStep a b x old y
      = old y + ∑ c : Fin 8, x (ix4 (y 1) c (y 2) (y 3)) * x (ix4 (y 1) c (rotc a (y 2)) (rotc b (y 3))) := by
  unfold dotStep
  rw [shapeCast_addUnit_apply ![8, 128, 128]]
  refine (congrArg₂ (· + ·) (shapeCast_dropUnit_apply ![8, 128, 128] old _ _)
    (Ideal.multiReduction_add_single _ 0x00000000#32 _ _ _ _)).trans ?_
  have h0 : (y 0).val = 0 := by have := (y 0).isLt; simp at this; omega
  have hy : (Fin.cons ⟨0, Nat.one_pos⟩ (fun a : Fin 3 => y a.succ) : Q1.Idx) = y := by
    funext d
    apply Fin.ext
    match d with
    | ⟨0, _⟩ => exact h0.symm
    | ⟨1, _⟩ => rfl
    | ⟨2, _⟩ => rfl
    | ⟨3, _⟩ => rfl
  rw [hy]
  refine congrArg (old y + ·) (Finset.sum_congr rfl fun c _ => ?_)
  have e : Shape.Reduces.lift (s := Q4) (t := T3) (a := 1) (by decide) (fun a : Fin 3 => y a.succ) c
      = ix4 (y 1) c (y 2) (y 3) := lift_tile _ _ c
  exact (congrArg (fun k => x k * dynamicRotate 3 b none (dynamicRotate 2 a none x (by decide)) (by decide) k) e).trans
    (congrArg (x _ * ·) (rot_tile_apply a b x _ _ (y 1) c (y 2) (y 3)))

end Cert.Bridge

end
-- ==== Proof.KAcc.lean ====
/-
  What one grid point leaves in the two running accumulators, as functions of the point's channel tile and of what
  the accumulators held before.

  The 24 shift accumulators live in one array `[24, 8, 128, 128]`; slab `s` belongs to shift `s`. A point stores every
  slab separately; read back together the stores are ONE function of the array index (`dotAcc`): the old entry plus
  the sum over the tile's 8 channels of the feature times the feature shifted by slab `s`'s offsets. The squared-length
  accumulator is stored whole (`sqAcc`).
-/
import proofs.«133983_j1632087573343_1_alg».proof.Proof.Gen.KernelIdeal.Frame
import proofs.«133983_j1632087573343_1_alg».proof.Proof.Tile
import Idealize.ShloMosaic.Lib.Pipeline.Value
import Idealize.ShloMosaic.Lib.Pipeline.CanonAppend
import Idealize.ShloMosaic.Lib.Tactic

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.Bridge

/-- All 24 shift accumulators after one more tile. -/
def dotAcc (x : FVec Ideal Q4 .f32) (old : FVec Ideal QA .f32) : FVec Ideal QA .f32 :=
  fun j => old j + ∑ c : Fin 8, x (ix4 (j 1) c (j 2) (j 3))
    * x (ix4 (j 1) c (rotc (shA (j 0).val) (j 2)) (rotc (shB (j 0).val) (j 3)))

/-- The squared-length accumulator after one more tile. -/
def sqAcc (x : FVec Ideal Q4 .f32) (old : FVec Ideal T3 .f32) : FVec Ideal T3 .f32 :=
  fun i => old i + ∑ c : Fin 8, x (ix4 (i 0) c (i 1) (i 2)) * x (ix4 (i 0) c (i 1) (i 2))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Slab `k`'s update, read at the slab's own index, is the whole-array function at the index under it. -/
theorem dotStep_slab (k : ℕ) (inb : ∀ a, (![k, 0, 0, 0] : Fin 4 → ℕ) a + (![1, 8, 128, 128] : Fin 4 → ℕ) a ≤ QA.size a)
    (X : FVec Ideal Q4 .f32) (old : FVec Ideal QA .f32) (ld : FVec Ideal Q1 .f32)
    (hld : ∀ y, ld y = old ((Rect.unit (s := QA) ![k, 0, 0, 0] ![1, 8, 128, 128] inb).emb y)) (y : Q1.Idx) :
    dotStep (shA k) (shB k) X ld y = dotAcc X old ((Rect.unit (s := QA) ![k, 0, 0, 0] ![1, 8, 128, 128] inb).emb y) := by
  rw [dotStep_apply, hld]
  have h0 : (y 0).val = 0 := by have := (y 0).isLt; simp at this; omega
  have e0 : (((Rect.unit (s := QA) ![k, 0, 0, 0] ![1, 8, 128, 128] inb).emb y) 0).val = k := by
    show k + 1 * (y 0).val = k; omega
  have e1 : ((Rect.unit (s := QA) ![k, 0, 0, 0] ![1, 8, 128, 128] inb).emb y) 1 = y 1 := Fin.ext (by
    show 0 + 1 * (y 1).val = (y 1).val; omega)
  have e2 : ((Rect.unit (s := QA) ![k, 0, 0, 0] ![1, 8, 128, 128] inb).emb y) 2 = y 2 := Fin.ext (by
    show 0 + 1 * (y 2).val = (y 2).val; omega)
  have e3 : ((Rect.unit (s := QA) ![k, 0, 0, 0] ![1, 8, 128, 128] inb).emb y) 3 = y 3 := Fin.ext (by
    show 0 + 1 * (y 3).val = (y 3).val; omega)
  unfold dotAcc
  rw [e0, e1, e2, e3]

/-- The squared-length store, whole. -/
theorem pay37_eq (x : FVec Ideal Q4 .f32) (old : FVec Ideal T3 .f32) : k0_pay37 (F := Ideal) x old = sqAcc x old := by
  funext i
  exact sqStep_apply x old i

/-! ## A point that is neither the first nor the last -/

section CaseB
variable (c : Dev nD) (i : grid0.Coords) (arg1 : Memref sig .tc .vmem S8x8x128x128 .f32) (harg1 : arg1.IsWhole) (arg2 : Memref sig .tc .vmem S8x128x128 .i32) (harg2 : arg2.IsWhole) (arg3 : Memref sig .tc .vmem S8x128x128 .f32) (harg3 : arg3.IsWhole) (arg4 : Memref sig .tc .vmem S8 .f32) (harg4 : arg4.IsWhole) (arg5 : Memref sig .tc .vmem S24x8x128x128 .f32) (harg5 : arg5.IsWhole) (arg6 : Memref sig .tc .vmem S8x128x128 .f32) (harg6 : arg6.IsWhole) (hc0 : ¬cond0_0 i) (hc1 : ¬cond0_1 i)
  (x0 : Vec Ideal S8x8x128x128 .f32) (x1 : Vec Ideal S8x128x128 .i32) (x2 : Vec Ideal S8x128x128 .f32) (xs0 : Vec Ideal S24x8x128x128 .f32) (xs1 : Vec Ideal S8x128x128 .f32)

theorem sq_B : sout0_B_1 c i arg1 harg1 arg2 harg2 arg3 harg3 arg4 harg4 arg5 harg5 arg6 harg6 hc0 hc1 x0 x1 x2 xs0 xs1 = sqAcc x0 xs1 := by
  unfold sout0_B_1
  rw [View.read_writes_eq_canon _ _ _ (scover0_B_1 c i arg1 harg1 arg2 harg2 arg3 harg3 arg4 harg4 arg5 harg5 arg6 harg6 hc0 hc1 x0 x1 x2 xs0 xs1)]
  unfold kernelRun0_B
  dsimp only
  rw [View.canon_unit_zero hz3]
  simp only [View.readAt_eq_ld, harg1.read_unread, harg6.read_unread, View.ld_unit_zero (S := S8x8x128x128) hz4,
    View.ld_unit_zero (S := S8x128x128) hz3]
  exact pay37_eq x0 xs1

theorem dot_B : sout0_B_0 c i arg1 harg1 arg2 harg2 arg3 harg3 arg4 harg4 arg5 harg5 arg6 harg6 hc0 hc1 x0 x1 x2 xs0 xs1 = dotAcc x0 xs0 := by
  unfold sout0_B_0
  rw [View.read_writes_eq_canon _ _ _ (scover0_B_0 c i arg1 harg1 arg2 harg2 arg3 harg3 arg4 harg4 arg5 harg5 arg6 harg6 hc0 hc1 x0 x1 x2 xs0 xs1)]
  funext y
  refine View.canon_apply_of_pieces (dotAcc x0 xs0) _ ?_ y (scover0_B_0 c i arg1 harg1 arg2 harg2 arg3 harg3 arg4 harg4 arg5 harg5 arg6 harg6 hc0 hc1 x0 x1 x2 xs0 xs1 y)
  unfold kernelRun0_B
  dsimp only
  sl_unfold_words
  simp only [View.readAt_eq_ld, harg1.read_unread, harg5.read_unread, View.ld_unit_zero (S := S8x8x128x128) hz4]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact fun y => dotStep_slab 23 _ x0 xs0 _ (fun _ => rfl) y
  · exact fun y => dotStep_slab 22 _ x0 xs0 _ (fun _ => rfl) y
  · exact fun y => dotStep_slab 21 _ x0 xs0 _ (fun _ => rfl) y
  · exact fun y => dotStep_slab 20 _ x0 xs0 _ (fun _ => rfl) y
  · exact fun y => dotStep_slab 19 _ x0 xs0 _ (fun _ => rfl) y
  · exact fun y => dotStep_slab 18 _ x0 xs0 _ (fun _ => rfl) y
  · exact fun y => dotStep_slab 17 _ x0 xs0 _ (fun _ => rfl) y
  · exact fun y => dotStep_slab 16 _ x0 xs0 _ (fun _ => rfl) y
  · exact fun y => dotStep_slab 15 _ x0 xs0 _ (fun _ => rfl) y
  · exact fun y => dotStep_slab 14 _ x0 xs0 _ (fun _ => rfl) y
  · exact fun y => dotStep_slab 13 _ x0 xs0 _ (fun _ => rfl) y
  · exact fun y => dotStep_slab 12 _ x0 xs0 _ (fun _ => rfl) y
  · exact fun y => dotStep_slab 11 _ x0 xs0 _ (fun _ => rfl) y
  · exact fun y => dotStep_slab 10 _ x0 xs0 _ (fun _ => rfl) y
  · exact fun y => dotStep_slab 9 _ x0 xs0 _ (fun _ => rfl) y
  · exact fun y => dotStep_slab 8 _ x0 xs0 _ (fun _ => rfl) y
  · exact fun y => dotStep_slab 7 _ x0 xs0 _ (fun _ => rfl) y
  · exact fun y => dotStep_slab 6 _ x0 xs0 _ (fun _ => rfl) y
  · exact fun y => dotStep_slab 5 _ x0 xs0 _ (fun _ => rfl) y
  · exact fun y => dotStep_slab 4 _ x0 xs0 _ (fun _ => rfl) y
  · exact fun y => dotStep_slab 3 _ x0 xs0 _ (fun _ => rfl) y
  · exact fun y => dotStep_slab 2 _ x0 xs0 _ (fun _ => rfl) y
  · exact fun y => dotStep_slab 1 _ x0 xs0 _ (fun _ => rfl) y
  · exact fun y => dotStep_slab 0 _ x0 xs0 _ (fun _ => rfl) y

end CaseB

/-! ## The last point: the accumulators -/

section CaseC
variable (c : Dev nD) (i : grid0.Coords) (arg1 : Memref sig .tc .vmem S8x8x128x128 .f32) (harg1 : arg1.IsWhole) (arg2 : Memref sig .tc .vmem S8x128x128 .i32) (harg2 : arg2.IsWhole) (arg3 : Memref sig .tc .vmem S8x128x128 .f32) (harg3 : arg3.IsWhole) (arg4 : Memref sig .tc .vmem S8 .f32) (harg4 : arg4.IsWhole) (arg5 : Memref sig .tc .vmem S24x8x128x128 .f32) (harg5 : arg5.IsWhole) (arg6 : Memref sig .tc .vmem S8x128x128 .f32) (harg6 : arg6.IsWhole) (hc0 : ¬cond0_0 i) (hc1 : cond0_1 i)
  (x0 : Vec Ideal S8x8x128x128 .f32) (x1 : Vec Ideal S8x128x128 .i32) (x2 : Vec Ideal S8x128x128 .f32) (xs0 : Vec Ideal S24x8x128x128 .f32) (xs1 : Vec Ideal S8x128x128 .f32)

theorem sq_C : sout0_C_1 c i arg1 harg1 arg2 harg2 arg3 harg3 arg4 harg4 arg5 harg5 arg6 harg6 hc0 hc1 x0 x1 x2 xs0 xs1 = sqAcc x0 xs1 := by
  unfold sout0_C_1
  rw [View.read_writes_eq_canon _ _ _ (scover0_C_1 c i arg1 harg1 arg2 harg2 arg3 harg3 arg4 harg4 arg5 harg5 arg6 harg6 hc0 hc1 x0 x1 x2 xs0 xs1)]
  unfold kernelRun0_C
  dsimp only
  sl_unfold_words
  rw [View.canon_unit_zero hz3]
  simp only [View.readAt_eq_ld, harg1.read_unread, harg6.read_unread, View.ld_unit_zero (S := S8x8x128x128) hz4,
    View.ld_unit_zero (S := S8x128x128) hz3]
  exact pay37_eq x0 xs1

theorem dot_C : sout0_C_0 c i arg1 harg1 arg2 harg2 arg3 harg3 arg4 harg4 arg5 harg5 arg6 harg6 hc0 hc1 x0 x1 x2 xs0 xs1 = dotAcc x0 xs0 := by
  unfold sout0_C_0
  rw [View.read_writes_eq_canon _ _ _ (scover0_C_0 c i arg1 harg1 arg2 harg2 arg3 harg3 arg4 harg4 arg5 harg5 arg6 harg6 hc0 hc1 x0 x1 x2 xs0 xs1)]
  funext y
  refine View.canon_apply_of_pieces (dotAcc x0 xs0) _ ?_ y (scover0_C_0 c i arg1 harg1 arg2 harg2 arg3 harg3 arg4 harg4 arg5 harg5 arg6 harg6 hc0 hc1 x0 x1 x2 xs0 xs1 y)
  unfold kernelRun0_C
  dsimp only
  sl_unfold_words
  simp only [View.readAt_eq_ld, harg1.read_unread, harg5.read_unread, View.ld_unit_zero (S := S8x8x128x128) hz4]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl
  · exact fun y => dotStep_slab 23 _ x0 xs0 _ (fun _ => rfl) y
  · exact fun y => dotStep_slab 22 _ x0 xs0 _ (fun _ => rfl) y
  · exact fun y => dotStep_slab 21 _ x0 xs0 _ (fun _ => rfl) y
  · exact fun y => dotStep_slab 20 _ x0 xs0 _ (fun _ => rfl) y
  · exact fun y => dotStep_slab 19 _ x0 xs0 _ (fun _ => rfl) y
  · exact fun y => dotStep_slab 18 _ x0 xs0 _ (fun _ => rfl) y
  · exact fun y => dotStep_slab 17 _ x0 xs0 _ (fun _ => rfl) y
  · exact fun y => dotStep_slab 16 _ x0 xs0 _ (fun _ => rfl) y
  · exact fun y => dotStep_slab 15 _ x0 xs0 _ (fun _ => rfl) y
  · exact fun y => dotStep_slab 14 _ x0 xs0 _ (fun _ => rfl) y
  · exact fun y => dotStep_slab 13 _ x0 xs0 _ (fun _ => rfl) y
  · exact fun y => dotStep_slab 12 _ x0 xs0 _ (fun _ => rfl) y
  · exact fun y => dotStep_slab 11 _ x0 xs0 _ (fun _ => rfl) y
  · exact fun y => dotStep_slab 10 _ x0 xs0 _ (fun _ => rfl) y
  · exact fun y => dotStep_slab 9 _ x0 xs0 _ (fun _ => rfl) y
  · exact fun y => dotStep_slab 8 _ x0 xs0 _ (fun _ => rfl) y
  · exact fun y => dotStep_slab 7 _ x0 xs0 _ (fun _ => rfl) y
  · exact fun y => dotStep_slab 6 _ x0 xs0 _ (fun _ => rfl) y
  · exact fun y => dotStep_slab 5 _ x0 xs0 _ (fun _ => rfl) y
  · exact fun y => dotStep_slab 4 _ x0 xs0 _ (fun _ => rfl) y
  · exact fun y => dotStep_slab 3 _ x0 xs0 _ (fun _ => rfl) y
  · exact fun y => dotStep_slab 2 _ x0 xs0 _ (fun _ => rfl) y
  · exact fun y => dotStep_slab 1 _ x0 xs0 _ (fun _ => rfl) y
  · exact fun y => dotStep_slab 0 _ x0 xs0 _ (fun _ => rfl) y

include c i arg1 harg1 arg2 harg2 arg3 harg3 arg4 harg4 arg5 harg5 arg6 harg6 hc0 hc1 x0 x1 x2 xs0 xs1

/-- After the point's 24 slab stores the accumulator array reads as the one function. -/
theorem can_C : View.canon (kernelRun0_C.sl.HS0_24 c arg1 harg1 arg5 harg5 x0 xs0) = dotAcc x0 xs0 := by
  have h := dot_C c i arg1 harg1 arg2 harg2 arg3 harg3 arg4 harg4 arg5 harg5 arg6 harg6 hc0 hc1 x0 x1 x2 xs0 xs1
  unfold sout0_C_0 at h
  rw [View.read_writes_eq_canon _ _ _ (scover0_C_0 c i arg1 harg1 arg2 harg2 arg3 harg3 arg4 harg4 arg5 harg5 arg6 harg6 hc0 hc1 x0 x1 x2 xs0 xs1)] at h
  unfold kernelRun0_C at h
  dsimp only at h
  exact h

/-- The squared-length accumulator read back after its store. -/
theorem ld_C_sq : kernelRun0_C.sl.v254 c arg1 harg1 arg6 harg6 x0 xs1 = sqAcc x0 xs1 := by
  unfold kernelRun0_C.sl.v254 kernelRun0_C.sl.HS1_1
  rw [View.readCov_unit_zero _ hz3]
  simp only [View.readAt_eq_ld, harg1.read_unread, harg6.read_unread, View.ld_unit_zero (S := S8x8x128x128) hz4,
    View.ld_unit_zero (S := S8x128x128) hz3]
  exact pay37_eq x0 xs1

theorem ld_C_0 : kernelRun0_C.sl.v266 c arg1 harg1 arg5 harg5 x0 xs0
    = fun j => dotAcc x0 xs0 ((Rect.unit (s := S24x8x128x128) ![0, 0, 0, 0] ![1, 8, 128, 128] inb_S24x8x128x128_S1x8x128x128_0_0_0_0).emb j) := by
  unfold kernelRun0_C.sl.v266
  rw [View.readCov_eq_canon', can_C c i arg1 harg1 arg2 harg2 arg3 harg3 arg4 harg4 arg5 harg5 arg6 harg6 hc0 hc1 x0 x1 x2 xs0 xs1]
  rfl
theorem ld_C_1 : kernelRun0_C.sl.v286 c arg1 harg1 arg5 harg5 x0 xs0
    = fun j => dotAcc x0 xs0 ((Rect.unit (s := S24x8x128x128) ![1, 0, 0, 0] ![1, 8, 128, 128] inb_S24x8x128x128_S1x8x128x128_1_0_0_0).emb j) := by
  unfold kernelRun0_C.sl.v286
  rw [View.readCov_eq_canon', can_C c i arg1 harg1 arg2 harg2 arg3 harg3 arg4 harg4 arg5 harg5 arg6 harg6 hc0 hc1 x0 x1 x2 xs0 xs1]
  rfl
theorem ld_C_2 : kernelRun0_C.sl.v306 c arg1 harg1 arg5 harg5 x0 xs0
    = fun j => dotAcc x0 xs0 ((Rect.unit (s := S24x8x128x128) ![2, 0, 0, 0] ![1, 8, 128, 128] inb_S24x8x128x128_S1x8x128x128_2_0_0_0).emb j) := by
  unfold kernelRun0_C.sl.v306
  rw [View.readCov_eq_canon', can_C c i arg1 harg1 arg2 harg2 arg3 harg3 arg4 harg4 arg5 harg5 arg6 harg6 hc0 hc1 x0 x1 x2 xs0 xs1]
  rfl
theorem ld_C_3 : kernelRun0_C.sl.v326 c arg1 harg1 arg5 harg5 x0 xs0
    = fun j => dotAcc x0 xs0 ((Rect.unit (s := S24x8x128x128) ![3, 0, 0, 0] ![1, 8, 128, 128] inb_S24x8x128x128_S1x8x128x128_3_0_0_0).emb j) := by
  unfold kernelRun0_C.sl.v326
  rw [View.readCov_eq_canon', can_C c i arg1 harg1 arg2 harg2 arg3 harg3 arg4 harg4 arg5 harg5 arg6 harg6 hc0 hc1 x0 x1 x2 xs0 xs1]
  rfl
theorem ld_C_4 : kernelRun0_C.sl.v346 c arg1 harg1 arg5 harg5 x0 xs0
    = fun j => dotAcc x0 xs0 ((Rect.unit (s := S24x8x128x128) ![4, 0, 0, 0] ![1, 8, 128, 128] inb_S24x8x128x128_S1x8x128x128_4_0_0_0).emb j) := by
  unfold kernelRun0_C.sl.v346
  rw [View.readCov_eq_canon', can_C c i arg1 harg1 arg2 harg2 arg3 harg3 arg4 harg4 arg5 harg5 arg6 harg6 hc0 hc1 x0 x1 x2 xs0 xs1]
  rfl
theorem ld_C_5 : kernelRun0_C.sl.v366 c arg1 harg1 arg5 harg5 x0 xs0
    = fun j => dotAcc x0 xs0 ((Rect.unit (s := S24x8x128x128) ![5, 0, 0, 0] ![1, 8, 128, 128] inb_S24x8x128x128_S1x8x128x128_5_0_0_0).emb j) := by
  unfold kernelRun0_C.sl.v366
  rw [View.readCov_eq_canon', can_C c i arg1 harg1 arg2 harg2 arg3 harg3 arg4 harg4 arg5 harg5 arg6 harg6 hc0 hc1 x0 x1 x2 xs0 xs1]
  rfl
theorem ld_C_6 : kernelRun0_C.sl.v386 c arg1 harg1 arg5 harg5 x0 xs0
    = fun j => dotAcc x0 xs0 ((Rect.unit (s := S24x8x128x128) ![6, 0, 0, 0] ![1, 8, 128, 128] inb_S24x8x128x128_S1x8x128x128_6_0_0_0).emb j) := by
  unfold kernelRun0_C.sl.v386
  rw [View.readCov_eq_canon', can_C c i arg1 harg1 arg2 harg2 arg3 harg3 arg4 harg4 arg5 harg5 arg6 harg6 hc0 hc1 x0 x1 x2 xs0 xs1]
  rfl
theorem ld_C_7 : kernelRun0_C.sl.v406 c arg1 harg1 arg5 harg5 x0 xs0
    = fun j => dotAcc x0 xs0 ((Rect.unit (s := S24x8x128x128) ![7, 0, 0, 0] ![1, 8, 128, 128] inb_S24x8x128x128_S1x8x128x128_7_0_0_0).emb j) := by
  unfold kernelRun0_C.sl.v406
  rw [View.readCov_eq_canon', can_C c i arg1 harg1 arg2 harg2 arg3 harg3 arg4 harg4 arg5 harg5 arg6 harg6 hc0 hc1 x0 x1 x2 xs0 xs1]
  rfl
theorem ld_C_8 : kernelRun0_C.sl.v426 c arg1 harg1 arg5 harg5 x0 xs0
    = fun j => dotAcc x0 xs0 ((Rect.unit (s := S24x8x128x128) ![8, 0, 0, 0] ![1, 8, 128, 128] inb_S24x8x128x128_S1x8x128x128_8_0_0_0).emb j) := by
  unfold kernelRun0_C.sl.v426
  rw [View.readCov_eq_canon', can_C c i arg1 harg1 arg2 harg2 arg3 harg3 arg4 harg4 arg5 harg5 arg6 harg6 hc0 hc1 x0 x1 x2 xs0 xs1]
  rfl
theorem ld_C_9 : kernelRun0_C.sl.v446 c arg1 harg1 arg5 harg5 x0 xs0
    = fun j => dotAcc x0 xs0 ((Rect.unit (s := S24x8x128x128) ![9, 0, 0, 0] ![1, 8, 128, 128] inb_S24x8x128x128_S1x8x128x128_9_0_0_0).emb j) := by
  unfold kernelRun0_C.sl.v446
  rw [View.readCov_eq_canon', can_C c i arg1 harg1 arg2 harg2 arg3 harg3 arg4 harg4 arg5 harg5 arg6 harg6 hc0 hc1 x0 x1 x2 xs0 xs1]
  rfl
theorem ld_C_10 : kernelRun0_C.sl.v466 c arg1 harg1 arg5 harg5 x0 xs0
    = fun j => dotAcc x0 xs0 ((Rect.unit (s := S24x8x128x128) ![10, 0, 0, 0] ![1, 8, 128, 128] inb_S24x8x128x128_S1x8x128x128_10_0_0_0).emb j) := by
  unfold kernelRun0_C.sl.v466
  rw [View.readCov_eq_canon', can_C c i arg1 harg1 arg2 harg2 arg3 harg3 arg4 harg4 arg5 harg5 arg6 harg6 hc0 hc1 x0 x1 x2 xs0 xs1]
  rfl
theorem ld_C_11 : kernelRun0_C.sl.v486 c arg1 harg1 arg5 harg5 x0 xs0
    = fun j => dotAcc x0 xs0 ((Rect.unit (s := S24x8x128x128) ![11, 0, 0, 0] ![1, 8, 128, 128] inb_S24x8x128x128_S1x8x128x128_11_0_0_0).emb j) := by
  unfold kernelRun0_C.sl.v486
  rw [View.readCov_eq_canon', can_C c i arg1 harg1 arg2 harg2 arg3 harg3 arg4 harg4 arg5 harg5 arg6 harg6 hc0 hc1 x0 x1 x2 xs0 xs1]
  rfl
theorem ld_C_12 : kernelRun0_C.sl.v506 c arg1 harg1 arg5 harg5 x0 xs0
    = fun j => dotAcc x0 xs0 ((Rect.unit (s := S24x8x128x128) ![12, 0, 0, 0] ![1, 8, 128, 128] inb_S24x8x128x128_S1x8x128x128_12_0_0_0).emb j) := by
  unfold kernelRun0_C.sl.v506
  rw [View.readCov_eq_canon', can_C c i arg1 harg1 arg2 harg2 arg3 harg3 arg4 harg4 arg5 harg5 arg6 harg6 hc0 hc1 x0 x1 x2 xs0 xs1]
  rfl
theorem ld_C_13 : kernelRun0_C.sl.v526 c arg1 harg1 arg5 harg5 x0 xs0
    = fun j => dotAcc x0 xs0 ((Rect.unit (s := S24x8x128x128) ![13, 0, 0, 0] ![1, 8, 128, 128] inb_S24x8x128x128_S1x8x128x128_13_0_0_0).emb j) := by
  unfold kernelRun0_C.sl.v526
  rw [View.readCov_eq_canon', can_C c i arg1 harg1 arg2 harg2 arg3 harg3 arg4 harg4 arg5 harg5 arg6 harg6 hc0 hc1 x0 x1 x2 xs0 xs1]
  rfl
theorem ld_C_14 : kernelRun0_C.sl.v546 c arg1 harg1 arg5 harg5 x0 xs0
    = fun j => dotAcc x0 xs0 ((Rect.unit (s := S24x8x128x128) ![14, 0, 0, 0] ![1, 8, 128, 128] inb_S24x8x128x128_S1x8x128x128_14_0_0_0).emb j) := by
  unfold kernelRun0_C.sl.v546
  rw [View.readCov_eq_canon', can_C c i arg1 harg1 arg2 harg2 arg3 harg3 arg4 harg4 arg5 harg5 arg6 harg6 hc0 hc1 x0 x1 x2 xs0 xs1]
  rfl
theorem ld_C_15 : kernelRun0_C.sl.v566 c arg1 harg1 arg5 harg5 x0 xs0
    = fun j => dotAcc x0 xs0 ((Rect.unit (s := S24x8x128x128) ![15, 0, 0, 0] ![1, 8, 128, 128] inb_S24x8x128x128_S1x8x128x128_15_0_0_0).emb j) := by
  unfold kernelRun0_C.sl.v566
  rw [View.readCov_eq_canon', can_C c i arg1 harg1 arg2 harg2 arg3 harg3 arg4 harg4 arg5 harg5 arg6 harg6 hc0 hc1 x0 x1 x2 xs0 xs1]
  rfl
theorem ld_C_16 : kernelRun0_C.sl.v586 c arg1 harg1 arg5 harg5 x0 xs0
    = fun j => dotAcc x0 xs0 ((Rect.unit (s := S24x8x128x128) ![16, 0, 0, 0] ![1, 8, 128, 128] inb_S24x8x128x128_S1x8x128x128_16_0_0_0).emb j) := by
  unfold kernelRun0_C.sl.v586
  rw [View.readCov_eq_canon', can_C c i arg1 harg1 arg2 harg2 arg3 harg3 arg4 harg4 arg5 harg5 arg6 harg6 hc0 hc1 x0 x1 x2 xs0 xs1]
  rfl
theorem ld_C_17 : kernelRun0_C.sl.v606 c arg1 harg1 arg5 harg5 x0 xs0
    = fun j => dotAcc x0 xs0 ((Rect.unit (s := S24x8x128x128) ![17, 0, 0, 0] ![1, 8, 128, 128] inb_S24x8x128x128_S1x8x128x128_17_0_0_0).emb j) := by
  unfold kernelRun0_C.sl.v606
  rw [View.readCov_eq_canon', can_C c i arg1 harg1 arg2 harg2 arg3 harg3 arg4 harg4 arg5 harg5 arg6 harg6 hc0 hc1 x0 x1 x2 xs0 xs1]
  rfl
theorem ld_C_18 : kernelRun0_C.sl.v626 c arg1 harg1 arg5 harg5 x0 xs0
    = fun j => dotAcc x0 xs0 ((Rect.unit (s := S24x8x128x128) ![18, 0, 0, 0] ![1, 8, 128, 128] inb_S24x8x128x128_S1x8x128x128_18_0_0_0).emb j) := by
  unfold kernelRun0_C.sl.v626
  rw [View.readCov_eq_canon', can_C c i arg1 harg1 arg2 harg2 arg3 harg3 arg4 harg4 arg5 harg5 arg6 harg6 hc0 hc1 x0 x1 x2 xs0 xs1]
  rfl
theorem ld_C_19 : kernelRun0_C.sl.v646 c arg1 harg1 arg5 harg5 x0 xs0
    = fun j => dotAcc x0 xs0 ((Rect.unit (s := S24x8x128x128) ![19, 0, 0, 0] ![1, 8, 128, 128] inb_S24x8x128x128_S1x8x128x128_19_0_0_0).emb j) := by
  unfold kernelRun0_C.sl.v646
  rw [View.readCov_eq_canon', can_C c i arg1 harg1 arg2 harg2 arg3 harg3 arg4 harg4 arg5 harg5 arg6 harg6 hc0 hc1 x0 x1 x2 xs0 xs1]
  rfl
theorem ld_C_20 : kernelRun0_C.sl.v666 c arg1 harg1 arg5 harg5 x0 xs0
    = fun j => dotAcc x0 xs0 ((Rect.unit (s := S24x8x128x128) ![20, 0, 0, 0] ![1, 8, 128, 128] inb_S24x8x128x128_S1x8x128x128_20_0_0_0).emb j) := by
  unfold kernelRun0_C.sl.v666
  rw [View.readCov_eq_canon', can_C c i arg1 harg1 arg2 harg2 arg3 harg3 arg4 harg4 arg5 harg5 arg6 harg6 hc0 hc1 x0 x1 x2 xs0 xs1]
  rfl
theorem ld_C_21 : kernelRun0_C.sl.v686 c arg1 harg1 arg5 harg5 x0 xs0
    = fun j => dotAcc x0 xs0 ((Rect.unit (s := S24x8x128x128) ![21, 0, 0, 0] ![1, 8, 128, 128] inb_S24x8x128x128_S1x8x128x128_21_0_0_0).emb j) := by
  unfold kernelRun0_C.sl.v686
  rw [View.readCov_eq_canon', can_C c i arg1 harg1 arg2 harg2 arg3 harg3 arg4 harg4 arg5 harg5 arg6 harg6 hc0 hc1 x0 x1 x2 xs0 xs1]
  rfl
theorem ld_C_22 : kernelRun0_C.sl.v706 c arg1 harg1 arg5 harg5 x0 xs0
    = fun j => dotAcc x0 xs0 ((Rect.unit (s := S24x8x128x128) ![22, 0, 0, 0] ![1, 8, 128, 128] inb_S24x8x128x128_S1x8x128x128_22_0_0_0).emb j) := by
  unfold kernelRun0_C.sl.v706
  rw [View.readCov_eq_canon', can_C c i arg1 harg1 arg2 harg2 arg3 harg3 arg4 harg4 arg5 harg5 arg6 harg6 hc0 hc1 x0 x1 x2 xs0 xs1]
  rfl
theorem ld_C_23 : kernelRun0_C.sl.v726 c arg1 harg1 arg5 harg5 x0 xs0
    = fun j => dotAcc x0 xs0 ((Rect.unit (s := S24x8x128x128) ![23, 0, 0, 0] ![1, 8, 128, 128] inb_S24x8x128x128_S1x8x128x128_23_0_0_0).emb j) := by
  unfold kernelRun0_C.sl.v726
  rw [View.readCov_eq_canon', can_C c i arg1 harg1 arg2 harg2 arg3 harg3 arg4 harg4 arg5 harg5 arg6 harg6 hc0 hc1 x0 x1 x2 xs0 xs1]
  rfl

end CaseC

/-! ## The first point: both accumulators are zeroed, then updated slab by slab -/

/-- The zeroed accumulator array. -/
abbrev ZA : FVec Ideal QA .f32 := k0_pay35 (F := Ideal)

/-- After the zeroing store and the stores of slabs `0 … k − 1`, the array reads as the updated function on those
    slabs and as zero elsewhere. -/
def SlabsDone (X : FVec Ideal Q4 .f32) (k : ℕ) (L : List (View.Piece (Elt Ideal) S24x8x128x128 .f32)) : Prop :=
  ∀ y : QA.Idx, View.canon L y = if (y 0).val < k then dotAcc X ZA y else ZA y

theorem slabs_step (arg5 : Memref sig .tc .vmem S24x8x128x128 .f32) (k : ℕ)
    (inb : ∀ a, (![k, 0, 0, 0] : Fin 4 → ℕ) a + (![1, 8, 128, 128] : Fin 4 → ℕ) a ≤ QA.size a)
    (X : FVec Ideal Q4 .f32) (w : FVec Ideal Q1 .f32) (L : List (View.Piece (Elt Ideal) S24x8x128x128 .f32))
    (hL : SlabsDone X k L)
    (hw : w = dotStep (shA k) (shB k) X
      (arg5.view.readCov L (Rect.unit (s := S24x8x128x128) ![k, 0, 0, 0] ![1, 8, 128, 128] inb).toLoadRect)) :
    SlabsDone X (k + 1) (⟨Rect.unit (s := S24x8x128x128) ![k, 0, 0, 0] ![1, 8, 128, 128] inb, w⟩ :: L) := by
  intro y
  by_cases hm : y ∈ (Rect.unit (s := S24x8x128x128) ![k, 0, 0, 0] ![1, 8, 128, 128] inb).set
  · obtain ⟨x, rfl⟩ := (Rect.unit (s := S24x8x128x128) ![k, 0, 0, 0] ![1, 8, 128, 128] inb).exists_idx_of_mem hm
    have h0 : (x 0).val = 0 := by have := (x 0).isLt; simp at this; omega
    have e0 : (((Rect.unit (s := S24x8x128x128) ![k, 0, 0, 0] ![1, 8, 128, 128] inb).idx x) 0).val = k := by
      show k + 1 * (x 0).val = k; omega
    rw [show (Rect.unit (s := S24x8x128x128) ![k, 0, 0, 0] ![1, 8, 128, 128] inb).idx x
        = (Rect.unit (s := S24x8x128x128) ![k, 0, 0, 0] ![1, 8, 128, 128] inb).emb x from rfl, View.canon_cons_emb]
    have e0' : (((Rect.unit (s := S24x8x128x128) ![k, 0, 0, 0] ![1, 8, 128, 128] inb).emb x) 0).val = k := e0
    rw [if_pos (by rw [e0']; omega), hw]
    refine dotStep_slab k inb X ZA _ (fun y' => ?_) x
    rw [View.readCov_eq_canon']
    show View.canon L ((Rect.unit (s := S24x8x128x128) ![k, 0, 0, 0] ![1, 8, 128, 128] inb).idx y') = _
    have h0' : (y' 0).val = 0 := by have := (y' 0).isLt; simp at this; omega
    have e1 : (((Rect.unit (s := S24x8x128x128) ![k, 0, 0, 0] ![1, 8, 128, 128] inb).idx y') 0).val = k := by
      show k + 1 * (y' 0).val = k; omega
    rw [hL, if_neg (by rw [e1]; omega)]
    rfl
  · refine (View.canon_cons_of_not_mem (Val := Elt Ideal)
      (⟨Rect.unit (s := S24x8x128x128) ![k, 0, 0, 0] ![1, 8, 128, 128] inb, w⟩ : View.Piece (Elt Ideal) S24x8x128x128 .f32)
      L hm).trans ((hL y).trans ?_)
    have hne : (y 0).val ≠ k := fun h => hm (Rect.mem_set_unit.mpr fun a => by
      have h1 := (y 1).isLt; have h2 := (y 2).isLt; have h3 := (y 3).isLt
      match a with
      | ⟨0, _⟩ => show k ≤ (y 0).val ∧ (y 0).val < k + 1; omega
      | ⟨1, _⟩ => show 0 ≤ (y 1).val ∧ (y 1).val < 0 + 8; exact ⟨Nat.zero_le _, by simpa using h1⟩
      | ⟨2, _⟩ => show 0 ≤ (y 2).val ∧ (y 2).val < 0 + 128; exact ⟨Nat.zero_le _, by simpa using h2⟩
      | ⟨3, _⟩ => show 0 ≤ (y 3).val ∧ (y 3).val < 0 + 128; exact ⟨Nat.zero_le _, by simpa using h3⟩)
    by_cases hlt : (y 0).val < k
    · rw [if_pos hlt, if_pos (by omega)]
    · rw [if_neg hlt, if_neg (by omega)]

section CaseA
variable (c : Dev nD) (i : grid0.Coords) (arg1 : Memref sig .tc .vmem S8x8x128x128 .f32) (harg1 : arg1.IsWhole) (arg2 : Memref sig .tc .vmem S8x128x128 .i32) (harg2 : arg2.IsWhole) (arg3 : Memref sig .tc .vmem S8x128x128 .f32) (harg3 : arg3.IsWhole) (arg4 : Memref sig .tc .vmem S8 .f32) (harg4 : arg4.IsWhole) (arg5 : Memref sig .tc .vmem S24x8x128x128 .f32) (harg5 : arg5.IsWhole) (arg6 : Memref sig .tc .vmem S8x128x128 .f32) (harg6 : arg6.IsWhole) (hc0 : cond0_0 i) (hc1 : ¬cond0_1 i)
  (x0 : Vec Ideal S8x8x128x128 .f32) (x1 : Vec Ideal S8x128x128 .i32) (x2 : Vec Ideal S8x128x128 .f32)

/-- The tile as the body loads it. -/
abbrev XA : FVec Ideal Q4 .f32 :=
  View.readAt (Elt Ideal) arg1.view (Rect.unit (s := S8x8x128x128) ![0, 0, 0, 0] S8x8x128x128.size inb_S8x8x128x128_S8x8x128x128_0_0_0_0).toLoadRect (harg1.unread x0)

theorem XA_eq : XA arg1 harg1 x0 = x0 := by
  unfold XA
  simp only [View.readAt_eq_ld, harg1.read_unread]
  exact View.ld_unit_zero (S := S8x8x128x128) hz4 _ x0

theorem P_0 : SlabsDone (XA arg1 harg1 x0) 0 (kernelRun0_A.sl.HS0_1 (F := Ideal)) := by
  intro y
  unfold kernelRun0_A.sl.HS0_1
  rw [View.canon_unit_zero hz4, if_neg (Nat.not_lt_zero _)]

include c arg1 harg1 arg5 x0
theorem P_1 : SlabsDone (XA arg1 harg1 x0) 1 (kernelRun0_A.sl.HS0_2 (F := Ideal) c arg1 harg1 arg5 x0) := by
  unfold kernelRun0_A.sl.HS0_2
  exact slabs_step arg5 0 _ (XA arg1 harg1 x0) _ _ (P_0 arg1 harg1 x0) rfl
theorem P_2 : SlabsDone (XA arg1 harg1 x0) 2 (kernelRun0_A.sl.HS0_3 (F := Ideal) c arg1 harg1 arg5 x0) := by
  unfold kernelRun0_A.sl.HS0_3
  exact slabs_step arg5 1 _ (XA arg1 harg1 x0) _ _ (P_1 c arg1 harg1 arg5 x0) rfl
theorem P_3 : SlabsDone (XA arg1 harg1 x0) 3 (kernelRun0_A.sl.HS0_4 (F := Ideal) c arg1 harg1 arg5 x0) := by
  unfold kernelRun0_A.sl.HS0_4
  exact slabs_step arg5 2 _ (XA arg1 harg1 x0) _ _ (P_2 c arg1 harg1 arg5 x0) rfl
theorem P_4 : SlabsDone (XA arg1 harg1 x0) 4 (kernelRun0_A.sl.HS0_5 (F := Ideal) c arg1 harg1 arg5 x0) := by
  unfold kernelRun0_A.sl.HS0_5
  exact slabs_step arg5 3 _ (XA arg1 harg1 x0) _ _ (P_3 c arg1 harg1 arg5 x0) rfl
theorem P_5 : SlabsDone (XA arg1 harg1 x0) 5 (kernelRun0_A.sl.HS0_6 (F := Ideal) c arg1 harg1 arg5 x0) := by
  unfold kernelRun0_A.sl.HS0_6
  exact slabs_step arg5 4 _ (XA arg1 harg1 x0) _ _ (P_4 c arg1 harg1 arg5 x0) rfl
theorem P_6 : SlabsDone (XA arg1 harg1 x0) 6 (kernelRun0_A.sl.HS0_7 (F := Ideal) c arg1 harg1 arg5 x0) := by
  unfold kernelRun0_A.sl.HS0_7
  exact slabs_step arg5 5 _ (XA arg1 harg1 x0) _ _ (P_5 c arg1 harg1 arg5 x0) rfl
theorem P_7 : SlabsDone (XA arg1 harg1 x0) 7 (kernelRun0_A.sl.HS0_8 (F := Ideal) c arg1 harg1 arg5 x0) := by
  unfold kernelRun0_A.sl.HS0_8
  exact slabs_step arg5 6 _ (XA arg1 harg1 x0) _ _ (P_6 c arg1 harg1 arg5 x0) rfl
theorem P_8 : SlabsDone (XA arg1 harg1 x0) 8 (kernelRun0_A.sl.HS0_9 (F := Ideal) c arg1 harg1 arg5 x0) := by
  unfold kernelRun0_A.sl.HS0_9
  exact slabs_step arg5 7 _ (XA arg1 harg1 x0) _ _ (P_7 c arg1 harg1 arg5 x0) rfl
theorem P_9 : SlabsDone (XA arg1 harg1 x0) 9 (kernelRun0_A.sl.HS0_10 (F := Ideal) c arg1 harg1 arg5 x0) := by
  unfold kernelRun0_A.sl.HS0_10
  exact slabs_step arg5 8 _ (XA arg1 harg1 x0) _ _ (P_8 c arg1 harg1 arg5 x0) rfl
theorem P_10 : SlabsDone (XA arg1 harg1 x0) 10 (kernelRun0_A.sl.HS0_11 (F := Ideal) c arg1 harg1 arg5 x0) := by
  unfold kernelRun0_A.sl.HS0_11
  exact slabs_step arg5 9 _ (XA arg1 harg1 x0) _ _ (P_9 c arg1 harg1 arg5 x0) rfl
theorem P_11 : SlabsDone (XA arg1 harg1 x0) 11 (kernelRun0_A.sl.HS0_12 (F := Ideal) c arg1 harg1 arg5 x0) := by
  unfold kernelRun0_A.sl.HS0_12
  exact slabs_step arg5 10 _ (XA arg1 harg1 x0) _ _ (P_10 c arg1 harg1 arg5 x0) rfl
theorem P_12 : SlabsDone (XA arg1 harg1 x0) 12 (kernelRun0_A.sl.HS0_13 (F := Ideal) c arg1 harg1 arg5 x0) := by
  unfold kernelRun0_A.sl.HS0_13
  exact slabs_step arg5 11 _ (XA arg1 harg1 x0) _ _ (P_11 c arg1 harg1 arg5 x0) rfl
theorem P_13 : SlabsDone (XA arg1 harg1 x0) 13 (kernelRun0_A.sl.HS0_14 (F := Ideal) c arg1 harg1 arg5 x0) := by
  unfold kernelRun0_A.sl.HS0_14
  exact slabs_step arg5 12 _ (XA arg1 harg1 x0) _ _ (P_12 c arg1 harg1 arg5 x0) rfl
theorem P_14 : SlabsDone (XA arg1 harg1 x0) 14 (kernelRun0_A.sl.HS0_15 (F := Ideal) c arg1 harg1 arg5 x0) := by
  unfold kernelRun0_A.sl.HS0_15
  exact slabs_step arg5 13 _ (XA arg1 harg1 x0) _ _ (P_13 c arg1 harg1 arg5 x0) rfl
theorem P_15 : SlabsDone (XA arg1 harg1 x0) 15 (kernelRun0_A.sl.HS0_16 (F := Ideal) c arg1 harg1 arg5 x0) := by
  unfold kernelRun0_A.sl.HS0_16
  exact slabs_step arg5 14 _ (XA arg1 harg1 x0) _ _ (P_14 c arg1 harg1 arg5 x0) rfl
theorem P_16 : SlabsDone (XA arg1 harg1 x0) 16 (kernelRun0_A.sl.HS0_17 (F := Ideal) c arg1 harg1 arg5 x0) := by
  unfold kernelRun0_A.sl.HS0_17
  exact slabs_step arg5 15 _ (XA arg1 harg1 x0) _ _ (P_15 c arg1 harg1 arg5 x0) rfl
theorem P_17 : SlabsDone (XA arg1 harg1 x0) 17 (kernelRun0_A.sl.HS0_18 (F := Ideal) c arg1 harg1 arg5 x0) := by
  unfold kernelRun0_A.sl.HS0_18
  exact slabs_step arg5 16 _ (XA arg1 harg1 x0) _ _ (P_16 c arg1 harg1 arg5 x0) rfl
theorem P_18 : SlabsDone (XA arg1 harg1 x0) 18 (kernelRun0_A.sl.HS0_19 (F := Ideal) c arg1 harg1 arg5 x0) := by
  unfold kernelRun0_A.sl.HS0_19
  exact slabs_step arg5 17 _ (XA arg1 harg1 x0) _ _ (P_17 c arg1 harg1 arg5 x0) rfl
theorem P_19 : SlabsDone (XA arg1 harg1 x0) 19 (kernelRun0_A.sl.HS0_20 (F := Ideal) c arg1 harg1 arg5 x0) := by
  unfold kernelRun0_A.sl.HS0_20
  exact slabs_step arg5 18 _ (XA arg1 harg1 x0) _ _ (P_18 c arg1 harg1 arg5 x0) rfl
theorem P_20 : SlabsDone (XA arg1 harg1 x0) 20 (kernelRun0_A.sl.HS0_21 (F := Ideal) c arg1 harg1 arg5 x0) := by
  unfold kernelRun0_A.sl.HS0_21
  exact slabs_step arg5 19 _ (XA arg1 harg1 x0) _ _ (P_19 c arg1 harg1 arg5 x0) rfl
theorem P_21 : SlabsDone (XA arg1 harg1 x0) 21 (kernelRun0_A.sl.HS0_22 (F := Ideal) c arg1 harg1 arg5 x0) := by
  unfold kernelRun0_A.sl.HS0_22
  exact slabs_step arg5 20 _ (XA arg1 harg1 x0) _ _ (P_20 c arg1 harg1 arg5 x0) rfl
theorem P_22 : SlabsDone (XA arg1 harg1 x0) 22 (kernelRun0_A.sl.HS0_23 (F := Ideal) c arg1 harg1 arg5 x0) := by
  unfold kernelRun0_A.sl.HS0_23
  exact slabs_step arg5 21 _ (XA arg1 harg1 x0) _ _ (P_21 c arg1 harg1 arg5 x0) rfl
theorem P_23 : SlabsDone (XA arg1 harg1 x0) 23 (kernelRun0_A.sl.HS0_24 (F := Ideal) c arg1 harg1 arg5 x0) := by
  unfold kernelRun0_A.sl.HS0_24
  exact slabs_step arg5 22 _ (XA arg1 harg1 x0) _ _ (P_22 c arg1 harg1 arg5 x0) rfl

include i arg2 harg2 arg3 harg3 arg4 harg4 harg5 arg6 harg6 hc0 hc1 x1 x2

/-- The zeroed squared-length accumulator. -/
abbrev Z3 : FVec Ideal T3 .f32 := k0_pay36 (F := Ideal)

theorem sq_A : sout0_A_1 c i arg1 harg1 arg2 harg2 arg3 harg3 arg4 harg4 arg5 harg5 arg6 harg6 hc0 hc1 x0 x1 x2 = sqAcc x0 Z3 := by
  unfold sout0_A_1
  rw [View.read_writes_eq_canon _ _ _ (scover0_A_1 c i arg1 harg1 arg2 harg2 arg3 harg3 arg4 harg4 arg5 harg5 arg6 harg6 hc0 hc1 x0 x1 x2)]
  unfold kernelRun0_A
  dsimp only
  sl_unfold_words
  rw [View.canon_cons_unit_zero (S := S8x128x128) hz3, View.readCov_unit_zero (S := S8x128x128) _ hz3]
  simp only [View.readAt_eq_ld, harg1.read_unread, View.ld_unit_zero (S := S8x8x128x128) hz4]
  exact pay37_eq x0 Z3

theorem dot_A : sout0_A_0 c i arg1 harg1 arg2 harg2 arg3 harg3 arg4 harg4 arg5 harg5 arg6 harg6 hc0 hc1 x0 x1 x2 = dotAcc x0 ZA := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  funext y
  have h := slabs_step arg5 23 inb_S24x8x128x128_S1x8x128x128_23_0_0_0 (XA arg1 harg1 x0)
    (k0_pay1 (kernelRun0_A.sl.r_10 c arg1 harg1 x0) (kernelRun0_A.sl.v245 c arg1 harg1 arg5 x0))
    (kernelRun0_A.sl.HS0_24 c arg1 harg1 arg5 x0) (P_23 c arg1 harg1 arg5 x0) rfl y
  rw [XA_eq arg1 harg1 x0] at h
  exact h.trans (if_pos (by have := (y 0).isLt; exact this))

end CaseA

/-! ## The last point: the output -/

theorem hz1 : (![0] : Fin 1 → Nat) = fun _ => 0 := funext fun a => by fin_cases a; rfl

theorem slab_inb (s : ℕ) (h : s < 24) :
    ∀ a : Fin 4, (![s, 0, 0, 0] : Fin 4 → ℕ) a + (![1, 8, 128, 128] : Fin 4 → ℕ) a ≤ QA.size a := fun a => by
  match a with
  | ⟨0, _⟩ => show s + 1 ≤ 24; omega
  | ⟨1, _⟩ => show 0 + 8 ≤ 8; omega
  | ⟨2, _⟩ => show 0 + 128 ≤ 128; omega
  | ⟨3, _⟩ => show 0 + 128 ≤ 128; omega

/-- Slab `s` of the accumulator array, as an `[8, 128, 128]` array. -/
def slabOf (D : FVec Ideal QA .f32) (s : ℕ) : FVec Ideal T3 .f32 :=
  if h : s < 24 then
    shapeCast T3 (fun j : Q1.Idx => D ((Rect.unit (s := QA) ![s, 0, 0, 0] ![1, 8, 128, 128] (slab_inb s h)).emb j)) (by decide)
  else fun _ => 0

/-- What the last point stores: the 24 shifts' per-image terms of the accumulated arrays, added in order. -/
def finalTotal (nrm : FVec Ideal T3 .f32) (seg : IVec T3 32) (vf : FVec Ideal T3 .f32) (D : FVec Ideal QA .f32) :
    FVec Ideal T1 .f32 :=
  runSum (broadcast T1 (Scalar.ofBits (F := Ideal) .f32 0x00000000#32))
    (fun n => shiftTerm (shA n) (shB n) nrm seg vf (slabOf D n)) 24

section CaseCOut
variable (c : Dev nD) (i : grid0.Coords) (arg1 : Memref sig .tc .vmem S8x8x128x128 .f32) (harg1 : arg1.IsWhole) (arg2 : Memref sig .tc .vmem S8x128x128 .i32) (harg2 : arg2.IsWhole) (arg3 : Memref sig .tc .vmem S8x128x128 .f32) (harg3 : arg3.IsWhole) (arg4 : Memref sig .tc .vmem S8 .f32) (harg4 : arg4.IsWhole) (arg5 : Memref sig .tc .vmem S24x8x128x128 .f32) (harg5 : arg5.IsWhole) (arg6 : Memref sig .tc .vmem S8x128x128 .f32) (harg6 : arg6.IsWhole) (hc0 : ¬cond0_0 i) (hc1 : cond0_1 i)
  (x0 : Vec Ideal S8x8x128x128 .f32) (x1 : Vec Ideal S8x128x128 .i32) (x2 : Vec Ideal S8x128x128 .f32) (xs0 : Vec Ideal S24x8x128x128 .f32) (xs1 : Vec Ideal S8x128x128 .f32)

set_option maxHeartbeats 1600000 in
theorem out_C : out0_C_3 c i arg1 harg1 arg2 harg2 arg3 harg3 arg4 harg4 arg5 harg5 arg6 harg6 hc0 hc1 x0 x1 x2 xs0 xs1
    = finalTotal (normOf (sqAcc x0 xs1)) x1 (shapeCast T3 x2 (by decide)) (dotAcc x0 xs0) := by
  unfold out0_C_3
  rw [View.read_writes_eq_canon _ _ _ (cover0_C_3 c i arg1 harg1 arg2 harg2 arg3 harg3 arg4 harg4 arg5 harg5 arg6 harg6 hc0 hc1 x0 x1 x2 xs0 xs1)]
  unfold kernelRun0_C
  dsimp only
  rw [View.canon_unit_zero hz1]
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42,
    ld_C_sq c i arg1 harg1 arg2 harg2 arg3 harg3 arg4 harg4 arg5 harg5 arg6 harg6 hc0 hc1 x0 x1 x2 xs0 xs1,
    ld_C_0 c i arg1 harg1 arg2 harg2 arg3 harg3 arg4 harg4 arg5 harg5 arg6 harg6 hc0 hc1 x0 x1 x2 xs0 xs1,
    ld_C_1 c i arg1 harg1 arg2 harg2 arg3 harg3 arg4 harg4 arg5 harg5 arg6 harg6 hc0 hc1 x0 x1 x2 xs0 xs1,
    ld_C_2 c i arg1 harg1 arg2 harg2 arg3 harg3 arg4 harg4 arg5 harg5 arg6 harg6 hc0 hc1 x0 x1 x2 xs0 xs1,
    ld_C_3 c i arg1 harg1 arg2 harg2 arg3 harg3 arg4 harg4 arg5 harg5 arg6 harg6 hc0 hc1 x0 x1 x2 xs0 xs1,
    ld_C_4 c i arg1 harg1 arg2 harg2 arg3 harg3 arg4 harg4 arg5 harg5 arg6 harg6 hc0 hc1 x0 x1 x2 xs0 xs1,
    ld_C_5 c i arg1 harg1 arg2 harg2 arg3 harg3 arg4 harg4 arg5 harg5 arg6 harg6 hc0 hc1 x0 x1 x2 xs0 xs1,
    ld_C_6 c i arg1 harg1 arg2 harg2 arg3 harg3 arg4 harg4 arg5 harg5 arg6 harg6 hc0 hc1 x0 x1 x2 xs0 xs1,
    ld_C_7 c i arg1 harg1 arg2 harg2 arg3 harg3 arg4 harg4 arg5 harg5 arg6 harg6 hc0 hc1 x0 x1 x2 xs0 xs1,
    ld_C_8 c i arg1 harg1 arg2 harg2 arg3 harg3 arg4 harg4 arg5 harg5 arg6 harg6 hc0 hc1 x0 x1 x2 xs0 xs1,
    ld_C_9 c i arg1 harg1 arg2 harg2 arg3 harg3 arg4 harg4 arg5 harg5 arg6 harg6 hc0 hc1 x0 x1 x2 xs0 xs1,
    ld_C_10 c i arg1 harg1 arg2 harg2 arg3 harg3 arg4 harg4 arg5 harg5 arg6 harg6 hc0 hc1 x0 x1 x2 xs0 xs1,
    ld_C_11 c i arg1 harg1 arg2 harg2 arg3 harg3 arg4 harg4 arg5 harg5 arg6 harg6 hc0 hc1 x0 x1 x2 xs0 xs1,
    ld_C_12 c i arg1 harg1 arg2 harg2 arg3 harg3 arg4 harg4 arg5 harg5 arg6 harg6 hc0 hc1 x0 x1 x2 xs0 xs1,
    ld_C_13 c i arg1 harg1 arg2 harg2 arg3 harg3 arg4 harg4 arg5 harg5 arg6 harg6 hc0 hc1 x0 x1 x2 xs0 xs1,
    ld_C_14 c i arg1 harg1 arg2 harg2 arg3 harg3 arg4 harg4 arg5 harg5 arg6 harg6 hc0 hc1 x0 x1 x2 xs0 xs1,
    ld_C_15 c i arg1 harg1 arg2 harg2 arg3 harg3 arg4 harg4 arg5 harg5 arg6 harg6 hc0 hc1 x0 x1 x2 xs0 xs1,
    ld_C_16 c i arg1 harg1 arg2 harg2 arg3 harg3 arg4 harg4 arg5 harg5 arg6 harg6 hc0 hc1 x0 x1 x2 xs0 xs1,
    ld_C_17 c i arg1 harg1 arg2 harg2 arg3 harg3 arg4 harg4 arg5 harg5 arg6 harg6 hc0 hc1 x0 x1 x2 xs0 xs1,
    ld_C_18 c i arg1 harg1 arg2 harg2 arg3 harg3 arg4 harg4 arg5 harg5 arg6 harg6 hc0 hc1 x0 x1 x2 xs0 xs1,
    ld_C_19 c i arg1 harg1 arg2 harg2 arg3 harg3 arg4 harg4 arg5 harg5 arg6 harg6 hc0 hc1 x0 x1 x2 xs0 xs1,
    ld_C_20 c i arg1 harg1 arg2 harg2 arg3 harg3 arg4 harg4 arg5 harg5 arg6 harg6 hc0 hc1 x0 x1 x2 xs0 xs1,
    ld_C_21 c i arg1 harg1 arg2 harg2 arg3 harg3 arg4 harg4 arg5 harg5 arg6 harg6 hc0 hc1 x0 x1 x2 xs0 xs1,
    ld_C_22 c i arg1 harg1 arg2 harg2 arg3 harg3 arg4 harg4 arg5 harg5 arg6 harg6 hc0 hc1 x0 x1 x2 xs0 xs1,
    ld_C_23 c i arg1 harg1 arg2 harg2 arg3 harg3 arg4 harg4 arg5 harg5 arg6 harg6 hc0 hc1 x0 x1 x2 xs0 xs1,
    View.readAt_eq_ld, harg2.read_unread, harg3.read_unread, View.ld_unit_zero (S := S8x128x128) hz3]
  rfl

end CaseCOut

end Cert.KernelIdeal.Acc

end
-- ==== Proof.KInd.lean ====
/-
  What the accumulators hold after each grid point, and what the last point stores.

  Point `n` adds tile `n`'s contribution; so after point `n` the accumulators are the `(n + 1)`-fold iterates
  `dotPart (n + 1)`, `sqPart (n + 1)` of the one-tile updates from zero (by induction on the point: the first point
  zeroes and updates, the others update), and the last point stores the 24 shifts' terms of the full iterates.
-/
import proofs.«133983_j1632087573343_1_alg».proof.Proof.KAcc

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.Bridge

variable (m : (ℓ : Loc nD τ sig) → Buf (Elt Ideal) ℓ)

/-- The weight block under the identity re-shaping the body applies to it. -/
abbrev castT3 (x : FVec Ideal T3 .f32) : FVec Ideal T3 .f32 := shapeCast T3 x (by decide)

/-- Channel tile `k` of the feature array, as the body finds it. -/
def tileAt (c : Dev nD) (k : ℕ) : FVec Ideal Q4 .f32 :=
  if h : k < cfg0.N then iblk m c 0 ⟨k, h⟩ else fun _ => 0

/-- The shift accumulators after the first `k` tiles. -/
def dotPart (c : Dev nD) : ℕ → FVec Ideal QA .f32
  | 0 => ZA
  | k + 1 => dotAcc (tileAt m c k) (dotPart c k)

/-- The squared-length accumulator after the first `k` tiles. -/
def sqPart (c : Dev nD) : ℕ → FVec Ideal T3 .f32
  | 0 => Z3
  | k + 1 => sqAcc (tileAt m c k) (sqPart c k)

theorem tileAt_eq (c : Dev nD) (t : Fin cfg0.N) : tileAt m c t.val = iblk m c 0 t := by
  unfold tileAt; rw [dif_pos t.isLt]

theorem step_A (c : Dev nD) (t : Fin cfg0.N) (g0 : t.val % 32 = 0) (g1 : ¬t.val % 32 = 31) :
    (outsAt0 m c t.val t.isLt).2.1 = dotAcc (iblk m c 0 t) ZA ∧ (outsAt0 m c t.val t.isLt).2.2 = sqAcc (iblk m c 0 t) Z3 := by
  have hA := outsAt0_A m c t g0 g1
  exact ⟨(by have h2 := congrArg (fun p => p.2.1) hA; dsimp only at h2; exact h2.trans (dot_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr g0) (fun h => g1 ((hcond0_1 t).mp h)) (iblk m c 0 t) (iblk m c 1 t) (iblk m c 2 t))),
    (by have h2 := congrArg (fun p => p.2.2) hA; dsimp only at h2; exact h2.trans (sq_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr g0) (fun h => g1 ((hcond0_1 t).mp h)) (iblk m c 0 t) (iblk m c 1 t) (iblk m c 2 t)))⟩

theorem step_B (c : Dev nD) (t : Fin cfg0.N) (h0 : ¬t.val % 32 = 0) (h1 : ¬t.val % 32 = 31) :
    (outsAt0 m c t.val t.isLt).2.1
        = dotAcc (iblk m c 0 t) (outsAt0 m c (t.val - 1) (Nat.lt_of_le_of_lt (Nat.sub_le _ _) t.isLt)).2.1
      ∧ (outsAt0 m c t.val t.isLt).2.2
        = sqAcc (iblk m c 0 t) (outsAt0 m c (t.val - 1) (Nat.lt_of_le_of_lt (Nat.sub_le _ _) t.isLt)).2.2 := by
  have hB := outsAt0_B m c t h0 h1
  exact ⟨(by have h2 := congrArg (fun p => p.2.1) hB; dsimp only at h2; exact h2.trans (dot_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)),
    (by have h2 := congrArg (fun p => p.2.2) hB; dsimp only at h2; exact h2.trans (sq_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2))⟩

theorem step_C (c : Dev nD) (t : Fin cfg0.N) (h0 : ¬t.val % 32 = 0) (h1 : t.val % 32 = 31) :
    (outsAt0 m c t.val t.isLt).2.1
        = dotAcc (iblk m c 0 t) (outsAt0 m c (t.val - 1) (Nat.lt_of_le_of_lt (Nat.sub_le _ _) t.isLt)).2.1
      ∧ (outsAt0 m c t.val t.isLt).2.2
        = sqAcc (iblk m c 0 t) (outsAt0 m c (t.val - 1) (Nat.lt_of_le_of_lt (Nat.sub_le _ _) t.isLt)).2.2
      ∧ (outsAt0 m c t.val t.isLt).1
        = finalTotal
            (normOf (sqAcc (iblk m c 0 t) (outsAt0 m c (t.val - 1) (Nat.lt_of_le_of_lt (Nat.sub_le _ _) t.isLt)).2.2))
            (iblk m c 1 t) (castT3 (iblk m c 2 t))
            (dotAcc (iblk m c 0 t) (outsAt0 m c (t.val - 1) (Nat.lt_of_le_of_lt (Nat.sub_le _ _) t.isLt)).2.1) := by
  have hC := outsAt0_C m c t h0 h1
  exact ⟨(by have h2 := congrArg (fun p => p.2.1) hC; dsimp only at h2; exact h2.trans (dot_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)),
    (by have h2 := congrArg (fun p => p.2.2) hC; dsimp only at h2; exact h2.trans (sq_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)),
    (by have h2 := congrArg (fun p => p.1) hC; dsimp only at h2; exact h2.trans (out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2))⟩

theorem acc_eq (c : Dev nD) (n : ℕ) : ∀ (hn : n < cfg0.N),
    (outsAt0 m c n hn).2.1 = dotPart m c (n + 1) ∧ (outsAt0 m c n hn).2.2 = sqPart m c (n + 1) := by
  induction n with
  | zero =>
    intro hn
    have h := step_A m c ⟨0, hn⟩ (Nat.zero_mod _) (by dsimp only; omega)
    refine ⟨h.1.trans ?_, h.2.trans ?_⟩
    · show _ = dotAcc (tileAt m c 0) ZA
      rw [tileAt_eq m c ⟨0, hn⟩]
    · show _ = sqAcc (tileAt m c 0) Z3
      rw [tileAt_eq m c ⟨0, hn⟩]
  | succ n ih0 =>
    intro hn
    have hN : cfg0.N = 32 := N_0
    have ih := ih0 (Nat.lt_of_succ_lt hn)
    have h0 : ¬(⟨n + 1, hn⟩ : Fin cfg0.N).val % 32 = 0 := by dsimp only; omega
    have key : (outsAt0 m c (n + 1) hn).2.1 = dotAcc (iblk m c 0 ⟨n + 1, hn⟩) (outsAt0 m c n (Nat.lt_of_succ_lt hn)).2.1
        ∧ (outsAt0 m c (n + 1) hn).2.2 = sqAcc (iblk m c 0 ⟨n + 1, hn⟩) (outsAt0 m c n (Nat.lt_of_succ_lt hn)).2.2 := by
      by_cases h1 : (⟨n + 1, hn⟩ : Fin cfg0.N).val % 32 = 31
      · exact ⟨(step_C m c ⟨n + 1, hn⟩ h0 h1).1, (step_C m c ⟨n + 1, hn⟩ h0 h1).2.1⟩
      · exact step_B m c ⟨n + 1, hn⟩ h0 h1
    refine ⟨key.1.trans ?_, key.2.trans ?_⟩
    · rw [ih.1]
      show _ = dotAcc (tileAt m c (n + 1)) (dotPart m c (n + 1))
      rw [tileAt_eq m c ⟨n + 1, hn⟩]
    · rw [ih.2]
      show _ = sqAcc (tileAt m c (n + 1)) (sqPart m c (n + 1))
      rw [tileAt_eq m c ⟨n + 1, hn⟩]

/-- What the last point stores in the output block. -/
theorem out_last (c : Dev nD) (hn : 31 < cfg0.N) :
    (outsAt0 m c 31 hn).1
      = finalTotal (normOf (sqPart m c 32)) (iblk m c 1 ⟨31, hn⟩) (castT3 (iblk m c 2 ⟨31, hn⟩))
          (dotPart m c 32) := by
  have h := (step_C m c ⟨31, hn⟩ (by dsimp only; omega) (by dsimp only)).2.2
  have ih := acc_eq m c 30 (by omega)
  refine h.trans ?_
  show finalTotal (normOf (sqAcc (iblk m c 0 ⟨31, hn⟩) (outsAt0 m c 30 _).2.2)) _ _ (dotAcc (iblk m c 0 ⟨31, hn⟩) (outsAt0 m c 30 _).2.1) = _
  rw [ih.1, ih.2]
  show _ = finalTotal (normOf (sqAcc (tileAt m c 31) (sqPart m c 31))) _ _ (dotAcc (tileAt m c 31) (dotPart m c 31))
  rw [tileAt_eq m c ⟨31, hn⟩]

end Cert.KernelIdeal.Acc

end
-- ==== Proof.KOut.lean ====
/-
  The kernel's result array.

  The output block is written back once, after the last grid point, and it is the whole `[8]` array; so after the
  region the array holds what the last point stored: the 24 shifts' terms of the fully accumulated arrays.
-/
import proofs.«133983_j1632087573343_1_alg».proof.Proof.KInd

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Bridge

variable (m : (ℓ : Loc nD τ sig) → Buf (Elt Ideal) ℓ)

/-- The last grid point. -/
abbrev tLast : Fin cfg0.N := ⟨31, by rw [show cfg0.N = 32 from N_0]; decide⟩

/-- What the region leaves in the result array. -/
def rawSum (c : Dev nD) : FVec Ideal T1 .f32 :=
  finalTotal (normOf (sqPart m c 32)) (iblk m c 1 tLast) (castT3 (iblk m c 2 tLast)) (dotPart m c 32)

theorem flushed_eq (c : Dev nD) (t : Fin cfg0.N) (hf : (cfg0.win 3).flush t = true) :
    (dats m 0 c).flushed 3 t = ((cfg0.win 3).blk t).view.read (Elt Ideal) (rawSum m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, out_last m c tLast.isLt]
  have hz' : (fun a => win0_3.index tLast a * main_v25.ty.shape.size a) = fun _ => 0 := funext fun a => by
    fin_cases a; decide +kernel
  exact (Memref.read_access_unit_zero (Elt Ideal) main_v25 hz' (fun a => by rw [congrFun hz' a]; simp) (rawSum m c)).symm

theorem final3 (c : Dev nD) : (dats m 0 c).arrAt 3 cfg0.N = rawSum m c :=
  (dats m 0 c).arrAt_eq_of_cover 3 (rawSum m c) (flushed_eq m c) fun i =>
    ⟨tLast, (flush0_3 tLast).mpr rfl, by
      show i ∈ ((View.whole main_v25).slice (win0_3.rect tLast)).set
      rw [View.set_slice_whole, Rect.mem_set_unit]
      intro a
      have h0 : (i 0 : Nat) < 8 := (i 0).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 8 from by decide +kernel]
        omega⟩

/-! ## The host operations after the region -/

/-- The count floored at one, times 24: what the kernel divides the raw sum by. -/
def tailK (raw cnt : FVec Ideal T1 .f32) (incl : IVec T1 1) : FVec Ideal T0 .f32 :=
  Host.divf
    (Host.reduceAdd
      (mulf
        (Host.divf raw
          (mulf (maximumf cnt (broadcastInDim S8 ![] bcast_S_S8 (constant (F := Ideal) S_ .f32 0x3F800000#32)))
            (broadcastInDim S8 ![] bcast_S_S8 (constant (F := Ideal) S_ .f32 0x41C00000#32))))
        (uitofp .f32 incl))
      (constant (F := Ideal) S_ .f32 0x00000000#32) reducesTo_S8_S_d0 h_S_)
    (sitofp .f32
      (maxsi (Host.reduce IntOp.addi (extui 32 incl natLt_1_32) (constantI S_ 32 0#32) reducesTo_S8_S_d0 h_S_)
        (constantI S_ 32 1#32)))

set_option maxHeartbeats 1600000 in
/-- The program's result: the tail applied to the region's raw sum and to the two host values from before the
    region (the per-image pixel count and the per-image inclusion bit). -/
theorem tail_eq (c : Dev nD) :
    Pipeline.afterTail₀ cfgs (dats m) 0 (V0 m) [hostOps1] c main_v38
      = tailK (rawSum m c) (V m c main_v23) (V m c main_v20) := by
  unfold Pipeline.afterTail₀
  show StableHlo.after hostOps1 (Pipeline.withArrays spec0 c (V0 m c) (fun w => (dats m 0 c).arrAt w cfg0.N))
    (Proc.devRef .tc main_v38) = _
  have e25 : Pipeline.withArrays spec0 c (V0 m c) (fun w => (dats m 0 c).arrAt w cfg0.N) (Proc.devRef .tc main_v25)
      = rawSum m c := (Pipeline.withArrays_arr spec0 launch0.win.arr_inj c _ _ 3).trans (final3 m c)
  have e23 : Pipeline.withArrays spec0 c (V0 m c) (fun w => (dats m 0 c).arrAt w cfg0.N) (Proc.devRef .tc main_v23)
      = V m c main_v23 :=
    Pipeline.withArrays_of_ne spec0 c (V0 m c) _ main_v23 (by exact (by decide : ∀ w, Pipeline.arrRef spec0 w ≠ main_v23))
  have e20 : Pipeline.withArrays spec0 c (V0 m c) (fun w => (dats m 0 c).arrAt w cfg0.N) (Proc.devRef .tc main_v20)
      = V m c main_v20 :=
    Pipeline.withArrays_of_ne spec0 c (V0 m c) _ main_v20 (by exact (by decide : ∀ w, Pipeline.arrRef spec0 w ≠ main_v20))
  generalize Pipeline.withArrays spec0 c (V0 m c) (fun w => (dats m 0 c).arrAt w cfg0.N) = W at e25 e23 e20 ⊢
  after_results_simp
  rw [e25, e23, e20]
  rfl

/-- The kernel's run, read: the result at the tail of the raw sum, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v38) = tailK (rawSum m c) (V m c main_v23) (V m c main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v38 (Pipeline.mem_restRefs_of main_v38 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Acc

end
-- ==== Proof.KClosed.lean ====
/-
  The accumulated arrays in closed form.

  Tile `t` of the feature array holds channels `8 t … 8 t + 7`; so the accumulators after `k` tiles are sums over the
  first `8 k` channels, and after all 32 tiles the sums over all 256 channels: the squared length and, slab by slab,
  the 24 shifted inner products of the whole feature array. (A rotation of a tile along rows and lanes is the tile of
  the rotated array: channels are not moved.)
-/
import proofs.«133983_j1632087573343_1_alg».proof.Proof.KOut

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Bridge

variable (m : (ℓ : Loc nD τ sig) → Buf (Elt Ideal) ℓ)

/-- The feature array as launched. -/
abbrev erOf (c : Dev nD) : FVec Ideal T4 .f32 := m ((c.tc : Thread nD τ).loc main_arg0)

theorem idx0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)

/-- Tile `t` at channel `cc` is the array at channel `8 t + cc`. -/
theorem blk0 (c : Dev nD) (t : Fin cfg0.N) (n cc : Fin 8) (p q : Fin 128) (h : 8 * t.val + cc.val < 256) :
    (iblk m c 0 t : FVec Ideal Q4 .f32) (ix4 n cc p q) = erOf m c (ix4 n ⟨8 * t.val + cc.val, h⟩ p q) := by
  obtain ⟨i0, i1, i2, i3⟩ := idx0 t
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * n.val = n.val; rw [i0]; omega
  | ⟨1, _⟩ => show win0_0.index t 1 * 8 + 1 * cc.val = 8 * t.val + cc.val; rw [i1]; omega
  | ⟨2, _⟩ => show win0_0.index t 2 * 128 + 1 * p.val = p.val; rw [i2]; omega
  | ⟨3, _⟩ => show win0_0.index t 3 * 128 + 1 * q.val = q.val; rw [i3]; omega

/-- The four-axis rotation read at a pixel and channel. -/
theorem rot4_apply (a b : BitVec 32) (x : T4.Idx → EReal) (n : Fin 8) (k : Fin 256) (p q : Fin 128) :
    rot4 a b x (ix4 n k p q) = x (ix4 n k (rotc a p) (rotc b q)) := by
  unfold rot4
  rw [dynamicRotate_apply 3 b _ (by decide) (ix4 n k p q) (ix4 n k p (rotc b q)) (fun d => by
    match d with
    | ⟨0, _⟩ => rfl
    | ⟨1, _⟩ => rfl
    | ⟨2, _⟩ => rfl
    | ⟨3, _⟩ => rfl)]
  exact dynamicRotate_apply 2 a x (by decide) (ix4 n k p (rotc b q)) (ix4 n k (rotc a p) (rotc b q)) (fun d => by
    match d with
    | ⟨0, _⟩ => rfl
    | ⟨1, _⟩ => rfl
    | ⟨2, _⟩ => rfl
    | ⟨3, _⟩ => rfl)

/-- One channel's squared feature, on the naturals (nothing past channel 255). -/
def sqTermN (er : FVec Ideal T4 .f32) (i : T3.Idx) (k : ℕ) : EReal :=
  if h : k < 256 then er (chan i ⟨k, h⟩) * er (chan i ⟨k, h⟩) else 0

/-- One channel's product of the feature with the shifted feature. -/
def dotTermN (a b : BitVec 32) (er : FVec Ideal T4 .f32) (i : T3.Idx) (k : ℕ) : EReal :=
  if h : k < 256 then er (chan i ⟨k, h⟩) * rot4 a b er (chan i ⟨k, h⟩) else 0

theorem Z3_apply (i : T3.Idx) : (Z3 : FVec Ideal T3 .f32) i = 0 := by
  unfold Z3 k0_pay36
  rw [shapeCast_self]
  exact Ideal.ofBits_zero_f32

theorem ZA_apply (j : QA.Idx) : (ZA : FVec Ideal QA .f32) j = 0 := by
  unfold ZA k0_pay35
  rw [shapeCast_self]
  exact Ideal.ofBits_zero_f32

theorem sqPart_eq (c : Dev nD) : ∀ k, k ≤ 32 → ∀ i : T3.Idx,
    sqPart m c k i = ∑ q ∈ Finset.range (8 * k), sqTermN (erOf m c) i q
  | 0, _, i => by
    show (Z3 : FVec Ideal T3 .f32) i = _
    rw [Z3_apply]; simp
  | k + 1, hk, i => by
    have hN : cfg0.N = 32 := N_0
    have hkN : k < cfg0.N := by omega
    show sqAcc (tileAt m c k) (sqPart m c k) i = _
    unfold sqAcc
    rw [sqPart_eq c k (by omega) i, show 8 * (k + 1) = 8 * k + 8 by ring, Finset.sum_range_add,
      ← Fin.sum_univ_eq_sum_range (fun x => sqTermN (erOf m c) i (8 * k + x)) 8]
    refine congrArg (_ + ·) (Finset.sum_congr rfl fun cc _ => ?_)
    have hlt : 8 * k + cc.val < 256 := by have := cc.isLt; omega
    rw [tileAt_eq m c ⟨k, hkN⟩]
    unfold sqTermN
    rw [dif_pos hlt, blk0 m c ⟨k, hkN⟩ (i 0) cc (i 1) (i 2) hlt]

theorem sqPart_full (c : Dev nD) : sqPart m c 32 = sqFull (erOf m c) := by
  funext i
  rw [sqPart_eq m c 32 le_rfl i]
  unfold sqFull
  rw [← Fin.sum_univ_eq_sum_range (sqTermN (erOf m c) i) 256]
  refine Finset.sum_congr rfl fun k _ => ?_
  unfold sqTermN
  rw [dif_pos k.isLt]

theorem dotPart_eq (c : Dev nD) : ∀ k, k ≤ 32 → ∀ j : QA.Idx,
    dotPart m c k j
      = ∑ q ∈ Finset.range (8 * k), dotTermN (shA (j 0).val) (shB (j 0).val) (erOf m c) (ix3 (j 1) (j 2) (j 3)) q
  | 0, _, j => by
    show (ZA : FVec Ideal QA .f32) j = _
    rw [ZA_apply]; simp
  | k + 1, hk, j => by
    have hN : cfg0.N = 32 := N_0
    have hkN : k < cfg0.N := by omega
    show dotAcc (tileAt m c k) (dotPart m c k) j = _
    unfold dotAcc
    rw [dotPart_eq c k (by omega) j, show 8 * (k + 1) = 8 * k + 8 by ring, Finset.sum_range_add,
      ← Fin.sum_univ_eq_sum_range
        (fun x => dotTermN (shA (j 0).val) (shB (j 0).val) (erOf m c) (ix3 (j 1) (j 2) (j 3)) (8 * k + x)) 8]
    refine congrArg (_ + ·) (Finset.sum_congr rfl fun cc _ => ?_)
    have hlt : 8 * k + cc.val < 256 := by have := cc.isLt; omega
    rw [tileAt_eq m c ⟨k, hkN⟩]
    unfold dotTermN
    rw [dif_pos hlt, blk0 m c ⟨k, hkN⟩ (j 1) cc (j 2) (j 3) hlt, blk0 m c ⟨k, hkN⟩ (j 1) cc _ _ hlt]
    exact congrArg (erOf m c (ix4 (j 1) ⟨8 * k + cc.val, hlt⟩ (j 2) (j 3)) * ·)
      (rot4_apply (shA (j 0).val) (shB (j 0).val) (erOf m c) (j 1) ⟨8 * k + cc.val, hlt⟩ (j 2) (j 3)).symm

/-- Slab `n` of the fully accumulated array is shift `n`'s inner product of the whole feature array. -/
theorem dotPart_full (c : Dev nD) (n : ℕ) (hn : n < 24) :
    slabOf (dotPart m c 32) n = dotFull (shA n) (shB n) (erOf m c) := by
  funext i
  unfold slabOf
  rw [dif_pos hn, shapeCast_dropUnit_apply ![8, 128, 128]]
  show dotPart m c 32 ((Rect.unit (s := QA) ![n, 0, 0, 0] ![1, 8, 128, 128] (slab_inb n hn)).emb (Fin.cons ⟨0, Nat.one_pos⟩ i)) = _
  rw [dotPart_eq m c 32 le_rfl]
  have e0 : (((Rect.unit (s := QA) ![n, 0, 0, 0] ![1, 8, 128, 128] (slab_inb n hn)).emb (Fin.cons ⟨0, Nat.one_pos⟩ i)) 0).val = n := by
    show n + 1 * 0 = n; omega
  have e1 : ((Rect.unit (s := QA) ![n, 0, 0, 0] ![1, 8, 128, 128] (slab_inb n hn)).emb (Fin.cons ⟨0, Nat.one_pos⟩ i)) 1 = i 0 :=
    Fin.ext (by show 0 + 1 * (i 0).val = (i 0).val; omega)
  have e2 : ((Rect.unit (s := QA) ![n, 0, 0, 0] ![1, 8, 128, 128] (slab_inb n hn)).emb (Fin.cons ⟨0, Nat.one_pos⟩ i)) 2 = i 1 :=
    Fin.ext (by show 0 + 1 * (i 1).val = (i 1).val; omega)
  have e3 : ((Rect.unit (s := QA) ![n, 0, 0, 0] ![1, 8, 128, 128] (slab_inb n hn)).emb (Fin.cons ⟨0, Nat.one_pos⟩ i)) 3 = i 2 :=
    Fin.ext (by show 0 + 1 * (i 2).val = (i 2).val; omega)
  rw [e0, e1, e2, e3]
  unfold dotFull
  rw [← Fin.sum_univ_eq_sum_range (dotTermN (shA n) (shB n) (erOf m c) (ix3 (i 0) (i 1) (i 2))) 256]
  refine Finset.sum_congr rfl fun k _ => ?_
  unfold dotTermN
  rw [dif_pos k.isLt]

end Cert.KernelIdeal.Acc

end
-- ==== Proof.Law.lean ====
/-
  The one law that joins the two programs' totals.

  The kernel adds the 24 per-shift terms and divides the sum by `M · 24`; the reference divides each term by `M`,
  adds, and divides the sum by `24`. With `M` a positive real (the larger of a pixel count and one), both are the
  sum times `1 / (M · 24)`: multiplying by a nonnegative real distributes over a sum on the extended reals whatever
  the terms are, so no term needs to be finite.
-/
import proofs.«133983_j1632087573343_1_alg».proof.Proof.Spec

noncomputable section

namespace Cert.Bridge

open Idealize.ShloMosaic Idealize.ShloMosaic.ValueIdx

theorem ofBits_one : Ideal.ofBits .f32 0x3F800000#32 = 1 := by
  simp [Ideal.ofBits, Ideal.ieee, -EReal.coe_mul]; norm_num

theorem ofBits_24 : Ideal.ofBits .f32 0x41C00000#32 = ((24 : ℝ) : EReal) := by
  simp [Ideal.ofBits, Ideal.ieee, -EReal.coe_mul]; norm_num

/-- Multiplying by a nonnegative real distributes over a sum of extended reals. -/
theorem add_mul_coe (x y : EReal) (a : ℝ) (ha : 0 ≤ a) : (x + y) * (a : EReal) = x * a + y * a :=
  EReal.right_distrib_of_nonneg_of_ne_top (EReal.coe_nonneg.mpr ha) (EReal.coe_ne_top a) x y

/-- The two running totals at one image, as sequences of extended reals. -/
def runS (T : ℕ → EReal) : ℕ → EReal
  | 0 => 0
  | n + 1 => runS T n + T n

def runD (T : ℕ → EReal) (a : ℝ) : ℕ → EReal
  | 0 => 0
  | n + 1 => runD T a n + T n * (a : EReal)

theorem runD_mul (T : ℕ → EReal) (a b : ℝ) (ha : 0 ≤ a) (hb : 0 ≤ b) :
    ∀ n, runD T a n * (b : EReal) = runS T n * ((a * b : ℝ) : EReal)
  | 0 => by simp [runD, runS]
  | n + 1 => by
    show (runD T a n + T n * (a : EReal)) * (b : EReal) = (runS T n + T n) * ((a * b : ℝ) : EReal)
    rw [add_mul_coe _ _ b hb, add_mul_coe _ _ (a * b) (mul_nonneg ha hb), runD_mul T a b ha hb n, mul_assoc,
      EReal.coe_mul]

theorem runSum_apply (z : FVec Ideal T1 .f32) (T : ℕ → FVec Ideal T1 .f32) (hz : ∀ j, z j = 0) (j : T1.Idx) :
    ∀ n, runSum z T n j = runS (fun k => T k j) n
  | 0 => hz j
  | n + 1 => by
    show runSum z T n j + T n j = runS (fun k => T k j) n + T n j
    rw [runSum_apply z T hz j n]

theorem runSumDiv_apply (z : FVec Ideal T1 .f32) (T : ℕ → FVec Ideal T1 .f32) (M : FVec Ideal T1 .f32)
    (hz : ∀ j, z j = 0) (j : T1.Idx) (r : ℝ) (hr : r ≠ 0) (hM : M j = (r : EReal)) :
    ∀ n, runSumDiv z T M n j = runD (fun k => T k j) (1 / r) n
  | 0 => hz j
  | n + 1 => by
    show runSumDiv z T M n j + Ideal.div (T n j) (M j) = runD (fun k => T k j) (1 / r) n + T n j * ((1 / r : ℝ) : EReal)
    rw [runSumDiv_apply z T M hz j r hr hM n, hM, Ideal.div_coe hr]

/-- The kernel's `(∑ Tₛ) / (M · 24)` is the reference's `(∑ Tₛ / M) / 24`. -/
theorem loss_eq (z₁ z₂ : FVec Ideal T1 .f32) (T : ℕ → FVec Ideal T1 .f32) (M c24 : FVec Ideal T1 .f32)
    (hz₁ : ∀ j, z₁ j = 0) (hz₂ : ∀ j, z₂ j = 0) (hM : ∀ j, ∃ r : ℝ, 0 < r ∧ M j = (r : EReal))
    (hc : ∀ j, c24 j = ((24 : ℝ) : EReal)) (n : ℕ) :
    Host.divf (runSum z₁ T n) (mulf M c24) = Host.divf (runSumDiv z₂ T M n) c24 := by
  funext j
  obtain ⟨r, hr, hMj⟩ := hM j
  show Ideal.div (runSum z₁ T n j) (M j * c24 j) = Ideal.div (runSumDiv z₂ T M n j) (c24 j)
  rw [runSum_apply z₁ T hz₁ j n, runSumDiv_apply z₂ T M hz₂ j r (ne_of_gt hr) hMj n, hMj, hc j, ← EReal.coe_mul,
    Ideal.div_coe (by positivity : (r * 24 : ℝ) ≠ 0), Ideal.div_coe (by norm_num : (24 : ℝ) ≠ 0),
    runD_mul _ (1 / r) (1 / 24) (by positivity) (by norm_num) n]
  congr 2
  field_simp

end Cert.Bridge

end
-- ==== Proof.RefShift.lean ====
/-
  One shift of the reference, as a function of its three shifted arrays.

  The reference writes a shift's per-image term as a host sum over rows and lanes of
  `(dot / (nrm · nrmS) − [seg = segS ∧ seg < 2])² · vf`, the inner product itself a host sum over channels.
  Here: the host's sum over one axis from a zero initial value is the sum over that axis's coordinates; its sum
  over two axes is the iterated sum, lanes then rows; and the reference's term, once its three shifted arrays are the
  rotations of their operands, is `shiftTerm`.
-/
import proofs.«133983_j1632087573343_1_alg».proof.Proof.Spec
import Idealize.ShloMosaic.Lib.KernelVsHost

noncomputable section

namespace Cert.Bridge.Ref

open Idealize.ShloMosaic Idealize.ShloMosaic.ValueIdx Cert.Bridge

/-- The host's sum over the channel axis from a zero initial value, at a pixel, is the sum over the channels. -/
theorem hostSum_channels (y : FVec Ideal T4 .f32) (h' : T4.ReducesTo [1] T3) (hu : 0 < T0.numel) :
    Host.reduceAdd (F := Ideal) y (constant T0 .f32 0x00000000#32) h' hu = fun i => ∑ k : Fin 256, y (chan i k) := by
  funext i
  show Ideal.hostReduceAdd h' y (Ideal.ofBits .f32 0x00000000#32) i = _
  rw [Ideal.hostReduceAdd_single h' (by decide), Ideal.ofBits_zero_f32, zero_add]
  refine Finset.sum_congr rfl fun k _ => ?_
  exact congrArg y (funext fun a => Fin.ext (by
    match a with | ⟨0, _⟩ => rfl | ⟨1, _⟩ => rfl | ⟨2, _⟩ => rfl | ⟨3, _⟩ => rfl))

/-- Dropping the lane coordinate and then the row coordinate is dropping both. -/
theorem drop_drop (h' : T3.ReducesTo [1, 2] T1) (hB : T3.Reduces [2] T2) (hA : T2.Reduces [1] T1) (i : T3.Idx) :
    hA.drop (hB.drop i) = h'.drop i := by
  funext b
  match b with
  | ⟨0, _⟩ => rfl

/-- The host's sum over rows and lanes from a zero initial value is the sum over lanes followed by the sum over rows. -/
theorem hostSum_rows_lanes (x : FVec Ideal T3 .f32) (h' : T3.ReducesTo [1, 2] T1) (hu : 0 < T0.numel) :
    Host.reduceAdd (F := Ideal) x (constant T0 .f32 0x00000000#32) h' hu
      = multiReduction .add [1] T1
          (multiReduction .add [2] T2 x 0x00000000#32 (by decide) (.inl rfl) rfl)
          0x00000000#32 (by decide) (.inl rfl) rfl := by
  funext j
  have hB : T3.Reduces [2] T2 := by decide
  have hA : T2.Reduces [1] T1 := by decide
  show Ideal.hostReduceAdd h' x (Ideal.ofBits .f32 0x00000000#32) j = Ideal.reduceAdd hA (Ideal.reduceAdd hB x) j
  unfold Ideal.hostReduceAdd Ideal.reduceAdd
  rw [Ideal.ofBits_zero_f32, zero_add]
  rw [← Finset.sum_fiberwise_of_maps_to (s := Finset.univ.filter fun i => h'.drop i = j)
    (t := Finset.univ.filter fun r => hA.drop r = j) (g := hB.drop) (fun i hi => by
      rw [Finset.mem_filter] at hi ⊢
      exact ⟨Finset.mem_univ _, by rw [drop_drop h' hB hA, hi.2]⟩) x]
  refine Finset.sum_congr rfl fun r hr => ?_
  rw [Finset.filter_filter]
  refine Finset.sum_congr (Finset.filter_congr fun i _ => ⟨fun h => h.2, fun h => ⟨?_, h⟩⟩) fun _ _ => rfl
  rw [← drop_drop h' hB hA, h]
  exact (Finset.mem_filter.1 hr).2

/-- The reference's expression for one shift, given its three shifted arrays: the inner product over channels, the
    cosine, the label agreement, the squared gap times the weight, summed over the image. -/
def refShift (er : FVec Ideal T4 .f32) (nrm : FVec Ideal T3 .f32) (seg : IVec T3 32) (vf : FVec Ideal T3 .f32)
    (erS : FVec Ideal T4 .f32) (nrmS : FVec Ideal T3 .f32) (segS : IVec T3 32) : FVec Ideal T1 .f32 :=
  Host.reduceAdd (s := T3) (t := T1) (u := T0) (axes := [1, 2])
    (mulf (mulf
        (subf (Host.divf (Host.reduceAdd (s := T4) (t := T3) (u := T0) (axes := [1]) (mulf er erS)
              (constant T0 .f32 0x00000000#32) (by decide) (by decide)) (mulf nrm nrmS))
          (uitofp .f32 (andi (cmpi .eq seg segS)
            (cmpi .slt seg (broadcastInDim T3 ![] (by decide) (constantI T0 32 2#32))))))
        (subf (Host.divf (Host.reduceAdd (s := T4) (t := T3) (u := T0) (axes := [1]) (mulf er erS)
              (constant T0 .f32 0x00000000#32) (by decide) (by decide)) (mulf nrm nrmS))
          (uitofp .f32 (andi (cmpi .eq seg segS)
            (cmpi .slt seg (broadcastInDim T3 ![] (by decide) (constantI T0 32 2#32)))))))
      vf)
    (constant T0 .f32 0x00000000#32) (by decide) (by decide)

/-- With the three shifted arrays the rotations of their operands, the reference's term is the specification's. -/
theorem refShift_eq (a b : BitVec 32) (er : FVec Ideal T4 .f32) (nrm : FVec Ideal T3 .f32) (seg : IVec T3 32)
    (vf : FVec Ideal T3 .f32) :
    refShift er nrm seg vf (rot4 a b er) (rot3 a b nrm) (rot3 a b seg)
      = shiftTerm a b nrm seg vf (dotFull a b er) := by
  unfold refShift shiftTerm gapSq
  rw [hostSum_rows_lanes, hostSum_channels, broadcastInDim_constantI, ← sitofp_extui_eq_uitofp _ (by decide)]
  rfl

end Cert.Bridge.Ref

end
-- ==== Proof.RefNorm.lean ====
/-
  The reference's norm array is the specification's: the square root of the channel sum of squares, floored at the
  small constant.
-/
import proofs.«133983_j1632087573343_1_alg».proof.Proof.RefShift
import proofs.«133983_j1632087573343_1_alg».proof.Proof.RefReadP

noncomputable section

namespace Cert.Bridge.Ref

open Idealize.ShloMosaic Idealize.ShloMosaic.ValueIdx Cert.Bridge
open Cert.ReferenceIdeal Cert.ReferenceIdeal.Gen Cert.ReferenceIdeal.Read

/-- The reference's norm, written out in whole-array operations. -/
theorem norm_eq (x0 : FVec Ideal T4 .f32) : val_main_v28 (F := Ideal) x0 = normOf (sqFull x0) := by
  have e : val_main_v28 (F := Ideal) x0
      = maximumf (Host.sqrt (Host.reduceAdd (s := T4) (t := T3) (u := T0) (axes := [1]) (mulf x0 x0)
            (constant T0 .f32 0x00000000#32) (by decide) (by decide)))
          (broadcastInDim T3 ![] (by decide) (constant T0 .f32 0x322BCC77#32)) := rfl
  rw [e, hostSum_channels, broadcastInDim_constant]
  rfl

end Cert.Bridge.Ref

end
-- ==== Proof.Algebra.lean ====
/-
  Laws that do not mention the two programs.

  * A cyclic shift written as two slices laid end to end is a rotation (`roll_concat`): the tail of length `k`
    placed in front of the head of length `n - k` is the array rotated by `k` along that axis.
  * A sum over the last two axes of an `[8,128,128]` array is the iterated sum over rows then lanes.
  * Dividing a running sum by a positive real constant distributes over its terms on the extended reals, so
    `(∑ₛ Sₛ) / (M · 24)` and `(∑ₛ Sₛ / M) / 24` agree with no finiteness assumption.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

namespace Cert.Bridge

open Idealize.ShloMosaic Idealize.ShloMosaic.ValueIdx

section Roll
variable {α : Type} {s s₁ s₂ : Shape}

/-- The last `k` entries along axis `a` laid in front of the first `n - k` is the rotation by `k` along `a`
    (`k` the first piece's extent; `k = n` is the rotation by nothing). -/
theorem roll_concat (a : Fin s.rank) (x : s.Idx → α) (off₁ off₂ : Fin s.rank → Nat)
    (hs₁ : s.Slices off₁ s₁) (hs₂ : s.Slices off₂ s₂) (hc : Shape.Concatenates [s₁, s₂] s a)
    (n : BitVec 32) (hr : s.Rotates a none)
    (ho₁ : ∀ b, off₁ b = if b = a then s.size a - s₁.size (a.cast hs₁.1.symm) else 0)
    (ho₂ : ∀ b, off₂ b = 0)
    (hn : n.toNat % s.size a = s₁.size (a.cast hs₁.1.symm) % s.size a) :
    concatenate s a [⟨s₁, extractStridedSlice s₁ off₁ x hs₁⟩, ⟨s₂, extractStridedSlice s₂ off₂ x hs₂⟩] hc
      = dynamicRotate a n none x hr := by
  funext j
  have hsum : s₁.size (a.cast hs₁.1.symm) + s₂.size (a.cast hs₂.1.symm) = s.size a := by
    have e := hc.2.2
    simp only [List.map, List.sum_cons, List.sum_nil] at e
    rw [dif_pos hs₁.1, dif_pos hs₂.1] at e
    omega
  have hsz₁ : ∀ b : Fin s₁.rank, b.cast hs₁.1 ≠ a → s₁.size b = s.size (b.cast hs₁.1) := fun b hb => by
    obtain ⟨h, hsz⟩ := hc.2.1 s₁ (by simp)
    have := hsz (b.cast hs₁.1) hb
    rwa [show (b.cast hs₁.1).cast h.symm = b from Fin.ext rfl] at this
  have hsz₂ : ∀ b : Fin s₂.rank, b.cast hs₂.1 ≠ a → s₂.size b = s.size (b.cast hs₂.1) := fun b hb => by
    obtain ⟨h, hsz⟩ := hc.2.1 s₂ (by simp)
    have := hsz (b.cast hs₂.1) hb
    rwa [show (b.cast hs₂.1).cast h.symm = b from Fin.ext rfl] at this
  have hjlt := (j a).isLt
  -- the operand index both sides read
  let k' : s.Idx := fun b =>
    if b = a then ⟨((j b).val + s.size b - n.toNat % s.size b) % s.size b, Nat.mod_lt _ (Fin.pos (j b))⟩ else j b
  have hR : dynamicRotate a n none x hr j = x k' :=
    dynamicRotate_apply a n x hr j k' fun b => by
      by_cases hb : b = a
      · simp only [k', if_pos hb]
      · simp only [k', if_neg hb]
  rw [hR]
  by_cases hj : (j a).val < s₁.size (a.cast hs₁.1.symm)
  · let i : s₁.Idx := fun b => ⟨(j (b.cast hs₁.1)).val, by
      by_cases hb : b.cast hs₁.1 = a
      · have : b = a.cast hs₁.1.symm := Fin.ext (by rw [← hb]; rfl)
        rw [this]; exact hj
      · rw [hsz₁ b hb]; exact (j _).isLt⟩
    rw [concatenate_pair_apply_left a _ _ hc j hs₁.1 i (fun b => rfl)]
    refine extractStridedSlice_apply off₁ x hs₁ i k' fun b => ?_
    show (k' b).val = off₁ b + (j b).val
    rw [ho₁ b]
    by_cases hb : b = a
    · subst hb
      simp only [k', if_pos rfl, ↓reduceIte]
      rw [hn]
      rcases Nat.lt_or_ge (s₁.size (b.cast hs₁.1.symm)) (s.size b) with hlt | hge
      · rw [Nat.mod_eq_of_lt hlt, Nat.mod_eq_of_lt (by omega)]; omega
      · have : s₁.size (b.cast hs₁.1.symm) = s.size b := by omega
        rw [this, Nat.mod_self, Nat.sub_zero, Nat.add_mod_right, Nat.mod_eq_of_lt hjlt]; omega
    · simp only [k', if_neg hb]; omega
  · have hj' : s₁.size (a.cast hs₁.1.symm) ≤ (j a).val := Nat.le_of_not_lt hj
    let i : s₂.Idx := fun b =>
      if hb : b.cast hs₂.1 = a then ⟨(j a).val - s₁.size (a.cast hs₁.1.symm), by
        have : b = a.cast hs₂.1.symm := Fin.ext (by rw [← hb]; rfl)
        rw [this]; omega⟩
      else ⟨(j (b.cast hs₂.1)).val, by rw [hsz₂ b hb]; exact (j _).isLt⟩
    rw [concatenate_pair_apply_right a _ _ hc j hs₁.1 hs₂.1 i
      (fun b hb => by simp only [i, dif_neg hb])
      (by
        have hcc : (a.cast hs₂.1.symm).cast hs₂.1 = a := Fin.ext rfl
        simp only [i]; rw [dif_pos hcc]; show (j a).val - _ + _ = _; omega)]
    refine extractStridedSlice_apply off₂ x hs₂ i k' fun b => ?_
    rw [ho₂ b, Nat.zero_add]
    by_cases hb : b = a
    · subst hb
      have hcc : (b.cast hs₂.1.symm).cast hs₂.1 = b := Fin.ext rfl
      simp only [k', if_pos rfl, i]
      rw [dif_pos hcc, hn]
      show _ = (j b).val - s₁.size (b.cast hs₁.1.symm)
      have hlt : s₁.size (b.cast hs₁.1.symm) < s.size b := by omega
      rw [Nat.mod_eq_of_lt hlt]
      have : (j b).val + s.size b - s₁.size (b.cast hs₁.1.symm) = ((j b).val - s₁.size (b.cast hs₁.1.symm)) + s.size b := by omega
      rw [this, Nat.add_mod_right, Nat.mod_eq_of_lt (by omega)]
    · have hb' : ¬ (b.cast hs₂.1.symm).cast hs₂.1 = a := fun h => hb (by rw [← h]; exact Fin.ext rfl)
      simp only [k', if_neg hb, i, dif_neg hb']
      rfl

end Roll

end Cert.Bridge

end
-- ==== Proof.RefShiftsA.lean ====
/-
  The reference's shifts 0 to 3 read back into the specification.

  Each shifted array is two slices laid end to end along the rows and then along the lanes, so it is the operand
  rotated along both; with that, the shift's per-image term is the specification's `termOf`.
-/
import proofs.«133983_j1632087573343_1_alg».proof.Proof.RefNorm
import proofs.«133983_j1632087573343_1_alg».proof.Proof.Algebra

noncomputable section

namespace Cert.Bridge.Ref

open Idealize.ShloMosaic Idealize.ShloMosaic.ValueIdx Cert.Bridge
open Cert.ReferenceIdeal Cert.ReferenceIdeal.Gen Cert.ReferenceIdeal.Read

/-! ### Shift 0: rows by 2, lanes by 2 -/

theorem roll_v31 (x0 : FVec Ideal T4 .f32) : val_main_v31 (F := Ideal) x0 = rot4 2#32 2#32 (x0) := by
  have h1 : val_main_call2_v2 (F := Ideal) x0 = dynamicRotate (2 : Fin 4) 2#32 none (x0) (by decide) :=
    roll_concat (s := S8x256x128x128) (s₁ := S8x256x2x128) (s₂ := S8x256x126x128) 2 (x0) ![0, 0, 126, 0] ![0, 0, 0, 0]
      slices_S8x256x128x128_S8x256x2x128_0_0_126_0 slices_S8x256x128x128_S8x256x126x128_0_0_0_0 concatenates_S8x256x2x128_S8x256x126x128_S8x256x128x128_d2 2#32 (by decide) (by decide) (by decide) (by decide)
  have h2 : val_main_v31 (F := Ideal) x0 = dynamicRotate (3 : Fin 4) 2#32 none (val_main_call2_v2 (F := Ideal) x0) (by decide) :=
    roll_concat (s := S8x256x128x128) (s₁ := S8x256x128x2) (s₂ := S8x256x128x126) 3 (val_main_call2_v2 (F := Ideal) x0) ![0, 0, 0, 126] ![0, 0, 0, 0]
      slices_S8x256x128x128_S8x256x128x2_0_0_0_126 slices_S8x256x128x128_S8x256x128x126_0_0_0_0 concatenates_S8x256x128x2_S8x256x128x126_S8x256x128x128_d3 2#32 (by decide) (by decide) (by decide) (by decide)
  rw [h2, h1]; rfl

theorem roll_v32 (x0 : FVec Ideal T4 .f32) : val_main_v32 (F := Ideal) x0 = rot3 2#32 2#32 (val_main_v28 (F := Ideal) x0) := by
  have h1 : val_main_call3_v2 (F := Ideal) x0 = dynamicRotate (1 : Fin 3) 2#32 none (val_main_v28 (F := Ideal) x0) (by decide) :=
    roll_concat (s := S8x128x128) (s₁ := S8x2x128) (s₂ := S8x126x128) 1 (val_main_v28 (F := Ideal) x0) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v32 (F := Ideal) x0 = dynamicRotate (2 : Fin 3) 2#32 none (val_main_call3_v2 (F := Ideal) x0) (by decide) :=
    roll_concat (s := S8x128x128) (s₁ := S8x128x2) (s₂ := S8x128x126) 2 (val_main_call3_v2 (F := Ideal) x0) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem roll_v33 (x1 : IVec T3 32) : val_main_v33 (F := Ideal) x1 = rot3 2#32 2#32 (x1) := by
  have h1 : val_main_call4_v2 (F := Ideal) x1 = dynamicRotate (1 : Fin 3) 2#32 none (x1) (by decide) :=
    roll_concat (s := S8x128x128) (s₁ := S8x2x128) (s₂ := S8x126x128) 1 (x1) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v33 (F := Ideal) x1 = dynamicRotate (2 : Fin 3) 2#32 none (val_main_call4_v2 (F := Ideal) x1) (by decide) :=
    roll_concat (s := S8x128x128) (s₁ := S8x128x2) (s₂ := S8x128x126) 2 (val_main_call4_v2 (F := Ideal) x1) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem term_0 (x0 : FVec Ideal T4 .f32) (x1 x2 : IVec T3 32) :
    val_main_v46 (F := Ideal) x0 x1 x2 = termOf x0 x1 (val_main_v29 (F := Ideal) x1 x2) 0 := by
  have e : val_main_v46 (F := Ideal) x0 x1 x2
      = refShift x0 (val_main_v28 (F := Ideal) x0) x1 (val_main_v29 (F := Ideal) x1 x2)
          (val_main_v31 (F := Ideal) x0) (val_main_v32 (F := Ideal) x0) (val_main_v33 (F := Ideal) x1) := rfl
  rw [e, roll_v31, roll_v32, roll_v33, norm_eq, refShift_eq]
  rfl

/-! ### Shift 1: rows by 2, lanes by 1 -/

theorem roll_v51 (x0 : FVec Ideal T4 .f32) : val_main_v51 (F := Ideal) x0 = rot4 2#32 1#32 (x0) := by
  have h1 : val_main_call5_v2 (F := Ideal) x0 = dynamicRotate (2 : Fin 4) 2#32 none (x0) (by decide) :=
    roll_concat (s := S8x256x128x128) (s₁ := S8x256x2x128) (s₂ := S8x256x126x128) 2 (x0) ![0, 0, 126, 0] ![0, 0, 0, 0]
      slices_S8x256x128x128_S8x256x2x128_0_0_126_0 slices_S8x256x128x128_S8x256x126x128_0_0_0_0 concatenates_S8x256x2x128_S8x256x126x128_S8x256x128x128_d2 2#32 (by decide) (by decide) (by decide) (by decide)
  have h2 : val_main_v51 (F := Ideal) x0 = dynamicRotate (3 : Fin 4) 1#32 none (val_main_call5_v2 (F := Ideal) x0) (by decide) :=
    roll_concat (s := S8x256x128x128) (s₁ := S8x256x128x1) (s₂ := S8x256x128x127) 3 (val_main_call5_v2 (F := Ideal) x0) ![0, 0, 0, 127] ![0, 0, 0, 0]
      slices_S8x256x128x128_S8x256x128x1_0_0_0_127 slices_S8x256x128x128_S8x256x128x127_0_0_0_0 concatenates_S8x256x128x1_S8x256x128x127_S8x256x128x128_d3 1#32 (by decide) (by decide) (by decide) (by decide)
  rw [h2, h1]; rfl

theorem roll_v52 (x0 : FVec Ideal T4 .f32) : val_main_v52 (F := Ideal) x0 = rot3 2#32 1#32 (val_main_v28 (F := Ideal) x0) := by
  have h1 : val_main_call6_v2 (F := Ideal) x0 = dynamicRotate (1 : Fin 3) 2#32 none (val_main_v28 (F := Ideal) x0) (by decide) :=
    roll_concat (s := S8x128x128) (s₁ := S8x2x128) (s₂ := S8x126x128) 1 (val_main_v28 (F := Ideal) x0) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v52 (F := Ideal) x0 = dynamicRotate (2 : Fin 3) 1#32 none (val_main_call6_v2 (F := Ideal) x0) (by decide) :=
    roll_concat (s := S8x128x128) (s₁ := S8x128x1) (s₂ := S8x128x127) 2 (val_main_call6_v2 (F := Ideal) x0) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem roll_v53 (x1 : IVec T3 32) : val_main_v53 (F := Ideal) x1 = rot3 2#32 1#32 (x1) := by
  have h1 : val_main_call7_v2 (F := Ideal) x1 = dynamicRotate (1 : Fin 3) 2#32 none (x1) (by decide) :=
    roll_concat (s := S8x128x128) (s₁ := S8x2x128) (s₂ := S8x126x128) 1 (x1) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v53 (F := Ideal) x1 = dynamicRotate (2 : Fin 3) 1#32 none (val_main_call7_v2 (F := Ideal) x1) (by decide) :=
    roll_concat (s := S8x128x128) (s₁ := S8x128x1) (s₂ := S8x128x127) 2 (val_main_call7_v2 (F := Ideal) x1) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem term_1 (x0 : FVec Ideal T4 .f32) (x1 x2 : IVec T3 32) :
    val_main_v66 (F := Ideal) x0 x1 x2 = termOf x0 x1 (val_main_v29 (F := Ideal) x1 x2) 1 := by
  have e : val_main_v66 (F := Ideal) x0 x1 x2
      = refShift x0 (val_main_v28 (F := Ideal) x0) x1 (val_main_v29 (F := Ideal) x1 x2)
          (val_main_v51 (F := Ideal) x0) (val_main_v52 (F := Ideal) x0) (val_main_v53 (F := Ideal) x1) := rfl
  rw [e, roll_v51, roll_v52, roll_v53, norm_eq, refShift_eq]
  rfl

/-! ### Shift 2: rows by 2, lanes by 0 -/

theorem roll_v71 (x0 : FVec Ideal T4 .f32) : val_main_v71 (F := Ideal) x0 = rot4 2#32 0#32 (x0) := by
  have h1 : val_main_call8_v2 (F := Ideal) x0 = dynamicRotate (2 : Fin 4) 2#32 none (x0) (by decide) :=
    roll_concat (s := S8x256x128x128) (s₁ := S8x256x2x128) (s₂ := S8x256x126x128) 2 (x0) ![0, 0, 126, 0] ![0, 0, 0, 0]
      slices_S8x256x128x128_S8x256x2x128_0_0_126_0 slices_S8x256x128x128_S8x256x126x128_0_0_0_0 concatenates_S8x256x2x128_S8x256x126x128_S8x256x128x128_d2 2#32 (by decide) (by decide) (by decide) (by decide)
  have h2 : val_main_v71 (F := Ideal) x0 = dynamicRotate (3 : Fin 4) 0#32 none (val_main_call8_v2 (F := Ideal) x0) (by decide) :=
    roll_concat (s := S8x256x128x128) (s₁ := S8x256x128x128) (s₂ := S8x256x128x0) 3 (val_main_call8_v2 (F := Ideal) x0) ![0, 0, 0, 0] ![0, 0, 0, 0]
      slices_S8x256x128x128_S8x256x128x128_0_0_0_0 slices_S8x256x128x128_S8x256x128x0_0_0_0_0 concatenates_S8x256x128x128_S8x256x128x0_S8x256x128x128_d3 0#32 (by decide) (by decide) (by decide) (by decide)
  rw [h2, h1]; rfl

theorem roll_v72 (x0 : FVec Ideal T4 .f32) : val_main_v72 (F := Ideal) x0 = rot3 2#32 0#32 (val_main_v28 (F := Ideal) x0) := by
  have h1 : val_main_call9_v2 (F := Ideal) x0 = dynamicRotate (1 : Fin 3) 2#32 none (val_main_v28 (F := Ideal) x0) (by decide) :=
    roll_concat (s := S8x128x128) (s₁ := S8x2x128) (s₂ := S8x126x128) 1 (val_main_v28 (F := Ideal) x0) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v72 (F := Ideal) x0 = dynamicRotate (2 : Fin 3) 0#32 none (val_main_call9_v2 (F := Ideal) x0) (by decide) :=
    roll_concat (s := S8x128x128) (s₁ := S8x128x128) (s₂ := S8x128x0) 2 (val_main_call9_v2 (F := Ideal) x0) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem roll_v73 (x1 : IVec T3 32) : val_main_v73 (F := Ideal) x1 = rot3 2#32 0#32 (x1) := by
  have h1 : val_main_call10_v2 (F := Ideal) x1 = dynamicRotate (1 : Fin 3) 2#32 none (x1) (by decide) :=
    roll_concat (s := S8x128x128) (s₁ := S8x2x128) (s₂ := S8x126x128) 1 (x1) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v73 (F := Ideal) x1 = dynamicRotate (2 : Fin 3) 0#32 none (val_main_call10_v2 (F := Ideal) x1) (by decide) :=
    roll_concat (s := S8x128x128) (s₁ := S8x128x128) (s₂ := S8x128x0) 2 (val_main_call10_v2 (F := Ideal) x1) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem term_2 (x0 : FVec Ideal T4 .f32) (x1 x2 : IVec T3 32) :
    val_main_v86 (F := Ideal) x0 x1 x2 = termOf x0 x1 (val_main_v29 (F := Ideal) x1 x2) 2 := by
  have e : val_main_v86 (F := Ideal) x0 x1 x2
      = refShift x0 (val_main_v28 (F := Ideal) x0) x1 (val_main_v29 (F := Ideal) x1 x2)
          (val_main_v71 (F := Ideal) x0) (val_main_v72 (F := Ideal) x0) (val_main_v73 (F := Ideal) x1) := rfl
  rw [e, roll_v71, roll_v72, roll_v73, norm_eq, refShift_eq]
  rfl

/-! ### Shift 3: rows by 2, lanes by 127 -/

theorem roll_v91 (x0 : FVec Ideal T4 .f32) : val_main_v91 (F := Ideal) x0 = rot4 2#32 127#32 (x0) := by
  have h1 : val_main_call11_v2 (F := Ideal) x0 = dynamicRotate (2 : Fin 4) 2#32 none (x0) (by decide) :=
    roll_concat (s := S8x256x128x128) (s₁ := S8x256x2x128) (s₂ := S8x256x126x128) 2 (x0) ![0, 0, 126, 0] ![0, 0, 0, 0]
      slices_S8x256x128x128_S8x256x2x128_0_0_126_0 slices_S8x256x128x128_S8x256x126x128_0_0_0_0 concatenates_S8x256x2x128_S8x256x126x128_S8x256x128x128_d2 2#32 (by decide) (by decide) (by decide) (by decide)
  have h2 : val_main_v91 (F := Ideal) x0 = dynamicRotate (3 : Fin 4) 127#32 none (val_main_call11_v2 (F := Ideal) x0) (by decide) :=
    roll_concat (s := S8x256x128x128) (s₁ := S8x256x128x127) (s₂ := S8x256x128x1) 3 (val_main_call11_v2 (F := Ideal) x0) ![0, 0, 0, 1] ![0, 0, 0, 0]
      slices_S8x256x128x128_S8x256x128x127_0_0_0_1 slices_S8x256x128x128_S8x256x128x1_0_0_0_0 concatenates_S8x256x128x127_S8x256x128x1_S8x256x128x128_d3 127#32 (by decide) (by decide) (by decide) (by decide)
  rw [h2, h1]; rfl

theorem roll_v92 (x0 : FVec Ideal T4 .f32) : val_main_v92 (F := Ideal) x0 = rot3 2#32 127#32 (val_main_v28 (F := Ideal) x0) := by
  have h1 : val_main_call12_v2 (F := Ideal) x0 = dynamicRotate (1 : Fin 3) 2#32 none (val_main_v28 (F := Ideal) x0) (by decide) :=
    roll_concat (s := S8x128x128) (s₁ := S8x2x128) (s₂ := S8x126x128) 1 (val_main_v28 (F := Ideal) x0) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v92 (F := Ideal) x0 = dynamicRotate (2 : Fin 3) 127#32 none (val_main_call12_v2 (F := Ideal) x0) (by decide) :=
    roll_concat (s := S8x128x128) (s₁ := S8x128x127) (s₂ := S8x128x1) 2 (val_main_call12_v2 (F := Ideal) x0) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem roll_v93 (x1 : IVec T3 32) : val_main_v93 (F := Ideal) x1 = rot3 2#32 127#32 (x1) := by
  have h1 : val_main_call13_v2 (F := Ideal) x1 = dynamicRotate (1 : Fin 3) 2#32 none (x1) (by decide) :=
    roll_concat (s := S8x128x128) (s₁ := S8x2x128) (s₂ := S8x126x128) 1 (x1) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v93 (F := Ideal) x1 = dynamicRotate (2 : Fin 3) 127#32 none (val_main_call13_v2 (F := Ideal) x1) (by decide) :=
    roll_concat (s := S8x128x128) (s₁ := S8x128x127) (s₂ := S8x128x1) 2 (val_main_call13_v2 (F := Ideal) x1) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem term_3 (x0 : FVec Ideal T4 .f32) (x1 x2 : IVec T3 32) :
    val_main_v106 (F := Ideal) x0 x1 x2 = termOf x0 x1 (val_main_v29 (F := Ideal) x1 x2) 3 := by
  have e : val_main_v106 (F := Ideal) x0 x1 x2
      = refShift x0 (val_main_v28 (F := Ideal) x0) x1 (val_main_v29 (F := Ideal) x1 x2)
          (val_main_v91 (F := Ideal) x0) (val_main_v92 (F := Ideal) x0) (val_main_v93 (F := Ideal) x1) := rfl
  rw [e, roll_v91, roll_v92, roll_v93, norm_eq, refShift_eq]
  rfl

end Cert.Bridge.Ref

end
-- ==== Proof.RefShiftsB.lean ====
/-
  The reference's shifts 4 to 7 read back into the specification.

  Each shifted array is two slices laid end to end along the rows and then along the lanes, so it is the operand
  rotated along both; with that, the shift's per-image term is the specification's `termOf`.
-/
import proofs.«133983_j1632087573343_1_alg».proof.Proof.RefNorm
import proofs.«133983_j1632087573343_1_alg».proof.Proof.Algebra

noncomputable section

namespace Cert.Bridge.Ref

open Idealize.ShloMosaic Idealize.ShloMosaic.ValueIdx Cert.Bridge
open Cert.ReferenceIdeal Cert.ReferenceIdeal.Gen Cert.ReferenceIdeal.Read

/-! ### Shift 4: rows by 2, lanes by 126 -/

theorem roll_v111 (x0 : FVec Ideal T4 .f32) : val_main_v111 (F := Ideal) x0 = rot4 2#32 126#32 (x0) := by
  have h1 : val_main_call14_v2 (F := Ideal) x0 = dynamicRotate (2 : Fin 4) 2#32 none (x0) (by decide) :=
    roll_concat (s := S8x256x128x128) (s₁ := S8x256x2x128) (s₂ := S8x256x126x128) 2 (x0) ![0, 0, 126, 0] ![0, 0, 0, 0]
      slices_S8x256x128x128_S8x256x2x128_0_0_126_0 slices_S8x256x128x128_S8x256x126x128_0_0_0_0 concatenates_S8x256x2x128_S8x256x126x128_S8x256x128x128_d2 2#32 (by decide) (by decide) (by decide) (by decide)
  have h2 : val_main_v111 (F := Ideal) x0 = dynamicRotate (3 : Fin 4) 126#32 none (val_main_call14_v2 (F := Ideal) x0) (by decide) :=
    roll_concat (s := S8x256x128x128) (s₁ := S8x256x128x126) (s₂ := S8x256x128x2) 3 (val_main_call14_v2 (F := Ideal) x0) ![0, 0, 0, 2] ![0, 0, 0, 0]
      slices_S8x256x128x128_S8x256x128x126_0_0_0_2 slices_S8x256x128x128_S8x256x128x2_0_0_0_0 concatenates_S8x256x128x126_S8x256x128x2_S8x256x128x128_d3 126#32 (by decide) (by decide) (by decide) (by decide)
  rw [h2, h1]; rfl

theorem roll_v112 (x0 : FVec Ideal T4 .f32) : val_main_v112 (F := Ideal) x0 = rot3 2#32 126#32 (val_main_v28 (F := Ideal) x0) := by
  have h1 : val_main_call15_v2 (F := Ideal) x0 = dynamicRotate (1 : Fin 3) 2#32 none (val_main_v28 (F := Ideal) x0) (by decide) :=
    roll_concat (s := S8x128x128) (s₁ := S8x2x128) (s₂ := S8x126x128) 1 (val_main_v28 (F := Ideal) x0) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v112 (F := Ideal) x0 = dynamicRotate (2 : Fin 3) 126#32 none (val_main_call15_v2 (F := Ideal) x0) (by decide) :=
    roll_concat (s := S8x128x128) (s₁ := S8x128x126) (s₂ := S8x128x2) 2 (val_main_call15_v2 (F := Ideal) x0) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem roll_v113 (x1 : IVec T3 32) : val_main_v113 (F := Ideal) x1 = rot3 2#32 126#32 (x1) := by
  have h1 : val_main_call16_v2 (F := Ideal) x1 = dynamicRotate (1 : Fin 3) 2#32 none (x1) (by decide) :=
    roll_concat (s := S8x128x128) (s₁ := S8x2x128) (s₂ := S8x126x128) 1 (x1) ![0, 126, 0] ![0, 0, 0]
      slices_S8x128x128_S8x2x128_0_126_0 slices_S8x128x128_S8x126x128_0_0_0 concatenates_S8x2x128_S8x126x128_S8x128x128_d1 2#32 (by decide) (by decide) (by decide) (by decide)
  have h2 : val_main_v113 (F := Ideal) x1 = dynamicRotate (2 : Fin 3) 126#32 none (val_main_call16_v2 (F := Ideal) x1) (by decide) :=
    roll_concat (s := S8x128x128) (s₁ := S8x128x126) (s₂ := S8x128x2) 2 (val_main_call16_v2 (F := Ideal) x1) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem term_4 (x0 : FVec Ideal T4 .f32) (x1 x2 : IVec T3 32) :
    val_main_v126 (F := Ideal) x0 x1 x2 = termOf x0 x1 (val_main_v29 (F := Ideal) x1 x2) 4 := by
  have e : val_main_v126 (F := Ideal) x0 x1 x2
      = refShift x0 (val_main_v28 (F := Ideal) x0) x1 (val_main_v29 (F := Ideal) x1 x2)
          (val_main_v111 (F := Ideal) x0) (val_main_v112 (F := Ideal) x0) (val_main_v113 (F := Ideal) x1) := rfl
  rw [e, roll_v111, roll_v112, roll_v113, norm_eq, refShift_eq]
  rfl

/-! ### Shift 5: rows by 1, lanes by 2 -/

theorem roll_v131 (x0 : FVec Ideal T4 .f32) : val_main_v131 (F := Ideal) x0 = rot4 1#32 2#32 (x0) := by
  have h1 : val_main_call17_v2 (F := Ideal) x0 = dynamicRotate (2 : Fin 4) 1#32 none (x0) (by decide) :=
    roll_concat (s := S8x256x128x128) (s₁ := S8x256x1x128) (s₂ := S8x256x127x128) 2 (x0) ![0, 0, 127, 0] ![0, 0, 0, 0]
      slices_S8x256x128x128_S8x256x1x128_0_0_127_0 slices_S8x256x128x128_S8x256x127x128_0_0_0_0 concatenates_S8x256x1x128_S8x256x127x128_S8x256x128x128_d2 1#32 (by decide) (by decide) (by decide) (by decide)
  have h2 : val_main_v131 (F := Ideal) x0 = dynamicRotate (3 : Fin 4) 2#32 none (val_main_call17_v2 (F := Ideal) x0) (by decide) :=
    roll_concat (s := S8x256x128x128) (s₁ := S8x256x128x2) (s₂ := S8x256x128x126) 3 (val_main_call17_v2 (F := Ideal) x0) ![0, 0, 0, 126] ![0, 0, 0, 0]
      slices_S8x256x128x128_S8x256x128x2_0_0_0_126 slices_S8x256x128x128_S8x256x128x126_0_0_0_0 concatenates_S8x256x128x2_S8x256x128x126_S8x256x128x128_d3 2#32 (by decide) (by decide) (by decide) (by decide)
  rw [h2, h1]; rfl

theorem roll_v132 (x0 : FVec Ideal T4 .f32) : val_main_v132 (F := Ideal) x0 = rot3 1#32 2#32 (val_main_v28 (F := Ideal) x0) := by
  have h1 : val_main_call18_v2 (F := Ideal) x0 = dynamicRotate (1 : Fin 3) 1#32 none (val_main_v28 (F := Ideal) x0) (by decide) :=
    roll_concat (s := S8x128x128) (s₁ := S8x1x128) (s₂ := S8x127x128) 1 (val_main_v28 (F := Ideal) x0) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v132 (F := Ideal) x0 = dynamicRotate (2 : Fin 3) 2#32 none (val_main_call18_v2 (F := Ideal) x0) (by decide) :=
    roll_concat (s := S8x128x128) (s₁ := S8x128x2) (s₂ := S8x128x126) 2 (val_main_call18_v2 (F := Ideal) x0) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem roll_v133 (x1 : IVec T3 32) : val_main_v133 (F := Ideal) x1 = rot3 1#32 2#32 (x1) := by
  have h1 : val_main_call19_v2 (F := Ideal) x1 = dynamicRotate (1 : Fin 3) 1#32 none (x1) (by decide) :=
    roll_concat (s := S8x128x128) (s₁ := S8x1x128) (s₂ := S8x127x128) 1 (x1) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v133 (F := Ideal) x1 = dynamicRotate (2 : Fin 3) 2#32 none (val_main_call19_v2 (F := Ideal) x1) (by decide) :=
    roll_concat (s := S8x128x128) (s₁ := S8x128x2) (s₂ := S8x128x126) 2 (val_main_call19_v2 (F := Ideal) x1) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem term_5 (x0 : FVec Ideal T4 .f32) (x1 x2 : IVec T3 32) :
    val_main_v146 (F := Ideal) x0 x1 x2 = termOf x0 x1 (val_main_v29 (F := Ideal) x1 x2) 5 := by
  have e : val_main_v146 (F := Ideal) x0 x1 x2
      = refShift x0 (val_main_v28 (F := Ideal) x0) x1 (val_main_v29 (F := Ideal) x1 x2)
          (val_main_v131 (F := Ideal) x0) (val_main_v132 (F := Ideal) x0) (val_main_v133 (F := Ideal) x1) := rfl
  rw [e, roll_v131, roll_v132, roll_v133, norm_eq, refShift_eq]
  rfl

/-! ### Shift 6: rows by 1, lanes by 1 -/

theorem roll_v151 (x0 : FVec Ideal T4 .f32) : val_main_v151 (F := Ideal) x0 = rot4 1#32 1#32 (x0) := by
  have h1 : val_main_call20_v2 (F := Ideal) x0 = dynamicRotate (2 : Fin 4) 1#32 none (x0) (by decide) :=
    roll_concat (s := S8x256x128x128) (s₁ := S8x256x1x128) (s₂ := S8x256x127x128) 2 (x0) ![0, 0, 127, 0] ![0, 0, 0, 0]
      slices_S8x256x128x128_S8x256x1x128_0_0_127_0 slices_S8x256x128x128_S8x256x127x128_0_0_0_0 concatenates_S8x256x1x128_S8x256x127x128_S8x256x128x128_d2 1#32 (by decide) (by decide) (by decide) (by decide)
  have h2 : val_main_v151 (F := Ideal) x0 = dynamicRotate (3 : Fin 4) 1#32 none (val_main_call20_v2 (F := Ideal) x0) (by decide) :=
    roll_concat (s := S8x256x128x128) (s₁ := S8x256x128x1) (s₂ := S8x256x128x127) 3 (val_main_call20_v2 (F := Ideal) x0) ![0, 0, 0, 127] ![0, 0, 0, 0]
      slices_S8x256x128x128_S8x256x128x1_0_0_0_127 slices_S8x256x128x128_S8x256x128x127_0_0_0_0 concatenates_S8x256x128x1_S8x256x128x127_S8x256x128x128_d3 1#32 (by decide) (by decide) (by decide) (by decide)
  rw [h2, h1]; rfl

theorem roll_v152 (x0 : FVec Ideal T4 .f32) : val_main_v152 (F := Ideal) x0 = rot3 1#32 1#32 (val_main_v28 (F := Ideal) x0) := by
  have h1 : val_main_call21_v2 (F := Ideal) x0 = dynamicRotate (1 : Fin 3) 1#32 none (val_main_v28 (F := Ideal) x0) (by decide) :=
    roll_concat (s := S8x128x128) (s₁ := S8x1x128) (s₂ := S8x127x128) 1 (val_main_v28 (F := Ideal) x0) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v152 (F := Ideal) x0 = dynamicRotate (2 : Fin 3) 1#32 none (val_main_call21_v2 (F := Ideal) x0) (by decide) :=
    roll_concat (s := S8x128x128) (s₁ := S8x128x1) (s₂ := S8x128x127) 2 (val_main_call21_v2 (F := Ideal) x0) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem roll_v153 (x1 : IVec T3 32) : val_main_v153 (F := Ideal) x1 = rot3 1#32 1#32 (x1) := by
  have h1 : val_main_call22_v2 (F := Ideal) x1 = dynamicRotate (1 : Fin 3) 1#32 none (x1) (by decide) :=
    roll_concat (s := S8x128x128) (s₁ := S8x1x128) (s₂ := S8x127x128) 1 (x1) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v153 (F := Ideal) x1 = dynamicRotate (2 : Fin 3) 1#32 none (val_main_call22_v2 (F := Ideal) x1) (by decide) :=
    roll_concat (s := S8x128x128) (s₁ := S8x128x1) (s₂ := S8x128x127) 2 (val_main_call22_v2 (F := Ideal) x1) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem term_6 (x0 : FVec Ideal T4 .f32) (x1 x2 : IVec T3 32) :
    val_main_v166 (F := Ideal) x0 x1 x2 = termOf x0 x1 (val_main_v29 (F := Ideal) x1 x2) 6 := by
  have e : val_main_v166 (F := Ideal) x0 x1 x2
      = refShift x0 (val_main_v28 (F := Ideal) x0) x1 (val_main_v29 (F := Ideal) x1 x2)
          (val_main_v151 (F := Ideal) x0) (val_main_v152 (F := Ideal) x0) (val_main_v153 (F := Ideal) x1) := rfl
  rw [e, roll_v151, roll_v152, roll_v153, norm_eq, refShift_eq]
  rfl

/-! ### Shift 7: rows by 1, lanes by 0 -/

theorem roll_v171 (x0 : FVec Ideal T4 .f32) : val_main_v171 (F := Ideal) x0 = rot4 1#32 0#32 (x0) := by
  have h1 : val_main_call23_v2 (F := Ideal) x0 = dynamicRotate (2 : Fin 4) 1#32 none (x0) (by decide) :=
    roll_concat (s := S8x256x128x128) (s₁ := S8x256x1x128) (s₂ := S8x256x127x128) 2 (x0) ![0, 0, 127, 0] ![0, 0, 0, 0]
      slices_S8x256x128x128_S8x256x1x128_0_0_127_0 slices_S8x256x128x128_S8x256x127x128_0_0_0_0 concatenates_S8x256x1x128_S8x256x127x128_S8x256x128x128_d2 1#32 (by decide) (by decide) (by decide) (by decide)
  have h2 : val_main_v171 (F := Ideal) x0 = dynamicRotate (3 : Fin 4) 0#32 none (val_main_call23_v2 (F := Ideal) x0) (by decide) :=
    roll_concat (s := S8x256x128x128) (s₁ := S8x256x128x128) (s₂ := S8x256x128x0) 3 (val_main_call23_v2 (F := Ideal) x0) ![0, 0, 0, 0] ![0, 0, 0, 0]
      slices_S8x256x128x128_S8x256x128x128_0_0_0_0 slices_S8x256x128x128_S8x256x128x0_0_0_0_0 concatenates_S8x256x128x128_S8x256x128x0_S8x256x128x128_d3 0#32 (by decide) (by decide) (by decide) (by decide)
  rw [h2, h1]; rfl

theorem roll_v172 (x0 : FVec Ideal T4 .f32) : val_main_v172 (F := Ideal) x0 = rot3 1#32 0#32 (val_main_v28 (F := Ideal) x0) := by
  have h1 : val_main_call24_v2 (F := Ideal) x0 = dynamicRotate (1 : Fin 3) 1#32 none (val_main_v28 (F := Ideal) x0) (by decide) :=
    roll_concat (s := S8x128x128) (s₁ := S8x1x128) (s₂ := S8x127x128) 1 (val_main_v28 (F := Ideal) x0) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v172 (F := Ideal) x0 = dynamicRotate (2 : Fin 3) 0#32 none (val_main_call24_v2 (F := Ideal) x0) (by decide) :=
    roll_concat (s := S8x128x128) (s₁ := S8x128x128) (s₂ := S8x128x0) 2 (val_main_call24_v2 (F := Ideal) x0) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem roll_v173 (x1 : IVec T3 32) : val_main_v173 (F := Ideal) x1 = rot3 1#32 0#32 (x1) := by
  have h1 : val_main_call25_v2 (F := Ideal) x1 = dynamicRotate (1 : Fin 3) 1#32 none (x1) (by decide) :=
    roll_concat (s := S8x128x128) (s₁ := S8x1x128) (s₂ := S8x127x128) 1 (x1) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v173 (F := Ideal) x1 = dynamicRotate (2 : Fin 3) 0#32 none (val_main_call25_v2 (F := Ideal) x1) (by decide) :=
    roll_concat (s := S8x128x128) (s₁ := S8x128x128) (s₂ := S8x128x0) 2 (val_main_call25_v2 (F := Ideal) x1) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem term_7 (x0 : FVec Ideal T4 .f32) (x1 x2 : IVec T3 32) :
    val_main_v186 (F := Ideal) x0 x1 x2 = termOf x0 x1 (val_main_v29 (F := Ideal) x1 x2) 7 := by
  have e : val_main_v186 (F := Ideal) x0 x1 x2
      = refShift x0 (val_main_v28 (F := Ideal) x0) x1 (val_main_v29 (F := Ideal) x1 x2)
          (val_main_v171 (F := Ideal) x0) (val_main_v172 (F := Ideal) x0) (val_main_v173 (F := Ideal) x1) := rfl
  rw [e, roll_v171, roll_v172, roll_v173, norm_eq, refShift_eq]
  rfl

end Cert.Bridge.Ref

end
-- ==== Proof.RefShiftsC.lean ====
/-
  The reference's shifts 8 to 11 read back into the specification.

  Each shifted array is two slices laid end to end along the rows and then along the lanes, so it is the operand
  rotated along both; with that, the shift's per-image term is the specification's `termOf`.
-/
import proofs.«133983_j1632087573343_1_alg».proof.Proof.RefNorm
import proofs.«133983_j1632087573343_1_alg».proof.Proof.Algebra

noncomputable section

namespace Cert.Bridge.Ref

open Idealize.ShloMosaic Idealize.ShloMosaic.ValueIdx Cert.Bridge
open Cert.ReferenceIdeal Cert.ReferenceIdeal.Gen Cert.ReferenceIdeal.Read

/-! ### Shift 8: rows by 1, lanes by 127 -/

theorem roll_v191 (x0 : FVec Ideal T4 .f32) : val_main_v191 (F := Ideal) x0 = rot4 1#32 127#32 (x0) := by
  have h1 : val_main_call26_v2 (F := Ideal) x0 = dynamicRotate (2 : Fin 4) 1#32 none (x0) (by decide) :=
    roll_concat (s := S8x256x128x128) (s₁ := S8x256x1x128) (s₂ := S8x256x127x128) 2 (x0) ![0, 0, 127, 0] ![0, 0, 0, 0]
      slices_S8x256x128x128_S8x256x1x128_0_0_127_0 slices_S8x256x128x128_S8x256x127x128_0_0_0_0 concatenates_S8x256x1x128_S8x256x127x128_S8x256x128x128_d2 1#32 (by decide) (by decide) (by decide) (by decide)
  have h2 : val_main_v191 (F := Ideal) x0 = dynamicRotate (3 : Fin 4) 127#32 none (val_main_call26_v2 (F := Ideal) x0) (by decide) :=
    roll_concat (s := S8x256x128x128) (s₁ := S8x256x128x127) (s₂ := S8x256x128x1) 3 (val_main_call26_v2 (F := Ideal) x0) ![0, 0, 0, 1] ![0, 0, 0, 0]
      slices_S8x256x128x128_S8x256x128x127_0_0_0_1 slices_S8x256x128x128_S8x256x128x1_0_0_0_0 concatenates_S8x256x128x127_S8x256x128x1_S8x256x128x128_d3 127#32 (by decide) (by decide) (by decide) (by decide)
  rw [h2, h1]; rfl

theorem roll_v192 (x0 : FVec Ideal T4 .f32) : val_main_v192 (F := Ideal) x0 = rot3 1#32 127#32 (val_main_v28 (F := Ideal) x0) := by
  have h1 : val_main_call27_v2 (F := Ideal) x0 = dynamicRotate (1 : Fin 3) 1#32 none (val_main_v28 (F := Ideal) x0) (by decide) :=
    roll_concat (s := S8x128x128) (s₁ := S8x1x128) (s₂ := S8x127x128) 1 (val_main_v28 (F := Ideal) x0) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v192 (F := Ideal) x0 = dynamicRotate (2 : Fin 3) 127#32 none (val_main_call27_v2 (F := Ideal) x0) (by decide) :=
    roll_concat (s := S8x128x128) (s₁ := S8x128x127) (s₂ := S8x128x1) 2 (val_main_call27_v2 (F := Ideal) x0) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem roll_v193 (x1 : IVec T3 32) : val_main_v193 (F := Ideal) x1 = rot3 1#32 127#32 (x1) := by
  have h1 : val_main_call28_v2 (F := Ideal) x1 = dynamicRotate (1 : Fin 3) 1#32 none (x1) (by decide) :=
    roll_concat (s := S8x128x128) (s₁ := S8x1x128) (s₂ := S8x127x128) 1 (x1) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v193 (F := Ideal) x1 = dynamicRotate (2 : Fin 3) 127#32 none (val_main_call28_v2 (F := Ideal) x1) (by decide) :=
    roll_concat (s := S8x128x128) (s₁ := S8x128x127) (s₂ := S8x128x1) 2 (val_main_call28_v2 (F := Ideal) x1) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem term_8 (x0 : FVec Ideal T4 .f32) (x1 x2 : IVec T3 32) :
    val_main_v206 (F := Ideal) x0 x1 x2 = termOf x0 x1 (val_main_v29 (F := Ideal) x1 x2) 8 := by
  have e : val_main_v206 (F := Ideal) x0 x1 x2
      = refShift x0 (val_main_v28 (F := Ideal) x0) x1 (val_main_v29 (F := Ideal) x1 x2)
          (val_main_v191 (F := Ideal) x0) (val_main_v192 (F := Ideal) x0) (val_main_v193 (F := Ideal) x1) := rfl
  rw [e, roll_v191, roll_v192, roll_v193, norm_eq, refShift_eq]
  rfl

/-! ### Shift 9: rows by 1, lanes by 126 -/

theorem roll_v211 (x0 : FVec Ideal T4 .f32) : val_main_v211 (F := Ideal) x0 = rot4 1#32 126#32 (x0) := by
  have h1 : val_main_call29_v2 (F := Ideal) x0 = dynamicRotate (2 : Fin 4) 1#32 none (x0) (by decide) :=
    roll_concat (s := S8x256x128x128) (s₁ := S8x256x1x128) (s₂ := S8x256x127x128) 2 (x0) ![0, 0, 127, 0] ![0, 0, 0, 0]
      slices_S8x256x128x128_S8x256x1x128_0_0_127_0 slices_S8x256x128x128_S8x256x127x128_0_0_0_0 concatenates_S8x256x1x128_S8x256x127x128_S8x256x128x128_d2 1#32 (by decide) (by decide) (by decide) (by decide)
  have h2 : val_main_v211 (F := Ideal) x0 = dynamicRotate (3 : Fin 4) 126#32 none (val_main_call29_v2 (F := Ideal) x0) (by decide) :=
    roll_concat (s := S8x256x128x128) (s₁ := S8x256x128x126) (s₂ := S8x256x128x2) 3 (val_main_call29_v2 (F := Ideal) x0) ![0, 0, 0, 2] ![0, 0, 0, 0]
      slices_S8x256x128x128_S8x256x128x126_0_0_0_2 slices_S8x256x128x128_S8x256x128x2_0_0_0_0 concatenates_S8x256x128x126_S8x256x128x2_S8x256x128x128_d3 126#32 (by decide) (by decide) (by decide) (by decide)
  rw [h2, h1]; rfl

theorem roll_v212 (x0 : FVec Ideal T4 .f32) : val_main_v212 (F := Ideal) x0 = rot3 1#32 126#32 (val_main_v28 (F := Ideal) x0) := by
  have h1 : val_main_call30_v2 (F := Ideal) x0 = dynamicRotate (1 : Fin 3) 1#32 none (val_main_v28 (F := Ideal) x0) (by decide) :=
    roll_concat (s := S8x128x128) (s₁ := S8x1x128) (s₂ := S8x127x128) 1 (val_main_v28 (F := Ideal) x0) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v212 (F := Ideal) x0 = dynamicRotate (2 : Fin 3) 126#32 none (val_main_call30_v2 (F := Ideal) x0) (by decide) :=
    roll_concat (s := S8x128x128) (s₁ := S8x128x126) (s₂ := S8x128x2) 2 (val_main_call30_v2 (F := Ideal) x0) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem roll_v213 (x1 : IVec T3 32) : val_main_v213 (F := Ideal) x1 = rot3 1#32 126#32 (x1) := by
  have h1 : val_main_call31_v2 (F := Ideal) x1 = dynamicRotate (1 : Fin 3) 1#32 none (x1) (by decide) :=
    roll_concat (s := S8x128x128) (s₁ := S8x1x128) (s₂ := S8x127x128) 1 (x1) ![0, 127, 0] ![0, 0, 0]
      slices_S8x128x128_S8x1x128_0_127_0 slices_S8x128x128_S8x127x128_0_0_0 concatenates_S8x1x128_S8x127x128_S8x128x128_d1 1#32 (by decide) (by decide) (by decide) (by decide)
  have h2 : val_main_v213 (F := Ideal) x1 = dynamicRotate (2 : Fin 3) 126#32 none (val_main_call31_v2 (F := Ideal) x1) (by decide) :=
    roll_concat (s := S8x128x128) (s₁ := S8x128x126) (s₂ := S8x128x2) 2 (val_main_call31_v2 (F := Ideal) x1) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem term_9 (x0 : FVec Ideal T4 .f32) (x1 x2 : IVec T3 32) :
    val_main_v226 (F := Ideal) x0 x1 x2 = termOf x0 x1 (val_main_v29 (F := Ideal) x1 x2) 9 := by
  have e : val_main_v226 (F := Ideal) x0 x1 x2
      = refShift x0 (val_main_v28 (F := Ideal) x0) x1 (val_main_v29 (F := Ideal) x1 x2)
          (val_main_v211 (F := Ideal) x0) (val_main_v212 (F := Ideal) x0) (val_main_v213 (F := Ideal) x1) := rfl
  rw [e, roll_v211, roll_v212, roll_v213, norm_eq, refShift_eq]
  rfl

/-! ### Shift 10: rows by 0, lanes by 2 -/

theorem roll_v231 (x0 : FVec Ideal T4 .f32) : val_main_v231 (F := Ideal) x0 = rot4 0#32 2#32 (x0) := by
  have h1 : val_main_call32_v2 (F := Ideal) x0 = dynamicRotate (2 : Fin 4) 0#32 none (x0) (by decide) :=
    roll_concat (s := S8x256x128x128) (s₁ := S8x256x128x128) (s₂ := S8x256x0x128) 2 (x0) ![0, 0, 0, 0] ![0, 0, 0, 0]
      slices_S8x256x128x128_S8x256x128x128_0_0_0_0 slices_S8x256x128x128_S8x256x0x128_0_0_0_0 concatenates_S8x256x128x128_S8x256x0x128_S8x256x128x128_d2 0#32 (by decide) (by decide) (by decide) (by decide)
  have h2 : val_main_v231 (F := Ideal) x0 = dynamicRotate (3 : Fin 4) 2#32 none (val_main_call32_v2 (F := Ideal) x0) (by decide) :=
    roll_concat (s := S8x256x128x128) (s₁ := S8x256x128x2) (s₂ := S8x256x128x126) 3 (val_main_call32_v2 (F := Ideal) x0) ![0, 0, 0, 126] ![0, 0, 0, 0]
      slices_S8x256x128x128_S8x256x128x2_0_0_0_126 slices_S8x256x128x128_S8x256x128x126_0_0_0_0 concatenates_S8x256x128x2_S8x256x128x126_S8x256x128x128_d3 2#32 (by decide) (by decide) (by decide) (by decide)
  rw [h2, h1]; rfl

theorem roll_v232 (x0 : FVec Ideal T4 .f32) : val_main_v232 (F := Ideal) x0 = rot3 0#32 2#32 (val_main_v28 (F := Ideal) x0) := by
  have h1 : val_main_call33_v2 (F := Ideal) x0 = dynamicRotate (1 : Fin 3) 0#32 none (val_main_v28 (F := Ideal) x0) (by decide) :=
    roll_concat (s := S8x128x128) (s₁ := S8x128x128) (s₂ := S8x0x128) 1 (val_main_v28 (F := Ideal) x0) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v232 (F := Ideal) x0 = dynamicRotate (2 : Fin 3) 2#32 none (val_main_call33_v2 (F := Ideal) x0) (by decide) :=
    roll_concat (s := S8x128x128) (s₁ := S8x128x2) (s₂ := S8x128x126) 2 (val_main_call33_v2 (F := Ideal) x0) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem roll_v233 (x1 : IVec T3 32) : val_main_v233 (F := Ideal) x1 = rot3 0#32 2#32 (x1) := by
  have h1 : val_main_call34_v2 (F := Ideal) x1 = dynamicRotate (1 : Fin 3) 0#32 none (x1) (by decide) :=
    roll_concat (s := S8x128x128) (s₁ := S8x128x128) (s₂ := S8x0x128) 1 (x1) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v233 (F := Ideal) x1 = dynamicRotate (2 : Fin 3) 2#32 none (val_main_call34_v2 (F := Ideal) x1) (by decide) :=
    roll_concat (s := S8x128x128) (s₁ := S8x128x2) (s₂ := S8x128x126) 2 (val_main_call34_v2 (F := Ideal) x1) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem term_10 (x0 : FVec Ideal T4 .f32) (x1 x2 : IVec T3 32) :
    val_main_v246 (F := Ideal) x0 x1 x2 = termOf x0 x1 (val_main_v29 (F := Ideal) x1 x2) 10 := by
  have e : val_main_v246 (F := Ideal) x0 x1 x2
      = refShift x0 (val_main_v28 (F := Ideal) x0) x1 (val_main_v29 (F := Ideal) x1 x2)
          (val_main_v231 (F := Ideal) x0) (val_main_v232 (F := Ideal) x0) (val_main_v233 (F := Ideal) x1) := rfl
  rw [e, roll_v231, roll_v232, roll_v233, norm_eq, refShift_eq]
  rfl

/-! ### Shift 11: rows by 0, lanes by 1 -/

theorem roll_v251 (x0 : FVec Ideal T4 .f32) : val_main_v251 (F := Ideal) x0 = rot4 0#32 1#32 (x0) := by
  have h1 : val_main_call35_v2 (F := Ideal) x0 = dynamicRotate (2 : Fin 4) 0#32 none (x0) (by decide) :=
    roll_concat (s := S8x256x128x128) (s₁ := S8x256x128x128) (s₂ := S8x256x0x128) 2 (x0) ![0, 0, 0, 0] ![0, 0, 0, 0]
      slices_S8x256x128x128_S8x256x128x128_0_0_0_0 slices_S8x256x128x128_S8x256x0x128_0_0_0_0 concatenates_S8x256x128x128_S8x256x0x128_S8x256x128x128_d2 0#32 (by decide) (by decide) (by decide) (by decide)
  have h2 : val_main_v251 (F := Ideal) x0 = dynamicRotate (3 : Fin 4) 1#32 none (val_main_call35_v2 (F := Ideal) x0) (by decide) :=
    roll_concat (s := S8x256x128x128) (s₁ := S8x256x128x1) (s₂ := S8x256x128x127) 3 (val_main_call35_v2 (F := Ideal) x0) ![0, 0, 0, 127] ![0, 0, 0, 0]
      slices_S8x256x128x128_S8x256x128x1_0_0_0_127 slices_S8x256x128x128_S8x256x128x127_0_0_0_0 concatenates_S8x256x128x1_S8x256x128x127_S8x256x128x128_d3 1#32 (by decide) (by decide) (by decide) (by decide)
  rw [h2, h1]; rfl

theorem roll_v252 (x0 : FVec Ideal T4 .f32) : val_main_v252 (F := Ideal) x0 = rot3 0#32 1#32 (val_main_v28 (F := Ideal) x0) := by
  have h1 : val_main_call36_v2 (F := Ideal) x0 = dynamicRotate (1 : Fin 3) 0#32 none (val_main_v28 (F := Ideal) x0) (by decide) :=
    roll_concat (s := S8x128x128) (s₁ := S8x128x128) (s₂ := S8x0x128) 1 (val_main_v28 (F := Ideal) x0) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v252 (F := Ideal) x0 = dynamicRotate (2 : Fin 3) 1#32 none (val_main_call36_v2 (F := Ideal) x0) (by decide) :=
    roll_concat (s := S8x128x128) (s₁ := S8x128x1) (s₂ := S8x128x127) 2 (val_main_call36_v2 (F := Ideal) x0) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem roll_v253 (x1 : IVec T3 32) : val_main_v253 (F := Ideal) x1 = rot3 0#32 1#32 (x1) := by
  have h1 : val_main_call37_v2 (F := Ideal) x1 = dynamicRotate (1 : Fin 3) 0#32 none (x1) (by decide) :=
    roll_concat (s := S8x128x128) (s₁ := S8x128x128) (s₂ := S8x0x128) 1 (x1) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v253 (F := Ideal) x1 = dynamicRotate (2 : Fin 3) 1#32 none (val_main_call37_v2 (F := Ideal) x1) (by decide) :=
    roll_concat (s := S8x128x128) (s₁ := S8x128x1) (s₂ := S8x128x127) 2 (val_main_call37_v2 (F := Ideal) x1) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem term_11 (x0 : FVec Ideal T4 .f32) (x1 x2 : IVec T3 32) :
    val_main_v266 (F := Ideal) x0 x1 x2 = termOf x0 x1 (val_main_v29 (F := Ideal) x1 x2) 11 := by
  have e : val_main_v266 (F := Ideal) x0 x1 x2
      = refShift x0 (val_main_v28 (F := Ideal) x0) x1 (val_main_v29 (F := Ideal) x1 x2)
          (val_main_v251 (F := Ideal) x0) (val_main_v252 (F := Ideal) x0) (val_main_v253 (F := Ideal) x1) := rfl
  rw [e, roll_v251, roll_v252, roll_v253, norm_eq, refShift_eq]
  rfl

end Cert.Bridge.Ref

end
-- ==== Proof.RefShiftsD.lean ====
/-
  The reference's shifts 12 to 15 read back into the specification.

  Each shifted array is two slices laid end to end along the rows and then along the lanes, so it is the operand
  rotated along both; with that, the shift's per-image term is the specification's `termOf`.
-/
import proofs.«133983_j1632087573343_1_alg».proof.Proof.RefNorm
import proofs.«133983_j1632087573343_1_alg».proof.Proof.Algebra

noncomputable section

namespace Cert.Bridge.Ref

open Idealize.ShloMosaic Idealize.ShloMosaic.ValueIdx Cert.Bridge
open Cert.ReferenceIdeal Cert.ReferenceIdeal.Gen Cert.ReferenceIdeal.Read

/-! ### Shift 12: rows by 0, lanes by 127 -/

theorem roll_v271 (x0 : FVec Ideal T4 .f32) : val_main_v271 (F := Ideal) x0 = rot4 0#32 127#32 (x0) := by
  have h1 : val_main_call38_v2 (F := Ideal) x0 = dynamicRotate (2 : Fin 4) 0#32 none (x0) (by decide) :=
    roll_concat (s := S8x256x128x128) (s₁ := S8x256x128x128) (s₂ := S8x256x0x128) 2 (x0) ![0, 0, 0, 0] ![0, 0, 0, 0]
      slices_S8x256x128x128_S8x256x128x128_0_0_0_0 slices_S8x256x128x128_S8x256x0x128_0_0_0_0 concatenates_S8x256x128x128_S8x256x0x128_S8x256x128x128_d2 0#32 (by decide) (by decide) (by decide) (by decide)
  have h2 : val_main_v271 (F := Ideal) x0 = dynamicRotate (3 : Fin 4) 127#32 none (val_main_call38_v2 (F := Ideal) x0) (by decide) :=
    roll_concat (s := S8x256x128x128) (s₁ := S8x256x128x127) (s₂ := S8x256x128x1) 3 (val_main_call38_v2 (F := Ideal) x0) ![0, 0, 0, 1] ![0, 0, 0, 0]
      slices_S8x256x128x128_S8x256x128x127_0_0_0_1 slices_S8x256x128x128_S8x256x128x1_0_0_0_0 concatenates_S8x256x128x127_S8x256x128x1_S8x256x128x128_d3 127#32 (by decide) (by decide) (by decide) (by decide)
  rw [h2, h1]; rfl

theorem roll_v272 (x0 : FVec Ideal T4 .f32) : val_main_v272 (F := Ideal) x0 = rot3 0#32 127#32 (val_main_v28 (F := Ideal) x0) := by
  have h1 : val_main_call39_v2 (F := Ideal) x0 = dynamicRotate (1 : Fin 3) 0#32 none (val_main_v28 (F := Ideal) x0) (by decide) :=
    roll_concat (s := S8x128x128) (s₁ := S8x128x128) (s₂ := S8x0x128) 1 (val_main_v28 (F := Ideal) x0) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v272 (F := Ideal) x0 = dynamicRotate (2 : Fin 3) 127#32 none (val_main_call39_v2 (F := Ideal) x0) (by decide) :=
    roll_concat (s := S8x128x128) (s₁ := S8x128x127) (s₂ := S8x128x1) 2 (val_main_call39_v2 (F := Ideal) x0) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem roll_v273 (x1 : IVec T3 32) : val_main_v273 (F := Ideal) x1 = rot3 0#32 127#32 (x1) := by
  have h1 : val_main_call40_v2 (F := Ideal) x1 = dynamicRotate (1 : Fin 3) 0#32 none (x1) (by decide) :=
    roll_concat (s := S8x128x128) (s₁ := S8x128x128) (s₂ := S8x0x128) 1 (x1) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v273 (F := Ideal) x1 = dynamicRotate (2 : Fin 3) 127#32 none (val_main_call40_v2 (F := Ideal) x1) (by decide) :=
    roll_concat (s := S8x128x128) (s₁ := S8x128x127) (s₂ := S8x128x1) 2 (val_main_call40_v2 (F := Ideal) x1) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem term_12 (x0 : FVec Ideal T4 .f32) (x1 x2 : IVec T3 32) :
    val_main_v286 (F := Ideal) x0 x1 x2 = termOf x0 x1 (val_main_v29 (F := Ideal) x1 x2) 12 := by
  have e : val_main_v286 (F := Ideal) x0 x1 x2
      = refShift x0 (val_main_v28 (F := Ideal) x0) x1 (val_main_v29 (F := Ideal) x1 x2)
          (val_main_v271 (F := Ideal) x0) (val_main_v272 (F := Ideal) x0) (val_main_v273 (F := Ideal) x1) := rfl
  rw [e, roll_v271, roll_v272, roll_v273, norm_eq, refShift_eq]
  rfl

/-! ### Shift 13: rows by 0, lanes by 126 -/

theorem roll_v291 (x0 : FVec Ideal T4 .f32) : val_main_v291 (F := Ideal) x0 = rot4 0#32 126#32 (x0) := by
  have h1 : val_main_call41_v2 (F := Ideal) x0 = dynamicRotate (2 : Fin 4) 0#32 none (x0) (by decide) :=
    roll_concat (s := S8x256x128x128) (s₁ := S8x256x128x128) (s₂ := S8x256x0x128) 2 (x0) ![0, 0, 0, 0] ![0, 0, 0, 0]
      slices_S8x256x128x128_S8x256x128x128_0_0_0_0 slices_S8x256x128x128_S8x256x0x128_0_0_0_0 concatenates_S8x256x128x128_S8x256x0x128_S8x256x128x128_d2 0#32 (by decide) (by decide) (by decide) (by decide)
  have h2 : val_main_v291 (F := Ideal) x0 = dynamicRotate (3 : Fin 4) 126#32 none (val_main_call41_v2 (F := Ideal) x0) (by decide) :=
    roll_concat (s := S8x256x128x128) (s₁ := S8x256x128x126) (s₂ := S8x256x128x2) 3 (val_main_call41_v2 (F := Ideal) x0) ![0, 0, 0, 2] ![0, 0, 0, 0]
      slices_S8x256x128x128_S8x256x128x126_0_0_0_2 slices_S8x256x128x128_S8x256x128x2_0_0_0_0 concatenates_S8x256x128x126_S8x256x128x2_S8x256x128x128_d3 126#32 (by decide) (by decide) (by decide) (by decide)
  rw [h2, h1]; rfl

theorem roll_v292 (x0 : FVec Ideal T4 .f32) : val_main_v292 (F := Ideal) x0 = rot3 0#32 126#32 (val_main_v28 (F := Ideal) x0) := by
  have h1 : val_main_call42_v2 (F := Ideal) x0 = dynamicRotate (1 : Fin 3) 0#32 none (val_main_v28 (F := Ideal) x0) (by decide) :=
    roll_concat (s := S8x128x128) (s₁ := S8x128x128) (s₂ := S8x0x128) 1 (val_main_v28 (F := Ideal) x0) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v292 (F := Ideal) x0 = dynamicRotate (2 : Fin 3) 126#32 none (val_main_call42_v2 (F := Ideal) x0) (by decide) :=
    roll_concat (s := S8x128x128) (s₁ := S8x128x126) (s₂ := S8x128x2) 2 (val_main_call42_v2 (F := Ideal) x0) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem roll_v293 (x1 : IVec T3 32) : val_main_v293 (F := Ideal) x1 = rot3 0#32 126#32 (x1) := by
  have h1 : val_main_call43_v2 (F := Ideal) x1 = dynamicRotate (1 : Fin 3) 0#32 none (x1) (by decide) :=
    roll_concat (s := S8x128x128) (s₁ := S8x128x128) (s₂ := S8x0x128) 1 (x1) ![0, 0, 0] ![0, 0, 0]
      slices_S8x128x128_S8x128x128_0_0_0 slices_S8x128x128_S8x0x128_0_0_0 concatenates_S8x128x128_S8x0x128_S8x128x128_d1 0#32 (by decide) (by decide) (by decide) (by decide)
  have h2 : val_main_v293 (F := Ideal) x1 = dynamicRotate (2 : Fin 3) 126#32 none (val_main_call43_v2 (F := Ideal) x1) (by decide) :=
    roll_concat (s := S8x128x128) (s₁ := S8x128x126) (s₂ := S8x128x2) 2 (val_main_call43_v2 (F := Ideal) x1) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem term_13 (x0 : FVec Ideal T4 .f32) (x1 x2 : IVec T3 32) :
    val_main_v306 (F := Ideal) x0 x1 x2 = termOf x0 x1 (val_main_v29 (F := Ideal) x1 x2) 13 := by
  have e : val_main_v306 (F := Ideal) x0 x1 x2
      = refShift x0 (val_main_v28 (F := Ideal) x0) x1 (val_main_v29 (F := Ideal) x1 x2)
          (val_main_v291 (F := Ideal) x0) (val_main_v292 (F := Ideal) x0) (val_main_v293 (F := Ideal) x1) := rfl
  rw [e, roll_v291, roll_v292, roll_v293, norm_eq, refShift_eq]
  rfl

/-! ### Shift 14: rows by 127, lanes by 2 -/

theorem roll_v311 (x0 : FVec Ideal T4 .f32) : val_main_v311 (F := Ideal) x0 = rot4 127#32 2#32 (x0) := by
  have h1 : val_main_call44_v2 (F := Ideal) x0 = dynamicRotate (2 : Fin 4) 127#32 none (x0) (by decide) :=
    roll_concat (s := S8x256x128x128) (s₁ := S8x256x127x128) (s₂ := S8x256x1x128) 2 (x0) ![0, 0, 1, 0] ![0, 0, 0, 0]
      slices_S8x256x128x128_S8x256x127x128_0_0_1_0 slices_S8x256x128x128_S8x256x1x128_0_0_0_0 concatenates_S8x256x127x128_S8x256x1x128_S8x256x128x128_d2 127#32 (by decide) (by decide) (by decide) (by decide)
  have h2 : val_main_v311 (F := Ideal) x0 = dynamicRotate (3 : Fin 4) 2#32 none (val_main_call44_v2 (F := Ideal) x0) (by decide) :=
    roll_concat (s := S8x256x128x128) (s₁ := S8x256x128x2) (s₂ := S8x256x128x126) 3 (val_main_call44_v2 (F := Ideal) x0) ![0, 0, 0, 126] ![0, 0, 0, 0]
      slices_S8x256x128x128_S8x256x128x2_0_0_0_126 slices_S8x256x128x128_S8x256x128x126_0_0_0_0 concatenates_S8x256x128x2_S8x256x128x126_S8x256x128x128_d3 2#32 (by decide) (by decide) (by decide) (by decide)
  rw [h2, h1]; rfl

theorem roll_v312 (x0 : FVec Ideal T4 .f32) : val_main_v312 (F := Ideal) x0 = rot3 127#32 2#32 (val_main_v28 (F := Ideal) x0) := by
  have h1 : val_main_call45_v2 (F := Ideal) x0 = dynamicRotate (1 : Fin 3) 127#32 none (val_main_v28 (F := Ideal) x0) (by decide) :=
    roll_concat (s := S8x128x128) (s₁ := S8x127x128) (s₂ := S8x1x128) 1 (val_main_v28 (F := Ideal) x0) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v312 (F := Ideal) x0 = dynamicRotate (2 : Fin 3) 2#32 none (val_main_call45_v2 (F := Ideal) x0) (by decide) :=
    roll_concat (s := S8x128x128) (s₁ := S8x128x2) (s₂ := S8x128x126) 2 (val_main_call45_v2 (F := Ideal) x0) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem roll_v313 (x1 : IVec T3 32) : val_main_v313 (F := Ideal) x1 = rot3 127#32 2#32 (x1) := by
  have h1 : val_main_call46_v2 (F := Ideal) x1 = dynamicRotate (1 : Fin 3) 127#32 none (x1) (by decide) :=
    roll_concat (s := S8x128x128) (s₁ := S8x127x128) (s₂ := S8x1x128) 1 (x1) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v313 (F := Ideal) x1 = dynamicRotate (2 : Fin 3) 2#32 none (val_main_call46_v2 (F := Ideal) x1) (by decide) :=
    roll_concat (s := S8x128x128) (s₁ := S8x128x2) (s₂ := S8x128x126) 2 (val_main_call46_v2 (F := Ideal) x1) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem term_14 (x0 : FVec Ideal T4 .f32) (x1 x2 : IVec T3 32) :
    val_main_v326 (F := Ideal) x0 x1 x2 = termOf x0 x1 (val_main_v29 (F := Ideal) x1 x2) 14 := by
  have e : val_main_v326 (F := Ideal) x0 x1 x2
      = refShift x0 (val_main_v28 (F := Ideal) x0) x1 (val_main_v29 (F := Ideal) x1 x2)
          (val_main_v311 (F := Ideal) x0) (val_main_v312 (F := Ideal) x0) (val_main_v313 (F := Ideal) x1) := rfl
  rw [e, roll_v311, roll_v312, roll_v313, norm_eq, refShift_eq]
  rfl

/-! ### Shift 15: rows by 127, lanes by 1 -/

theorem roll_v331 (x0 : FVec Ideal T4 .f32) : val_main_v331 (F := Ideal) x0 = rot4 127#32 1#32 (x0) := by
  have h1 : val_main_call47_v2 (F := Ideal) x0 = dynamicRotate (2 : Fin 4) 127#32 none (x0) (by decide) :=
    roll_concat (s := S8x256x128x128) (s₁ := S8x256x127x128) (s₂ := S8x256x1x128) 2 (x0) ![0, 0, 1, 0] ![0, 0, 0, 0]
      slices_S8x256x128x128_S8x256x127x128_0_0_1_0 slices_S8x256x128x128_S8x256x1x128_0_0_0_0 concatenates_S8x256x127x128_S8x256x1x128_S8x256x128x128_d2 127#32 (by decide) (by decide) (by decide) (by decide)
  have h2 : val_main_v331 (F := Ideal) x0 = dynamicRotate (3 : Fin 4) 1#32 none (val_main_call47_v2 (F := Ideal) x0) (by decide) :=
    roll_concat (s := S8x256x128x128) (s₁ := S8x256x128x1) (s₂ := S8x256x128x127) 3 (val_main_call47_v2 (F := Ideal) x0) ![0, 0, 0, 127] ![0, 0, 0, 0]
      slices_S8x256x128x128_S8x256x128x1_0_0_0_127 slices_S8x256x128x128_S8x256x128x127_0_0_0_0 concatenates_S8x256x128x1_S8x256x128x127_S8x256x128x128_d3 1#32 (by decide) (by decide) (by decide) (by decide)
  rw [h2, h1]; rfl

theorem roll_v332 (x0 : FVec Ideal T4 .f32) : val_main_v332 (F := Ideal) x0 = rot3 127#32 1#32 (val_main_v28 (F := Ideal) x0) := by
  have h1 : val_main_call48_v2 (F := Ideal) x0 = dynamicRotate (1 : Fin 3) 127#32 none (val_main_v28 (F := Ideal) x0) (by decide) :=
    roll_concat (s := S8x128x128) (s₁ := S8x127x128) (s₂ := S8x1x128) 1 (val_main_v28 (F := Ideal) x0) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v332 (F := Ideal) x0 = dynamicRotate (2 : Fin 3) 1#32 none (val_main_call48_v2 (F := Ideal) x0) (by decide) :=
    roll_concat (s := S8x128x128) (s₁ := S8x128x1) (s₂ := S8x128x127) 2 (val_main_call48_v2 (F := Ideal) x0) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem roll_v333 (x1 : IVec T3 32) : val_main_v333 (F := Ideal) x1 = rot3 127#32 1#32 (x1) := by
  have h1 : val_main_call49_v2 (F := Ideal) x1 = dynamicRotate (1 : Fin 3) 127#32 none (x1) (by decide) :=
    roll_concat (s := S8x128x128) (s₁ := S8x127x128) (s₂ := S8x1x128) 1 (x1) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v333 (F := Ideal) x1 = dynamicRotate (2 : Fin 3) 1#32 none (val_main_call49_v2 (F := Ideal) x1) (by decide) :=
    roll_concat (s := S8x128x128) (s₁ := S8x128x1) (s₂ := S8x128x127) 2 (val_main_call49_v2 (F := Ideal) x1) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem term_15 (x0 : FVec Ideal T4 .f32) (x1 x2 : IVec T3 32) :
    val_main_v346 (F := Ideal) x0 x1 x2 = termOf x0 x1 (val_main_v29 (F := Ideal) x1 x2) 15 := by
  have e : val_main_v346 (F := Ideal) x0 x1 x2
      = refShift x0 (val_main_v28 (F := Ideal) x0) x1 (val_main_v29 (F := Ideal) x1 x2)
          (val_main_v331 (F := Ideal) x0) (val_main_v332 (F := Ideal) x0) (val_main_v333 (F := Ideal) x1) := rfl
  rw [e, roll_v331, roll_v332, roll_v333, norm_eq, refShift_eq]
  rfl

end Cert.Bridge.Ref

end
-- ==== Proof.RefShiftsE.lean ====
/-
  The reference's shifts 16 to 19 read back into the specification.

  Each shifted array is two slices laid end to end along the rows and then along the lanes, so it is the operand
  rotated along both; with that, the shift's per-image term is the specification's `termOf`.
-/
import proofs.«133983_j1632087573343_1_alg».proof.Proof.RefNorm
import proofs.«133983_j1632087573343_1_alg».proof.Proof.Algebra

noncomputable section

namespace Cert.Bridge.Ref

open Idealize.ShloMosaic Idealize.ShloMosaic.ValueIdx Cert.Bridge
open Cert.ReferenceIdeal Cert.ReferenceIdeal.Gen Cert.ReferenceIdeal.Read

/-! ### Shift 16: rows by 127, lanes by 0 -/

theorem roll_v351 (x0 : FVec Ideal T4 .f32) : val_main_v351 (F := Ideal) x0 = rot4 127#32 0#32 (x0) := by
  have h1 : val_main_call50_v2 (F := Ideal) x0 = dynamicRotate (2 : Fin 4) 127#32 none (x0) (by decide) :=
    roll_concat (s := S8x256x128x128) (s₁ := S8x256x127x128) (s₂ := S8x256x1x128) 2 (x0) ![0, 0, 1, 0] ![0, 0, 0, 0]
      slices_S8x256x128x128_S8x256x127x128_0_0_1_0 slices_S8x256x128x128_S8x256x1x128_0_0_0_0 concatenates_S8x256x127x128_S8x256x1x128_S8x256x128x128_d2 127#32 (by decide) (by decide) (by decide) (by decide)
  have h2 : val_main_v351 (F := Ideal) x0 = dynamicRotate (3 : Fin 4) 0#32 none (val_main_call50_v2 (F := Ideal) x0) (by decide) :=
    roll_concat (s := S8x256x128x128) (s₁ := S8x256x128x128) (s₂ := S8x256x128x0) 3 (val_main_call50_v2 (F := Ideal) x0) ![0, 0, 0, 0] ![0, 0, 0, 0]
      slices_S8x256x128x128_S8x256x128x128_0_0_0_0 slices_S8x256x128x128_S8x256x128x0_0_0_0_0 concatenates_S8x256x128x128_S8x256x128x0_S8x256x128x128_d3 0#32 (by decide) (by decide) (by decide) (by decide)
  rw [h2, h1]; rfl

theorem roll_v352 (x0 : FVec Ideal T4 .f32) : val_main_v352 (F := Ideal) x0 = rot3 127#32 0#32 (val_main_v28 (F := Ideal) x0) := by
  have h1 : val_main_call51_v2 (F := Ideal) x0 = dynamicRotate (1 : Fin 3) 127#32 none (val_main_v28 (F := Ideal) x0) (by decide) :=
    roll_concat (s := S8x128x128) (s₁ := S8x127x128) (s₂ := S8x1x128) 1 (val_main_v28 (F := Ideal) x0) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v352 (F := Ideal) x0 = dynamicRotate (2 : Fin 3) 0#32 none (val_main_call51_v2 (F := Ideal) x0) (by decide) :=
    roll_concat (s := S8x128x128) (s₁ := S8x128x128) (s₂ := S8x128x0) 2 (val_main_call51_v2 (F := Ideal) x0) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem roll_v353 (x1 : IVec T3 32) : val_main_v353 (F := Ideal) x1 = rot3 127#32 0#32 (x1) := by
  have h1 : val_main_call52_v2 (F := Ideal) x1 = dynamicRotate (1 : Fin 3) 127#32 none (x1) (by decide) :=
    roll_concat (s := S8x128x128) (s₁ := S8x127x128) (s₂ := S8x1x128) 1 (x1) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v353 (F := Ideal) x1 = dynamicRotate (2 : Fin 3) 0#32 none (val_main_call52_v2 (F := Ideal) x1) (by decide) :=
    roll_concat (s := S8x128x128) (s₁ := S8x128x128) (s₂ := S8x128x0) 2 (val_main_call52_v2 (F := Ideal) x1) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem term_16 (x0 : FVec Ideal T4 .f32) (x1 x2 : IVec T3 32) :
    val_main_v366 (F := Ideal) x0 x1 x2 = termOf x0 x1 (val_main_v29 (F := Ideal) x1 x2) 16 := by
  have e : val_main_v366 (F := Ideal) x0 x1 x2
      = refShift x0 (val_main_v28 (F := Ideal) x0) x1 (val_main_v29 (F := Ideal) x1 x2)
          (val_main_v351 (F := Ideal) x0) (val_main_v352 (F := Ideal) x0) (val_main_v353 (F := Ideal) x1) := rfl
  rw [e, roll_v351, roll_v352, roll_v353, norm_eq, refShift_eq]
  rfl

/-! ### Shift 17: rows by 127, lanes by 127 -/

theorem roll_v371 (x0 : FVec Ideal T4 .f32) : val_main_v371 (F := Ideal) x0 = rot4 127#32 127#32 (x0) := by
  have h1 : val_main_call53_v2 (F := Ideal) x0 = dynamicRotate (2 : Fin 4) 127#32 none (x0) (by decide) :=
    roll_concat (s := S8x256x128x128) (s₁ := S8x256x127x128) (s₂ := S8x256x1x128) 2 (x0) ![0, 0, 1, 0] ![0, 0, 0, 0]
      slices_S8x256x128x128_S8x256x127x128_0_0_1_0 slices_S8x256x128x128_S8x256x1x128_0_0_0_0 concatenates_S8x256x127x128_S8x256x1x128_S8x256x128x128_d2 127#32 (by decide) (by decide) (by decide) (by decide)
  have h2 : val_main_v371 (F := Ideal) x0 = dynamicRotate (3 : Fin 4) 127#32 none (val_main_call53_v2 (F := Ideal) x0) (by decide) :=
    roll_concat (s := S8x256x128x128) (s₁ := S8x256x128x127) (s₂ := S8x256x128x1) 3 (val_main_call53_v2 (F := Ideal) x0) ![0, 0, 0, 1] ![0, 0, 0, 0]
      slices_S8x256x128x128_S8x256x128x127_0_0_0_1 slices_S8x256x128x128_S8x256x128x1_0_0_0_0 concatenates_S8x256x128x127_S8x256x128x1_S8x256x128x128_d3 127#32 (by decide) (by decide) (by decide) (by decide)
  rw [h2, h1]; rfl

theorem roll_v372 (x0 : FVec Ideal T4 .f32) : val_main_v372 (F := Ideal) x0 = rot3 127#32 127#32 (val_main_v28 (F := Ideal) x0) := by
  have h1 : val_main_call54_v2 (F := Ideal) x0 = dynamicRotate (1 : Fin 3) 127#32 none (val_main_v28 (F := Ideal) x0) (by decide) :=
    roll_concat (s := S8x128x128) (s₁ := S8x127x128) (s₂ := S8x1x128) 1 (val_main_v28 (F := Ideal) x0) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v372 (F := Ideal) x0 = dynamicRotate (2 : Fin 3) 127#32 none (val_main_call54_v2 (F := Ideal) x0) (by decide) :=
    roll_concat (s := S8x128x128) (s₁ := S8x128x127) (s₂ := S8x128x1) 2 (val_main_call54_v2 (F := Ideal) x0) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem roll_v373 (x1 : IVec T3 32) : val_main_v373 (F := Ideal) x1 = rot3 127#32 127#32 (x1) := by
  have h1 : val_main_call55_v2 (F := Ideal) x1 = dynamicRotate (1 : Fin 3) 127#32 none (x1) (by decide) :=
    roll_concat (s := S8x128x128) (s₁ := S8x127x128) (s₂ := S8x1x128) 1 (x1) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v373 (F := Ideal) x1 = dynamicRotate (2 : Fin 3) 127#32 none (val_main_call55_v2 (F := Ideal) x1) (by decide) :=
    roll_concat (s := S8x128x128) (s₁ := S8x128x127) (s₂ := S8x128x1) 2 (val_main_call55_v2 (F := Ideal) x1) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem term_17 (x0 : FVec Ideal T4 .f32) (x1 x2 : IVec T3 32) :
    val_main_v386 (F := Ideal) x0 x1 x2 = termOf x0 x1 (val_main_v29 (F := Ideal) x1 x2) 17 := by
  have e : val_main_v386 (F := Ideal) x0 x1 x2
      = refShift x0 (val_main_v28 (F := Ideal) x0) x1 (val_main_v29 (F := Ideal) x1 x2)
          (val_main_v371 (F := Ideal) x0) (val_main_v372 (F := Ideal) x0) (val_main_v373 (F := Ideal) x1) := rfl
  rw [e, roll_v371, roll_v372, roll_v373, norm_eq, refShift_eq]
  rfl

/-! ### Shift 18: rows by 127, lanes by 126 -/

theorem roll_v391 (x0 : FVec Ideal T4 .f32) : val_main_v391 (F := Ideal) x0 = rot4 127#32 126#32 (x0) := by
  have h1 : val_main_call56_v2 (F := Ideal) x0 = dynamicRotate (2 : Fin 4) 127#32 none (x0) (by decide) :=
    roll_concat (s := S8x256x128x128) (s₁ := S8x256x127x128) (s₂ := S8x256x1x128) 2 (x0) ![0, 0, 1, 0] ![0, 0, 0, 0]
      slices_S8x256x128x128_S8x256x127x128_0_0_1_0 slices_S8x256x128x128_S8x256x1x128_0_0_0_0 concatenates_S8x256x127x128_S8x256x1x128_S8x256x128x128_d2 127#32 (by decide) (by decide) (by decide) (by decide)
  have h2 : val_main_v391 (F := Ideal) x0 = dynamicRotate (3 : Fin 4) 126#32 none (val_main_call56_v2 (F := Ideal) x0) (by decide) :=
    roll_concat (s := S8x256x128x128) (s₁ := S8x256x128x126) (s₂ := S8x256x128x2) 3 (val_main_call56_v2 (F := Ideal) x0) ![0, 0, 0, 2] ![0, 0, 0, 0]
      slices_S8x256x128x128_S8x256x128x126_0_0_0_2 slices_S8x256x128x128_S8x256x128x2_0_0_0_0 concatenates_S8x256x128x126_S8x256x128x2_S8x256x128x128_d3 126#32 (by decide) (by decide) (by decide) (by decide)
  rw [h2, h1]; rfl

theorem roll_v392 (x0 : FVec Ideal T4 .f32) : val_main_v392 (F := Ideal) x0 = rot3 127#32 126#32 (val_main_v28 (F := Ideal) x0) := by
  have h1 : val_main_call57_v2 (F := Ideal) x0 = dynamicRotate (1 : Fin 3) 127#32 none (val_main_v28 (F := Ideal) x0) (by decide) :=
    roll_concat (s := S8x128x128) (s₁ := S8x127x128) (s₂ := S8x1x128) 1 (val_main_v28 (F := Ideal) x0) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v392 (F := Ideal) x0 = dynamicRotate (2 : Fin 3) 126#32 none (val_main_call57_v2 (F := Ideal) x0) (by decide) :=
    roll_concat (s := S8x128x128) (s₁ := S8x128x126) (s₂ := S8x128x2) 2 (val_main_call57_v2 (F := Ideal) x0) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem roll_v393 (x1 : IVec T3 32) : val_main_v393 (F := Ideal) x1 = rot3 127#32 126#32 (x1) := by
  have h1 : val_main_call58_v2 (F := Ideal) x1 = dynamicRotate (1 : Fin 3) 127#32 none (x1) (by decide) :=
    roll_concat (s := S8x128x128) (s₁ := S8x127x128) (s₂ := S8x1x128) 1 (x1) ![0, 1, 0] ![0, 0, 0]
      slices_S8x128x128_S8x127x128_0_1_0 slices_S8x128x128_S8x1x128_0_0_0 concatenates_S8x127x128_S8x1x128_S8x128x128_d1 127#32 (by decide) (by decide) (by decide) (by decide)
  have h2 : val_main_v393 (F := Ideal) x1 = dynamicRotate (2 : Fin 3) 126#32 none (val_main_call58_v2 (F := Ideal) x1) (by decide) :=
    roll_concat (s := S8x128x128) (s₁ := S8x128x126) (s₂ := S8x128x2) 2 (val_main_call58_v2 (F := Ideal) x1) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem term_18 (x0 : FVec Ideal T4 .f32) (x1 x2 : IVec T3 32) :
    val_main_v406 (F := Ideal) x0 x1 x2 = termOf x0 x1 (val_main_v29 (F := Ideal) x1 x2) 18 := by
  have e : val_main_v406 (F := Ideal) x0 x1 x2
      = refShift x0 (val_main_v28 (F := Ideal) x0) x1 (val_main_v29 (F := Ideal) x1 x2)
          (val_main_v391 (F := Ideal) x0) (val_main_v392 (F := Ideal) x0) (val_main_v393 (F := Ideal) x1) := rfl
  rw [e, roll_v391, roll_v392, roll_v393, norm_eq, refShift_eq]
  rfl

/-! ### Shift 19: rows by 126, lanes by 2 -/

theorem roll_v411 (x0 : FVec Ideal T4 .f32) : val_main_v411 (F := Ideal) x0 = rot4 126#32 2#32 (x0) := by
  have h1 : val_main_call59_v2 (F := Ideal) x0 = dynamicRotate (2 : Fin 4) 126#32 none (x0) (by decide) :=
    roll_concat (s := S8x256x128x128) (s₁ := S8x256x126x128) (s₂ := S8x256x2x128) 2 (x0) ![0, 0, 2, 0] ![0, 0, 0, 0]
      slices_S8x256x128x128_S8x256x126x128_0_0_2_0 slices_S8x256x128x128_S8x256x2x128_0_0_0_0 concatenates_S8x256x126x128_S8x256x2x128_S8x256x128x128_d2 126#32 (by decide) (by decide) (by decide) (by decide)
  have h2 : val_main_v411 (F := Ideal) x0 = dynamicRotate (3 : Fin 4) 2#32 none (val_main_call59_v2 (F := Ideal) x0) (by decide) :=
    roll_concat (s := S8x256x128x128) (s₁ := S8x256x128x2) (s₂ := S8x256x128x126) 3 (val_main_call59_v2 (F := Ideal) x0) ![0, 0, 0, 126] ![0, 0, 0, 0]
      slices_S8x256x128x128_S8x256x128x2_0_0_0_126 slices_S8x256x128x128_S8x256x128x126_0_0_0_0 concatenates_S8x256x128x2_S8x256x128x126_S8x256x128x128_d3 2#32 (by decide) (by decide) (by decide) (by decide)
  rw [h2, h1]; rfl

theorem roll_v412 (x0 : FVec Ideal T4 .f32) : val_main_v412 (F := Ideal) x0 = rot3 126#32 2#32 (val_main_v28 (F := Ideal) x0) := by
  have h1 : val_main_call60_v2 (F := Ideal) x0 = dynamicRotate (1 : Fin 3) 126#32 none (val_main_v28 (F := Ideal) x0) (by decide) :=
    roll_concat (s := S8x128x128) (s₁ := S8x126x128) (s₂ := S8x2x128) 1 (val_main_v28 (F := Ideal) x0) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v412 (F := Ideal) x0 = dynamicRotate (2 : Fin 3) 2#32 none (val_main_call60_v2 (F := Ideal) x0) (by decide) :=
    roll_concat (s := S8x128x128) (s₁ := S8x128x2) (s₂ := S8x128x126) 2 (val_main_call60_v2 (F := Ideal) x0) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem roll_v413 (x1 : IVec T3 32) : val_main_v413 (F := Ideal) x1 = rot3 126#32 2#32 (x1) := by
  have h1 : val_main_call61_v2 (F := Ideal) x1 = dynamicRotate (1 : Fin 3) 126#32 none (x1) (by decide) :=
    roll_concat (s := S8x128x128) (s₁ := S8x126x128) (s₂ := S8x2x128) 1 (x1) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v413 (F := Ideal) x1 = dynamicRotate (2 : Fin 3) 2#32 none (val_main_call61_v2 (F := Ideal) x1) (by decide) :=
    roll_concat (s := S8x128x128) (s₁ := S8x128x2) (s₂ := S8x128x126) 2 (val_main_call61_v2 (F := Ideal) x1) ![0, 0, 126] ![0, 0, 0]
      slices_S8x128x128_S8x128x2_0_0_126 slices_S8x128x128_S8x128x126_0_0_0 concatenates_S8x128x2_S8x128x126_S8x128x128_d2 2#32 (by decide) (by decide) (by decide) (by decide)
  rw [h2, h1]; rfl

theorem term_19 (x0 : FVec Ideal T4 .f32) (x1 x2 : IVec T3 32) :
    val_main_v426 (F := Ideal) x0 x1 x2 = termOf x0 x1 (val_main_v29 (F := Ideal) x1 x2) 19 := by
  have e : val_main_v426 (F := Ideal) x0 x1 x2
      = refShift x0 (val_main_v28 (F := Ideal) x0) x1 (val_main_v29 (F := Ideal) x1 x2)
          (val_main_v411 (F := Ideal) x0) (val_main_v412 (F := Ideal) x0) (val_main_v413 (F := Ideal) x1) := rfl
  rw [e, roll_v411, roll_v412, roll_v413, norm_eq, refShift_eq]
  rfl

end Cert.Bridge.Ref

end
-- ==== Proof.RefShiftsF.lean ====
/-
  The reference's shifts 20 to 23 read back into the specification.

  Each shifted array is two slices laid end to end along the rows and then along the lanes, so it is the operand
  rotated along both; with that, the shift's per-image term is the specification's `termOf`.
-/
import proofs.«133983_j1632087573343_1_alg».proof.Proof.RefNorm
import proofs.«133983_j1632087573343_1_alg».proof.Proof.Algebra

noncomputable section

namespace Cert.Bridge.Ref

open Idealize.ShloMosaic Idealize.ShloMosaic.ValueIdx Cert.Bridge
open Cert.ReferenceIdeal Cert.ReferenceIdeal.Gen Cert.ReferenceIdeal.Read

/-! ### Shift 20: rows by 126, lanes by 1 -/

theorem roll_v431 (x0 : FVec Ideal T4 .f32) : val_main_v431 (F := Ideal) x0 = rot4 126#32 1#32 (x0) := by
  have h1 : val_main_call62_v2 (F := Ideal) x0 = dynamicRotate (2 : Fin 4) 126#32 none (x0) (by decide) :=
    roll_concat (s := S8x256x128x128) (s₁ := S8x256x126x128) (s₂ := S8x256x2x128) 2 (x0) ![0, 0, 2, 0] ![0, 0, 0, 0]
      slices_S8x256x128x128_S8x256x126x128_0_0_2_0 slices_S8x256x128x128_S8x256x2x128_0_0_0_0 concatenates_S8x256x126x128_S8x256x2x128_S8x256x128x128_d2 126#32 (by decide) (by decide) (by decide) (by decide)
  have h2 : val_main_v431 (F := Ideal) x0 = dynamicRotate (3 : Fin 4) 1#32 none (val_main_call62_v2 (F := Ideal) x0) (by decide) :=
    roll_concat (s := S8x256x128x128) (s₁ := S8x256x128x1) (s₂ := S8x256x128x127) 3 (val_main_call62_v2 (F := Ideal) x0) ![0, 0, 0, 127] ![0, 0, 0, 0]
      slices_S8x256x128x128_S8x256x128x1_0_0_0_127 slices_S8x256x128x128_S8x256x128x127_0_0_0_0 concatenates_S8x256x128x1_S8x256x128x127_S8x256x128x128_d3 1#32 (by decide) (by decide) (by decide) (by decide)
  rw [h2, h1]; rfl

theorem roll_v432 (x0 : FVec Ideal T4 .f32) : val_main_v432 (F := Ideal) x0 = rot3 126#32 1#32 (val_main_v28 (F := Ideal) x0) := by
  have h1 : val_main_call63_v2 (F := Ideal) x0 = dynamicRotate (1 : Fin 3) 126#32 none (val_main_v28 (F := Ideal) x0) (by decide) :=
    roll_concat (s := S8x128x128) (s₁ := S8x126x128) (s₂ := S8x2x128) 1 (val_main_v28 (F := Ideal) x0) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v432 (F := Ideal) x0 = dynamicRotate (2 : Fin 3) 1#32 none (val_main_call63_v2 (F := Ideal) x0) (by decide) :=
    roll_concat (s := S8x128x128) (s₁ := S8x128x1) (s₂ := S8x128x127) 2 (val_main_call63_v2 (F := Ideal) x0) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem roll_v433 (x1 : IVec T3 32) : val_main_v433 (F := Ideal) x1 = rot3 126#32 1#32 (x1) := by
  have h1 : val_main_call64_v2 (F := Ideal) x1 = dynamicRotate (1 : Fin 3) 126#32 none (x1) (by decide) :=
    roll_concat (s := S8x128x128) (s₁ := S8x126x128) (s₂ := S8x2x128) 1 (x1) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v433 (F := Ideal) x1 = dynamicRotate (2 : Fin 3) 1#32 none (val_main_call64_v2 (F := Ideal) x1) (by decide) :=
    roll_concat (s := S8x128x128) (s₁ := S8x128x1) (s₂ := S8x128x127) 2 (val_main_call64_v2 (F := Ideal) x1) ![0, 0, 127] ![0, 0, 0]
      slices_S8x128x128_S8x128x1_0_0_127 slices_S8x128x128_S8x128x127_0_0_0 concatenates_S8x128x1_S8x128x127_S8x128x128_d2 1#32 (by decide) (by decide) (by decide) (by decide)
  rw [h2, h1]; rfl

theorem term_20 (x0 : FVec Ideal T4 .f32) (x1 x2 : IVec T3 32) :
    val_main_v446 (F := Ideal) x0 x1 x2 = termOf x0 x1 (val_main_v29 (F := Ideal) x1 x2) 20 := by
  have e : val_main_v446 (F := Ideal) x0 x1 x2
      = refShift x0 (val_main_v28 (F := Ideal) x0) x1 (val_main_v29 (F := Ideal) x1 x2)
          (val_main_v431 (F := Ideal) x0) (val_main_v432 (F := Ideal) x0) (val_main_v433 (F := Ideal) x1) := rfl
  rw [e, roll_v431, roll_v432, roll_v433, norm_eq, refShift_eq]
  rfl

/-! ### Shift 21: rows by 126, lanes by 0 -/

theorem roll_v451 (x0 : FVec Ideal T4 .f32) : val_main_v451 (F := Ideal) x0 = rot4 126#32 0#32 (x0) := by
  have h1 : val_main_call65_v2 (F := Ideal) x0 = dynamicRotate (2 : Fin 4) 126#32 none (x0) (by decide) :=
    roll_concat (s := S8x256x128x128) (s₁ := S8x256x126x128) (s₂ := S8x256x2x128) 2 (x0) ![0, 0, 2, 0] ![0, 0, 0, 0]
      slices_S8x256x128x128_S8x256x126x128_0_0_2_0 slices_S8x256x128x128_S8x256x2x128_0_0_0_0 concatenates_S8x256x126x128_S8x256x2x128_S8x256x128x128_d2 126#32 (by decide) (by decide) (by decide) (by decide)
  have h2 : val_main_v451 (F := Ideal) x0 = dynamicRotate (3 : Fin 4) 0#32 none (val_main_call65_v2 (F := Ideal) x0) (by decide) :=
    roll_concat (s := S8x256x128x128) (s₁ := S8x256x128x128) (s₂ := S8x256x128x0) 3 (val_main_call65_v2 (F := Ideal) x0) ![0, 0, 0, 0] ![0, 0, 0, 0]
      slices_S8x256x128x128_S8x256x128x128_0_0_0_0 slices_S8x256x128x128_S8x256x128x0_0_0_0_0 concatenates_S8x256x128x128_S8x256x128x0_S8x256x128x128_d3 0#32 (by decide) (by decide) (by decide) (by decide)
  rw [h2, h1]; rfl

theorem roll_v452 (x0 : FVec Ideal T4 .f32) : val_main_v452 (F := Ideal) x0 = rot3 126#32 0#32 (val_main_v28 (F := Ideal) x0) := by
  have h1 : val_main_call66_v2 (F := Ideal) x0 = dynamicRotate (1 : Fin 3) 126#32 none (val_main_v28 (F := Ideal) x0) (by decide) :=
    roll_concat (s := S8x128x128) (s₁ := S8x126x128) (s₂ := S8x2x128) 1 (val_main_v28 (F := Ideal) x0) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v452 (F := Ideal) x0 = dynamicRotate (2 : Fin 3) 0#32 none (val_main_call66_v2 (F := Ideal) x0) (by decide) :=
    roll_concat (s := S8x128x128) (s₁ := S8x128x128) (s₂ := S8x128x0) 2 (val_main_call66_v2 (F := Ideal) x0) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem roll_v453 (x1 : IVec T3 32) : val_main_v453 (F := Ideal) x1 = rot3 126#32 0#32 (x1) := by
  have h1 : val_main_call67_v2 (F := Ideal) x1 = dynamicRotate (1 : Fin 3) 126#32 none (x1) (by decide) :=
    roll_concat (s := S8x128x128) (s₁ := S8x126x128) (s₂ := S8x2x128) 1 (x1) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v453 (F := Ideal) x1 = dynamicRotate (2 : Fin 3) 0#32 none (val_main_call67_v2 (F := Ideal) x1) (by decide) :=
    roll_concat (s := S8x128x128) (s₁ := S8x128x128) (s₂ := S8x128x0) 2 (val_main_call67_v2 (F := Ideal) x1) ![0, 0, 0] ![0, 0, 0]
      slices_S8x128x128_S8x128x128_0_0_0 slices_S8x128x128_S8x128x0_0_0_0 concatenates_S8x128x128_S8x128x0_S8x128x128_d2 0#32 (by decide) (by decide) (by decide) (by decide)
  rw [h2, h1]; rfl

theorem term_21 (x0 : FVec Ideal T4 .f32) (x1 x2 : IVec T3 32) :
    val_main_v466 (F := Ideal) x0 x1 x2 = termOf x0 x1 (val_main_v29 (F := Ideal) x1 x2) 21 := by
  have e : val_main_v466 (F := Ideal) x0 x1 x2
      = refShift x0 (val_main_v28 (F := Ideal) x0) x1 (val_main_v29 (F := Ideal) x1 x2)
          (val_main_v451 (F := Ideal) x0) (val_main_v452 (F := Ideal) x0) (val_main_v453 (F := Ideal) x1) := rfl
  rw [e, roll_v451, roll_v452, roll_v453, norm_eq, refShift_eq]
  rfl

/-! ### Shift 22: rows by 126, lanes by 127 -/

theorem roll_v471 (x0 : FVec Ideal T4 .f32) : val_main_v471 (F := Ideal) x0 = rot4 126#32 127#32 (x0) := by
  have h1 : val_main_call68_v2 (F := Ideal) x0 = dynamicRotate (2 : Fin 4) 126#32 none (x0) (by decide) :=
    roll_concat (s := S8x256x128x128) (s₁ := S8x256x126x128) (s₂ := S8x256x2x128) 2 (x0) ![0, 0, 2, 0] ![0, 0, 0, 0]
      slices_S8x256x128x128_S8x256x126x128_0_0_2_0 slices_S8x256x128x128_S8x256x2x128_0_0_0_0 concatenates_S8x256x126x128_S8x256x2x128_S8x256x128x128_d2 126#32 (by decide) (by decide) (by decide) (by decide)
  have h2 : val_main_v471 (F := Ideal) x0 = dynamicRotate (3 : Fin 4) 127#32 none (val_main_call68_v2 (F := Ideal) x0) (by decide) :=
    roll_concat (s := S8x256x128x128) (s₁ := S8x256x128x127) (s₂ := S8x256x128x1) 3 (val_main_call68_v2 (F := Ideal) x0) ![0, 0, 0, 1] ![0, 0, 0, 0]
      slices_S8x256x128x128_S8x256x128x127_0_0_0_1 slices_S8x256x128x128_S8x256x128x1_0_0_0_0 concatenates_S8x256x128x127_S8x256x128x1_S8x256x128x128_d3 127#32 (by decide) (by decide) (by decide) (by decide)
  rw [h2, h1]; rfl

theorem roll_v472 (x0 : FVec Ideal T4 .f32) : val_main_v472 (F := Ideal) x0 = rot3 126#32 127#32 (val_main_v28 (F := Ideal) x0) := by
  have h1 : val_main_call69_v2 (F := Ideal) x0 = dynamicRotate (1 : Fin 3) 126#32 none (val_main_v28 (F := Ideal) x0) (by decide) :=
    roll_concat (s := S8x128x128) (s₁ := S8x126x128) (s₂ := S8x2x128) 1 (val_main_v28 (F := Ideal) x0) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v472 (F := Ideal) x0 = dynamicRotate (2 : Fin 3) 127#32 none (val_main_call69_v2 (F := Ideal) x0) (by decide) :=
    roll_concat (s := S8x128x128) (s₁ := S8x128x127) (s₂ := S8x128x1) 2 (val_main_call69_v2 (F := Ideal) x0) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem roll_v473 (x1 : IVec T3 32) : val_main_v473 (F := Ideal) x1 = rot3 126#32 127#32 (x1) := by
  have h1 : val_main_call70_v2 (F := Ideal) x1 = dynamicRotate (1 : Fin 3) 126#32 none (x1) (by decide) :=
    roll_concat (s := S8x128x128) (s₁ := S8x126x128) (s₂ := S8x2x128) 1 (x1) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v473 (F := Ideal) x1 = dynamicRotate (2 : Fin 3) 127#32 none (val_main_call70_v2 (F := Ideal) x1) (by decide) :=
    roll_concat (s := S8x128x128) (s₁ := S8x128x127) (s₂ := S8x128x1) 2 (val_main_call70_v2 (F := Ideal) x1) ![0, 0, 1] ![0, 0, 0]
      slices_S8x128x128_S8x128x127_0_0_1 slices_S8x128x128_S8x128x1_0_0_0 concatenates_S8x128x127_S8x128x1_S8x128x128_d2 127#32 (by decide) (by decide) (by decide) (by decide)
  rw [h2, h1]; rfl

theorem term_22 (x0 : FVec Ideal T4 .f32) (x1 x2 : IVec T3 32) :
    val_main_v486 (F := Ideal) x0 x1 x2 = termOf x0 x1 (val_main_v29 (F := Ideal) x1 x2) 22 := by
  have e : val_main_v486 (F := Ideal) x0 x1 x2
      = refShift x0 (val_main_v28 (F := Ideal) x0) x1 (val_main_v29 (F := Ideal) x1 x2)
          (val_main_v471 (F := Ideal) x0) (val_main_v472 (F := Ideal) x0) (val_main_v473 (F := Ideal) x1) := rfl
  rw [e, roll_v471, roll_v472, roll_v473, norm_eq, refShift_eq]
  rfl

/-! ### Shift 23: rows by 126, lanes by 126 -/

theorem roll_v491 (x0 : FVec Ideal T4 .f32) : val_main_v491 (F := Ideal) x0 = rot4 126#32 126#32 (x0) := by
  have h1 : val_main_call71_v2 (F := Ideal) x0 = dynamicRotate (2 : Fin 4) 126#32 none (x0) (by decide) :=
    roll_concat (s := S8x256x128x128) (s₁ := S8x256x126x128) (s₂ := S8x256x2x128) 2 (x0) ![0, 0, 2, 0] ![0, 0, 0, 0]
      slices_S8x256x128x128_S8x256x126x128_0_0_2_0 slices_S8x256x128x128_S8x256x2x128_0_0_0_0 concatenates_S8x256x126x128_S8x256x2x128_S8x256x128x128_d2 126#32 (by decide) (by decide) (by decide) (by decide)
  have h2 : val_main_v491 (F := Ideal) x0 = dynamicRotate (3 : Fin 4) 126#32 none (val_main_call71_v2 (F := Ideal) x0) (by decide) :=
    roll_concat (s := S8x256x128x128) (s₁ := S8x256x128x126) (s₂ := S8x256x128x2) 3 (val_main_call71_v2 (F := Ideal) x0) ![0, 0, 0, 2] ![0, 0, 0, 0]
      slices_S8x256x128x128_S8x256x128x126_0_0_0_2 slices_S8x256x128x128_S8x256x128x2_0_0_0_0 concatenates_S8x256x128x126_S8x256x128x2_S8x256x128x128_d3 126#32 (by decide) (by decide) (by decide) (by decide)
  rw [h2, h1]; rfl

theorem roll_v492 (x0 : FVec Ideal T4 .f32) : val_main_v492 (F := Ideal) x0 = rot3 126#32 126#32 (val_main_v28 (F := Ideal) x0) := by
  have h1 : val_main_call72_v2 (F := Ideal) x0 = dynamicRotate (1 : Fin 3) 126#32 none (val_main_v28 (F := Ideal) x0) (by decide) :=
    roll_concat (s := S8x128x128) (s₁ := S8x126x128) (s₂ := S8x2x128) 1 (val_main_v28 (F := Ideal) x0) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v492 (F := Ideal) x0 = dynamicRotate (2 : Fin 3) 126#32 none (val_main_call72_v2 (F := Ideal) x0) (by decide) :=
    roll_concat (s := S8x128x128) (s₁ := S8x128x126) (s₂ := S8x128x2) 2 (val_main_call72_v2 (F := Ideal) x0) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem roll_v493 (x1 : IVec T3 32) : val_main_v493 (F := Ideal) x1 = rot3 126#32 126#32 (x1) := by
  have h1 : val_main_call73_v2 (F := Ideal) x1 = dynamicRotate (1 : Fin 3) 126#32 none (x1) (by decide) :=
    roll_concat (s := S8x128x128) (s₁ := S8x126x128) (s₂ := S8x2x128) 1 (x1) ![0, 2, 0] ![0, 0, 0]
      slices_S8x128x128_S8x126x128_0_2_0 slices_S8x128x128_S8x2x128_0_0_0 concatenates_S8x126x128_S8x2x128_S8x128x128_d1 126#32 (by decide) (by decide) (by decide) (by decide)
  have h2 : val_main_v493 (F := Ideal) x1 = dynamicRotate (2 : Fin 3) 126#32 none (val_main_call73_v2 (F := Ideal) x1) (by decide) :=
    roll_concat (s := S8x128x128) (s₁ := S8x128x126) (s₂ := S8x128x2) 2 (val_main_call73_v2 (F := Ideal) x1) ![0, 0, 2] ![0, 0, 0]
      slices_S8x128x128_S8x128x126_0_0_2 slices_S8x128x128_S8x128x2_0_0_0 concatenates_S8x128x126_S8x128x2_S8x128x128_d2 126#32 (by decide) (by decide) (by decide) (by decide)
  rw [h2, h1]; rfl

theorem term_23 (x0 : FVec Ideal T4 .f32) (x1 x2 : IVec T3 32) :
    val_main_v506 (F := Ideal) x0 x1 x2 = termOf x0 x1 (val_main_v29 (F := Ideal) x1 x2) 23 := by
  have e : val_main_v506 (F := Ideal) x0 x1 x2
      = refShift x0 (val_main_v28 (F := Ideal) x0) x1 (val_main_v29 (F := Ideal) x1 x2)
          (val_main_v491 (F := Ideal) x0) (val_main_v492 (F := Ideal) x0) (val_main_v493 (F := Ideal) x1) := rfl
  rw [e, roll_v491, roll_v492, roll_v493, norm_eq, refShift_eq]
  rfl

end Cert.Bridge.Ref

end
-- ==== Proof.RefValue.lean ====
/-
  The reference's value read back into the specification.

  The running total after shift `k` is `runSumDiv` of the shifts' terms, each divided by the floored pixel count
  (every shift divides by the same array); the reference's scalar is the tail of the total after the 24th.
-/
import proofs.«133983_j1632087573343_1_alg».proof.Proof.RefShiftsA
import proofs.«133983_j1632087573343_1_alg».proof.Proof.RefShiftsB
import proofs.«133983_j1632087573343_1_alg».proof.Proof.RefShiftsC
import proofs.«133983_j1632087573343_1_alg».proof.Proof.RefShiftsD
import proofs.«133983_j1632087573343_1_alg».proof.Proof.RefShiftsE
import proofs.«133983_j1632087573343_1_alg».proof.Proof.RefShiftsF

noncomputable section

namespace Cert.Bridge.Ref

open Idealize.ShloMosaic Idealize.ShloMosaic.ValueIdx Cert.Bridge
open Cert.ReferenceIdeal Cert.ReferenceIdeal.Gen Cert.ReferenceIdeal.Read

/-! ### The running total -/

/-- One step of the reference's running total: the term divided by the count, added on. -/
def accStep (acc term M : FVec Ideal T1 .f32) : FVec Ideal T1 .f32 := addf acc (Host.divf term M)

theorem runSumDiv_succ (z : FVec Ideal T1 .f32) (T : ℕ → FVec Ideal T1 .f32) (M : FVec Ideal T1 .f32) (n : ℕ) :
    runSumDiv z T M (n + 1) = accStep (runSumDiv z T M n) (T n) M := rfl

theorem acc_0 (x0 : FVec Ideal T4 .f32) (x1 x2 : IVec T3 32) :
    val_main_v50 (F := Ideal) x0 x1 x2
      = runSumDiv (val_main_v30 (F := Ideal)) (termOf x0 x1 (val_main_v29 (F := Ideal) x1 x2)) (val_main_v48 (F := Ideal) x1 x2) 1 := by
  have e : val_main_v50 (F := Ideal) x0 x1 x2
      = accStep (val_main_v30 (F := Ideal)) (val_main_v46 (F := Ideal) x0 x1 x2) (val_main_v48 (F := Ideal) x1 x2) := rfl
  rw [e, term_0]
  exact (runSumDiv_succ _ _ _ 0).symm

theorem acc_1 (x0 : FVec Ideal T4 .f32) (x1 x2 : IVec T3 32) :
    val_main_v70 (F := Ideal) x0 x1 x2
      = runSumDiv (val_main_v30 (F := Ideal)) (termOf x0 x1 (val_main_v29 (F := Ideal) x1 x2)) (val_main_v48 (F := Ideal) x1 x2) 2 := by
  have e : val_main_v70 (F := Ideal) x0 x1 x2
      = accStep (val_main_v50 (F := Ideal) x0 x1 x2) (val_main_v66 (F := Ideal) x0 x1 x2) (val_main_v48 (F := Ideal) x1 x2) := rfl
  rw [e, acc_0, term_1]
  exact (runSumDiv_succ _ _ _ 1).symm

theorem acc_2 (x0 : FVec Ideal T4 .f32) (x1 x2 : IVec T3 32) :
    val_main_v90 (F := Ideal) x0 x1 x2
      = runSumDiv (val_main_v30 (F := Ideal)) (termOf x0 x1 (val_main_v29 (F := Ideal) x1 x2)) (val_main_v48 (F := Ideal) x1 x2) 3 := by
  have e : val_main_v90 (F := Ideal) x0 x1 x2
      = accStep (val_main_v70 (F := Ideal) x0 x1 x2) (val_main_v86 (F := Ideal) x0 x1 x2) (val_main_v48 (F := Ideal) x1 x2) := rfl
  rw [e, acc_1, term_2]
  exact (runSumDiv_succ _ _ _ 2).symm

theorem acc_3 (x0 : FVec Ideal T4 .f32) (x1 x2 : IVec T3 32) :
    val_main_v110 (F := Ideal) x0 x1 x2
      = runSumDiv (val_main_v30 (F := Ideal)) (termOf x0 x1 (val_main_v29 (F := Ideal) x1 x2)) (val_main_v48 (F := Ideal) x1 x2) 4 := by
  have e : val_main_v110 (F := Ideal) x0 x1 x2
      = accStep (val_main_v90 (F := Ideal) x0 x1 x2) (val_main_v106 (F := Ideal) x0 x1 x2) (val_main_v48 (F := Ideal) x1 x2) := rfl
  rw [e, acc_2, term_3]
  exact (runSumDiv_succ _ _ _ 3).symm

theorem acc_4 (x0 : FVec Ideal T4 .f32) (x1 x2 : IVec T3 32) :
    val_main_v130 (F := Ideal) x0 x1 x2
      = runSumDiv (val_main_v30 (F := Ideal)) (termOf x0 x1 (val_main_v29 (F := Ideal) x1 x2)) (val_main_v48 (F := Ideal) x1 x2) 5 := by
  have e : val_main_v130 (F := Ideal) x0 x1 x2
      = accStep (val_main_v110 (F := Ideal) x0 x1 x2) (val_main_v126 (F := Ideal) x0 x1 x2) (val_main_v48 (F := Ideal) x1 x2) := rfl
  rw [e, acc_3, term_4]
  exact (runSumDiv_succ _ _ _ 4).symm

theorem acc_5 (x0 : FVec Ideal T4 .f32) (x1 x2 : IVec T3 32) :
    val_main_v150 (F := Ideal) x0 x1 x2
      = runSumDiv (val_main_v30 (F := Ideal)) (termOf x0 x1 (val_main_v29 (F := Ideal) x1 x2)) (val_main_v48 (F := Ideal) x1 x2) 6 := by
  have e : val_main_v150 (F := Ideal) x0 x1 x2
      = accStep (val_main_v130 (F := Ideal) x0 x1 x2) (val_main_v146 (F := Ideal) x0 x1 x2) (val_main_v48 (F := Ideal) x1 x2) := rfl
  rw [e, acc_4, term_5]
  exact (runSumDiv_succ _ _ _ 5).symm

theorem acc_6 (x0 : FVec Ideal T4 .f32) (x1 x2 : IVec T3 32) :
    val_main_v170 (F := Ideal) x0 x1 x2
      = runSumDiv (val_main_v30 (F := Ideal)) (termOf x0 x1 (val_main_v29 (F := Ideal) x1 x2)) (val_main_v48 (F := Ideal) x1 x2) 7 := by
  have e : val_main_v170 (F := Ideal) x0 x1 x2
      = accStep (val_main_v150 (F := Ideal) x0 x1 x2) (val_main_v166 (F := Ideal) x0 x1 x2) (val_main_v48 (F := Ideal) x1 x2) := rfl
  rw [e, acc_5, term_6]
  exact (runSumDiv_succ _ _ _ 6).symm

theorem acc_7 (x0 : FVec Ideal T4 .f32) (x1 x2 : IVec T3 32) :
    val_main_v190 (F := Ideal) x0 x1 x2
      = runSumDiv (val_main_v30 (F := Ideal)) (termOf x0 x1 (val_main_v29 (F := Ideal) x1 x2)) (val_main_v48 (F := Ideal) x1 x2) 8 := by
  have e : val_main_v190 (F := Ideal) x0 x1 x2
      = accStep (val_main_v170 (F := Ideal) x0 x1 x2) (val_main_v186 (F := Ideal) x0 x1 x2) (val_main_v48 (F := Ideal) x1 x2) := rfl
  rw [e, acc_6, term_7]
  exact (runSumDiv_succ _ _ _ 7).symm

theorem acc_8 (x0 : FVec Ideal T4 .f32) (x1 x2 : IVec T3 32) :
    val_main_v210 (F := Ideal) x0 x1 x2
      = runSumDiv (val_main_v30 (F := Ideal)) (termOf x0 x1 (val_main_v29 (F := Ideal) x1 x2)) (val_main_v48 (F := Ideal) x1 x2) 9 := by
  have e : val_main_v210 (F := Ideal) x0 x1 x2
      = accStep (val_main_v190 (F := Ideal) x0 x1 x2) (val_main_v206 (F := Ideal) x0 x1 x2) (val_main_v48 (F := Ideal) x1 x2) := rfl
  rw [e, acc_7, term_8]
  exact (runSumDiv_succ _ _ _ 8).symm

theorem acc_9 (x0 : FVec Ideal T4 .f32) (x1 x2 : IVec T3 32) :
    val_main_v230 (F := Ideal) x0 x1 x2
      = runSumDiv (val_main_v30 (F := Ideal)) (termOf x0 x1 (val_main_v29 (F := Ideal) x1 x2)) (val_main_v48 (F := Ideal) x1 x2) 10 := by
  have e : val_main_v230 (F := Ideal) x0 x1 x2
      = accStep (val_main_v210 (F := Ideal) x0 x1 x2) (val_main_v226 (F := Ideal) x0 x1 x2) (val_main_v48 (F := Ideal) x1 x2) := rfl
  rw [e, acc_8, term_9]
  exact (runSumDiv_succ _ _ _ 9).symm

theorem acc_10 (x0 : FVec Ideal T4 .f32) (x1 x2 : IVec T3 32) :
    val_main_v250 (F := Ideal) x0 x1 x2
      = runSumDiv (val_main_v30 (F := Ideal)) (termOf x0 x1 (val_main_v29 (F := Ideal) x1 x2)) (val_main_v48 (F := Ideal) x1 x2) 11 := by
  have e : val_main_v250 (F := Ideal) x0 x1 x2
      = accStep (val_main_v230 (F := Ideal) x0 x1 x2) (val_main_v246 (F := Ideal) x0 x1 x2) (val_main_v48 (F := Ideal) x1 x2) := rfl
  rw [e, acc_9, term_10]
  exact (runSumDiv_succ _ _ _ 10).symm

theorem acc_11 (x0 : FVec Ideal T4 .f32) (x1 x2 : IVec T3 32) :
    val_main_v270 (F := Ideal) x0 x1 x2
      = runSumDiv (val_main_v30 (F := Ideal)) (termOf x0 x1 (val_main_v29 (F := Ideal) x1 x2)) (val_main_v48 (F := Ideal) x1 x2) 12 := by
  have e : val_main_v270 (F := Ideal) x0 x1 x2
      = accStep (val_main_v250 (F := Ideal) x0 x1 x2) (val_main_v266 (F := Ideal) x0 x1 x2) (val_main_v48 (F := Ideal) x1 x2) := rfl
  rw [e, acc_10, term_11]
  exact (runSumDiv_succ _ _ _ 11).symm

theorem acc_12 (x0 : FVec Ideal T4 .f32) (x1 x2 : IVec T3 32) :
    val_main_v290 (F := Ideal) x0 x1 x2
      = runSumDiv (val_main_v30 (F := Ideal)) (termOf x0 x1 (val_main_v29 (F := Ideal) x1 x2)) (val_main_v48 (F := Ideal) x1 x2) 13 := by
  have e : val_main_v290 (F := Ideal) x0 x1 x2
      = accStep (val_main_v270 (F := Ideal) x0 x1 x2) (val_main_v286 (F := Ideal) x0 x1 x2) (val_main_v48 (F := Ideal) x1 x2) := rfl
  rw [e, acc_11, term_12]
  exact (runSumDiv_succ _ _ _ 12).symm

theorem acc_13 (x0 : FVec Ideal T4 .f32) (x1 x2 : IVec T3 32) :
    val_main_v310 (F := Ideal) x0 x1 x2
      = runSumDiv (val_main_v30 (F := Ideal)) (termOf x0 x1 (val_main_v29 (F := Ideal) x1 x2)) (val_main_v48 (F := Ideal) x1 x2) 14 := by
  have e : val_main_v310 (F := Ideal) x0 x1 x2
      = accStep (val_main_v290 (F := Ideal) x0 x1 x2) (val_main_v306 (F := Ideal) x0 x1 x2) (val_main_v48 (F := Ideal) x1 x2) := rfl
  rw [e, acc_12, term_13]
  exact (runSumDiv_succ _ _ _ 13).symm

theorem acc_14 (x0 : FVec Ideal T4 .f32) (x1 x2 : IVec T3 32) :
    val_main_v330 (F := Ideal) x0 x1 x2
      = runSumDiv (val_main_v30 (F := Ideal)) (termOf x0 x1 (val_main_v29 (F := Ideal) x1 x2)) (val_main_v48 (F := Ideal) x1 x2) 15 := by
  have e : val_main_v330 (F := Ideal) x0 x1 x2
      = accStep (val_main_v310 (F := Ideal) x0 x1 x2) (val_main_v326 (F := Ideal) x0 x1 x2) (val_main_v48 (F := Ideal) x1 x2) := rfl
  rw [e, acc_13, term_14]
  exact (runSumDiv_succ _ _ _ 14).symm

theorem acc_15 (x0 : FVec Ideal T4 .f32) (x1 x2 : IVec T3 32) :
    val_main_v350 (F := Ideal) x0 x1 x2
      = runSumDiv (val_main_v30 (F := Ideal)) (termOf x0 x1 (val_main_v29 (F := Ideal) x1 x2)) (val_main_v48 (F := Ideal) x1 x2) 16 := by
  have e : val_main_v350 (F := Ideal) x0 x1 x2
      = accStep (val_main_v330 (F := Ideal) x0 x1 x2) (val_main_v346 (F := Ideal) x0 x1 x2) (val_main_v48 (F := Ideal) x1 x2) := rfl
  rw [e, acc_14, term_15]
  exact (runSumDiv_succ _ _ _ 15).symm

theorem acc_16 (x0 : FVec Ideal T4 .f32) (x1 x2 : IVec T3 32) :
    val_main_v370 (F := Ideal) x0 x1 x2
      = runSumDiv (val_main_v30 (F := Ideal)) (termOf x0 x1 (val_main_v29 (F := Ideal) x1 x2)) (val_main_v48 (F := Ideal) x1 x2) 17 := by
  have e : val_main_v370 (F := Ideal) x0 x1 x2
      = accStep (val_main_v350 (F := Ideal) x0 x1 x2) (val_main_v366 (F := Ideal) x0 x1 x2) (val_main_v48 (F := Ideal) x1 x2) := rfl
  rw [e, acc_15, term_16]
  exact (runSumDiv_succ _ _ _ 16).symm

theorem acc_17 (x0 : FVec Ideal T4 .f32) (x1 x2 : IVec T3 32) :
    val_main_v390 (F := Ideal) x0 x1 x2
      = runSumDiv (val_main_v30 (F := Ideal)) (termOf x0 x1 (val_main_v29 (F := Ideal) x1 x2)) (val_main_v48 (F := Ideal) x1 x2) 18 := by
  have e : val_main_v390 (F := Ideal) x0 x1 x2
      = accStep (val_main_v370 (F := Ideal) x0 x1 x2) (val_main_v386 (F := Ideal) x0 x1 x2) (val_main_v48 (F := Ideal) x1 x2) := rfl
  rw [e, acc_16, term_17]
  exact (runSumDiv_succ _ _ _ 17).symm

theorem acc_18 (x0 : FVec Ideal T4 .f32) (x1 x2 : IVec T3 32) :
    val_main_v410 (F := Ideal) x0 x1 x2
      = runSumDiv (val_main_v30 (F := Ideal)) (termOf x0 x1 (val_main_v29 (F := Ideal) x1 x2)) (val_main_v48 (F := Ideal) x1 x2) 19 := by
  have e : val_main_v410 (F := Ideal) x0 x1 x2
      = accStep (val_main_v390 (F := Ideal) x0 x1 x2) (val_main_v406 (F := Ideal) x0 x1 x2) (val_main_v48 (F := Ideal) x1 x2) := rfl
  rw [e, acc_17, term_18]
  exact (runSumDiv_succ _ _ _ 18).symm

theorem acc_19 (x0 : FVec Ideal T4 .f32) (x1 x2 : IVec T3 32) :
    val_main_v430 (F := Ideal) x0 x1 x2
      = runSumDiv (val_main_v30 (F := Ideal)) (termOf x0 x1 (val_main_v29 (F := Ideal) x1 x2)) (val_main_v48 (F := Ideal) x1 x2) 20 := by
  have e : val_main_v430 (F := Ideal) x0 x1 x2
      = accStep (val_main_v410 (F := Ideal) x0 x1 x2) (val_main_v426 (F := Ideal) x0 x1 x2) (val_main_v48 (F := Ideal) x1 x2) := rfl
  rw [e, acc_18, term_19]
  exact (runSumDiv_succ _ _ _ 19).symm

theorem acc_20 (x0 : FVec Ideal T4 .f32) (x1 x2 : IVec T3 32) :
    val_main_v450 (F := Ideal) x0 x1 x2
      = runSumDiv (val_main_v30 (F := Ideal)) (termOf x0 x1 (val_main_v29 (F := Ideal) x1 x2)) (val_main_v48 (F := Ideal) x1 x2) 21 := by
  have e : val_main_v450 (F := Ideal) x0 x1 x2
      = accStep (val_main_v430 (F := Ideal) x0 x1 x2) (val_main_v446 (F := Ideal) x0 x1 x2) (val_main_v48 (F := Ideal) x1 x2) := rfl
  rw [e, acc_19, term_20]
  exact (runSumDiv_succ _ _ _ 20).symm

theorem acc_21 (x0 : FVec Ideal T4 .f32) (x1 x2 : IVec T3 32) :
    val_main_v470 (F := Ideal) x0 x1 x2
      = runSumDiv (val_main_v30 (F := Ideal)) (termOf x0 x1 (val_main_v29 (F := Ideal) x1 x2)) (val_main_v48 (F := Ideal) x1 x2) 22 := by
  have e : val_main_v470 (F := Ideal) x0 x1 x2
      = accStep (val_main_v450 (F := Ideal) x0 x1 x2) (val_main_v466 (F := Ideal) x0 x1 x2) (val_main_v48 (F := Ideal) x1 x2) := rfl
  rw [e, acc_20, term_21]
  exact (runSumDiv_succ _ _ _ 21).symm

theorem acc_22 (x0 : FVec Ideal T4 .f32) (x1 x2 : IVec T3 32) :
    val_main_v490 (F := Ideal) x0 x1 x2
      = runSumDiv (val_main_v30 (F := Ideal)) (termOf x0 x1 (val_main_v29 (F := Ideal) x1 x2)) (val_main_v48 (F := Ideal) x1 x2) 23 := by
  have e : val_main_v490 (F := Ideal) x0 x1 x2
      = accStep (val_main_v470 (F := Ideal) x0 x1 x2) (val_main_v486 (F := Ideal) x0 x1 x2) (val_main_v48 (F := Ideal) x1 x2) := rfl
  rw [e, acc_21, term_22]
  exact (runSumDiv_succ _ _ _ 22).symm

theorem acc_23 (x0 : FVec Ideal T4 .f32) (x1 x2 : IVec T3 32) :
    val_main_v510 (F := Ideal) x0 x1 x2
      = runSumDiv (val_main_v30 (F := Ideal)) (termOf x0 x1 (val_main_v29 (F := Ideal) x1 x2)) (val_main_v48 (F := Ideal) x1 x2) 24 := by
  have e : val_main_v510 (F := Ideal) x0 x1 x2
      = accStep (val_main_v490 (F := Ideal) x0 x1 x2) (val_main_v506 (F := Ideal) x0 x1 x2) (val_main_v48 (F := Ideal) x1 x2) := rfl
  rw [e, acc_22, term_23]
  exact (runSumDiv_succ _ _ _ 23).symm

/-! ### The tail: the running total to the scalar -/

/-- The reference's last operations as a function of the include mask, the floored image count and the running total:
    divide by the number of shifts, keep the included images, sum over the images, divide by their count. -/
def refTail (incl : IVec T1 1) (cnt : IVec T0 32) (total : FVec Ideal T1 .f32) : FVec Ideal T0 .f32 :=
  Host.divf
    (Host.reduceAdd (s := T1) (t := T0) (u := T0) (axes := [0])
      (mulf (Host.divf total (broadcastInDim T1 ![] (by decide) (constant T0 .f32 0x41C00000#32))) (uitofp .f32 incl))
      (constant T0 .f32 0x00000000#32) (by decide) (by decide))
    (sitofp .f32 cnt)

theorem tail_eq (x0 : FVec Ideal T4 .f32) (x1 x2 : IVec T3 32) :
    val_main_v520 (F := Ideal) x0 x1 x2
      = refTail (val_main_v20 (F := Ideal) x1 x2) (val_main_v515 (F := Ideal) x1 x2) (val_main_v510 (F := Ideal) x0 x1 x2) := rfl

/-- The reference's scalar: the tail of the running total of the 24 shifts' terms, each divided by the pixel count. -/
theorem ref_value (x0 : FVec Ideal T4 .f32) (x1 x2 : IVec T3 32) :
    val_main_v520 (F := Ideal) x0 x1 x2
      = refTail (val_main_v20 (F := Ideal) x1 x2) (val_main_v515 (F := Ideal) x1 x2)
          (runSumDiv (val_main_v30 (F := Ideal)) (termOf x0 x1 (val_main_v29 (F := Ideal) x1 x2))
            (val_main_v48 (F := Ideal) x1 x2) 24) := by
  rw [tail_eq, acc_23]

end Cert.Bridge.Ref

end
-- ==== Proof.Bridge.lean ====
/-
  The two programs' results are one value.

  Before the region the kernel's host lines compute, from the two label arrays, the 0/1 weight, the per-image pixel
  count and the per-image inclusion bit with the very operations the reference uses, so these are the reference's own
  terms. The region's raw sum is the running total of the 24 shifts' terms of the whole arrays (the accumulated arrays
  in closed form). The kernel divides that total by `M · 24`, the reference divides each term by `M` and the total by
  `24`; with `M ≥ 1` a real number these agree on the extended reals. What follows the division is the same on both
  sides.
-/
import proofs.«133983_j1632087573343_1_alg».proof.Proof.KClosed
import proofs.«133983_j1632087573343_1_alg».proof.Proof.Law
import proofs.«133983_j1632087573343_1_alg».proof.Proof.RefValue
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Bridge

variable (m : (ℓ : Loc nD τ sig) → Buf (Elt Ideal) ℓ)

abbrev segOf (c : Dev nD) : IVec T3 32 := m ((c.tc : Thread nD τ).loc main_arg1)
abbrev gtbOf (c : Dev nD) : IVec T3 32 := m ((c.tc : Thread nD τ).loc main_arg2)

/-! ## The host values from before the region are the reference's -/

set_option maxHeartbeats 4000000 in
theorem pre_v24 (c : Dev nD) :
    (V m c main_v24 : FVec Ideal T3 .f32) = Cert.ReferenceIdeal.Read.val_main_v29 (F := Ideal) (segOf m c) (gtbOf m c) := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
theorem pre_v23 (c : Dev nD) :
    (V m c main_v23 : FVec Ideal T1 .f32) = Cert.ReferenceIdeal.Read.val_main_v23 (F := Ideal) (segOf m c) (gtbOf m c) := by
  dsimp only [V, V0]
  simp only [hostOps0, hostOps0_1, hostOps0_2, hostOps0_3, hostOps0_4, List.flatten_cons, List.flatten_nil, List.append_nil,
    List.cons_append, List.nil_append]
  after_results_simp
  rfl

set_option maxHeartbeats 4000000 in
theorem pre_v20 (c : Dev nD) :
    (V m c main_v20 : IVec T1 1) = Cert.ReferenceIdeal.Read.val_main_v20 (F := Ideal) (segOf m c) (gtbOf m c) := by
  dsimp only [V, V0]
  simp only [hostOps0, hostOps0_1, hostOps0_2, hostOps0_3, hostOps0_4, List.flatten_cons, List.flatten_nil, List.append_nil,
    List.cons_append, List.nil_append]
  after_results_simp
  rfl

/-! ## The label block and the weight block the last point loads are the whole arrays -/

theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem blk1 (c : Dev nD) (t : Fin cfg0.N) : (iblk m c 1 t : IVec T3 32) = segOf m c := by
  obtain ⟨i0, i1, i2⟩ := idx1 t
  funext y
  unfold iblk
  rw [View.read_apply]
  show V m c main_arg1 _ = m (c.tc.loc main_arg1) y
  rw [V_main_arg1]
  congr 1
  funext a
  apply Fin.ext
  match a with
  | ⟨0, _⟩ => show win0_1.index t 0 * 8 + 1 * (y 0).val = (y 0).val; rw [i0]; omega
  | ⟨1, _⟩ => show win0_1.index t 1 * 128 + 1 * (y 1).val = (y 1).val; rw [i1]; omega
  | ⟨2, _⟩ => show win0_1.index t 2 * 128 + 1 * (y 2).val = (y 2).val; rw [i2]; omega

theorem blk2 (c : Dev nD) (t : Fin cfg0.N) : (iblk m c 2 t : FVec Ideal T3 .f32) = V m c main_v24 := by
  obtain ⟨i0, i1, i2⟩ := idx2 t
  funext y
  unfold iblk
  rw [View.read_apply]
  show V m c main_v24 _ = V m c main_v24 y
  congr 1
  funext a
  apply Fin.ext
  match a with
  | ⟨0, _⟩ => show win0_2.index t 0 * 8 + 1 * (y 0).val = (y 0).val; rw [i0]; omega
  | ⟨1, _⟩ => show win0_2.index t 1 * 128 + 1 * (y 1).val = (y 1).val; rw [i1]; omega
  | ⟨2, _⟩ => show win0_2.index t 2 * 128 + 1 * (y 2).val = (y 2).val; rw [i2]; omega

/-! ## The raw sum is the running total of the 24 terms of the whole arrays -/

theorem runSum_congr (z : FVec Ideal T1 .f32) (T T' : ℕ → FVec Ideal T1 .f32) :
    ∀ n, (∀ k < n, T k = T' k) → runSum z T n = runSum z T' n
  | 0, _ => rfl
  | n + 1, h => by
    show addf (runSum z T n) (T n) = addf (runSum z T' n) (T' n)
    rw [runSum_congr z T T' n (fun k hk => h k (by omega)), h n (by omega)]

/-- The reference's weight array. -/
abbrev vfOf (c : Dev nD) : FVec Ideal T3 .f32 :=
  Cert.ReferenceIdeal.Read.val_main_v29 (F := Ideal) (segOf m c) (gtbOf m c)

theorem rawSum_eq (c : Dev nD) :
    rawSum m c = runSum (broadcast T1 (Scalar.ofBits (F := Ideal) .f32 0x00000000#32))
      (termOf (erOf m c) (segOf m c) (vfOf m c)) 24 := by
  unfold rawSum finalTotal
  rw [sqPart_full, blk1, show castT3 (iblk m c 2 tLast) = vfOf m c from by
    unfold castT3; rw [shapeCast_self, blk2, pre_v24]]
  refine runSum_congr _ _ _ 24 fun n hn => ?_
  show shiftTerm (shA n) (shB n) _ _ _ (slabOf (dotPart m c 32) n) = _
  rw [dotPart_full m c n hn]
  rfl

/-! ## The two results -/

theorem cnt_pos (x1 x2 : IVec T3 32) (j : T1.Idx) :
    ∃ r : ℝ, 0 < r ∧ Cert.ReferenceIdeal.Read.val_main_v48 (F := Ideal) x1 x2 j = (r : EReal) := by
  refine ⟨max (((Cert.ReferenceIdeal.Read.val_main_v22 (F := Ideal) x1 x2 j).toInt : ℝ)) 1, lt_max_of_lt_right one_pos, ?_⟩
  rw [Cert.ReferenceIdeal.Read.val_main_v48_apply, Cert.ReferenceIdeal.Read.val_main_v23_apply,
    Cert.ReferenceIdeal.Read.val_main_v47_apply, Cert.ReferenceIdeal.Read.val_main_cst_16_apply]
  show max ((((Cert.ReferenceIdeal.Read.val_main_v22 (F := Ideal) x1 x2 j).toInt : ℝ)) : EReal) (Ideal.ofBits .f32 0x3F800000#32) = _
  rw [ofBits_one]
  rcases le_total (((Cert.ReferenceIdeal.Read.val_main_v22 (F := Ideal) x1 x2 j).toInt : ℝ)) 1 with h | h
  · rw [max_eq_right h, max_eq_right (by exact_mod_cast h)]; norm_cast
  · rw [max_eq_left h, max_eq_left (by exact_mod_cast h)]

theorem c24_apply (h : Shape.BroadcastsInDim T0 T1 ![]) (j : T1.Idx) :
    broadcastInDim T1 ![] h (constant (F := Ideal) T0 .f32 0x41C00000#32) j = ((24 : ℝ) : EReal) :=
  (broadcastInDim_apply _ h _ j ix0 (fun a => a.elim0)).trans ofBits_24

theorem z30_apply (j : T1.Idx) : Cert.ReferenceIdeal.Read.val_main_v30 (F := Ideal) j = 0 := by
  rw [Cert.ReferenceIdeal.Read.val_main_v30_apply, Cert.ReferenceIdeal.Read.val_main_cst_12_apply]
  exact Ideal.ofBits_zero_f32

/-- The kernel's scalar is the reference's. -/
theorem result_eq (c : Dev nD) :
    tailK (rawSum m c) (V m c main_v23) (V m c main_v20)
      = Cert.ReferenceIdeal.Read.val_main_v520 (F := Ideal) (erOf m c) (segOf m c) (gtbOf m c) := by
  rw [Cert.Bridge.Ref.ref_value, pre_v23, pre_v20, rawSum_eq]
  have hloss := loss_eq (broadcast T1 (Scalar.ofBits (F := Ideal) .f32 0x00000000#32))
    (Cert.ReferenceIdeal.Read.val_main_v30 (F := Ideal)) (termOf (erOf m c) (segOf m c) (vfOf m c))
    (Cert.ReferenceIdeal.Read.val_main_v48 (F := Ideal) (segOf m c) (gtbOf m c))
    (broadcastInDim T1 ![] (by decide) (constant (F := Ideal) T0 .f32 0x41C00000#32))
    (fun _ => Ideal.ofBits_zero_f32) z30_apply (cnt_pos _ _) (c24_apply (by decide)) 24
  unfold Cert.Bridge.Ref.refTail
  rw [← hloss]
  rfl

end Cert.KernelIdeal.Acc

end
-- ==== Proof.RefRunOps.lean ====
/-
  The reference program as straight lines of host operations, one list per printed part of it.

  Each part of the program is the line `seq` of its operations; the program is the parts in order, so it is the line of
  the lists laid end to end.
-/
import proofs.«133983_j1632087573343_1_alg».proof.Proof.Gen.ReferenceIdeal
import Idealize.ShloMosaic.Lib.StableHlo.Run

noncomputable section

namespace Cert.Bridge.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of the program's statements 1 to 60, in order (a called function's operations in its call's place). -/
abbrev ops0 : List (HloOp τ sig (Elt F)) :=
  [ nullary main_c (constantI S_ 32 255#32),
    unary main_c main_v0 (broadcastInDim S8x128x128 ![] bcast_S_S8x128x128 : (⟨S_, .i32⟩ : BufTy).Contents (Elt F) → (⟨S8x128x128, .i32⟩ : BufTy).Contents (Elt F)),
    binary main_arg1 main_v0 main_v1 (cmpi .eq : (⟨S8x128x128, .i32⟩ : BufTy).Contents (Elt F) → (⟨S8x128x128, .i32⟩ : BufTy).Contents (Elt F) → (⟨S8x128x128, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S8x128x128, .i32⟩) main_call0_v1) (broadcastInDim S8x128x128 ![] bcast_S_S8x128x128),
    TRef.ternary (TRef.of (T := ⟨S8x128x128, .i1⟩) main_v1) (TRef.of (T := ⟨S8x128x128, .i32⟩) main_call0_v1) (TRef.of (T := ⟨S8x128x128, .i32⟩) main_arg1) (TRef.of (T := ⟨S8x128x128, .i32⟩) main_v2) select,
    nullary main_c_1 (constantI S_ 32 255#32),
    unary main_c_1 main_v3 (broadcastInDim S8x128x128 ![] bcast_S_S8x128x128 : (⟨S_, .i32⟩ : BufTy).Contents (Elt F) → (⟨S8x128x128, .i32⟩ : BufTy).Contents (Elt F)),
    binary main_arg2 main_v3 main_v4 (cmpi .eq : (⟨S8x128x128, .i32⟩ : BufTy).Contents (Elt F) → (⟨S8x128x128, .i32⟩ : BufTy).Contents (Elt F) → (⟨S8x128x128, .i1⟩ : BufTy).Contents (Elt F)),
    nullary main_c_2 (constantI S_ 32 0#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S8x128x128, .i32⟩) main_call1_v1) (broadcastInDim S8x128x128 ![] bcast_S_S8x128x128),
    TRef.ternary (TRef.of (T := ⟨S8x128x128, .i1⟩) main_v4) (TRef.of (T := ⟨S8x128x128, .i32⟩) main_call1_v1) (TRef.of (T := ⟨S8x128x128, .i32⟩) main_arg2) (TRef.of (T := ⟨S8x128x128, .i32⟩) main_v5) select,
    binary main_v5 main_v2 main_v6 (muli : (⟨S8x128x128, .i32⟩ : BufTy).Contents (Elt F) → (⟨S8x128x128, .i32⟩ : BufTy).Contents (Elt F) → (⟨S8x128x128, .i32⟩ : BufTy).Contents (Elt F)),
    nullary main_c_3 (constantI S_ 1 0#1),
    unary main_c_3 main_v7 (broadcastInDim S128x128 ![] bcast_S_S128x128 : (⟨S_, .i1⟩ : BufTy).Contents (Elt F) → (⟨S128x128, .i1⟩ : BufTy).Contents (Elt F)),
    nullary main_c_4 (constantI S_ 32 2#32),
    unary main_c_4 main_v8 (broadcastInDim S1 ![] bcast_S_S1 : (⟨S_, .i32⟩ : BufTy).Contents (Elt F) → (⟨S1, .i32⟩ : BufTy).Contents (Elt F)),
    nullary main_c_5 (constantI S_ 32 2#32),
    unary main_c_5 main_v9 (broadcastInDim S1 ![] bcast_S_S1 : (⟨S_, .i32⟩ : BufTy).Contents (Elt F) → (⟨S1, .i32⟩ : BufTy).Contents (Elt F)),
    binary main_v8 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_c_6 (constantI S_ 1 1#1),
    unary main_c_6 main_v11 (broadcastInDim S124x124 ![] bcast_S_S124x124 : (⟨S_, .i1⟩ : BufTy).Contents (Elt F) → (⟨S124x124, .i1⟩ : BufTy).Contents (Elt F)),
    ternary main_v7 main_v10 main_v11 main_v12 ((fun x i u => Host.scatter scatter_S128x128_S2_S124x124_01_n_01_0 (fun _ b => b) x i u) : (⟨S128x128, .i1⟩ : BufTy).Contents (Elt F) → (⟨S2, .i32⟩ : BufTy).Contents (Elt F) → (⟨S124x124, .i1⟩ : BufTy).Contents (Elt F) → (⟨S128x128, .i1⟩ : BufTy).Contents (Elt F)),
    nullary main_c_7 (constantI S_ 32 0#32),
    unary main_c_7 main_v13 (broadcastInDim S8x128x128 ![] bcast_S_S8x128x128 : (⟨S_, .i32⟩ : BufTy).Contents (Elt F) → (⟨S8x128x128, .i32⟩ : BufTy).Contents (Elt F)),
    binary main_v6 main_v13 main_v14 (cmpi .sgt : (⟨S8x128x128, .i32⟩ : BufTy).Contents (Elt F) → (⟨S8x128x128, .i32⟩ : BufTy).Contents (Elt F) → (⟨S8x128x128, .i1⟩ : BufTy).Contents (Elt F)),
    unary main_v12 main_v15 (broadcastInDim S1x128x128 ![1, 2] bcast_S128x128_S1x128x128_1_2 : (⟨S128x128, .i1⟩ : BufTy).Contents (Elt F) → (⟨S1x128x128, .i1⟩ : BufTy).Contents (Elt F)),
    unary main_v15 main_v16 (broadcastInDim S8x128x128 ![0, 1, 2] bcast_S1x128x128_S8x128x128_0_1_2 : (⟨S1x128x128, .i1⟩ : BufTy).Contents (Elt F) → (⟨S8x128x128, .i1⟩ : BufTy).Contents (Elt F)),
    binary main_v14 main_v16 main_v17 (andi : (⟨S8x128x128, .i1⟩ : BufTy).Contents (Elt F) → (⟨S8x128x128, .i1⟩ : BufTy).Contents (Elt F) → (⟨S8x128x128, .i1⟩ : BufTy).Contents (Elt F)),
    nullary main_c_8 (constantI S_ 32 0#32),
    unary main_c_8 main_v18 (broadcastInDim S8x128x128 ![] bcast_S_S8x128x128 : (⟨S_, .i32⟩ : BufTy).Contents (Elt F) → (⟨S8x128x128, .i32⟩ : BufTy).Contents (Elt F)),
    binary main_v6 main_v18 main_v19 (cmpi .sgt : (⟨S8x128x128, .i32⟩ : BufTy).Contents (Elt F) → (⟨S8x128x128, .i32⟩ : BufTy).Contents (Elt F) → (⟨S8x128x128, .i1⟩ : BufTy).Contents (Elt F)),
    nullary main_c_9 (constantI S_ 1 0#1),
    binary main_v19 main_c_9 main_v20 ((fun x v => Host.reduce IntOp.ori x v reducesTo_S8x128x128_S8_d1_2 h_S_) : (⟨S8x128x128, .i1⟩ : BufTy).Contents (Elt F) → (⟨S_, .i1⟩ : BufTy).Contents (Elt F) → (⟨S8, .i1⟩ : BufTy).Contents (Elt F)),
    unary main_v17 main_v21 ((extui 32 · natLt_1_32) : (⟨S8x128x128, .i1⟩ : BufTy).Contents (Elt F) → (⟨S8x128x128, .i32⟩ : BufTy).Contents (Elt F)),
    nullary main_c_10 (constantI S_ 32 0#32),
    binary main_v21 main_c_10 main_v22 ((fun x v => Host.reduce IntOp.addi x v reducesTo_S8x128x128_S8_d1_2 h_S_) : (⟨S8x128x128, .i32⟩ : BufTy).Contents (Elt F) → (⟨S_, .i32⟩ : BufTy).Contents (Elt F) → (⟨S8, .i32⟩ : BufTy).Contents (Elt F)),
    unary main_v22 main_v23 (sitofp .f32 : (⟨S8, .i32⟩ : BufTy).Contents (Elt F) → (⟨S8, .f32⟩ : BufTy).Contents (Elt F)),
    binary main_arg0 main_arg0 main_v24 (mulf : (⟨S8x256x128x128, .f32⟩ : BufTy).Contents (Elt F) → (⟨S8x256x128x128, .f32⟩ : BufTy).Contents (Elt F) → (⟨S8x256x128x128, .f32⟩ : BufTy).Contents (Elt F)),
    nullary main_cst (constant S_ .f32 0x00000000#32),
    binary main_v24 main_cst main_v25 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    unary main_v25 main_v26 (Host.sqrt : (⟨S8x128x128, .f32⟩ : BufTy).Contents (Elt F) → (⟨S8x128x128, .f32⟩ : BufTy).Contents (Elt F)),
    nullary main_cst_11 (constant S_ .f32 0x322BCC77#32),
    unary main_cst_11 main_v27 (broadcastInDim S8x128x128 ![] bcast_S_S8x128x128 : (⟨S_, .f32⟩ : BufTy).Contents (Elt F) → (⟨S8x128x128, .f32⟩ : BufTy).Contents (Elt F)),
    binary main_v26 main_v27 main_v28 (maximumf : (⟨S8x128x128, .f32⟩ : BufTy).Contents (Elt F) → (⟨S8x128x128, .f32⟩ : BufTy).Contents (Elt F) → (⟨S8x128x128, .f32⟩ : BufTy).Contents (Elt F)),
    unary main_v17 main_v29 (uitofp .f32 : (⟨S8x128x128, .i1⟩ : BufTy).Contents (Elt F) → (⟨S8x128x128, .f32⟩ : BufTy).Contents (Elt F)),
    nullary main_cst_12 (constant S_ .f32 0x00000000#32),
    unary main_cst_12 main_v30 (broadcastInDim S8 ![] bcast_S_S8 : (⟨S_, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call2_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call2_v1) (extractStridedSlice S8x256x126x128 ![0, 0, 0, 0] · slices_S8x256x128x128_S8x256x126x128_0_0_0_0),
    TRef.binary (TRef.of (T := ⟨S8x256x2x128, .f32⟩) main_call2_v0) (TRef.of (T := ⟨S8x256x126x128, .f32⟩) main_call2_v1) (TRef.of (T := ⟨S8x256x128x128, .f32⟩) main_call2_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call2_v2) (TRef.of (T := ⟨S8x256x128x2, .f32⟩) main_call2_v3) (extractStridedSlice S8x256x128x2 ![0, 0, 0, 126] · slices_S8x256x128x128_S8x256x128x2_0_0_0_126),
    TRef.unary (TRef.of (T := ⟨S8x256x128x128, .f32⟩) main_call2_v2) (TRef.of (T := ⟨S8x256x128x126, .f32⟩) main_call2_v4) (extractStridedSlice S8x256x128x126 ![0, 0, 0, 0] · slices_S8x256x128x128_S8x256x128x126_0_0_0_0),
    TRef.binary (TRef.of (T := ⟨S8x256x128x2, .f32⟩) main_call2_v3) (TRef.of (T := ⟨S8x256x128x126, .f32⟩) main_call2_v4) (TRef.of (T := ⟨S8x256x128x128, .f32⟩) main_v31) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x2x128, .f32⟩) main_call3_v0) (extractStridedSlice S8x2x128 ![0, 126, 0] · slices_S8x128x128_S8x2x128_0_126_0),
    TRef.unary (TRef.of (T := ⟨S8x128x128, .f32⟩) main_v28) (TRef.of (T := ⟨S8x126x128, .f32⟩) main_call3_v1) (extractStridedSlice S8x126x128 ![0, 0, 0] · slices_S8x128x128_S8x126x128_0_0_0),
    TRef.binary (TRef.of (T := ⟨S8x2x128, .f32⟩) main_call3_v0) (TRef.of (T := ⟨S8x126x128, .f32⟩) main_call3_v1) (TRef.of (T := ⟨S8x128x128, .f32⟩) main_call3_v2) (fun a b => concatenate S8x128x128 1 [⟨S8x2x128, a⟩, ⟨S8x126x128, b⟩] concatenates_S8x2x128_S8x126x128_S8x128x128_d1),
    TRef.unary (TRef.of (T := ⟨S8x128x128, .f32⟩) main_call3_v2) (TRef.of (T := ⟨S8x128x2, .f32⟩) main_call3_v3) (extractStridedSlice S8x128x2 ![0, 0, 126] · slices_S8x128x128_S8x128x2_0_0_126),
    TRef.unary (TRef.of (T := ⟨S8x128x128, .f32⟩) main_call3_v2) (TRef.of (T := ⟨S8x128x126, .f32⟩) main_call3_v4) (extractStridedSlice S8x128x126 ![0, 0, 0] · slices_S8x128x128_S8x128x126_0_0_0),
    TRef.binary (TRef.of (T := ⟨S8x128x2, .f32⟩) main_call3_v3) (TRef.of (T := ⟨S8x128x126, .f32⟩) main_call3_v4) (TRef.of (T := ⟨S8x128x128, .f32⟩) main_v32) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x2x128, .i32⟩) main_call4_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call4_v1) (extractStridedSlice S8x126x128 ![0, 0, 0] · slices_S8x128x128_S8x126x128_0_0_0),
    TRef.binary (TRef.of (T := ⟨S8x2x128, .i32⟩) main_call4_v0) (TRef.of (T := ⟨S8x126x128, .i32⟩) main_call4_v1) (TRef.of (T := ⟨S8x128x128, .i32⟩) main_call4_v2) (fun a b => concatenate S8x128x128 1 [⟨S8x2x128, a⟩, ⟨S8x126x128, b⟩] concatenates_S8x2x128_S8x126x128_S8x128x128_d1),
    TRef.unary (TRef.of (T := ⟨S8x128x128, .i32⟩) main_call4_v2) (TRef.of (T := ⟨S8x128x2, .i32⟩) main_call4_v3) (extractStridedSlice S8x128x2 ![0, 0, 126] · slices_S8x128x128_S8x128x2_0_0_126),
    TRef.unary (TRef.of (T := ⟨S8x128x128, .i32⟩) main_call4_v2) (TRef.of (T := ⟨S8x128x126, .i32⟩) main_call4_v4) (extractStridedSlice S8x128x126 ![0, 0, 0] · slices_S8x128x128_S8x128x126_0_0_0),
    TRef.binary (TRef.of (T := ⟨S8x128x2, .i32⟩) main_call4_v3) (TRef.of (T := ⟨S8x128x126, .i32⟩) main_call4_v4) (TRef.of (T := ⟨S8x128x128, .i32⟩) main_v33) (fun a b => concatenate S8x128x128 2 [⟨S8x128x2, a⟩, ⟨S8x128x126, b⟩] concatenates_S8x128x2_S8x128x126_S8x128x128_d2),
    binary main_arg0 main_v31 main_v34 (mulf : (⟨S8x256x128x128, .f32⟩ : BufTy).Contents (Elt F) → (⟨S8x256x128x128, .f32⟩ : BufTy).Contents (Elt F) → (⟨S8x256x128x128, .f32⟩ : BufTy).Contents (Elt F)),
    nullary main_cst_13 (constant S_ .f32 0x00000000#32),
    binary main_v34 main_cst_13 main_v35 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v32 main_v36 (mulf : (⟨S8x128x128, .f32⟩ : BufTy).Contents (Elt F) → (⟨S8x128x128, .f32⟩ : BufTy).Contents (Elt F) → (⟨S8x128x128, .f32⟩ : BufTy).Contents (Elt F)),
    binary main_v35 main_v36 main_v37 (Host.divf : (⟨S8x128x128, .f32⟩ : BufTy).Contents (Elt F) → (⟨S8x128x128, .f32⟩ : BufTy).Contents (Elt F) → (⟨S8x128x128, .f32⟩ : BufTy).Contents (Elt F)),
    binary main_arg1 main_v33 main_v38 (cmpi .eq : (⟨S8x128x128, .i32⟩ : BufTy).Contents (Elt F) → (⟨S8x128x128, .i32⟩ : BufTy).Contents (Elt F) → (⟨S8x128x128, .i1⟩ : BufTy).Contents (Elt F)),
    nullary main_c_14 (constantI S_ 32 2#32),
    unary main_c_14 main_v39 (broadcastInDim S8x128x128 ![] bcast_S_S8x128x128 : (⟨S_, .i32⟩ : BufTy).Contents (Elt F) → (⟨S8x128x128, .i32⟩ : BufTy).Contents (Elt F)),
    binary main_arg1 main_v39 main_v40 (cmpi .slt : (⟨S8x128x128, .i32⟩ : BufTy).Contents (Elt F) → (⟨S8x128x128, .i32⟩ : BufTy).Contents (Elt F) → (⟨S8x128x128, .i1⟩ : BufTy).Contents (Elt F)),
    binary main_v38 main_v40 main_v41 (andi : (⟨S8x128x128, .i1⟩ : BufTy).Contents (Elt F) → (⟨S8x128x128, .i1⟩ : BufTy).Contents (Elt F) → (⟨S8x128x128, .i1⟩ : BufTy).Contents (Elt F)),
    unary main_v41 main_v42 (uitofp .f32 : (⟨S8x128x128, .i1⟩ : BufTy).Contents (Elt F) → (⟨S8x128x128, .f32⟩ : BufTy).Contents (Elt F)) ]

set_option maxRecDepth 8192 in
set_option maxHeartbeats 4000000 in
/-- That part of the program is the straight line of those operations. -/
theorem part0_eq (c : Dev nD) : main_part0 (F := F) c = seq ops0 := rfl

/-- The host operations of the program's statements 61 to 120, in order (a called function's operations in its call's place). -/
abbrev ops1 : List (HloOp τ sig (Elt F)) :=
  [ binary main_v37 main_v42 main_v43 (subf : (⟨S8x128x128, .f32⟩ : BufTy).Contents (Elt F) → (⟨S8x128x128, .f32⟩ : BufTy).Contents (Elt F) → (⟨S8x128x128, .f32⟩ : BufTy).Contents (Elt F)),
    binary main_v43 main_v43 main_v44 (mulf : (⟨S8x128x128, .f32⟩ : BufTy).Contents (Elt F) → (⟨S8x128x128, .f32⟩ : BufTy).Contents (Elt F) → (⟨S8x128x128, .f32⟩ : BufTy).Contents (Elt F)),
    binary main_v44 main_v29 main_v45 (mulf : (⟨S8x128x128, .f32⟩ : BufTy).Contents (Elt F) → (⟨S8x128x128, .f32⟩ : BufTy).Contents (Elt F) → (⟨S8x128x128, .f32⟩ : BufTy).Contents (Elt F)),
    nullary main_cst_15 (constant S_ .f32 0x00000000#32),
    binary main_v45 main_cst_15 main_v46 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_16 (constant S_ .f32 0x3F800000#32),
    unary main_cst_16 main_v47 (broadcastInDim S8 ![] bcast_S_S8 : (⟨S_, .f32⟩ : BufTy).Contents (Elt F) → (⟨S8, .f32⟩ : BufTy).Contents (Elt F)),
    binary main_v23 main_v47 main_v48 (maximumf : (⟨S8, .f32⟩ : BufTy).Contents (Elt F) → (⟨S8, .f32⟩ : BufTy).Contents (Elt F) → (⟨S8, .f32⟩ : BufTy).Contents (Elt F)),
    binary main_v46 main_v48 main_v49 (Host.divf : (⟨S8, .f32⟩ : BufTy).Contents (Elt F) → (⟨S8, .f32⟩ : BufTy).Contents (Elt F) → (⟨S8, .f32⟩ : BufTy).Contents (Elt F)),
    binary main_v30 main_v49 main_v50 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call5_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call5_v1) (extractStridedSlice S8x256x126x128 ![0, 0, 0, 0] · slices_S8x256x128x128_S8x256x126x128_0_0_0_0),
    TRef.binary (TRef.of (T := ⟨S8x256x2x128, .f32⟩) main_call5_v0) (TRef.of (T := ⟨S8x256x126x128, .f32⟩) main_call5_v1) (TRef.of (T := ⟨S8x256x128x128, .f32⟩) main_call5_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call5_v2) (TRef.of (T := ⟨S8x256x128x1, .f32⟩) main_call5_v3) (extractStridedSlice S8x256x128x1 ![0, 0, 0, 127] · slices_S8x256x128x128_S8x256x128x1_0_0_0_127),
    TRef.unary (TRef.of (T := ⟨S8x256x128x128, .f32⟩) main_call5_v2) (TRef.of (T := ⟨S8x256x128x127, .f32⟩) main_call5_v4) (extractStridedSlice S8x256x128x127 ![0, 0, 0, 0] · slices_S8x256x128x128_S8x256x128x127_0_0_0_0),
    TRef.binary (TRef.of (T := ⟨S8x256x128x1, .f32⟩) main_call5_v3) (TRef.of (T := ⟨S8x256x128x127, .f32⟩) main_call5_v4) (TRef.of (T := ⟨S8x256x128x128, .f32⟩) main_v51) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x2x128, .f32⟩) main_call6_v0) (extractStridedSlice S8x2x128 ![0, 126, 0] · slices_S8x128x128_S8x2x128_0_126_0),
    TRef.unary (TRef.of (T := ⟨S8x128x128, .f32⟩) main_v28) (TRef.of (T := ⟨S8x126x128, .f32⟩) main_call6_v1) (extractStridedSlice S8x126x128 ![0, 0, 0] · slices_S8x128x128_S8x126x128_0_0_0),
    TRef.binary (TRef.of (T := ⟨S8x2x128, .f32⟩) main_call6_v0) (TRef.of (T := ⟨S8x126x128, .f32⟩) main_call6_v1) (TRef.of (T := ⟨S8x128x128, .f32⟩) main_call6_v2) (fun a b => concatenate S8x128x128 1 [⟨S8x2x128, a⟩, ⟨S8x126x128, b⟩] concatenates_S8x2x128_S8x126x128_S8x128x128_d1),
    TRef.unary (TRef.of (T := ⟨S8x128x128, .f32⟩) main_call6_v2) (TRef.of (T := ⟨S8x128x1, .f32⟩) main_call6_v3) (extractStridedSlice S8x128x1 ![0, 0, 127] · slices_S8x128x128_S8x128x1_0_0_127),
    TRef.unary (TRef.of (T := ⟨S8x128x128, .f32⟩) main_call6_v2) (TRef.of (T := ⟨S8x128x127, .f32⟩) main_call6_v4) (extractStridedSlice S8x128x127 ![0, 0, 0] · slices_S8x128x128_S8x128x127_0_0_0),
    TRef.binary (TRef.of (T := ⟨S8x128x1, .f32⟩) main_call6_v3) (TRef.of (T := ⟨S8x128x127, .f32⟩) main_call6_v4) (TRef.of (T := ⟨S8x128x128, .f32⟩) main_v52) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x2x128, .i32⟩) main_call7_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call7_v1) (extractStridedSlice S8x126x128 ![0, 0, 0] · slices_S8x128x128_S8x126x128_0_0_0),
    TRef.binary (TRef.of (T := ⟨S8x2x128, .i32⟩) main_call7_v0) (TRef.of (T := ⟨S8x126x128, .i32⟩) main_call7_v1) (TRef.of (T := ⟨S8x128x128, .i32⟩) main_call7_v2) (fun a b => concatenate S8x128x128 1 [⟨S8x2x128, a⟩, ⟨S8x126x128, b⟩] concatenates_S8x2x128_S8x126x128_S8x128x128_d1),
    TRef.unary (TRef.of (T := ⟨S8x128x128, .i32⟩) main_call7_v2) (TRef.of (T := ⟨S8x128x1, .i32⟩) main_call7_v3) (extractStridedSlice S8x128x1 ![0, 0, 127] · slices_S8x128x128_S8x128x1_0_0_127),
    TRef.unary (TRef.of (T := ⟨S8x128x128, .i32⟩) main_call7_v2) (TRef.of (T := ⟨S8x128x127, .i32⟩) main_call7_v4) (extractStridedSlice S8x128x127 ![0, 0, 0] · slices_S8x128x128_S8x128x127_0_0_0),
    TRef.binary (TRef.of (T := ⟨S8x128x1, .i32⟩) main_call7_v3) (TRef.of (T := ⟨S8x128x127, .i32⟩) main_call7_v4) (TRef.of (T := ⟨S8x128x128, .i32⟩) main_v53) (fun a b => concatenate S8x128x128 2 [⟨S8x128x1, a⟩, ⟨S8x128x127, b⟩] concatenates_S8x128x1_S8x128x127_S8x128x128_d2),
    binary main_arg0 main_v51 main_v54 (mulf : (⟨S8x256x128x128, .f32⟩ : BufTy).Contents (Elt F) → (⟨S8x256x128x128, .f32⟩ : BufTy).Contents (Elt F) → (⟨S8x256x128x128, .f32⟩ : BufTy).Contents (Elt F)),
    nullary main_cst_17 (constant S_ .f32 0x00000000#32),
    binary main_v54 main_cst_17 main_v55 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v52 main_v56 (mulf : (⟨S8x128x128, .f32⟩ : BufTy).Contents (Elt F) → (⟨S8x128x128, .f32⟩ : BufTy).Contents (Elt F) → (⟨S8x128x128, .f32⟩ : BufTy).Contents (Elt F)),
    binary main_v55 main_v56 main_v57 (Host.divf : (⟨S8x128x128, .f32⟩ : BufTy).Contents (Elt F) → (⟨S8x128x128, .f32⟩ : BufTy).Contents (Elt F) → (⟨S8x128x128, .f32⟩ : BufTy).Contents (Elt F)),
    binary main_arg1 main_v53 main_v58 (cmpi .eq : (⟨S8x128x128, .i32⟩ : BufTy).Contents (Elt F) → (⟨S8x128x128, .i32⟩ : BufTy).Contents (Elt F) → (⟨S8x128x128, .i1⟩ : BufTy).Contents (Elt F)),
    nullary main_c_18 (constantI S_ 32 2#32),
    unary main_c_18 main_v59 (broadcastInDim S8x128x128 ![] bcast_S_S8x128x128 : (⟨S_, .i32⟩ : BufTy).Contents (Elt F) → (⟨S8x128x128, .i32⟩ : BufTy).Contents (Elt F)),
    binary main_arg1 main_v59 main_v60 (cmpi .slt : (⟨S8x128x128, .i32⟩ : BufTy).Contents (Elt F) → (⟨S8x128x128, .i32⟩ : BufTy).Contents (Elt F) → (⟨S8x128x128, .i1⟩ : BufTy).Contents (Elt F)),
    binary main_v58 main_v60 main_v61 (andi : (⟨S8x128x128, .i1⟩ : BufTy).Contents (Elt F) → (⟨S8x128x128, .i1⟩ : BufTy).Contents (Elt F) → (⟨S8x128x128, .i1⟩ : BufTy).Contents (Elt F)),
    unary main_v61 main_v62 (uitofp .f32 : (⟨S8x128x128, .i1⟩ : BufTy).Contents (Elt F) → (⟨S8x128x128, .f32⟩ : BufTy).Contents (Elt F)),
    binary main_v57 main_v62 main_v63 (subf : (⟨S8x128x128, .f32⟩ : BufTy).Contents (Elt F) → (⟨S8x128x128, .f32⟩ : BufTy).Contents (Elt F) → (⟨S8x128x128, .f32⟩ : BufTy).Contents (Elt F)),
    binary main_v63 main_v63 main_v64 (mulf : (⟨S8x128x128, .f32⟩ : BufTy).Contents (Elt F) → (⟨S8x128x128, .f32⟩ : BufTy).Contents (Elt F) → (⟨S8x128x128, .f32⟩ : BufTy).Contents (Elt F)),
    binary main_v64 main_v29 main_v65 (mulf : (⟨S8x128x128, .f32⟩ : BufTy).Contents (Elt F) → (⟨S8x128x128, .f32⟩ : BufTy).Contents (Elt F) → (⟨S8x128x128, .f32⟩ : BufTy).Contents (Elt F)),
    nullary main_cst_19 (constant S_ .f32 0x00000000#32),
    binary main_v65 main_cst_19 main_v66 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_20 (constant S_ .f32 0x3F800000#32),
    unary main_cst_20 main_v67 (broadcastInDim S8 ![] bcast_S_S8 : (⟨S_, .f32⟩ : BufTy).Contents (Elt F) → (⟨S8, .f32⟩ : BufTy).Contents (Elt F)),
    binary main_v23 main_v67 main_v68 (maximumf : (⟨S8, .f32⟩ : BufTy).Contents (Elt F) → (⟨S8, .f32⟩ : BufTy).Contents (Elt F) → (⟨S8, .f32⟩ : BufTy).Contents (Elt F)),
    binary main_v66 main_v68 main_v69 (Host.divf : (⟨S8, .f32⟩ : BufTy).Contents (Elt F) → (⟨S8, .f32⟩ : BufTy).Contents (Elt F) → (⟨S8, .f32⟩ : BufTy).Contents (Elt F)),
    binary main_v50 main_v69 main_v70 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call8_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call8_v1) (extractStridedSlice S8x256x126x128 ![0, 0, 0, 0] · slices_S8x256x128x128_S8x256x126x128_0_0_0_0),
    TRef.binary (TRef.of (T := ⟨S8x256x2x128, .f32⟩) main_call8_v0) (TRef.of (T := ⟨S8x256x126x128, .f32⟩) main_call8_v1) (TRef.of (T := ⟨S8x256x128x128, .f32⟩) main_call8_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call8_v2) (TRef.of (T := ⟨S8x256x128x128, .f32⟩) main_call8_v3) (extractStridedSlice S8x256x128x128 ![0, 0, 0, 0] · slices_S8x256x128x128_S8x256x128x128_0_0_0_0),
    TRef.unary (TRef.of (T := ⟨S8x256x128x128, .f32⟩) main_call8_v2) (TRef.of (T := ⟨S8x256x128x0, .f32⟩) main_call8_v4) (extractStridedSlice S8x256x128x0 ![0, 0, 0, 0] · slices_S8x256x128x128_S8x256x128x0_0_0_0_0),
    TRef.binary (TRef.of (T := ⟨S8x256x128x128, .f32⟩) main_call8_v3) (TRef.of (T := ⟨S8x256x128x0, .f32⟩) main_call8_v4) (TRef.of (T := ⟨S8x256x128x128, .f32⟩) main_v71) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x2x128, .f32⟩) main_call9_v0) (extractStridedSlice S8x2x128 ![0, 126, 0] · slices_S8x128x128_S8x2x128_0_126_0),
    TRef.unary (TRef.of (T := ⟨S8x128x128, .f32⟩) main_v28) (TRef.of (T := ⟨S8x126x128, .f32⟩) main_call9_v1) (extractStridedSlice S8x126x128 ![0, 0, 0] · slices_S8x128x128_S8x126x128_0_0_0),
    TRef.binary (TRef.of (T := ⟨S8x2x128, .f32⟩) main_call9_v0) (TRef.of (T := ⟨S8x126x128, .f32⟩) main_call9_v1) (TRef.of (T := ⟨S8x128x128, .f32⟩) main_call9_v2) (fun a b => concatenate S8x128x128 1 [⟨S8x2x128, a⟩, ⟨S8x126x128, b⟩] concatenates_S8x2x128_S8x126x128_S8x128x128_d1),
    TRef.unary (TRef.of (T := ⟨S8x128x128, .f32⟩) main_call9_v2) (TRef.of (T := ⟨S8x128x128, .f32⟩) main_call9_v3) (extractStridedSlice S8x128x128 ![0, 0, 0] · slices_S8x128x128_S8x128x128_0_0_0),
    TRef.unary (TRef.of (T := ⟨S8x128x128, .f32⟩) main_call9_v2) (TRef.of (T := ⟨S8x128x0, .f32⟩) main_call9_v4) (extractStridedSlice S8x128x0 ![0, 0, 0] · slices_S8x128x128_S8x128x0_0_0_0),
    TRef.binary (TRef.of (T := ⟨S8x128x128, .f32⟩) main_call9_v3) (TRef.of (T := ⟨S8x128x0, .f32⟩) main_call9_v4) (TRef.of (T := ⟨S8x128x128, .f32⟩) main_v72) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x2x128, .i32⟩) main_call10_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call10_v1) (extractStridedSlice S8x126x128 ![0, 0, 0] · slices_S8x128x128_S8x126x128_0_0_0),
    TRef.binary (TRef.of (T := ⟨S8x2x128, .i32⟩) main_call10_v0) (TRef.of (T := ⟨S8x126x128, .i32⟩) main_call10_v1) (TRef.of (T := ⟨S8x128x128, .i32⟩) main_call10_v2) (fun a b => concatenate S8x128x128 1 [⟨S8x2x128, a⟩, ⟨S8x126x128, b⟩] concatenates_S8x2x128_S8x126x128_S8x128x128_d1),
    TRef.unary (TRef.of (T := ⟨S8x128x128, .i32⟩) main_call10_v2) (TRef.of (T := ⟨S8x128x128, .i32⟩) main_call10_v3) (extractStridedSlice S8x128x128 ![0, 0, 0] · slices_S8x128x128_S8x128x128_0_0_0),
    TRef.unary (TRef.of (T := ⟨S8x128x128, .i32⟩) main_call10_v2) (TRef.of (T := ⟨S8x128x0, .i32⟩) main_call10_v4) (extractStridedSlice S8x128x0 ![0, 0, 0] · slices_S8x128x128_S8x128x0_0_0_0),
    TRef.binary (TRef.of (T := ⟨S8x128x128, .i32⟩) main_call10_v3) (TRef.of (T := ⟨S8x128x0, .i32⟩) main_call10_v4) (TRef.of (T := ⟨S8x128x128, .i32⟩) main_v73) (fun a b => concatenate S8x128x128 2 [⟨S8x128x128, a⟩, ⟨S8x128x0, b⟩] concatenates_S8x128x128_S8x128x0_S8x128x128_d2),
    binary main_arg0 main_v71 main_v74 (mulf : (⟨S8x256x128x128, .f32⟩ : BufTy).Contents (Elt F) → (⟨S8x256x128x128, .f32⟩ : BufTy).Contents (Elt F) → (⟨S8x256x128x128, .f32⟩ : BufTy).Contents (Elt F)),
    nullary main_cst_21 (constant S_ .f32 0x00000000#32),
    binary main_v74 main_cst_21 main_v75 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v72 main_v76 (mulf : (⟨S8x128x128, .f32⟩ : BufTy).Contents (Elt F) → (⟨S8x128x128, .f32⟩ : BufTy).Contents (Elt F) → (⟨S8x128x128, .f32⟩ : BufTy).Contents (Elt F)),
    binary main_v75 main_v76 main_v77 (Host.divf : (⟨S8x128x128, .f32⟩ : BufTy).Contents (Elt F) → (⟨S8x128x128, .f32⟩ : BufTy).Contents (Elt F) → (⟨S8x128x128, .f32⟩ : BufTy).Contents (Elt F)),
    binary main_arg1 main_v73 main_v78 (cmpi .eq : (⟨S8x128x128, .i32⟩ : BufTy).Contents (Elt F) → (⟨S8x128x128, .i32⟩ : BufTy).Contents (Elt F) → (⟨S8x128x128, .i1⟩ : BufTy).Contents (Elt F)),
    nullary main_c_22 (constantI S_ 32 2#32),
    unary main_c_22 main_v79 (broadcastInDim S8x128x128 ![] bcast_S_S8x128x128 : (⟨S_, .i32⟩ : BufTy).Contents (Elt F) → (⟨S8x128x128, .i32⟩ : BufTy).Contents (Elt F)),
    binary main_arg1 main_v79 main_v80 (cmpi .slt : (⟨S8x128x128, .i32⟩ : BufTy).Contents (Elt F) → (⟨S8x128x128, .i32⟩ : BufTy).Contents (Elt F) → (⟨S8x128x128, .i1⟩ : BufTy).Contents (Elt F)),
    binary main_v78 main_v80 main_v81 (andi : (⟨S8x128x128, .i1⟩ : BufTy).Contents (Elt F) → (⟨S8x128x128, .i1⟩ : BufTy).Contents (Elt F) → (⟨S8x128x128, .i1⟩ : BufTy).Contents (Elt F)),
    unary main_v81 main_v82 (uitofp .f32 : (⟨S8x128x128, .i1⟩ : BufTy).Contents (Elt F) → (⟨S8x128x128, .f32⟩ : BufTy).Contents (Elt F)),
    binary main_v77 main_v82 main_v83 (subf : (⟨S8x128x128, .f32⟩ : BufTy).Contents (Elt F) → (⟨S8x128x128, .f32⟩ : BufTy).Contents (Elt F) → (⟨S8x128x128, .f32⟩ : BufTy).Contents (Elt F)),
    binary main_v83 main_v83 main_v84 (mulf : (⟨S8x128x128, .f32⟩ : BufTy).Contents (Elt F) → (⟨S8x128x128, .f32⟩ : BufTy).Contents (Elt F) → (⟨S8x128x128, .f32⟩ : BufTy).Contents (Elt F)),
    binary main_v84 main_v29 main_v85 (mulf : (⟨S8x128x128, .f32⟩ : BufTy).Contents (Elt F) → (⟨S8x128x128, .f32⟩ : BufTy).Contents (Elt F) → (⟨S8x128x128, .f32⟩ : BufTy).Contents (Elt F)),
    nullary main_cst_23 (constant S_ .f32 0x00000000#32),
    binary main_v85 main_cst_23 main_v86 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_24 (constant S_ .f32 0x3F800000#32),
    unary main_cst_24 main_v87 (broadcastInDim S8 ![] bcast_S_S8 : (⟨S_, .f32⟩ : BufTy).Contents (Elt F) → (⟨S8, .f32⟩ : BufTy).Contents (Elt F)),
    binary main_v23 main_v87 main_v88 (maximumf : (⟨S8, .f32⟩ : BufTy).Contents (Elt F) → (⟨S8, .f32⟩ : BufTy).Contents (Elt F) → (⟨S8, .f32⟩ : BufTy).Contents (Elt F)),
    binary main_v86 main_v88 main_v89 (Host.divf : (⟨S8, .f32⟩ : BufTy).Contents (Elt F) → (⟨S8, .f32⟩ : BufTy).Contents (Elt F) → (⟨S8, .f32⟩ : BufTy).Contents (Elt F)),
    binary main_v70 main_v89 main_v90 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call11_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call11_v1) (extractStridedSlice S8x256x126x128 ![0, 0, 0, 0] · slices_S8x256x128x128_S8x256x126x128_0_0_0_0),
    TRef.binary (TRef.of (T := ⟨S8x256x2x128, .f32⟩) main_call11_v0) (TRef.of (T := ⟨S8x256x126x128, .f32⟩) main_call11_v1) (TRef.of (T := ⟨S8x256x128x128, .f32⟩) main_call11_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call11_v2) (TRef.of (T := ⟨S8x256x128x127, .f32⟩) main_call11_v3) (extractStridedSlice S8x256x128x127 ![0, 0, 0, 1] · slices_S8x256x128x128_S8x256x128x127_0_0_0_1),
    TRef.unary (TRef.of (T := ⟨S8x256x128x128, .f32⟩) main_call11_v2) (TRef.of (T := ⟨S8x256x128x1, .f32⟩) main_call11_v4) (extractStridedSlice S8x256x128x1 ![0, 0, 0, 0] · slices_S8x256x128x128_S8x256x128x1_0_0_0_0),
    TRef.binary (TRef.of (T := ⟨S8x256x128x127, .f32⟩) main_call11_v3) (TRef.of (T := ⟨S8x256x128x1, .f32⟩) main_call11_v4) (TRef.of (T := ⟨S8x256x128x128, .f32⟩) main_v91) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x2x128, .f32⟩) main_call12_v0) (extractStridedSlice S8x2x128 ![0, 126, 0] · slices_S8x128x128_S8x2x128_0_126_0),
    TRef.unary (TRef.of (T := ⟨S8x128x128, .f32⟩) main_v28) (TRef.of (T := ⟨S8x126x128, .f32⟩) main_call12_v1) (extractStridedSlice S8x126x128 ![0, 0, 0] · slices_S8x128x128_S8x126x128_0_0_0),
    TRef.binary (TRef.of (T := ⟨S8x2x128, .f32⟩) main_call12_v0) (TRef.of (T := ⟨S8x126x128, .f32⟩) main_call12_v1) (TRef.of (T := ⟨S8x128x128, .f32⟩) main_call12_v2) (fun a b => concatenate S8x128x128 1 [⟨S8x2x128, a⟩, ⟨S8x126x128, b⟩] concatenates_S8x2x128_S8x126x128_S8x128x128_d1),
    TRef.unary (TRef.of (T := ⟨S8x128x128, .f32⟩) main_call12_v2) (TRef.of (T := ⟨S8x128x127, .f32⟩) main_call12_v3) (extractStridedSlice S8x128x127 ![0, 0, 1] · slices_S8x128x128_S8x128x127_0_0_1),
    TRef.unary (TRef.of (T := ⟨S8x128x128, .f32⟩) main_call12_v2) (TRef.of (T := ⟨S8x128x1, .f32⟩) main_call12_v4) (extractStridedSlice S8x128x1 ![0, 0, 0] · slices_S8x128x128_S8x128x1_0_0_0),
    TRef.binary (TRef.of (T := ⟨S8x128x127, .f32⟩) main_call12_v3) (TRef.of (T := ⟨S8x128x1, .f32⟩) main_call12_v4) (TRef.of (T := ⟨S8x128x128, .f32⟩) main_v92) (fun a b => concatenate S8x128x128 2 [⟨S8x128x127, a⟩, ⟨S8x128x1, b⟩] concatenates_S8x128x127_S8x128x1_S8x128x128_d2) ]

set_option maxRecDepth 8192 in
set_option maxHeartbeats 4000000 in
/-- That part of the program is the straight line of those operations. -/
theorem part1_eq (c : Dev nD) : main_part1 (F := F) c = seq ops1 := rfl

/-- The host operations of the program's statements 121 to 180, in order (a called function's operations in its call's place). -/
abbrev ops2 : List (HloOp τ sig (Elt F)) :=
  [ TRef.unary (TRef.of (T := ⟨S8x128x128, .i32⟩) main_arg1) (TRef.of (T := ⟨S8x2x128, .i32⟩) main_call13_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call13_v1) (extractStridedSlice S8x126x128 ![0, 0, 0] · slices_S8x128x128_S8x126x128_0_0_0),
    TRef.binary (TRef.of (T := ⟨S8x2x128, .i32⟩) main_call13_v0) (TRef.of (T := ⟨S8x126x128, .i32⟩) main_call13_v1) (TRef.of (T := ⟨S8x128x128, .i32⟩) main_call13_v2) (fun a b => concatenate S8x128x128 1 [⟨S8x2x128, a⟩, ⟨S8x126x128, b⟩] concatenates_S8x2x128_S8x126x128_S8x128x128_d1),
    TRef.unary (TRef.of (T := ⟨S8x128x128, .i32⟩) main_call13_v2) (TRef.of (T := ⟨S8x128x127, .i32⟩) main_call13_v3) (extractStridedSlice S8x128x127 ![0, 0, 1] · slices_S8x128x128_S8x128x127_0_0_1),
    TRef.unary (TRef.of (T := ⟨S8x128x128, .i32⟩) main_call13_v2) (TRef.of (T := ⟨S8x128x1, .i32⟩) main_call13_v4) (extractStridedSlice S8x128x1 ![0, 0, 0] · slices_S8x128x128_S8x128x1_0_0_0),
    TRef.binary (TRef.of (T := ⟨S8x128x127, .i32⟩) main_call13_v3) (TRef.of (T := ⟨S8x128x1, .i32⟩) main_call13_v4) (TRef.of (T := ⟨S8x128x128, .i32⟩) main_v93) (fun a b => concatenate S8x128x128 2 [⟨S8x128x127, a⟩, ⟨S8x128x1, b⟩] concatenates_S8x128x127_S8x128x1_S8x128x128_d2),
    binary main_arg0 main_v91 main_v94 (mulf : (⟨S8x256x128x128, .f32⟩ : BufTy).Contents (Elt F) → (⟨S8x256x128x128, .f32⟩ : BufTy).Contents (Elt F) → (⟨S8x256x128x128, .f32⟩ : BufTy).Contents (Elt F)),
    nullary main_cst_25 (constant S_ .f32 0x00000000#32),
    binary main_v94 main_cst_25 main_v95 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v92 main_v96 (mulf : (⟨S8x128x128, .f32⟩ : BufTy).Contents (Elt F) → (⟨S8x128x128, .f32⟩ : BufTy).Contents (Elt F) → (⟨S8x128x128, .f32⟩ : BufTy).Contents (Elt F)),
    binary main_v95 main_v96 main_v97 (Host.divf : (⟨S8x128x128, .f32⟩ : BufTy).Contents (Elt F) → (⟨S8x128x128, .f32⟩ : BufTy).Contents (Elt F) → (⟨S8x128x128, .f32⟩ : BufTy).Contents (Elt F)),
    binary main_arg1 main_v93 main_v98 (cmpi .eq : (⟨S8x128x128, .i32⟩ : BufTy).Contents (Elt F) → (⟨S8x128x128, .i32⟩ : BufTy).Contents (Elt F) → (⟨S8x128x128, .i1⟩ : BufTy).Contents (Elt F)),
    nullary main_c_26 (constantI S_ 32 2#32),
    unary main_c_26 main_v99 (broadcastInDim S8x128x128 ![] bcast_S_S8x128x128 : (⟨S_, .i32⟩ : BufTy).Contents (Elt F) → (⟨S8x128x128, .i32⟩ : BufTy).Contents (Elt F)),
    binary main_arg1 main_v99 main_v100 (cmpi .slt : (⟨S8x128x128, .i32⟩ : BufTy).Contents (Elt F) → (⟨S8x128x128, .i32⟩ : BufTy).Contents (Elt F) → (⟨S8x128x128, .i1⟩ : BufTy).Contents (Elt F)),
    binary main_v98 main_v100 main_v101 (andi : (⟨S8x128x128, .i1⟩ : BufTy).Contents (Elt F) → (⟨S8x128x128, .i1⟩ : BufTy).Contents (Elt F) → (⟨S8x128x128, .i1⟩ : BufTy).Contents (Elt F)),
    unary main_v101 main_v102 (uitofp .f32 : (⟨S8x128x128, .i1⟩ : BufTy).Contents (Elt F) → (⟨S8x128x128, .f32⟩ : BufTy).Contents (Elt F)),
    binary main_v97 main_v102 main_v103 (subf : (⟨S8x128x128, .f32⟩ : BufTy).Contents (Elt F) → (⟨S8x128x128, .f32⟩ : BufTy).Contents (Elt F) → (⟨S8x128x128, .f32⟩ : BufTy).Contents (Elt F)),
    binary main_v103 main_v103 main_v104 (mulf : (⟨S8x128x128, .f32⟩ : BufTy).Contents (Elt F) → (⟨S8x128x128, .f32⟩ : BufTy).Contents (Elt F) → (⟨S8x128x128, .f32⟩ : BufTy).Contents (Elt F)),
    binary main_v104 main_v29 main_v105 (mulf : (⟨S8x128x128, .f32⟩ : BufTy).Contents (Elt F) → (⟨S8x128x128, .f32⟩ : BufTy).Contents (Elt F) → (⟨S8x128x128, .f32⟩ : BufTy).Contents (Elt F)),
    nullary main_cst_27 (constant S_ .f32 0x00000000#32),
    binary main_v105 main_cst_27 main_v106 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_28 (constant S_ .f32 0x3F800000#32),
    unary main_cst_28 main_v107 (broadcastInDim S8 ![] bcast_S_S8 : (⟨S_, .f32⟩ : BufTy).Contents (Elt F) → (⟨S8, .f32⟩ : BufTy).Contents (Elt F)),
    binary main_v23 main_v107 main_v108 (maximumf : (⟨S8, .f32⟩ : BufTy).Contents (Elt F) → (⟨S8, .f32⟩ : BufTy).Contents (Elt F) → (⟨S8, .f32⟩ : BufTy).Contents (Elt F)),
    binary main_v106 main_v108 main_v109 (Host.divf : (⟨S8, .f32⟩ : BufTy).Contents (Elt F) → (⟨S8, .f32⟩ : BufTy).Contents (Elt F) → (⟨S8, .f32⟩ : BufTy).Contents (Elt F)),
    binary main_v90 main_v109 main_v110 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call14_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call14_v1) (extractStridedSlice S8x256x126x128 ![0, 0, 0, 0] · slices_S8x256x128x128_S8x256x126x128_0_0_0_0),
    TRef.binary (TRef.of (T := ⟨S8x256x2x128, .f32⟩) main_call14_v0) (TRef.of (T := ⟨S8x256x126x128, .f32⟩) main_call14_v1) (TRef.of (T := ⟨S8x256x128x128, .f32⟩) main_call14_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call14_v2) (TRef.of (T := ⟨S8x256x128x126, .f32⟩) main_call14_v3) (extractStridedSlice S8x256x128x126 ![0, 0, 0, 2] · slices_S8x256x128x128_S8x256x128x126_0_0_0_2),
    TRef.unary (TRef.of (T := ⟨S8x256x128x128, .f32⟩) main_call14_v2) (TRef.of (T := ⟨S8x256x128x2, .f32⟩) main_call14_v4) (extractStridedSlice S8x256x128x2 ![0, 0, 0, 0] · slices_S8x256x128x128_S8x256x128x2_0_0_0_0),
    TRef.binary (TRef.of (T := ⟨S8x256x128x126, .f32⟩) main_call14_v3) (TRef.of (T := ⟨S8x256x128x2, .f32⟩) main_call14_v4) (TRef.of (T := ⟨S8x256x128x128, .f32⟩) main_v111) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x2x128, .f32⟩) main_call15_v0) (extractStridedSlice S8x2x128 ![0, 126, 0] · slices_S8x128x128_S8x2x128_0_126_0),
    TRef.unary (TRef.of (T := ⟨S8x128x128, .f32⟩) main_v28) (TRef.of (T := ⟨S8x126x128, .f32⟩) main_call15_v1) (extractStridedSlice S8x126x128 ![0, 0, 0] · slices_S8x128x128_S8x126x128_0_0_0),
    TRef.binary (TRef.of (T := ⟨S8x2x128, .f32⟩) main_call15_v0) (TRef.of (T := ⟨S8x126x128, .f32⟩) main_call15_v1) (TRef.of (T := ⟨S8x128x128, .f32⟩) main_call15_v2) (fun a b => concatenate S8x128x128 1 [⟨S8x2x128, a⟩, ⟨S8x126x128, b⟩] concatenates_S8x2x128_S8x126x128_S8x128x128_d1),
    TRef.unary (TRef.of (T := ⟨S8x128x128, .f32⟩) main_call15_v2) (TRef.of (T := ⟨S8x128x126, .f32⟩) main_call15_v3) (extractStridedSlice S8x128x126 ![0, 0, 2] · slices_S8x128x128_S8x128x126_0_0_2),
    TRef.unary (TRef.of (T := ⟨S8x128x128, .f32⟩) main_call15_v2) (TRef.of (T := ⟨S8x128x2, .f32⟩) main_call15_v4) (extractStridedSlice S8x128x2 ![0, 0, 0] · slices_S8x128x128_S8x128x2_0_0_0),
    TRef.binary (TRef.of (T := ⟨S8x128x126, .f32⟩) main_call15_v3) (TRef.of (T := ⟨S8x128x2, .f32⟩) main_call15_v4) (TRef.of (T := ⟨S8x128x128, .f32⟩) main_v112) (fun a b => concatenate S8x128x128 2 [⟨S8x128x126, a⟩, ⟨S8x128x2, b⟩] concatenates_S8x128x126_S8x128x2_S8x128x128_d2),
    TRef.unary (TRef.of (T := ⟨S8x128x128, .i32⟩) main_arg1) (TRef.of (T := ⟨S8x2x128, .i32⟩) main_call16_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call16_v1) (extractStridedSlice S8x126x128 ![0, 0, 0] · slices_S8x128x128_S8x126x128_0_0_0),
    TRef.binary (TRef.of (T := ⟨S8x2x128, .i32⟩) main_call16_v0) (TRef.of (T := ⟨S8x126x128, .i32⟩) main_call16_v1) (TRef.of (T := ⟨S8x128x128, .i32⟩) main_call16_v2) (fun a b => concatenate S8x128x128 1 [⟨S8x2x128, a⟩, ⟨S8x126x128, b⟩] concatenates_S8x2x128_S8x126x128_S8x128x128_d1),
    TRef.unary (TRef.of (T := ⟨S8x128x128, .i32⟩) main_call16_v2) (TRef.of (T := ⟨S8x128x126, .i32⟩) main_call16_v3) (extractStridedSlice S8x128x126 ![0, 0, 2] · slices_S8x128x128_S8x128x126_0_0_2),
    TRef.unary (TRef.of (T := ⟨S8x128x128, .i32⟩) main_call16_v2) (TRef.of (T := ⟨S8x128x2, .i32⟩) main_call16_v4) (extractStridedSlice S8x128x2 ![0, 0, 0] · slices_S8x128x128_S8x128x2_0_0_0),
    TRef.binary (TRef.of (T := ⟨S8x128x126, .i32⟩) main_call16_v3) (TRef.of (T := ⟨S8x128x2, .i32⟩) main_call16_v4) (TRef.of (T := ⟨S8x128x128, .i32⟩) main_v113) (fun a b => concatenate S8x128x128 2 [⟨S8x128x126, a⟩, ⟨S8x128x2, b⟩] concatenates_S8x128x126_S8x128x2_S8x128x128_d2),
    binary main_arg0 main_v111 main_v114 (mulf : (⟨S8x256x128x128, .f32⟩ : BufTy).Contents (Elt F) → (⟨S8x256x128x128, .f32⟩ : BufTy).Contents (Elt F) → (⟨S8x256x128x128, .f32⟩ : BufTy).Contents (Elt F)),
    nullary main_cst_29 (constant S_ .f32 0x00000000#32),
    binary main_v114 main_cst_29 main_v115 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v112 main_v116 (mulf : (⟨S8x128x128, .f32⟩ : BufTy).Contents (Elt F) → (⟨S8x128x128, .f32⟩ : BufTy).Contents (Elt F) → (⟨S8x128x128, .f32⟩ : BufTy).Contents (Elt F)),
    binary main_v115 main_v116 main_v117 (Host.divf : (⟨S8x128x128, .f32⟩ : BufTy).Contents (Elt F) → (⟨S8x128x128, .f32⟩ : BufTy).Contents (Elt F) → (⟨S8x128x128, .f32⟩ : BufTy).Contents (Elt F)),
    binary main_arg1 main_v113 main_v118 (cmpi .eq : (⟨S8x128x128, .i32⟩ : BufTy).Contents (Elt F) → (⟨S8x128x128, .i32⟩ : BufTy).Contents (Elt F) → (⟨S8x128x128, .i1⟩ : BufTy).Contents (Elt F)),
    nullary main_c_30 (constantI S_ 32 2#32),
    unary main_c_30 main_v119 (broadcastInDim S8x128x128 ![] bcast_S_S8x128x128 : (⟨S_, .i32⟩ : BufTy).Contents (Elt F) → (⟨S8x128x128, .i32⟩ : BufTy).Contents (Elt F)),
    binary main_arg1 main_v119 main_v120 (cmpi .slt : (⟨S8x128x128, .i32⟩ : BufTy).Contents (Elt F) → (⟨S8x128x128, .i32⟩ : BufTy).Contents (Elt F) → (⟨S8x128x128, .i1⟩ : BufTy).Contents (Elt F)),
    binary main_v118 main_v120 main_v121 (andi : (⟨S8x128x128, .i1⟩ : BufTy).Contents (Elt F) → (⟨S8x128x128, .i1⟩ : BufTy).Contents (Elt F) → (⟨S8x128x128, .i1⟩ : BufTy).Contents (Elt F)),
    unary main_v121 main_v122 (uitofp .f32 : (⟨S8x128x128, .i1⟩ : BufTy).Contents (Elt F) → (⟨S8x128x128, .f32⟩ : BufTy).Contents (Elt F)),
    binary main_v117 main_v122 main_v123 (subf : (⟨S8x128x128, .f32⟩ : BufTy).Contents (Elt F) → (⟨S8x128x128, .f32⟩ : BufTy).Contents (Elt F) → (⟨S8x128x128, .f32⟩ : BufTy).Contents (Elt F)),
    binary main_v123 main_v123 main_v124 (mulf : (⟨S8x128x128, .f32⟩ : BufTy).Contents (Elt F) → (⟨S8x128x128, .f32⟩ : BufTy).Contents (Elt F) → (⟨S8x128x128, .f32⟩ : BufTy).Contents (Elt F)),
    binary main_v124 main_v29 main_v125 (mulf : (⟨S8x128x128, .f32⟩ : BufTy).Contents (Elt F) → (⟨S8x128x128, .f32⟩ : BufTy).Contents (Elt F) → (⟨S8x128x128, .f32⟩ : BufTy).Contents (Elt F)),
    nullary main_cst_31 (constant S_ .f32 0x00000000#32),
    binary main_v125 main_cst_31 main_v126 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_32 (constant S_ .f32 0x3F800000#32),
    unary main_cst_32 main_v127 (broadcastInDim S8 ![] bcast_S_S8 : (⟨S_, .f32⟩ : BufTy).Contents (Elt F) → (⟨S8, .f32⟩ : BufTy).Contents (Elt F)),
    binary main_v23 main_v127 main_v128 (maximumf : (⟨S8, .f32⟩ : BufTy).Contents (Elt F) → (⟨S8, .f32⟩ : BufTy).Contents (Elt F) → (⟨S8, .f32⟩ : BufTy).Contents (Elt F)),
    binary main_v126 main_v128 main_v129 (Host.divf : (⟨S8, .f32⟩ : BufTy).Contents (Elt F) → (⟨S8, .f32⟩ : BufTy).Contents (Elt F) → (⟨S8, .f32⟩ : BufTy).Contents (Elt F)),
    binary main_v110 main_v129 main_v130 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call17_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call17_v1) (extractStridedSlice S8x256x127x128 ![0, 0, 0, 0] · slices_S8x256x128x128_S8x256x127x128_0_0_0_0),
    TRef.binary (TRef.of (T := ⟨S8x256x1x128, .f32⟩) main_call17_v0) (TRef.of (T := ⟨S8x256x127x128, .f32⟩) main_call17_v1) (TRef.of (T := ⟨S8x256x128x128, .f32⟩) main_call17_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call17_v2) (TRef.of (T := ⟨S8x256x128x2, .f32⟩) main_call17_v3) (extractStridedSlice S8x256x128x2 ![0, 0, 0, 126] · slices_S8x256x128x128_S8x256x128x2_0_0_0_126),
    TRef.unary (TRef.of (T := ⟨S8x256x128x128, .f32⟩) main_call17_v2) (TRef.of (T := ⟨S8x256x128x126, .f32⟩) main_call17_v4) (extractStridedSlice S8x256x128x126 ![0, 0, 0, 0] · slices_S8x256x128x128_S8x256x128x126_0_0_0_0),
    TRef.binary (TRef.of (T := ⟨S8x256x128x2, .f32⟩) main_call17_v3) (TRef.of (T := ⟨S8x256x128x126, .f32⟩) main_call17_v4) (TRef.of (T := ⟨S8x256x128x128, .f32⟩) main_v131) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x1x128, .f32⟩) main_call18_v0) (extractStridedSlice S8x1x128 ![0, 127, 0] · slices_S8x128x128_S8x1x128_0_127_0),
    TRef.unary (TRef.of (T := ⟨S8x128x128, .f32⟩) main_v28) (TRef.of (T := ⟨S8x127x128, .f32⟩) main_call18_v1) (extractStridedSlice S8x127x128 ![0, 0, 0] · slices_S8x128x128_S8x127x128_0_0_0),
    TRef.binary (TRef.of (T := ⟨S8x1x128, .f32⟩) main_call18_v0) (TRef.of (T := ⟨S8x127x128, .f32⟩) main_call18_v1) (TRef.of (T := ⟨S8x128x128, .f32⟩) main_call18_v2) (fun a b => concatenate S8x128x128 1 [⟨S8x1x128, a⟩, ⟨S8x127x128, b⟩] concatenates_S8x1x128_S8x127x128_S8x128x128_d1),
    TRef.unary (TRef.of (T := ⟨S8x128x128, .f32⟩) main_call18_v2) (TRef.of (T := ⟨S8x128x2, .f32⟩) main_call18_v3) (extractStridedSlice S8x128x2 ![0, 0, 126] · slices_S8x128x128_S8x128x2_0_0_126),
    TRef.unary (TRef.of (T := ⟨S8x128x128, .f32⟩) main_call18_v2) (TRef.of (T := ⟨S8x128x126, .f32⟩) main_call18_v4) (extractStridedSlice S8x128x126 ![0, 0, 0] · slices_S8x128x128_S8x128x126_0_0_0),
    TRef.binary (TRef.of (T := ⟨S8x128x2, .f32⟩) main_call18_v3) (TRef.of (T := ⟨S8x128x126, .f32⟩) main_call18_v4) (TRef.of (T := ⟨S8x128x128, .f32⟩) main_v132) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x1x128, .i32⟩) main_call19_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call19_v1) (extractStridedSlice S8x127x128 ![0, 0, 0] · slices_S8x128x128_S8x127x128_0_0_0),
    TRef.binary (TRef.of (T := ⟨S8x1x128, .i32⟩) main_call19_v0) (TRef.of (T := ⟨S8x127x128, .i32⟩) main_call19_v1) (TRef.of (T := ⟨S8x128x128, .i32⟩) main_call19_v2) (fun a b => concatenate S8x128x128 1 [⟨S8x1x128, a⟩, ⟨S8x127x128, b⟩] concatenates_S8x1x128_S8x127x128_S8x128x128_d1),
    TRef.unary (TRef.of (T := ⟨S8x128x128, .i32⟩) main_call19_v2) (TRef.of (T := ⟨S8x128x2, .i32⟩) main_call19_v3) (extractStridedSlice S8x128x2 ![0, 0, 126] · slices_S8x128x128_S8x128x2_0_0_126),
    TRef.unary (TRef.of (T := ⟨S8x128x128, .i32⟩) main_call19_v2) (TRef.of (T := ⟨S8x128x126, .i32⟩) main_call19_v4) (extractStridedSlice S8x128x126 ![0, 0, 0] · slices_S8x128x128_S8x128x126_0_0_0),
    TRef.binary (TRef.of (T := ⟨S8x128x2, .i32⟩) main_call19_v3) (TRef.of (T := ⟨S8x128x126, .i32⟩) main_call19_v4) (TRef.of (T := ⟨S8x128x128, .i32⟩) main_v133) (fun a b => concatenate S8x128x128 2 [⟨S8x128x2, a⟩, ⟨S8x128x126, b⟩] concatenates_S8x128x2_S8x128x126_S8x128x128_d2),
    binary main_arg0 main_v131 main_v134 (mulf : (⟨S8x256x128x128, .f32⟩ : BufTy).Contents (Elt F) → (⟨S8x256x128x128, .f32⟩ : BufTy).Contents (Elt F) → (⟨S8x256x128x128, .f32⟩ : BufTy).Contents (Elt F)),
    nullary main_cst_33 (constant S_ .f32 0x00000000#32),
    binary main_v134 main_cst_33 main_v135 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v132 main_v136 (mulf : (⟨S8x128x128, .f32⟩ : BufTy).Contents (Elt F) → (⟨S8x128x128, .f32⟩ : BufTy).Contents (Elt F) → (⟨S8x128x128, .f32⟩ : BufTy).Contents (Elt F)),
    binary main_v135 main_v136 main_v137 (Host.divf : (⟨S8x128x128, .f32⟩ : BufTy).Contents (Elt F) → (⟨S8x128x128, .f32⟩ : BufTy).Contents (Elt F) → (⟨S8x128x128, .f32⟩ : BufTy).Contents (Elt F)),
    binary main_arg1 main_v133 main_v138 (cmpi .eq : (⟨S8x128x128, .i32⟩ : BufTy).Contents (Elt F) → (⟨S8x128x128, .i32⟩ : BufTy).Contents (Elt F) → (⟨S8x128x128, .i1⟩ : BufTy).Contents (Elt F)),
    nullary main_c_34 (constantI S_ 32 2#32),
    unary main_c_34 main_v139 (broadcastInDim S8x128x128 ![] bcast_S_S8x128x128 : (⟨S_, .i32⟩ : BufTy).Contents (Elt F) → (⟨S8x128x128, .i32⟩ : BufTy).Contents (Elt F)),
    binary main_arg1 main_v139 main_v140 (cmpi .slt : (⟨S8x128x128, .i32⟩ : BufTy).Contents (Elt F) → (⟨S8x128x128, .i32⟩ : BufTy).Contents (Elt F) → (⟨S8x128x128, .i1⟩ : BufTy).Contents (Elt F)),
    binary main_v138 main_v140 main_v141 (andi : (⟨S8x128x128, .i1⟩ : BufTy).Contents (Elt F) → (⟨S8x128x128, .i1⟩ : BufTy).Contents (Elt F) → (⟨S8x128x128, .i1⟩ : BufTy).Contents (Elt F)),
    unary main_v141 main_v142 (uitofp .f32 : (⟨S8x128x128, .i1⟩ : BufTy).Contents (Elt F) → (⟨S8x128x128, .f32⟩ : BufTy).Contents (Elt F)) ]

set_option maxRecDepth 8192 in
set_option maxHeartbeats 4000000 in
/-- That part of the program is the straight line of those operations. -/
theorem part2_eq (c : Dev nD) : main_part2 (F := F) c = seq ops2 := rfl

/-- The host operations of the program's statements 181 to 240, in order (a called function's operations in its call's place). -/
abbrev ops3 : List (HloOp τ sig (Elt F)) :=
  [ binary main_v137 main_v142 main_v143 (subf : (⟨S8x128x128, .f32⟩ : BufTy).Contents (Elt F) → (⟨S8x128x128, .f32⟩ : BufTy).Contents (Elt F) → (⟨S8x128x128, .f32⟩ : BufTy).Contents (Elt F)),
    binary main_v143 main_v143 main_v144 (mulf : (⟨S8x128x128, .f32⟩ : BufTy).Contents (Elt F) → (⟨S8x128x128, .f32⟩ : BufTy).Contents (Elt F) → (⟨S8x128x128, .f32⟩ : BufTy).Contents (Elt F)),
    binary main_v144 main_v29 main_v145 (mulf : (⟨S8x128x128, .f32⟩ : BufTy).Contents (Elt F) → (⟨S8x128x128, .f32⟩ : BufTy).Contents (Elt F) → (⟨S8x128x128, .f32⟩ : BufTy).Contents (Elt F)),
    nullary main_cst_35 (constant S_ .f32 0x00000000#32),
    binary main_v145 main_cst_35 main_v146 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_36 (constant S_ .f32 0x3F800000#32),
    unary main_cst_36 main_v147 (broadcastInDim S8 ![] bcast_S_S8 : (⟨S_, .f32⟩ : BufTy).Contents (Elt F) → (⟨S8, .f32⟩ : BufTy).Contents (Elt F)),
    binary main_v23 main_v147 main_v148 (maximumf : (⟨S8, .f32⟩ : BufTy).Contents (Elt F) → (⟨S8, .f32⟩ : BufTy).Contents (Elt F) → (⟨S8, .f32⟩ : BufTy).Contents (Elt F)),
    binary main_v146 main_v148 main_v149 (Host.divf : (⟨S8, .f32⟩ : BufTy).Contents (Elt F) → (⟨S8, .f32⟩ : BufTy).Contents (Elt F) → (⟨S8, .f32⟩ : BufTy).Contents (Elt F)),
    binary main_v130 main_v149 main_v150 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call20_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call20_v1) (extractStridedSlice S8x256x127x128 ![0, 0, 0, 0] · slices_S8x256x128x128_S8x256x127x128_0_0_0_0),
    TRef.binary (TRef.of (T := ⟨S8x256x1x128, .f32⟩) main_call20_v0) (TRef.of (T := ⟨S8x256x127x128, .f32⟩) main_call20_v1) (TRef.of (T := ⟨S8x256x128x128, .f32⟩) main_call20_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call20_v2) (TRef.of (T := ⟨S8x256x128x1, .f32⟩) main_call20_v3) (extractStridedSlice S8x256x128x1 ![0, 0, 0, 127] · slices_S8x256x128x128_S8x256x128x1_0_0_0_127),
    TRef.unary (TRef.of (T := ⟨S8x256x128x128, .f32⟩) main_call20_v2) (TRef.of (T := ⟨S8x256x128x127, .f32⟩) main_call20_v4) (extractStridedSlice S8x256x128x127 ![0, 0, 0, 0] · slices_S8x256x128x128_S8x256x128x127_0_0_0_0),
    TRef.binary (TRef.of (T := ⟨S8x256x128x1, .f32⟩) main_call20_v3) (TRef.of (T := ⟨S8x256x128x127, .f32⟩) main_call20_v4) (TRef.of (T := ⟨S8x256x128x128, .f32⟩) main_v151) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x1x128, .f32⟩) main_call21_v0) (extractStridedSlice S8x1x128 ![0, 127, 0] · slices_S8x128x128_S8x1x128_0_127_0),
    TRef.unary (TRef.of (T := ⟨S8x128x128, .f32⟩) main_v28) (TRef.of (T := ⟨S8x127x128, .f32⟩) main_call21_v1) (extractStridedSlice S8x127x128 ![0, 0, 0] · slices_S8x128x128_S8x127x128_0_0_0),
    TRef.binary (TRef.of (T := ⟨S8x1x128, .f32⟩) main_call21_v0) (TRef.of (T := ⟨S8x127x128, .f32⟩) main_call21_v1) (TRef.of (T := ⟨S8x128x128, .f32⟩) main_call21_v2) (fun a b => concatenate S8x128x128 1 [⟨S8x1x128, a⟩, ⟨S8x127x128, b⟩] concatenates_S8x1x128_S8x127x128_S8x128x128_d1),
    TRef.unary (TRef.of (T := ⟨S8x128x128, .f32⟩) main_call21_v2) (TRef.of (T := ⟨S8x128x1, .f32⟩) main_call21_v3) (extractStridedSlice S8x128x1 ![0, 0, 127] · slices_S8x128x128_S8x128x1_0_0_127),
    TRef.unary (TRef.of (T := ⟨S8x128x128, .f32⟩) main_call21_v2) (TRef.of (T := ⟨S8x128x127, .f32⟩) main_call21_v4) (extractStridedSlice S8x128x127 ![0, 0, 0] · slices_S8x128x128_S8x128x127_0_0_0),
    TRef.binary (TRef.of (T := ⟨S8x128x1, .f32⟩) main_call21_v3) (TRef.of (T := ⟨S8x128x127, .f32⟩) main_call21_v4) (TRef.of (T := ⟨S8x128x128, .f32⟩) main_v152) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x1x128, .i32⟩) main_call22_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call22_v1) (extractStridedSlice S8x127x128 ![0, 0, 0] · slices_S8x128x128_S8x127x128_0_0_0),
    TRef.binary (TRef.of (T := ⟨S8x1x128, .i32⟩) main_call22_v0) (TRef.of (T := ⟨S8x127x128, .i32⟩) main_call22_v1) (TRef.of (T := ⟨S8x128x128, .i32⟩) main_call22_v2) (fun a b => concatenate S8x128x128 1 [⟨S8x1x128, a⟩, ⟨S8x127x128, b⟩] concatenates_S8x1x128_S8x127x128_S8x128x128_d1),
    TRef.unary (TRef.of (T := ⟨S8x128x128, .i32⟩) main_call22_v2) (TRef.of (T := ⟨S8x128x1, .i32⟩) main_call22_v3) (extractStridedSlice S8x128x1 ![0, 0, 127] · slices_S8x128x128_S8x128x1_0_0_127),
    TRef.unary (TRef.of (T := ⟨S8x128x128, .i32⟩) main_call22_v2) (TRef.of (T := ⟨S8x128x127, .i32⟩) main_call22_v4) (extractStridedSlice S8x128x127 ![0, 0, 0] · slices_S8x128x128_S8x128x127_0_0_0),
    TRef.binary (TRef.of (T := ⟨S8x128x1, .i32⟩) main_call22_v3) (TRef.of (T := ⟨S8x128x127, .i32⟩) main_call22_v4) (TRef.of (T := ⟨S8x128x128, .i32⟩) main_v153) (fun a b => concatenate S8x128x128 2 [⟨S8x128x1, a⟩, ⟨S8x128x127, b⟩] concatenates_S8x128x1_S8x128x127_S8x128x128_d2),
    binary main_arg0 main_v151 main_v154 (mulf : (⟨S8x256x128x128, .f32⟩ : BufTy).Contents (Elt F) → (⟨S8x256x128x128, .f32⟩ : BufTy).Contents (Elt F) → (⟨S8x256x128x128, .f32⟩ : BufTy).Contents (Elt F)),
    nullary main_cst_37 (constant S_ .f32 0x00000000#32),
    binary main_v154 main_cst_37 main_v155 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v152 main_v156 (mulf : (⟨S8x128x128, .f32⟩ : BufTy).Contents (Elt F) → (⟨S8x128x128, .f32⟩ : BufTy).Contents (Elt F) → (⟨S8x128x128, .f32⟩ : BufTy).Contents (Elt F)),
    binary main_v155 main_v156 main_v157 (Host.divf : (⟨S8x128x128, .f32⟩ : BufTy).Contents (Elt F) → (⟨S8x128x128, .f32⟩ : BufTy).Contents (Elt F) → (⟨S8x128x128, .f32⟩ : BufTy).Contents (Elt F)),
    binary main_arg1 main_v153 main_v158 (cmpi .eq : (⟨S8x128x128, .i32⟩ : BufTy).Contents (Elt F) → (⟨S8x128x128, .i32⟩ : BufTy).Contents (Elt F) → (⟨S8x128x128, .i1⟩ : BufTy).Contents (Elt F)),
    nullary main_c_38 (constantI S_ 32 2#32),
    unary main_c_38 main_v159 (broadcastInDim S8x128x128 ![] bcast_S_S8x128x128 : (⟨S_, .i32⟩ : BufTy).Contents (Elt F) → (⟨S8x128x128, .i32⟩ : BufTy).Contents (Elt F)),
    binary main_arg1 main_v159 main_v160 (cmpi .slt : (⟨S8x128x128, .i32⟩ : BufTy).Contents (Elt F) → (⟨S8x128x128, .i32⟩ : BufTy).Contents (Elt F) → (⟨S8x128x128, .i1⟩ : BufTy).Contents (Elt F)),
    binary main_v158 main_v160 main_v161 (andi : (⟨S8x128x128, .i1⟩ : BufTy).Contents (Elt F) → (⟨S8x128x128, .i1⟩ : BufTy).Contents (Elt F) → (⟨S8x128x128, .i1⟩ : BufTy).Contents (Elt F)),
    unary main_v161 main_v162 (uitofp .f32 : (⟨S8x128x128, .i1⟩ : BufTy).Contents (Elt F) → (⟨S8x128x128, .f32⟩ : BufTy).Contents (Elt F)),
    binary main_v157 main_v162 main_v163 (subf : (⟨S8x128x128, .f32⟩ : BufTy).Contents (Elt F) → (⟨S8x128x128, .f32⟩ : BufTy).Contents (Elt F) → (⟨S8x128x128, .f32⟩ : BufTy).Contents (Elt F)),
    binary main_v163 main_v163 main_v164 (mulf : (⟨S8x128x128, .f32⟩ : BufTy).Contents (Elt F) → (⟨S8x128x128, .f32⟩ : BufTy).Contents (Elt F) → (⟨S8x128x128, .f32⟩ : BufTy).Contents (Elt F)),
    binary main_v164 main_v29 main_v165 (mulf : (⟨S8x128x128, .f32⟩ : BufTy).Contents (Elt F) → (⟨S8x128x128, .f32⟩ : BufTy).Contents (Elt F) → (⟨S8x128x128, .f32⟩ : BufTy).Contents (Elt F)),
    nullary main_cst_39 (constant S_ .f32 0x00000000#32),
    binary main_v165 main_cst_39 main_v166 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_40 (constant S_ .f32 0x3F800000#32),
    unary main_cst_40 main_v167 (broadcastInDim S8 ![] bcast_S_S8 : (⟨S_, .f32⟩ : BufTy).Contents (Elt F) → (⟨S8, .f32⟩ : BufTy).Contents (Elt F)),
    binary main_v23 main_v167 main_v168 (maximumf : (⟨S8, .f32⟩ : BufTy).Contents (Elt F) → (⟨S8, .f32⟩ : BufTy).Contents (Elt F) → (⟨S8, .f32⟩ : BufTy).Contents (Elt F)),
    binary main_v166 main_v168 main_v169 (Host.divf : (⟨S8, .f32⟩ : BufTy).Contents (Elt F) → (⟨S8, .f32⟩ : BufTy).Contents (Elt F) → (⟨S8, .f32⟩ : BufTy).Contents (Elt F)),
    binary main_v150 main_v169 main_v170 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call23_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call23_v1) (extractStridedSlice S8x256x127x128 ![0, 0, 0, 0] · slices_S8x256x128x128_S8x256x127x128_0_0_0_0),
    TRef.binary (TRef.of (T := ⟨S8x256x1x128, .f32⟩) main_call23_v0) (TRef.of (T := ⟨S8x256x127x128, .f32⟩) main_call23_v1) (TRef.of (T := ⟨S8x256x128x128, .f32⟩) main_call23_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call23_v2) (TRef.of (T := ⟨S8x256x128x128, .f32⟩) main_call23_v3) (extractStridedSlice S8x256x128x128 ![0, 0, 0, 0] · slices_S8x256x128x128_S8x256x128x128_0_0_0_0),
    TRef.unary (TRef.of (T := ⟨S8x256x128x128, .f32⟩) main_call23_v2) (TRef.of (T := ⟨S8x256x128x0, .f32⟩) main_call23_v4) (extractStridedSlice S8x256x128x0 ![0, 0, 0, 0] · slices_S8x256x128x128_S8x256x128x0_0_0_0_0),
    TRef.binary (TRef.of (T := ⟨S8x256x128x128, .f32⟩) main_call23_v3) (TRef.of (T := ⟨S8x256x128x0, .f32⟩) main_call23_v4) (TRef.of (T := ⟨S8x256x128x128, .f32⟩) main_v171) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x1x128, .f32⟩) main_call24_v0) (extractStridedSlice S8x1x128 ![0, 127, 0] · slices_S8x128x128_S8x1x128_0_127_0),
    TRef.unary (TRef.of (T := ⟨S8x128x128, .f32⟩) main_v28) (TRef.of (T := ⟨S8x127x128, .f32⟩) main_call24_v1) (extractStridedSlice S8x127x128 ![0, 0, 0] · slices_S8x128x128_S8x127x128_0_0_0),
    TRef.binary (TRef.of (T := ⟨S8x1x128, .f32⟩) main_call24_v0) (TRef.of (T := ⟨S8x127x128, .f32⟩) main_call24_v1) (TRef.of (T := ⟨S8x128x128, .f32⟩) main_call24_v2) (fun a b => concatenate S8x128x128 1 [⟨S8x1x128, a⟩, ⟨S8x127x128, b⟩] concatenates_S8x1x128_S8x127x128_S8x128x128_d1),
    TRef.unary (TRef.of (T := ⟨S8x128x128, .f32⟩) main_call24_v2) (TRef.of (T := ⟨S8x128x128, .f32⟩) main_call24_v3) (extractStridedSlice S8x128x128 ![0, 0, 0] · slices_S8x128x128_S8x128x128_0_0_0),
    TRef.unary (TRef.of (T := ⟨S8x128x128, .f32⟩) main_call24_v2) (TRef.of (T := ⟨S8x128x0, .f32⟩) main_call24_v4) (extractStridedSlice S8x128x0 ![0, 0, 0] · slices_S8x128x128_S8x128x0_0_0_0),
    TRef.binary (TRef.of (T := ⟨S8x128x128, .f32⟩) main_call24_v3) (TRef.of (T := ⟨S8x128x0, .f32⟩) main_call24_v4) (TRef.of (T := ⟨S8x128x128, .f32⟩) main_v172) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x1x128, .i32⟩) main_call25_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call25_v1) (extractStridedSlice S8x127x128 ![0, 0, 0] · slices_S8x128x128_S8x127x128_0_0_0),
    TRef.binary (TRef.of (T := ⟨S8x1x128, .i32⟩) main_call25_v0) (TRef.of (T := ⟨S8x127x128, .i32⟩) main_call25_v1) (TRef.of (T := ⟨S8x128x128, .i32⟩) main_call25_v2) (fun a b => concatenate S8x128x128 1 [⟨S8x1x128, a⟩, ⟨S8x127x128, b⟩] concatenates_S8x1x128_S8x127x128_S8x128x128_d1),
    TRef.unary (TRef.of (T := ⟨S8x128x128, .i32⟩) main_call25_v2) (TRef.of (T := ⟨S8x128x128, .i32⟩) main_call25_v3) (extractStridedSlice S8x128x128 ![0, 0, 0] · slices_S8x128x128_S8x128x128_0_0_0),
    TRef.unary (TRef.of (T := ⟨S8x128x128, .i32⟩) main_call25_v2) (TRef.of (T := ⟨S8x128x0, .i32⟩) main_call25_v4) (extractStridedSlice S8x128x0 ![0, 0, 0] · slices_S8x128x128_S8x128x0_0_0_0),
    TRef.binary (TRef.of (T := ⟨S8x128x128, .i32⟩) main_call25_v3) (TRef.of (T := ⟨S8x128x0, .i32⟩) main_call25_v4) (TRef.of (T := ⟨S8x128x128, .i32⟩) main_v173) (fun a b => concatenate S8x128x128 2 [⟨S8x128x128, a⟩, ⟨S8x128x0, b⟩] concatenates_S8x128x128_S8x128x0_S8x128x128_d2),
    binary main_arg0 main_v171 main_v174 (mulf : (⟨S8x256x128x128, .f32⟩ : BufTy).Contents (Elt F) → (⟨S8x256x128x128, .f32⟩ : BufTy).Contents (Elt F) → (⟨S8x256x128x128, .f32⟩ : BufTy).Contents (Elt F)),
    nullary main_cst_41 (constant S_ .f32 0x00000000#32),
    binary main_v174 main_cst_41 main_v175 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v172 main_v176 (mulf : (⟨S8x128x128, .f32⟩ : BufTy).Contents (Elt F) → (⟨S8x128x128, .f32⟩ : BufTy).Contents (Elt F) → (⟨S8x128x128, .f32⟩ : BufTy).Contents (Elt F)),
    binary main_v175 main_v176 main_v177 (Host.divf : (⟨S8x128x128, .f32⟩ : BufTy).Contents (Elt F) → (⟨S8x128x128, .f32⟩ : BufTy).Contents (Elt F) → (⟨S8x128x128, .f32⟩ : BufTy).Contents (Elt F)),
    binary main_arg1 main_v173 main_v178 (cmpi .eq : (⟨S8x128x128, .i32⟩ : BufTy).Contents (Elt F) → (⟨S8x128x128, .i32⟩ : BufTy).Contents (Elt F) → (⟨S8x128x128, .i1⟩ : BufTy).Contents (Elt F)),
    nullary main_c_42 (constantI S_ 32 2#32),
    unary main_c_42 main_v179 (broadcastInDim S8x128x128 ![] bcast_S_S8x128x128 : (⟨S_, .i32⟩ : BufTy).Contents (Elt F) → (⟨S8x128x128, .i32⟩ : BufTy).Contents (Elt F)),
    binary main_arg1 main_v179 main_v180 (cmpi .slt : (⟨S8x128x128, .i32⟩ : BufTy).Contents (Elt F) → (⟨S8x128x128, .i32⟩ : BufTy).Contents (Elt F) → (⟨S8x128x128, .i1⟩ : BufTy).Contents (Elt F)),
    binary main_v178 main_v180 main_v181 (andi : (⟨S8x128x128, .i1⟩ : BufTy).Contents (Elt F) → (⟨S8x128x128, .i1⟩ : BufTy).Contents (Elt F) → (⟨S8x128x128, .i1⟩ : BufTy).Contents (Elt F)),
    unary main_v181 main_v182 (uitofp .f32 : (⟨S8x128x128, .i1⟩ : BufTy).Contents (Elt F) → (⟨S8x128x128, .f32⟩ : BufTy).Contents (Elt F)),
    binary main_v177 main_v182 main_v183 (subf : (⟨S8x128x128, .f32⟩ : BufTy).Contents (Elt F) → (⟨S8x128x128, .f32⟩ : BufTy).Contents (Elt F) → (⟨S8x128x128, .f32⟩ : BufTy).Contents (Elt F)),
    binary main_v183 main_v183 main_v184 (mulf : (⟨S8x128x128, .f32⟩ : BufTy).Contents (Elt F) → (⟨S8x128x128, .f32⟩ : BufTy).Contents (Elt F) → (⟨S8x128x128, .f32⟩ : BufTy).Contents (Elt F)),
    binary main_v184 main_v29 main_v185 (mulf : (⟨S8x128x128, .f32⟩ : BufTy).Contents (Elt F) → (⟨S8x128x128, .f32⟩ : BufTy).Contents (Elt F) → (⟨S8x128x128, .f32⟩ : BufTy).Contents (Elt F)),
    nullary main_cst_43 (constant S_ .f32 0x00000000#32),
    binary main_v185 main_cst_43 main_v186 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_44 (constant S_ .f32 0x3F800000#32),
    unary main_cst_44 main_v187 (broadcastInDim S8 ![] bcast_S_S8 : (⟨S_, .f32⟩ : BufTy).Contents (Elt F) → (⟨S8, .f32⟩ : BufTy).Contents (Elt F)),
    binary main_v23 main_v187 main_v188 (maximumf : (⟨S8, .f32⟩ : BufTy).Contents (Elt F) → (⟨S8, .f32⟩ : BufTy).Contents (Elt F) → (⟨S8, .f32⟩ : BufTy).Contents (Elt F)),
    binary main_v186 main_v188 main_v189 (Host.divf : (⟨S8, .f32⟩ : BufTy).Contents (Elt F) → (⟨S8, .f32⟩ : BufTy).Contents (Elt F) → (⟨S8, .f32⟩ : BufTy).Contents (Elt F)),
    binary main_v170 main_v189 main_v190 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call26_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call26_v1) (extractStridedSlice S8x256x127x128 ![0, 0, 0, 0] · slices_S8x256x128x128_S8x256x127x128_0_0_0_0),
    TRef.binary (TRef.of (T := ⟨S8x256x1x128, .f32⟩) main_call26_v0) (TRef.of (T := ⟨S8x256x127x128, .f32⟩) main_call26_v1) (TRef.of (T := ⟨S8x256x128x128, .f32⟩) main_call26_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call26_v2) (TRef.of (T := ⟨S8x256x128x127, .f32⟩) main_call26_v3) (extractStridedSlice S8x256x128x127 ![0, 0, 0, 1] · slices_S8x256x128x128_S8x256x128x127_0_0_0_1),
    TRef.unary (TRef.of (T := ⟨S8x256x128x128, .f32⟩) main_call26_v2) (TRef.of (T := ⟨S8x256x128x1, .f32⟩) main_call26_v4) (extractStridedSlice S8x256x128x1 ![0, 0, 0, 0] · slices_S8x256x128x128_S8x256x128x1_0_0_0_0),
    TRef.binary (TRef.of (T := ⟨S8x256x128x127, .f32⟩) main_call26_v3) (TRef.of (T := ⟨S8x256x128x1, .f32⟩) main_call26_v4) (TRef.of (T := ⟨S8x256x128x128, .f32⟩) main_v191) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x1x128, .f32⟩) main_call27_v0) (extractStridedSlice S8x1x128 ![0, 127, 0] · slices_S8x128x128_S8x1x128_0_127_0),
    TRef.unary (TRef.of (T := ⟨S8x128x128, .f32⟩) main_v28) (TRef.of (T := ⟨S8x127x128, .f32⟩) main_call27_v1) (extractStridedSlice S8x127x128 ![0, 0, 0] · slices_S8x128x128_S8x127x128_0_0_0),
    TRef.binary (TRef.of (T := ⟨S8x1x128, .f32⟩) main_call27_v0) (TRef.of (T := ⟨S8x127x128, .f32⟩) main_call27_v1) (TRef.of (T := ⟨S8x128x128, .f32⟩) main_call27_v2) (fun a b => concatenate S8x128x128 1 [⟨S8x1x128, a⟩, ⟨S8x127x128, b⟩] concatenates_S8x1x128_S8x127x128_S8x128x128_d1),
    TRef.unary (TRef.of (T := ⟨S8x128x128, .f32⟩) main_call27_v2) (TRef.of (T := ⟨S8x128x127, .f32⟩) main_call27_v3) (extractStridedSlice S8x128x127 ![0, 0, 1] · slices_S8x128x128_S8x128x127_0_0_1),
    TRef.unary (TRef.of (T := ⟨S8x128x128, .f32⟩) main_call27_v2) (TRef.of (T := ⟨S8x128x1, .f32⟩) main_call27_v4) (extractStridedSlice S8x128x1 ![0, 0, 0] · slices_S8x128x128_S8x128x1_0_0_0),
    TRef.binary (TRef.of (T := ⟨S8x128x127, .f32⟩) main_call27_v3) (TRef.of (T := ⟨S8x128x1, .f32⟩) main_call27_v4) (TRef.of (T := ⟨S8x128x128, .f32⟩) main_v192) (fun a b => concatenate S8x128x128 2 [⟨S8x128x127, a⟩, ⟨S8x128x1, b⟩] concatenates_S8x128x127_S8x128x1_S8x128x128_d2) ]

set_option maxRecDepth 8192 in
set_option maxHeartbeats 4000000 in
/-- That part of the program is the straight line of those operations. -/
theorem part3_eq (c : Dev nD) : main_part3 (F := F) c = seq ops3 := rfl

/-- The host operations of the program's statements 241 to 300, in order (a called function's operations in its call's place). -/
abbrev ops4 : List (HloOp τ sig (Elt F)) :=
  [ TRef.unary (TRef.of (T := ⟨S8x128x128, .i32⟩) main_arg1) (TRef.of (T := ⟨S8x1x128, .i32⟩) main_call28_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call28_v1) (extractStridedSlice S8x127x128 ![0, 0, 0] · slices_S8x128x128_S8x127x128_0_0_0),
    TRef.binary (TRef.of (T := ⟨S8x1x128, .i32⟩) main_call28_v0) (TRef.of (T := ⟨S8x127x128, .i32⟩) main_call28_v1) (TRef.of (T := ⟨S8x128x128, .i32⟩) main_call28_v2) (fun a b => concatenate S8x128x128 1 [⟨S8x1x128, a⟩, ⟨S8x127x128, b⟩] concatenates_S8x1x128_S8x127x128_S8x128x128_d1),
    TRef.unary (TRef.of (T := ⟨S8x128x128, .i32⟩) main_call28_v2) (TRef.of (T := ⟨S8x128x127, .i32⟩) main_call28_v3) (extractStridedSlice S8x128x127 ![0, 0, 1] · slices_S8x128x128_S8x128x127_0_0_1),
    TRef.unary (TRef.of (T := ⟨S8x128x128, .i32⟩) main_call28_v2) (TRef.of (T := ⟨S8x128x1, .i32⟩) main_call28_v4) (extractStridedSlice S8x128x1 ![0, 0, 0] · slices_S8x128x128_S8x128x1_0_0_0),
    TRef.binary (TRef.of (T := ⟨S8x128x127, .i32⟩) main_call28_v3) (TRef.of (T := ⟨S8x128x1, .i32⟩) main_call28_v4) (TRef.of (T := ⟨S8x128x128, .i32⟩) main_v193) (fun a b => concatenate S8x128x128 2 [⟨S8x128x127, a⟩, ⟨S8x128x1, b⟩] concatenates_S8x128x127_S8x128x1_S8x128x128_d2),
    binary main_arg0 main_v191 main_v194 (mulf : (⟨S8x256x128x128, .f32⟩ : BufTy).Contents (Elt F) → (⟨S8x256x128x128, .f32⟩ : BufTy).Contents (Elt F) → (⟨S8x256x128x128, .f32⟩ : BufTy).Contents (Elt F)),
    nullary main_cst_45 (constant S_ .f32 0x00000000#32),
    binary main_v194 main_cst_45 main_v195 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v192 main_v196 (mulf : (⟨S8x128x128, .f32⟩ : BufTy).Contents (Elt F) → (⟨S8x128x128, .f32⟩ : BufTy).Contents (Elt F) → (⟨S8x128x128, .f32⟩ : BufTy).Contents (Elt F)),
    binary main_v195 main_v196 main_v197 (Host.divf : (⟨S8x128x128, .f32⟩ : BufTy).Contents (Elt F) → (⟨S8x128x128, .f32⟩ : BufTy).Contents (Elt F) → (⟨S8x128x128, .f32⟩ : BufTy).Contents (Elt F)),
    binary main_arg1 main_v193 main_v198 (cmpi .eq : (⟨S8x128x128, .i32⟩ : BufTy).Contents (Elt F) → (⟨S8x128x128, .i32⟩ : BufTy).Contents (Elt F) → (⟨S8x128x128, .i1⟩ : BufTy).Contents (Elt F)),
    nullary main_c_46 (constantI S_ 32 2#32),
    unary main_c_46 main_v199 (broadcastInDim S8x128x128 ![] bcast_S_S8x128x128 : (⟨S_, .i32⟩ : BufTy).Contents (Elt F) → (⟨S8x128x128, .i32⟩ : BufTy).Contents (Elt F)),
    binary main_arg1 main_v199 main_v200 (cmpi .slt : (⟨S8x128x128, .i32⟩ : BufTy).Contents (Elt F) → (⟨S8x128x128, .i32⟩ : BufTy).Contents (Elt F) → (⟨S8x128x128, .i1⟩ : BufTy).Contents (Elt F)),
    binary main_v198 main_v200 main_v201 (andi : (⟨S8x128x128, .i1⟩ : BufTy).Contents (Elt F) → (⟨S8x128x128, .i1⟩ : BufTy).Contents (Elt F) → (⟨S8x128x128, .i1⟩ : BufTy).Contents (Elt F)),
    unary main_v201 main_v202 (uitofp .f32 : (⟨S8x128x128, .i1⟩ : BufTy).Contents (Elt F) → (⟨S8x128x128, .f32⟩ : BufTy).Contents (Elt F)),
    binary main_v197 main_v202 main_v203 (subf : (⟨S8x128x128, .f32⟩ : BufTy).Contents (Elt F) → (⟨S8x128x128, .f32⟩ : BufTy).Contents (Elt F) → (⟨S8x128x128, .f32⟩ : BufTy).Contents (Elt F)),
    binary main_v203 main_v203 main_v204 (mulf : (⟨S8x128x128, .f32⟩ : BufTy).Contents (Elt F) → (⟨S8x128x128, .f32⟩ : BufTy).Contents (Elt F) → (⟨S8x128x128, .f32⟩ : BufTy).Contents (Elt F)),
    binary main_v204 main_v29 main_v205 (mulf : (⟨S8x128x128, .f32⟩ : BufTy).Contents (Elt F) → (⟨S8x128x128, .f32⟩ : BufTy).Contents (Elt F) → (⟨S8x128x128, .f32⟩ : BufTy).Contents (Elt F)),
    nullary main_cst_47 (constant S_ .f32 0x00000000#32),
    binary main_v205 main_cst_47 main_v206 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_48 (constant S_ .f32 0x3F800000#32),
    unary main_cst_48 main_v207 (broadcastInDim S8 ![] bcast_S_S8 : (⟨S_, .f32⟩ : BufTy).Contents (Elt F) → (⟨S8, .f32⟩ : BufTy).Contents (Elt F)),
    binary main_v23 main_v207 main_v208 (maximumf : (⟨S8, .f32⟩ : BufTy).Contents (Elt F) → (⟨S8, .f32⟩ : BufTy).Contents (Elt F) → (⟨S8, .f32⟩ : BufTy).Contents (Elt F)),
    binary main_v206 main_v208 main_v209 (Host.divf : (⟨S8, .f32⟩ : BufTy).Contents (Elt F) → (⟨S8, .f32⟩ : BufTy).Contents (Elt F) → (⟨S8, .f32⟩ : BufTy).Contents (Elt F)),
    binary main_v190 main_v209 main_v210 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call29_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call29_v1) (extractStridedSlice S8x256x127x128 ![0, 0, 0, 0] · slices_S8x256x128x128_S8x256x127x128_0_0_0_0),
    TRef.binary (TRef.of (T := ⟨S8x256x1x128, .f32⟩) main_call29_v0) (TRef.of (T := ⟨S8x256x127x128, .f32⟩) main_call29_v1) (TRef.of (T := ⟨S8x256x128x128, .f32⟩) main_call29_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call29_v2) (TRef.of (T := ⟨S8x256x128x126, .f32⟩) main_call29_v3) (extractStridedSlice S8x256x128x126 ![0, 0, 0, 2] · slices_S8x256x128x128_S8x256x128x126_0_0_0_2),
    TRef.unary (TRef.of (T := ⟨S8x256x128x128, .f32⟩) main_call29_v2) (TRef.of (T := ⟨S8x256x128x2, .f32⟩) main_call29_v4) (extractStridedSlice S8x256x128x2 ![0, 0, 0, 0] · slices_S8x256x128x128_S8x256x128x2_0_0_0_0),
    TRef.binary (TRef.of (T := ⟨S8x256x128x126, .f32⟩) main_call29_v3) (TRef.of (T := ⟨S8x256x128x2, .f32⟩) main_call29_v4) (TRef.of (T := ⟨S8x256x128x128, .f32⟩) main_v211) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x1x128, .f32⟩) main_call30_v0) (extractStridedSlice S8x1x128 ![0, 127, 0] · slices_S8x128x128_S8x1x128_0_127_0),
    TRef.unary (TRef.of (T := ⟨S8x128x128, .f32⟩) main_v28) (TRef.of (T := ⟨S8x127x128, .f32⟩) main_call30_v1) (extractStridedSlice S8x127x128 ![0, 0, 0] · slices_S8x128x128_S8x127x128_0_0_0),
    TRef.binary (TRef.of (T := ⟨S8x1x128, .f32⟩) main_call30_v0) (TRef.of (T := ⟨S8x127x128, .f32⟩) main_call30_v1) (TRef.of (T := ⟨S8x128x128, .f32⟩) main_call30_v2) (fun a b => concatenate S8x128x128 1 [⟨S8x1x128, a⟩, ⟨S8x127x128, b⟩] concatenates_S8x1x128_S8x127x128_S8x128x128_d1),
    TRef.unary (TRef.of (T := ⟨S8x128x128, .f32⟩) main_call30_v2) (TRef.of (T := ⟨S8x128x126, .f32⟩) main_call30_v3) (extractStridedSlice S8x128x126 ![0, 0, 2] · slices_S8x128x128_S8x128x126_0_0_2),
    TRef.unary (TRef.of (T := ⟨S8x128x128, .f32⟩) main_call30_v2) (TRef.of (T := ⟨S8x128x2, .f32⟩) main_call30_v4) (extractStridedSlice S8x128x2 ![0, 0, 0] · slices_S8x128x128_S8x128x2_0_0_0),
    TRef.binary (TRef.of (T := ⟨S8x128x126, .f32⟩) main_call30_v3) (TRef.of (T := ⟨S8x128x2, .f32⟩) main_call30_v4) (TRef.of (T := ⟨S8x128x128, .f32⟩) main_v212) (fun a b => concatenate S8x128x128 2 [⟨S8x128x126, a⟩, ⟨S8x128x2, b⟩] concatenates_S8x128x126_S8x128x2_S8x128x128_d2),
    TRef.unary (TRef.of (T := ⟨S8x128x128, .i32⟩) main_arg1) (TRef.of (T := ⟨S8x1x128, .i32⟩) main_call31_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call31_v1) (extractStridedSlice S8x127x128 ![0, 0, 0] · slices_S8x128x128_S8x127x128_0_0_0),
    TRef.binary (TRef.of (T := ⟨S8x1x128, .i32⟩) main_call31_v0) (TRef.of (T := ⟨S8x127x128, .i32⟩) main_call31_v1) (TRef.of (T := ⟨S8x128x128, .i32⟩) main_call31_v2) (fun a b => concatenate S8x128x128 1 [⟨S8x1x128, a⟩, ⟨S8x127x128, b⟩] concatenates_S8x1x128_S8x127x128_S8x128x128_d1),
    TRef.unary (TRef.of (T := ⟨S8x128x128, .i32⟩) main_call31_v2) (TRef.of (T := ⟨S8x128x126, .i32⟩) main_call31_v3) (extractStridedSlice S8x128x126 ![0, 0, 2] · slices_S8x128x128_S8x128x126_0_0_2),
    TRef.unary (TRef.of (T := ⟨S8x128x128, .i32⟩) main_call31_v2) (TRef.of (T := ⟨S8x128x2, .i32⟩) main_call31_v4) (extractStridedSlice S8x128x2 ![0, 0, 0] · slices_S8x128x128_S8x128x2_0_0_0),
    TRef.binary (TRef.of (T := ⟨S8x128x126, .i32⟩) main_call31_v3) (TRef.of (T := ⟨S8x128x2, .i32⟩) main_call31_v4) (TRef.of (T := ⟨S8x128x128, .i32⟩) main_v213) (fun a b => concatenate S8x128x128 2 [⟨S8x128x126, a⟩, ⟨S8x128x2, b⟩] concatenates_S8x128x126_S8x128x2_S8x128x128_d2),
    binary main_arg0 main_v211 main_v214 (mulf : (⟨S8x256x128x128, .f32⟩ : BufTy).Contents (Elt F) → (⟨S8x256x128x128, .f32⟩ : BufTy).Contents (Elt F) → (⟨S8x256x128x128, .f32⟩ : BufTy).Contents (Elt F)),
    nullary main_cst_49 (constant S_ .f32 0x00000000#32),
    binary main_v214 main_cst_49 main_v215 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v212 main_v216 (mulf : (⟨S8x128x128, .f32⟩ : BufTy).Contents (Elt F) → (⟨S8x128x128, .f32⟩ : BufTy).Contents (Elt F) → (⟨S8x128x128, .f32⟩ : BufTy).Contents (Elt F)),
    binary main_v215 main_v216 main_v217 (Host.divf : (⟨S8x128x128, .f32⟩ : BufTy).Contents (Elt F) → (⟨S8x128x128, .f32⟩ : BufTy).Contents (Elt F) → (⟨S8x128x128, .f32⟩ : BufTy).Contents (Elt F)),
    binary main_arg1 main_v213 main_v218 (cmpi .eq : (⟨S8x128x128, .i32⟩ : BufTy).Contents (Elt F) → (⟨S8x128x128, .i32⟩ : BufTy).Contents (Elt F) → (⟨S8x128x128, .i1⟩ : BufTy).Contents (Elt F)),
    nullary main_c_50 (constantI S_ 32 2#32),
    unary main_c_50 main_v219 (broadcastInDim S8x128x128 ![] bcast_S_S8x128x128 : (⟨S_, .i32⟩ : BufTy).Contents (Elt F) → (⟨S8x128x128, .i32⟩ : BufTy).Contents (Elt F)),
    binary main_arg1 main_v219 main_v220 (cmpi .slt : (⟨S8x128x128, .i32⟩ : BufTy).Contents (Elt F) → (⟨S8x128x128, .i32⟩ : BufTy).Contents (Elt F) → (⟨S8x128x128, .i1⟩ : BufTy).Contents (Elt F)),
    binary main_v218 main_v220 main_v221 (andi : (⟨S8x128x128, .i1⟩ : BufTy).Contents (Elt F) → (⟨S8x128x128, .i1⟩ : BufTy).Contents (Elt F) → (⟨S8x128x128, .i1⟩ : BufTy).Contents (Elt F)),
    unary main_v221 main_v222 (uitofp .f32 : (⟨S8x128x128, .i1⟩ : BufTy).Contents (Elt F) → (⟨S8x128x128, .f32⟩ : BufTy).Contents (Elt F)),
    binary main_v217 main_v222 main_v223 (subf : (⟨S8x128x128, .f32⟩ : BufTy).Contents (Elt F) → (⟨S8x128x128, .f32⟩ : BufTy).Contents (Elt F) → (⟨S8x128x128, .f32⟩ : BufTy).Contents (Elt F)),
    binary main_v223 main_v223 main_v224 (mulf : (⟨S8x128x128, .f32⟩ : BufTy).Contents (Elt F) → (⟨S8x128x128, .f32⟩ : BufTy).Contents (Elt F) → (⟨S8x128x128, .f32⟩ : BufTy).Contents (Elt F)),
    binary main_v224 main_v29 main_v225 (mulf : (⟨S8x128x128, .f32⟩ : BufTy).Contents (Elt F) → (⟨S8x128x128, .f32⟩ : BufTy).Contents (Elt F) → (⟨S8x128x128, .f32⟩ : BufTy).Contents (Elt F)),
    nullary main_cst_51 (constant S_ .f32 0x00000000#32),
    binary main_v225 main_cst_51 main_v226 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_52 (constant S_ .f32 0x3F800000#32),
    unary main_cst_52 main_v227 (broadcastInDim S8 ![] bcast_S_S8 : (⟨S_, .f32⟩ : BufTy).Contents (Elt F) → (⟨S8, .f32⟩ : BufTy).Contents (Elt F)),
    binary main_v23 main_v227 main_v228 (maximumf : (⟨S8, .f32⟩ : BufTy).Contents (Elt F) → (⟨S8, .f32⟩ : BufTy).Contents (Elt F) → (⟨S8, .f32⟩ : BufTy).Contents (Elt F)),
    binary main_v226 main_v228 main_v229 (Host.divf : (⟨S8, .f32⟩ : BufTy).Contents (Elt F) → (⟨S8, .f32⟩ : BufTy).Contents (Elt F) → (⟨S8, .f32⟩ : BufTy).Contents (Elt F)),
    binary main_v210 main_v229 main_v230 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call32_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call32_v1) (extractStridedSlice S8x256x0x128 ![0, 0, 0, 0] · slices_S8x256x128x128_S8x256x0x128_0_0_0_0),
    TRef.binary (TRef.of (T := ⟨S8x256x128x128, .f32⟩) main_call32_v0) (TRef.of (T := ⟨S8x256x0x128, .f32⟩) main_call32_v1) (TRef.of (T := ⟨S8x256x128x128, .f32⟩) main_call32_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call32_v2) (TRef.of (T := ⟨S8x256x128x2, .f32⟩) main_call32_v3) (extractStridedSlice S8x256x128x2 ![0, 0, 0, 126] · slices_S8x256x128x128_S8x256x128x2_0_0_0_126),
    TRef.unary (TRef.of (T := ⟨S8x256x128x128, .f32⟩) main_call32_v2) (TRef.of (T := ⟨S8x256x128x126, .f32⟩) main_call32_v4) (extractStridedSlice S8x256x128x126 ![0, 0, 0, 0] · slices_S8x256x128x128_S8x256x128x126_0_0_0_0),
    TRef.binary (TRef.of (T := ⟨S8x256x128x2, .f32⟩) main_call32_v3) (TRef.of (T := ⟨S8x256x128x126, .f32⟩) main_call32_v4) (TRef.of (T := ⟨S8x256x128x128, .f32⟩) main_v231) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x128x128, .f32⟩) main_call33_v0) (extractStridedSlice S8x128x128 ![0, 0, 0] · slices_S8x128x128_S8x128x128_0_0_0),
    TRef.unary (TRef.of (T := ⟨S8x128x128, .f32⟩) main_v28) (TRef.of (T := ⟨S8x0x128, .f32⟩) main_call33_v1) (extractStridedSlice S8x0x128 ![0, 0, 0] · slices_S8x128x128_S8x0x128_0_0_0),
    TRef.binary (TRef.of (T := ⟨S8x128x128, .f32⟩) main_call33_v0) (TRef.of (T := ⟨S8x0x128, .f32⟩) main_call33_v1) (TRef.of (T := ⟨S8x128x128, .f32⟩) main_call33_v2) (fun a b => concatenate S8x128x128 1 [⟨S8x128x128, a⟩, ⟨S8x0x128, b⟩] concatenates_S8x128x128_S8x0x128_S8x128x128_d1),
    TRef.unary (TRef.of (T := ⟨S8x128x128, .f32⟩) main_call33_v2) (TRef.of (T := ⟨S8x128x2, .f32⟩) main_call33_v3) (extractStridedSlice S8x128x2 ![0, 0, 126] · slices_S8x128x128_S8x128x2_0_0_126),
    TRef.unary (TRef.of (T := ⟨S8x128x128, .f32⟩) main_call33_v2) (TRef.of (T := ⟨S8x128x126, .f32⟩) main_call33_v4) (extractStridedSlice S8x128x126 ![0, 0, 0] · slices_S8x128x128_S8x128x126_0_0_0),
    TRef.binary (TRef.of (T := ⟨S8x128x2, .f32⟩) main_call33_v3) (TRef.of (T := ⟨S8x128x126, .f32⟩) main_call33_v4) (TRef.of (T := ⟨S8x128x128, .f32⟩) main_v232) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x128x128, .i32⟩) main_call34_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call34_v1) (extractStridedSlice S8x0x128 ![0, 0, 0] · slices_S8x128x128_S8x0x128_0_0_0),
    TRef.binary (TRef.of (T := ⟨S8x128x128, .i32⟩) main_call34_v0) (TRef.of (T := ⟨S8x0x128, .i32⟩) main_call34_v1) (TRef.of (T := ⟨S8x128x128, .i32⟩) main_call34_v2) (fun a b => concatenate S8x128x128 1 [⟨S8x128x128, a⟩, ⟨S8x0x128, b⟩] concatenates_S8x128x128_S8x0x128_S8x128x128_d1),
    TRef.unary (TRef.of (T := ⟨S8x128x128, .i32⟩) main_call34_v2) (TRef.of (T := ⟨S8x128x2, .i32⟩) main_call34_v3) (extractStridedSlice S8x128x2 ![0, 0, 126] · slices_S8x128x128_S8x128x2_0_0_126),
    TRef.unary (TRef.of (T := ⟨S8x128x128, .i32⟩) main_call34_v2) (TRef.of (T := ⟨S8x128x126, .i32⟩) main_call34_v4) (extractStridedSlice S8x128x126 ![0, 0, 0] · slices_S8x128x128_S8x128x126_0_0_0),
    TRef.binary (TRef.of (T := ⟨S8x128x2, .i32⟩) main_call34_v3) (TRef.of (T := ⟨S8x128x126, .i32⟩) main_call34_v4) (TRef.of (T := ⟨S8x128x128, .i32⟩) main_v233) (fun a b => concatenate S8x128x128 2 [⟨S8x128x2, a⟩, ⟨S8x128x126, b⟩] concatenates_S8x128x2_S8x128x126_S8x128x128_d2),
    binary main_arg0 main_v231 main_v234 (mulf : (⟨S8x256x128x128, .f32⟩ : BufTy).Contents (Elt F) → (⟨S8x256x128x128, .f32⟩ : BufTy).Contents (Elt F) → (⟨S8x256x128x128, .f32⟩ : BufTy).Contents (Elt F)),
    nullary main_cst_53 (constant S_ .f32 0x00000000#32),
    binary main_v234 main_cst_53 main_v235 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v232 main_v236 (mulf : (⟨S8x128x128, .f32⟩ : BufTy).Contents (Elt F) → (⟨S8x128x128, .f32⟩ : BufTy).Contents (Elt F) → (⟨S8x128x128, .f32⟩ : BufTy).Contents (Elt F)),
    binary main_v235 main_v236 main_v237 (Host.divf : (⟨S8x128x128, .f32⟩ : BufTy).Contents (Elt F) → (⟨S8x128x128, .f32⟩ : BufTy).Contents (Elt F) → (⟨S8x128x128, .f32⟩ : BufTy).Contents (Elt F)),
    binary main_arg1 main_v233 main_v238 (cmpi .eq : (⟨S8x128x128, .i32⟩ : BufTy).Contents (Elt F) → (⟨S8x128x128, .i32⟩ : BufTy).Contents (Elt F) → (⟨S8x128x128, .i1⟩ : BufTy).Contents (Elt F)),
    nullary main_c_54 (constantI S_ 32 2#32),
    unary main_c_54 main_v239 (broadcastInDim S8x128x128 ![] bcast_S_S8x128x128 : (⟨S_, .i32⟩ : BufTy).Contents (Elt F) → (⟨S8x128x128, .i32⟩ : BufTy).Contents (Elt F)),
    binary main_arg1 main_v239 main_v240 (cmpi .slt : (⟨S8x128x128, .i32⟩ : BufTy).Contents (Elt F) → (⟨S8x128x128, .i32⟩ : BufTy).Contents (Elt F) → (⟨S8x128x128, .i1⟩ : BufTy).Contents (Elt F)),
    binary main_v238 main_v240 main_v241 (andi : (⟨S8x128x128, .i1⟩ : BufTy).Contents (Elt F) → (⟨S8x128x128, .i1⟩ : BufTy).Contents (Elt F) → (⟨S8x128x128, .i1⟩ : BufTy).Contents (Elt F)),
    unary main_v241 main_v242 (uitofp .f32 : (⟨S8x128x128, .i1⟩ : BufTy).Contents (Elt F) → (⟨S8x128x128, .f32⟩ : BufTy).Contents (Elt F)) ]

set_option maxRecDepth 8192 in
set_option maxHeartbeats 4000000 in
/-- That part of the program is the straight line of those operations. -/
theorem part4_eq (c : Dev nD) : main_part4 (F := F) c = seq ops4 := rfl

/-- The host operations of the program's statements 301 to 360, in order (a called function's operations in its call's place). -/
abbrev ops5 : List (HloOp τ sig (Elt F)) :=
  [ binary main_v237 main_v242 main_v243 (subf : (⟨S8x128x128, .f32⟩ : BufTy).Contents (Elt F) → (⟨S8x128x128, .f32⟩ : BufTy).Contents (Elt F) → (⟨S8x128x128, .f32⟩ : BufTy).Contents (Elt F)),
    binary main_v243 main_v243 main_v244 (mulf : (⟨S8x128x128, .f32⟩ : BufTy).Contents (Elt F) → (⟨S8x128x128, .f32⟩ : BufTy).Contents (Elt F) → (⟨S8x128x128, .f32⟩ : BufTy).Contents (Elt F)),
    binary main_v244 main_v29 main_v245 (mulf : (⟨S8x128x128, .f32⟩ : BufTy).Contents (Elt F) → (⟨S8x128x128, .f32⟩ : BufTy).Contents (Elt F) → (⟨S8x128x128, .f32⟩ : BufTy).Contents (Elt F)),
    nullary main_cst_55 (constant S_ .f32 0x00000000#32),
    binary main_v245 main_cst_55 main_v246 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_56 (constant S_ .f32 0x3F800000#32),
    unary main_cst_56 main_v247 (broadcastInDim S8 ![] bcast_S_S8 : (⟨S_, .f32⟩ : BufTy).Contents (Elt F) → (⟨S8, .f32⟩ : BufTy).Contents (Elt F)),
    binary main_v23 main_v247 main_v248 (maximumf : (⟨S8, .f32⟩ : BufTy).Contents (Elt F) → (⟨S8, .f32⟩ : BufTy).Contents (Elt F) → (⟨S8, .f32⟩ : BufTy).Contents (Elt F)),
    binary main_v246 main_v248 main_v249 (Host.divf : (⟨S8, .f32⟩ : BufTy).Contents (Elt F) → (⟨S8, .f32⟩ : BufTy).Contents (Elt F) → (⟨S8, .f32⟩ : BufTy).Contents (Elt F)),
    binary main_v230 main_v249 main_v250 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call35_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call35_v1) (extractStridedSlice S8x256x0x128 ![0, 0, 0, 0] · slices_S8x256x128x128_S8x256x0x128_0_0_0_0),
    TRef.binary (TRef.of (T := ⟨S8x256x128x128, .f32⟩) main_call35_v0) (TRef.of (T := ⟨S8x256x0x128, .f32⟩) main_call35_v1) (TRef.of (T := ⟨S8x256x128x128, .f32⟩) main_call35_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call35_v2) (TRef.of (T := ⟨S8x256x128x1, .f32⟩) main_call35_v3) (extractStridedSlice S8x256x128x1 ![0, 0, 0, 127] · slices_S8x256x128x128_S8x256x128x1_0_0_0_127),
    TRef.unary (TRef.of (T := ⟨S8x256x128x128, .f32⟩) main_call35_v2) (TRef.of (T := ⟨S8x256x128x127, .f32⟩) main_call35_v4) (extractStridedSlice S8x256x128x127 ![0, 0, 0, 0] · slices_S8x256x128x128_S8x256x128x127_0_0_0_0),
    TRef.binary (TRef.of (T := ⟨S8x256x128x1, .f32⟩) main_call35_v3) (TRef.of (T := ⟨S8x256x128x127, .f32⟩) main_call35_v4) (TRef.of (T := ⟨S8x256x128x128, .f32⟩) main_v251) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x128x128, .f32⟩) main_call36_v0) (extractStridedSlice S8x128x128 ![0, 0, 0] · slices_S8x128x128_S8x128x128_0_0_0),
    TRef.unary (TRef.of (T := ⟨S8x128x128, .f32⟩) main_v28) (TRef.of (T := ⟨S8x0x128, .f32⟩) main_call36_v1) (extractStridedSlice S8x0x128 ![0, 0, 0] · slices_S8x128x128_S8x0x128_0_0_0),
    TRef.binary (TRef.of (T := ⟨S8x128x128, .f32⟩) main_call36_v0) (TRef.of (T := ⟨S8x0x128, .f32⟩) main_call36_v1) (TRef.of (T := ⟨S8x128x128, .f32⟩) main_call36_v2) (fun a b => concatenate S8x128x128 1 [⟨S8x128x128, a⟩, ⟨S8x0x128, b⟩] concatenates_S8x128x128_S8x0x128_S8x128x128_d1),
    TRef.unary (TRef.of (T := ⟨S8x128x128, .f32⟩) main_call36_v2) (TRef.of (T := ⟨S8x128x1, .f32⟩) main_call36_v3) (extractStridedSlice S8x128x1 ![0, 0, 127] · slices_S8x128x128_S8x128x1_0_0_127),
    TRef.unary (TRef.of (T := ⟨S8x128x128, .f32⟩) main_call36_v2) (TRef.of (T := ⟨S8x128x127, .f32⟩) main_call36_v4) (extractStridedSlice S8x128x127 ![0, 0, 0] · slices_S8x128x128_S8x128x127_0_0_0),
    TRef.binary (TRef.of (T := ⟨S8x128x1, .f32⟩) main_call36_v3) (TRef.of (T := ⟨S8x128x127, .f32⟩) main_call36_v4) (TRef.of (T := ⟨S8x128x128, .f32⟩) main_v252) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x128x128, .i32⟩) main_call37_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call37_v1) (extractStridedSlice S8x0x128 ![0, 0, 0] · slices_S8x128x128_S8x0x128_0_0_0),
    TRef.binary (TRef.of (T := ⟨S8x128x128, .i32⟩) main_call37_v0) (TRef.of (T := ⟨S8x0x128, .i32⟩) main_call37_v1) (TRef.of (T := ⟨S8x128x128, .i32⟩) main_call37_v2) (fun a b => concatenate S8x128x128 1 [⟨S8x128x128, a⟩, ⟨S8x0x128, b⟩] concatenates_S8x128x128_S8x0x128_S8x128x128_d1),
    TRef.unary (TRef.of (T := ⟨S8x128x128, .i32⟩) main_call37_v2) (TRef.of (T := ⟨S8x128x1, .i32⟩) main_call37_v3) (extractStridedSlice S8x128x1 ![0, 0, 127] · slices_S8x128x128_S8x128x1_0_0_127),
    TRef.unary (TRef.of (T := ⟨S8x128x128, .i32⟩) main_call37_v2) (TRef.of (T := ⟨S8x128x127, .i32⟩) main_call37_v4) (extractStridedSlice S8x128x127 ![0, 0, 0] · slices_S8x128x128_S8x128x127_0_0_0),
    TRef.binary (TRef.of (T := ⟨S8x128x1, .i32⟩) main_call37_v3) (TRef.of (T := ⟨S8x128x127, .i32⟩) main_call37_v4) (TRef.of (T := ⟨S8x128x128, .i32⟩) main_v253) (fun a b => concatenate S8x128x128 2 [⟨S8x128x1, a⟩, ⟨S8x128x127, b⟩] concatenates_S8x128x1_S8x128x127_S8x128x128_d2),
    binary main_arg0 main_v251 main_v254 (mulf : (⟨S8x256x128x128, .f32⟩ : BufTy).Contents (Elt F) → (⟨S8x256x128x128, .f32⟩ : BufTy).Contents (Elt F) → (⟨S8x256x128x128, .f32⟩ : BufTy).Contents (Elt F)),
    nullary main_cst_57 (constant S_ .f32 0x00000000#32),
    binary main_v254 main_cst_57 main_v255 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v252 main_v256 (mulf : (⟨S8x128x128, .f32⟩ : BufTy).Contents (Elt F) → (⟨S8x128x128, .f32⟩ : BufTy).Contents (Elt F) → (⟨S8x128x128, .f32⟩ : BufTy).Contents (Elt F)),
    binary main_v255 main_v256 main_v257 (Host.divf : (⟨S8x128x128, .f32⟩ : BufTy).Contents (Elt F) → (⟨S8x128x128, .f32⟩ : BufTy).Contents (Elt F) → (⟨S8x128x128, .f32⟩ : BufTy).Contents (Elt F)),
    binary main_arg1 main_v253 main_v258 (cmpi .eq : (⟨S8x128x128, .i32⟩ : BufTy).Contents (Elt F) → (⟨S8x128x128, .i32⟩ : BufTy).Contents (Elt F) → (⟨S8x128x128, .i1⟩ : BufTy).Contents (Elt F)),
    nullary main_c_58 (constantI S_ 32 2#32),
    unary main_c_58 main_v259 (broadcastInDim S8x128x128 ![] bcast_S_S8x128x128 : (⟨S_, .i32⟩ : BufTy).Contents (Elt F) → (⟨S8x128x128, .i32⟩ : BufTy).Contents (Elt F)),
    binary main_arg1 main_v259 main_v260 (cmpi .slt : (⟨S8x128x128, .i32⟩ : BufTy).Contents (Elt F) → (⟨S8x128x128, .i32⟩ : BufTy).Contents (Elt F) → (⟨S8x128x128, .i1⟩ : BufTy).Contents (Elt F)),
    binary main_v258 main_v260 main_v261 (andi : (⟨S8x128x128, .i1⟩ : BufTy).Contents (Elt F) → (⟨S8x128x128, .i1⟩ : BufTy).Contents (Elt F) → (⟨S8x128x128, .i1⟩ : BufTy).Contents (Elt F)),
    unary main_v261 main_v262 (uitofp .f32 : (⟨S8x128x128, .i1⟩ : BufTy).Contents (Elt F) → (⟨S8x128x128, .f32⟩ : BufTy).Contents (Elt F)),
    binary main_v257 main_v262 main_v263 (subf : (⟨S8x128x128, .f32⟩ : BufTy).Contents (Elt F) → (⟨S8x128x128, .f32⟩ : BufTy).Contents (Elt F) → (⟨S8x128x128, .f32⟩ : BufTy).Contents (Elt F)),
    binary main_v263 main_v263 main_v264 (mulf : (⟨S8x128x128, .f32⟩ : BufTy).Contents (Elt F) → (⟨S8x128x128, .f32⟩ : BufTy).Contents (Elt F) → (⟨S8x128x128, .f32⟩ : BufTy).Contents (Elt F)),
    binary main_v264 main_v29 main_v265 (mulf : (⟨S8x128x128, .f32⟩ : BufTy).Contents (Elt F) → (⟨S8x128x128, .f32⟩ : BufTy).Contents (Elt F) → (⟨S8x128x128, .f32⟩ : BufTy).Contents (Elt F)),
    nullary main_cst_59 (constant S_ .f32 0x00000000#32),
    binary main_v265 main_cst_59 main_v266 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_60 (constant S_ .f32 0x3F800000#32),
    unary main_cst_60 main_v267 (broadcastInDim S8 ![] bcast_S_S8 : (⟨S_, .f32⟩ : BufTy).Contents (Elt F) → (⟨S8, .f32⟩ : BufTy).Contents (Elt F)),
    binary main_v23 main_v267 main_v268 (maximumf : (⟨S8, .f32⟩ : BufTy).Contents (Elt F) → (⟨S8, .f32⟩ : BufTy).Contents (Elt F) → (⟨S8, .f32⟩ : BufTy).Contents (Elt F)),
    binary main_v266 main_v268 main_v269 (Host.divf : (⟨S8, .f32⟩ : BufTy).Contents (Elt F) → (⟨S8, .f32⟩ : BufTy).Contents (Elt F) → (⟨S8, .f32⟩ : BufTy).Contents (Elt F)),
    binary main_v250 main_v269 main_v270 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call38_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call38_v1) (extractStridedSlice S8x256x0x128 ![0, 0, 0, 0] · slices_S8x256x128x128_S8x256x0x128_0_0_0_0),
    TRef.binary (TRef.of (T := ⟨S8x256x128x128, .f32⟩) main_call38_v0) (TRef.of (T := ⟨S8x256x0x128, .f32⟩) main_call38_v1) (TRef.of (T := ⟨S8x256x128x128, .f32⟩) main_call38_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call38_v2) (TRef.of (T := ⟨S8x256x128x127, .f32⟩) main_call38_v3) (extractStridedSlice S8x256x128x127 ![0, 0, 0, 1] · slices_S8x256x128x128_S8x256x128x127_0_0_0_1),
    TRef.unary (TRef.of (T := ⟨S8x256x128x128, .f32⟩) main_call38_v2) (TRef.of (T := ⟨S8x256x128x1, .f32⟩) main_call38_v4) (extractStridedSlice S8x256x128x1 ![0, 0, 0, 0] · slices_S8x256x128x128_S8x256x128x1_0_0_0_0),
    TRef.binary (TRef.of (T := ⟨S8x256x128x127, .f32⟩) main_call38_v3) (TRef.of (T := ⟨S8x256x128x1, .f32⟩) main_call38_v4) (TRef.of (T := ⟨S8x256x128x128, .f32⟩) main_v271) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x128x128, .f32⟩) main_call39_v0) (extractStridedSlice S8x128x128 ![0, 0, 0] · slices_S8x128x128_S8x128x128_0_0_0),
    TRef.unary (TRef.of (T := ⟨S8x128x128, .f32⟩) main_v28) (TRef.of (T := ⟨S8x0x128, .f32⟩) main_call39_v1) (extractStridedSlice S8x0x128 ![0, 0, 0] · slices_S8x128x128_S8x0x128_0_0_0),
    TRef.binary (TRef.of (T := ⟨S8x128x128, .f32⟩) main_call39_v0) (TRef.of (T := ⟨S8x0x128, .f32⟩) main_call39_v1) (TRef.of (T := ⟨S8x128x128, .f32⟩) main_call39_v2) (fun a b => concatenate S8x128x128 1 [⟨S8x128x128, a⟩, ⟨S8x0x128, b⟩] concatenates_S8x128x128_S8x0x128_S8x128x128_d1),
    TRef.unary (TRef.of (T := ⟨S8x128x128, .f32⟩) main_call39_v2) (TRef.of (T := ⟨S8x128x127, .f32⟩) main_call39_v3) (extractStridedSlice S8x128x127 ![0, 0, 1] · slices_S8x128x128_S8x128x127_0_0_1),
    TRef.unary (TRef.of (T := ⟨S8x128x128, .f32⟩) main_call39_v2) (TRef.of (T := ⟨S8x128x1, .f32⟩) main_call39_v4) (extractStridedSlice S8x128x1 ![0, 0, 0] · slices_S8x128x128_S8x128x1_0_0_0),
    TRef.binary (TRef.of (T := ⟨S8x128x127, .f32⟩) main_call39_v3) (TRef.of (T := ⟨S8x128x1, .f32⟩) main_call39_v4) (TRef.of (T := ⟨S8x128x128, .f32⟩) main_v272) (fun a b => concatenate S8x128x128 2 [⟨S8x128x127, a⟩, ⟨S8x128x1, b⟩] concatenates_S8x128x127_S8x128x1_S8x128x128_d2),
    TRef.unary (TRef.of (T := ⟨S8x128x128, .i32⟩) main_arg1) (TRef.of (T := ⟨S8x128x128, .i32⟩) main_call40_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call40_v1) (extractStridedSlice S8x0x128 ![0, 0, 0] · slices_S8x128x128_S8x0x128_0_0_0),
    TRef.binary (TRef.of (T := ⟨S8x128x128, .i32⟩) main_call40_v0) (TRef.of (T := ⟨S8x0x128, .i32⟩) main_call40_v1) (TRef.of (T := ⟨S8x128x128, .i32⟩) main_call40_v2) (fun a b => concatenate S8x128x128 1 [⟨S8x128x128, a⟩, ⟨S8x0x128, b⟩] concatenates_S8x128x128_S8x0x128_S8x128x128_d1),
    TRef.unary (TRef.of (T := ⟨S8x128x128, .i32⟩) main_call40_v2) (TRef.of (T := ⟨S8x128x127, .i32⟩) main_call40_v3) (extractStridedSlice S8x128x127 ![0, 0, 1] · slices_S8x128x128_S8x128x127_0_0_1),
    TRef.unary (TRef.of (T := ⟨S8x128x128, .i32⟩) main_call40_v2) (TRef.of (T := ⟨S8x128x1, .i32⟩) main_call40_v4) (extractStridedSlice S8x128x1 ![0, 0, 0] · slices_S8x128x128_S8x128x1_0_0_0),
    TRef.binary (TRef.of (T := ⟨S8x128x127, .i32⟩) main_call40_v3) (TRef.of (T := ⟨S8x128x1, .i32⟩) main_call40_v4) (TRef.of (T := ⟨S8x128x128, .i32⟩) main_v273) (fun a b => concatenate S8x128x128 2 [⟨S8x128x127, a⟩, ⟨S8x128x1, b⟩] concatenates_S8x128x127_S8x128x1_S8x128x128_d2),
    binary main_arg0 main_v271 main_v274 (mulf : (⟨S8x256x128x128, .f32⟩ : BufTy).Contents (Elt F) → (⟨S8x256x128x128, .f32⟩ : BufTy).Contents (Elt F) → (⟨S8x256x128x128, .f32⟩ : BufTy).Contents (Elt F)),
    nullary main_cst_61 (constant S_ .f32 0x00000000#32),
    binary main_v274 main_cst_61 main_v275 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v272 main_v276 (mulf : (⟨S8x128x128, .f32⟩ : BufTy).Contents (Elt F) → (⟨S8x128x128, .f32⟩ : BufTy).Contents (Elt F) → (⟨S8x128x128, .f32⟩ : BufTy).Contents (Elt F)),
    binary main_v275 main_v276 main_v277 (Host.divf : (⟨S8x128x128, .f32⟩ : BufTy).Contents (Elt F) → (⟨S8x128x128, .f32⟩ : BufTy).Contents (Elt F) → (⟨S8x128x128, .f32⟩ : BufTy).Contents (Elt F)),
    binary main_arg1 main_v273 main_v278 (cmpi .eq : (⟨S8x128x128, .i32⟩ : BufTy).Contents (Elt F) → (⟨S8x128x128, .i32⟩ : BufTy).Contents (Elt F) → (⟨S8x128x128, .i1⟩ : BufTy).Contents (Elt F)),
    nullary main_c_62 (constantI S_ 32 2#32),
    unary main_c_62 main_v279 (broadcastInDim S8x128x128 ![] bcast_S_S8x128x128 : (⟨S_, .i32⟩ : BufTy).Contents (Elt F) → (⟨S8x128x128, .i32⟩ : BufTy).Contents (Elt F)),
    binary main_arg1 main_v279 main_v280 (cmpi .slt : (⟨S8x128x128, .i32⟩ : BufTy).Contents (Elt F) → (⟨S8x128x128, .i32⟩ : BufTy).Contents (Elt F) → (⟨S8x128x128, .i1⟩ : BufTy).Contents (Elt F)),
    binary main_v278 main_v280 main_v281 (andi : (⟨S8x128x128, .i1⟩ : BufTy).Contents (Elt F) → (⟨S8x128x128, .i1⟩ : BufTy).Contents (Elt F) → (⟨S8x128x128, .i1⟩ : BufTy).Contents (Elt F)),
    unary main_v281 main_v282 (uitofp .f32 : (⟨S8x128x128, .i1⟩ : BufTy).Contents (Elt F) → (⟨S8x128x128, .f32⟩ : BufTy).Contents (Elt F)),
    binary main_v277 main_v282 main_v283 (subf : (⟨S8x128x128, .f32⟩ : BufTy).Contents (Elt F) → (⟨S8x128x128, .f32⟩ : BufTy).Contents (Elt F) → (⟨S8x128x128, .f32⟩ : BufTy).Contents (Elt F)),
    binary main_v283 main_v283 main_v284 (mulf : (⟨S8x128x128, .f32⟩ : BufTy).Contents (Elt F) → (⟨S8x128x128, .f32⟩ : BufTy).Contents (Elt F) → (⟨S8x128x128, .f32⟩ : BufTy).Contents (Elt F)),
    binary main_v284 main_v29 main_v285 (mulf : (⟨S8x128x128, .f32⟩ : BufTy).Contents (Elt F) → (⟨S8x128x128, .f32⟩ : BufTy).Contents (Elt F) → (⟨S8x128x128, .f32⟩ : BufTy).Contents (Elt F)),
    nullary main_cst_63 (constant S_ .f32 0x00000000#32),
    binary main_v285 main_cst_63 main_v286 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_64 (constant S_ .f32 0x3F800000#32),
    unary main_cst_64 main_v287 (broadcastInDim S8 ![] bcast_S_S8 : (⟨S_, .f32⟩ : BufTy).Contents (Elt F) → (⟨S8, .f32⟩ : BufTy).Contents (Elt F)),
    binary main_v23 main_v287 main_v288 (maximumf : (⟨S8, .f32⟩ : BufTy).Contents (Elt F) → (⟨S8, .f32⟩ : BufTy).Contents (Elt F) → (⟨S8, .f32⟩ : BufTy).Contents (Elt F)),
    binary main_v286 main_v288 main_v289 (Host.divf : (⟨S8, .f32⟩ : BufTy).Contents (Elt F) → (⟨S8, .f32⟩ : BufTy).Contents (Elt F) → (⟨S8, .f32⟩ : BufTy).Contents (Elt F)),
    binary main_v270 main_v289 main_v290 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call41_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call41_v1) (extractStridedSlice S8x256x0x128 ![0, 0, 0, 0] · slices_S8x256x128x128_S8x256x0x128_0_0_0_0),
    TRef.binary (TRef.of (T := ⟨S8x256x128x128, .f32⟩) main_call41_v0) (TRef.of (T := ⟨S8x256x0x128, .f32⟩) main_call41_v1) (TRef.of (T := ⟨S8x256x128x128, .f32⟩) main_call41_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call41_v2) (TRef.of (T := ⟨S8x256x128x126, .f32⟩) main_call41_v3) (extractStridedSlice S8x256x128x126 ![0, 0, 0, 2] · slices_S8x256x128x128_S8x256x128x126_0_0_0_2),
    TRef.unary (TRef.of (T := ⟨S8x256x128x128, .f32⟩) main_call41_v2) (TRef.of (T := ⟨S8x256x128x2, .f32⟩) main_call41_v4) (extractStridedSlice S8x256x128x2 ![0, 0, 0, 0] · slices_S8x256x128x128_S8x256x128x2_0_0_0_0),
    TRef.binary (TRef.of (T := ⟨S8x256x128x126, .f32⟩) main_call41_v3) (TRef.of (T := ⟨S8x256x128x2, .f32⟩) main_call41_v4) (TRef.of (T := ⟨S8x256x128x128, .f32⟩) main_v291) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x128x128, .f32⟩) main_call42_v0) (extractStridedSlice S8x128x128 ![0, 0, 0] · slices_S8x128x128_S8x128x128_0_0_0),
    TRef.unary (TRef.of (T := ⟨S8x128x128, .f32⟩) main_v28) (TRef.of (T := ⟨S8x0x128, .f32⟩) main_call42_v1) (extractStridedSlice S8x0x128 ![0, 0, 0] · slices_S8x128x128_S8x0x128_0_0_0),
    TRef.binary (TRef.of (T := ⟨S8x128x128, .f32⟩) main_call42_v0) (TRef.of (T := ⟨S8x0x128, .f32⟩) main_call42_v1) (TRef.of (T := ⟨S8x128x128, .f32⟩) main_call42_v2) (fun a b => concatenate S8x128x128 1 [⟨S8x128x128, a⟩, ⟨S8x0x128, b⟩] concatenates_S8x128x128_S8x0x128_S8x128x128_d1),
    TRef.unary (TRef.of (T := ⟨S8x128x128, .f32⟩) main_call42_v2) (TRef.of (T := ⟨S8x128x126, .f32⟩) main_call42_v3) (extractStridedSlice S8x128x126 ![0, 0, 2] · slices_S8x128x128_S8x128x126_0_0_2),
    TRef.unary (TRef.of (T := ⟨S8x128x128, .f32⟩) main_call42_v2) (TRef.of (T := ⟨S8x128x2, .f32⟩) main_call42_v4) (extractStridedSlice S8x128x2 ![0, 0, 0] · slices_S8x128x128_S8x128x2_0_0_0),
    TRef.binary (TRef.of (T := ⟨S8x128x126, .f32⟩) main_call42_v3) (TRef.of (T := ⟨S8x128x2, .f32⟩) main_call42_v4) (TRef.of (T := ⟨S8x128x128, .f32⟩) main_v292) (fun a b => concatenate S8x128x128 2 [⟨S8x128x126, a⟩, ⟨S8x128x2, b⟩] concatenates_S8x128x126_S8x128x2_S8x128x128_d2) ]

set_option maxRecDepth 8192 in
set_option maxHeartbeats 4000000 in
/-- That part of the program is the straight line of those operations. -/
theorem part5_eq (c : Dev nD) : main_part5 (F := F) c = seq ops5 := rfl

/-- The host operations of the program's statements 361 to 420, in order (a called function's operations in its call's place). -/
abbrev ops6 : List (HloOp τ sig (Elt F)) :=
  [ TRef.unary (TRef.of (T := ⟨S8x128x128, .i32⟩) main_arg1) (TRef.of (T := ⟨S8x128x128, .i32⟩) main_call43_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call43_v1) (extractStridedSlice S8x0x128 ![0, 0, 0] · slices_S8x128x128_S8x0x128_0_0_0),
    TRef.binary (TRef.of (T := ⟨S8x128x128, .i32⟩) main_call43_v0) (TRef.of (T := ⟨S8x0x128, .i32⟩) main_call43_v1) (TRef.of (T := ⟨S8x128x128, .i32⟩) main_call43_v2) (fun a b => concatenate S8x128x128 1 [⟨S8x128x128, a⟩, ⟨S8x0x128, b⟩] concatenates_S8x128x128_S8x0x128_S8x128x128_d1),
    TRef.unary (TRef.of (T := ⟨S8x128x128, .i32⟩) main_call43_v2) (TRef.of (T := ⟨S8x128x126, .i32⟩) main_call43_v3) (extractStridedSlice S8x128x126 ![0, 0, 2] · slices_S8x128x128_S8x128x126_0_0_2),
    TRef.unary (TRef.of (T := ⟨S8x128x128, .i32⟩) main_call43_v2) (TRef.of (T := ⟨S8x128x2, .i32⟩) main_call43_v4) (extractStridedSlice S8x128x2 ![0, 0, 0] · slices_S8x128x128_S8x128x2_0_0_0),
    TRef.binary (TRef.of (T := ⟨S8x128x126, .i32⟩) main_call43_v3) (TRef.of (T := ⟨S8x128x2, .i32⟩) main_call43_v4) (TRef.of (T := ⟨S8x128x128, .i32⟩) main_v293) (fun a b => concatenate S8x128x128 2 [⟨S8x128x126, a⟩, ⟨S8x128x2, b⟩] concatenates_S8x128x126_S8x128x2_S8x128x128_d2),
    binary main_arg0 main_v291 main_v294 (mulf : (⟨S8x256x128x128, .f32⟩ : BufTy).Contents (Elt F) → (⟨S8x256x128x128, .f32⟩ : BufTy).Contents (Elt F) → (⟨S8x256x128x128, .f32⟩ : BufTy).Contents (Elt F)),
    nullary main_cst_65 (constant S_ .f32 0x00000000#32),
    binary main_v294 main_cst_65 main_v295 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v292 main_v296 (mulf : (⟨S8x128x128, .f32⟩ : BufTy).Contents (Elt F) → (⟨S8x128x128, .f32⟩ : BufTy).Contents (Elt F) → (⟨S8x128x128, .f32⟩ : BufTy).Contents (Elt F)),
    binary main_v295 main_v296 main_v297 (Host.divf : (⟨S8x128x128, .f32⟩ : BufTy).Contents (Elt F) → (⟨S8x128x128, .f32⟩ : BufTy).Contents (Elt F) → (⟨S8x128x128, .f32⟩ : BufTy).Contents (Elt F)),
    binary main_arg1 main_v293 main_v298 (cmpi .eq : (⟨S8x128x128, .i32⟩ : BufTy).Contents (Elt F) → (⟨S8x128x128, .i32⟩ : BufTy).Contents (Elt F) → (⟨S8x128x128, .i1⟩ : BufTy).Contents (Elt F)),
    nullary main_c_66 (constantI S_ 32 2#32),
    unary main_c_66 main_v299 (broadcastInDim S8x128x128 ![] bcast_S_S8x128x128 : (⟨S_, .i32⟩ : BufTy).Contents (Elt F) → (⟨S8x128x128, .i32⟩ : BufTy).Contents (Elt F)),
    binary main_arg1 main_v299 main_v300 (cmpi .slt : (⟨S8x128x128, .i32⟩ : BufTy).Contents (Elt F) → (⟨S8x128x128, .i32⟩ : BufTy).Contents (Elt F) → (⟨S8x128x128, .i1⟩ : BufTy).Contents (Elt F)),
    binary main_v298 main_v300 main_v301 (andi : (⟨S8x128x128, .i1⟩ : BufTy).Contents (Elt F) → (⟨S8x128x128, .i1⟩ : BufTy).Contents (Elt F) → (⟨S8x128x128, .i1⟩ : BufTy).Contents (Elt F)),
    unary main_v301 main_v302 (uitofp .f32 : (⟨S8x128x128, .i1⟩ : BufTy).Contents (Elt F) → (⟨S8x128x128, .f32⟩ : BufTy).Contents (Elt F)),
    binary main_v297 main_v302 main_v303 (subf : (⟨S8x128x128, .f32⟩ : BufTy).Contents (Elt F) → (⟨S8x128x128, .f32⟩ : BufTy).Contents (Elt F) → (⟨S8x128x128, .f32⟩ : BufTy).Contents (Elt F)),
    binary main_v303 main_v303 main_v304 (mulf : (⟨S8x128x128, .f32⟩ : BufTy).Contents (Elt F) → (⟨S8x128x128, .f32⟩ : BufTy).Contents (Elt F) → (⟨S8x128x128, .f32⟩ : BufTy).Contents (Elt F)),
    binary main_v304 main_v29 main_v305 (mulf : (⟨S8x128x128, .f32⟩ : BufTy).Contents (Elt F) → (⟨S8x128x128, .f32⟩ : BufTy).Contents (Elt F) → (⟨S8x128x128, .f32⟩ : BufTy).Contents (Elt F)),
    nullary main_cst_67 (constant S_ .f32 0x00000000#32),
    binary main_v305 main_cst_67 main_v306 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_68 (constant S_ .f32 0x3F800000#32),
    unary main_cst_68 main_v307 (broadcastInDim S8 ![] bcast_S_S8 : (⟨S_, .f32⟩ : BufTy).Contents (Elt F) → (⟨S8, .f32⟩ : BufTy).Contents (Elt F)),
    binary main_v23 main_v307 main_v308 (maximumf : (⟨S8, .f32⟩ : BufTy).Contents (Elt F) → (⟨S8, .f32⟩ : BufTy).Contents (Elt F) → (⟨S8, .f32⟩ : BufTy).Contents (Elt F)),
    binary main_v306 main_v308 main_v309 (Host.divf : (⟨S8, .f32⟩ : BufTy).Contents (Elt F) → (⟨S8, .f32⟩ : BufTy).Contents (Elt F) → (⟨S8, .f32⟩ : BufTy).Contents (Elt F)),
    binary main_v290 main_v309 main_v310 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call44_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call44_v1) (extractStridedSlice S8x256x1x128 ![0, 0, 0, 0] · slices_S8x256x128x128_S8x256x1x128_0_0_0_0),
    TRef.binary (TRef.of (T := ⟨S8x256x127x128, .f32⟩) main_call44_v0) (TRef.of (T := ⟨S8x256x1x128, .f32⟩) main_call44_v1) (TRef.of (T := ⟨S8x256x128x128, .f32⟩) main_call44_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call44_v2) (TRef.of (T := ⟨S8x256x128x2, .f32⟩) main_call44_v3) (extractStridedSlice S8x256x128x2 ![0, 0, 0, 126] · slices_S8x256x128x128_S8x256x128x2_0_0_0_126),
    TRef.unary (TRef.of (T := ⟨S8x256x128x128, .f32⟩) main_call44_v2) (TRef.of (T := ⟨S8x256x128x126, .f32⟩) main_call44_v4) (extractStridedSlice S8x256x128x126 ![0, 0, 0, 0] · slices_S8x256x128x128_S8x256x128x126_0_0_0_0),
    TRef.binary (TRef.of (T := ⟨S8x256x128x2, .f32⟩) main_call44_v3) (TRef.of (T := ⟨S8x256x128x126, .f32⟩) main_call44_v4) (TRef.of (T := ⟨S8x256x128x128, .f32⟩) main_v311) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x127x128, .f32⟩) main_call45_v0) (extractStridedSlice S8x127x128 ![0, 1, 0] · slices_S8x128x128_S8x127x128_0_1_0),
    TRef.unary (TRef.of (T := ⟨S8x128x128, .f32⟩) main_v28) (TRef.of (T := ⟨S8x1x128, .f32⟩) main_call45_v1) (extractStridedSlice S8x1x128 ![0, 0, 0] · slices_S8x128x128_S8x1x128_0_0_0),
    TRef.binary (TRef.of (T := ⟨S8x127x128, .f32⟩) main_call45_v0) (TRef.of (T := ⟨S8x1x128, .f32⟩) main_call45_v1) (TRef.of (T := ⟨S8x128x128, .f32⟩) main_call45_v2) (fun a b => concatenate S8x128x128 1 [⟨S8x127x128, a⟩, ⟨S8x1x128, b⟩] concatenates_S8x127x128_S8x1x128_S8x128x128_d1),
    TRef.unary (TRef.of (T := ⟨S8x128x128, .f32⟩) main_call45_v2) (TRef.of (T := ⟨S8x128x2, .f32⟩) main_call45_v3) (extractStridedSlice S8x128x2 ![0, 0, 126] · slices_S8x128x128_S8x128x2_0_0_126),
    TRef.unary (TRef.of (T := ⟨S8x128x128, .f32⟩) main_call45_v2) (TRef.of (T := ⟨S8x128x126, .f32⟩) main_call45_v4) (extractStridedSlice S8x128x126 ![0, 0, 0] · slices_S8x128x128_S8x128x126_0_0_0),
    TRef.binary (TRef.of (T := ⟨S8x128x2, .f32⟩) main_call45_v3) (TRef.of (T := ⟨S8x128x126, .f32⟩) main_call45_v4) (TRef.of (T := ⟨S8x128x128, .f32⟩) main_v312) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x127x128, .i32⟩) main_call46_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call46_v1) (extractStridedSlice S8x1x128 ![0, 0, 0] · slices_S8x128x128_S8x1x128_0_0_0),
    TRef.binary (TRef.of (T := ⟨S8x127x128, .i32⟩) main_call46_v0) (TRef.of (T := ⟨S8x1x128, .i32⟩) main_call46_v1) (TRef.of (T := ⟨S8x128x128, .i32⟩) main_call46_v2) (fun a b => concatenate S8x128x128 1 [⟨S8x127x128, a⟩, ⟨S8x1x128, b⟩] concatenates_S8x127x128_S8x1x128_S8x128x128_d1),
    TRef.unary (TRef.of (T := ⟨S8x128x128, .i32⟩) main_call46_v2) (TRef.of (T := ⟨S8x128x2, .i32⟩) main_call46_v3) (extractStridedSlice S8x128x2 ![0, 0, 126] · slices_S8x128x128_S8x128x2_0_0_126),
    TRef.unary (TRef.of (T := ⟨S8x128x128, .i32⟩) main_call46_v2) (TRef.of (T := ⟨S8x128x126, .i32⟩) main_call46_v4) (extractStridedSlice S8x128x126 ![0, 0, 0] · slices_S8x128x128_S8x128x126_0_0_0),
    TRef.binary (TRef.of (T := ⟨S8x128x2, .i32⟩) main_call46_v3) (TRef.of (T := ⟨S8x128x126, .i32⟩) main_call46_v4) (TRef.of (T := ⟨S8x128x128, .i32⟩) main_v313) (fun a b => concatenate S8x128x128 2 [⟨S8x128x2, a⟩, ⟨S8x128x126, b⟩] concatenates_S8x128x2_S8x128x126_S8x128x128_d2),
    binary main_arg0 main_v311 main_v314 (mulf : (⟨S8x256x128x128, .f32⟩ : BufTy).Contents (Elt F) → (⟨S8x256x128x128, .f32⟩ : BufTy).Contents (Elt F) → (⟨S8x256x128x128, .f32⟩ : BufTy).Contents (Elt F)),
    nullary main_cst_69 (constant S_ .f32 0x00000000#32),
    binary main_v314 main_cst_69 main_v315 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v312 main_v316 (mulf : (⟨S8x128x128, .f32⟩ : BufTy).Contents (Elt F) → (⟨S8x128x128, .f32⟩ : BufTy).Contents (Elt F) → (⟨S8x128x128, .f32⟩ : BufTy).Contents (Elt F)),
    binary main_v315 main_v316 main_v317 (Host.divf : (⟨S8x128x128, .f32⟩ : BufTy).Contents (Elt F) → (⟨S8x128x128, .f32⟩ : BufTy).Contents (Elt F) → (⟨S8x128x128, .f32⟩ : BufTy).Contents (Elt F)),
    binary main_arg1 main_v313 main_v318 (cmpi .eq : (⟨S8x128x128, .i32⟩ : BufTy).Contents (Elt F) → (⟨S8x128x128, .i32⟩ : BufTy).Contents (Elt F) → (⟨S8x128x128, .i1⟩ : BufTy).Contents (Elt F)),
    nullary main_c_70 (constantI S_ 32 2#32),
    unary main_c_70 main_v319 (broadcastInDim S8x128x128 ![] bcast_S_S8x128x128 : (⟨S_, .i32⟩ : BufTy).Contents (Elt F) → (⟨S8x128x128, .i32⟩ : BufTy).Contents (Elt F)),
    binary main_arg1 main_v319 main_v320 (cmpi .slt : (⟨S8x128x128, .i32⟩ : BufTy).Contents (Elt F) → (⟨S8x128x128, .i32⟩ : BufTy).Contents (Elt F) → (⟨S8x128x128, .i1⟩ : BufTy).Contents (Elt F)),
    binary main_v318 main_v320 main_v321 (andi : (⟨S8x128x128, .i1⟩ : BufTy).Contents (Elt F) → (⟨S8x128x128, .i1⟩ : BufTy).Contents (Elt F) → (⟨S8x128x128, .i1⟩ : BufTy).Contents (Elt F)),
    unary main_v321 main_v322 (uitofp .f32 : (⟨S8x128x128, .i1⟩ : BufTy).Contents (Elt F) → (⟨S8x128x128, .f32⟩ : BufTy).Contents (Elt F)),
    binary main_v317 main_v322 main_v323 (subf : (⟨S8x128x128, .f32⟩ : BufTy).Contents (Elt F) → (⟨S8x128x128, .f32⟩ : BufTy).Contents (Elt F) → (⟨S8x128x128, .f32⟩ : BufTy).Contents (Elt F)),
    binary main_v323 main_v323 main_v324 (mulf : (⟨S8x128x128, .f32⟩ : BufTy).Contents (Elt F) → (⟨S8x128x128, .f32⟩ : BufTy).Contents (Elt F) → (⟨S8x128x128, .f32⟩ : BufTy).Contents (Elt F)),
    binary main_v324 main_v29 main_v325 (mulf : (⟨S8x128x128, .f32⟩ : BufTy).Contents (Elt F) → (⟨S8x128x128, .f32⟩ : BufTy).Contents (Elt F) → (⟨S8x128x128, .f32⟩ : BufTy).Contents (Elt F)),
    nullary main_cst_71 (constant S_ .f32 0x00000000#32),
    binary main_v325 main_cst_71 main_v326 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_72 (constant S_ .f32 0x3F800000#32),
    unary main_cst_72 main_v327 (broadcastInDim S8 ![] bcast_S_S8 : (⟨S_, .f32⟩ : BufTy).Contents (Elt F) → (⟨S8, .f32⟩ : BufTy).Contents (Elt F)),
    binary main_v23 main_v327 main_v328 (maximumf : (⟨S8, .f32⟩ : BufTy).Contents (Elt F) → (⟨S8, .f32⟩ : BufTy).Contents (Elt F) → (⟨S8, .f32⟩ : BufTy).Contents (Elt F)),
    binary main_v326 main_v328 main_v329 (Host.divf : (⟨S8, .f32⟩ : BufTy).Contents (Elt F) → (⟨S8, .f32⟩ : BufTy).Contents (Elt F) → (⟨S8, .f32⟩ : BufTy).Contents (Elt F)),
    binary main_v310 main_v329 main_v330 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call47_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call47_v1) (extractStridedSlice S8x256x1x128 ![0, 0, 0, 0] · slices_S8x256x128x128_S8x256x1x128_0_0_0_0),
    TRef.binary (TRef.of (T := ⟨S8x256x127x128, .f32⟩) main_call47_v0) (TRef.of (T := ⟨S8x256x1x128, .f32⟩) main_call47_v1) (TRef.of (T := ⟨S8x256x128x128, .f32⟩) main_call47_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call47_v2) (TRef.of (T := ⟨S8x256x128x1, .f32⟩) main_call47_v3) (extractStridedSlice S8x256x128x1 ![0, 0, 0, 127] · slices_S8x256x128x128_S8x256x128x1_0_0_0_127),
    TRef.unary (TRef.of (T := ⟨S8x256x128x128, .f32⟩) main_call47_v2) (TRef.of (T := ⟨S8x256x128x127, .f32⟩) main_call47_v4) (extractStridedSlice S8x256x128x127 ![0, 0, 0, 0] · slices_S8x256x128x128_S8x256x128x127_0_0_0_0),
    TRef.binary (TRef.of (T := ⟨S8x256x128x1, .f32⟩) main_call47_v3) (TRef.of (T := ⟨S8x256x128x127, .f32⟩) main_call47_v4) (TRef.of (T := ⟨S8x256x128x128, .f32⟩) main_v331) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x127x128, .f32⟩) main_call48_v0) (extractStridedSlice S8x127x128 ![0, 1, 0] · slices_S8x128x128_S8x127x128_0_1_0),
    TRef.unary (TRef.of (T := ⟨S8x128x128, .f32⟩) main_v28) (TRef.of (T := ⟨S8x1x128, .f32⟩) main_call48_v1) (extractStridedSlice S8x1x128 ![0, 0, 0] · slices_S8x128x128_S8x1x128_0_0_0),
    TRef.binary (TRef.of (T := ⟨S8x127x128, .f32⟩) main_call48_v0) (TRef.of (T := ⟨S8x1x128, .f32⟩) main_call48_v1) (TRef.of (T := ⟨S8x128x128, .f32⟩) main_call48_v2) (fun a b => concatenate S8x128x128 1 [⟨S8x127x128, a⟩, ⟨S8x1x128, b⟩] concatenates_S8x127x128_S8x1x128_S8x128x128_d1),
    TRef.unary (TRef.of (T := ⟨S8x128x128, .f32⟩) main_call48_v2) (TRef.of (T := ⟨S8x128x1, .f32⟩) main_call48_v3) (extractStridedSlice S8x128x1 ![0, 0, 127] · slices_S8x128x128_S8x128x1_0_0_127),
    TRef.unary (TRef.of (T := ⟨S8x128x128, .f32⟩) main_call48_v2) (TRef.of (T := ⟨S8x128x127, .f32⟩) main_call48_v4) (extractStridedSlice S8x128x127 ![0, 0, 0] · slices_S8x128x128_S8x128x127_0_0_0),
    TRef.binary (TRef.of (T := ⟨S8x128x1, .f32⟩) main_call48_v3) (TRef.of (T := ⟨S8x128x127, .f32⟩) main_call48_v4) (TRef.of (T := ⟨S8x128x128, .f32⟩) main_v332) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x127x128, .i32⟩) main_call49_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call49_v1) (extractStridedSlice S8x1x128 ![0, 0, 0] · slices_S8x128x128_S8x1x128_0_0_0),
    TRef.binary (TRef.of (T := ⟨S8x127x128, .i32⟩) main_call49_v0) (TRef.of (T := ⟨S8x1x128, .i32⟩) main_call49_v1) (TRef.of (T := ⟨S8x128x128, .i32⟩) main_call49_v2) (fun a b => concatenate S8x128x128 1 [⟨S8x127x128, a⟩, ⟨S8x1x128, b⟩] concatenates_S8x127x128_S8x1x128_S8x128x128_d1),
    TRef.unary (TRef.of (T := ⟨S8x128x128, .i32⟩) main_call49_v2) (TRef.of (T := ⟨S8x128x1, .i32⟩) main_call49_v3) (extractStridedSlice S8x128x1 ![0, 0, 127] · slices_S8x128x128_S8x128x1_0_0_127),
    TRef.unary (TRef.of (T := ⟨S8x128x128, .i32⟩) main_call49_v2) (TRef.of (T := ⟨S8x128x127, .i32⟩) main_call49_v4) (extractStridedSlice S8x128x127 ![0, 0, 0] · slices_S8x128x128_S8x128x127_0_0_0),
    TRef.binary (TRef.of (T := ⟨S8x128x1, .i32⟩) main_call49_v3) (TRef.of (T := ⟨S8x128x127, .i32⟩) main_call49_v4) (TRef.of (T := ⟨S8x128x128, .i32⟩) main_v333) (fun a b => concatenate S8x128x128 2 [⟨S8x128x1, a⟩, ⟨S8x128x127, b⟩] concatenates_S8x128x1_S8x128x127_S8x128x128_d2),
    binary main_arg0 main_v331 main_v334 (mulf : (⟨S8x256x128x128, .f32⟩ : BufTy).Contents (Elt F) → (⟨S8x256x128x128, .f32⟩ : BufTy).Contents (Elt F) → (⟨S8x256x128x128, .f32⟩ : BufTy).Contents (Elt F)),
    nullary main_cst_73 (constant S_ .f32 0x00000000#32),
    binary main_v334 main_cst_73 main_v335 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v332 main_v336 (mulf : (⟨S8x128x128, .f32⟩ : BufTy).Contents (Elt F) → (⟨S8x128x128, .f32⟩ : BufTy).Contents (Elt F) → (⟨S8x128x128, .f32⟩ : BufTy).Contents (Elt F)),
    binary main_v335 main_v336 main_v337 (Host.divf : (⟨S8x128x128, .f32⟩ : BufTy).Contents (Elt F) → (⟨S8x128x128, .f32⟩ : BufTy).Contents (Elt F) → (⟨S8x128x128, .f32⟩ : BufTy).Contents (Elt F)),
    binary main_arg1 main_v333 main_v338 (cmpi .eq : (⟨S8x128x128, .i32⟩ : BufTy).Contents (Elt F) → (⟨S8x128x128, .i32⟩ : BufTy).Contents (Elt F) → (⟨S8x128x128, .i1⟩ : BufTy).Contents (Elt F)),
    nullary main_c_74 (constantI S_ 32 2#32),
    unary main_c_74 main_v339 (broadcastInDim S8x128x128 ![] bcast_S_S8x128x128 : (⟨S_, .i32⟩ : BufTy).Contents (Elt F) → (⟨S8x128x128, .i32⟩ : BufTy).Contents (Elt F)),
    binary main_arg1 main_v339 main_v340 (cmpi .slt : (⟨S8x128x128, .i32⟩ : BufTy).Contents (Elt F) → (⟨S8x128x128, .i32⟩ : BufTy).Contents (Elt F) → (⟨S8x128x128, .i1⟩ : BufTy).Contents (Elt F)),
    binary main_v338 main_v340 main_v341 (andi : (⟨S8x128x128, .i1⟩ : BufTy).Contents (Elt F) → (⟨S8x128x128, .i1⟩ : BufTy).Contents (Elt F) → (⟨S8x128x128, .i1⟩ : BufTy).Contents (Elt F)),
    unary main_v341 main_v342 (uitofp .f32 : (⟨S8x128x128, .i1⟩ : BufTy).Contents (Elt F) → (⟨S8x128x128, .f32⟩ : BufTy).Contents (Elt F)) ]

set_option maxRecDepth 8192 in
set_option maxHeartbeats 4000000 in
/-- That part of the program is the straight line of those operations. -/
theorem part6_eq (c : Dev nD) : main_part6 (F := F) c = seq ops6 := rfl

/-- The host operations of the program's statements 421 to 480, in order (a called function's operations in its call's place). -/
abbrev ops7 : List (HloOp τ sig (Elt F)) :=
  [ binary main_v337 main_v342 main_v343 (subf : (⟨S8x128x128, .f32⟩ : BufTy).Contents (Elt F) → (⟨S8x128x128, .f32⟩ : BufTy).Contents (Elt F) → (⟨S8x128x128, .f32⟩ : BufTy).Contents (Elt F)),
    binary main_v343 main_v343 main_v344 (mulf : (⟨S8x128x128, .f32⟩ : BufTy).Contents (Elt F) → (⟨S8x128x128, .f32⟩ : BufTy).Contents (Elt F) → (⟨S8x128x128, .f32⟩ : BufTy).Contents (Elt F)),
    binary main_v344 main_v29 main_v345 (mulf : (⟨S8x128x128, .f32⟩ : BufTy).Contents (Elt F) → (⟨S8x128x128, .f32⟩ : BufTy).Contents (Elt F) → (⟨S8x128x128, .f32⟩ : BufTy).Contents (Elt F)),
    nullary main_cst_75 (constant S_ .f32 0x00000000#32),
    binary main_v345 main_cst_75 main_v346 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_76 (constant S_ .f32 0x3F800000#32),
    unary main_cst_76 main_v347 (broadcastInDim S8 ![] bcast_S_S8 : (⟨S_, .f32⟩ : BufTy).Contents (Elt F) → (⟨S8, .f32⟩ : BufTy).Contents (Elt F)),
    binary main_v23 main_v347 main_v348 (maximumf : (⟨S8, .f32⟩ : BufTy).Contents (Elt F) → (⟨S8, .f32⟩ : BufTy).Contents (Elt F) → (⟨S8, .f32⟩ : BufTy).Contents (Elt F)),
    binary main_v346 main_v348 main_v349 (Host.divf : (⟨S8, .f32⟩ : BufTy).Contents (Elt F) → (⟨S8, .f32⟩ : BufTy).Contents (Elt F) → (⟨S8, .f32⟩ : BufTy).Contents (Elt F)),
    binary main_v330 main_v349 main_v350 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call50_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call50_v1) (extractStridedSlice S8x256x1x128 ![0, 0, 0, 0] · slices_S8x256x128x128_S8x256x1x128_0_0_0_0),
    TRef.binary (TRef.of (T := ⟨S8x256x127x128, .f32⟩) main_call50_v0) (TRef.of (T := ⟨S8x256x1x128, .f32⟩) main_call50_v1) (TRef.of (T := ⟨S8x256x128x128, .f32⟩) main_call50_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call50_v2) (TRef.of (T := ⟨S8x256x128x128, .f32⟩) main_call50_v3) (extractStridedSlice S8x256x128x128 ![0, 0, 0, 0] · slices_S8x256x128x128_S8x256x128x128_0_0_0_0),
    TRef.unary (TRef.of (T := ⟨S8x256x128x128, .f32⟩) main_call50_v2) (TRef.of (T := ⟨S8x256x128x0, .f32⟩) main_call50_v4) (extractStridedSlice S8x256x128x0 ![0, 0, 0, 0] · slices_S8x256x128x128_S8x256x128x0_0_0_0_0),
    TRef.binary (TRef.of (T := ⟨S8x256x128x128, .f32⟩) main_call50_v3) (TRef.of (T := ⟨S8x256x128x0, .f32⟩) main_call50_v4) (TRef.of (T := ⟨S8x256x128x128, .f32⟩) main_v351) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x127x128, .f32⟩) main_call51_v0) (extractStridedSlice S8x127x128 ![0, 1, 0] · slices_S8x128x128_S8x127x128_0_1_0),
    TRef.unary (TRef.of (T := ⟨S8x128x128, .f32⟩) main_v28) (TRef.of (T := ⟨S8x1x128, .f32⟩) main_call51_v1) (extractStridedSlice S8x1x128 ![0, 0, 0] · slices_S8x128x128_S8x1x128_0_0_0),
    TRef.binary (TRef.of (T := ⟨S8x127x128, .f32⟩) main_call51_v0) (TRef.of (T := ⟨S8x1x128, .f32⟩) main_call51_v1) (TRef.of (T := ⟨S8x128x128, .f32⟩) main_call51_v2) (fun a b => concatenate S8x128x128 1 [⟨S8x127x128, a⟩, ⟨S8x1x128, b⟩] concatenates_S8x127x128_S8x1x128_S8x128x128_d1),
    TRef.unary (TRef.of (T := ⟨S8x128x128, .f32⟩) main_call51_v2) (TRef.of (T := ⟨S8x128x128, .f32⟩) main_call51_v3) (extractStridedSlice S8x128x128 ![0, 0, 0] · slices_S8x128x128_S8x128x128_0_0_0),
    TRef.unary (TRef.of (T := ⟨S8x128x128, .f32⟩) main_call51_v2) (TRef.of (T := ⟨S8x128x0, .f32⟩) main_call51_v4) (extractStridedSlice S8x128x0 ![0, 0, 0] · slices_S8x128x128_S8x128x0_0_0_0),
    TRef.binary (TRef.of (T := ⟨S8x128x128, .f32⟩) main_call51_v3) (TRef.of (T := ⟨S8x128x0, .f32⟩) main_call51_v4) (TRef.of (T := ⟨S8x128x128, .f32⟩) main_v352) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x127x128, .i32⟩) main_call52_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call52_v1) (extractStridedSlice S8x1x128 ![0, 0, 0] · slices_S8x128x128_S8x1x128_0_0_0),
    TRef.binary (TRef.of (T := ⟨S8x127x128, .i32⟩) main_call52_v0) (TRef.of (T := ⟨S8x1x128, .i32⟩) main_call52_v1) (TRef.of (T := ⟨S8x128x128, .i32⟩) main_call52_v2) (fun a b => concatenate S8x128x128 1 [⟨S8x127x128, a⟩, ⟨S8x1x128, b⟩] concatenates_S8x127x128_S8x1x128_S8x128x128_d1),
    TRef.unary (TRef.of (T := ⟨S8x128x128, .i32⟩) main_call52_v2) (TRef.of (T := ⟨S8x128x128, .i32⟩) main_call52_v3) (extractStridedSlice S8x128x128 ![0, 0, 0] · slices_S8x128x128_S8x128x128_0_0_0),
    TRef.unary (TRef.of (T := ⟨S8x128x128, .i32⟩) main_call52_v2) (TRef.of (T := ⟨S8x128x0, .i32⟩) main_call52_v4) (extractStridedSlice S8x128x0 ![0, 0, 0] · slices_S8x128x128_S8x128x0_0_0_0),
    TRef.binary (TRef.of (T := ⟨S8x128x128, .i32⟩) main_call52_v3) (TRef.of (T := ⟨S8x128x0, .i32⟩) main_call52_v4) (TRef.of (T := ⟨S8x128x128, .i32⟩) main_v353) (fun a b => concatenate S8x128x128 2 [⟨S8x128x128, a⟩, ⟨S8x128x0, b⟩] concatenates_S8x128x128_S8x128x0_S8x128x128_d2),
    binary main_arg0 main_v351 main_v354 (mulf : (⟨S8x256x128x128, .f32⟩ : BufTy).Contents (Elt F) → (⟨S8x256x128x128, .f32⟩ : BufTy).Contents (Elt F) → (⟨S8x256x128x128, .f32⟩ : BufTy).Contents (Elt F)),
    nullary main_cst_77 (constant S_ .f32 0x00000000#32),
    binary main_v354 main_cst_77 main_v355 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v352 main_v356 (mulf : (⟨S8x128x128, .f32⟩ : BufTy).Contents (Elt F) → (⟨S8x128x128, .f32⟩ : BufTy).Contents (Elt F) → (⟨S8x128x128, .f32⟩ : BufTy).Contents (Elt F)),
    binary main_v355 main_v356 main_v357 (Host.divf : (⟨S8x128x128, .f32⟩ : BufTy).Contents (Elt F) → (⟨S8x128x128, .f32⟩ : BufTy).Contents (Elt F) → (⟨S8x128x128, .f32⟩ : BufTy).Contents (Elt F)),
    binary main_arg1 main_v353 main_v358 (cmpi .eq : (⟨S8x128x128, .i32⟩ : BufTy).Contents (Elt F) → (⟨S8x128x128, .i32⟩ : BufTy).Contents (Elt F) → (⟨S8x128x128, .i1⟩ : BufTy).Contents (Elt F)),
    nullary main_c_78 (constantI S_ 32 2#32),
    unary main_c_78 main_v359 (broadcastInDim S8x128x128 ![] bcast_S_S8x128x128 : (⟨S_, .i32⟩ : BufTy).Contents (Elt F) → (⟨S8x128x128, .i32⟩ : BufTy).Contents (Elt F)),
    binary main_arg1 main_v359 main_v360 (cmpi .slt : (⟨S8x128x128, .i32⟩ : BufTy).Contents (Elt F) → (⟨S8x128x128, .i32⟩ : BufTy).Contents (Elt F) → (⟨S8x128x128, .i1⟩ : BufTy).Contents (Elt F)),
    binary main_v358 main_v360 main_v361 (andi : (⟨S8x128x128, .i1⟩ : BufTy).Contents (Elt F) → (⟨S8x128x128, .i1⟩ : BufTy).Contents (Elt F) → (⟨S8x128x128, .i1⟩ : BufTy).Contents (Elt F)),
    unary main_v361 main_v362 (uitofp .f32 : (⟨S8x128x128, .i1⟩ : BufTy).Contents (Elt F) → (⟨S8x128x128, .f32⟩ : BufTy).Contents (Elt F)),
    binary main_v357 main_v362 main_v363 (subf : (⟨S8x128x128, .f32⟩ : BufTy).Contents (Elt F) → (⟨S8x128x128, .f32⟩ : BufTy).Contents (Elt F) → (⟨S8x128x128, .f32⟩ : BufTy).Contents (Elt F)),
    binary main_v363 main_v363 main_v364 (mulf : (⟨S8x128x128, .f32⟩ : BufTy).Contents (Elt F) → (⟨S8x128x128, .f32⟩ : BufTy).Contents (Elt F) → (⟨S8x128x128, .f32⟩ : BufTy).Contents (Elt F)),
    binary main_v364 main_v29 main_v365 (mulf : (⟨S8x128x128, .f32⟩ : BufTy).Contents (Elt F) → (⟨S8x128x128, .f32⟩ : BufTy).Contents (Elt F) → (⟨S8x128x128, .f32⟩ : BufTy).Contents (Elt F)),
    nullary main_cst_79 (constant S_ .f32 0x00000000#32),
    binary main_v365 main_cst_79 main_v366 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_80 (constant S_ .f32 0x3F800000#32),
    unary main_cst_80 main_v367 (broadcastInDim S8 ![] bcast_S_S8 : (⟨S_, .f32⟩ : BufTy).Contents (Elt F) → (⟨S8, .f32⟩ : BufTy).Contents (Elt F)),
    binary main_v23 main_v367 main_v368 (maximumf : (⟨S8, .f32⟩ : BufTy).Contents (Elt F) → (⟨S8, .f32⟩ : BufTy).Contents (Elt F) → (⟨S8, .f32⟩ : BufTy).Contents (Elt F)),
    binary main_v366 main_v368 main_v369 (Host.divf : (⟨S8, .f32⟩ : BufTy).Contents (Elt F) → (⟨S8, .f32⟩ : BufTy).Contents (Elt F) → (⟨S8, .f32⟩ : BufTy).Contents (Elt F)),
    binary main_v350 main_v369 main_v370 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call53_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call53_v1) (extractStridedSlice S8x256x1x128 ![0, 0, 0, 0] · slices_S8x256x128x128_S8x256x1x128_0_0_0_0),
    TRef.binary (TRef.of (T := ⟨S8x256x127x128, .f32⟩) main_call53_v0) (TRef.of (T := ⟨S8x256x1x128, .f32⟩) main_call53_v1) (TRef.of (T := ⟨S8x256x128x128, .f32⟩) main_call53_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call53_v2) (TRef.of (T := ⟨S8x256x128x127, .f32⟩) main_call53_v3) (extractStridedSlice S8x256x128x127 ![0, 0, 0, 1] · slices_S8x256x128x128_S8x256x128x127_0_0_0_1),
    TRef.unary (TRef.of (T := ⟨S8x256x128x128, .f32⟩) main_call53_v2) (TRef.of (T := ⟨S8x256x128x1, .f32⟩) main_call53_v4) (extractStridedSlice S8x256x128x1 ![0, 0, 0, 0] · slices_S8x256x128x128_S8x256x128x1_0_0_0_0),
    TRef.binary (TRef.of (T := ⟨S8x256x128x127, .f32⟩) main_call53_v3) (TRef.of (T := ⟨S8x256x128x1, .f32⟩) main_call53_v4) (TRef.of (T := ⟨S8x256x128x128, .f32⟩) main_v371) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x127x128, .f32⟩) main_call54_v0) (extractStridedSlice S8x127x128 ![0, 1, 0] · slices_S8x128x128_S8x127x128_0_1_0),
    TRef.unary (TRef.of (T := ⟨S8x128x128, .f32⟩) main_v28) (TRef.of (T := ⟨S8x1x128, .f32⟩) main_call54_v1) (extractStridedSlice S8x1x128 ![0, 0, 0] · slices_S8x128x128_S8x1x128_0_0_0),
    TRef.binary (TRef.of (T := ⟨S8x127x128, .f32⟩) main_call54_v0) (TRef.of (T := ⟨S8x1x128, .f32⟩) main_call54_v1) (TRef.of (T := ⟨S8x128x128, .f32⟩) main_call54_v2) (fun a b => concatenate S8x128x128 1 [⟨S8x127x128, a⟩, ⟨S8x1x128, b⟩] concatenates_S8x127x128_S8x1x128_S8x128x128_d1),
    TRef.unary (TRef.of (T := ⟨S8x128x128, .f32⟩) main_call54_v2) (TRef.of (T := ⟨S8x128x127, .f32⟩) main_call54_v3) (extractStridedSlice S8x128x127 ![0, 0, 1] · slices_S8x128x128_S8x128x127_0_0_1),
    TRef.unary (TRef.of (T := ⟨S8x128x128, .f32⟩) main_call54_v2) (TRef.of (T := ⟨S8x128x1, .f32⟩) main_call54_v4) (extractStridedSlice S8x128x1 ![0, 0, 0] · slices_S8x128x128_S8x128x1_0_0_0),
    TRef.binary (TRef.of (T := ⟨S8x128x127, .f32⟩) main_call54_v3) (TRef.of (T := ⟨S8x128x1, .f32⟩) main_call54_v4) (TRef.of (T := ⟨S8x128x128, .f32⟩) main_v372) (fun a b => concatenate S8x128x128 2 [⟨S8x128x127, a⟩, ⟨S8x128x1, b⟩] concatenates_S8x128x127_S8x128x1_S8x128x128_d2),
    TRef.unary (TRef.of (T := ⟨S8x128x128, .i32⟩) main_arg1) (TRef.of (T := ⟨S8x127x128, .i32⟩) main_call55_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call55_v1) (extractStridedSlice S8x1x128 ![0, 0, 0] · slices_S8x128x128_S8x1x128_0_0_0),
    TRef.binary (TRef.of (T := ⟨S8x127x128, .i32⟩) main_call55_v0) (TRef.of (T := ⟨S8x1x128, .i32⟩) main_call55_v1) (TRef.of (T := ⟨S8x128x128, .i32⟩) main_call55_v2) (fun a b => concatenate S8x128x128 1 [⟨S8x127x128, a⟩, ⟨S8x1x128, b⟩] concatenates_S8x127x128_S8x1x128_S8x128x128_d1),
    TRef.unary (TRef.of (T := ⟨S8x128x128, .i32⟩) main_call55_v2) (TRef.of (T := ⟨S8x128x127, .i32⟩) main_call55_v3) (extractStridedSlice S8x128x127 ![0, 0, 1] · slices_S8x128x128_S8x128x127_0_0_1),
    TRef.unary (TRef.of (T := ⟨S8x128x128, .i32⟩) main_call55_v2) (TRef.of (T := ⟨S8x128x1, .i32⟩) main_call55_v4) (extractStridedSlice S8x128x1 ![0, 0, 0] · slices_S8x128x128_S8x128x1_0_0_0),
    TRef.binary (TRef.of (T := ⟨S8x128x127, .i32⟩) main_call55_v3) (TRef.of (T := ⟨S8x128x1, .i32⟩) main_call55_v4) (TRef.of (T := ⟨S8x128x128, .i32⟩) main_v373) (fun a b => concatenate S8x128x128 2 [⟨S8x128x127, a⟩, ⟨S8x128x1, b⟩] concatenates_S8x128x127_S8x128x1_S8x128x128_d2),
    binary main_arg0 main_v371 main_v374 (mulf : (⟨S8x256x128x128, .f32⟩ : BufTy).Contents (Elt F) → (⟨S8x256x128x128, .f32⟩ : BufTy).Contents (Elt F) → (⟨S8x256x128x128, .f32⟩ : BufTy).Contents (Elt F)),
    nullary main_cst_81 (constant S_ .f32 0x00000000#32),
    binary main_v374 main_cst_81 main_v375 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v372 main_v376 (mulf : (⟨S8x128x128, .f32⟩ : BufTy).Contents (Elt F) → (⟨S8x128x128, .f32⟩ : BufTy).Contents (Elt F) → (⟨S8x128x128, .f32⟩ : BufTy).Contents (Elt F)),
    binary main_v375 main_v376 main_v377 (Host.divf : (⟨S8x128x128, .f32⟩ : BufTy).Contents (Elt F) → (⟨S8x128x128, .f32⟩ : BufTy).Contents (Elt F) → (⟨S8x128x128, .f32⟩ : BufTy).Contents (Elt F)),
    binary main_arg1 main_v373 main_v378 (cmpi .eq : (⟨S8x128x128, .i32⟩ : BufTy).Contents (Elt F) → (⟨S8x128x128, .i32⟩ : BufTy).Contents (Elt F) → (⟨S8x128x128, .i1⟩ : BufTy).Contents (Elt F)),
    nullary main_c_82 (constantI S_ 32 2#32),
    unary main_c_82 main_v379 (broadcastInDim S8x128x128 ![] bcast_S_S8x128x128 : (⟨S_, .i32⟩ : BufTy).Contents (Elt F) → (⟨S8x128x128, .i32⟩ : BufTy).Contents (Elt F)),
    binary main_arg1 main_v379 main_v380 (cmpi .slt : (⟨S8x128x128, .i32⟩ : BufTy).Contents (Elt F) → (⟨S8x128x128, .i32⟩ : BufTy).Contents (Elt F) → (⟨S8x128x128, .i1⟩ : BufTy).Contents (Elt F)),
    binary main_v378 main_v380 main_v381 (andi : (⟨S8x128x128, .i1⟩ : BufTy).Contents (Elt F) → (⟨S8x128x128, .i1⟩ : BufTy).Contents (Elt F) → (⟨S8x128x128, .i1⟩ : BufTy).Contents (Elt F)),
    unary main_v381 main_v382 (uitofp .f32 : (⟨S8x128x128, .i1⟩ : BufTy).Contents (Elt F) → (⟨S8x128x128, .f32⟩ : BufTy).Contents (Elt F)),
    binary main_v377 main_v382 main_v383 (subf : (⟨S8x128x128, .f32⟩ : BufTy).Contents (Elt F) → (⟨S8x128x128, .f32⟩ : BufTy).Contents (Elt F) → (⟨S8x128x128, .f32⟩ : BufTy).Contents (Elt F)),
    binary main_v383 main_v383 main_v384 (mulf : (⟨S8x128x128, .f32⟩ : BufTy).Contents (Elt F) → (⟨S8x128x128, .f32⟩ : BufTy).Contents (Elt F) → (⟨S8x128x128, .f32⟩ : BufTy).Contents (Elt F)),
    binary main_v384 main_v29 main_v385 (mulf : (⟨S8x128x128, .f32⟩ : BufTy).Contents (Elt F) → (⟨S8x128x128, .f32⟩ : BufTy).Contents (Elt F) → (⟨S8x128x128, .f32⟩ : BufTy).Contents (Elt F)),
    nullary main_cst_83 (constant S_ .f32 0x00000000#32),
    binary main_v385 main_cst_83 main_v386 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_84 (constant S_ .f32 0x3F800000#32),
    unary main_cst_84 main_v387 (broadcastInDim S8 ![] bcast_S_S8 : (⟨S_, .f32⟩ : BufTy).Contents (Elt F) → (⟨S8, .f32⟩ : BufTy).Contents (Elt F)),
    binary main_v23 main_v387 main_v388 (maximumf : (⟨S8, .f32⟩ : BufTy).Contents (Elt F) → (⟨S8, .f32⟩ : BufTy).Contents (Elt F) → (⟨S8, .f32⟩ : BufTy).Contents (Elt F)),
    binary main_v386 main_v388 main_v389 (Host.divf : (⟨S8, .f32⟩ : BufTy).Contents (Elt F) → (⟨S8, .f32⟩ : BufTy).Contents (Elt F) → (⟨S8, .f32⟩ : BufTy).Contents (Elt F)),
    binary main_v370 main_v389 main_v390 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call56_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call56_v1) (extractStridedSlice S8x256x1x128 ![0, 0, 0, 0] · slices_S8x256x128x128_S8x256x1x128_0_0_0_0),
    TRef.binary (TRef.of (T := ⟨S8x256x127x128, .f32⟩) main_call56_v0) (TRef.of (T := ⟨S8x256x1x128, .f32⟩) main_call56_v1) (TRef.of (T := ⟨S8x256x128x128, .f32⟩) main_call56_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call56_v2) (TRef.of (T := ⟨S8x256x128x126, .f32⟩) main_call56_v3) (extractStridedSlice S8x256x128x126 ![0, 0, 0, 2] · slices_S8x256x128x128_S8x256x128x126_0_0_0_2),
    TRef.unary (TRef.of (T := ⟨S8x256x128x128, .f32⟩) main_call56_v2) (TRef.of (T := ⟨S8x256x128x2, .f32⟩) main_call56_v4) (extractStridedSlice S8x256x128x2 ![0, 0, 0, 0] · slices_S8x256x128x128_S8x256x128x2_0_0_0_0),
    TRef.binary (TRef.of (T := ⟨S8x256x128x126, .f32⟩) main_call56_v3) (TRef.of (T := ⟨S8x256x128x2, .f32⟩) main_call56_v4) (TRef.of (T := ⟨S8x256x128x128, .f32⟩) main_v391) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x127x128, .f32⟩) main_call57_v0) (extractStridedSlice S8x127x128 ![0, 1, 0] · slices_S8x128x128_S8x127x128_0_1_0),
    TRef.unary (TRef.of (T := ⟨S8x128x128, .f32⟩) main_v28) (TRef.of (T := ⟨S8x1x128, .f32⟩) main_call57_v1) (extractStridedSlice S8x1x128 ![0, 0, 0] · slices_S8x128x128_S8x1x128_0_0_0),
    TRef.binary (TRef.of (T := ⟨S8x127x128, .f32⟩) main_call57_v0) (TRef.of (T := ⟨S8x1x128, .f32⟩) main_call57_v1) (TRef.of (T := ⟨S8x128x128, .f32⟩) main_call57_v2) (fun a b => concatenate S8x128x128 1 [⟨S8x127x128, a⟩, ⟨S8x1x128, b⟩] concatenates_S8x127x128_S8x1x128_S8x128x128_d1),
    TRef.unary (TRef.of (T := ⟨S8x128x128, .f32⟩) main_call57_v2) (TRef.of (T := ⟨S8x128x126, .f32⟩) main_call57_v3) (extractStridedSlice S8x128x126 ![0, 0, 2] · slices_S8x128x128_S8x128x126_0_0_2),
    TRef.unary (TRef.of (T := ⟨S8x128x128, .f32⟩) main_call57_v2) (TRef.of (T := ⟨S8x128x2, .f32⟩) main_call57_v4) (extractStridedSlice S8x128x2 ![0, 0, 0] · slices_S8x128x128_S8x128x2_0_0_0),
    TRef.binary (TRef.of (T := ⟨S8x128x126, .f32⟩) main_call57_v3) (TRef.of (T := ⟨S8x128x2, .f32⟩) main_call57_v4) (TRef.of (T := ⟨S8x128x128, .f32⟩) main_v392) (fun a b => concatenate S8x128x128 2 [⟨S8x128x126, a⟩, ⟨S8x128x2, b⟩] concatenates_S8x128x126_S8x128x2_S8x128x128_d2) ]

set_option maxRecDepth 8192 in
set_option maxHeartbeats 4000000 in
/-- That part of the program is the straight line of those operations. -/
theorem part7_eq (c : Dev nD) : main_part7 (F := F) c = seq ops7 := rfl

/-- The host operations of the program's statements 481 to 540, in order (a called function's operations in its call's place). -/
abbrev ops8 : List (HloOp τ sig (Elt F)) :=
  [ TRef.unary (TRef.of (T := ⟨S8x128x128, .i32⟩) main_arg1) (TRef.of (T := ⟨S8x127x128, .i32⟩) main_call58_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call58_v1) (extractStridedSlice S8x1x128 ![0, 0, 0] · slices_S8x128x128_S8x1x128_0_0_0),
    TRef.binary (TRef.of (T := ⟨S8x127x128, .i32⟩) main_call58_v0) (TRef.of (T := ⟨S8x1x128, .i32⟩) main_call58_v1) (TRef.of (T := ⟨S8x128x128, .i32⟩) main_call58_v2) (fun a b => concatenate S8x128x128 1 [⟨S8x127x128, a⟩, ⟨S8x1x128, b⟩] concatenates_S8x127x128_S8x1x128_S8x128x128_d1),
    TRef.unary (TRef.of (T := ⟨S8x128x128, .i32⟩) main_call58_v2) (TRef.of (T := ⟨S8x128x126, .i32⟩) main_call58_v3) (extractStridedSlice S8x128x126 ![0, 0, 2] · slices_S8x128x128_S8x128x126_0_0_2),
    TRef.unary (TRef.of (T := ⟨S8x128x128, .i32⟩) main_call58_v2) (TRef.of (T := ⟨S8x128x2, .i32⟩) main_call58_v4) (extractStridedSlice S8x128x2 ![0, 0, 0] · slices_S8x128x128_S8x128x2_0_0_0),
    TRef.binary (TRef.of (T := ⟨S8x128x126, .i32⟩) main_call58_v3) (TRef.of (T := ⟨S8x128x2, .i32⟩) main_call58_v4) (TRef.of (T := ⟨S8x128x128, .i32⟩) main_v393) (fun a b => concatenate S8x128x128 2 [⟨S8x128x126, a⟩, ⟨S8x128x2, b⟩] concatenates_S8x128x126_S8x128x2_S8x128x128_d2),
    binary main_arg0 main_v391 main_v394 (mulf : (⟨S8x256x128x128, .f32⟩ : BufTy).Contents (Elt F) → (⟨S8x256x128x128, .f32⟩ : BufTy).Contents (Elt F) → (⟨S8x256x128x128, .f32⟩ : BufTy).Contents (Elt F)),
    nullary main_cst_85 (constant S_ .f32 0x00000000#32),
    binary main_v394 main_cst_85 main_v395 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v392 main_v396 (mulf : (⟨S8x128x128, .f32⟩ : BufTy).Contents (Elt F) → (⟨S8x128x128, .f32⟩ : BufTy).Contents (Elt F) → (⟨S8x128x128, .f32⟩ : BufTy).Contents (Elt F)),
    binary main_v395 main_v396 main_v397 (Host.divf : (⟨S8x128x128, .f32⟩ : BufTy).Contents (Elt F) → (⟨S8x128x128, .f32⟩ : BufTy).Contents (Elt F) → (⟨S8x128x128, .f32⟩ : BufTy).Contents (Elt F)),
    binary main_arg1 main_v393 main_v398 (cmpi .eq : (⟨S8x128x128, .i32⟩ : BufTy).Contents (Elt F) → (⟨S8x128x128, .i32⟩ : BufTy).Contents (Elt F) → (⟨S8x128x128, .i1⟩ : BufTy).Contents (Elt F)),
    nullary main_c_86 (constantI S_ 32 2#32),
    unary main_c_86 main_v399 (broadcastInDim S8x128x128 ![] bcast_S_S8x128x128 : (⟨S_, .i32⟩ : BufTy).Contents (Elt F) → (⟨S8x128x128, .i32⟩ : BufTy).Contents (Elt F)),
    binary main_arg1 main_v399 main_v400 (cmpi .slt : (⟨S8x128x128, .i32⟩ : BufTy).Contents (Elt F) → (⟨S8x128x128, .i32⟩ : BufTy).Contents (Elt F) → (⟨S8x128x128, .i1⟩ : BufTy).Contents (Elt F)),
    binary main_v398 main_v400 main_v401 (andi : (⟨S8x128x128, .i1⟩ : BufTy).Contents (Elt F) → (⟨S8x128x128, .i1⟩ : BufTy).Contents (Elt F) → (⟨S8x128x128, .i1⟩ : BufTy).Contents (Elt F)),
    unary main_v401 main_v402 (uitofp .f32 : (⟨S8x128x128, .i1⟩ : BufTy).Contents (Elt F) → (⟨S8x128x128, .f32⟩ : BufTy).Contents (Elt F)),
    binary main_v397 main_v402 main_v403 (subf : (⟨S8x128x128, .f32⟩ : BufTy).Contents (Elt F) → (⟨S8x128x128, .f32⟩ : BufTy).Contents (Elt F) → (⟨S8x128x128, .f32⟩ : BufTy).Contents (Elt F)),
    binary main_v403 main_v403 main_v404 (mulf : (⟨S8x128x128, .f32⟩ : BufTy).Contents (Elt F) → (⟨S8x128x128, .f32⟩ : BufTy).Contents (Elt F) → (⟨S8x128x128, .f32⟩ : BufTy).Contents (Elt F)),
    binary main_v404 main_v29 main_v405 (mulf : (⟨S8x128x128, .f32⟩ : BufTy).Contents (Elt F) → (⟨S8x128x128, .f32⟩ : BufTy).Contents (Elt F) → (⟨S8x128x128, .f32⟩ : BufTy).Contents (Elt F)),
    nullary main_cst_87 (constant S_ .f32 0x00000000#32),
    binary main_v405 main_cst_87 main_v406 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_88 (constant S_ .f32 0x3F800000#32),
    unary main_cst_88 main_v407 (broadcastInDim S8 ![] bcast_S_S8 : (⟨S_, .f32⟩ : BufTy).Contents (Elt F) → (⟨S8, .f32⟩ : BufTy).Contents (Elt F)),
    binary main_v23 main_v407 main_v408 (maximumf : (⟨S8, .f32⟩ : BufTy).Contents (Elt F) → (⟨S8, .f32⟩ : BufTy).Contents (Elt F) → (⟨S8, .f32⟩ : BufTy).Contents (Elt F)),
    binary main_v406 main_v408 main_v409 (Host.divf : (⟨S8, .f32⟩ : BufTy).Contents (Elt F) → (⟨S8, .f32⟩ : BufTy).Contents (Elt F) → (⟨S8, .f32⟩ : BufTy).Contents (Elt F)),
    binary main_v390 main_v409 main_v410 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call59_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call59_v1) (extractStridedSlice S8x256x2x128 ![0, 0, 0, 0] · slices_S8x256x128x128_S8x256x2x128_0_0_0_0),
    TRef.binary (TRef.of (T := ⟨S8x256x126x128, .f32⟩) main_call59_v0) (TRef.of (T := ⟨S8x256x2x128, .f32⟩) main_call59_v1) (TRef.of (T := ⟨S8x256x128x128, .f32⟩) main_call59_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call59_v2) (TRef.of (T := ⟨S8x256x128x2, .f32⟩) main_call59_v3) (extractStridedSlice S8x256x128x2 ![0, 0, 0, 126] · slices_S8x256x128x128_S8x256x128x2_0_0_0_126),
    TRef.unary (TRef.of (T := ⟨S8x256x128x128, .f32⟩) main_call59_v2) (TRef.of (T := ⟨S8x256x128x126, .f32⟩) main_call59_v4) (extractStridedSlice S8x256x128x126 ![0, 0, 0, 0] · slices_S8x256x128x128_S8x256x128x126_0_0_0_0),
    TRef.binary (TRef.of (T := ⟨S8x256x128x2, .f32⟩) main_call59_v3) (TRef.of (T := ⟨S8x256x128x126, .f32⟩) main_call59_v4) (TRef.of (T := ⟨S8x256x128x128, .f32⟩) main_v411) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x126x128, .f32⟩) main_call60_v0) (extractStridedSlice S8x126x128 ![0, 2, 0] · slices_S8x128x128_S8x126x128_0_2_0),
    TRef.unary (TRef.of (T := ⟨S8x128x128, .f32⟩) main_v28) (TRef.of (T := ⟨S8x2x128, .f32⟩) main_call60_v1) (extractStridedSlice S8x2x128 ![0, 0, 0] · slices_S8x128x128_S8x2x128_0_0_0),
    TRef.binary (TRef.of (T := ⟨S8x126x128, .f32⟩) main_call60_v0) (TRef.of (T := ⟨S8x2x128, .f32⟩) main_call60_v1) (TRef.of (T := ⟨S8x128x128, .f32⟩) main_call60_v2) (fun a b => concatenate S8x128x128 1 [⟨S8x126x128, a⟩, ⟨S8x2x128, b⟩] concatenates_S8x126x128_S8x2x128_S8x128x128_d1),
    TRef.unary (TRef.of (T := ⟨S8x128x128, .f32⟩) main_call60_v2) (TRef.of (T := ⟨S8x128x2, .f32⟩) main_call60_v3) (extractStridedSlice S8x128x2 ![0, 0, 126] · slices_S8x128x128_S8x128x2_0_0_126),
    TRef.unary (TRef.of (T := ⟨S8x128x128, .f32⟩) main_call60_v2) (TRef.of (T := ⟨S8x128x126, .f32⟩) main_call60_v4) (extractStridedSlice S8x128x126 ![0, 0, 0] · slices_S8x128x128_S8x128x126_0_0_0),
    TRef.binary (TRef.of (T := ⟨S8x128x2, .f32⟩) main_call60_v3) (TRef.of (T := ⟨S8x128x126, .f32⟩) main_call60_v4) (TRef.of (T := ⟨S8x128x128, .f32⟩) main_v412) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x126x128, .i32⟩) main_call61_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call61_v1) (extractStridedSlice S8x2x128 ![0, 0, 0] · slices_S8x128x128_S8x2x128_0_0_0),
    TRef.binary (TRef.of (T := ⟨S8x126x128, .i32⟩) main_call61_v0) (TRef.of (T := ⟨S8x2x128, .i32⟩) main_call61_v1) (TRef.of (T := ⟨S8x128x128, .i32⟩) main_call61_v2) (fun a b => concatenate S8x128x128 1 [⟨S8x126x128, a⟩, ⟨S8x2x128, b⟩] concatenates_S8x126x128_S8x2x128_S8x128x128_d1),
    TRef.unary (TRef.of (T := ⟨S8x128x128, .i32⟩) main_call61_v2) (TRef.of (T := ⟨S8x128x2, .i32⟩) main_call61_v3) (extractStridedSlice S8x128x2 ![0, 0, 126] · slices_S8x128x128_S8x128x2_0_0_126),
    TRef.unary (TRef.of (T := ⟨S8x128x128, .i32⟩) main_call61_v2) (TRef.of (T := ⟨S8x128x126, .i32⟩) main_call61_v4) (extractStridedSlice S8x128x126 ![0, 0, 0] · slices_S8x128x128_S8x128x126_0_0_0),
    TRef.binary (TRef.of (T := ⟨S8x128x2, .i32⟩) main_call61_v3) (TRef.of (T := ⟨S8x128x126, .i32⟩) main_call61_v4) (TRef.of (T := ⟨S8x128x128, .i32⟩) main_v413) (fun a b => concatenate S8x128x128 2 [⟨S8x128x2, a⟩, ⟨S8x128x126, b⟩] concatenates_S8x128x2_S8x128x126_S8x128x128_d2),
    binary main_arg0 main_v411 main_v414 (mulf : (⟨S8x256x128x128, .f32⟩ : BufTy).Contents (Elt F) → (⟨S8x256x128x128, .f32⟩ : BufTy).Contents (Elt F) → (⟨S8x256x128x128, .f32⟩ : BufTy).Contents (Elt F)),
    nullary main_cst_89 (constant S_ .f32 0x00000000#32),
    binary main_v414 main_cst_89 main_v415 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v412 main_v416 (mulf : (⟨S8x128x128, .f32⟩ : BufTy).Contents (Elt F) → (⟨S8x128x128, .f32⟩ : BufTy).Contents (Elt F) → (⟨S8x128x128, .f32⟩ : BufTy).Contents (Elt F)),
    binary main_v415 main_v416 main_v417 (Host.divf : (⟨S8x128x128, .f32⟩ : BufTy).Contents (Elt F) → (⟨S8x128x128, .f32⟩ : BufTy).Contents (Elt F) → (⟨S8x128x128, .f32⟩ : BufTy).Contents (Elt F)),
    binary main_arg1 main_v413 main_v418 (cmpi .eq : (⟨S8x128x128, .i32⟩ : BufTy).Contents (Elt F) → (⟨S8x128x128, .i32⟩ : BufTy).Contents (Elt F) → (⟨S8x128x128, .i1⟩ : BufTy).Contents (Elt F)),
    nullary main_c_90 (constantI S_ 32 2#32),
    unary main_c_90 main_v419 (broadcastInDim S8x128x128 ![] bcast_S_S8x128x128 : (⟨S_, .i32⟩ : BufTy).Contents (Elt F) → (⟨S8x128x128, .i32⟩ : BufTy).Contents (Elt F)),
    binary main_arg1 main_v419 main_v420 (cmpi .slt : (⟨S8x128x128, .i32⟩ : BufTy).Contents (Elt F) → (⟨S8x128x128, .i32⟩ : BufTy).Contents (Elt F) → (⟨S8x128x128, .i1⟩ : BufTy).Contents (Elt F)),
    binary main_v418 main_v420 main_v421 (andi : (⟨S8x128x128, .i1⟩ : BufTy).Contents (Elt F) → (⟨S8x128x128, .i1⟩ : BufTy).Contents (Elt F) → (⟨S8x128x128, .i1⟩ : BufTy).Contents (Elt F)),
    unary main_v421 main_v422 (uitofp .f32 : (⟨S8x128x128, .i1⟩ : BufTy).Contents (Elt F) → (⟨S8x128x128, .f32⟩ : BufTy).Contents (Elt F)),
    binary main_v417 main_v422 main_v423 (subf : (⟨S8x128x128, .f32⟩ : BufTy).Contents (Elt F) → (⟨S8x128x128, .f32⟩ : BufTy).Contents (Elt F) → (⟨S8x128x128, .f32⟩ : BufTy).Contents (Elt F)),
    binary main_v423 main_v423 main_v424 (mulf : (⟨S8x128x128, .f32⟩ : BufTy).Contents (Elt F) → (⟨S8x128x128, .f32⟩ : BufTy).Contents (Elt F) → (⟨S8x128x128, .f32⟩ : BufTy).Contents (Elt F)),
    binary main_v424 main_v29 main_v425 (mulf : (⟨S8x128x128, .f32⟩ : BufTy).Contents (Elt F) → (⟨S8x128x128, .f32⟩ : BufTy).Contents (Elt F) → (⟨S8x128x128, .f32⟩ : BufTy).Contents (Elt F)),
    nullary main_cst_91 (constant S_ .f32 0x00000000#32),
    binary main_v425 main_cst_91 main_v426 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_92 (constant S_ .f32 0x3F800000#32),
    unary main_cst_92 main_v427 (broadcastInDim S8 ![] bcast_S_S8 : (⟨S_, .f32⟩ : BufTy).Contents (Elt F) → (⟨S8, .f32⟩ : BufTy).Contents (Elt F)),
    binary main_v23 main_v427 main_v428 (maximumf : (⟨S8, .f32⟩ : BufTy).Contents (Elt F) → (⟨S8, .f32⟩ : BufTy).Contents (Elt F) → (⟨S8, .f32⟩ : BufTy).Contents (Elt F)),
    binary main_v426 main_v428 main_v429 (Host.divf : (⟨S8, .f32⟩ : BufTy).Contents (Elt F) → (⟨S8, .f32⟩ : BufTy).Contents (Elt F) → (⟨S8, .f32⟩ : BufTy).Contents (Elt F)),
    binary main_v410 main_v429 main_v430 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call62_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call62_v1) (extractStridedSlice S8x256x2x128 ![0, 0, 0, 0] · slices_S8x256x128x128_S8x256x2x128_0_0_0_0),
    TRef.binary (TRef.of (T := ⟨S8x256x126x128, .f32⟩) main_call62_v0) (TRef.of (T := ⟨S8x256x2x128, .f32⟩) main_call62_v1) (TRef.of (T := ⟨S8x256x128x128, .f32⟩) main_call62_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call62_v2) (TRef.of (T := ⟨S8x256x128x1, .f32⟩) main_call62_v3) (extractStridedSlice S8x256x128x1 ![0, 0, 0, 127] · slices_S8x256x128x128_S8x256x128x1_0_0_0_127),
    TRef.unary (TRef.of (T := ⟨S8x256x128x128, .f32⟩) main_call62_v2) (TRef.of (T := ⟨S8x256x128x127, .f32⟩) main_call62_v4) (extractStridedSlice S8x256x128x127 ![0, 0, 0, 0] · slices_S8x256x128x128_S8x256x128x127_0_0_0_0),
    TRef.binary (TRef.of (T := ⟨S8x256x128x1, .f32⟩) main_call62_v3) (TRef.of (T := ⟨S8x256x128x127, .f32⟩) main_call62_v4) (TRef.of (T := ⟨S8x256x128x128, .f32⟩) main_v431) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x126x128, .f32⟩) main_call63_v0) (extractStridedSlice S8x126x128 ![0, 2, 0] · slices_S8x128x128_S8x126x128_0_2_0),
    TRef.unary (TRef.of (T := ⟨S8x128x128, .f32⟩) main_v28) (TRef.of (T := ⟨S8x2x128, .f32⟩) main_call63_v1) (extractStridedSlice S8x2x128 ![0, 0, 0] · slices_S8x128x128_S8x2x128_0_0_0),
    TRef.binary (TRef.of (T := ⟨S8x126x128, .f32⟩) main_call63_v0) (TRef.of (T := ⟨S8x2x128, .f32⟩) main_call63_v1) (TRef.of (T := ⟨S8x128x128, .f32⟩) main_call63_v2) (fun a b => concatenate S8x128x128 1 [⟨S8x126x128, a⟩, ⟨S8x2x128, b⟩] concatenates_S8x126x128_S8x2x128_S8x128x128_d1),
    TRef.unary (TRef.of (T := ⟨S8x128x128, .f32⟩) main_call63_v2) (TRef.of (T := ⟨S8x128x1, .f32⟩) main_call63_v3) (extractStridedSlice S8x128x1 ![0, 0, 127] · slices_S8x128x128_S8x128x1_0_0_127),
    TRef.unary (TRef.of (T := ⟨S8x128x128, .f32⟩) main_call63_v2) (TRef.of (T := ⟨S8x128x127, .f32⟩) main_call63_v4) (extractStridedSlice S8x128x127 ![0, 0, 0] · slices_S8x128x128_S8x128x127_0_0_0),
    TRef.binary (TRef.of (T := ⟨S8x128x1, .f32⟩) main_call63_v3) (TRef.of (T := ⟨S8x128x127, .f32⟩) main_call63_v4) (TRef.of (T := ⟨S8x128x128, .f32⟩) main_v432) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x126x128, .i32⟩) main_call64_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call64_v1) (extractStridedSlice S8x2x128 ![0, 0, 0] · slices_S8x128x128_S8x2x128_0_0_0),
    TRef.binary (TRef.of (T := ⟨S8x126x128, .i32⟩) main_call64_v0) (TRef.of (T := ⟨S8x2x128, .i32⟩) main_call64_v1) (TRef.of (T := ⟨S8x128x128, .i32⟩) main_call64_v2) (fun a b => concatenate S8x128x128 1 [⟨S8x126x128, a⟩, ⟨S8x2x128, b⟩] concatenates_S8x126x128_S8x2x128_S8x128x128_d1),
    TRef.unary (TRef.of (T := ⟨S8x128x128, .i32⟩) main_call64_v2) (TRef.of (T := ⟨S8x128x1, .i32⟩) main_call64_v3) (extractStridedSlice S8x128x1 ![0, 0, 127] · slices_S8x128x128_S8x128x1_0_0_127),
    TRef.unary (TRef.of (T := ⟨S8x128x128, .i32⟩) main_call64_v2) (TRef.of (T := ⟨S8x128x127, .i32⟩) main_call64_v4) (extractStridedSlice S8x128x127 ![0, 0, 0] · slices_S8x128x128_S8x128x127_0_0_0),
    TRef.binary (TRef.of (T := ⟨S8x128x1, .i32⟩) main_call64_v3) (TRef.of (T := ⟨S8x128x127, .i32⟩) main_call64_v4) (TRef.of (T := ⟨S8x128x128, .i32⟩) main_v433) (fun a b => concatenate S8x128x128 2 [⟨S8x128x1, a⟩, ⟨S8x128x127, b⟩] concatenates_S8x128x1_S8x128x127_S8x128x128_d2),
    binary main_arg0 main_v431 main_v434 (mulf : (⟨S8x256x128x128, .f32⟩ : BufTy).Contents (Elt F) → (⟨S8x256x128x128, .f32⟩ : BufTy).Contents (Elt F) → (⟨S8x256x128x128, .f32⟩ : BufTy).Contents (Elt F)),
    nullary main_cst_93 (constant S_ .f32 0x00000000#32),
    binary main_v434 main_cst_93 main_v435 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v432 main_v436 (mulf : (⟨S8x128x128, .f32⟩ : BufTy).Contents (Elt F) → (⟨S8x128x128, .f32⟩ : BufTy).Contents (Elt F) → (⟨S8x128x128, .f32⟩ : BufTy).Contents (Elt F)),
    binary main_v435 main_v436 main_v437 (Host.divf : (⟨S8x128x128, .f32⟩ : BufTy).Contents (Elt F) → (⟨S8x128x128, .f32⟩ : BufTy).Contents (Elt F) → (⟨S8x128x128, .f32⟩ : BufTy).Contents (Elt F)),
    binary main_arg1 main_v433 main_v438 (cmpi .eq : (⟨S8x128x128, .i32⟩ : BufTy).Contents (Elt F) → (⟨S8x128x128, .i32⟩ : BufTy).Contents (Elt F) → (⟨S8x128x128, .i1⟩ : BufTy).Contents (Elt F)),
    nullary main_c_94 (constantI S_ 32 2#32),
    unary main_c_94 main_v439 (broadcastInDim S8x128x128 ![] bcast_S_S8x128x128 : (⟨S_, .i32⟩ : BufTy).Contents (Elt F) → (⟨S8x128x128, .i32⟩ : BufTy).Contents (Elt F)),
    binary main_arg1 main_v439 main_v440 (cmpi .slt : (⟨S8x128x128, .i32⟩ : BufTy).Contents (Elt F) → (⟨S8x128x128, .i32⟩ : BufTy).Contents (Elt F) → (⟨S8x128x128, .i1⟩ : BufTy).Contents (Elt F)),
    binary main_v438 main_v440 main_v441 (andi : (⟨S8x128x128, .i1⟩ : BufTy).Contents (Elt F) → (⟨S8x128x128, .i1⟩ : BufTy).Contents (Elt F) → (⟨S8x128x128, .i1⟩ : BufTy).Contents (Elt F)),
    unary main_v441 main_v442 (uitofp .f32 : (⟨S8x128x128, .i1⟩ : BufTy).Contents (Elt F) → (⟨S8x128x128, .f32⟩ : BufTy).Contents (Elt F)) ]

set_option maxRecDepth 8192 in
set_option maxHeartbeats 4000000 in
/-- That part of the program is the straight line of those operations. -/
theorem part8_eq (c : Dev nD) : main_part8 (F := F) c = seq ops8 := rfl

/-- The host operations of the program's statements 541 to 600, in order (a called function's operations in its call's place). -/
abbrev ops9 : List (HloOp τ sig (Elt F)) :=
  [ binary main_v437 main_v442 main_v443 (subf : (⟨S8x128x128, .f32⟩ : BufTy).Contents (Elt F) → (⟨S8x128x128, .f32⟩ : BufTy).Contents (Elt F) → (⟨S8x128x128, .f32⟩ : BufTy).Contents (Elt F)),
    binary main_v443 main_v443 main_v444 (mulf : (⟨S8x128x128, .f32⟩ : BufTy).Contents (Elt F) → (⟨S8x128x128, .f32⟩ : BufTy).Contents (Elt F) → (⟨S8x128x128, .f32⟩ : BufTy).Contents (Elt F)),
    binary main_v444 main_v29 main_v445 (mulf : (⟨S8x128x128, .f32⟩ : BufTy).Contents (Elt F) → (⟨S8x128x128, .f32⟩ : BufTy).Contents (Elt F) → (⟨S8x128x128, .f32⟩ : BufTy).Contents (Elt F)),
    nullary main_cst_95 (constant S_ .f32 0x00000000#32),
    binary main_v445 main_cst_95 main_v446 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_96 (constant S_ .f32 0x3F800000#32),
    unary main_cst_96 main_v447 (broadcastInDim S8 ![] bcast_S_S8 : (⟨S_, .f32⟩ : BufTy).Contents (Elt F) → (⟨S8, .f32⟩ : BufTy).Contents (Elt F)),
    binary main_v23 main_v447 main_v448 (maximumf : (⟨S8, .f32⟩ : BufTy).Contents (Elt F) → (⟨S8, .f32⟩ : BufTy).Contents (Elt F) → (⟨S8, .f32⟩ : BufTy).Contents (Elt F)),
    binary main_v446 main_v448 main_v449 (Host.divf : (⟨S8, .f32⟩ : BufTy).Contents (Elt F) → (⟨S8, .f32⟩ : BufTy).Contents (Elt F) → (⟨S8, .f32⟩ : BufTy).Contents (Elt F)),
    binary main_v430 main_v449 main_v450 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call65_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call65_v1) (extractStridedSlice S8x256x2x128 ![0, 0, 0, 0] · slices_S8x256x128x128_S8x256x2x128_0_0_0_0),
    TRef.binary (TRef.of (T := ⟨S8x256x126x128, .f32⟩) main_call65_v0) (TRef.of (T := ⟨S8x256x2x128, .f32⟩) main_call65_v1) (TRef.of (T := ⟨S8x256x128x128, .f32⟩) main_call65_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call65_v2) (TRef.of (T := ⟨S8x256x128x128, .f32⟩) main_call65_v3) (extractStridedSlice S8x256x128x128 ![0, 0, 0, 0] · slices_S8x256x128x128_S8x256x128x128_0_0_0_0),
    TRef.unary (TRef.of (T := ⟨S8x256x128x128, .f32⟩) main_call65_v2) (TRef.of (T := ⟨S8x256x128x0, .f32⟩) main_call65_v4) (extractStridedSlice S8x256x128x0 ![0, 0, 0, 0] · slices_S8x256x128x128_S8x256x128x0_0_0_0_0),
    TRef.binary (TRef.of (T := ⟨S8x256x128x128, .f32⟩) main_call65_v3) (TRef.of (T := ⟨S8x256x128x0, .f32⟩) main_call65_v4) (TRef.of (T := ⟨S8x256x128x128, .f32⟩) main_v451) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x126x128, .f32⟩) main_call66_v0) (extractStridedSlice S8x126x128 ![0, 2, 0] · slices_S8x128x128_S8x126x128_0_2_0),
    TRef.unary (TRef.of (T := ⟨S8x128x128, .f32⟩) main_v28) (TRef.of (T := ⟨S8x2x128, .f32⟩) main_call66_v1) (extractStridedSlice S8x2x128 ![0, 0, 0] · slices_S8x128x128_S8x2x128_0_0_0),
    TRef.binary (TRef.of (T := ⟨S8x126x128, .f32⟩) main_call66_v0) (TRef.of (T := ⟨S8x2x128, .f32⟩) main_call66_v1) (TRef.of (T := ⟨S8x128x128, .f32⟩) main_call66_v2) (fun a b => concatenate S8x128x128 1 [⟨S8x126x128, a⟩, ⟨S8x2x128, b⟩] concatenates_S8x126x128_S8x2x128_S8x128x128_d1),
    TRef.unary (TRef.of (T := ⟨S8x128x128, .f32⟩) main_call66_v2) (TRef.of (T := ⟨S8x128x128, .f32⟩) main_call66_v3) (extractStridedSlice S8x128x128 ![0, 0, 0] · slices_S8x128x128_S8x128x128_0_0_0),
    TRef.unary (TRef.of (T := ⟨S8x128x128, .f32⟩) main_call66_v2) (TRef.of (T := ⟨S8x128x0, .f32⟩) main_call66_v4) (extractStridedSlice S8x128x0 ![0, 0, 0] · slices_S8x128x128_S8x128x0_0_0_0),
    TRef.binary (TRef.of (T := ⟨S8x128x128, .f32⟩) main_call66_v3) (TRef.of (T := ⟨S8x128x0, .f32⟩) main_call66_v4) (TRef.of (T := ⟨S8x128x128, .f32⟩) main_v452) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x126x128, .i32⟩) main_call67_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call67_v1) (extractStridedSlice S8x2x128 ![0, 0, 0] · slices_S8x128x128_S8x2x128_0_0_0),
    TRef.binary (TRef.of (T := ⟨S8x126x128, .i32⟩) main_call67_v0) (TRef.of (T := ⟨S8x2x128, .i32⟩) main_call67_v1) (TRef.of (T := ⟨S8x128x128, .i32⟩) main_call67_v2) (fun a b => concatenate S8x128x128 1 [⟨S8x126x128, a⟩, ⟨S8x2x128, b⟩] concatenates_S8x126x128_S8x2x128_S8x128x128_d1),
    TRef.unary (TRef.of (T := ⟨S8x128x128, .i32⟩) main_call67_v2) (TRef.of (T := ⟨S8x128x128, .i32⟩) main_call67_v3) (extractStridedSlice S8x128x128 ![0, 0, 0] · slices_S8x128x128_S8x128x128_0_0_0),
    TRef.unary (TRef.of (T := ⟨S8x128x128, .i32⟩) main_call67_v2) (TRef.of (T := ⟨S8x128x0, .i32⟩) main_call67_v4) (extractStridedSlice S8x128x0 ![0, 0, 0] · slices_S8x128x128_S8x128x0_0_0_0),
    TRef.binary (TRef.of (T := ⟨S8x128x128, .i32⟩) main_call67_v3) (TRef.of (T := ⟨S8x128x0, .i32⟩) main_call67_v4) (TRef.of (T := ⟨S8x128x128, .i32⟩) main_v453) (fun a b => concatenate S8x128x128 2 [⟨S8x128x128, a⟩, ⟨S8x128x0, b⟩] concatenates_S8x128x128_S8x128x0_S8x128x128_d2),
    binary main_arg0 main_v451 main_v454 (mulf : (⟨S8x256x128x128, .f32⟩ : BufTy).Contents (Elt F) → (⟨S8x256x128x128, .f32⟩ : BufTy).Contents (Elt F) → (⟨S8x256x128x128, .f32⟩ : BufTy).Contents (Elt F)),
    nullary main_cst_97 (constant S_ .f32 0x00000000#32),
    binary main_v454 main_cst_97 main_v455 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v452 main_v456 (mulf : (⟨S8x128x128, .f32⟩ : BufTy).Contents (Elt F) → (⟨S8x128x128, .f32⟩ : BufTy).Contents (Elt F) → (⟨S8x128x128, .f32⟩ : BufTy).Contents (Elt F)),
    binary main_v455 main_v456 main_v457 (Host.divf : (⟨S8x128x128, .f32⟩ : BufTy).Contents (Elt F) → (⟨S8x128x128, .f32⟩ : BufTy).Contents (Elt F) → (⟨S8x128x128, .f32⟩ : BufTy).Contents (Elt F)),
    binary main_arg1 main_v453 main_v458 (cmpi .eq : (⟨S8x128x128, .i32⟩ : BufTy).Contents (Elt F) → (⟨S8x128x128, .i32⟩ : BufTy).Contents (Elt F) → (⟨S8x128x128, .i1⟩ : BufTy).Contents (Elt F)),
    nullary main_c_98 (constantI S_ 32 2#32),
    unary main_c_98 main_v459 (broadcastInDim S8x128x128 ![] bcast_S_S8x128x128 : (⟨S_, .i32⟩ : BufTy).Contents (Elt F) → (⟨S8x128x128, .i32⟩ : BufTy).Contents (Elt F)),
    binary main_arg1 main_v459 main_v460 (cmpi .slt : (⟨S8x128x128, .i32⟩ : BufTy).Contents (Elt F) → (⟨S8x128x128, .i32⟩ : BufTy).Contents (Elt F) → (⟨S8x128x128, .i1⟩ : BufTy).Contents (Elt F)),
    binary main_v458 main_v460 main_v461 (andi : (⟨S8x128x128, .i1⟩ : BufTy).Contents (Elt F) → (⟨S8x128x128, .i1⟩ : BufTy).Contents (Elt F) → (⟨S8x128x128, .i1⟩ : BufTy).Contents (Elt F)),
    unary main_v461 main_v462 (uitofp .f32 : (⟨S8x128x128, .i1⟩ : BufTy).Contents (Elt F) → (⟨S8x128x128, .f32⟩ : BufTy).Contents (Elt F)),
    binary main_v457 main_v462 main_v463 (subf : (⟨S8x128x128, .f32⟩ : BufTy).Contents (Elt F) → (⟨S8x128x128, .f32⟩ : BufTy).Contents (Elt F) → (⟨S8x128x128, .f32⟩ : BufTy).Contents (Elt F)),
    binary main_v463 main_v463 main_v464 (mulf : (⟨S8x128x128, .f32⟩ : BufTy).Contents (Elt F) → (⟨S8x128x128, .f32⟩ : BufTy).Contents (Elt F) → (⟨S8x128x128, .f32⟩ : BufTy).Contents (Elt F)),
    binary main_v464 main_v29 main_v465 (mulf : (⟨S8x128x128, .f32⟩ : BufTy).Contents (Elt F) → (⟨S8x128x128, .f32⟩ : BufTy).Contents (Elt F) → (⟨S8x128x128, .f32⟩ : BufTy).Contents (Elt F)),
    nullary main_cst_99 (constant S_ .f32 0x00000000#32),
    binary main_v465 main_cst_99 main_v466 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_100 (constant S_ .f32 0x3F800000#32),
    unary main_cst_100 main_v467 (broadcastInDim S8 ![] bcast_S_S8 : (⟨S_, .f32⟩ : BufTy).Contents (Elt F) → (⟨S8, .f32⟩ : BufTy).Contents (Elt F)),
    binary main_v23 main_v467 main_v468 (maximumf : (⟨S8, .f32⟩ : BufTy).Contents (Elt F) → (⟨S8, .f32⟩ : BufTy).Contents (Elt F) → (⟨S8, .f32⟩ : BufTy).Contents (Elt F)),
    binary main_v466 main_v468 main_v469 (Host.divf : (⟨S8, .f32⟩ : BufTy).Contents (Elt F) → (⟨S8, .f32⟩ : BufTy).Contents (Elt F) → (⟨S8, .f32⟩ : BufTy).Contents (Elt F)),
    binary main_v450 main_v469 main_v470 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call68_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call68_v1) (extractStridedSlice S8x256x2x128 ![0, 0, 0, 0] · slices_S8x256x128x128_S8x256x2x128_0_0_0_0),
    TRef.binary (TRef.of (T := ⟨S8x256x126x128, .f32⟩) main_call68_v0) (TRef.of (T := ⟨S8x256x2x128, .f32⟩) main_call68_v1) (TRef.of (T := ⟨S8x256x128x128, .f32⟩) main_call68_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call68_v2) (TRef.of (T := ⟨S8x256x128x127, .f32⟩) main_call68_v3) (extractStridedSlice S8x256x128x127 ![0, 0, 0, 1] · slices_S8x256x128x128_S8x256x128x127_0_0_0_1),
    TRef.unary (TRef.of (T := ⟨S8x256x128x128, .f32⟩) main_call68_v2) (TRef.of (T := ⟨S8x256x128x1, .f32⟩) main_call68_v4) (extractStridedSlice S8x256x128x1 ![0, 0, 0, 0] · slices_S8x256x128x128_S8x256x128x1_0_0_0_0),
    TRef.binary (TRef.of (T := ⟨S8x256x128x127, .f32⟩) main_call68_v3) (TRef.of (T := ⟨S8x256x128x1, .f32⟩) main_call68_v4) (TRef.of (T := ⟨S8x256x128x128, .f32⟩) main_v471) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x126x128, .f32⟩) main_call69_v0) (extractStridedSlice S8x126x128 ![0, 2, 0] · slices_S8x128x128_S8x126x128_0_2_0),
    TRef.unary (TRef.of (T := ⟨S8x128x128, .f32⟩) main_v28) (TRef.of (T := ⟨S8x2x128, .f32⟩) main_call69_v1) (extractStridedSlice S8x2x128 ![0, 0, 0] · slices_S8x128x128_S8x2x128_0_0_0),
    TRef.binary (TRef.of (T := ⟨S8x126x128, .f32⟩) main_call69_v0) (TRef.of (T := ⟨S8x2x128, .f32⟩) main_call69_v1) (TRef.of (T := ⟨S8x128x128, .f32⟩) main_call69_v2) (fun a b => concatenate S8x128x128 1 [⟨S8x126x128, a⟩, ⟨S8x2x128, b⟩] concatenates_S8x126x128_S8x2x128_S8x128x128_d1),
    TRef.unary (TRef.of (T := ⟨S8x128x128, .f32⟩) main_call69_v2) (TRef.of (T := ⟨S8x128x127, .f32⟩) main_call69_v3) (extractStridedSlice S8x128x127 ![0, 0, 1] · slices_S8x128x128_S8x128x127_0_0_1),
    TRef.unary (TRef.of (T := ⟨S8x128x128, .f32⟩) main_call69_v2) (TRef.of (T := ⟨S8x128x1, .f32⟩) main_call69_v4) (extractStridedSlice S8x128x1 ![0, 0, 0] · slices_S8x128x128_S8x128x1_0_0_0),
    TRef.binary (TRef.of (T := ⟨S8x128x127, .f32⟩) main_call69_v3) (TRef.of (T := ⟨S8x128x1, .f32⟩) main_call69_v4) (TRef.of (T := ⟨S8x128x128, .f32⟩) main_v472) (fun a b => concatenate S8x128x128 2 [⟨S8x128x127, a⟩, ⟨S8x128x1, b⟩] concatenates_S8x128x127_S8x128x1_S8x128x128_d2),
    TRef.unary (TRef.of (T := ⟨S8x128x128, .i32⟩) main_arg1) (TRef.of (T := ⟨S8x126x128, .i32⟩) main_call70_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call70_v1) (extractStridedSlice S8x2x128 ![0, 0, 0] · slices_S8x128x128_S8x2x128_0_0_0),
    TRef.binary (TRef.of (T := ⟨S8x126x128, .i32⟩) main_call70_v0) (TRef.of (T := ⟨S8x2x128, .i32⟩) main_call70_v1) (TRef.of (T := ⟨S8x128x128, .i32⟩) main_call70_v2) (fun a b => concatenate S8x128x128 1 [⟨S8x126x128, a⟩, ⟨S8x2x128, b⟩] concatenates_S8x126x128_S8x2x128_S8x128x128_d1),
    TRef.unary (TRef.of (T := ⟨S8x128x128, .i32⟩) main_call70_v2) (TRef.of (T := ⟨S8x128x127, .i32⟩) main_call70_v3) (extractStridedSlice S8x128x127 ![0, 0, 1] · slices_S8x128x128_S8x128x127_0_0_1),
    TRef.unary (TRef.of (T := ⟨S8x128x128, .i32⟩) main_call70_v2) (TRef.of (T := ⟨S8x128x1, .i32⟩) main_call70_v4) (extractStridedSlice S8x128x1 ![0, 0, 0] · slices_S8x128x128_S8x128x1_0_0_0),
    TRef.binary (TRef.of (T := ⟨S8x128x127, .i32⟩) main_call70_v3) (TRef.of (T := ⟨S8x128x1, .i32⟩) main_call70_v4) (TRef.of (T := ⟨S8x128x128, .i32⟩) main_v473) (fun a b => concatenate S8x128x128 2 [⟨S8x128x127, a⟩, ⟨S8x128x1, b⟩] concatenates_S8x128x127_S8x128x1_S8x128x128_d2),
    binary main_arg0 main_v471 main_v474 (mulf : (⟨S8x256x128x128, .f32⟩ : BufTy).Contents (Elt F) → (⟨S8x256x128x128, .f32⟩ : BufTy).Contents (Elt F) → (⟨S8x256x128x128, .f32⟩ : BufTy).Contents (Elt F)),
    nullary main_cst_101 (constant S_ .f32 0x00000000#32),
    binary main_v474 main_cst_101 main_v475 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v472 main_v476 (mulf : (⟨S8x128x128, .f32⟩ : BufTy).Contents (Elt F) → (⟨S8x128x128, .f32⟩ : BufTy).Contents (Elt F) → (⟨S8x128x128, .f32⟩ : BufTy).Contents (Elt F)),
    binary main_v475 main_v476 main_v477 (Host.divf : (⟨S8x128x128, .f32⟩ : BufTy).Contents (Elt F) → (⟨S8x128x128, .f32⟩ : BufTy).Contents (Elt F) → (⟨S8x128x128, .f32⟩ : BufTy).Contents (Elt F)),
    binary main_arg1 main_v473 main_v478 (cmpi .eq : (⟨S8x128x128, .i32⟩ : BufTy).Contents (Elt F) → (⟨S8x128x128, .i32⟩ : BufTy).Contents (Elt F) → (⟨S8x128x128, .i1⟩ : BufTy).Contents (Elt F)),
    nullary main_c_102 (constantI S_ 32 2#32),
    unary main_c_102 main_v479 (broadcastInDim S8x128x128 ![] bcast_S_S8x128x128 : (⟨S_, .i32⟩ : BufTy).Contents (Elt F) → (⟨S8x128x128, .i32⟩ : BufTy).Contents (Elt F)),
    binary main_arg1 main_v479 main_v480 (cmpi .slt : (⟨S8x128x128, .i32⟩ : BufTy).Contents (Elt F) → (⟨S8x128x128, .i32⟩ : BufTy).Contents (Elt F) → (⟨S8x128x128, .i1⟩ : BufTy).Contents (Elt F)),
    binary main_v478 main_v480 main_v481 (andi : (⟨S8x128x128, .i1⟩ : BufTy).Contents (Elt F) → (⟨S8x128x128, .i1⟩ : BufTy).Contents (Elt F) → (⟨S8x128x128, .i1⟩ : BufTy).Contents (Elt F)),
    unary main_v481 main_v482 (uitofp .f32 : (⟨S8x128x128, .i1⟩ : BufTy).Contents (Elt F) → (⟨S8x128x128, .f32⟩ : BufTy).Contents (Elt F)),
    binary main_v477 main_v482 main_v483 (subf : (⟨S8x128x128, .f32⟩ : BufTy).Contents (Elt F) → (⟨S8x128x128, .f32⟩ : BufTy).Contents (Elt F) → (⟨S8x128x128, .f32⟩ : BufTy).Contents (Elt F)),
    binary main_v483 main_v483 main_v484 (mulf : (⟨S8x128x128, .f32⟩ : BufTy).Contents (Elt F) → (⟨S8x128x128, .f32⟩ : BufTy).Contents (Elt F) → (⟨S8x128x128, .f32⟩ : BufTy).Contents (Elt F)),
    binary main_v484 main_v29 main_v485 (mulf : (⟨S8x128x128, .f32⟩ : BufTy).Contents (Elt F) → (⟨S8x128x128, .f32⟩ : BufTy).Contents (Elt F) → (⟨S8x128x128, .f32⟩ : BufTy).Contents (Elt F)),
    nullary main_cst_103 (constant S_ .f32 0x00000000#32),
    binary main_v485 main_cst_103 main_v486 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_104 (constant S_ .f32 0x3F800000#32),
    unary main_cst_104 main_v487 (broadcastInDim S8 ![] bcast_S_S8 : (⟨S_, .f32⟩ : BufTy).Contents (Elt F) → (⟨S8, .f32⟩ : BufTy).Contents (Elt F)),
    binary main_v23 main_v487 main_v488 (maximumf : (⟨S8, .f32⟩ : BufTy).Contents (Elt F) → (⟨S8, .f32⟩ : BufTy).Contents (Elt F) → (⟨S8, .f32⟩ : BufTy).Contents (Elt F)),
    binary main_v486 main_v488 main_v489 (Host.divf : (⟨S8, .f32⟩ : BufTy).Contents (Elt F) → (⟨S8, .f32⟩ : BufTy).Contents (Elt F) → (⟨S8, .f32⟩ : BufTy).Contents (Elt F)),
    binary main_v470 main_v489 main_v490 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call71_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call71_v1) (extractStridedSlice S8x256x2x128 ![0, 0, 0, 0] · slices_S8x256x128x128_S8x256x2x128_0_0_0_0),
    TRef.binary (TRef.of (T := ⟨S8x256x126x128, .f32⟩) main_call71_v0) (TRef.of (T := ⟨S8x256x2x128, .f32⟩) main_call71_v1) (TRef.of (T := ⟨S8x256x128x128, .f32⟩) main_call71_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call71_v2) (TRef.of (T := ⟨S8x256x128x126, .f32⟩) main_call71_v3) (extractStridedSlice S8x256x128x126 ![0, 0, 0, 2] · slices_S8x256x128x128_S8x256x128x126_0_0_0_2),
    TRef.unary (TRef.of (T := ⟨S8x256x128x128, .f32⟩) main_call71_v2) (TRef.of (T := ⟨S8x256x128x2, .f32⟩) main_call71_v4) (extractStridedSlice S8x256x128x2 ![0, 0, 0, 0] · slices_S8x256x128x128_S8x256x128x2_0_0_0_0),
    TRef.binary (TRef.of (T := ⟨S8x256x128x126, .f32⟩) main_call71_v3) (TRef.of (T := ⟨S8x256x128x2, .f32⟩) main_call71_v4) (TRef.of (T := ⟨S8x256x128x128, .f32⟩) main_v491) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x126x128, .f32⟩) main_call72_v0) (extractStridedSlice S8x126x128 ![0, 2, 0] · slices_S8x128x128_S8x126x128_0_2_0),
    TRef.unary (TRef.of (T := ⟨S8x128x128, .f32⟩) main_v28) (TRef.of (T := ⟨S8x2x128, .f32⟩) main_call72_v1) (extractStridedSlice S8x2x128 ![0, 0, 0] · slices_S8x128x128_S8x2x128_0_0_0),
    TRef.binary (TRef.of (T := ⟨S8x126x128, .f32⟩) main_call72_v0) (TRef.of (T := ⟨S8x2x128, .f32⟩) main_call72_v1) (TRef.of (T := ⟨S8x128x128, .f32⟩) main_call72_v2) (fun a b => concatenate S8x128x128 1 [⟨S8x126x128, a⟩, ⟨S8x2x128, b⟩] concatenates_S8x126x128_S8x2x128_S8x128x128_d1),
    TRef.unary (TRef.of (T := ⟨S8x128x128, .f32⟩) main_call72_v2) (TRef.of (T := ⟨S8x128x126, .f32⟩) main_call72_v3) (extractStridedSlice S8x128x126 ![0, 0, 2] · slices_S8x128x128_S8x128x126_0_0_2),
    TRef.unary (TRef.of (T := ⟨S8x128x128, .f32⟩) main_call72_v2) (TRef.of (T := ⟨S8x128x2, .f32⟩) main_call72_v4) (extractStridedSlice S8x128x2 ![0, 0, 0] · slices_S8x128x128_S8x128x2_0_0_0),
    TRef.binary (TRef.of (T := ⟨S8x128x126, .f32⟩) main_call72_v3) (TRef.of (T := ⟨S8x128x2, .f32⟩) main_call72_v4) (TRef.of (T := ⟨S8x128x128, .f32⟩) main_v492) (fun a b => concatenate S8x128x128 2 [⟨S8x128x126, a⟩, ⟨S8x128x2, b⟩] concatenates_S8x128x126_S8x128x2_S8x128x128_d2) ]

set_option maxRecDepth 8192 in
set_option maxHeartbeats 4000000 in
/-- That part of the program is the straight line of those operations. -/
theorem part9_eq (c : Dev nD) : main_part9 (F := F) c = seq ops9 := rfl

/-- The host operations of the program's statements 601 to 637, in order (a called function's operations in its call's place). -/
abbrev ops10 : List (HloOp τ sig (Elt F)) :=
  [ TRef.unary (TRef.of (T := ⟨S8x128x128, .i32⟩) main_arg1) (TRef.of (T := ⟨S8x126x128, .i32⟩) main_call73_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call73_v1) (extractStridedSlice S8x2x128 ![0, 0, 0] · slices_S8x128x128_S8x2x128_0_0_0),
    TRef.binary (TRef.of (T := ⟨S8x126x128, .i32⟩) main_call73_v0) (TRef.of (T := ⟨S8x2x128, .i32⟩) main_call73_v1) (TRef.of (T := ⟨S8x128x128, .i32⟩) main_call73_v2) (fun a b => concatenate S8x128x128 1 [⟨S8x126x128, a⟩, ⟨S8x2x128, b⟩] concatenates_S8x126x128_S8x2x128_S8x128x128_d1),
    TRef.unary (TRef.of (T := ⟨S8x128x128, .i32⟩) main_call73_v2) (TRef.of (T := ⟨S8x128x126, .i32⟩) main_call73_v3) (extractStridedSlice S8x128x126 ![0, 0, 2] · slices_S8x128x128_S8x128x126_0_0_2),
    TRef.unary (TRef.of (T := ⟨S8x128x128, .i32⟩) main_call73_v2) (TRef.of (T := ⟨S8x128x2, .i32⟩) main_call73_v4) (extractStridedSlice S8x128x2 ![0, 0, 0] · slices_S8x128x128_S8x128x2_0_0_0),
    TRef.binary (TRef.of (T := ⟨S8x128x126, .i32⟩) main_call73_v3) (TRef.of (T := ⟨S8x128x2, .i32⟩) main_call73_v4) (TRef.of (T := ⟨S8x128x128, .i32⟩) main_v493) (fun a b => concatenate S8x128x128 2 [⟨S8x128x126, a⟩, ⟨S8x128x2, b⟩] concatenates_S8x128x126_S8x128x2_S8x128x128_d2),
    binary main_arg0 main_v491 main_v494 (mulf : (⟨S8x256x128x128, .f32⟩ : BufTy).Contents (Elt F) → (⟨S8x256x128x128, .f32⟩ : BufTy).Contents (Elt F) → (⟨S8x256x128x128, .f32⟩ : BufTy).Contents (Elt F)),
    nullary main_cst_105 (constant S_ .f32 0x00000000#32),
    binary main_v494 main_cst_105 main_v495 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v492 main_v496 (mulf : (⟨S8x128x128, .f32⟩ : BufTy).Contents (Elt F) → (⟨S8x128x128, .f32⟩ : BufTy).Contents (Elt F) → (⟨S8x128x128, .f32⟩ : BufTy).Contents (Elt F)),
    binary main_v495 main_v496 main_v497 (Host.divf : (⟨S8x128x128, .f32⟩ : BufTy).Contents (Elt F) → (⟨S8x128x128, .f32⟩ : BufTy).Contents (Elt F) → (⟨S8x128x128, .f32⟩ : BufTy).Contents (Elt F)),
    binary main_arg1 main_v493 main_v498 (cmpi .eq : (⟨S8x128x128, .i32⟩ : BufTy).Contents (Elt F) → (⟨S8x128x128, .i32⟩ : BufTy).Contents (Elt F) → (⟨S8x128x128, .i1⟩ : BufTy).Contents (Elt F)),
    nullary main_c_106 (constantI S_ 32 2#32),
    unary main_c_106 main_v499 (broadcastInDim S8x128x128 ![] bcast_S_S8x128x128 : (⟨S_, .i32⟩ : BufTy).Contents (Elt F) → (⟨S8x128x128, .i32⟩ : BufTy).Contents (Elt F)),
    binary main_arg1 main_v499 main_v500 (cmpi .slt : (⟨S8x128x128, .i32⟩ : BufTy).Contents (Elt F) → (⟨S8x128x128, .i32⟩ : BufTy).Contents (Elt F) → (⟨S8x128x128, .i1⟩ : BufTy).Contents (Elt F)),
    binary main_v498 main_v500 main_v501 (andi : (⟨S8x128x128, .i1⟩ : BufTy).Contents (Elt F) → (⟨S8x128x128, .i1⟩ : BufTy).Contents (Elt F) → (⟨S8x128x128, .i1⟩ : BufTy).Contents (Elt F)),
    unary main_v501 main_v502 (uitofp .f32 : (⟨S8x128x128, .i1⟩ : BufTy).Contents (Elt F) → (⟨S8x128x128, .f32⟩ : BufTy).Contents (Elt F)),
    binary main_v497 main_v502 main_v503 (subf : (⟨S8x128x128, .f32⟩ : BufTy).Contents (Elt F) → (⟨S8x128x128, .f32⟩ : BufTy).Contents (Elt F) → (⟨S8x128x128, .f32⟩ : BufTy).Contents (Elt F)),
    binary main_v503 main_v503 main_v504 (mulf : (⟨S8x128x128, .f32⟩ : BufTy).Contents (Elt F) → (⟨S8x128x128, .f32⟩ : BufTy).Contents (Elt F) → (⟨S8x128x128, .f32⟩ : BufTy).Contents (Elt F)),
    binary main_v504 main_v29 main_v505 (mulf : (⟨S8x128x128, .f32⟩ : BufTy).Contents (Elt F) → (⟨S8x128x128, .f32⟩ : BufTy).Contents (Elt F) → (⟨S8x128x128, .f32⟩ : BufTy).Contents (Elt F)),
    nullary main_cst_107 (constant S_ .f32 0x00000000#32),
    binary main_v505 main_cst_107 main_v506 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_108 (constant S_ .f32 0x3F800000#32),
    unary main_cst_108 main_v507 (broadcastInDim S8 ![] bcast_S_S8 : (⟨S_, .f32⟩ : BufTy).Contents (Elt F) → (⟨S8, .f32⟩ : BufTy).Contents (Elt F)),
    binary main_v23 main_v507 main_v508 (maximumf : (⟨S8, .f32⟩ : BufTy).Contents (Elt F) → (⟨S8, .f32⟩ : BufTy).Contents (Elt F) → (⟨S8, .f32⟩ : BufTy).Contents (Elt F)),
    binary main_v506 main_v508 main_v509 (Host.divf : (⟨S8, .f32⟩ : BufTy).Contents (Elt F) → (⟨S8, .f32⟩ : BufTy).Contents (Elt F) → (⟨S8, .f32⟩ : BufTy).Contents (Elt F)),
    binary main_v490 main_v509 main_v510 (addf : (⟨S8, .f32⟩ : BufTy).Contents (Elt F) → (⟨S8, .f32⟩ : BufTy).Contents (Elt F) → (⟨S8, .f32⟩ : BufTy).Contents (Elt F)),
    nullary main_cst_109 (constant S_ .f32 0x41C00000#32),
    unary main_cst_109 main_v511 (broadcastInDim S8 ![] bcast_S_S8 : (⟨S_, .f32⟩ : BufTy).Contents (Elt F) → (⟨S8, .f32⟩ : BufTy).Contents (Elt F)),
    binary main_v510 main_v511 main_v512 (Host.divf : (⟨S8, .f32⟩ : BufTy).Contents (Elt F) → (⟨S8, .f32⟩ : BufTy).Contents (Elt F) → (⟨S8, .f32⟩ : BufTy).Contents (Elt F)),
    unary main_v20 main_v513 ((extui 32 · natLt_1_32) : (⟨S8, .i1⟩ : BufTy).Contents (Elt F) → (⟨S8, .i32⟩ : BufTy).Contents (Elt F)),
    nullary main_c_110 (constantI S_ 32 0#32),
    binary main_v513 main_c_110 main_v514 ((fun x v => Host.reduce IntOp.addi x v reducesTo_S8_S_d0 h_S_) : (⟨S8, .i32⟩ : BufTy).Contents (Elt F) → (⟨S_, .i32⟩ : BufTy).Contents (Elt F) → (⟨S_, .i32⟩ : BufTy).Contents (Elt F)),
    nullary main_c_111 (constantI S_ 32 1#32),
    binary main_v514 main_c_111 main_v515 (maxsi : (⟨S_, .i32⟩ : BufTy).Contents (Elt F) → (⟨S_, .i32⟩ : BufTy).Contents (Elt F) → (⟨S_, .i32⟩ : BufTy).Contents (Elt F)),
    unary main_v20 main_v516 (uitofp .f32 : (⟨S8, .i1⟩ : BufTy).Contents (Elt F) → (⟨S8, .f32⟩ : BufTy).Contents (Elt F)),
    binary main_v512 main_v516 main_v517 (mulf : (⟨S8, .f32⟩ : BufTy).Contents (Elt F) → (⟨S8, .f32⟩ : BufTy).Contents (Elt F) → (⟨S8, .f32⟩ : BufTy).Contents (Elt F)),
    nullary main_cst_112 (constant S_ .f32 0x00000000#32),
    binary main_v517 main_cst_112 main_v518 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v515 main_v519 (sitofp .f32 : (⟨S_, .i32⟩ : BufTy).Contents (Elt F) → (⟨S_, .f32⟩ : BufTy).Contents (Elt F)),
    binary main_v518 main_v519 main_v520 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- That part of the program is the straight line of those operations. -/
theorem part10_eq (c : Dev nD) : main_part10 (F := F) c = seq ops10 := rfl

end Cert.Bridge.RefRun

end
-- ==== Proof.RefRunSide.lean ====
/-
  The side conditions of the reference's run, part by part: every operation touches TensorCore buffers only, and
  every operation determines its results.
-/
import proofs.«133983_j1632087573343_1_alg».proof.Proof.RefRunOps

noncomputable section

namespace Cert.Bridge.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem sub0 : ∀ op ∈ (ops0 (F := F)), op.bufs ⊆ tcRefs τ sig :=
  List.forall_iff_forall_mem.1 (⟨nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., nullary_bufs_sub .., unary_bufs_sub .., nullary_bufs_sub .., unary_bufs_sub .., binary_bufs_sub .., nullary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub ..⟩ :
    (ops0 (F := F)).Forall fun op => op.bufs ⊆ tcRefs τ sig)

set_option maxRecDepth 8192 in
theorem fresh0 : ∀ op ∈ (ops0 (F := F)), op.fresh = ∅ := by
  intro _ h; (repeat (cases h with | head => rfl | tail _ h => ?_)); exact nomatch h

set_option maxRecDepth 8192 in
theorem sub1 : ∀ op ∈ (ops1 (F := F)), op.bufs ⊆ tcRefs τ sig :=
  List.forall_iff_forall_mem.1 (⟨binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩ :
    (ops1 (F := F)).Forall fun op => op.bufs ⊆ tcRefs τ sig)

set_option maxRecDepth 8192 in
theorem fresh1 : ∀ op ∈ (ops1 (F := F)), op.fresh = ∅ := by
  intro _ h; (repeat (cases h with | head => rfl | tail _ h => ?_)); exact nomatch h

set_option maxRecDepth 8192 in
theorem sub2 : ∀ op ∈ (ops2 (F := F)), op.bufs ⊆ tcRefs τ sig :=
  List.forall_iff_forall_mem.1 (⟨unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub ..⟩ :
    (ops2 (F := F)).Forall fun op => op.bufs ⊆ tcRefs τ sig)

set_option maxRecDepth 8192 in
theorem fresh2 : ∀ op ∈ (ops2 (F := F)), op.fresh = ∅ := by
  intro _ h; (repeat (cases h with | head => rfl | tail _ h => ?_)); exact nomatch h

set_option maxRecDepth 8192 in
theorem sub3 : ∀ op ∈ (ops3 (F := F)), op.bufs ⊆ tcRefs τ sig :=
  List.forall_iff_forall_mem.1 (⟨binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩ :
    (ops3 (F := F)).Forall fun op => op.bufs ⊆ tcRefs τ sig)

set_option maxRecDepth 8192 in
theorem fresh3 : ∀ op ∈ (ops3 (F := F)), op.fresh = ∅ := by
  intro _ h; (repeat (cases h with | head => rfl | tail _ h => ?_)); exact nomatch h

set_option maxRecDepth 8192 in
theorem sub4 : ∀ op ∈ (ops4 (F := F)), op.bufs ⊆ tcRefs τ sig :=
  List.forall_iff_forall_mem.1 (⟨unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub ..⟩ :
    (ops4 (F := F)).Forall fun op => op.bufs ⊆ tcRefs τ sig)

set_option maxRecDepth 8192 in
theorem fresh4 : ∀ op ∈ (ops4 (F := F)), op.fresh = ∅ := by
  intro _ h; (repeat (cases h with | head => rfl | tail _ h => ?_)); exact nomatch h

set_option maxRecDepth 8192 in
theorem sub5 : ∀ op ∈ (ops5 (F := F)), op.bufs ⊆ tcRefs τ sig :=
  List.forall_iff_forall_mem.1 (⟨binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩ :
    (ops5 (F := F)).Forall fun op => op.bufs ⊆ tcRefs τ sig)

set_option maxRecDepth 8192 in
theorem fresh5 : ∀ op ∈ (ops5 (F := F)), op.fresh = ∅ := by
  intro _ h; (repeat (cases h with | head => rfl | tail _ h => ?_)); exact nomatch h

set_option maxRecDepth 8192 in
theorem sub6 : ∀ op ∈ (ops6 (F := F)), op.bufs ⊆ tcRefs τ sig :=
  List.forall_iff_forall_mem.1 (⟨unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub ..⟩ :
    (ops6 (F := F)).Forall fun op => op.bufs ⊆ tcRefs τ sig)

set_option maxRecDepth 8192 in
theorem fresh6 : ∀ op ∈ (ops6 (F := F)), op.fresh = ∅ := by
  intro _ h; (repeat (cases h with | head => rfl | tail _ h => ?_)); exact nomatch h

set_option maxRecDepth 8192 in
theorem sub7 : ∀ op ∈ (ops7 (F := F)), op.bufs ⊆ tcRefs τ sig :=
  List.forall_iff_forall_mem.1 (⟨binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩ :
    (ops7 (F := F)).Forall fun op => op.bufs ⊆ tcRefs τ sig)

set_option maxRecDepth 8192 in
theorem fresh7 : ∀ op ∈ (ops7 (F := F)), op.fresh = ∅ := by
  intro _ h; (repeat (cases h with | head => rfl | tail _ h => ?_)); exact nomatch h

set_option maxRecDepth 8192 in
theorem sub8 : ∀ op ∈ (ops8 (F := F)), op.bufs ⊆ tcRefs τ sig :=
  List.forall_iff_forall_mem.1 (⟨unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub ..⟩ :
    (ops8 (F := F)).Forall fun op => op.bufs ⊆ tcRefs τ sig)

set_option maxRecDepth 8192 in
theorem fresh8 : ∀ op ∈ (ops8 (F := F)), op.fresh = ∅ := by
  intro _ h; (repeat (cases h with | head => rfl | tail _ h => ?_)); exact nomatch h

set_option maxRecDepth 8192 in
theorem sub9 : ∀ op ∈ (ops9 (F := F)), op.bufs ⊆ tcRefs τ sig :=
  List.forall_iff_forall_mem.1 (⟨binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩ :
    (ops9 (F := F)).Forall fun op => op.bufs ⊆ tcRefs τ sig)

set_option maxRecDepth 8192 in
theorem fresh9 : ∀ op ∈ (ops9 (F := F)), op.fresh = ∅ := by
  intro _ h; (repeat (cases h with | head => rfl | tail _ h => ?_)); exact nomatch h

set_option maxRecDepth 8192 in
theorem sub10 : ∀ op ∈ (ops10 (F := F)), op.bufs ⊆ tcRefs τ sig :=
  List.forall_iff_forall_mem.1 (⟨unary_bufs_sub .., unary_bufs_sub .., binary_bufs_sub .., unary_bufs_sub .., unary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., binary_bufs_sub .., unary_bufs_sub .., nullary_bufs_sub .., binary_bufs_sub .., nullary_bufs_sub .., binary_bufs_sub .., unary_bufs_sub .., binary_bufs_sub .., nullary_bufs_sub .., binary_bufs_sub .., unary_bufs_sub .., binary_bufs_sub ..⟩ :
    (ops10 (F := F)).Forall fun op => op.bufs ⊆ tcRefs τ sig)

set_option maxRecDepth 8192 in
theorem fresh10 : ∀ op ∈ (ops10 (F := F)), op.fresh = ∅ := by
  intro _ h; (repeat (cases h with | head => rfl | tail _ h => ?_)); exact nomatch h

end Cert.Bridge.RefRun

end
-- ==== Proof.RefRunLemmas.lean ====
/-
  The fold of a line of host operations over two lists laid end to end.
-/
import Idealize.ShloMosaic.Lib.StableHlo.Run

noncomputable section

namespace Cert.Bridge.RefRun

open Idealize.ShloMosaic Idealize.SL.Sem Idealize.ShloMosaic.StableHlo

/-- The fold over two lines laid end to end is the second line's fold from the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.Bridge.RefRun

end
-- ==== Proof.RefRunPart0.lean ====
/-
  Part 0 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 1 to 21 of the line. -/
abbrev pc0_0 : List (HloOp τ sig (Elt F)) :=
  [ nullary main_c (constantI S_ 32 255#32),
    unary main_c main_v0 (broadcastInDim S8x128x128 ![] bcast_S_S8x128x128 : (⟨S_, .i32⟩ : BufTy).Contents (Elt F) → (⟨S8x128x128, .i32⟩ : BufTy).Contents (Elt F)),
    binary main_arg1 main_v0 main_v1 (cmpi .eq : (⟨S8x128x128, .i32⟩ : BufTy).Contents (Elt F) → (⟨S8x128x128, .i32⟩ : BufTy).Contents (Elt F) → (⟨S8x128x128, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S8x128x128, .i32⟩) main_call0_v1) (broadcastInDim S8x128x128 ![] bcast_S_S8x128x128),
    TRef.ternary (TRef.of (T := ⟨S8x128x128, .i1⟩) main_v1) (TRef.of (T := ⟨S8x128x128, .i32⟩) main_call0_v1) (TRef.of (T := ⟨S8x128x128, .i32⟩) main_arg1) (TRef.of (T := ⟨S8x128x128, .i32⟩) main_v2) select,
    nullary main_c_1 (constantI S_ 32 255#32),
    unary main_c_1 main_v3 (broadcastInDim S8x128x128 ![] bcast_S_S8x128x128 : (⟨S_, .i32⟩ : BufTy).Contents (Elt F) → (⟨S8x128x128, .i32⟩ : BufTy).Contents (Elt F)),
    binary main_arg2 main_v3 main_v4 (cmpi .eq : (⟨S8x128x128, .i32⟩ : BufTy).Contents (Elt F) → (⟨S8x128x128, .i32⟩ : BufTy).Contents (Elt F) → (⟨S8x128x128, .i1⟩ : BufTy).Contents (Elt F)),
    nullary main_c_2 (constantI S_ 32 0#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S8x128x128, .i32⟩) main_call1_v1) (broadcastInDim S8x128x128 ![] bcast_S_S8x128x128),
    TRef.ternary (TRef.of (T := ⟨S8x128x128, .i1⟩) main_v4) (TRef.of (T := ⟨S8x128x128, .i32⟩) main_call1_v1) (TRef.of (T := ⟨S8x128x128, .i32⟩) main_arg2) (TRef.of (T := ⟨S8x128x128, .i32⟩) main_v5) select,
    binary main_v5 main_v2 main_v6 (muli : (⟨S8x128x128, .i32⟩ : BufTy).Contents (Elt F) → (⟨S8x128x128, .i32⟩ : BufTy).Contents (Elt F) → (⟨S8x128x128, .i32⟩ : BufTy).Contents (Elt F)),
    nullary main_c_3 (constantI S_ 1 0#1),
    unary main_c_3 main_v7 (broadcastInDim S128x128 ![] bcast_S_S128x128 : (⟨S_, .i1⟩ : BufTy).Contents (Elt F) → (⟨S128x128, .i1⟩ : BufTy).Contents (Elt F)),
    nullary main_c_4 (constantI S_ 32 2#32),
    unary main_c_4 main_v8 (broadcastInDim S1 ![] bcast_S_S1 : (⟨S_, .i32⟩ : BufTy).Contents (Elt F) → (⟨S1, .i32⟩ : BufTy).Contents (Elt F)),
    nullary main_c_5 (constantI S_ 32 2#32),
    unary main_c_5 main_v9 (broadcastInDim S1 ![] bcast_S_S1 : (⟨S_, .i32⟩ : BufTy).Contents (Elt F) → (⟨S1, .i32⟩ : BufTy).Contents (Elt F)) ]

set_option maxRecDepth 8192 in
set_option maxHeartbeats 100000000 in
theorem piece0_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2) :
    (after (pc0_0 (F := F)) U (Proc.devRef .tc main_arg0) = x0
      ∧ after (pc0_0 (F := F)) U (Proc.devRef .tc main_arg1) = x1
      ∧ after (pc0_0 (F := F)) U (Proc.devRef .tc main_arg2) = x2)
    ∧ after (pc0_0 (F := F)) U (Proc.devRef .tc main_v6) = val_main_v6 (F := F) x1 x2
    ∧ after (pc0_0 (F := F)) U (Proc.devRef .tc main_v7) = val_main_v7 (F := F)
    ∧ after (pc0_0 (F := F)) U (Proc.devRef .tc main_v8) = val_main_v8 (F := F)
    ∧ after (pc0_0 (F := F)) U (Proc.devRef .tc main_v9) = val_main_v9 (F := F) := by
  subst h0 h1 h2
  refine ⟨⟨?_, ?_, ?_⟩, ?_, ?_, ?_, ?_⟩
  all_goals after_results_simp
  all_goals (try rfl)

/-- Operations 22 to 36 of the line. -/
abbrev pc0_1 : List (HloOp τ sig (Elt F)) :=
  [ binary main_v8 main_v9 main_v10 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_c_6 (constantI S_ 1 1#1),
    unary main_c_6 main_v11 (broadcastInDim S124x124 ![] bcast_S_S124x124 : (⟨S_, .i1⟩ : BufTy).Contents (Elt F) → (⟨S124x124, .i1⟩ : BufTy).Contents (Elt F)),
    ternary main_v7 main_v10 main_v11 main_v12 ((fun x i u => Host.scatter scatter_S128x128_S2_S124x124_01_n_01_0 (fun _ b => b) x i u) : (⟨S128x128, .i1⟩ : BufTy).Contents (Elt F) → (⟨S2, .i32⟩ : BufTy).Contents (Elt F) → (⟨S124x124, .i1⟩ : BufTy).Contents (Elt F) → (⟨S128x128, .i1⟩ : BufTy).Contents (Elt F)),
    nullary main_c_7 (constantI S_ 32 0#32),
    unary main_c_7 main_v13 (broadcastInDim S8x128x128 ![] bcast_S_S8x128x128 : (⟨S_, .i32⟩ : BufTy).Contents (Elt F) → (⟨S8x128x128, .i32⟩ : BufTy).Contents (Elt F)),
    binary main_v6 main_v13 main_v14 (cmpi .sgt : (⟨S8x128x128, .i32⟩ : BufTy).Contents (Elt F) → (⟨S8x128x128, .i32⟩ : BufTy).Contents (Elt F) → (⟨S8x128x128, .i1⟩ : BufTy).Contents (Elt F)),
    unary main_v12 main_v15 (broadcastInDim S1x128x128 ![1, 2] bcast_S128x128_S1x128x128_1_2 : (⟨S128x128, .i1⟩ : BufTy).Contents (Elt F) → (⟨S1x128x128, .i1⟩ : BufTy).Contents (Elt F)),
    unary main_v15 main_v16 (broadcastInDim S8x128x128 ![0, 1, 2] bcast_S1x128x128_S8x128x128_0_1_2 : (⟨S1x128x128, .i1⟩ : BufTy).Contents (Elt F) → (⟨S8x128x128, .i1⟩ : BufTy).Contents (Elt F)),
    binary main_v14 main_v16 main_v17 (andi : (⟨S8x128x128, .i1⟩ : BufTy).Contents (Elt F) → (⟨S8x128x128, .i1⟩ : BufTy).Contents (Elt F) → (⟨S8x128x128, .i1⟩ : BufTy).Contents (Elt F)),
    nullary main_c_8 (constantI S_ 32 0#32),
    unary main_c_8 main_v18 (broadcastInDim S8x128x128 ![] bcast_S_S8x128x128 : (⟨S_, .i32⟩ : BufTy).Contents (Elt F) → (⟨S8x128x128, .i32⟩ : BufTy).Contents (Elt F)),
    binary main_v6 main_v18 main_v19 (cmpi .sgt : (⟨S8x128x128, .i32⟩ : BufTy).Contents (Elt F) → (⟨S8x128x128, .i32⟩ : BufTy).Contents (Elt F) → (⟨S8x128x128, .i1⟩ : BufTy).Contents (Elt F)),
    nullary main_c_9 (constantI S_ 1 0#1),
    binary main_v19 main_c_9 main_v20 ((fun x v => Host.reduce IntOp.ori x v reducesTo_S8x128x128_S8_d1_2 h_S_) : (⟨S8x128x128, .i1⟩ : BufTy).Contents (Elt F) → (⟨S_, .i1⟩ : BufTy).Contents (Elt F) → (⟨S8, .i1⟩ : BufTy).Contents (Elt F)) ]

set_option maxRecDepth 8192 in
set_option maxHeartbeats 100000000 in
theorem piece0_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v6 : U (Proc.devRef .tc main_v6) = val_main_v6 (F := F) x1 x2)
    (i_main_v7 : U (Proc.devRef .tc main_v7) = val_main_v7 (F := F))
    (i_main_v8 : U (Proc.devRef .tc main_v8) = val_main_v8 (F := F))
    (i_main_v9 : U (Proc.devRef .tc main_v9) = val_main_v9 (F := F)) :
    (after (pc0_1 (F := F)) U (Proc.devRef .tc main_arg0) = x0
      ∧ after (pc0_1 (F := F)) U (Proc.devRef .tc main_arg1) = x1
      ∧ after (pc0_1 (F := F)) U (Proc.devRef .tc main_arg2) = x2)
    ∧ after (pc0_1 (F := F)) U (Proc.devRef .tc main_v17) = val_main_v17 (F := F) x1 x2
    ∧ after (pc0_1 (F := F)) U (Proc.devRef .tc main_v20) = val_main_v20 (F := F) x1 x2 := by
  subst h0 h1 h2
  refine ⟨⟨?_, ?_, ?_⟩, ?_, ?_⟩
  all_goals after_results_simp
  all_goals (try simp only [i_main_v6, i_main_v7, i_main_v8, i_main_v9])
  all_goals (try rw [i_main_v6])
  all_goals (try rw [i_main_v7])
  all_goals (try rw [i_main_v8])
  all_goals (try rw [i_main_v9])
  all_goals (try rfl)

/-- Operations 37 to 52 of the line. -/
abbrev pc0_2 : List (HloOp τ sig (Elt F)) :=
  [ unary main_v17 main_v21 ((extui 32 · natLt_1_32) : (⟨S8x128x128, .i1⟩ : BufTy).Contents (Elt F) → (⟨S8x128x128, .i32⟩ : BufTy).Contents (Elt F)),
    nullary main_c_10 (constantI S_ 32 0#32),
    binary main_v21 main_c_10 main_v22 ((fun x v => Host.reduce IntOp.addi x v reducesTo_S8x128x128_S8_d1_2 h_S_) : (⟨S8x128x128, .i32⟩ : BufTy).Contents (Elt F) → (⟨S_, .i32⟩ : BufTy).Contents (Elt F) → (⟨S8, .i32⟩ : BufTy).Contents (Elt F)),
    unary main_v22 main_v23 (sitofp .f32 : (⟨S8, .i32⟩ : BufTy).Contents (Elt F) → (⟨S8, .f32⟩ : BufTy).Contents (Elt F)),
    binary main_arg0 main_arg0 main_v24 (mulf : (⟨S8x256x128x128, .f32⟩ : BufTy).Contents (Elt F) → (⟨S8x256x128x128, .f32⟩ : BufTy).Contents (Elt F) → (⟨S8x256x128x128, .f32⟩ : BufTy).Contents (Elt F)),
    nullary main_cst (constant S_ .f32 0x00000000#32),
    binary main_v24 main_cst main_v25 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    unary main_v25 main_v26 (Host.sqrt : (⟨S8x128x128, .f32⟩ : BufTy).Contents (Elt F) → (⟨S8x128x128, .f32⟩ : BufTy).Contents (Elt F)),
    nullary main_cst_11 (constant S_ .f32 0x322BCC77#32),
    unary main_cst_11 main_v27 (broadcastInDim S8x128x128 ![] bcast_S_S8x128x128 : (⟨S_, .f32⟩ : BufTy).Contents (Elt F) → (⟨S8x128x128, .f32⟩ : BufTy).Contents (Elt F)),
    binary main_v26 main_v27 main_v28 (maximumf : (⟨S8x128x128, .f32⟩ : BufTy).Contents (Elt F) → (⟨S8x128x128, .f32⟩ : BufTy).Contents (Elt F) → (⟨S8x128x128, .f32⟩ : BufTy).Contents (Elt F)),
    unary main_v17 main_v29 (uitofp .f32 : (⟨S8x128x128, .i1⟩ : BufTy).Contents (Elt F) → (⟨S8x128x128, .f32⟩ : BufTy).Contents (Elt F)),
    nullary main_cst_12 (constant S_ .f32 0x00000000#32),
    unary main_cst_12 main_v30 (broadcastInDim S8 ![] bcast_S_S8 : (⟨S_, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call2_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call2_v1) (extractStridedSlice S8x256x126x128 ![0, 0, 0, 0] · slices_S8x256x128x128_S8x256x126x128_0_0_0_0) ]

set_option maxRecDepth 8192 in
set_option maxHeartbeats 100000000 in
theorem piece0_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v17 : U (Proc.devRef .tc main_v17) = val_main_v17 (F := F) x1 x2)
    (i_main_v20 : U (Proc.devRef .tc main_v20) = val_main_v20 (F := F) x1 x2) :
    (after (pc0_2 (F := F)) U (Proc.devRef .tc main_arg0) = x0
      ∧ after (pc0_2 (F := F)) U (Proc.devRef .tc main_arg1) = x1
      ∧ after (pc0_2 (F := F)) U (Proc.devRef .tc main_arg2) = x2)
    ∧ after (pc0_2 (F := F)) U (Proc.devRef .tc main_v20) = val_main_v20 (F := F) x1 x2
    ∧ after (pc0_2 (F := F)) U (Proc.devRef .tc main_v23) = val_main_v23 (F := F) x1 x2
    ∧ after (pc0_2 (F := F)) U (Proc.devRef .tc main_v28) = val_main_v28 (F := F) x0
    ∧ after (pc0_2 (F := F)) U (Proc.devRef .tc main_v29) = val_main_v29 (F := F) x1 x2
    ∧ after (pc0_2 (F := F)) U (Proc.devRef .tc main_v30) = val_main_v30 (F := F)
    ∧ after (pc0_2 (F := F)) U (Proc.devRef .tc main_call2_v0) = val_main_call2_v0 (F := F) x0
    ∧ after (pc0_2 (F := F)) U (Proc.devRef .tc main_call2_v1) = val_main_call2_v1 (F := F) x0 := by
  subst h0 h1 h2
  refine ⟨⟨?_, ?_, ?_⟩, ?_, ?_, ?_, ?_, ?_, ?_, ?_⟩
  all_goals after_results_simp
  all_goals (try simp only [i_main_v17, i_main_v20])
  all_goals (try rw [i_main_v17])
  all_goals (try rw [i_main_v20])
  all_goals (try rfl)

/-- Operations 53 to 55 of the line. -/
abbrev pc0_3 : List (HloOp τ sig (Elt F)) :=
  [ TRef.binary (TRef.of (T := ⟨S8x256x2x128, .f32⟩) main_call2_v0) (TRef.of (T := ⟨S8x256x126x128, .f32⟩) main_call2_v1) (TRef.of (T := ⟨S8x256x128x128, .f32⟩) main_call2_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call2_v2) (TRef.of (T := ⟨S8x256x128x2, .f32⟩) main_call2_v3) (extractStridedSlice S8x256x128x2 ![0, 0, 0, 126] · slices_S8x256x128x128_S8x256x128x2_0_0_0_126),
    TRef.unary (TRef.of (T := ⟨S8x256x128x128, .f32⟩) main_call2_v2) (TRef.of (T := ⟨S8x256x128x126, .f32⟩) main_call2_v4) (extractStridedSlice S8x256x128x126 ![0, 0, 0, 0] · slices_S8x256x128x128_S8x256x128x126_0_0_0_0) ]

set_option maxRecDepth 8192 in
set_option maxHeartbeats 100000000 in
theorem piece0_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_call2_v0 : U (Proc.devRef .tc main_call2_v0) = val_main_call2_v0 (F := F) x0)
    (i_main_call2_v1 : U (Proc.devRef .tc main_call2_v1) = val_main_call2_v1 (F := F) x0) :
    (after (pc0_3 (F := F)) U (Proc.devRef .tc main_arg0) = x0
      ∧ after (pc0_3 (F := F)) U (Proc.devRef .tc main_arg1) = x1
      ∧ after (pc0_3 (F := F)) U (Proc.devRef .tc main_arg2) = x2)
    ∧ after (pc0_3 (F := F)) U (Proc.devRef .tc main_v20) = val_main_v20 (F := F) x1 x2
    ∧ after (pc0_3 (F := F)) U (Proc.devRef .tc main_v23) = val_main_v23 (F := F) x1 x2
    ∧ after (pc0_3 (F := F)) U (Proc.devRef .tc main_v28) = val_main_v28 (F := F) x0
    ∧ after (pc0_3 (F := F)) U (Proc.devRef .tc main_v29) = val_main_v29 (F := F) x1 x2
    ∧ after (pc0_3 (F := F)) U (Proc.devRef .tc main_v30) = val_main_v30 (F := F)
    ∧ after (pc0_3 (F := F)) U (Proc.devRef .tc main_call2_v3) = val_main_call2_v3 (F := F) x0
    ∧ after (pc0_3 (F := F)) U (Proc.devRef .tc main_call2_v4) = val_main_call2_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v30, i_main_call2_v0, i_main_call2_v1])
  all_goals (try rw [i_main_v20])
  all_goals (try rw [i_main_v23])
  all_goals (try rw [i_main_v28])
  all_goals (try rw [i_main_v29])
  all_goals (try rw [i_main_v30])
  all_goals (try rw [i_main_call2_v0])
  all_goals (try rw [i_main_call2_v1])
  all_goals (try rfl)

/-- Operations 56 to 58 of the line. -/
abbrev pc0_4 : List (HloOp τ sig (Elt F)) :=
  [ TRef.binary (TRef.of (T := ⟨S8x256x128x2, .f32⟩) main_call2_v3) (TRef.of (T := ⟨S8x256x128x126, .f32⟩) main_call2_v4) (TRef.of (T := ⟨S8x256x128x128, .f32⟩) main_v31) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x2x128, .f32⟩) main_call3_v0) (extractStridedSlice S8x2x128 ![0, 126, 0] · slices_S8x128x128_S8x2x128_0_126_0),
    TRef.unary (TRef.of (T := ⟨S8x128x128, .f32⟩) main_v28) (TRef.of (T := ⟨S8x126x128, .f32⟩) main_call3_v1) (extractStridedSlice S8x126x128 ![0, 0, 0] · slices_S8x128x128_S8x126x128_0_0_0) ]

set_option maxRecDepth 8192 in
set_option maxHeartbeats 100000000 in
theorem piece0_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_call2_v3 : U (Proc.devRef .tc main_call2_v3) = val_main_call2_v3 (F := F) x0)
    (i_main_call2_v4 : U (Proc.devRef .tc main_call2_v4) = val_main_call2_v4 (F := F) x0) :
    (after (pc0_4 (F := F)) U (Proc.devRef .tc main_arg0) = x0
      ∧ after (pc0_4 (F := F)) U (Proc.devRef .tc main_arg1) = x1
      ∧ after (pc0_4 (F := F)) U (Proc.devRef .tc main_arg2) = x2)
    ∧ after (pc0_4 (F := F)) U (Proc.devRef .tc main_v20) = val_main_v20 (F := F) x1 x2
    ∧ after (pc0_4 (F := F)) U (Proc.devRef .tc main_v23) = val_main_v23 (F := F) x1 x2
    ∧ after (pc0_4 (F := F)) U (Proc.devRef .tc main_v28) = val_main_v28 (F := F) x0
    ∧ after (pc0_4 (F := F)) U (Proc.devRef .tc main_v29) = val_main_v29 (F := F) x1 x2
    ∧ after (pc0_4 (F := F)) U (Proc.devRef .tc main_v30) = val_main_v30 (F := F)
    ∧ after (pc0_4 (F := F)) U (Proc.devRef .tc main_v31) = val_main_v31 (F := F) x0
    ∧ after (pc0_4 (F := F)) U (Proc.devRef .tc main_call3_v0) = val_main_call3_v0 (F := F) x0
    ∧ after (pc0_4 (F := F)) U (Proc.devRef .tc main_call3_v1) = val_main_call3_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v30, i_main_call2_v3, i_main_call2_v4])
  all_goals (try rw [i_main_v20])
  all_goals (try rw [i_main_v23])
  all_goals (try rw [i_main_v28])
  all_goals (try rw [i_main_v29])
  all_goals (try rw [i_main_v30])
  all_goals (try rw [i_main_call2_v3])
  all_goals (try rw [i_main_call2_v4])
  all_goals (try rfl)

/-- Operations 59 to 61 of the line. -/
abbrev pc0_5 : List (HloOp τ sig (Elt F)) :=
  [ TRef.binary (TRef.of (T := ⟨S8x2x128, .f32⟩) main_call3_v0) (TRef.of (T := ⟨S8x126x128, .f32⟩) main_call3_v1) (TRef.of (T := ⟨S8x128x128, .f32⟩) main_call3_v2) (fun a b => concatenate S8x128x128 1 [⟨S8x2x128, a⟩, ⟨S8x126x128, b⟩] concatenates_S8x2x128_S8x126x128_S8x128x128_d1),
    TRef.unary (TRef.of (T := ⟨S8x128x128, .f32⟩) main_call3_v2) (TRef.of (T := ⟨S8x128x2, .f32⟩) main_call3_v3) (extractStridedSlice S8x128x2 ![0, 0, 126] · slices_S8x128x128_S8x128x2_0_0_126),
    TRef.unary (TRef.of (T := ⟨S8x128x128, .f32⟩) main_call3_v2) (TRef.of (T := ⟨S8x128x126, .f32⟩) main_call3_v4) (extractStridedSlice S8x128x126 ![0, 0, 0] · slices_S8x128x128_S8x128x126_0_0_0) ]

set_option maxRecDepth 8192 in
set_option maxHeartbeats 100000000 in
theorem piece0_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_v31 : U (Proc.devRef .tc main_v31) = val_main_v31 (F := F) x0)
    (i_main_call3_v0 : U (Proc.devRef .tc main_call3_v0) = val_main_call3_v0 (F := F) x0)
    (i_main_call3_v1 : U (Proc.devRef .tc main_call3_v1) = val_main_call3_v1 (F := F) x0) :
    (after (pc0_5 (F := F)) U (Proc.devRef .tc main_arg0) = x0
      ∧ after (pc0_5 (F := F)) U (Proc.devRef .tc main_arg1) = x1
      ∧ after (pc0_5 (F := F)) U (Proc.devRef .tc main_arg2) = x2)
    ∧ after (pc0_5 (F := F)) U (Proc.devRef .tc main_v20) = val_main_v20 (F := F) x1 x2
    ∧ after (pc0_5 (F := F)) U (Proc.devRef .tc main_v23) = val_main_v23 (F := F) x1 x2
    ∧ after (pc0_5 (F := F)) U (Proc.devRef .tc main_v28) = val_main_v28 (F := F) x0
    ∧ after (pc0_5 (F := F)) U (Proc.devRef .tc main_v29) = val_main_v29 (F := F) x1 x2
    ∧ after (pc0_5 (F := F)) U (Proc.devRef .tc main_v30) = val_main_v30 (F := F)
    ∧ after (pc0_5 (F := F)) U (Proc.devRef .tc main_v31) = val_main_v31 (F := F) x0
    ∧ after (pc0_5 (F := F)) U (Proc.devRef .tc main_call3_v3) = val_main_call3_v3 (F := F) x0
    ∧ after (pc0_5 (F := F)) U (Proc.devRef .tc main_call3_v4) = val_main_call3_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v30, i_main_v31, i_main_call3_v0, i_main_call3_v1])
  all_goals (try rw [i_main_v20])
  all_goals (try rw [i_main_v23])
  all_goals (try rw [i_main_v28])
  all_goals (try rw [i_main_v29])
  all_goals (try rw [i_main_v30])
  all_goals (try rw [i_main_v31])
  all_goals (try rw [i_main_call3_v0])
  all_goals (try rw [i_main_call3_v1])
  all_goals (try rfl)

/-- Operations 62 to 64 of the line. -/
abbrev pc0_6 : List (HloOp τ sig (Elt F)) :=
  [ TRef.binary (TRef.of (T := ⟨S8x128x2, .f32⟩) main_call3_v3) (TRef.of (T := ⟨S8x128x126, .f32⟩) main_call3_v4) (TRef.of (T := ⟨S8x128x128, .f32⟩) main_v32) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x2x128, .i32⟩) main_call4_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call4_v1) (extractStridedSlice S8x126x128 ![0, 0, 0] · slices_S8x128x128_S8x126x128_0_0_0) ]

set_option maxRecDepth 8192 in
set_option maxHeartbeats 100000000 in
theorem piece0_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_v31 : U (Proc.devRef .tc main_v31) = val_main_v31 (F := F) x0)
    (i_main_call3_v3 : U (Proc.devRef .tc main_call3_v3) = val_main_call3_v3 (F := F) x0)
    (i_main_call3_v4 : U (Proc.devRef .tc main_call3_v4) = val_main_call3_v4 (F := F) x0) :
    (after (pc0_6 (F := F)) U (Proc.devRef .tc main_arg0) = x0
      ∧ after (pc0_6 (F := F)) U (Proc.devRef .tc main_arg1) = x1
      ∧ after (pc0_6 (F := F)) U (Proc.devRef .tc main_arg2) = x2)
    ∧ after (pc0_6 (F := F)) U (Proc.devRef .tc main_v20) = val_main_v20 (F := F) x1 x2
    ∧ after (pc0_6 (F := F)) U (Proc.devRef .tc main_v23) = val_main_v23 (F := F) x1 x2
    ∧ after (pc0_6 (F := F)) U (Proc.devRef .tc main_v28) = val_main_v28 (F := F) x0
    ∧ after (pc0_6 (F := F)) U (Proc.devRef .tc main_v29) = val_main_v29 (F := F) x1 x2
    ∧ after (pc0_6 (F := F)) U (Proc.devRef .tc main_v30) = val_main_v30 (F := F)
    ∧ after (pc0_6 (F := F)) U (Proc.devRef .tc main_v31) = val_main_v31 (F := F) x0
    ∧ after (pc0_6 (F := F)) U (Proc.devRef .tc main_v32) = val_main_v32 (F := F) x0
    ∧ after (pc0_6 (F := F)) U (Proc.devRef .tc main_call4_v0) = val_main_call4_v0 (F := F) x1
    ∧ after (pc0_6 (F := F)) U (Proc.devRef .tc main_call4_v1) = val_main_call4_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v30, i_main_v31, i_main_call3_v3, i_main_call3_v4])
  all_goals (try rw [i_main_v20])
  all_goals (try rw [i_main_v23])
  all_goals (try rw [i_main_v28])
  all_goals (try rw [i_main_v29])
  all_goals (try rw [i_main_v30])
  all_goals (try rw [i_main_v31])
  all_goals (try rw [i_main_call3_v3])
  all_goals (try rw [i_main_call3_v4])
  all_goals (try rfl)

/-- Operations 65 to 67 of the line. -/
abbrev pc0_7 : List (HloOp τ sig (Elt F)) :=
  [ TRef.binary (TRef.of (T := ⟨S8x2x128, .i32⟩) main_call4_v0) (TRef.of (T := ⟨S8x126x128, .i32⟩) main_call4_v1) (TRef.of (T := ⟨S8x128x128, .i32⟩) main_call4_v2) (fun a b => concatenate S8x128x128 1 [⟨S8x2x128, a⟩, ⟨S8x126x128, b⟩] concatenates_S8x2x128_S8x126x128_S8x128x128_d1),
    TRef.unary (TRef.of (T := ⟨S8x128x128, .i32⟩) main_call4_v2) (TRef.of (T := ⟨S8x128x2, .i32⟩) main_call4_v3) (extractStridedSlice S8x128x2 ![0, 0, 126] · slices_S8x128x128_S8x128x2_0_0_126),
    TRef.unary (TRef.of (T := ⟨S8x128x128, .i32⟩) main_call4_v2) (TRef.of (T := ⟨S8x128x126, .i32⟩) main_call4_v4) (extractStridedSlice S8x128x126 ![0, 0, 0] · slices_S8x128x128_S8x128x126_0_0_0) ]

set_option maxRecDepth 8192 in
set_option maxHeartbeats 100000000 in
theorem piece0_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_v31 : U (Proc.devRef .tc main_v31) = val_main_v31 (F := F) x0)
    (i_main_v32 : U (Proc.devRef .tc main_v32) = val_main_v32 (F := F) x0)
    (i_main_call4_v0 : U (Proc.devRef .tc main_call4_v0) = val_main_call4_v0 (F := F) x1)
    (i_main_call4_v1 : U (Proc.devRef .tc main_call4_v1) = val_main_call4_v1 (F := F) x1) :
    (after (pc0_7 (F := F)) U (Proc.devRef .tc main_arg0) = x0
      ∧ after (pc0_7 (F := F)) U (Proc.devRef .tc main_arg1) = x1
      ∧ after (pc0_7 (F := F)) U (Proc.devRef .tc main_arg2) = x2)
    ∧ after (pc0_7 (F := F)) U (Proc.devRef .tc main_v20) = val_main_v20 (F := F) x1 x2
    ∧ after (pc0_7 (F := F)) U (Proc.devRef .tc main_v23) = val_main_v23 (F := F) x1 x2
    ∧ after (pc0_7 (F := F)) U (Proc.devRef .tc main_v28) = val_main_v28 (F := F) x0
    ∧ after (pc0_7 (F := F)) U (Proc.devRef .tc main_v29) = val_main_v29 (F := F) x1 x2
    ∧ after (pc0_7 (F := F)) U (Proc.devRef .tc main_v30) = val_main_v30 (F := F)
    ∧ after (pc0_7 (F := F)) U (Proc.devRef .tc main_v31) = val_main_v31 (F := F) x0
    ∧ after (pc0_7 (F := F)) U (Proc.devRef .tc main_v32) = val_main_v32 (F := F) x0
    ∧ after (pc0_7 (F := F)) U (Proc.devRef .tc main_call4_v3) = val_main_call4_v3 (F := F) x1
    ∧ after (pc0_7 (F := F)) U (Proc.devRef .tc main_call4_v4) = val_main_call4_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v30, i_main_v31, i_main_v32, i_main_call4_v0, i_main_call4_v1])
  all_goals (try rw [i_main_v20])
  all_goals (try rw [i_main_v23])
  all_goals (try rw [i_main_v28])
  all_goals (try rw [i_main_v29])
  all_goals (try rw [i_main_v30])
  all_goals (try rw [i_main_v31])
  all_goals (try rw [i_main_v32])
  all_goals (try rw [i_main_call4_v0])
  all_goals (try rw [i_main_call4_v1])
  all_goals (try rfl)

/-- Operations 68 to 79 of the line. -/
abbrev pc0_8 : List (HloOp τ sig (Elt F)) :=
  [ TRef.binary (TRef.of (T := ⟨S8x128x2, .i32⟩) main_call4_v3) (TRef.of (T := ⟨S8x128x126, .i32⟩) main_call4_v4) (TRef.of (T := ⟨S8x128x128, .i32⟩) main_v33) (fun a b => concatenate S8x128x128 2 [⟨S8x128x2, a⟩, ⟨S8x128x126, b⟩] concatenates_S8x128x2_S8x128x126_S8x128x128_d2),
    binary main_arg0 main_v31 main_v34 (mulf : (⟨S8x256x128x128, .f32⟩ : BufTy).Contents (Elt F) → (⟨S8x256x128x128, .f32⟩ : BufTy).Contents (Elt F) → (⟨S8x256x128x128, .f32⟩ : BufTy).Contents (Elt F)),
    nullary main_cst_13 (constant S_ .f32 0x00000000#32),
    binary main_v34 main_cst_13 main_v35 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v32 main_v36 (mulf : (⟨S8x128x128, .f32⟩ : BufTy).Contents (Elt F) → (⟨S8x128x128, .f32⟩ : BufTy).Contents (Elt F) → (⟨S8x128x128, .f32⟩ : BufTy).Contents (Elt F)),
    binary main_v35 main_v36 main_v37 (Host.divf : (⟨S8x128x128, .f32⟩ : BufTy).Contents (Elt F) → (⟨S8x128x128, .f32⟩ : BufTy).Contents (Elt F) → (⟨S8x128x128, .f32⟩ : BufTy).Contents (Elt F)),
    binary main_arg1 main_v33 main_v38 (cmpi .eq : (⟨S8x128x128, .i32⟩ : BufTy).Contents (Elt F) → (⟨S8x128x128, .i32⟩ : BufTy).Contents (Elt F) → (⟨S8x128x128, .i1⟩ : BufTy).Contents (Elt F)),
    nullary main_c_14 (constantI S_ 32 2#32),
    unary main_c_14 main_v39 (broadcastInDim S8x128x128 ![] bcast_S_S8x128x128 : (⟨S_, .i32⟩ : BufTy).Contents (Elt F) → (⟨S8x128x128, .i32⟩ : BufTy).Contents (Elt F)),
    binary main_arg1 main_v39 main_v40 (cmpi .slt : (⟨S8x128x128, .i32⟩ : BufTy).Contents (Elt F) → (⟨S8x128x128, .i32⟩ : BufTy).Contents (Elt F) → (⟨S8x128x128, .i1⟩ : BufTy).Contents (Elt F)),
    binary main_v38 main_v40 main_v41 (andi : (⟨S8x128x128, .i1⟩ : BufTy).Contents (Elt F) → (⟨S8x128x128, .i1⟩ : BufTy).Contents (Elt F) → (⟨S8x128x128, .i1⟩ : BufTy).Contents (Elt F)),
    unary main_v41 main_v42 (uitofp .f32 : (⟨S8x128x128, .i1⟩ : BufTy).Contents (Elt F) → (⟨S8x128x128, .f32⟩ : BufTy).Contents (Elt F)) ]

set_option maxRecDepth 8192 in
set_option maxHeartbeats 100000000 in
theorem piece0_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_v31 : U (Proc.devRef .tc main_v31) = val_main_v31 (F := F) x0)
    (i_main_v32 : U (Proc.devRef .tc main_v32) = val_main_v32 (F := F) x0)
    (i_main_call4_v3 : U (Proc.devRef .tc main_call4_v3) = val_main_call4_v3 (F := F) x1)
    (i_main_call4_v4 : U (Proc.devRef .tc main_call4_v4) = val_main_call4_v4 (F := F) x1) :
    (after (pc0_8 (F := F)) U (Proc.devRef .tc main_arg0) = x0
      ∧ after (pc0_8 (F := F)) U (Proc.devRef .tc main_arg1) = x1
      ∧ after (pc0_8 (F := F)) U (Proc.devRef .tc main_arg2) = x2)
    ∧ after (pc0_8 (F := F)) U (Proc.devRef .tc main_v20) = val_main_v20 (F := F) x1 x2
    ∧ after (pc0_8 (F := F)) U (Proc.devRef .tc main_v23) = val_main_v23 (F := F) x1 x2
    ∧ after (pc0_8 (F := F)) U (Proc.devRef .tc main_v28) = val_main_v28 (F := F) x0
    ∧ after (pc0_8 (F := F)) U (Proc.devRef .tc main_v29) = val_main_v29 (F := F) x1 x2
    ∧ after (pc0_8 (F := F)) U (Proc.devRef .tc main_v30) = val_main_v30 (F := F)
    ∧ after (pc0_8 (F := F)) U (Proc.devRef .tc main_v37) = val_main_v37 (F := F) x0
    ∧ after (pc0_8 (F := F)) U (Proc.devRef .tc main_v42) = val_main_v42 (F := F) x1 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v30, i_main_v31, i_main_v32, i_main_call4_v3, i_main_call4_v4])
  all_goals (try rw [i_main_v20])
  all_goals (try rw [i_main_v23])
  all_goals (try rw [i_main_v28])
  all_goals (try rw [i_main_v29])
  all_goals (try rw [i_main_v30])
  all_goals (try rw [i_main_v31])
  all_goals (try rw [i_main_v32])
  all_goals (try rw [i_main_call4_v3])
  all_goals (try rw [i_main_call4_v4])
  all_goals (try rfl)

set_option maxRecDepth 8192 in
/-- The part's operations are its pieces laid end to end. -/
theorem ops0_split : (ops0 (F := F)) = pc0_0 ++ (pc0_1 ++ (pc0_2 ++ (pc0_3 ++ (pc0_4 ++ (pc0_5 ++ (pc0_6 ++ (pc0_7 ++ (pc0_8)))))))) := rfl

theorem chunk0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2) :
    (after (ops0 (F := F)) U (Proc.devRef .tc main_arg0) = x0
      ∧ after (ops0 (F := F)) U (Proc.devRef .tc main_arg1) = x1
      ∧ after (ops0 (F := F)) U (Proc.devRef .tc main_arg2) = x2)
    ∧ after (ops0 (F := F)) U (Proc.devRef .tc main_v20) = val_main_v20 (F := F) x1 x2
    ∧ after (ops0 (F := F)) U (Proc.devRef .tc main_v23) = val_main_v23 (F := F) x1 x2
    ∧ after (ops0 (F := F)) U (Proc.devRef .tc main_v28) = val_main_v28 (F := F) x0
    ∧ after (ops0 (F := F)) U (Proc.devRef .tc main_v29) = val_main_v29 (F := F) x1 x2
    ∧ after (ops0 (F := F)) U (Proc.devRef .tc main_v30) = val_main_v30 (F := F)
    ∧ after (ops0 (F := F)) U (Proc.devRef .tc main_v37) = val_main_v37 (F := F) x0
    ∧ after (ops0 (F := F)) U (Proc.devRef .tc main_v42) = val_main_v42 (F := F) x1 := by
  rw [ops0_split]
  simp only [after_append]
  have p0 := piece0_0 (F := F) U x0 x1 x2 h0 h1 h2
  have p1 := piece0_1 (F := F) (after (pc0_0 (F := F)) U) x0 x1 x2 p0.1.1 p0.1.2.1 p0.1.2.2 p0.2.1 p0.2.2.1 p0.2.2.2.1 p0.2.2.2.2
  have p2 := piece0_2 (F := F) (after (pc0_1 (F := F)) (after (pc0_0 (F := F)) U)) x0 x1 x2 p1.1.1 p1.1.2.1 p1.1.2.2 p1.2.1 p1.2.2
  have p3 := piece0_3 (F := F) (after (pc0_2 (F := F)) (after (pc0_1 (F := F)) (after (pc0_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2
  have p4 := piece0_4 (F := F) (after (pc0_3 (F := F)) (after (pc0_2 (F := F)) (after (pc0_1 (F := F)) (after (pc0_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2
  have p5 := piece0_5 (F := F) (after (pc0_4 (F := F)) (after (pc0_3 (F := F)) (after (pc0_2 (F := F)) (after (pc0_1 (F := F)) (after (pc0_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2
  have p6 := piece0_6 (F := F) (after (pc0_5 (F := F)) (after (pc0_4 (F := F)) (after (pc0_3 (F := F)) (after (pc0_2 (F := F)) (after (pc0_1 (F := F)) (after (pc0_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2
  have p7 := piece0_7 (F := F) (after (pc0_6 (F := F)) (after (pc0_5 (F := F)) (after (pc0_4 (F := F)) (after (pc0_3 (F := F)) (after (pc0_2 (F := F)) (after (pc0_1 (F := F)) (after (pc0_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2.1 p6.2.2.2.2.2.2.2.2.1 p6.2.2.2.2.2.2.2.2.2
  have p8 := piece0_8 (F := F) (after (pc0_7 (F := F)) (after (pc0_6 (F := F)) (after (pc0_5 (F := F)) (after (pc0_4 (F := F)) (after (pc0_3 (F := F)) (after (pc0_2 (F := F)) (after (pc0_1 (F := F)) (after (pc0_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2.1 p7.2.2.2.2.2.2.2.2.1 p7.2.2.2.2.2.2.2.2.2
  exact p8

end Cert.Bridge.RefRun

end
-- ==== Proof.RefRunPart1.lean ====
/-
  Part 1 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 80 to 91 of the line. -/
abbrev pc1_0 : List (HloOp τ sig (Elt F)) :=
  [ binary main_v37 main_v42 main_v43 (subf : (⟨S8x128x128, .f32⟩ : BufTy).Contents (Elt F) → (⟨S8x128x128, .f32⟩ : BufTy).Contents (Elt F) → (⟨S8x128x128, .f32⟩ : BufTy).Contents (Elt F)),
    binary main_v43 main_v43 main_v44 (mulf : (⟨S8x128x128, .f32⟩ : BufTy).Contents (Elt F) → (⟨S8x128x128, .f32⟩ : BufTy).Contents (Elt F) → (⟨S8x128x128, .f32⟩ : BufTy).Contents (Elt F)),
    binary main_v44 main_v29 main_v45 (mulf : (⟨S8x128x128, .f32⟩ : BufTy).Contents (Elt F) → (⟨S8x128x128, .f32⟩ : BufTy).Contents (Elt F) → (⟨S8x128x128, .f32⟩ : BufTy).Contents (Elt F)),
    nullary main_cst_15 (constant S_ .f32 0x00000000#32),
    binary main_v45 main_cst_15 main_v46 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_16 (constant S_ .f32 0x3F800000#32),
    unary main_cst_16 main_v47 (broadcastInDim S8 ![] bcast_S_S8 : (⟨S_, .f32⟩ : BufTy).Contents (Elt F) → (⟨S8, .f32⟩ : BufTy).Contents (Elt F)),
    binary main_v23 main_v47 main_v48 (maximumf : (⟨S8, .f32⟩ : BufTy).Contents (Elt F) → (⟨S8, .f32⟩ : BufTy).Contents (Elt F) → (⟨S8, .f32⟩ : BufTy).Contents (Elt F)),
    binary main_v46 main_v48 main_v49 (Host.divf : (⟨S8, .f32⟩ : BufTy).Contents (Elt F) → (⟨S8, .f32⟩ : BufTy).Contents (Elt F) → (⟨S8, .f32⟩ : BufTy).Contents (Elt F)),
    binary main_v30 main_v49 main_v50 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call5_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call5_v1) (extractStridedSlice S8x256x126x128 ![0, 0, 0, 0] · slices_S8x256x128x128_S8x256x126x128_0_0_0_0) ]

set_option maxRecDepth 8192 in
set_option maxHeartbeats 100000000 in
theorem piece1_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_v37 : U (Proc.devRef .tc main_v37) = val_main_v37 (F := F) x0)
    (i_main_v42 : U (Proc.devRef .tc main_v42) = val_main_v42 (F := F) x1) :
    (after (pc1_0 (F := F)) U (Proc.devRef .tc main_arg0) = x0
      ∧ after (pc1_0 (F := F)) U (Proc.devRef .tc main_arg1) = x1
      ∧ after (pc1_0 (F := F)) U (Proc.devRef .tc main_arg2) = x2)
    ∧ after (pc1_0 (F := F)) U (Proc.devRef .tc main_v20) = val_main_v20 (F := F) x1 x2
    ∧ after (pc1_0 (F := F)) U (Proc.devRef .tc main_v23) = val_main_v23 (F := F) x1 x2
    ∧ after (pc1_0 (F := F)) U (Proc.devRef .tc main_v28) = val_main_v28 (F := F) x0
    ∧ after (pc1_0 (F := F)) U (Proc.devRef .tc main_v29) = val_main_v29 (F := F) x1 x2
    ∧ after (pc1_0 (F := F)) U (Proc.devRef .tc main_v50) = val_main_v50 (F := F) x0 x1 x2
    ∧ after (pc1_0 (F := F)) U (Proc.devRef .tc main_call5_v0) = val_main_call5_v0 (F := F) x0
    ∧ after (pc1_0 (F := F)) U (Proc.devRef .tc main_call5_v1) = val_main_call5_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v30, i_main_v37, i_main_v42])
  all_goals (try rw [i_main_v20])
  all_goals (try rw [i_main_v23])
  all_goals (try rw [i_main_v28])
  all_goals (try rw [i_main_v29])
  all_goals (try rw [i_main_v30])
  all_goals (try rw [i_main_v37])
  all_goals (try rw [i_main_v42])
  all_goals (try rfl)

/-- Operations 92 to 94 of the line. -/
abbrev pc1_1 : List (HloOp τ sig (Elt F)) :=
  [ TRef.binary (TRef.of (T := ⟨S8x256x2x128, .f32⟩) main_call5_v0) (TRef.of (T := ⟨S8x256x126x128, .f32⟩) main_call5_v1) (TRef.of (T := ⟨S8x256x128x128, .f32⟩) main_call5_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call5_v2) (TRef.of (T := ⟨S8x256x128x1, .f32⟩) main_call5_v3) (extractStridedSlice S8x256x128x1 ![0, 0, 0, 127] · slices_S8x256x128x128_S8x256x128x1_0_0_0_127),
    TRef.unary (TRef.of (T := ⟨S8x256x128x128, .f32⟩) main_call5_v2) (TRef.of (T := ⟨S8x256x128x127, .f32⟩) main_call5_v4) (extractStridedSlice S8x256x128x127 ![0, 0, 0, 0] · slices_S8x256x128x128_S8x256x128x127_0_0_0_0) ]

set_option maxRecDepth 8192 in
set_option maxHeartbeats 100000000 in
theorem piece1_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v50 : U (Proc.devRef .tc main_v50) = val_main_v50 (F := F) x0 x1 x2)
    (i_main_call5_v0 : U (Proc.devRef .tc main_call5_v0) = val_main_call5_v0 (F := F) x0)
    (i_main_call5_v1 : U (Proc.devRef .tc main_call5_v1) = val_main_call5_v1 (F := F) x0) :
    (after (pc1_1 (F := F)) U (Proc.devRef .tc main_arg0) = x0
      ∧ after (pc1_1 (F := F)) U (Proc.devRef .tc main_arg1) = x1
      ∧ after (pc1_1 (F := F)) U (Proc.devRef .tc main_arg2) = x2)
    ∧ after (pc1_1 (F := F)) U (Proc.devRef .tc main_v20) = val_main_v20 (F := F) x1 x2
    ∧ after (pc1_1 (F := F)) U (Proc.devRef .tc main_v23) = val_main_v23 (F := F) x1 x2
    ∧ after (pc1_1 (F := F)) U (Proc.devRef .tc main_v28) = val_main_v28 (F := F) x0
    ∧ after (pc1_1 (F := F)) U (Proc.devRef .tc main_v29) = val_main_v29 (F := F) x1 x2
    ∧ after (pc1_1 (F := F)) U (Proc.devRef .tc main_v50) = val_main_v50 (F := F) x0 x1 x2
    ∧ after (pc1_1 (F := F)) U (Proc.devRef .tc main_call5_v3) = val_main_call5_v3 (F := F) x0
    ∧ after (pc1_1 (F := F)) U (Proc.devRef .tc main_call5_v4) = val_main_call5_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v50, i_main_call5_v0, i_main_call5_v1])
  all_goals (try rw [i_main_v20])
  all_goals (try rw [i_main_v23])
  all_goals (try rw [i_main_v28])
  all_goals (try rw [i_main_v29])
  all_goals (try rw [i_main_v50])
  all_goals (try rw [i_main_call5_v0])
  all_goals (try rw [i_main_call5_v1])
  all_goals (try rfl)

/-- Operations 95 to 97 of the line. -/
abbrev pc1_2 : List (HloOp τ sig (Elt F)) :=
  [ TRef.binary (TRef.of (T := ⟨S8x256x128x1, .f32⟩) main_call5_v3) (TRef.of (T := ⟨S8x256x128x127, .f32⟩) main_call5_v4) (TRef.of (T := ⟨S8x256x128x128, .f32⟩) main_v51) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x2x128, .f32⟩) main_call6_v0) (extractStridedSlice S8x2x128 ![0, 126, 0] · slices_S8x128x128_S8x2x128_0_126_0),
    TRef.unary (TRef.of (T := ⟨S8x128x128, .f32⟩) main_v28) (TRef.of (T := ⟨S8x126x128, .f32⟩) main_call6_v1) (extractStridedSlice S8x126x128 ![0, 0, 0] · slices_S8x128x128_S8x126x128_0_0_0) ]

set_option maxRecDepth 8192 in
set_option maxHeartbeats 100000000 in
theorem piece1_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v50 : U (Proc.devRef .tc main_v50) = val_main_v50 (F := F) x0 x1 x2)
    (i_main_call5_v3 : U (Proc.devRef .tc main_call5_v3) = val_main_call5_v3 (F := F) x0)
    (i_main_call5_v4 : U (Proc.devRef .tc main_call5_v4) = val_main_call5_v4 (F := F) x0) :
    (after (pc1_2 (F := F)) U (Proc.devRef .tc main_arg0) = x0
      ∧ after (pc1_2 (F := F)) U (Proc.devRef .tc main_arg1) = x1
      ∧ after (pc1_2 (F := F)) U (Proc.devRef .tc main_arg2) = x2)
    ∧ after (pc1_2 (F := F)) U (Proc.devRef .tc main_v20) = val_main_v20 (F := F) x1 x2
    ∧ after (pc1_2 (F := F)) U (Proc.devRef .tc main_v23) = val_main_v23 (F := F) x1 x2
    ∧ after (pc1_2 (F := F)) U (Proc.devRef .tc main_v28) = val_main_v28 (F := F) x0
    ∧ after (pc1_2 (F := F)) U (Proc.devRef .tc main_v29) = val_main_v29 (F := F) x1 x2
    ∧ after (pc1_2 (F := F)) U (Proc.devRef .tc main_v50) = val_main_v50 (F := F) x0 x1 x2
    ∧ after (pc1_2 (F := F)) U (Proc.devRef .tc main_v51) = val_main_v51 (F := F) x0
    ∧ after (pc1_2 (F := F)) U (Proc.devRef .tc main_call6_v0) = val_main_call6_v0 (F := F) x0
    ∧ after (pc1_2 (F := F)) U (Proc.devRef .tc main_call6_v1) = val_main_call6_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v50, i_main_call5_v3, i_main_call5_v4])
  all_goals (try rw [i_main_v20])
  all_goals (try rw [i_main_v23])
  all_goals (try rw [i_main_v28])
  all_goals (try rw [i_main_v29])
  all_goals (try rw [i_main_v50])
  all_goals (try rw [i_main_call5_v3])
  all_goals (try rw [i_main_call5_v4])
  all_goals (try rfl)

/-- Operations 98 to 100 of the line. -/
abbrev pc1_3 : List (HloOp τ sig (Elt F)) :=
  [ TRef.binary (TRef.of (T := ⟨S8x2x128, .f32⟩) main_call6_v0) (TRef.of (T := ⟨S8x126x128, .f32⟩) main_call6_v1) (TRef.of (T := ⟨S8x128x128, .f32⟩) main_call6_v2) (fun a b => concatenate S8x128x128 1 [⟨S8x2x128, a⟩, ⟨S8x126x128, b⟩] concatenates_S8x2x128_S8x126x128_S8x128x128_d1),
    TRef.unary (TRef.of (T := ⟨S8x128x128, .f32⟩) main_call6_v2) (TRef.of (T := ⟨S8x128x1, .f32⟩) main_call6_v3) (extractStridedSlice S8x128x1 ![0, 0, 127] · slices_S8x128x128_S8x128x1_0_0_127),
    TRef.unary (TRef.of (T := ⟨S8x128x128, .f32⟩) main_call6_v2) (TRef.of (T := ⟨S8x128x127, .f32⟩) main_call6_v4) (extractStridedSlice S8x128x127 ![0, 0, 0] · slices_S8x128x128_S8x128x127_0_0_0) ]

set_option maxRecDepth 8192 in
set_option maxHeartbeats 100000000 in
theorem piece1_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v50 : U (Proc.devRef .tc main_v50) = val_main_v50 (F := F) x0 x1 x2)
    (i_main_v51 : U (Proc.devRef .tc main_v51) = val_main_v51 (F := F) x0)
    (i_main_call6_v0 : U (Proc.devRef .tc main_call6_v0) = val_main_call6_v0 (F := F) x0)
    (i_main_call6_v1 : U (Proc.devRef .tc main_call6_v1) = val_main_call6_v1 (F := F) x0) :
    (after (pc1_3 (F := F)) U (Proc.devRef .tc main_arg0) = x0
      ∧ after (pc1_3 (F := F)) U (Proc.devRef .tc main_arg1) = x1
      ∧ after (pc1_3 (F := F)) U (Proc.devRef .tc main_arg2) = x2)
    ∧ after (pc1_3 (F := F)) U (Proc.devRef .tc main_v20) = val_main_v20 (F := F) x1 x2
    ∧ after (pc1_3 (F := F)) U (Proc.devRef .tc main_v23) = val_main_v23 (F := F) x1 x2
    ∧ after (pc1_3 (F := F)) U (Proc.devRef .tc main_v28) = val_main_v28 (F := F) x0
    ∧ after (pc1_3 (F := F)) U (Proc.devRef .tc main_v29) = val_main_v29 (F := F) x1 x2
    ∧ after (pc1_3 (F := F)) U (Proc.devRef .tc main_v50) = val_main_v50 (F := F) x0 x1 x2
    ∧ after (pc1_3 (F := F)) U (Proc.devRef .tc main_v51) = val_main_v51 (F := F) x0
    ∧ after (pc1_3 (F := F)) U (Proc.devRef .tc main_call6_v3) = val_main_call6_v3 (F := F) x0
    ∧ after (pc1_3 (F := F)) U (Proc.devRef .tc main_call6_v4) = val_main_call6_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v50, i_main_v51, i_main_call6_v0, i_main_call6_v1])
  all_goals (try rw [i_main_v20])
  all_goals (try rw [i_main_v23])
  all_goals (try rw [i_main_v28])
  all_goals (try rw [i_main_v29])
  all_goals (try rw [i_main_v50])
  all_goals (try rw [i_main_v51])
  all_goals (try rw [i_main_call6_v0])
  all_goals (try rw [i_main_call6_v1])
  all_goals (try rfl)

/-- Operations 101 to 103 of the line. -/
abbrev pc1_4 : List (HloOp τ sig (Elt F)) :=
  [ TRef.binary (TRef.of (T := ⟨S8x128x1, .f32⟩) main_call6_v3) (TRef.of (T := ⟨S8x128x127, .f32⟩) main_call6_v4) (TRef.of (T := ⟨S8x128x128, .f32⟩) main_v52) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x2x128, .i32⟩) main_call7_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call7_v1) (extractStridedSlice S8x126x128 ![0, 0, 0] · slices_S8x128x128_S8x126x128_0_0_0) ]

set_option maxRecDepth 8192 in
set_option maxHeartbeats 100000000 in
theorem piece1_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v50 : U (Proc.devRef .tc main_v50) = val_main_v50 (F := F) x0 x1 x2)
    (i_main_v51 : U (Proc.devRef .tc main_v51) = val_main_v51 (F := F) x0)
    (i_main_call6_v3 : U (Proc.devRef .tc main_call6_v3) = val_main_call6_v3 (F := F) x0)
    (i_main_call6_v4 : U (Proc.devRef .tc main_call6_v4) = val_main_call6_v4 (F := F) x0) :
    (after (pc1_4 (F := F)) U (Proc.devRef .tc main_arg0) = x0
      ∧ after (pc1_4 (F := F)) U (Proc.devRef .tc main_arg1) = x1
      ∧ after (pc1_4 (F := F)) U (Proc.devRef .tc main_arg2) = x2)
    ∧ after (pc1_4 (F := F)) U (Proc.devRef .tc main_v20) = val_main_v20 (F := F) x1 x2
    ∧ after (pc1_4 (F := F)) U (Proc.devRef .tc main_v23) = val_main_v23 (F := F) x1 x2
    ∧ after (pc1_4 (F := F)) U (Proc.devRef .tc main_v28) = val_main_v28 (F := F) x0
    ∧ after (pc1_4 (F := F)) U (Proc.devRef .tc main_v29) = val_main_v29 (F := F) x1 x2
    ∧ after (pc1_4 (F := F)) U (Proc.devRef .tc main_v50) = val_main_v50 (F := F) x0 x1 x2
    ∧ after (pc1_4 (F := F)) U (Proc.devRef .tc main_v51) = val_main_v51 (F := F) x0
    ∧ after (pc1_4 (F := F)) U (Proc.devRef .tc main_v52) = val_main_v52 (F := F) x0
    ∧ after (pc1_4 (F := F)) U (Proc.devRef .tc main_call7_v0) = val_main_call7_v0 (F := F) x1
    ∧ after (pc1_4 (F := F)) U (Proc.devRef .tc main_call7_v1) = val_main_call7_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v50, i_main_v51, i_main_call6_v3, i_main_call6_v4])
  all_goals (try rw [i_main_v20])
  all_goals (try rw [i_main_v23])
  all_goals (try rw [i_main_v28])
  all_goals (try rw [i_main_v29])
  all_goals (try rw [i_main_v50])
  all_goals (try rw [i_main_v51])
  all_goals (try rw [i_main_call6_v3])
  all_goals (try rw [i_main_call6_v4])
  all_goals (try rfl)

/-- Operations 104 to 106 of the line. -/
abbrev pc1_5 : List (HloOp τ sig (Elt F)) :=
  [ TRef.binary (TRef.of (T := ⟨S8x2x128, .i32⟩) main_call7_v0) (TRef.of (T := ⟨S8x126x128, .i32⟩) main_call7_v1) (TRef.of (T := ⟨S8x128x128, .i32⟩) main_call7_v2) (fun a b => concatenate S8x128x128 1 [⟨S8x2x128, a⟩, ⟨S8x126x128, b⟩] concatenates_S8x2x128_S8x126x128_S8x128x128_d1),
    TRef.unary (TRef.of (T := ⟨S8x128x128, .i32⟩) main_call7_v2) (TRef.of (T := ⟨S8x128x1, .i32⟩) main_call7_v3) (extractStridedSlice S8x128x1 ![0, 0, 127] · slices_S8x128x128_S8x128x1_0_0_127),
    TRef.unary (TRef.of (T := ⟨S8x128x128, .i32⟩) main_call7_v2) (TRef.of (T := ⟨S8x128x127, .i32⟩) main_call7_v4) (extractStridedSlice S8x128x127 ![0, 0, 0] · slices_S8x128x128_S8x128x127_0_0_0) ]

set_option maxRecDepth 8192 in
set_option maxHeartbeats 100000000 in
theorem piece1_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v50 : U (Proc.devRef .tc main_v50) = val_main_v50 (F := F) x0 x1 x2)
    (i_main_v51 : U (Proc.devRef .tc main_v51) = val_main_v51 (F := F) x0)
    (i_main_v52 : U (Proc.devRef .tc main_v52) = val_main_v52 (F := F) x0)
    (i_main_call7_v0 : U (Proc.devRef .tc main_call7_v0) = val_main_call7_v0 (F := F) x1)
    (i_main_call7_v1 : U (Proc.devRef .tc main_call7_v1) = val_main_call7_v1 (F := F) x1) :
    (after (pc1_5 (F := F)) U (Proc.devRef .tc main_arg0) = x0
      ∧ after (pc1_5 (F := F)) U (Proc.devRef .tc main_arg1) = x1
      ∧ after (pc1_5 (F := F)) U (Proc.devRef .tc main_arg2) = x2)
    ∧ after (pc1_5 (F := F)) U (Proc.devRef .tc main_v20) = val_main_v20 (F := F) x1 x2
    ∧ after (pc1_5 (F := F)) U (Proc.devRef .tc main_v23) = val_main_v23 (F := F) x1 x2
    ∧ after (pc1_5 (F := F)) U (Proc.devRef .tc main_v28) = val_main_v28 (F := F) x0
    ∧ after (pc1_5 (F := F)) U (Proc.devRef .tc main_v29) = val_main_v29 (F := F) x1 x2
    ∧ after (pc1_5 (F := F)) U (Proc.devRef .tc main_v50) = val_main_v50 (F := F) x0 x1 x2
    ∧ after (pc1_5 (F := F)) U (Proc.devRef .tc main_v51) = val_main_v51 (F := F) x0
    ∧ after (pc1_5 (F := F)) U (Proc.devRef .tc main_v52) = val_main_v52 (F := F) x0
    ∧ after (pc1_5 (F := F)) U (Proc.devRef .tc main_call7_v3) = val_main_call7_v3 (F := F) x1
    ∧ after (pc1_5 (F := F)) U (Proc.devRef .tc main_call7_v4) = val_main_call7_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v50, i_main_v51, i_main_v52, i_main_call7_v0, i_main_call7_v1])
  all_goals (try rw [i_main_v20])
  all_goals (try rw [i_main_v23])
  all_goals (try rw [i_main_v28])
  all_goals (try rw [i_main_v29])
  all_goals (try rw [i_main_v50])
  all_goals (try rw [i_main_v51])
  all_goals (try rw [i_main_v52])
  all_goals (try rw [i_main_call7_v0])
  all_goals (try rw [i_main_call7_v1])
  all_goals (try rfl)

/-- Operations 107 to 130 of the line. -/
abbrev pc1_6 : List (HloOp τ sig (Elt F)) :=
  [ TRef.binary (TRef.of (T := ⟨S8x128x1, .i32⟩) main_call7_v3) (TRef.of (T := ⟨S8x128x127, .i32⟩) main_call7_v4) (TRef.of (T := ⟨S8x128x128, .i32⟩) main_v53) (fun a b => concatenate S8x128x128 2 [⟨S8x128x1, a⟩, ⟨S8x128x127, b⟩] concatenates_S8x128x1_S8x128x127_S8x128x128_d2),
    binary main_arg0 main_v51 main_v54 (mulf : (⟨S8x256x128x128, .f32⟩ : BufTy).Contents (Elt F) → (⟨S8x256x128x128, .f32⟩ : BufTy).Contents (Elt F) → (⟨S8x256x128x128, .f32⟩ : BufTy).Contents (Elt F)),
    nullary main_cst_17 (constant S_ .f32 0x00000000#32),
    binary main_v54 main_cst_17 main_v55 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v52 main_v56 (mulf : (⟨S8x128x128, .f32⟩ : BufTy).Contents (Elt F) → (⟨S8x128x128, .f32⟩ : BufTy).Contents (Elt F) → (⟨S8x128x128, .f32⟩ : BufTy).Contents (Elt F)),
    binary main_v55 main_v56 main_v57 (Host.divf : (⟨S8x128x128, .f32⟩ : BufTy).Contents (Elt F) → (⟨S8x128x128, .f32⟩ : BufTy).Contents (Elt F) → (⟨S8x128x128, .f32⟩ : BufTy).Contents (Elt F)),
    binary main_arg1 main_v53 main_v58 (cmpi .eq : (⟨S8x128x128, .i32⟩ : BufTy).Contents (Elt F) → (⟨S8x128x128, .i32⟩ : BufTy).Contents (Elt F) → (⟨S8x128x128, .i1⟩ : BufTy).Contents (Elt F)),
    nullary main_c_18 (constantI S_ 32 2#32),
    unary main_c_18 main_v59 (broadcastInDim S8x128x128 ![] bcast_S_S8x128x128 : (⟨S_, .i32⟩ : BufTy).Contents (Elt F) → (⟨S8x128x128, .i32⟩ : BufTy).Contents (Elt F)),
    binary main_arg1 main_v59 main_v60 (cmpi .slt : (⟨S8x128x128, .i32⟩ : BufTy).Contents (Elt F) → (⟨S8x128x128, .i32⟩ : BufTy).Contents (Elt F) → (⟨S8x128x128, .i1⟩ : BufTy).Contents (Elt F)),
    binary main_v58 main_v60 main_v61 (andi : (⟨S8x128x128, .i1⟩ : BufTy).Contents (Elt F) → (⟨S8x128x128, .i1⟩ : BufTy).Contents (Elt F) → (⟨S8x128x128, .i1⟩ : BufTy).Contents (Elt F)),
    unary main_v61 main_v62 (uitofp .f32 : (⟨S8x128x128, .i1⟩ : BufTy).Contents (Elt F) → (⟨S8x128x128, .f32⟩ : BufTy).Contents (Elt F)),
    binary main_v57 main_v62 main_v63 (subf : (⟨S8x128x128, .f32⟩ : BufTy).Contents (Elt F) → (⟨S8x128x128, .f32⟩ : BufTy).Contents (Elt F) → (⟨S8x128x128, .f32⟩ : BufTy).Contents (Elt F)),
    binary main_v63 main_v63 main_v64 (mulf : (⟨S8x128x128, .f32⟩ : BufTy).Contents (Elt F) → (⟨S8x128x128, .f32⟩ : BufTy).Contents (Elt F) → (⟨S8x128x128, .f32⟩ : BufTy).Contents (Elt F)),
    binary main_v64 main_v29 main_v65 (mulf : (⟨S8x128x128, .f32⟩ : BufTy).Contents (Elt F) → (⟨S8x128x128, .f32⟩ : BufTy).Contents (Elt F) → (⟨S8x128x128, .f32⟩ : BufTy).Contents (Elt F)),
    nullary main_cst_19 (constant S_ .f32 0x00000000#32),
    binary main_v65 main_cst_19 main_v66 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_20 (constant S_ .f32 0x3F800000#32),
    unary main_cst_20 main_v67 (broadcastInDim S8 ![] bcast_S_S8 : (⟨S_, .f32⟩ : BufTy).Contents (Elt F) → (⟨S8, .f32⟩ : BufTy).Contents (Elt F)),
    binary main_v23 main_v67 main_v68 (maximumf : (⟨S8, .f32⟩ : BufTy).Contents (Elt F) → (⟨S8, .f32⟩ : BufTy).Contents (Elt F) → (⟨S8, .f32⟩ : BufTy).Contents (Elt F)),
    binary main_v66 main_v68 main_v69 (Host.divf : (⟨S8, .f32⟩ : BufTy).Contents (Elt F) → (⟨S8, .f32⟩ : BufTy).Contents (Elt F) → (⟨S8, .f32⟩ : BufTy).Contents (Elt F)),
    binary main_v50 main_v69 main_v70 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call8_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call8_v1) (extractStridedSlice S8x256x126x128 ![0, 0, 0, 0] · slices_S8x256x128x128_S8x256x126x128_0_0_0_0) ]

set_option maxRecDepth 8192 in
set_option maxHeartbeats 100000000 in
theorem piece1_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v50 : U (Proc.devRef .tc main_v50) = val_main_v50 (F := F) x0 x1 x2)
    (i_main_v51 : U (Proc.devRef .tc main_v51) = val_main_v51 (F := F) x0)
    (i_main_v52 : U (Proc.devRef .tc main_v52) = val_main_v52 (F := F) x0)
    (i_main_call7_v3 : U (Proc.devRef .tc main_call7_v3) = val_main_call7_v3 (F := F) x1)
    (i_main_call7_v4 : U (Proc.devRef .tc main_call7_v4) = val_main_call7_v4 (F := F) x1) :
    (after (pc1_6 (F := F)) U (Proc.devRef .tc main_arg0) = x0
      ∧ after (pc1_6 (F := F)) U (Proc.devRef .tc main_arg1) = x1
      ∧ after (pc1_6 (F := F)) U (Proc.devRef .tc main_arg2) = x2)
    ∧ after (pc1_6 (F := F)) U (Proc.devRef .tc main_v20) = val_main_v20 (F := F) x1 x2
    ∧ after (pc1_6 (F := F)) U (Proc.devRef .tc main_v23) = val_main_v23 (F := F) x1 x2
    ∧ after (pc1_6 (F := F)) U (Proc.devRef .tc main_v28) = val_main_v28 (F := F) x0
    ∧ after (pc1_6 (F := F)) U (Proc.devRef .tc main_v29) = val_main_v29 (F := F) x1 x2
    ∧ after (pc1_6 (F := F)) U (Proc.devRef .tc main_v70) = val_main_v70 (F := F) x0 x1 x2
    ∧ after (pc1_6 (F := F)) U (Proc.devRef .tc main_call8_v0) = val_main_call8_v0 (F := F) x0
    ∧ after (pc1_6 (F := F)) U (Proc.devRef .tc main_call8_v1) = val_main_call8_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v50, i_main_v51, i_main_v52, i_main_call7_v3, i_main_call7_v4])
  all_goals (try rw [i_main_v20])
  all_goals (try rw [i_main_v23])
  all_goals (try rw [i_main_v28])
  all_goals (try rw [i_main_v29])
  all_goals (try rw [i_main_v50])
  all_goals (try rw [i_main_v51])
  all_goals (try rw [i_main_v52])
  all_goals (try rw [i_main_call7_v3])
  all_goals (try rw [i_main_call7_v4])
  all_goals (try rfl)

/-- Operations 131 to 133 of the line. -/
abbrev pc1_7 : List (HloOp τ sig (Elt F)) :=
  [ TRef.binary (TRef.of (T := ⟨S8x256x2x128, .f32⟩) main_call8_v0) (TRef.of (T := ⟨S8x256x126x128, .f32⟩) main_call8_v1) (TRef.of (T := ⟨S8x256x128x128, .f32⟩) main_call8_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call8_v2) (TRef.of (T := ⟨S8x256x128x128, .f32⟩) main_call8_v3) (extractStridedSlice S8x256x128x128 ![0, 0, 0, 0] · slices_S8x256x128x128_S8x256x128x128_0_0_0_0),
    TRef.unary (TRef.of (T := ⟨S8x256x128x128, .f32⟩) main_call8_v2) (TRef.of (T := ⟨S8x256x128x0, .f32⟩) main_call8_v4) (extractStridedSlice S8x256x128x0 ![0, 0, 0, 0] · slices_S8x256x128x128_S8x256x128x0_0_0_0_0) ]

set_option maxRecDepth 8192 in
set_option maxHeartbeats 100000000 in
theorem piece1_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v70 : U (Proc.devRef .tc main_v70) = val_main_v70 (F := F) x0 x1 x2)
    (i_main_call8_v0 : U (Proc.devRef .tc main_call8_v0) = val_main_call8_v0 (F := F) x0)
    (i_main_call8_v1 : U (Proc.devRef .tc main_call8_v1) = val_main_call8_v1 (F := F) x0) :
    (after (pc1_7 (F := F)) U (Proc.devRef .tc main_arg0) = x0
      ∧ after (pc1_7 (F := F)) U (Proc.devRef .tc main_arg1) = x1
      ∧ after (pc1_7 (F := F)) U (Proc.devRef .tc main_arg2) = x2)
    ∧ after (pc1_7 (F := F)) U (Proc.devRef .tc main_v20) = val_main_v20 (F := F) x1 x2
    ∧ after (pc1_7 (F := F)) U (Proc.devRef .tc main_v23) = val_main_v23 (F := F) x1 x2
    ∧ after (pc1_7 (F := F)) U (Proc.devRef .tc main_v28) = val_main_v28 (F := F) x0
    ∧ after (pc1_7 (F := F)) U (Proc.devRef .tc main_v29) = val_main_v29 (F := F) x1 x2
    ∧ after (pc1_7 (F := F)) U (Proc.devRef .tc main_v70) = val_main_v70 (F := F) x0 x1 x2
    ∧ after (pc1_7 (F := F)) U (Proc.devRef .tc main_call8_v3) = val_main_call8_v3 (F := F) x0
    ∧ after (pc1_7 (F := F)) U (Proc.devRef .tc main_call8_v4) = val_main_call8_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v70, i_main_call8_v0, i_main_call8_v1])
  all_goals (try rw [i_main_v20])
  all_goals (try rw [i_main_v23])
  all_goals (try rw [i_main_v28])
  all_goals (try rw [i_main_v29])
  all_goals (try rw [i_main_v70])
  all_goals (try rw [i_main_call8_v0])
  all_goals (try rw [i_main_call8_v1])
  all_goals (try rfl)

/-- Operations 134 to 136 of the line. -/
abbrev pc1_8 : List (HloOp τ sig (Elt F)) :=
  [ TRef.binary (TRef.of (T := ⟨S8x256x128x128, .f32⟩) main_call8_v3) (TRef.of (T := ⟨S8x256x128x0, .f32⟩) main_call8_v4) (TRef.of (T := ⟨S8x256x128x128, .f32⟩) main_v71) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x2x128, .f32⟩) main_call9_v0) (extractStridedSlice S8x2x128 ![0, 126, 0] · slices_S8x128x128_S8x2x128_0_126_0),
    TRef.unary (TRef.of (T := ⟨S8x128x128, .f32⟩) main_v28) (TRef.of (T := ⟨S8x126x128, .f32⟩) main_call9_v1) (extractStridedSlice S8x126x128 ![0, 0, 0] · slices_S8x128x128_S8x126x128_0_0_0) ]

set_option maxRecDepth 8192 in
set_option maxHeartbeats 100000000 in
theorem piece1_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v70 : U (Proc.devRef .tc main_v70) = val_main_v70 (F := F) x0 x1 x2)
    (i_main_call8_v3 : U (Proc.devRef .tc main_call8_v3) = val_main_call8_v3 (F := F) x0)
    (i_main_call8_v4 : U (Proc.devRef .tc main_call8_v4) = val_main_call8_v4 (F := F) x0) :
    (after (pc1_8 (F := F)) U (Proc.devRef .tc main_arg0) = x0
      ∧ after (pc1_8 (F := F)) U (Proc.devRef .tc main_arg1) = x1
      ∧ after (pc1_8 (F := F)) U (Proc.devRef .tc main_arg2) = x2)
    ∧ after (pc1_8 (F := F)) U (Proc.devRef .tc main_v20) = val_main_v20 (F := F) x1 x2
    ∧ after (pc1_8 (F := F)) U (Proc.devRef .tc main_v23) = val_main_v23 (F := F) x1 x2
    ∧ after (pc1_8 (F := F)) U (Proc.devRef .tc main_v28) = val_main_v28 (F := F) x0
    ∧ after (pc1_8 (F := F)) U (Proc.devRef .tc main_v29) = val_main_v29 (F := F) x1 x2
    ∧ after (pc1_8 (F := F)) U (Proc.devRef .tc main_v70) = val_main_v70 (F := F) x0 x1 x2
    ∧ after (pc1_8 (F := F)) U (Proc.devRef .tc main_v71) = val_main_v71 (F := F) x0
    ∧ after (pc1_8 (F := F)) U (Proc.devRef .tc main_call9_v0) = val_main_call9_v0 (F := F) x0
    ∧ after (pc1_8 (F := F)) U (Proc.devRef .tc main_call9_v1) = val_main_call9_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v70, i_main_call8_v3, i_main_call8_v4])
  all_goals (try rw [i_main_v20])
  all_goals (try rw [i_main_v23])
  all_goals (try rw [i_main_v28])
  all_goals (try rw [i_main_v29])
  all_goals (try rw [i_main_v70])
  all_goals (try rw [i_main_call8_v3])
  all_goals (try rw [i_main_call8_v4])
  all_goals (try rfl)

/-- Operations 137 to 139 of the line. -/
abbrev pc1_9 : List (HloOp τ sig (Elt F)) :=
  [ TRef.binary (TRef.of (T := ⟨S8x2x128, .f32⟩) main_call9_v0) (TRef.of (T := ⟨S8x126x128, .f32⟩) main_call9_v1) (TRef.of (T := ⟨S8x128x128, .f32⟩) main_call9_v2) (fun a b => concatenate S8x128x128 1 [⟨S8x2x128, a⟩, ⟨S8x126x128, b⟩] concatenates_S8x2x128_S8x126x128_S8x128x128_d1),
    TRef.unary (TRef.of (T := ⟨S8x128x128, .f32⟩) main_call9_v2) (TRef.of (T := ⟨S8x128x128, .f32⟩) main_call9_v3) (extractStridedSlice S8x128x128 ![0, 0, 0] · slices_S8x128x128_S8x128x128_0_0_0),
    TRef.unary (TRef.of (T := ⟨S8x128x128, .f32⟩) main_call9_v2) (TRef.of (T := ⟨S8x128x0, .f32⟩) main_call9_v4) (extractStridedSlice S8x128x0 ![0, 0, 0] · slices_S8x128x128_S8x128x0_0_0_0) ]

set_option maxRecDepth 8192 in
set_option maxHeartbeats 100000000 in
theorem piece1_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v70 : U (Proc.devRef .tc main_v70) = val_main_v70 (F := F) x0 x1 x2)
    (i_main_v71 : U (Proc.devRef .tc main_v71) = val_main_v71 (F := F) x0)
    (i_main_call9_v0 : U (Proc.devRef .tc main_call9_v0) = val_main_call9_v0 (F := F) x0)
    (i_main_call9_v1 : U (Proc.devRef .tc main_call9_v1) = val_main_call9_v1 (F := F) x0) :
    (after (pc1_9 (F := F)) U (Proc.devRef .tc main_arg0) = x0
      ∧ after (pc1_9 (F := F)) U (Proc.devRef .tc main_arg1) = x1
      ∧ after (pc1_9 (F := F)) U (Proc.devRef .tc main_arg2) = x2)
    ∧ after (pc1_9 (F := F)) U (Proc.devRef .tc main_v20) = val_main_v20 (F := F) x1 x2
    ∧ after (pc1_9 (F := F)) U (Proc.devRef .tc main_v23) = val_main_v23 (F := F) x1 x2
    ∧ after (pc1_9 (F := F)) U (Proc.devRef .tc main_v28) = val_main_v28 (F := F) x0
    ∧ after (pc1_9 (F := F)) U (Proc.devRef .tc main_v29) = val_main_v29 (F := F) x1 x2
    ∧ after (pc1_9 (F := F)) U (Proc.devRef .tc main_v70) = val_main_v70 (F := F) x0 x1 x2
    ∧ after (pc1_9 (F := F)) U (Proc.devRef .tc main_v71) = val_main_v71 (F := F) x0
    ∧ after (pc1_9 (F := F)) U (Proc.devRef .tc main_call9_v3) = val_main_call9_v3 (F := F) x0
    ∧ after (pc1_9 (F := F)) U (Proc.devRef .tc main_call9_v4) = val_main_call9_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v70, i_main_v71, i_main_call9_v0, i_main_call9_v1])
  all_goals (try rw [i_main_v20])
  all_goals (try rw [i_main_v23])
  all_goals (try rw [i_main_v28])
  all_goals (try rw [i_main_v29])
  all_goals (try rw [i_main_v70])
  all_goals (try rw [i_main_v71])
  all_goals (try rw [i_main_call9_v0])
  all_goals (try rw [i_main_call9_v1])
  all_goals (try rfl)

/-- Operations 140 to 142 of the line. -/
abbrev pc1_10 : List (HloOp τ sig (Elt F)) :=
  [ TRef.binary (TRef.of (T := ⟨S8x128x128, .f32⟩) main_call9_v3) (TRef.of (T := ⟨S8x128x0, .f32⟩) main_call9_v4) (TRef.of (T := ⟨S8x128x128, .f32⟩) main_v72) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x2x128, .i32⟩) main_call10_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call10_v1) (extractStridedSlice S8x126x128 ![0, 0, 0] · slices_S8x128x128_S8x126x128_0_0_0) ]

set_option maxRecDepth 8192 in
set_option maxHeartbeats 100000000 in
theorem piece1_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v70 : U (Proc.devRef .tc main_v70) = val_main_v70 (F := F) x0 x1 x2)
    (i_main_v71 : U (Proc.devRef .tc main_v71) = val_main_v71 (F := F) x0)
    (i_main_call9_v3 : U (Proc.devRef .tc main_call9_v3) = val_main_call9_v3 (F := F) x0)
    (i_main_call9_v4 : U (Proc.devRef .tc main_call9_v4) = val_main_call9_v4 (F := F) x0) :
    (after (pc1_10 (F := F)) U (Proc.devRef .tc main_arg0) = x0
      ∧ after (pc1_10 (F := F)) U (Proc.devRef .tc main_arg1) = x1
      ∧ after (pc1_10 (F := F)) U (Proc.devRef .tc main_arg2) = x2)
    ∧ after (pc1_10 (F := F)) U (Proc.devRef .tc main_v20) = val_main_v20 (F := F) x1 x2
    ∧ after (pc1_10 (F := F)) U (Proc.devRef .tc main_v23) = val_main_v23 (F := F) x1 x2
    ∧ after (pc1_10 (F := F)) U (Proc.devRef .tc main_v28) = val_main_v28 (F := F) x0
    ∧ after (pc1_10 (F := F)) U (Proc.devRef .tc main_v29) = val_main_v29 (F := F) x1 x2
    ∧ after (pc1_10 (F := F)) U (Proc.devRef .tc main_v70) = val_main_v70 (F := F) x0 x1 x2
    ∧ after (pc1_10 (F := F)) U (Proc.devRef .tc main_v71) = val_main_v71 (F := F) x0
    ∧ after (pc1_10 (F := F)) U (Proc.devRef .tc main_v72) = val_main_v72 (F := F) x0
    ∧ after (pc1_10 (F := F)) U (Proc.devRef .tc main_call10_v0) = val_main_call10_v0 (F := F) x1
    ∧ after (pc1_10 (F := F)) U (Proc.devRef .tc main_call10_v1) = val_main_call10_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v70, i_main_v71, i_main_call9_v3, i_main_call9_v4])
  all_goals (try rw [i_main_v20])
  all_goals (try rw [i_main_v23])
  all_goals (try rw [i_main_v28])
  all_goals (try rw [i_main_v29])
  all_goals (try rw [i_main_v70])
  all_goals (try rw [i_main_v71])
  all_goals (try rw [i_main_call9_v3])
  all_goals (try rw [i_main_call9_v4])
  all_goals (try rfl)

/-- Operations 143 to 145 of the line. -/
abbrev pc1_11 : List (HloOp τ sig (Elt F)) :=
  [ TRef.binary (TRef.of (T := ⟨S8x2x128, .i32⟩) main_call10_v0) (TRef.of (T := ⟨S8x126x128, .i32⟩) main_call10_v1) (TRef.of (T := ⟨S8x128x128, .i32⟩) main_call10_v2) (fun a b => concatenate S8x128x128 1 [⟨S8x2x128, a⟩, ⟨S8x126x128, b⟩] concatenates_S8x2x128_S8x126x128_S8x128x128_d1),
    TRef.unary (TRef.of (T := ⟨S8x128x128, .i32⟩) main_call10_v2) (TRef.of (T := ⟨S8x128x128, .i32⟩) main_call10_v3) (extractStridedSlice S8x128x128 ![0, 0, 0] · slices_S8x128x128_S8x128x128_0_0_0),
    TRef.unary (TRef.of (T := ⟨S8x128x128, .i32⟩) main_call10_v2) (TRef.of (T := ⟨S8x128x0, .i32⟩) main_call10_v4) (extractStridedSlice S8x128x0 ![0, 0, 0] · slices_S8x128x128_S8x128x0_0_0_0) ]

set_option maxRecDepth 8192 in
set_option maxHeartbeats 100000000 in
theorem piece1_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v70 : U (Proc.devRef .tc main_v70) = val_main_v70 (F := F) x0 x1 x2)
    (i_main_v71 : U (Proc.devRef .tc main_v71) = val_main_v71 (F := F) x0)
    (i_main_v72 : U (Proc.devRef .tc main_v72) = val_main_v72 (F := F) x0)
    (i_main_call10_v0 : U (Proc.devRef .tc main_call10_v0) = val_main_call10_v0 (F := F) x1)
    (i_main_call10_v1 : U (Proc.devRef .tc main_call10_v1) = val_main_call10_v1 (F := F) x1) :
    (after (pc1_11 (F := F)) U (Proc.devRef .tc main_arg0) = x0
      ∧ after (pc1_11 (F := F)) U (Proc.devRef .tc main_arg1) = x1
      ∧ after (pc1_11 (F := F)) U (Proc.devRef .tc main_arg2) = x2)
    ∧ after (pc1_11 (F := F)) U (Proc.devRef .tc main_v20) = val_main_v20 (F := F) x1 x2
    ∧ after (pc1_11 (F := F)) U (Proc.devRef .tc main_v23) = val_main_v23 (F := F) x1 x2
    ∧ after (pc1_11 (F := F)) U (Proc.devRef .tc main_v28) = val_main_v28 (F := F) x0
    ∧ after (pc1_11 (F := F)) U (Proc.devRef .tc main_v29) = val_main_v29 (F := F) x1 x2
    ∧ after (pc1_11 (F := F)) U (Proc.devRef .tc main_v70) = val_main_v70 (F := F) x0 x1 x2
    ∧ after (pc1_11 (F := F)) U (Proc.devRef .tc main_v71) = val_main_v71 (F := F) x0
    ∧ after (pc1_11 (F := F)) U (Proc.devRef .tc main_v72) = val_main_v72 (F := F) x0
    ∧ after (pc1_11 (F := F)) U (Proc.devRef .tc main_call10_v3) = val_main_call10_v3 (F := F) x1
    ∧ after (pc1_11 (F := F)) U (Proc.devRef .tc main_call10_v4) = val_main_call10_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v70, i_main_v71, i_main_v72, i_main_call10_v0, i_main_call10_v1])
  all_goals (try rw [i_main_v20])
  all_goals (try rw [i_main_v23])
  all_goals (try rw [i_main_v28])
  all_goals (try rw [i_main_v29])
  all_goals (try rw [i_main_v70])
  all_goals (try rw [i_main_v71])
  all_goals (try rw [i_main_v72])
  all_goals (try rw [i_main_call10_v0])
  all_goals (try rw [i_main_call10_v1])
  all_goals (try rfl)

/-- Operations 146 to 169 of the line. -/
abbrev pc1_12 : List (HloOp τ sig (Elt F)) :=
  [ TRef.binary (TRef.of (T := ⟨S8x128x128, .i32⟩) main_call10_v3) (TRef.of (T := ⟨S8x128x0, .i32⟩) main_call10_v4) (TRef.of (T := ⟨S8x128x128, .i32⟩) main_v73) (fun a b => concatenate S8x128x128 2 [⟨S8x128x128, a⟩, ⟨S8x128x0, b⟩] concatenates_S8x128x128_S8x128x0_S8x128x128_d2),
    binary main_arg0 main_v71 main_v74 (mulf : (⟨S8x256x128x128, .f32⟩ : BufTy).Contents (Elt F) → (⟨S8x256x128x128, .f32⟩ : BufTy).Contents (Elt F) → (⟨S8x256x128x128, .f32⟩ : BufTy).Contents (Elt F)),
    nullary main_cst_21 (constant S_ .f32 0x00000000#32),
    binary main_v74 main_cst_21 main_v75 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v72 main_v76 (mulf : (⟨S8x128x128, .f32⟩ : BufTy).Contents (Elt F) → (⟨S8x128x128, .f32⟩ : BufTy).Contents (Elt F) → (⟨S8x128x128, .f32⟩ : BufTy).Contents (Elt F)),
    binary main_v75 main_v76 main_v77 (Host.divf : (⟨S8x128x128, .f32⟩ : BufTy).Contents (Elt F) → (⟨S8x128x128, .f32⟩ : BufTy).Contents (Elt F) → (⟨S8x128x128, .f32⟩ : BufTy).Contents (Elt F)),
    binary main_arg1 main_v73 main_v78 (cmpi .eq : (⟨S8x128x128, .i32⟩ : BufTy).Contents (Elt F) → (⟨S8x128x128, .i32⟩ : BufTy).Contents (Elt F) → (⟨S8x128x128, .i1⟩ : BufTy).Contents (Elt F)),
    nullary main_c_22 (constantI S_ 32 2#32),
    unary main_c_22 main_v79 (broadcastInDim S8x128x128 ![] bcast_S_S8x128x128 : (⟨S_, .i32⟩ : BufTy).Contents (Elt F) → (⟨S8x128x128, .i32⟩ : BufTy).Contents (Elt F)),
    binary main_arg1 main_v79 main_v80 (cmpi .slt : (⟨S8x128x128, .i32⟩ : BufTy).Contents (Elt F) → (⟨S8x128x128, .i32⟩ : BufTy).Contents (Elt F) → (⟨S8x128x128, .i1⟩ : BufTy).Contents (Elt F)),
    binary main_v78 main_v80 main_v81 (andi : (⟨S8x128x128, .i1⟩ : BufTy).Contents (Elt F) → (⟨S8x128x128, .i1⟩ : BufTy).Contents (Elt F) → (⟨S8x128x128, .i1⟩ : BufTy).Contents (Elt F)),
    unary main_v81 main_v82 (uitofp .f32 : (⟨S8x128x128, .i1⟩ : BufTy).Contents (Elt F) → (⟨S8x128x128, .f32⟩ : BufTy).Contents (Elt F)),
    binary main_v77 main_v82 main_v83 (subf : (⟨S8x128x128, .f32⟩ : BufTy).Contents (Elt F) → (⟨S8x128x128, .f32⟩ : BufTy).Contents (Elt F) → (⟨S8x128x128, .f32⟩ : BufTy).Contents (Elt F)),
    binary main_v83 main_v83 main_v84 (mulf : (⟨S8x128x128, .f32⟩ : BufTy).Contents (Elt F) → (⟨S8x128x128, .f32⟩ : BufTy).Contents (Elt F) → (⟨S8x128x128, .f32⟩ : BufTy).Contents (Elt F)),
    binary main_v84 main_v29 main_v85 (mulf : (⟨S8x128x128, .f32⟩ : BufTy).Contents (Elt F) → (⟨S8x128x128, .f32⟩ : BufTy).Contents (Elt F) → (⟨S8x128x128, .f32⟩ : BufTy).Contents (Elt F)),
    nullary main_cst_23 (constant S_ .f32 0x00000000#32),
    binary main_v85 main_cst_23 main_v86 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_24 (constant S_ .f32 0x3F800000#32),
    unary main_cst_24 main_v87 (broadcastInDim S8 ![] bcast_S_S8 : (⟨S_, .f32⟩ : BufTy).Contents (Elt F) → (⟨S8, .f32⟩ : BufTy).Contents (Elt F)),
    binary main_v23 main_v87 main_v88 (maximumf : (⟨S8, .f32⟩ : BufTy).Contents (Elt F) → (⟨S8, .f32⟩ : BufTy).Contents (Elt F) → (⟨S8, .f32⟩ : BufTy).Contents (Elt F)),
    binary main_v86 main_v88 main_v89 (Host.divf : (⟨S8, .f32⟩ : BufTy).Contents (Elt F) → (⟨S8, .f32⟩ : BufTy).Contents (Elt F) → (⟨S8, .f32⟩ : BufTy).Contents (Elt F)),
    binary main_v70 main_v89 main_v90 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call11_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call11_v1) (extractStridedSlice S8x256x126x128 ![0, 0, 0, 0] · slices_S8x256x128x128_S8x256x126x128_0_0_0_0) ]

set_option maxRecDepth 8192 in
set_option maxHeartbeats 100000000 in
theorem piece1_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v70 : U (Proc.devRef .tc main_v70) = val_main_v70 (F := F) x0 x1 x2)
    (i_main_v71 : U (Proc.devRef .tc main_v71) = val_main_v71 (F := F) x0)
    (i_main_v72 : U (Proc.devRef .tc main_v72) = val_main_v72 (F := F) x0)
    (i_main_call10_v3 : U (Proc.devRef .tc main_call10_v3) = val_main_call10_v3 (F := F) x1)
    (i_main_call10_v4 : U (Proc.devRef .tc main_call10_v4) = val_main_call10_v4 (F := F) x1) :
    (after (pc1_12 (F := F)) U (Proc.devRef .tc main_arg0) = x0
      ∧ after (pc1_12 (F := F)) U (Proc.devRef .tc main_arg1) = x1
      ∧ after (pc1_12 (F := F)) U (Proc.devRef .tc main_arg2) = x2)
    ∧ after (pc1_12 (F := F)) U (Proc.devRef .tc main_v20) = val_main_v20 (F := F) x1 x2
    ∧ after (pc1_12 (F := F)) U (Proc.devRef .tc main_v23) = val_main_v23 (F := F) x1 x2
    ∧ after (pc1_12 (F := F)) U (Proc.devRef .tc main_v28) = val_main_v28 (F := F) x0
    ∧ after (pc1_12 (F := F)) U (Proc.devRef .tc main_v29) = val_main_v29 (F := F) x1 x2
    ∧ after (pc1_12 (F := F)) U (Proc.devRef .tc main_v90) = val_main_v90 (F := F) x0 x1 x2
    ∧ after (pc1_12 (F := F)) U (Proc.devRef .tc main_call11_v0) = val_main_call11_v0 (F := F) x0
    ∧ after (pc1_12 (F := F)) U (Proc.devRef .tc main_call11_v1) = val_main_call11_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v70, i_main_v71, i_main_v72, i_main_call10_v3, i_main_call10_v4])
  all_goals (try rw [i_main_v20])
  all_goals (try rw [i_main_v23])
  all_goals (try rw [i_main_v28])
  all_goals (try rw [i_main_v29])
  all_goals (try rw [i_main_v70])
  all_goals (try rw [i_main_v71])
  all_goals (try rw [i_main_v72])
  all_goals (try rw [i_main_call10_v3])
  all_goals (try rw [i_main_call10_v4])
  all_goals (try rfl)

/-- Operations 170 to 172 of the line. -/
abbrev pc1_13 : List (HloOp τ sig (Elt F)) :=
  [ TRef.binary (TRef.of (T := ⟨S8x256x2x128, .f32⟩) main_call11_v0) (TRef.of (T := ⟨S8x256x126x128, .f32⟩) main_call11_v1) (TRef.of (T := ⟨S8x256x128x128, .f32⟩) main_call11_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call11_v2) (TRef.of (T := ⟨S8x256x128x127, .f32⟩) main_call11_v3) (extractStridedSlice S8x256x128x127 ![0, 0, 0, 1] · slices_S8x256x128x128_S8x256x128x127_0_0_0_1),
    TRef.unary (TRef.of (T := ⟨S8x256x128x128, .f32⟩) main_call11_v2) (TRef.of (T := ⟨S8x256x128x1, .f32⟩) main_call11_v4) (extractStridedSlice S8x256x128x1 ![0, 0, 0, 0] · slices_S8x256x128x128_S8x256x128x1_0_0_0_0) ]

set_option maxRecDepth 8192 in
set_option maxHeartbeats 100000000 in
theorem piece1_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_call11_v0 : U (Proc.devRef .tc main_call11_v0) = val_main_call11_v0 (F := F) x0)
    (i_main_call11_v1 : U (Proc.devRef .tc main_call11_v1) = val_main_call11_v1 (F := F) x0) :
    (after (pc1_13 (F := F)) U (Proc.devRef .tc main_arg0) = x0
      ∧ after (pc1_13 (F := F)) U (Proc.devRef .tc main_arg1) = x1
      ∧ after (pc1_13 (F := F)) U (Proc.devRef .tc main_arg2) = x2)
    ∧ after (pc1_13 (F := F)) U (Proc.devRef .tc main_v20) = val_main_v20 (F := F) x1 x2
    ∧ after (pc1_13 (F := F)) U (Proc.devRef .tc main_v23) = val_main_v23 (F := F) x1 x2
    ∧ after (pc1_13 (F := F)) U (Proc.devRef .tc main_v28) = val_main_v28 (F := F) x0
    ∧ after (pc1_13 (F := F)) U (Proc.devRef .tc main_v29) = val_main_v29 (F := F) x1 x2
    ∧ after (pc1_13 (F := F)) U (Proc.devRef .tc main_v90) = val_main_v90 (F := F) x0 x1 x2
    ∧ after (pc1_13 (F := F)) U (Proc.devRef .tc main_call11_v3) = val_main_call11_v3 (F := F) x0
    ∧ after (pc1_13 (F := F)) U (Proc.devRef .tc main_call11_v4) = val_main_call11_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v90, i_main_call11_v0, i_main_call11_v1])
  all_goals (try rw [i_main_v20])
  all_goals (try rw [i_main_v23])
  all_goals (try rw [i_main_v28])
  all_goals (try rw [i_main_v29])
  all_goals (try rw [i_main_v90])
  all_goals (try rw [i_main_call11_v0])
  all_goals (try rw [i_main_call11_v1])
  all_goals (try rfl)

/-- Operations 173 to 175 of the line. -/
abbrev pc1_14 : List (HloOp τ sig (Elt F)) :=
  [ TRef.binary (TRef.of (T := ⟨S8x256x128x127, .f32⟩) main_call11_v3) (TRef.of (T := ⟨S8x256x128x1, .f32⟩) main_call11_v4) (TRef.of (T := ⟨S8x256x128x128, .f32⟩) main_v91) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x2x128, .f32⟩) main_call12_v0) (extractStridedSlice S8x2x128 ![0, 126, 0] · slices_S8x128x128_S8x2x128_0_126_0),
    TRef.unary (TRef.of (T := ⟨S8x128x128, .f32⟩) main_v28) (TRef.of (T := ⟨S8x126x128, .f32⟩) main_call12_v1) (extractStridedSlice S8x126x128 ![0, 0, 0] · slices_S8x128x128_S8x126x128_0_0_0) ]

set_option maxRecDepth 8192 in
set_option maxHeartbeats 100000000 in
theorem piece1_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_call11_v3 : U (Proc.devRef .tc main_call11_v3) = val_main_call11_v3 (F := F) x0)
    (i_main_call11_v4 : U (Proc.devRef .tc main_call11_v4) = val_main_call11_v4 (F := F) x0) :
    (after (pc1_14 (F := F)) U (Proc.devRef .tc main_arg0) = x0
      ∧ after (pc1_14 (F := F)) U (Proc.devRef .tc main_arg1) = x1
      ∧ after (pc1_14 (F := F)) U (Proc.devRef .tc main_arg2) = x2)
    ∧ after (pc1_14 (F := F)) U (Proc.devRef .tc main_v20) = val_main_v20 (F := F) x1 x2
    ∧ after (pc1_14 (F := F)) U (Proc.devRef .tc main_v23) = val_main_v23 (F := F) x1 x2
    ∧ after (pc1_14 (F := F)) U (Proc.devRef .tc main_v28) = val_main_v28 (F := F) x0
    ∧ after (pc1_14 (F := F)) U (Proc.devRef .tc main_v29) = val_main_v29 (F := F) x1 x2
    ∧ after (pc1_14 (F := F)) U (Proc.devRef .tc main_v90) = val_main_v90 (F := F) x0 x1 x2
    ∧ after (pc1_14 (F := F)) U (Proc.devRef .tc main_v91) = val_main_v91 (F := F) x0
    ∧ after (pc1_14 (F := F)) U (Proc.devRef .tc main_call12_v0) = val_main_call12_v0 (F := F) x0
    ∧ after (pc1_14 (F := F)) U (Proc.devRef .tc main_call12_v1) = val_main_call12_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v90, i_main_call11_v3, i_main_call11_v4])
  all_goals (try rw [i_main_v20])
  all_goals (try rw [i_main_v23])
  all_goals (try rw [i_main_v28])
  all_goals (try rw [i_main_v29])
  all_goals (try rw [i_main_v90])
  all_goals (try rw [i_main_call11_v3])
  all_goals (try rw [i_main_call11_v4])
  all_goals (try rfl)

/-- Operations 176 to 178 of the line. -/
abbrev pc1_15 : List (HloOp τ sig (Elt F)) :=
  [ TRef.binary (TRef.of (T := ⟨S8x2x128, .f32⟩) main_call12_v0) (TRef.of (T := ⟨S8x126x128, .f32⟩) main_call12_v1) (TRef.of (T := ⟨S8x128x128, .f32⟩) main_call12_v2) (fun a b => concatenate S8x128x128 1 [⟨S8x2x128, a⟩, ⟨S8x126x128, b⟩] concatenates_S8x2x128_S8x126x128_S8x128x128_d1),
    TRef.unary (TRef.of (T := ⟨S8x128x128, .f32⟩) main_call12_v2) (TRef.of (T := ⟨S8x128x127, .f32⟩) main_call12_v3) (extractStridedSlice S8x128x127 ![0, 0, 1] · slices_S8x128x128_S8x128x127_0_0_1),
    TRef.unary (TRef.of (T := ⟨S8x128x128, .f32⟩) main_call12_v2) (TRef.of (T := ⟨S8x128x1, .f32⟩) main_call12_v4) (extractStridedSlice S8x128x1 ![0, 0, 0] · slices_S8x128x128_S8x128x1_0_0_0) ]

set_option maxRecDepth 8192 in
set_option maxHeartbeats 100000000 in
theorem piece1_15 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_v91 : U (Proc.devRef .tc main_v91) = val_main_v91 (F := F) x0)
    (i_main_call12_v0 : U (Proc.devRef .tc main_call12_v0) = val_main_call12_v0 (F := F) x0)
    (i_main_call12_v1 : U (Proc.devRef .tc main_call12_v1) = val_main_call12_v1 (F := F) x0) :
    (after (pc1_15 (F := F)) U (Proc.devRef .tc main_arg0) = x0
      ∧ after (pc1_15 (F := F)) U (Proc.devRef .tc main_arg1) = x1
      ∧ after (pc1_15 (F := F)) U (Proc.devRef .tc main_arg2) = x2)
    ∧ after (pc1_15 (F := F)) U (Proc.devRef .tc main_v20) = val_main_v20 (F := F) x1 x2
    ∧ after (pc1_15 (F := F)) U (Proc.devRef .tc main_v23) = val_main_v23 (F := F) x1 x2
    ∧ after (pc1_15 (F := F)) U (Proc.devRef .tc main_v28) = val_main_v28 (F := F) x0
    ∧ after (pc1_15 (F := F)) U (Proc.devRef .tc main_v29) = val_main_v29 (F := F) x1 x2
    ∧ after (pc1_15 (F := F)) U (Proc.devRef .tc main_v90) = val_main_v90 (F := F) x0 x1 x2
    ∧ after (pc1_15 (F := F)) U (Proc.devRef .tc main_v91) = val_main_v91 (F := F) x0
    ∧ after (pc1_15 (F := F)) U (Proc.devRef .tc main_call12_v3) = val_main_call12_v3 (F := F) x0
    ∧ after (pc1_15 (F := F)) U (Proc.devRef .tc main_call12_v4) = val_main_call12_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v90, i_main_v91, i_main_call12_v0, i_main_call12_v1])
  all_goals (try rw [i_main_v20])
  all_goals (try rw [i_main_v23])
  all_goals (try rw [i_main_v28])
  all_goals (try rw [i_main_v29])
  all_goals (try rw [i_main_v90])
  all_goals (try rw [i_main_v91])
  all_goals (try rw [i_main_call12_v0])
  all_goals (try rw [i_main_call12_v1])
  all_goals (try rfl)

/-- Operations 179 to 179 of the line. -/
abbrev pc1_16 : List (HloOp τ sig (Elt F)) :=
  [ TRef.binary (TRef.of (T := ⟨S8x128x127, .f32⟩) main_call12_v3) (TRef.of (T := ⟨S8x128x1, .f32⟩) main_call12_v4) (TRef.of (T := ⟨S8x128x128, .f32⟩) main_v92) (fun a b => concatenate S8x128x128 2 [⟨S8x128x127, a⟩, ⟨S8x128x1, b⟩] concatenates_S8x128x127_S8x128x1_S8x128x128_d2) ]

set_option maxRecDepth 8192 in
set_option maxHeartbeats 100000000 in
theorem piece1_16 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_v91 : U (Proc.devRef .tc main_v91) = val_main_v91 (F := F) x0)
    (i_main_call12_v3 : U (Proc.devRef .tc main_call12_v3) = val_main_call12_v3 (F := F) x0)
    (i_main_call12_v4 : U (Proc.devRef .tc main_call12_v4) = val_main_call12_v4 (F := F) x0) :
    (after (pc1_16 (F := F)) U (Proc.devRef .tc main_arg0) = x0
      ∧ after (pc1_16 (F := F)) U (Proc.devRef .tc main_arg1) = x1
      ∧ after (pc1_16 (F := F)) U (Proc.devRef .tc main_arg2) = x2)
    ∧ after (pc1_16 (F := F)) U (Proc.devRef .tc main_v20) = val_main_v20 (F := F) x1 x2
    ∧ after (pc1_16 (F := F)) U (Proc.devRef .tc main_v23) = val_main_v23 (F := F) x1 x2
    ∧ after (pc1_16 (F := F)) U (Proc.devRef .tc main_v28) = val_main_v28 (F := F) x0
    ∧ after (pc1_16 (F := F)) U (Proc.devRef .tc main_v29) = val_main_v29 (F := F) x1 x2
    ∧ after (pc1_16 (F := F)) U (Proc.devRef .tc main_v90) = val_main_v90 (F := F) x0 x1 x2
    ∧ after (pc1_16 (F := F)) U (Proc.devRef .tc main_v91) = val_main_v91 (F := F) x0
    ∧ after (pc1_16 (F := F)) U (Proc.devRef .tc main_v92) = val_main_v92 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v90, i_main_v91, i_main_call12_v3, i_main_call12_v4])
  all_goals (try rw [i_main_v20])
  all_goals (try rw [i_main_v23])
  all_goals (try rw [i_main_v28])
  all_goals (try rw [i_main_v29])
  all_goals (try rw [i_main_v90])
  all_goals (try rw [i_main_v91])
  all_goals (try rw [i_main_call12_v3])
  all_goals (try rw [i_main_call12_v4])
  all_goals (try rfl)

set_option maxRecDepth 8192 in
/-- The part's operations are its pieces laid end to end. -/
theorem ops1_split : (ops1 (F := F)) = pc1_0 ++ (pc1_1 ++ (pc1_2 ++ (pc1_3 ++ (pc1_4 ++ (pc1_5 ++ (pc1_6 ++ (pc1_7 ++ (pc1_8 ++ (pc1_9 ++ (pc1_10 ++ (pc1_11 ++ (pc1_12 ++ (pc1_13 ++ (pc1_14 ++ (pc1_15 ++ (pc1_16)))))))))))))))) := rfl

theorem chunk1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v30 : U (Proc.devRef .tc main_v30) = val_main_v30 (F := F))
    (i_main_v37 : U (Proc.devRef .tc main_v37) = val_main_v37 (F := F) x0)
    (i_main_v42 : U (Proc.devRef .tc main_v42) = val_main_v42 (F := F) x1) :
    (after (ops1 (F := F)) U (Proc.devRef .tc main_arg0) = x0
      ∧ after (ops1 (F := F)) U (Proc.devRef .tc main_arg1) = x1
      ∧ after (ops1 (F := F)) U (Proc.devRef .tc main_arg2) = x2)
    ∧ after (ops1 (F := F)) U (Proc.devRef .tc main_v20) = val_main_v20 (F := F) x1 x2
    ∧ after (ops1 (F := F)) U (Proc.devRef .tc main_v23) = val_main_v23 (F := F) x1 x2
    ∧ after (ops1 (F := F)) U (Proc.devRef .tc main_v28) = val_main_v28 (F := F) x0
    ∧ after (ops1 (F := F)) U (Proc.devRef .tc main_v29) = val_main_v29 (F := F) x1 x2
    ∧ after (ops1 (F := F)) U (Proc.devRef .tc main_v90) = val_main_v90 (F := F) x0 x1 x2
    ∧ after (ops1 (F := F)) U (Proc.devRef .tc main_v91) = val_main_v91 (F := F) x0
    ∧ after (ops1 (F := F)) U (Proc.devRef .tc main_v92) = val_main_v92 (F := F) x0 := by
  rw [ops1_split]
  simp only [after_append]
  have p0 := piece1_0 (F := F) U x0 x1 x2 h0 h1 h2 i_main_v20 i_main_v23 i_main_v28 i_main_v29 i_main_v30 i_main_v37 i_main_v42
  have p1 := piece1_1 (F := F) (after (pc1_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2
  have p2 := piece1_2 (F := F) (after (pc1_1 (F := F)) (after (pc1_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2
  have p3 := piece1_3 (F := F) (after (pc1_2 (F := F)) (after (pc1_1 (F := F)) (after (pc1_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2.1 p2.2.2.2.2.2.2.2.2
  have p4 := piece1_4 (F := F) (after (pc1_3 (F := F)) (after (pc1_2 (F := F)) (after (pc1_1 (F := F)) (after (pc1_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2.1 p3.2.2.2.2.2.2.2.2
  have p5 := piece1_5 (F := F) (after (pc1_4 (F := F)) (after (pc1_3 (F := F)) (after (pc1_2 (F := F)) (after (pc1_1 (F := F)) (after (pc1_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2.1 p4.2.2.2.2.2.2.2.2.2
  have p6 := piece1_6 (F := F) (after (pc1_5 (F := F)) (after (pc1_4 (F := F)) (after (pc1_3 (F := F)) (after (pc1_2 (F := F)) (after (pc1_1 (F := F)) (after (pc1_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2.1 p5.2.2.2.2.2.2.2.2.2
  have p7 := piece1_7 (F := F) (after (pc1_6 (F := F)) (after (pc1_5 (F := F)) (after (pc1_4 (F := F)) (after (pc1_3 (F := F)) (after (pc1_2 (F := F)) (after (pc1_1 (F := F)) (after (pc1_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2
  have p8 := piece1_8 (F := F) (after (pc1_7 (F := F)) (after (pc1_6 (F := F)) (after (pc1_5 (F := F)) (after (pc1_4 (F := F)) (after (pc1_3 (F := F)) (after (pc1_2 (F := F)) (after (pc1_1 (F := F)) (after (pc1_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2
  have p9 := piece1_9 (F := F) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2.1 p8.2.2.2.2.2.2.2.2
  have p10 := piece1_10 (F := F) (after (pc1_9 (F := F)) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2.1 p9.2.2.2.2.2.2.2.2
  have p11 := piece1_11 (F := F) (after (pc1_10 (F := F)) (after (pc1_9 (F := F)) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2.1 p10.2.2.2.2.2.2.2.2.2
  have p12 := piece1_12 (F := F) (after (pc1_11 (F := F)) (after (pc1_10 (F := F)) (after (pc1_9 (F := F)) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2.1 p11.2.2.2.2.2.2.2.2.2
  have p13 := piece1_13 (F := F) (after (pc1_12 (F := F)) (after (pc1_11 (F := F)) (after (pc1_10 (F := F)) (after (pc1_9 (F := F)) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2
  have p14 := piece1_14 (F := F) (after (pc1_13 (F := F)) (after (pc1_12 (F := F)) (after (pc1_11 (F := F)) (after (pc1_10 (F := F)) (after (pc1_9 (F := F)) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2
  have p15 := piece1_15 (F := F) (after (pc1_14 (F := F)) (after (pc1_13 (F := F)) (after (pc1_12 (F := F)) (after (pc1_11 (F := F)) (after (pc1_10 (F := F)) (after (pc1_9 (F := F)) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U))))))))))))))) x0 x1 x2 p14.1.1 p14.1.2.1 p14.1.2.2 p14.2.1 p14.2.2.1 p14.2.2.2.1 p14.2.2.2.2.1 p14.2.2.2.2.2.1 p14.2.2.2.2.2.2.1 p14.2.2.2.2.2.2.2.1 p14.2.2.2.2.2.2.2.2
  have p16 := piece1_16 (F := F) (after (pc1_15 (F := F)) (after (pc1_14 (F := F)) (after (pc1_13 (F := F)) (after (pc1_12 (F := F)) (after (pc1_11 (F := F)) (after (pc1_10 (F := F)) (after (pc1_9 (F := F)) (after (pc1_8 (F := F)) (after (pc1_7 (F := F)) (after (pc1_6 (F := F)) (after (pc1_5 (F := F)) (after (pc1_4 (F := F)) (after (pc1_3 (F := F)) (after (pc1_2 (F := F)) (after (pc1_1 (F := F)) (after (pc1_0 (F := F)) U)))))))))))))))) x0 x1 x2 p15.1.1 p15.1.2.1 p15.1.2.2 p15.2.1 p15.2.2.1 p15.2.2.2.1 p15.2.2.2.2.1 p15.2.2.2.2.2.1 p15.2.2.2.2.2.2.1 p15.2.2.2.2.2.2.2.1 p15.2.2.2.2.2.2.2.2
  exact p16

end Cert.Bridge.RefRun

end
-- ==== Proof.RefRunPart2.lean ====
/-
  Part 2 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 180 to 181 of the line. -/
abbrev pc2_0 : List (HloOp τ sig (Elt F)) :=
  [ TRef.unary (TRef.of (T := ⟨S8x128x128, .i32⟩) main_arg1) (TRef.of (T := ⟨S8x2x128, .i32⟩) main_call13_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call13_v1) (extractStridedSlice S8x126x128 ![0, 0, 0] · slices_S8x128x128_S8x126x128_0_0_0) ]

set_option maxRecDepth 8192 in
set_option maxHeartbeats 100000000 in
theorem piece2_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_v91 : U (Proc.devRef .tc main_v91) = val_main_v91 (F := F) x0)
    (i_main_v92 : U (Proc.devRef .tc main_v92) = val_main_v92 (F := F) x0) :
    (after (pc2_0 (F := F)) U (Proc.devRef .tc main_arg0) = x0
      ∧ after (pc2_0 (F := F)) U (Proc.devRef .tc main_arg1) = x1
      ∧ after (pc2_0 (F := F)) U (Proc.devRef .tc main_arg2) = x2)
    ∧ after (pc2_0 (F := F)) U (Proc.devRef .tc main_v20) = val_main_v20 (F := F) x1 x2
    ∧ after (pc2_0 (F := F)) U (Proc.devRef .tc main_v23) = val_main_v23 (F := F) x1 x2
    ∧ after (pc2_0 (F := F)) U (Proc.devRef .tc main_v28) = val_main_v28 (F := F) x0
    ∧ after (pc2_0 (F := F)) U (Proc.devRef .tc main_v29) = val_main_v29 (F := F) x1 x2
    ∧ after (pc2_0 (F := F)) U (Proc.devRef .tc main_v90) = val_main_v90 (F := F) x0 x1 x2
    ∧ after (pc2_0 (F := F)) U (Proc.devRef .tc main_v91) = val_main_v91 (F := F) x0
    ∧ after (pc2_0 (F := F)) U (Proc.devRef .tc main_v92) = val_main_v92 (F := F) x0
    ∧ after (pc2_0 (F := F)) U (Proc.devRef .tc main_call13_v0) = val_main_call13_v0 (F := F) x1
    ∧ after (pc2_0 (F := F)) U (Proc.devRef .tc main_call13_v1) = val_main_call13_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v90, i_main_v91, i_main_v92])
  all_goals (try rw [i_main_v20])
  all_goals (try rw [i_main_v23])
  all_goals (try rw [i_main_v28])
  all_goals (try rw [i_main_v29])
  all_goals (try rw [i_main_v90])
  all_goals (try rw [i_main_v91])
  all_goals (try rw [i_main_v92])
  all_goals (try rfl)

/-- Operations 182 to 184 of the line. -/
abbrev pc2_1 : List (HloOp τ sig (Elt F)) :=
  [ TRef.binary (TRef.of (T := ⟨S8x2x128, .i32⟩) main_call13_v0) (TRef.of (T := ⟨S8x126x128, .i32⟩) main_call13_v1) (TRef.of (T := ⟨S8x128x128, .i32⟩) main_call13_v2) (fun a b => concatenate S8x128x128 1 [⟨S8x2x128, a⟩, ⟨S8x126x128, b⟩] concatenates_S8x2x128_S8x126x128_S8x128x128_d1),
    TRef.unary (TRef.of (T := ⟨S8x128x128, .i32⟩) main_call13_v2) (TRef.of (T := ⟨S8x128x127, .i32⟩) main_call13_v3) (extractStridedSlice S8x128x127 ![0, 0, 1] · slices_S8x128x128_S8x128x127_0_0_1),
    TRef.unary (TRef.of (T := ⟨S8x128x128, .i32⟩) main_call13_v2) (TRef.of (T := ⟨S8x128x1, .i32⟩) main_call13_v4) (extractStridedSlice S8x128x1 ![0, 0, 0] · slices_S8x128x128_S8x128x1_0_0_0) ]

set_option maxRecDepth 8192 in
set_option maxHeartbeats 100000000 in
theorem piece2_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_v91 : U (Proc.devRef .tc main_v91) = val_main_v91 (F := F) x0)
    (i_main_v92 : U (Proc.devRef .tc main_v92) = val_main_v92 (F := F) x0)
    (i_main_call13_v0 : U (Proc.devRef .tc main_call13_v0) = val_main_call13_v0 (F := F) x1)
    (i_main_call13_v1 : U (Proc.devRef .tc main_call13_v1) = val_main_call13_v1 (F := F) x1) :
    (after (pc2_1 (F := F)) U (Proc.devRef .tc main_arg0) = x0
      ∧ after (pc2_1 (F := F)) U (Proc.devRef .tc main_arg1) = x1
      ∧ after (pc2_1 (F := F)) U (Proc.devRef .tc main_arg2) = x2)
    ∧ after (pc2_1 (F := F)) U (Proc.devRef .tc main_v20) = val_main_v20 (F := F) x1 x2
    ∧ after (pc2_1 (F := F)) U (Proc.devRef .tc main_v23) = val_main_v23 (F := F) x1 x2
    ∧ after (pc2_1 (F := F)) U (Proc.devRef .tc main_v28) = val_main_v28 (F := F) x0
    ∧ after (pc2_1 (F := F)) U (Proc.devRef .tc main_v29) = val_main_v29 (F := F) x1 x2
    ∧ after (pc2_1 (F := F)) U (Proc.devRef .tc main_v90) = val_main_v90 (F := F) x0 x1 x2
    ∧ after (pc2_1 (F := F)) U (Proc.devRef .tc main_v91) = val_main_v91 (F := F) x0
    ∧ after (pc2_1 (F := F)) U (Proc.devRef .tc main_v92) = val_main_v92 (F := F) x0
    ∧ after (pc2_1 (F := F)) U (Proc.devRef .tc main_call13_v3) = val_main_call13_v3 (F := F) x1
    ∧ after (pc2_1 (F := F)) U (Proc.devRef .tc main_call13_v4) = val_main_call13_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v90, i_main_v91, i_main_v92, i_main_call13_v0, i_main_call13_v1])
  all_goals (try rw [i_main_v20])
  all_goals (try rw [i_main_v23])
  all_goals (try rw [i_main_v28])
  all_goals (try rw [i_main_v29])
  all_goals (try rw [i_main_v90])
  all_goals (try rw [i_main_v91])
  all_goals (try rw [i_main_v92])
  all_goals (try rw [i_main_call13_v0])
  all_goals (try rw [i_main_call13_v1])
  all_goals (try rfl)

/-- Operations 185 to 208 of the line. -/
abbrev pc2_2 : List (HloOp τ sig (Elt F)) :=
  [ TRef.binary (TRef.of (T := ⟨S8x128x127, .i32⟩) main_call13_v3) (TRef.of (T := ⟨S8x128x1, .i32⟩) main_call13_v4) (TRef.of (T := ⟨S8x128x128, .i32⟩) main_v93) (fun a b => concatenate S8x128x128 2 [⟨S8x128x127, a⟩, ⟨S8x128x1, b⟩] concatenates_S8x128x127_S8x128x1_S8x128x128_d2),
    binary main_arg0 main_v91 main_v94 (mulf : (⟨S8x256x128x128, .f32⟩ : BufTy).Contents (Elt F) → (⟨S8x256x128x128, .f32⟩ : BufTy).Contents (Elt F) → (⟨S8x256x128x128, .f32⟩ : BufTy).Contents (Elt F)),
    nullary main_cst_25 (constant S_ .f32 0x00000000#32),
    binary main_v94 main_cst_25 main_v95 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v92 main_v96 (mulf : (⟨S8x128x128, .f32⟩ : BufTy).Contents (Elt F) → (⟨S8x128x128, .f32⟩ : BufTy).Contents (Elt F) → (⟨S8x128x128, .f32⟩ : BufTy).Contents (Elt F)),
    binary main_v95 main_v96 main_v97 (Host.divf : (⟨S8x128x128, .f32⟩ : BufTy).Contents (Elt F) → (⟨S8x128x128, .f32⟩ : BufTy).Contents (Elt F) → (⟨S8x128x128, .f32⟩ : BufTy).Contents (Elt F)),
    binary main_arg1 main_v93 main_v98 (cmpi .eq : (⟨S8x128x128, .i32⟩ : BufTy).Contents (Elt F) → (⟨S8x128x128, .i32⟩ : BufTy).Contents (Elt F) → (⟨S8x128x128, .i1⟩ : BufTy).Contents (Elt F)),
    nullary main_c_26 (constantI S_ 32 2#32),
    unary main_c_26 main_v99 (broadcastInDim S8x128x128 ![] bcast_S_S8x128x128 : (⟨S_, .i32⟩ : BufTy).Contents (Elt F) → (⟨S8x128x128, .i32⟩ : BufTy).Contents (Elt F)),
    binary main_arg1 main_v99 main_v100 (cmpi .slt : (⟨S8x128x128, .i32⟩ : BufTy).Contents (Elt F) → (⟨S8x128x128, .i32⟩ : BufTy).Contents (Elt F) → (⟨S8x128x128, .i1⟩ : BufTy).Contents (Elt F)),
    binary main_v98 main_v100 main_v101 (andi : (⟨S8x128x128, .i1⟩ : BufTy).Contents (Elt F) → (⟨S8x128x128, .i1⟩ : BufTy).Contents (Elt F) → (⟨S8x128x128, .i1⟩ : BufTy).Contents (Elt F)),
    unary main_v101 main_v102 (uitofp .f32 : (⟨S8x128x128, .i1⟩ : BufTy).Contents (Elt F) → (⟨S8x128x128, .f32⟩ : BufTy).Contents (Elt F)),
    binary main_v97 main_v102 main_v103 (subf : (⟨S8x128x128, .f32⟩ : BufTy).Contents (Elt F) → (⟨S8x128x128, .f32⟩ : BufTy).Contents (Elt F) → (⟨S8x128x128, .f32⟩ : BufTy).Contents (Elt F)),
    binary main_v103 main_v103 main_v104 (mulf : (⟨S8x128x128, .f32⟩ : BufTy).Contents (Elt F) → (⟨S8x128x128, .f32⟩ : BufTy).Contents (Elt F) → (⟨S8x128x128, .f32⟩ : BufTy).Contents (Elt F)),
    binary main_v104 main_v29 main_v105 (mulf : (⟨S8x128x128, .f32⟩ : BufTy).Contents (Elt F) → (⟨S8x128x128, .f32⟩ : BufTy).Contents (Elt F) → (⟨S8x128x128, .f32⟩ : BufTy).Contents (Elt F)),
    nullary main_cst_27 (constant S_ .f32 0x00000000#32),
    binary main_v105 main_cst_27 main_v106 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_28 (constant S_ .f32 0x3F800000#32),
    unary main_cst_28 main_v107 (broadcastInDim S8 ![] bcast_S_S8 : (⟨S_, .f32⟩ : BufTy).Contents (Elt F) → (⟨S8, .f32⟩ : BufTy).Contents (Elt F)),
    binary main_v23 main_v107 main_v108 (maximumf : (⟨S8, .f32⟩ : BufTy).Contents (Elt F) → (⟨S8, .f32⟩ : BufTy).Contents (Elt F) → (⟨S8, .f32⟩ : BufTy).Contents (Elt F)),
    binary main_v106 main_v108 main_v109 (Host.divf : (⟨S8, .f32⟩ : BufTy).Contents (Elt F) → (⟨S8, .f32⟩ : BufTy).Contents (Elt F) → (⟨S8, .f32⟩ : BufTy).Contents (Elt F)),
    binary main_v90 main_v109 main_v110 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x2x128, .f32⟩) main_call14_v0) (extractStridedSlice S8x256x2x128 ![0, 0, 126, 0] · slices_S8x256x128x128_S8x256x2x128_0_0_126_0),
    TRef.unary (TRef.of (T := ⟨S8x256x128x128, .f32⟩) main_arg0) (TRef.of (T := ⟨S8x256x126x128, .f32⟩) main_call14_v1) (extractStridedSlice S8x256x126x128 ![0, 0, 0, 0] · slices_S8x256x128x128_S8x256x126x128_0_0_0_0) ]

set_option maxRecDepth 8192 in
set_option maxHeartbeats 100000000 in
theorem piece2_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_v91 : U (Proc.devRef .tc main_v91) = val_main_v91 (F := F) x0)
    (i_main_v92 : U (Proc.devRef .tc main_v92) = val_main_v92 (F := F) x0)
    (i_main_call13_v3 : U (Proc.devRef .tc main_call13_v3) = val_main_call13_v3 (F := F) x1)
    (i_main_call13_v4 : U (Proc.devRef .tc main_call13_v4) = val_main_call13_v4 (F := F) x1) :
    (after (pc2_2 (F := F)) U (Proc.devRef .tc main_arg0) = x0
      ∧ after (pc2_2 (F := F)) U (Proc.devRef .tc main_arg1) = x1
      ∧ after (pc2_2 (F := F)) U (Proc.devRef .tc main_arg2) = x2)
    ∧ after (pc2_2 (F := F)) U (Proc.devRef .tc main_v20) = val_main_v20 (F := F) x1 x2
    ∧ after (pc2_2 (F := F)) U (Proc.devRef .tc main_v23) = val_main_v23 (F := F) x1 x2
    ∧ after (pc2_2 (F := F)) U (Proc.devRef .tc main_v28) = val_main_v28 (F := F) x0
    ∧ after (pc2_2 (F := F)) U (Proc.devRef .tc main_v29) = val_main_v29 (F := F) x1 x2
    ∧ after (pc2_2 (F := F)) U (Proc.devRef .tc main_v110) = val_main_v110 (F := F) x0 x1 x2
    ∧ after (pc2_2 (F := F)) U (Proc.devRef .tc main_call14_v0) = val_main_call14_v0 (F := F) x0
    ∧ after (pc2_2 (F := F)) U (Proc.devRef .tc main_call14_v1) = val_main_call14_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v90, i_main_v91, i_main_v92, i_main_call13_v3, i_main_call13_v4])
  all_goals (try rw [i_main_v20])
  all_goals (try rw [i_main_v23])
  all_goals (try rw [i_main_v28])
  all_goals (try rw [i_main_v29])
  all_goals (try rw [i_main_v90])
  all_goals (try rw [i_main_v91])
  all_goals (try rw [i_main_v92])
  all_goals (try rw [i_main_call13_v3])
  all_goals (try rw [i_main_call13_v4])
  all_goals (try rfl)

/-- Operations 209 to 211 of the line. -/
abbrev pc2_3 : List (HloOp τ sig (Elt F)) :=
  [ TRef.binary (TRef.of (T := ⟨S8x256x2x128, .f32⟩) main_call14_v0) (TRef.of (T := ⟨S8x256x126x128, .f32⟩) main_call14_v1) (TRef.of (T := ⟨S8x256x128x128, .f32⟩) main_call14_v2) (fun a b => concatenate S8x256x128x128 2 [⟨S8x256x2x128, a⟩, ⟨S8x256x126x128, b⟩] concatenates_S8x256x2x128_S8x256x126x128_S8x256x128x128_d2),
    TRef.unary (TRef.of (T := ⟨S8x256x128x128, .f32⟩) main_call14_v2) (TRef.of (T := ⟨S8x256x128x126, .f32⟩) main_call14_v3) (extractStridedSlice S8x256x128x126 ![0, 0, 0, 2] · slices_S8x256x128x128_S8x256x128x126_0_0_0_2),
    TRef.unary (TRef.of (T := ⟨S8x256x128x128, .f32⟩) main_call14_v2) (TRef.of (T := ⟨S8x256x128x2, .f32⟩) main_call14_v4) (extractStridedSlice S8x256x128x2 ![0, 0, 0, 0] · slices_S8x256x128x128_S8x256x128x2_0_0_0_0) ]

set_option maxRecDepth 8192 in
set_option maxHeartbeats 100000000 in
theorem piece2_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v110 : U (Proc.devRef .tc main_v110) = val_main_v110 (F := F) x0 x1 x2)
    (i_main_call14_v0 : U (Proc.devRef .tc main_call14_v0) = val_main_call14_v0 (F := F) x0)
    (i_main_call14_v1 : U (Proc.devRef .tc main_call14_v1) = val_main_call14_v1 (F := F) x0) :
    (after (pc2_3 (F := F)) U (Proc.devRef .tc main_arg0) = x0
      ∧ after (pc2_3 (F := F)) U (Proc.devRef .tc main_arg1) = x1
      ∧ after (pc2_3 (F := F)) U (Proc.devRef .tc main_arg2) = x2)
    ∧ after (pc2_3 (F := F)) U (Proc.devRef .tc main_v20) = val_main_v20 (F := F) x1 x2
    ∧ after (pc2_3 (F := F)) U (Proc.devRef .tc main_v23) = val_main_v23 (F := F) x1 x2
    ∧ after (pc2_3 (F := F)) U (Proc.devRef .tc main_v28) = val_main_v28 (F := F) x0
    ∧ after (pc2_3 (F := F)) U (Proc.devRef .tc main_v29) = val_main_v29 (F := F) x1 x2
    ∧ after (pc2_3 (F := F)) U (Proc.devRef .tc main_v110) = val_main_v110 (F := F) x0 x1 x2
    ∧ after (pc2_3 (F := F)) U (Proc.devRef .tc main_call14_v3) = val_main_call14_v3 (F := F) x0
    ∧ after (pc2_3 (F := F)) U (Proc.devRef .tc main_call14_v4) = val_main_call14_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v110, i_main_call14_v0, i_main_call14_v1])
  all_goals (try rw [i_main_v20])
  all_goals (try rw [i_main_v23])
  all_goals (try rw [i_main_v28])
  all_goals (try rw [i_main_v29])
  all_goals (try rw [i_main_v110])
  all_goals (try rw [i_main_call14_v0])
  all_goals (try rw [i_main_call14_v1])
  all_goals (try rfl)

/-- Operations 212 to 214 of the line. -/
abbrev pc2_4 : List (HloOp τ sig (Elt F)) :=
  [ TRef.binary (TRef.of (T := ⟨S8x256x128x126, .f32⟩) main_call14_v3) (TRef.of (T := ⟨S8x256x128x2, .f32⟩) main_call14_v4) (TRef.of (T := ⟨S8x256x128x128, .f32⟩) main_v111) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x2x128, .f32⟩) main_call15_v0) (extractStridedSlice S8x2x128 ![0, 126, 0] · slices_S8x128x128_S8x2x128_0_126_0),
    TRef.unary (TRef.of (T := ⟨S8x128x128, .f32⟩) main_v28) (TRef.of (T := ⟨S8x126x128, .f32⟩) main_call15_v1) (extractStridedSlice S8x126x128 ![0, 0, 0] · slices_S8x128x128_S8x126x128_0_0_0) ]

set_option maxRecDepth 8192 in
set_option maxHeartbeats 100000000 in
theorem piece2_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v110 : U (Proc.devRef .tc main_v110) = val_main_v110 (F := F) x0 x1 x2)
    (i_main_call14_v3 : U (Proc.devRef .tc main_call14_v3) = val_main_call14_v3 (F := F) x0)
    (i_main_call14_v4 : U (Proc.devRef .tc main_call14_v4) = val_main_call14_v4 (F := F) x0) :
    (after (pc2_4 (F := F)) U (Proc.devRef .tc main_arg0) = x0
      ∧ after (pc2_4 (F := F)) U (Proc.devRef .tc main_arg1) = x1
      ∧ after (pc2_4 (F := F)) U (Proc.devRef .tc main_arg2) = x2)
    ∧ after (pc2_4 (F := F)) U (Proc.devRef .tc main_v20) = val_main_v20 (F := F) x1 x2
    ∧ after (pc2_4 (F := F)) U (Proc.devRef .tc main_v23) = val_main_v23 (F := F) x1 x2
    ∧ after (pc2_4 (F := F)) U (Proc.devRef .tc main_v28) = val_main_v28 (F := F) x0
    ∧ after (pc2_4 (F := F)) U (Proc.devRef .tc main_v29) = val_main_v29 (F := F) x1 x2
    ∧ after (pc2_4 (F := F)) U (Proc.devRef .tc main_v110) = val_main_v110 (F := F) x0 x1 x2
    ∧ after (pc2_4 (F := F)) U (Proc.devRef .tc main_v111) = val_main_v111 (F := F) x0
    ∧ after (pc2_4 (F := F)) U (Proc.devRef .tc main_call15_v0) = val_main_call15_v0 (F := F) x0
    ∧ after (pc2_4 (F := F)) U (Proc.devRef .tc main_call15_v1) = val_main_call15_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v110, i_main_call14_v3, i_main_call14_v4])
  all_goals (try rw [i_main_v20])
  all_goals (try rw [i_main_v23])
  all_goals (try rw [i_main_v28])
  all_goals (try rw [i_main_v29])
  all_goals (try rw [i_main_v110])
  all_goals (try rw [i_main_call14_v3])
  all_goals (try rw [i_main_call14_v4])
  all_goals (try rfl)

/-- Operations 215 to 217 of the line. -/
abbrev pc2_5 : List (HloOp τ sig (Elt F)) :=
  [ TRef.binary (TRef.of (T := ⟨S8x2x128, .f32⟩) main_call15_v0) (TRef.of (T := ⟨S8x126x128, .f32⟩) main_call15_v1) (TRef.of (T := ⟨S8x128x128, .f32⟩) main_call15_v2) (fun a b => concatenate S8x128x128 1 [⟨S8x2x128, a⟩, ⟨S8x126x128, b⟩] concatenates_S8x2x128_S8x126x128_S8x128x128_d1),
    TRef.unary (TRef.of (T := ⟨S8x128x128, .f32⟩) main_call15_v2) (TRef.of (T := ⟨S8x128x126, .f32⟩) main_call15_v3) (extractStridedSlice S8x128x126 ![0, 0, 2] · slices_S8x128x128_S8x128x126_0_0_2),
    TRef.unary (TRef.of (T := ⟨S8x128x128, .f32⟩) main_call15_v2) (TRef.of (T := ⟨S8x128x2, .f32⟩) main_call15_v4) (extractStridedSlice S8x128x2 ![0, 0, 0] · slices_S8x128x128_S8x128x2_0_0_0) ]

set_option maxRecDepth 8192 in
set_option maxHeartbeats 100000000 in
theorem piece2_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v110 : U (Proc.devRef .tc main_v110) = val_main_v110 (F := F) x0 x1 x2)
    (i_main_v111 : U (Proc.devRef .tc main_v111) = val_main_v111 (F := F) x0)
    (i_main_call15_v0 : U (Proc.devRef .tc main_call15_v0) = val_main_call15_v0 (F := F) x0)
    (i_main_call15_v1 : U (Proc.devRef .tc main_call15_v1) = val_main_call15_v1 (F := F) x0) :
    (after (pc2_5 (F := F)) U (Proc.devRef .tc main_arg0) = x0
      ∧ after (pc2_5 (F := F)) U (Proc.devRef .tc main_arg1) = x1
      ∧ after (pc2_5 (F := F)) U (Proc.devRef .tc main_arg2) = x2)
    ∧ after (pc2_5 (F := F)) U (Proc.devRef .tc main_v20) = val_main_v20 (F := F) x1 x2
    ∧ after (pc2_5 (F := F)) U (Proc.devRef .tc main_v23) = val_main_v23 (F := F) x1 x2
    ∧ after (pc2_5 (F := F)) U (Proc.devRef .tc main_v28) = val_main_v28 (F := F) x0
    ∧ after (pc2_5 (F := F)) U (Proc.devRef .tc main_v29) = val_main_v29 (F := F) x1 x2
    ∧ after (pc2_5 (F := F)) U (Proc.devRef .tc main_v110) = val_main_v110 (F := F) x0 x1 x2
    ∧ after (pc2_5 (F := F)) U (Proc.devRef .tc main_v111) = val_main_v111 (F := F) x0
    ∧ after (pc2_5 (F := F)) U (Proc.devRef .tc main_call15_v3) = val_main_call15_v3 (F := F) x0
    ∧ after (pc2_5 (F := F)) U (Proc.devRef .tc main_call15_v4) = val_main_call15_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v110, i_main_v111, i_main_call15_v0, i_main_call15_v1])
  all_goals (try rw [i_main_v20])
  all_goals (try rw [i_main_v23])
  all_goals (try rw [i_main_v28])
  all_goals (try rw [i_main_v29])
  all_goals (try rw [i_main_v110])
  all_goals (try rw [i_main_v111])
  all_goals (try rw [i_main_call15_v0])
  all_goals (try rw [i_main_call15_v1])
  all_goals (try rfl)

/-- Operations 218 to 220 of the line. -/
abbrev pc2_6 : List (HloOp τ sig (Elt F)) :=
  [ TRef.binary (TRef.of (T := ⟨S8x128x126, .f32⟩) main_call15_v3) (TRef.of (T := ⟨S8x128x2, .f32⟩) main_call15_v4) (TRef.of (T := ⟨S8x128x128, .f32⟩) main_v112) (fun a b => concatenate S8x128x128 2 [⟨S8x128x126, a⟩, ⟨S8x128x2, b⟩] concatenates_S8x128x126_S8x128x2_S8x128x128_d2),
    TRef.unary (TRef.of (T := ⟨S8x128x128, .i32⟩) main_arg1) (TRef.of (T := ⟨S8x2x128, .i32⟩) main_call16_v0) (extractStridedSlice S8x2x128 ![0, 126, 0] · slices_S8x128x128_S8x2x128_0_126_0),
    TRef.unary (TRef.of (T := ⟨S8x128x128, .i32⟩) main_arg1) (TRef.of (T := ⟨S8x126x128, .i32⟩) main_call16_v1) (extractStridedSlice S8x126x128 ![0, 0, 0] · slices_S8x128x128_S8x126x128_0_0_0) ]

set_option maxRecDepth 8192 in
set_option maxHeartbeats 100000000 in
theorem piece2_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v110 : U (Proc.devRef .tc main_v110) = val_main_v110 (F := F) x0 x1 x2)
    (i_main_v111 : U (Proc.devRef .tc main_v111) = val_main_v111 (F := F) x0)
    (i_main_call15_v3 : U (Proc.devRef .tc main_call15_v3) = val_main_call15_v3 (F := F) x0)
    (i_main_call15_v4 : U (Proc.devRef .tc main_call15_v4) = val_main_call15_v4 (F := F) x0) :
    (after (pc2_6 (F := F)) U (Proc.devRef .tc main_arg0) = x0
      ∧ after (pc2_6 (F := F)) U (Proc.devRef .tc main_arg1) = x1
      ∧ after (pc2_6 (F := F)) U (Proc.devRef .tc main_arg2) = x2)
    ∧ after (pc2_6 (F := F)) U (Proc.devRef .tc main_v20) = val_main_v20 (F := F) x1 x2
    ∧ after (pc2_6 (F := F)) U (Proc.devRef .tc main_v23) = val_main_v23 (F := F) x1 x2
    ∧ after (pc2_6 (F := F)) U (Proc.devRef .tc main_v28) = val_main_v28 (F := F) x0
    ∧ after (pc2_6 (F := F)) U (Proc.devRef .tc main_v29) = val_main_v29 (F := F) x1 x2
    ∧ after (pc2_6 (F := F)) U (Proc.devRef .tc main_v110) = val_main_v110 (F := F) x0 x1 x2
    ∧ after (pc2_6 (F := F)) U (Proc.devRef .tc main_v111) = val_main_v111 (F := F) x0
    ∧ after (pc2_6 (F := F)) U (Proc.devRef .tc main_v112) = val_main_v112 (F := F) x0
    ∧ after (pc2_6 (F := F)) U (Proc.devRef .tc main_call16_v0) = val_main_call16_v0 (F := F) x1
    ∧ after (pc2_6 (F := F)) U (Proc.devRef .tc main_call16_v1) = val_main_call16_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v110, i_main_v111, i_main_call15_v3, i_main_call15_v4])
  all_goals (try rw [i_main_v20])
  all_goals (try rw [i_main_v23])
  all_goals (try rw [i_main_v28])
  all_goals (try rw [i_main_v29])
  all_goals (try rw [i_main_v110])
  all_goals (try rw [i_main_v111])
  all_goals (try rw [i_main_call15_v3])
  all_goals (try rw [i_main_call15_v4])
  all_goals (try rfl)

/-- Operations 221 to 223 of the line. -/
abbrev pc2_7 : List (HloOp τ sig (Elt F)) :=
  [ TRef.binary (TRef.of (T := ⟨S8x2x128, .i32⟩) main_call16_v0) (TRef.of (T := ⟨S8x126x128, .i32⟩) main_call16_v1) (TRef.of (T := ⟨S8x128x128, .i32⟩) main_call16_v2) (fun a b => concatenate S8x128x128 1 [⟨S8x2x128, a⟩, ⟨S8x126x128, b⟩] concatenates_S8x2x128_S8x126x128_S8x128x128_d1),
    TRef.unary (TRef.of (T := ⟨S8x128x128, .i32⟩) main_call16_v2) (TRef.of (T := ⟨S8x128x126, .i32⟩) main_call16_v3) (extractStridedSlice S8x128x126 ![0, 0, 2] · slices_S8x128x128_S8x128x126_0_0_2),
    TRef.unary (TRef.of (T := ⟨S8x128x128, .i32⟩) main_call16_v2) (TRef.of (T := ⟨S8x128x2, .i32⟩) main_call16_v4) (extractStridedSlice S8x128x2 ![0, 0, 0] · slices_S8x128x128_S8x128x2_0_0_0) ]

set_option maxRecDepth 8192 in
set_option maxHeartbeats 100000000 in
theorem piece2_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v110 : U (Proc.devRef .tc main_v110) = val_main_v110 (F := F) x0 x1 x2)
    (i_main_v111 : U (Proc.devRef .tc main_v111) = val_main_v111 (F := F) x0)
    (i_main_v112 : U (Proc.devRef .tc main_v112) = val_main_v112 (F := F) x0)
    (i_main_call16_v0 : U (Proc.devRef .tc main_call16_v0) = val_main_call16_v0 (F := F) x1)
    (i_main_call16_v1 : U (Proc.devRef .tc main_call16_v1) = val_main_call16_v1 (F := F) x1) :
    (after (pc2_7 (F := F)) U (Proc.devRef .tc main_arg0) = x0
      ∧ after (pc2_7 (F := F)) U (Proc.devRef .tc main_arg1) = x1
      ∧ after (pc2_7 (F := F)) U (Proc.devRef .tc main_arg2) = x2)
    ∧ after (pc2_7 (F := F)) U (Proc.devRef .tc main_v20) = val_main_v20 (F := F) x1 x2
    ∧ after (pc2_7 (F := F)) U (Proc.devRef .tc main_v23) = val_main_v23 (F := F) x1 x2
    ∧ after (pc2_7 (F := F)) U (Proc.devRef .tc main_v28) = val_main_v28 (F := F) x0
    ∧ after (pc2_7 (F := F)) U (Proc.devRef .tc main_v29) = val_main_v29 (F := F) x1 x2
    ∧ after (pc2_7 (F := F)) U (Proc.devRef .tc main_v110) = val_main_v110 (F := F) x0 x1 x2
    ∧ after (pc2_7 (F := F)) U (Proc.devRef .tc main_v111) = val_main_v111 (F := F) x0
    ∧ after (pc2_7 (F := F)) U (Proc.devRef .tc main_v112) = val_main_v112 (F := F) x0
    ∧ after (pc2_7 (F := F)) U (Proc.devRef .tc main_call16_v3) = val_main_call16_v3 (F := F) x1
    ∧ after (pc2_7 (F := F)) U (Proc.devRef .tc main_call16_v4) = val_main_call16_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v110, i_main_v111, i_main_v112, i_main_call16_v0, i_main_call16_v1])
  all_goals (try rw [i_main_v20])
  all_goals (try rw [i_main_v23])
  all_goals (try rw [i_main_v28])
  all_goals (try rw [i_main_v29])
  all_goals (try rw [i_main_v110])
  all_goals (try rw [i_main_v111])
  all_goals (try rw [i_main_v112])
  all_goals (try rw [i_main_call16_v0])
  all_goals (try rw [i_main_call16_v1])
  all_goals (try rfl)

/-- Operations 224 to 247 of the line. -/
abbrev pc2_8 : List (HloOp τ sig (Elt F)) :=
  [ TRef.binary (TRef.of (T := ⟨S8x128x126, .i32⟩) main_call16_v3) (TRef.of (T := ⟨S8x128x2, .i32⟩) main_call16_v4) (TRef.of (T := ⟨S8x128x128, .i32⟩) main_v113) (fun a b => concatenate S8x128x128 2 [⟨S8x128x126, a⟩, ⟨S8x128x2, b⟩] concatenates_S8x128x126_S8x128x2_S8x128x128_d2),
    binary main_arg0 main_v111 main_v114 (mulf : (⟨S8x256x128x128, .f32⟩ : BufTy).Contents (Elt F) → (⟨S8x256x128x128, .f32⟩ : BufTy).Contents (Elt F) → (⟨S8x256x128x128, .f32⟩ : BufTy).Contents (Elt F)),
    nullary main_cst_29 (constant S_ .f32 0x00000000#32),
    binary main_v114 main_cst_29 main_v115 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v112 main_v116 (mulf : (⟨S8x128x128, .f32⟩ : BufTy).Contents (Elt F) → (⟨S8x128x128, .f32⟩ : BufTy).Contents (Elt F) → (⟨S8x128x128, .f32⟩ : BufTy).Contents (Elt F)),
    binary main_v115 main_v116 main_v117 (Host.divf : (⟨S8x128x128, .f32⟩ : BufTy).Contents (Elt F) → (⟨S8x128x128, .f32⟩ : BufTy).Contents (Elt F) → (⟨S8x128x128, .f32⟩ : BufTy).Contents (Elt F)),
    binary main_arg1 main_v113 main_v118 (cmpi .eq : (⟨S8x128x128, .i32⟩ : BufTy).Contents (Elt F) → (⟨S8x128x128, .i32⟩ : BufTy).Contents (Elt F) → (⟨S8x128x128, .i1⟩ : BufTy).Contents (Elt F)),
    nullary main_c_30 (constantI S_ 32 2#32),
    unary main_c_30 main_v119 (broadcastInDim S8x128x128 ![] bcast_S_S8x128x128 : (⟨S_, .i32⟩ : BufTy).Contents (Elt F) → (⟨S8x128x128, .i32⟩ : BufTy).Contents (Elt F)),
    binary main_arg1 main_v119 main_v120 (cmpi .slt : (⟨S8x128x128, .i32⟩ : BufTy).Contents (Elt F) → (⟨S8x128x128, .i32⟩ : BufTy).Contents (Elt F) → (⟨S8x128x128, .i1⟩ : BufTy).Contents (Elt F)),
    binary main_v118 main_v120 main_v121 (andi : (⟨S8x128x128, .i1⟩ : BufTy).Contents (Elt F) → (⟨S8x128x128, .i1⟩ : BufTy).Contents (Elt F) → (⟨S8x128x128, .i1⟩ : BufTy).Contents (Elt F)),
    unary main_v121 main_v122 (uitofp .f32 : (⟨S8x128x128, .i1⟩ : BufTy).Contents (Elt F) → (⟨S8x128x128, .f32⟩ : BufTy).Contents (Elt F)),
    binary main_v117 main_v122 main_v123 (subf : (⟨S8x128x128, .f32⟩ : BufTy).Contents (Elt F) → (⟨S8x128x128, .f32⟩ : BufTy).Contents (Elt F) → (⟨S8x128x128, .f32⟩ : BufTy).Contents (Elt F)),
    binary main_v123 main_v123 main_v124 (mulf : (⟨S8x128x128, .f32⟩ : BufTy).Contents (Elt F) → (⟨S8x128x128, .f32⟩ : BufTy).Contents (Elt F) → (⟨S8x128x128, .f32⟩ : BufTy).Contents (Elt F)),
    binary main_v124 main_v29 main_v125 (mulf : (⟨S8x128x128, .f32⟩ : BufTy).Contents (Elt F) → (⟨S8x128x128, .f32⟩ : BufTy).Contents (Elt F) → (⟨S8x128x128, .f32⟩ : BufTy).Contents (Elt F)),
    nullary main_cst_31 (constant S_ .f32 0x00000000#32),
    binary main_v125 main_cst_31 main_v126 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_32 (constant S_ .f32 0x3F800000#32),
    unary main_cst_32 main_v127 (broadcastInDim S8 ![] bcast_S_S8 : (⟨S_, .f32⟩ : BufTy).Contents (Elt F) → (⟨S8, .f32⟩ : BufTy).Contents (Elt F)),
    binary main_v23 main_v127 main_v128 (maximumf : (⟨S8, .f32⟩ : BufTy).Contents (Elt F) → (⟨S8, .f32⟩ : BufTy).Contents (Elt F) → (⟨S8, .f32⟩ : BufTy).Contents (Elt F)),
    binary main_v126 main_v128 main_v129 (Host.divf : (⟨S8, .f32⟩ : BufTy).Contents (Elt F) → (⟨S8, .f32⟩ : BufTy).Contents (Elt F) → (⟨S8, .f32⟩ : BufTy).Contents (Elt F)),
    binary main_v110 main_v129 main_v130 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call17_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call17_v1) (extractStridedSlice S8x256x127x128 ![0, 0, 0, 0] · slices_S8x256x128x128_S8x256x127x128_0_0_0_0) ]

set_option maxRecDepth 8192 in
set_option maxHeartbeats 100000000 in
theorem piece2_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v110 : U (Proc.devRef .tc main_v110) = val_main_v110 (F := F) x0 x1 x2)
    (i_main_v111 : U (Proc.devRef .tc main_v111) = val_main_v111 (F := F) x0)
    (i_main_v112 : U (Proc.devRef .tc main_v112) = val_main_v112 (F := F) x0)
    (i_main_call16_v3 : U (Proc.devRef .tc main_call16_v3) = val_main_call16_v3 (F := F) x1)
    (i_main_call16_v4 : U (Proc.devRef .tc main_call16_v4) = val_main_call16_v4 (F := F) x1) :
    (after (pc2_8 (F := F)) U (Proc.devRef .tc main_arg0) = x0
      ∧ after (pc2_8 (F := F)) U (Proc.devRef .tc main_arg1) = x1
      ∧ after (pc2_8 (F := F)) U (Proc.devRef .tc main_arg2) = x2)
    ∧ after (pc2_8 (F := F)) U (Proc.devRef .tc main_v20) = val_main_v20 (F := F) x1 x2
    ∧ after (pc2_8 (F := F)) U (Proc.devRef .tc main_v23) = val_main_v23 (F := F) x1 x2
    ∧ after (pc2_8 (F := F)) U (Proc.devRef .tc main_v28) = val_main_v28 (F := F) x0
    ∧ after (pc2_8 (F := F)) U (Proc.devRef .tc main_v29) = val_main_v29 (F := F) x1 x2
    ∧ after (pc2_8 (F := F)) U (Proc.devRef .tc main_v130) = val_main_v130 (F := F) x0 x1 x2
    ∧ after (pc2_8 (F := F)) U (Proc.devRef .tc main_call17_v0) = val_main_call17_v0 (F := F) x0
    ∧ after (pc2_8 (F := F)) U (Proc.devRef .tc main_call17_v1) = val_main_call17_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v110, i_main_v111, i_main_v112, i_main_call16_v3, i_main_call16_v4])
  all_goals (try rw [i_main_v20])
  all_goals (try rw [i_main_v23])
  all_goals (try rw [i_main_v28])
  all_goals (try rw [i_main_v29])
  all_goals (try rw [i_main_v110])
  all_goals (try rw [i_main_v111])
  all_goals (try rw [i_main_v112])
  all_goals (try rw [i_main_call16_v3])
  all_goals (try rw [i_main_call16_v4])
  all_goals (try rfl)

/-- Operations 248 to 250 of the line. -/
abbrev pc2_9 : List (HloOp τ sig (Elt F)) :=
  [ TRef.binary (TRef.of (T := ⟨S8x256x1x128, .f32⟩) main_call17_v0) (TRef.of (T := ⟨S8x256x127x128, .f32⟩) main_call17_v1) (TRef.of (T := ⟨S8x256x128x128, .f32⟩) main_call17_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call17_v2) (TRef.of (T := ⟨S8x256x128x2, .f32⟩) main_call17_v3) (extractStridedSlice S8x256x128x2 ![0, 0, 0, 126] · slices_S8x256x128x128_S8x256x128x2_0_0_0_126),
    TRef.unary (TRef.of (T := ⟨S8x256x128x128, .f32⟩) main_call17_v2) (TRef.of (T := ⟨S8x256x128x126, .f32⟩) main_call17_v4) (extractStridedSlice S8x256x128x126 ![0, 0, 0, 0] · slices_S8x256x128x128_S8x256x128x126_0_0_0_0) ]

set_option maxRecDepth 8192 in
set_option maxHeartbeats 100000000 in
theorem piece2_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_call17_v0 : U (Proc.devRef .tc main_call17_v0) = val_main_call17_v0 (F := F) x0)
    (i_main_call17_v1 : U (Proc.devRef .tc main_call17_v1) = val_main_call17_v1 (F := F) x0) :
    (after (pc2_9 (F := F)) U (Proc.devRef .tc main_arg0) = x0
      ∧ after (pc2_9 (F := F)) U (Proc.devRef .tc main_arg1) = x1
      ∧ after (pc2_9 (F := F)) U (Proc.devRef .tc main_arg2) = x2)
    ∧ after (pc2_9 (F := F)) U (Proc.devRef .tc main_v20) = val_main_v20 (F := F) x1 x2
    ∧ after (pc2_9 (F := F)) U (Proc.devRef .tc main_v23) = val_main_v23 (F := F) x1 x2
    ∧ after (pc2_9 (F := F)) U (Proc.devRef .tc main_v28) = val_main_v28 (F := F) x0
    ∧ after (pc2_9 (F := F)) U (Proc.devRef .tc main_v29) = val_main_v29 (F := F) x1 x2
    ∧ after (pc2_9 (F := F)) U (Proc.devRef .tc main_v130) = val_main_v130 (F := F) x0 x1 x2
    ∧ after (pc2_9 (F := F)) U (Proc.devRef .tc main_call17_v3) = val_main_call17_v3 (F := F) x0
    ∧ after (pc2_9 (F := F)) U (Proc.devRef .tc main_call17_v4) = val_main_call17_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v130, i_main_call17_v0, i_main_call17_v1])
  all_goals (try rw [i_main_v20])
  all_goals (try rw [i_main_v23])
  all_goals (try rw [i_main_v28])
  all_goals (try rw [i_main_v29])
  all_goals (try rw [i_main_v130])
  all_goals (try rw [i_main_call17_v0])
  all_goals (try rw [i_main_call17_v1])
  all_goals (try rfl)

/-- Operations 251 to 253 of the line. -/
abbrev pc2_10 : List (HloOp τ sig (Elt F)) :=
  [ TRef.binary (TRef.of (T := ⟨S8x256x128x2, .f32⟩) main_call17_v3) (TRef.of (T := ⟨S8x256x128x126, .f32⟩) main_call17_v4) (TRef.of (T := ⟨S8x256x128x128, .f32⟩) main_v131) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x1x128, .f32⟩) main_call18_v0) (extractStridedSlice S8x1x128 ![0, 127, 0] · slices_S8x128x128_S8x1x128_0_127_0),
    TRef.unary (TRef.of (T := ⟨S8x128x128, .f32⟩) main_v28) (TRef.of (T := ⟨S8x127x128, .f32⟩) main_call18_v1) (extractStridedSlice S8x127x128 ![0, 0, 0] · slices_S8x128x128_S8x127x128_0_0_0) ]

set_option maxRecDepth 8192 in
set_option maxHeartbeats 100000000 in
theorem piece2_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_call17_v3 : U (Proc.devRef .tc main_call17_v3) = val_main_call17_v3 (F := F) x0)
    (i_main_call17_v4 : U (Proc.devRef .tc main_call17_v4) = val_main_call17_v4 (F := F) x0) :
    (after (pc2_10 (F := F)) U (Proc.devRef .tc main_arg0) = x0
      ∧ after (pc2_10 (F := F)) U (Proc.devRef .tc main_arg1) = x1
      ∧ after (pc2_10 (F := F)) U (Proc.devRef .tc main_arg2) = x2)
    ∧ after (pc2_10 (F := F)) U (Proc.devRef .tc main_v20) = val_main_v20 (F := F) x1 x2
    ∧ after (pc2_10 (F := F)) U (Proc.devRef .tc main_v23) = val_main_v23 (F := F) x1 x2
    ∧ after (pc2_10 (F := F)) U (Proc.devRef .tc main_v28) = val_main_v28 (F := F) x0
    ∧ after (pc2_10 (F := F)) U (Proc.devRef .tc main_v29) = val_main_v29 (F := F) x1 x2
    ∧ after (pc2_10 (F := F)) U (Proc.devRef .tc main_v130) = val_main_v130 (F := F) x0 x1 x2
    ∧ after (pc2_10 (F := F)) U (Proc.devRef .tc main_v131) = val_main_v131 (F := F) x0
    ∧ after (pc2_10 (F := F)) U (Proc.devRef .tc main_call18_v0) = val_main_call18_v0 (F := F) x0
    ∧ after (pc2_10 (F := F)) U (Proc.devRef .tc main_call18_v1) = val_main_call18_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v130, i_main_call17_v3, i_main_call17_v4])
  all_goals (try rw [i_main_v20])
  all_goals (try rw [i_main_v23])
  all_goals (try rw [i_main_v28])
  all_goals (try rw [i_main_v29])
  all_goals (try rw [i_main_v130])
  all_goals (try rw [i_main_call17_v3])
  all_goals (try rw [i_main_call17_v4])
  all_goals (try rfl)

/-- Operations 254 to 256 of the line. -/
abbrev pc2_11 : List (HloOp τ sig (Elt F)) :=
  [ TRef.binary (TRef.of (T := ⟨S8x1x128, .f32⟩) main_call18_v0) (TRef.of (T := ⟨S8x127x128, .f32⟩) main_call18_v1) (TRef.of (T := ⟨S8x128x128, .f32⟩) main_call18_v2) (fun a b => concatenate S8x128x128 1 [⟨S8x1x128, a⟩, ⟨S8x127x128, b⟩] concatenates_S8x1x128_S8x127x128_S8x128x128_d1),
    TRef.unary (TRef.of (T := ⟨S8x128x128, .f32⟩) main_call18_v2) (TRef.of (T := ⟨S8x128x2, .f32⟩) main_call18_v3) (extractStridedSlice S8x128x2 ![0, 0, 126] · slices_S8x128x128_S8x128x2_0_0_126),
    TRef.unary (TRef.of (T := ⟨S8x128x128, .f32⟩) main_call18_v2) (TRef.of (T := ⟨S8x128x126, .f32⟩) main_call18_v4) (extractStridedSlice S8x128x126 ![0, 0, 0] · slices_S8x128x128_S8x128x126_0_0_0) ]

set_option maxRecDepth 8192 in
set_option maxHeartbeats 100000000 in
theorem piece2_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_v131 : U (Proc.devRef .tc main_v131) = val_main_v131 (F := F) x0)
    (i_main_call18_v0 : U (Proc.devRef .tc main_call18_v0) = val_main_call18_v0 (F := F) x0)
    (i_main_call18_v1 : U (Proc.devRef .tc main_call18_v1) = val_main_call18_v1 (F := F) x0) :
    (after (pc2_11 (F := F)) U (Proc.devRef .tc main_arg0) = x0
      ∧ after (pc2_11 (F := F)) U (Proc.devRef .tc main_arg1) = x1
      ∧ after (pc2_11 (F := F)) U (Proc.devRef .tc main_arg2) = x2)
    ∧ after (pc2_11 (F := F)) U (Proc.devRef .tc main_v20) = val_main_v20 (F := F) x1 x2
    ∧ after (pc2_11 (F := F)) U (Proc.devRef .tc main_v23) = val_main_v23 (F := F) x1 x2
    ∧ after (pc2_11 (F := F)) U (Proc.devRef .tc main_v28) = val_main_v28 (F := F) x0
    ∧ after (pc2_11 (F := F)) U (Proc.devRef .tc main_v29) = val_main_v29 (F := F) x1 x2
    ∧ after (pc2_11 (F := F)) U (Proc.devRef .tc main_v130) = val_main_v130 (F := F) x0 x1 x2
    ∧ after (pc2_11 (F := F)) U (Proc.devRef .tc main_v131) = val_main_v131 (F := F) x0
    ∧ after (pc2_11 (F := F)) U (Proc.devRef .tc main_call18_v3) = val_main_call18_v3 (F := F) x0
    ∧ after (pc2_11 (F := F)) U (Proc.devRef .tc main_call18_v4) = val_main_call18_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v130, i_main_v131, i_main_call18_v0, i_main_call18_v1])
  all_goals (try rw [i_main_v20])
  all_goals (try rw [i_main_v23])
  all_goals (try rw [i_main_v28])
  all_goals (try rw [i_main_v29])
  all_goals (try rw [i_main_v130])
  all_goals (try rw [i_main_v131])
  all_goals (try rw [i_main_call18_v0])
  all_goals (try rw [i_main_call18_v1])
  all_goals (try rfl)

/-- Operations 257 to 259 of the line. -/
abbrev pc2_12 : List (HloOp τ sig (Elt F)) :=
  [ TRef.binary (TRef.of (T := ⟨S8x128x2, .f32⟩) main_call18_v3) (TRef.of (T := ⟨S8x128x126, .f32⟩) main_call18_v4) (TRef.of (T := ⟨S8x128x128, .f32⟩) main_v132) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x1x128, .i32⟩) main_call19_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call19_v1) (extractStridedSlice S8x127x128 ![0, 0, 0] · slices_S8x128x128_S8x127x128_0_0_0) ]

set_option maxRecDepth 8192 in
set_option maxHeartbeats 100000000 in
theorem piece2_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_v131 : U (Proc.devRef .tc main_v131) = val_main_v131 (F := F) x0)
    (i_main_call18_v3 : U (Proc.devRef .tc main_call18_v3) = val_main_call18_v3 (F := F) x0)
    (i_main_call18_v4 : U (Proc.devRef .tc main_call18_v4) = val_main_call18_v4 (F := F) x0) :
    (after (pc2_12 (F := F)) U (Proc.devRef .tc main_arg0) = x0
      ∧ after (pc2_12 (F := F)) U (Proc.devRef .tc main_arg1) = x1
      ∧ after (pc2_12 (F := F)) U (Proc.devRef .tc main_arg2) = x2)
    ∧ after (pc2_12 (F := F)) U (Proc.devRef .tc main_v20) = val_main_v20 (F := F) x1 x2
    ∧ after (pc2_12 (F := F)) U (Proc.devRef .tc main_v23) = val_main_v23 (F := F) x1 x2
    ∧ after (pc2_12 (F := F)) U (Proc.devRef .tc main_v28) = val_main_v28 (F := F) x0
    ∧ after (pc2_12 (F := F)) U (Proc.devRef .tc main_v29) = val_main_v29 (F := F) x1 x2
    ∧ after (pc2_12 (F := F)) U (Proc.devRef .tc main_v130) = val_main_v130 (F := F) x0 x1 x2
    ∧ after (pc2_12 (F := F)) U (Proc.devRef .tc main_v131) = val_main_v131 (F := F) x0
    ∧ after (pc2_12 (F := F)) U (Proc.devRef .tc main_v132) = val_main_v132 (F := F) x0
    ∧ after (pc2_12 (F := F)) U (Proc.devRef .tc main_call19_v0) = val_main_call19_v0 (F := F) x1
    ∧ after (pc2_12 (F := F)) U (Proc.devRef .tc main_call19_v1) = val_main_call19_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v130, i_main_v131, i_main_call18_v3, i_main_call18_v4])
  all_goals (try rw [i_main_v20])
  all_goals (try rw [i_main_v23])
  all_goals (try rw [i_main_v28])
  all_goals (try rw [i_main_v29])
  all_goals (try rw [i_main_v130])
  all_goals (try rw [i_main_v131])
  all_goals (try rw [i_main_call18_v3])
  all_goals (try rw [i_main_call18_v4])
  all_goals (try rfl)

/-- Operations 260 to 262 of the line. -/
abbrev pc2_13 : List (HloOp τ sig (Elt F)) :=
  [ TRef.binary (TRef.of (T := ⟨S8x1x128, .i32⟩) main_call19_v0) (TRef.of (T := ⟨S8x127x128, .i32⟩) main_call19_v1) (TRef.of (T := ⟨S8x128x128, .i32⟩) main_call19_v2) (fun a b => concatenate S8x128x128 1 [⟨S8x1x128, a⟩, ⟨S8x127x128, b⟩] concatenates_S8x1x128_S8x127x128_S8x128x128_d1),
    TRef.unary (TRef.of (T := ⟨S8x128x128, .i32⟩) main_call19_v2) (TRef.of (T := ⟨S8x128x2, .i32⟩) main_call19_v3) (extractStridedSlice S8x128x2 ![0, 0, 126] · slices_S8x128x128_S8x128x2_0_0_126),
    TRef.unary (TRef.of (T := ⟨S8x128x128, .i32⟩) main_call19_v2) (TRef.of (T := ⟨S8x128x126, .i32⟩) main_call19_v4) (extractStridedSlice S8x128x126 ![0, 0, 0] · slices_S8x128x128_S8x128x126_0_0_0) ]

set_option maxRecDepth 8192 in
set_option maxHeartbeats 100000000 in
theorem piece2_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_v131 : U (Proc.devRef .tc main_v131) = val_main_v131 (F := F) x0)
    (i_main_v132 : U (Proc.devRef .tc main_v132) = val_main_v132 (F := F) x0)
    (i_main_call19_v0 : U (Proc.devRef .tc main_call19_v0) = val_main_call19_v0 (F := F) x1)
    (i_main_call19_v1 : U (Proc.devRef .tc main_call19_v1) = val_main_call19_v1 (F := F) x1) :
    (after (pc2_13 (F := F)) U (Proc.devRef .tc main_arg0) = x0
      ∧ after (pc2_13 (F := F)) U (Proc.devRef .tc main_arg1) = x1
      ∧ after (pc2_13 (F := F)) U (Proc.devRef .tc main_arg2) = x2)
    ∧ after (pc2_13 (F := F)) U (Proc.devRef .tc main_v20) = val_main_v20 (F := F) x1 x2
    ∧ after (pc2_13 (F := F)) U (Proc.devRef .tc main_v23) = val_main_v23 (F := F) x1 x2
    ∧ after (pc2_13 (F := F)) U (Proc.devRef .tc main_v28) = val_main_v28 (F := F) x0
    ∧ after (pc2_13 (F := F)) U (Proc.devRef .tc main_v29) = val_main_v29 (F := F) x1 x2
    ∧ after (pc2_13 (F := F)) U (Proc.devRef .tc main_v130) = val_main_v130 (F := F) x0 x1 x2
    ∧ after (pc2_13 (F := F)) U (Proc.devRef .tc main_v131) = val_main_v131 (F := F) x0
    ∧ after (pc2_13 (F := F)) U (Proc.devRef .tc main_v132) = val_main_v132 (F := F) x0
    ∧ after (pc2_13 (F := F)) U (Proc.devRef .tc main_call19_v3) = val_main_call19_v3 (F := F) x1
    ∧ after (pc2_13 (F := F)) U (Proc.devRef .tc main_call19_v4) = val_main_call19_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v130, i_main_v131, i_main_v132, i_main_call19_v0, i_main_call19_v1])
  all_goals (try rw [i_main_v20])
  all_goals (try rw [i_main_v23])
  all_goals (try rw [i_main_v28])
  all_goals (try rw [i_main_v29])
  all_goals (try rw [i_main_v130])
  all_goals (try rw [i_main_v131])
  all_goals (try rw [i_main_v132])
  all_goals (try rw [i_main_call19_v0])
  all_goals (try rw [i_main_call19_v1])
  all_goals (try rfl)

/-- Operations 263 to 274 of the line. -/
abbrev pc2_14 : List (HloOp τ sig (Elt F)) :=
  [ TRef.binary (TRef.of (T := ⟨S8x128x2, .i32⟩) main_call19_v3) (TRef.of (T := ⟨S8x128x126, .i32⟩) main_call19_v4) (TRef.of (T := ⟨S8x128x128, .i32⟩) main_v133) (fun a b => concatenate S8x128x128 2 [⟨S8x128x2, a⟩, ⟨S8x128x126, b⟩] concatenates_S8x128x2_S8x128x126_S8x128x128_d2),
    binary main_arg0 main_v131 main_v134 (mulf : (⟨S8x256x128x128, .f32⟩ : BufTy).Contents (Elt F) → (⟨S8x256x128x128, .f32⟩ : BufTy).Contents (Elt F) → (⟨S8x256x128x128, .f32⟩ : BufTy).Contents (Elt F)),
    nullary main_cst_33 (constant S_ .f32 0x00000000#32),
    binary main_v134 main_cst_33 main_v135 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v132 main_v136 (mulf : (⟨S8x128x128, .f32⟩ : BufTy).Contents (Elt F) → (⟨S8x128x128, .f32⟩ : BufTy).Contents (Elt F) → (⟨S8x128x128, .f32⟩ : BufTy).Contents (Elt F)),
    binary main_v135 main_v136 main_v137 (Host.divf : (⟨S8x128x128, .f32⟩ : BufTy).Contents (Elt F) → (⟨S8x128x128, .f32⟩ : BufTy).Contents (Elt F) → (⟨S8x128x128, .f32⟩ : BufTy).Contents (Elt F)),
    binary main_arg1 main_v133 main_v138 (cmpi .eq : (⟨S8x128x128, .i32⟩ : BufTy).Contents (Elt F) → (⟨S8x128x128, .i32⟩ : BufTy).Contents (Elt F) → (⟨S8x128x128, .i1⟩ : BufTy).Contents (Elt F)),
    nullary main_c_34 (constantI S_ 32 2#32),
    unary main_c_34 main_v139 (broadcastInDim S8x128x128 ![] bcast_S_S8x128x128 : (⟨S_, .i32⟩ : BufTy).Contents (Elt F) → (⟨S8x128x128, .i32⟩ : BufTy).Contents (Elt F)),
    binary main_arg1 main_v139 main_v140 (cmpi .slt : (⟨S8x128x128, .i32⟩ : BufTy).Contents (Elt F) → (⟨S8x128x128, .i32⟩ : BufTy).Contents (Elt F) → (⟨S8x128x128, .i1⟩ : BufTy).Contents (Elt F)),
    binary main_v138 main_v140 main_v141 (andi : (⟨S8x128x128, .i1⟩ : BufTy).Contents (Elt F) → (⟨S8x128x128, .i1⟩ : BufTy).Contents (Elt F) → (⟨S8x128x128, .i1⟩ : BufTy).Contents (Elt F)),
    unary main_v141 main_v142 (uitofp .f32 : (⟨S8x128x128, .i1⟩ : BufTy).Contents (Elt F) → (⟨S8x128x128, .f32⟩ : BufTy).Contents (Elt F)) ]

set_option maxRecDepth 8192 in
set_option maxHeartbeats 100000000 in
theorem piece2_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_v131 : U (Proc.devRef .tc main_v131) = val_main_v131 (F := F) x0)
    (i_main_v132 : U (Proc.devRef .tc main_v132) = val_main_v132 (F := F) x0)
    (i_main_call19_v3 : U (Proc.devRef .tc main_call19_v3) = val_main_call19_v3 (F := F) x1)
    (i_main_call19_v4 : U (Proc.devRef .tc main_call19_v4) = val_main_call19_v4 (F := F) x1) :
    (after (pc2_14 (F := F)) U (Proc.devRef .tc main_arg0) = x0
      ∧ after (pc2_14 (F := F)) U (Proc.devRef .tc main_arg1) = x1
      ∧ after (pc2_14 (F := F)) U (Proc.devRef .tc main_arg2) = x2)
    ∧ after (pc2_14 (F := F)) U (Proc.devRef .tc main_v20) = val_main_v20 (F := F) x1 x2
    ∧ after (pc2_14 (F := F)) U (Proc.devRef .tc main_v23) = val_main_v23 (F := F) x1 x2
    ∧ after (pc2_14 (F := F)) U (Proc.devRef .tc main_v28) = val_main_v28 (F := F) x0
    ∧ after (pc2_14 (F := F)) U (Proc.devRef .tc main_v29) = val_main_v29 (F := F) x1 x2
    ∧ after (pc2_14 (F := F)) U (Proc.devRef .tc main_v130) = val_main_v130 (F := F) x0 x1 x2
    ∧ after (pc2_14 (F := F)) U (Proc.devRef .tc main_v137) = val_main_v137 (F := F) x0
    ∧ after (pc2_14 (F := F)) U (Proc.devRef .tc main_v142) = val_main_v142 (F := F) x1 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v130, i_main_v131, i_main_v132, i_main_call19_v3, i_main_call19_v4])
  all_goals (try rw [i_main_v20])
  all_goals (try rw [i_main_v23])
  all_goals (try rw [i_main_v28])
  all_goals (try rw [i_main_v29])
  all_goals (try rw [i_main_v130])
  all_goals (try rw [i_main_v131])
  all_goals (try rw [i_main_v132])
  all_goals (try rw [i_main_call19_v3])
  all_goals (try rw [i_main_call19_v4])
  all_goals (try rfl)

set_option maxRecDepth 8192 in
/-- The part's operations are its pieces laid end to end. -/
theorem ops2_split : (ops2 (F := F)) = pc2_0 ++ (pc2_1 ++ (pc2_2 ++ (pc2_3 ++ (pc2_4 ++ (pc2_5 ++ (pc2_6 ++ (pc2_7 ++ (pc2_8 ++ (pc2_9 ++ (pc2_10 ++ (pc2_11 ++ (pc2_12 ++ (pc2_13 ++ (pc2_14)))))))))))))) := rfl

theorem chunk2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v90 : U (Proc.devRef .tc main_v90) = val_main_v90 (F := F) x0 x1 x2)
    (i_main_v91 : U (Proc.devRef .tc main_v91) = val_main_v91 (F := F) x0)
    (i_main_v92 : U (Proc.devRef .tc main_v92) = val_main_v92 (F := F) x0) :
    (after (ops2 (F := F)) U (Proc.devRef .tc main_arg0) = x0
      ∧ after (ops2 (F := F)) U (Proc.devRef .tc main_arg1) = x1
      ∧ after (ops2 (F := F)) U (Proc.devRef .tc main_arg2) = x2)
    ∧ after (ops2 (F := F)) U (Proc.devRef .tc main_v20) = val_main_v20 (F := F) x1 x2
    ∧ after (ops2 (F := F)) U (Proc.devRef .tc main_v23) = val_main_v23 (F := F) x1 x2
    ∧ after (ops2 (F := F)) U (Proc.devRef .tc main_v28) = val_main_v28 (F := F) x0
    ∧ after (ops2 (F := F)) U (Proc.devRef .tc main_v29) = val_main_v29 (F := F) x1 x2
    ∧ after (ops2 (F := F)) U (Proc.devRef .tc main_v130) = val_main_v130 (F := F) x0 x1 x2
    ∧ after (ops2 (F := F)) U (Proc.devRef .tc main_v137) = val_main_v137 (F := F) x0
    ∧ after (ops2 (F := F)) U (Proc.devRef .tc main_v142) = val_main_v142 (F := F) x1 := by
  rw [ops2_split]
  simp only [after_append]
  have p0 := piece2_0 (F := F) U x0 x1 x2 h0 h1 h2 i_main_v20 i_main_v23 i_main_v28 i_main_v29 i_main_v90 i_main_v91 i_main_v92
  have p1 := piece2_1 (F := F) (after (pc2_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2.1 p0.2.2.2.2.2.2.2.2.1 p0.2.2.2.2.2.2.2.2.2
  have p2 := piece2_2 (F := F) (after (pc2_1 (F := F)) (after (pc2_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2.1 p1.2.2.2.2.2.2.2.2.1 p1.2.2.2.2.2.2.2.2.2
  have p3 := piece2_3 (F := F) (after (pc2_2 (F := F)) (after (pc2_1 (F := F)) (after (pc2_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2
  have p4 := piece2_4 (F := F) (after (pc2_3 (F := F)) (after (pc2_2 (F := F)) (after (pc2_1 (F := F)) (after (pc2_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2
  have p5 := piece2_5 (F := F) (after (pc2_4 (F := F)) (after (pc2_3 (F := F)) (after (pc2_2 (F := F)) (after (pc2_1 (F := F)) (after (pc2_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2
  have p6 := piece2_6 (F := F) (after (pc2_5 (F := F)) (after (pc2_4 (F := F)) (after (pc2_3 (F := F)) (after (pc2_2 (F := F)) (after (pc2_1 (F := F)) (after (pc2_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2
  have p7 := piece2_7 (F := F) (after (pc2_6 (F := F)) (after (pc2_5 (F := F)) (after (pc2_4 (F := F)) (after (pc2_3 (F := F)) (after (pc2_2 (F := F)) (after (pc2_1 (F := F)) (after (pc2_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2.1 p6.2.2.2.2.2.2.2.2.1 p6.2.2.2.2.2.2.2.2.2
  have p8 := piece2_8 (F := F) (after (pc2_7 (F := F)) (after (pc2_6 (F := F)) (after (pc2_5 (F := F)) (after (pc2_4 (F := F)) (after (pc2_3 (F := F)) (after (pc2_2 (F := F)) (after (pc2_1 (F := F)) (after (pc2_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2.1 p7.2.2.2.2.2.2.2.2.1 p7.2.2.2.2.2.2.2.2.2
  have p9 := piece2_9 (F := F) (after (pc2_8 (F := F)) (after (pc2_7 (F := F)) (after (pc2_6 (F := F)) (after (pc2_5 (F := F)) (after (pc2_4 (F := F)) (after (pc2_3 (F := F)) (after (pc2_2 (F := F)) (after (pc2_1 (F := F)) (after (pc2_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2
  have p10 := piece2_10 (F := F) (after (pc2_9 (F := F)) (after (pc2_8 (F := F)) (after (pc2_7 (F := F)) (after (pc2_6 (F := F)) (after (pc2_5 (F := F)) (after (pc2_4 (F := F)) (after (pc2_3 (F := F)) (after (pc2_2 (F := F)) (after (pc2_1 (F := F)) (after (pc2_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2
  have p11 := piece2_11 (F := F) (after (pc2_10 (F := F)) (after (pc2_9 (F := F)) (after (pc2_8 (F := F)) (after (pc2_7 (F := F)) (after (pc2_6 (F := F)) (after (pc2_5 (F := F)) (after (pc2_4 (F := F)) (after (pc2_3 (F := F)) (after (pc2_2 (F := F)) (after (pc2_1 (F := F)) (after (pc2_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2
  have p12 := piece2_12 (F := F) (after (pc2_11 (F := F)) (after (pc2_10 (F := F)) (after (pc2_9 (F := F)) (after (pc2_8 (F := F)) (after (pc2_7 (F := F)) (after (pc2_6 (F := F)) (after (pc2_5 (F := F)) (after (pc2_4 (F := F)) (after (pc2_3 (F := F)) (after (pc2_2 (F := F)) (after (pc2_1 (F := F)) (after (pc2_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2
  have p13 := piece2_13 (F := F) (after (pc2_12 (F := F)) (after (pc2_11 (F := F)) (after (pc2_10 (F := F)) (after (pc2_9 (F := F)) (after (pc2_8 (F := F)) (after (pc2_7 (F := F)) (after (pc2_6 (F := F)) (after (pc2_5 (F := F)) (after (pc2_4 (F := F)) (after (pc2_3 (F := F)) (after (pc2_2 (F := F)) (after (pc2_1 (F := F)) (after (pc2_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2.1 p12.2.2.2.2.2.2.2.2.1 p12.2.2.2.2.2.2.2.2.2
  have p14 := piece2_14 (F := F) (after (pc2_13 (F := F)) (after (pc2_12 (F := F)) (after (pc2_11 (F := F)) (after (pc2_10 (F := F)) (after (pc2_9 (F := F)) (after (pc2_8 (F := F)) (after (pc2_7 (F := F)) (after (pc2_6 (F := F)) (after (pc2_5 (F := F)) (after (pc2_4 (F := F)) (after (pc2_3 (F := F)) (after (pc2_2 (F := F)) (after (pc2_1 (F := F)) (after (pc2_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2.1 p13.2.2.2.2.2.2.2.2.1 p13.2.2.2.2.2.2.2.2.2
  exact p14

end Cert.Bridge.RefRun

end
-- ==== Proof.RefRunPart3.lean ====
/-
  Part 3 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 275 to 286 of the line. -/
abbrev pc3_0 : List (HloOp τ sig (Elt F)) :=
  [ binary main_v137 main_v142 main_v143 (subf : (⟨S8x128x128, .f32⟩ : BufTy).Contents (Elt F) → (⟨S8x128x128, .f32⟩ : BufTy).Contents (Elt F) → (⟨S8x128x128, .f32⟩ : BufTy).Contents (Elt F)),
    binary main_v143 main_v143 main_v144 (mulf : (⟨S8x128x128, .f32⟩ : BufTy).Contents (Elt F) → (⟨S8x128x128, .f32⟩ : BufTy).Contents (Elt F) → (⟨S8x128x128, .f32⟩ : BufTy).Contents (Elt F)),
    binary main_v144 main_v29 main_v145 (mulf : (⟨S8x128x128, .f32⟩ : BufTy).Contents (Elt F) → (⟨S8x128x128, .f32⟩ : BufTy).Contents (Elt F) → (⟨S8x128x128, .f32⟩ : BufTy).Contents (Elt F)),
    nullary main_cst_35 (constant S_ .f32 0x00000000#32),
    binary main_v145 main_cst_35 main_v146 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_36 (constant S_ .f32 0x3F800000#32),
    unary main_cst_36 main_v147 (broadcastInDim S8 ![] bcast_S_S8 : (⟨S_, .f32⟩ : BufTy).Contents (Elt F) → (⟨S8, .f32⟩ : BufTy).Contents (Elt F)),
    binary main_v23 main_v147 main_v148 (maximumf : (⟨S8, .f32⟩ : BufTy).Contents (Elt F) → (⟨S8, .f32⟩ : BufTy).Contents (Elt F) → (⟨S8, .f32⟩ : BufTy).Contents (Elt F)),
    binary main_v146 main_v148 main_v149 (Host.divf : (⟨S8, .f32⟩ : BufTy).Contents (Elt F) → (⟨S8, .f32⟩ : BufTy).Contents (Elt F) → (⟨S8, .f32⟩ : BufTy).Contents (Elt F)),
    binary main_v130 main_v149 main_v150 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call20_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call20_v1) (extractStridedSlice S8x256x127x128 ![0, 0, 0, 0] · slices_S8x256x128x128_S8x256x127x128_0_0_0_0) ]

set_option maxRecDepth 8192 in
set_option maxHeartbeats 100000000 in
theorem piece3_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_v137 : U (Proc.devRef .tc main_v137) = val_main_v137 (F := F) x0)
    (i_main_v142 : U (Proc.devRef .tc main_v142) = val_main_v142 (F := F) x1) :
    (after (pc3_0 (F := F)) U (Proc.devRef .tc main_arg0) = x0
      ∧ after (pc3_0 (F := F)) U (Proc.devRef .tc main_arg1) = x1
      ∧ after (pc3_0 (F := F)) U (Proc.devRef .tc main_arg2) = x2)
    ∧ after (pc3_0 (F := F)) U (Proc.devRef .tc main_v20) = val_main_v20 (F := F) x1 x2
    ∧ after (pc3_0 (F := F)) U (Proc.devRef .tc main_v23) = val_main_v23 (F := F) x1 x2
    ∧ after (pc3_0 (F := F)) U (Proc.devRef .tc main_v28) = val_main_v28 (F := F) x0
    ∧ after (pc3_0 (F := F)) U (Proc.devRef .tc main_v29) = val_main_v29 (F := F) x1 x2
    ∧ after (pc3_0 (F := F)) U (Proc.devRef .tc main_v150) = val_main_v150 (F := F) x0 x1 x2
    ∧ after (pc3_0 (F := F)) U (Proc.devRef .tc main_call20_v0) = val_main_call20_v0 (F := F) x0
    ∧ after (pc3_0 (F := F)) U (Proc.devRef .tc main_call20_v1) = val_main_call20_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v130, i_main_v137, i_main_v142])
  all_goals (try rw [i_main_v20])
  all_goals (try rw [i_main_v23])
  all_goals (try rw [i_main_v28])
  all_goals (try rw [i_main_v29])
  all_goals (try rw [i_main_v130])
  all_goals (try rw [i_main_v137])
  all_goals (try rw [i_main_v142])
  all_goals (try rfl)

/-- Operations 287 to 289 of the line. -/
abbrev pc3_1 : List (HloOp τ sig (Elt F)) :=
  [ TRef.binary (TRef.of (T := ⟨S8x256x1x128, .f32⟩) main_call20_v0) (TRef.of (T := ⟨S8x256x127x128, .f32⟩) main_call20_v1) (TRef.of (T := ⟨S8x256x128x128, .f32⟩) main_call20_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call20_v2) (TRef.of (T := ⟨S8x256x128x1, .f32⟩) main_call20_v3) (extractStridedSlice S8x256x128x1 ![0, 0, 0, 127] · slices_S8x256x128x128_S8x256x128x1_0_0_0_127),
    TRef.unary (TRef.of (T := ⟨S8x256x128x128, .f32⟩) main_call20_v2) (TRef.of (T := ⟨S8x256x128x127, .f32⟩) main_call20_v4) (extractStridedSlice S8x256x128x127 ![0, 0, 0, 0] · slices_S8x256x128x128_S8x256x128x127_0_0_0_0) ]

set_option maxRecDepth 8192 in
set_option maxHeartbeats 100000000 in
theorem piece3_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v150 : U (Proc.devRef .tc main_v150) = val_main_v150 (F := F) x0 x1 x2)
    (i_main_call20_v0 : U (Proc.devRef .tc main_call20_v0) = val_main_call20_v0 (F := F) x0)
    (i_main_call20_v1 : U (Proc.devRef .tc main_call20_v1) = val_main_call20_v1 (F := F) x0) :
    (after (pc3_1 (F := F)) U (Proc.devRef .tc main_arg0) = x0
      ∧ after (pc3_1 (F := F)) U (Proc.devRef .tc main_arg1) = x1
      ∧ after (pc3_1 (F := F)) U (Proc.devRef .tc main_arg2) = x2)
    ∧ after (pc3_1 (F := F)) U (Proc.devRef .tc main_v20) = val_main_v20 (F := F) x1 x2
    ∧ after (pc3_1 (F := F)) U (Proc.devRef .tc main_v23) = val_main_v23 (F := F) x1 x2
    ∧ after (pc3_1 (F := F)) U (Proc.devRef .tc main_v28) = val_main_v28 (F := F) x0
    ∧ after (pc3_1 (F := F)) U (Proc.devRef .tc main_v29) = val_main_v29 (F := F) x1 x2
    ∧ after (pc3_1 (F := F)) U (Proc.devRef .tc main_v150) = val_main_v150 (F := F) x0 x1 x2
    ∧ after (pc3_1 (F := F)) U (Proc.devRef .tc main_call20_v3) = val_main_call20_v3 (F := F) x0
    ∧ after (pc3_1 (F := F)) U (Proc.devRef .tc main_call20_v4) = val_main_call20_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v150, i_main_call20_v0, i_main_call20_v1])
  all_goals (try rw [i_main_v20])
  all_goals (try rw [i_main_v23])
  all_goals (try rw [i_main_v28])
  all_goals (try rw [i_main_v29])
  all_goals (try rw [i_main_v150])
  all_goals (try rw [i_main_call20_v0])
  all_goals (try rw [i_main_call20_v1])
  all_goals (try rfl)

/-- Operations 290 to 292 of the line. -/
abbrev pc3_2 : List (HloOp τ sig (Elt F)) :=
  [ TRef.binary (TRef.of (T := ⟨S8x256x128x1, .f32⟩) main_call20_v3) (TRef.of (T := ⟨S8x256x128x127, .f32⟩) main_call20_v4) (TRef.of (T := ⟨S8x256x128x128, .f32⟩) main_v151) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x1x128, .f32⟩) main_call21_v0) (extractStridedSlice S8x1x128 ![0, 127, 0] · slices_S8x128x128_S8x1x128_0_127_0),
    TRef.unary (TRef.of (T := ⟨S8x128x128, .f32⟩) main_v28) (TRef.of (T := ⟨S8x127x128, .f32⟩) main_call21_v1) (extractStridedSlice S8x127x128 ![0, 0, 0] · slices_S8x128x128_S8x127x128_0_0_0) ]

set_option maxRecDepth 8192 in
set_option maxHeartbeats 100000000 in
theorem piece3_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v150 : U (Proc.devRef .tc main_v150) = val_main_v150 (F := F) x0 x1 x2)
    (i_main_call20_v3 : U (Proc.devRef .tc main_call20_v3) = val_main_call20_v3 (F := F) x0)
    (i_main_call20_v4 : U (Proc.devRef .tc main_call20_v4) = val_main_call20_v4 (F := F) x0) :
    (after (pc3_2 (F := F)) U (Proc.devRef .tc main_arg0) = x0
      ∧ after (pc3_2 (F := F)) U (Proc.devRef .tc main_arg1) = x1
      ∧ after (pc3_2 (F := F)) U (Proc.devRef .tc main_arg2) = x2)
    ∧ after (pc3_2 (F := F)) U (Proc.devRef .tc main_v20) = val_main_v20 (F := F) x1 x2
    ∧ after (pc3_2 (F := F)) U (Proc.devRef .tc main_v23) = val_main_v23 (F := F) x1 x2
    ∧ after (pc3_2 (F := F)) U (Proc.devRef .tc main_v28) = val_main_v28 (F := F) x0
    ∧ after (pc3_2 (F := F)) U (Proc.devRef .tc main_v29) = val_main_v29 (F := F) x1 x2
    ∧ after (pc3_2 (F := F)) U (Proc.devRef .tc main_v150) = val_main_v150 (F := F) x0 x1 x2
    ∧ after (pc3_2 (F := F)) U (Proc.devRef .tc main_v151) = val_main_v151 (F := F) x0
    ∧ after (pc3_2 (F := F)) U (Proc.devRef .tc main_call21_v0) = val_main_call21_v0 (F := F) x0
    ∧ after (pc3_2 (F := F)) U (Proc.devRef .tc main_call21_v1) = val_main_call21_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v150, i_main_call20_v3, i_main_call20_v4])
  all_goals (try rw [i_main_v20])
  all_goals (try rw [i_main_v23])
  all_goals (try rw [i_main_v28])
  all_goals (try rw [i_main_v29])
  all_goals (try rw [i_main_v150])
  all_goals (try rw [i_main_call20_v3])
  all_goals (try rw [i_main_call20_v4])
  all_goals (try rfl)

/-- Operations 293 to 295 of the line. -/
abbrev pc3_3 : List (HloOp τ sig (Elt F)) :=
  [ TRef.binary (TRef.of (T := ⟨S8x1x128, .f32⟩) main_call21_v0) (TRef.of (T := ⟨S8x127x128, .f32⟩) main_call21_v1) (TRef.of (T := ⟨S8x128x128, .f32⟩) main_call21_v2) (fun a b => concatenate S8x128x128 1 [⟨S8x1x128, a⟩, ⟨S8x127x128, b⟩] concatenates_S8x1x128_S8x127x128_S8x128x128_d1),
    TRef.unary (TRef.of (T := ⟨S8x128x128, .f32⟩) main_call21_v2) (TRef.of (T := ⟨S8x128x1, .f32⟩) main_call21_v3) (extractStridedSlice S8x128x1 ![0, 0, 127] · slices_S8x128x128_S8x128x1_0_0_127),
    TRef.unary (TRef.of (T := ⟨S8x128x128, .f32⟩) main_call21_v2) (TRef.of (T := ⟨S8x128x127, .f32⟩) main_call21_v4) (extractStridedSlice S8x128x127 ![0, 0, 0] · slices_S8x128x128_S8x128x127_0_0_0) ]

set_option maxRecDepth 8192 in
set_option maxHeartbeats 100000000 in
theorem piece3_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v150 : U (Proc.devRef .tc main_v150) = val_main_v150 (F := F) x0 x1 x2)
    (i_main_v151 : U (Proc.devRef .tc main_v151) = val_main_v151 (F := F) x0)
    (i_main_call21_v0 : U (Proc.devRef .tc main_call21_v0) = val_main_call21_v0 (F := F) x0)
    (i_main_call21_v1 : U (Proc.devRef .tc main_call21_v1) = val_main_call21_v1 (F := F) x0) :
    (after (pc3_3 (F := F)) U (Proc.devRef .tc main_arg0) = x0
      ∧ after (pc3_3 (F := F)) U (Proc.devRef .tc main_arg1) = x1
      ∧ after (pc3_3 (F := F)) U (Proc.devRef .tc main_arg2) = x2)
    ∧ after (pc3_3 (F := F)) U (Proc.devRef .tc main_v20) = val_main_v20 (F := F) x1 x2
    ∧ after (pc3_3 (F := F)) U (Proc.devRef .tc main_v23) = val_main_v23 (F := F) x1 x2
    ∧ after (pc3_3 (F := F)) U (Proc.devRef .tc main_v28) = val_main_v28 (F := F) x0
    ∧ after (pc3_3 (F := F)) U (Proc.devRef .tc main_v29) = val_main_v29 (F := F) x1 x2
    ∧ after (pc3_3 (F := F)) U (Proc.devRef .tc main_v150) = val_main_v150 (F := F) x0 x1 x2
    ∧ after (pc3_3 (F := F)) U (Proc.devRef .tc main_v151) = val_main_v151 (F := F) x0
    ∧ after (pc3_3 (F := F)) U (Proc.devRef .tc main_call21_v3) = val_main_call21_v3 (F := F) x0
    ∧ after (pc3_3 (F := F)) U (Proc.devRef .tc main_call21_v4) = val_main_call21_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v150, i_main_v151, i_main_call21_v0, i_main_call21_v1])
  all_goals (try rw [i_main_v20])
  all_goals (try rw [i_main_v23])
  all_goals (try rw [i_main_v28])
  all_goals (try rw [i_main_v29])
  all_goals (try rw [i_main_v150])
  all_goals (try rw [i_main_v151])
  all_goals (try rw [i_main_call21_v0])
  all_goals (try rw [i_main_call21_v1])
  all_goals (try rfl)

/-- Operations 296 to 298 of the line. -/
abbrev pc3_4 : List (HloOp τ sig (Elt F)) :=
  [ TRef.binary (TRef.of (T := ⟨S8x128x1, .f32⟩) main_call21_v3) (TRef.of (T := ⟨S8x128x127, .f32⟩) main_call21_v4) (TRef.of (T := ⟨S8x128x128, .f32⟩) main_v152) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x1x128, .i32⟩) main_call22_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call22_v1) (extractStridedSlice S8x127x128 ![0, 0, 0] · slices_S8x128x128_S8x127x128_0_0_0) ]

set_option maxRecDepth 8192 in
set_option maxHeartbeats 100000000 in
theorem piece3_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v150 : U (Proc.devRef .tc main_v150) = val_main_v150 (F := F) x0 x1 x2)
    (i_main_v151 : U (Proc.devRef .tc main_v151) = val_main_v151 (F := F) x0)
    (i_main_call21_v3 : U (Proc.devRef .tc main_call21_v3) = val_main_call21_v3 (F := F) x0)
    (i_main_call21_v4 : U (Proc.devRef .tc main_call21_v4) = val_main_call21_v4 (F := F) x0) :
    (after (pc3_4 (F := F)) U (Proc.devRef .tc main_arg0) = x0
      ∧ after (pc3_4 (F := F)) U (Proc.devRef .tc main_arg1) = x1
      ∧ after (pc3_4 (F := F)) U (Proc.devRef .tc main_arg2) = x2)
    ∧ after (pc3_4 (F := F)) U (Proc.devRef .tc main_v20) = val_main_v20 (F := F) x1 x2
    ∧ after (pc3_4 (F := F)) U (Proc.devRef .tc main_v23) = val_main_v23 (F := F) x1 x2
    ∧ after (pc3_4 (F := F)) U (Proc.devRef .tc main_v28) = val_main_v28 (F := F) x0
    ∧ after (pc3_4 (F := F)) U (Proc.devRef .tc main_v29) = val_main_v29 (F := F) x1 x2
    ∧ after (pc3_4 (F := F)) U (Proc.devRef .tc main_v150) = val_main_v150 (F := F) x0 x1 x2
    ∧ after (pc3_4 (F := F)) U (Proc.devRef .tc main_v151) = val_main_v151 (F := F) x0
    ∧ after (pc3_4 (F := F)) U (Proc.devRef .tc main_v152) = val_main_v152 (F := F) x0
    ∧ after (pc3_4 (F := F)) U (Proc.devRef .tc main_call22_v0) = val_main_call22_v0 (F := F) x1
    ∧ after (pc3_4 (F := F)) U (Proc.devRef .tc main_call22_v1) = val_main_call22_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v150, i_main_v151, i_main_call21_v3, i_main_call21_v4])
  all_goals (try rw [i_main_v20])
  all_goals (try rw [i_main_v23])
  all_goals (try rw [i_main_v28])
  all_goals (try rw [i_main_v29])
  all_goals (try rw [i_main_v150])
  all_goals (try rw [i_main_v151])
  all_goals (try rw [i_main_call21_v3])
  all_goals (try rw [i_main_call21_v4])
  all_goals (try rfl)

/-- Operations 299 to 301 of the line. -/
abbrev pc3_5 : List (HloOp τ sig (Elt F)) :=
  [ TRef.binary (TRef.of (T := ⟨S8x1x128, .i32⟩) main_call22_v0) (TRef.of (T := ⟨S8x127x128, .i32⟩) main_call22_v1) (TRef.of (T := ⟨S8x128x128, .i32⟩) main_call22_v2) (fun a b => concatenate S8x128x128 1 [⟨S8x1x128, a⟩, ⟨S8x127x128, b⟩] concatenates_S8x1x128_S8x127x128_S8x128x128_d1),
    TRef.unary (TRef.of (T := ⟨S8x128x128, .i32⟩) main_call22_v2) (TRef.of (T := ⟨S8x128x1, .i32⟩) main_call22_v3) (extractStridedSlice S8x128x1 ![0, 0, 127] · slices_S8x128x128_S8x128x1_0_0_127),
    TRef.unary (TRef.of (T := ⟨S8x128x128, .i32⟩) main_call22_v2) (TRef.of (T := ⟨S8x128x127, .i32⟩) main_call22_v4) (extractStridedSlice S8x128x127 ![0, 0, 0] · slices_S8x128x128_S8x128x127_0_0_0) ]

set_option maxRecDepth 8192 in
set_option maxHeartbeats 100000000 in
theorem piece3_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v150 : U (Proc.devRef .tc main_v150) = val_main_v150 (F := F) x0 x1 x2)
    (i_main_v151 : U (Proc.devRef .tc main_v151) = val_main_v151 (F := F) x0)
    (i_main_v152 : U (Proc.devRef .tc main_v152) = val_main_v152 (F := F) x0)
    (i_main_call22_v0 : U (Proc.devRef .tc main_call22_v0) = val_main_call22_v0 (F := F) x1)
    (i_main_call22_v1 : U (Proc.devRef .tc main_call22_v1) = val_main_call22_v1 (F := F) x1) :
    (after (pc3_5 (F := F)) U (Proc.devRef .tc main_arg0) = x0
      ∧ after (pc3_5 (F := F)) U (Proc.devRef .tc main_arg1) = x1
      ∧ after (pc3_5 (F := F)) U (Proc.devRef .tc main_arg2) = x2)
    ∧ after (pc3_5 (F := F)) U (Proc.devRef .tc main_v20) = val_main_v20 (F := F) x1 x2
    ∧ after (pc3_5 (F := F)) U (Proc.devRef .tc main_v23) = val_main_v23 (F := F) x1 x2
    ∧ after (pc3_5 (F := F)) U (Proc.devRef .tc main_v28) = val_main_v28 (F := F) x0
    ∧ after (pc3_5 (F := F)) U (Proc.devRef .tc main_v29) = val_main_v29 (F := F) x1 x2
    ∧ after (pc3_5 (F := F)) U (Proc.devRef .tc main_v150) = val_main_v150 (F := F) x0 x1 x2
    ∧ after (pc3_5 (F := F)) U (Proc.devRef .tc main_v151) = val_main_v151 (F := F) x0
    ∧ after (pc3_5 (F := F)) U (Proc.devRef .tc main_v152) = val_main_v152 (F := F) x0
    ∧ after (pc3_5 (F := F)) U (Proc.devRef .tc main_call22_v3) = val_main_call22_v3 (F := F) x1
    ∧ after (pc3_5 (F := F)) U (Proc.devRef .tc main_call22_v4) = val_main_call22_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v150, i_main_v151, i_main_v152, i_main_call22_v0, i_main_call22_v1])
  all_goals (try rw [i_main_v20])
  all_goals (try rw [i_main_v23])
  all_goals (try rw [i_main_v28])
  all_goals (try rw [i_main_v29])
  all_goals (try rw [i_main_v150])
  all_goals (try rw [i_main_v151])
  all_goals (try rw [i_main_v152])
  all_goals (try rw [i_main_call22_v0])
  all_goals (try rw [i_main_call22_v1])
  all_goals (try rfl)

/-- Operations 302 to 325 of the line. -/
abbrev pc3_6 : List (HloOp τ sig (Elt F)) :=
  [ TRef.binary (TRef.of (T := ⟨S8x128x1, .i32⟩) main_call22_v3) (TRef.of (T := ⟨S8x128x127, .i32⟩) main_call22_v4) (TRef.of (T := ⟨S8x128x128, .i32⟩) main_v153) (fun a b => concatenate S8x128x128 2 [⟨S8x128x1, a⟩, ⟨S8x128x127, b⟩] concatenates_S8x128x1_S8x128x127_S8x128x128_d2),
    binary main_arg0 main_v151 main_v154 (mulf : (⟨S8x256x128x128, .f32⟩ : BufTy).Contents (Elt F) → (⟨S8x256x128x128, .f32⟩ : BufTy).Contents (Elt F) → (⟨S8x256x128x128, .f32⟩ : BufTy).Contents (Elt F)),
    nullary main_cst_37 (constant S_ .f32 0x00000000#32),
    binary main_v154 main_cst_37 main_v155 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v152 main_v156 (mulf : (⟨S8x128x128, .f32⟩ : BufTy).Contents (Elt F) → (⟨S8x128x128, .f32⟩ : BufTy).Contents (Elt F) → (⟨S8x128x128, .f32⟩ : BufTy).Contents (Elt F)),
    binary main_v155 main_v156 main_v157 (Host.divf : (⟨S8x128x128, .f32⟩ : BufTy).Contents (Elt F) → (⟨S8x128x128, .f32⟩ : BufTy).Contents (Elt F) → (⟨S8x128x128, .f32⟩ : BufTy).Contents (Elt F)),
    binary main_arg1 main_v153 main_v158 (cmpi .eq : (⟨S8x128x128, .i32⟩ : BufTy).Contents (Elt F) → (⟨S8x128x128, .i32⟩ : BufTy).Contents (Elt F) → (⟨S8x128x128, .i1⟩ : BufTy).Contents (Elt F)),
    nullary main_c_38 (constantI S_ 32 2#32),
    unary main_c_38 main_v159 (broadcastInDim S8x128x128 ![] bcast_S_S8x128x128 : (⟨S_, .i32⟩ : BufTy).Contents (Elt F) → (⟨S8x128x128, .i32⟩ : BufTy).Contents (Elt F)),
    binary main_arg1 main_v159 main_v160 (cmpi .slt : (⟨S8x128x128, .i32⟩ : BufTy).Contents (Elt F) → (⟨S8x128x128, .i32⟩ : BufTy).Contents (Elt F) → (⟨S8x128x128, .i1⟩ : BufTy).Contents (Elt F)),
    binary main_v158 main_v160 main_v161 (andi : (⟨S8x128x128, .i1⟩ : BufTy).Contents (Elt F) → (⟨S8x128x128, .i1⟩ : BufTy).Contents (Elt F) → (⟨S8x128x128, .i1⟩ : BufTy).Contents (Elt F)),
    unary main_v161 main_v162 (uitofp .f32 : (⟨S8x128x128, .i1⟩ : BufTy).Contents (Elt F) → (⟨S8x128x128, .f32⟩ : BufTy).Contents (Elt F)),
    binary main_v157 main_v162 main_v163 (subf : (⟨S8x128x128, .f32⟩ : BufTy).Contents (Elt F) → (⟨S8x128x128, .f32⟩ : BufTy).Contents (Elt F) → (⟨S8x128x128, .f32⟩ : BufTy).Contents (Elt F)),
    binary main_v163 main_v163 main_v164 (mulf : (⟨S8x128x128, .f32⟩ : BufTy).Contents (Elt F) → (⟨S8x128x128, .f32⟩ : BufTy).Contents (Elt F) → (⟨S8x128x128, .f32⟩ : BufTy).Contents (Elt F)),
    binary main_v164 main_v29 main_v165 (mulf : (⟨S8x128x128, .f32⟩ : BufTy).Contents (Elt F) → (⟨S8x128x128, .f32⟩ : BufTy).Contents (Elt F) → (⟨S8x128x128, .f32⟩ : BufTy).Contents (Elt F)),
    nullary main_cst_39 (constant S_ .f32 0x00000000#32),
    binary main_v165 main_cst_39 main_v166 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_40 (constant S_ .f32 0x3F800000#32),
    unary main_cst_40 main_v167 (broadcastInDim S8 ![] bcast_S_S8 : (⟨S_, .f32⟩ : BufTy).Contents (Elt F) → (⟨S8, .f32⟩ : BufTy).Contents (Elt F)),
    binary main_v23 main_v167 main_v168 (maximumf : (⟨S8, .f32⟩ : BufTy).Contents (Elt F) → (⟨S8, .f32⟩ : BufTy).Contents (Elt F) → (⟨S8, .f32⟩ : BufTy).Contents (Elt F)),
    binary main_v166 main_v168 main_v169 (Host.divf : (⟨S8, .f32⟩ : BufTy).Contents (Elt F) → (⟨S8, .f32⟩ : BufTy).Contents (Elt F) → (⟨S8, .f32⟩ : BufTy).Contents (Elt F)),
    binary main_v150 main_v169 main_v170 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call23_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call23_v1) (extractStridedSlice S8x256x127x128 ![0, 0, 0, 0] · slices_S8x256x128x128_S8x256x127x128_0_0_0_0) ]

set_option maxRecDepth 8192 in
set_option maxHeartbeats 100000000 in
theorem piece3_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v150 : U (Proc.devRef .tc main_v150) = val_main_v150 (F := F) x0 x1 x2)
    (i_main_v151 : U (Proc.devRef .tc main_v151) = val_main_v151 (F := F) x0)
    (i_main_v152 : U (Proc.devRef .tc main_v152) = val_main_v152 (F := F) x0)
    (i_main_call22_v3 : U (Proc.devRef .tc main_call22_v3) = val_main_call22_v3 (F := F) x1)
    (i_main_call22_v4 : U (Proc.devRef .tc main_call22_v4) = val_main_call22_v4 (F := F) x1) :
    (after (pc3_6 (F := F)) U (Proc.devRef .tc main_arg0) = x0
      ∧ after (pc3_6 (F := F)) U (Proc.devRef .tc main_arg1) = x1
      ∧ after (pc3_6 (F := F)) U (Proc.devRef .tc main_arg2) = x2)
    ∧ after (pc3_6 (F := F)) U (Proc.devRef .tc main_v20) = val_main_v20 (F := F) x1 x2
    ∧ after (pc3_6 (F := F)) U (Proc.devRef .tc main_v23) = val_main_v23 (F := F) x1 x2
    ∧ after (pc3_6 (F := F)) U (Proc.devRef .tc main_v28) = val_main_v28 (F := F) x0
    ∧ after (pc3_6 (F := F)) U (Proc.devRef .tc main_v29) = val_main_v29 (F := F) x1 x2
    ∧ after (pc3_6 (F := F)) U (Proc.devRef .tc main_v170) = val_main_v170 (F := F) x0 x1 x2
    ∧ after (pc3_6 (F := F)) U (Proc.devRef .tc main_call23_v0) = val_main_call23_v0 (F := F) x0
    ∧ after (pc3_6 (F := F)) U (Proc.devRef .tc main_call23_v1) = val_main_call23_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v150, i_main_v151, i_main_v152, i_main_call22_v3, i_main_call22_v4])
  all_goals (try rw [i_main_v20])
  all_goals (try rw [i_main_v23])
  all_goals (try rw [i_main_v28])
  all_goals (try rw [i_main_v29])
  all_goals (try rw [i_main_v150])
  all_goals (try rw [i_main_v151])
  all_goals (try rw [i_main_v152])
  all_goals (try rw [i_main_call22_v3])
  all_goals (try rw [i_main_call22_v4])
  all_goals (try rfl)

/-- Operations 326 to 328 of the line. -/
abbrev pc3_7 : List (HloOp τ sig (Elt F)) :=
  [ TRef.binary (TRef.of (T := ⟨S8x256x1x128, .f32⟩) main_call23_v0) (TRef.of (T := ⟨S8x256x127x128, .f32⟩) main_call23_v1) (TRef.of (T := ⟨S8x256x128x128, .f32⟩) main_call23_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call23_v2) (TRef.of (T := ⟨S8x256x128x128, .f32⟩) main_call23_v3) (extractStridedSlice S8x256x128x128 ![0, 0, 0, 0] · slices_S8x256x128x128_S8x256x128x128_0_0_0_0),
    TRef.unary (TRef.of (T := ⟨S8x256x128x128, .f32⟩) main_call23_v2) (TRef.of (T := ⟨S8x256x128x0, .f32⟩) main_call23_v4) (extractStridedSlice S8x256x128x0 ![0, 0, 0, 0] · slices_S8x256x128x128_S8x256x128x0_0_0_0_0) ]

set_option maxRecDepth 8192 in
set_option maxHeartbeats 100000000 in
theorem piece3_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v170 : U (Proc.devRef .tc main_v170) = val_main_v170 (F := F) x0 x1 x2)
    (i_main_call23_v0 : U (Proc.devRef .tc main_call23_v0) = val_main_call23_v0 (F := F) x0)
    (i_main_call23_v1 : U (Proc.devRef .tc main_call23_v1) = val_main_call23_v1 (F := F) x0) :
    (after (pc3_7 (F := F)) U (Proc.devRef .tc main_arg0) = x0
      ∧ after (pc3_7 (F := F)) U (Proc.devRef .tc main_arg1) = x1
      ∧ after (pc3_7 (F := F)) U (Proc.devRef .tc main_arg2) = x2)
    ∧ after (pc3_7 (F := F)) U (Proc.devRef .tc main_v20) = val_main_v20 (F := F) x1 x2
    ∧ after (pc3_7 (F := F)) U (Proc.devRef .tc main_v23) = val_main_v23 (F := F) x1 x2
    ∧ after (pc3_7 (F := F)) U (Proc.devRef .tc main_v28) = val_main_v28 (F := F) x0
    ∧ after (pc3_7 (F := F)) U (Proc.devRef .tc main_v29) = val_main_v29 (F := F) x1 x2
    ∧ after (pc3_7 (F := F)) U (Proc.devRef .tc main_v170) = val_main_v170 (F := F) x0 x1 x2
    ∧ after (pc3_7 (F := F)) U (Proc.devRef .tc main_call23_v3) = val_main_call23_v3 (F := F) x0
    ∧ after (pc3_7 (F := F)) U (Proc.devRef .tc main_call23_v4) = val_main_call23_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v170, i_main_call23_v0, i_main_call23_v1])
  all_goals (try rw [i_main_v20])
  all_goals (try rw [i_main_v23])
  all_goals (try rw [i_main_v28])
  all_goals (try rw [i_main_v29])
  all_goals (try rw [i_main_v170])
  all_goals (try rw [i_main_call23_v0])
  all_goals (try rw [i_main_call23_v1])
  all_goals (try rfl)

/-- Operations 329 to 331 of the line. -/
abbrev pc3_8 : List (HloOp τ sig (Elt F)) :=
  [ TRef.binary (TRef.of (T := ⟨S8x256x128x128, .f32⟩) main_call23_v3) (TRef.of (T := ⟨S8x256x128x0, .f32⟩) main_call23_v4) (TRef.of (T := ⟨S8x256x128x128, .f32⟩) main_v171) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x1x128, .f32⟩) main_call24_v0) (extractStridedSlice S8x1x128 ![0, 127, 0] · slices_S8x128x128_S8x1x128_0_127_0),
    TRef.unary (TRef.of (T := ⟨S8x128x128, .f32⟩) main_v28) (TRef.of (T := ⟨S8x127x128, .f32⟩) main_call24_v1) (extractStridedSlice S8x127x128 ![0, 0, 0] · slices_S8x128x128_S8x127x128_0_0_0) ]

set_option maxRecDepth 8192 in
set_option maxHeartbeats 100000000 in
theorem piece3_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v170 : U (Proc.devRef .tc main_v170) = val_main_v170 (F := F) x0 x1 x2)
    (i_main_call23_v3 : U (Proc.devRef .tc main_call23_v3) = val_main_call23_v3 (F := F) x0)
    (i_main_call23_v4 : U (Proc.devRef .tc main_call23_v4) = val_main_call23_v4 (F := F) x0) :
    (after (pc3_8 (F := F)) U (Proc.devRef .tc main_arg0) = x0
      ∧ after (pc3_8 (F := F)) U (Proc.devRef .tc main_arg1) = x1
      ∧ after (pc3_8 (F := F)) U (Proc.devRef .tc main_arg2) = x2)
    ∧ after (pc3_8 (F := F)) U (Proc.devRef .tc main_v20) = val_main_v20 (F := F) x1 x2
    ∧ after (pc3_8 (F := F)) U (Proc.devRef .tc main_v23) = val_main_v23 (F := F) x1 x2
    ∧ after (pc3_8 (F := F)) U (Proc.devRef .tc main_v28) = val_main_v28 (F := F) x0
    ∧ after (pc3_8 (F := F)) U (Proc.devRef .tc main_v29) = val_main_v29 (F := F) x1 x2
    ∧ after (pc3_8 (F := F)) U (Proc.devRef .tc main_v170) = val_main_v170 (F := F) x0 x1 x2
    ∧ after (pc3_8 (F := F)) U (Proc.devRef .tc main_v171) = val_main_v171 (F := F) x0
    ∧ after (pc3_8 (F := F)) U (Proc.devRef .tc main_call24_v0) = val_main_call24_v0 (F := F) x0
    ∧ after (pc3_8 (F := F)) U (Proc.devRef .tc main_call24_v1) = val_main_call24_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v170, i_main_call23_v3, i_main_call23_v4])
  all_goals (try rw [i_main_v20])
  all_goals (try rw [i_main_v23])
  all_goals (try rw [i_main_v28])
  all_goals (try rw [i_main_v29])
  all_goals (try rw [i_main_v170])
  all_goals (try rw [i_main_call23_v3])
  all_goals (try rw [i_main_call23_v4])
  all_goals (try rfl)

/-- Operations 332 to 334 of the line. -/
abbrev pc3_9 : List (HloOp τ sig (Elt F)) :=
  [ TRef.binary (TRef.of (T := ⟨S8x1x128, .f32⟩) main_call24_v0) (TRef.of (T := ⟨S8x127x128, .f32⟩) main_call24_v1) (TRef.of (T := ⟨S8x128x128, .f32⟩) main_call24_v2) (fun a b => concatenate S8x128x128 1 [⟨S8x1x128, a⟩, ⟨S8x127x128, b⟩] concatenates_S8x1x128_S8x127x128_S8x128x128_d1),
    TRef.unary (TRef.of (T := ⟨S8x128x128, .f32⟩) main_call24_v2) (TRef.of (T := ⟨S8x128x128, .f32⟩) main_call24_v3) (extractStridedSlice S8x128x128 ![0, 0, 0] · slices_S8x128x128_S8x128x128_0_0_0),
    TRef.unary (TRef.of (T := ⟨S8x128x128, .f32⟩) main_call24_v2) (TRef.of (T := ⟨S8x128x0, .f32⟩) main_call24_v4) (extractStridedSlice S8x128x0 ![0, 0, 0] · slices_S8x128x128_S8x128x0_0_0_0) ]

set_option maxRecDepth 8192 in
set_option maxHeartbeats 100000000 in
theorem piece3_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v170 : U (Proc.devRef .tc main_v170) = val_main_v170 (F := F) x0 x1 x2)
    (i_main_v171 : U (Proc.devRef .tc main_v171) = val_main_v171 (F := F) x0)
    (i_main_call24_v0 : U (Proc.devRef .tc main_call24_v0) = val_main_call24_v0 (F := F) x0)
    (i_main_call24_v1 : U (Proc.devRef .tc main_call24_v1) = val_main_call24_v1 (F := F) x0) :
    (after (pc3_9 (F := F)) U (Proc.devRef .tc main_arg0) = x0
      ∧ after (pc3_9 (F := F)) U (Proc.devRef .tc main_arg1) = x1
      ∧ after (pc3_9 (F := F)) U (Proc.devRef .tc main_arg2) = x2)
    ∧ after (pc3_9 (F := F)) U (Proc.devRef .tc main_v20) = val_main_v20 (F := F) x1 x2
    ∧ after (pc3_9 (F := F)) U (Proc.devRef .tc main_v23) = val_main_v23 (F := F) x1 x2
    ∧ after (pc3_9 (F := F)) U (Proc.devRef .tc main_v28) = val_main_v28 (F := F) x0
    ∧ after (pc3_9 (F := F)) U (Proc.devRef .tc main_v29) = val_main_v29 (F := F) x1 x2
    ∧ after (pc3_9 (F := F)) U (Proc.devRef .tc main_v170) = val_main_v170 (F := F) x0 x1 x2
    ∧ after (pc3_9 (F := F)) U (Proc.devRef .tc main_v171) = val_main_v171 (F := F) x0
    ∧ after (pc3_9 (F := F)) U (Proc.devRef .tc main_call24_v3) = val_main_call24_v3 (F := F) x0
    ∧ after (pc3_9 (F := F)) U (Proc.devRef .tc main_call24_v4) = val_main_call24_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v170, i_main_v171, i_main_call24_v0, i_main_call24_v1])
  all_goals (try rw [i_main_v20])
  all_goals (try rw [i_main_v23])
  all_goals (try rw [i_main_v28])
  all_goals (try rw [i_main_v29])
  all_goals (try rw [i_main_v170])
  all_goals (try rw [i_main_v171])
  all_goals (try rw [i_main_call24_v0])
  all_goals (try rw [i_main_call24_v1])
  all_goals (try rfl)

/-- Operations 335 to 337 of the line. -/
abbrev pc3_10 : List (HloOp τ sig (Elt F)) :=
  [ TRef.binary (TRef.of (T := ⟨S8x128x128, .f32⟩) main_call24_v3) (TRef.of (T := ⟨S8x128x0, .f32⟩) main_call24_v4) (TRef.of (T := ⟨S8x128x128, .f32⟩) main_v172) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x1x128, .i32⟩) main_call25_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call25_v1) (extractStridedSlice S8x127x128 ![0, 0, 0] · slices_S8x128x128_S8x127x128_0_0_0) ]

set_option maxRecDepth 8192 in
set_option maxHeartbeats 100000000 in
theorem piece3_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v170 : U (Proc.devRef .tc main_v170) = val_main_v170 (F := F) x0 x1 x2)
    (i_main_v171 : U (Proc.devRef .tc main_v171) = val_main_v171 (F := F) x0)
    (i_main_call24_v3 : U (Proc.devRef .tc main_call24_v3) = val_main_call24_v3 (F := F) x0)
    (i_main_call24_v4 : U (Proc.devRef .tc main_call24_v4) = val_main_call24_v4 (F := F) x0) :
    (after (pc3_10 (F := F)) U (Proc.devRef .tc main_arg0) = x0
      ∧ after (pc3_10 (F := F)) U (Proc.devRef .tc main_arg1) = x1
      ∧ after (pc3_10 (F := F)) U (Proc.devRef .tc main_arg2) = x2)
    ∧ after (pc3_10 (F := F)) U (Proc.devRef .tc main_v20) = val_main_v20 (F := F) x1 x2
    ∧ after (pc3_10 (F := F)) U (Proc.devRef .tc main_v23) = val_main_v23 (F := F) x1 x2
    ∧ after (pc3_10 (F := F)) U (Proc.devRef .tc main_v28) = val_main_v28 (F := F) x0
    ∧ after (pc3_10 (F := F)) U (Proc.devRef .tc main_v29) = val_main_v29 (F := F) x1 x2
    ∧ after (pc3_10 (F := F)) U (Proc.devRef .tc main_v170) = val_main_v170 (F := F) x0 x1 x2
    ∧ after (pc3_10 (F := F)) U (Proc.devRef .tc main_v171) = val_main_v171 (F := F) x0
    ∧ after (pc3_10 (F := F)) U (Proc.devRef .tc main_v172) = val_main_v172 (F := F) x0
    ∧ after (pc3_10 (F := F)) U (Proc.devRef .tc main_call25_v0) = val_main_call25_v0 (F := F) x1
    ∧ after (pc3_10 (F := F)) U (Proc.devRef .tc main_call25_v1) = val_main_call25_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v170, i_main_v171, i_main_call24_v3, i_main_call24_v4])
  all_goals (try rw [i_main_v20])
  all_goals (try rw [i_main_v23])
  all_goals (try rw [i_main_v28])
  all_goals (try rw [i_main_v29])
  all_goals (try rw [i_main_v170])
  all_goals (try rw [i_main_v171])
  all_goals (try rw [i_main_call24_v3])
  all_goals (try rw [i_main_call24_v4])
  all_goals (try rfl)

/-- Operations 338 to 340 of the line. -/
abbrev pc3_11 : List (HloOp τ sig (Elt F)) :=
  [ TRef.binary (TRef.of (T := ⟨S8x1x128, .i32⟩) main_call25_v0) (TRef.of (T := ⟨S8x127x128, .i32⟩) main_call25_v1) (TRef.of (T := ⟨S8x128x128, .i32⟩) main_call25_v2) (fun a b => concatenate S8x128x128 1 [⟨S8x1x128, a⟩, ⟨S8x127x128, b⟩] concatenates_S8x1x128_S8x127x128_S8x128x128_d1),
    TRef.unary (TRef.of (T := ⟨S8x128x128, .i32⟩) main_call25_v2) (TRef.of (T := ⟨S8x128x128, .i32⟩) main_call25_v3) (extractStridedSlice S8x128x128 ![0, 0, 0] · slices_S8x128x128_S8x128x128_0_0_0),
    TRef.unary (TRef.of (T := ⟨S8x128x128, .i32⟩) main_call25_v2) (TRef.of (T := ⟨S8x128x0, .i32⟩) main_call25_v4) (extractStridedSlice S8x128x0 ![0, 0, 0] · slices_S8x128x128_S8x128x0_0_0_0) ]

set_option maxRecDepth 8192 in
set_option maxHeartbeats 100000000 in
theorem piece3_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v170 : U (Proc.devRef .tc main_v170) = val_main_v170 (F := F) x0 x1 x2)
    (i_main_v171 : U (Proc.devRef .tc main_v171) = val_main_v171 (F := F) x0)
    (i_main_v172 : U (Proc.devRef .tc main_v172) = val_main_v172 (F := F) x0)
    (i_main_call25_v0 : U (Proc.devRef .tc main_call25_v0) = val_main_call25_v0 (F := F) x1)
    (i_main_call25_v1 : U (Proc.devRef .tc main_call25_v1) = val_main_call25_v1 (F := F) x1) :
    (after (pc3_11 (F := F)) U (Proc.devRef .tc main_arg0) = x0
      ∧ after (pc3_11 (F := F)) U (Proc.devRef .tc main_arg1) = x1
      ∧ after (pc3_11 (F := F)) U (Proc.devRef .tc main_arg2) = x2)
    ∧ after (pc3_11 (F := F)) U (Proc.devRef .tc main_v20) = val_main_v20 (F := F) x1 x2
    ∧ after (pc3_11 (F := F)) U (Proc.devRef .tc main_v23) = val_main_v23 (F := F) x1 x2
    ∧ after (pc3_11 (F := F)) U (Proc.devRef .tc main_v28) = val_main_v28 (F := F) x0
    ∧ after (pc3_11 (F := F)) U (Proc.devRef .tc main_v29) = val_main_v29 (F := F) x1 x2
    ∧ after (pc3_11 (F := F)) U (Proc.devRef .tc main_v170) = val_main_v170 (F := F) x0 x1 x2
    ∧ after (pc3_11 (F := F)) U (Proc.devRef .tc main_v171) = val_main_v171 (F := F) x0
    ∧ after (pc3_11 (F := F)) U (Proc.devRef .tc main_v172) = val_main_v172 (F := F) x0
    ∧ after (pc3_11 (F := F)) U (Proc.devRef .tc main_call25_v3) = val_main_call25_v3 (F := F) x1
    ∧ after (pc3_11 (F := F)) U (Proc.devRef .tc main_call25_v4) = val_main_call25_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v170, i_main_v171, i_main_v172, i_main_call25_v0, i_main_call25_v1])
  all_goals (try rw [i_main_v20])
  all_goals (try rw [i_main_v23])
  all_goals (try rw [i_main_v28])
  all_goals (try rw [i_main_v29])
  all_goals (try rw [i_main_v170])
  all_goals (try rw [i_main_v171])
  all_goals (try rw [i_main_v172])
  all_goals (try rw [i_main_call25_v0])
  all_goals (try rw [i_main_call25_v1])
  all_goals (try rfl)

/-- Operations 341 to 364 of the line. -/
abbrev pc3_12 : List (HloOp τ sig (Elt F)) :=
  [ TRef.binary (TRef.of (T := ⟨S8x128x128, .i32⟩) main_call25_v3) (TRef.of (T := ⟨S8x128x0, .i32⟩) main_call25_v4) (TRef.of (T := ⟨S8x128x128, .i32⟩) main_v173) (fun a b => concatenate S8x128x128 2 [⟨S8x128x128, a⟩, ⟨S8x128x0, b⟩] concatenates_S8x128x128_S8x128x0_S8x128x128_d2),
    binary main_arg0 main_v171 main_v174 (mulf : (⟨S8x256x128x128, .f32⟩ : BufTy).Contents (Elt F) → (⟨S8x256x128x128, .f32⟩ : BufTy).Contents (Elt F) → (⟨S8x256x128x128, .f32⟩ : BufTy).Contents (Elt F)),
    nullary main_cst_41 (constant S_ .f32 0x00000000#32),
    binary main_v174 main_cst_41 main_v175 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v172 main_v176 (mulf : (⟨S8x128x128, .f32⟩ : BufTy).Contents (Elt F) → (⟨S8x128x128, .f32⟩ : BufTy).Contents (Elt F) → (⟨S8x128x128, .f32⟩ : BufTy).Contents (Elt F)),
    binary main_v175 main_v176 main_v177 (Host.divf : (⟨S8x128x128, .f32⟩ : BufTy).Contents (Elt F) → (⟨S8x128x128, .f32⟩ : BufTy).Contents (Elt F) → (⟨S8x128x128, .f32⟩ : BufTy).Contents (Elt F)),
    binary main_arg1 main_v173 main_v178 (cmpi .eq : (⟨S8x128x128, .i32⟩ : BufTy).Contents (Elt F) → (⟨S8x128x128, .i32⟩ : BufTy).Contents (Elt F) → (⟨S8x128x128, .i1⟩ : BufTy).Contents (Elt F)),
    nullary main_c_42 (constantI S_ 32 2#32),
    unary main_c_42 main_v179 (broadcastInDim S8x128x128 ![] bcast_S_S8x128x128 : (⟨S_, .i32⟩ : BufTy).Contents (Elt F) → (⟨S8x128x128, .i32⟩ : BufTy).Contents (Elt F)),
    binary main_arg1 main_v179 main_v180 (cmpi .slt : (⟨S8x128x128, .i32⟩ : BufTy).Contents (Elt F) → (⟨S8x128x128, .i32⟩ : BufTy).Contents (Elt F) → (⟨S8x128x128, .i1⟩ : BufTy).Contents (Elt F)),
    binary main_v178 main_v180 main_v181 (andi : (⟨S8x128x128, .i1⟩ : BufTy).Contents (Elt F) → (⟨S8x128x128, .i1⟩ : BufTy).Contents (Elt F) → (⟨S8x128x128, .i1⟩ : BufTy).Contents (Elt F)),
    unary main_v181 main_v182 (uitofp .f32 : (⟨S8x128x128, .i1⟩ : BufTy).Contents (Elt F) → (⟨S8x128x128, .f32⟩ : BufTy).Contents (Elt F)),
    binary main_v177 main_v182 main_v183 (subf : (⟨S8x128x128, .f32⟩ : BufTy).Contents (Elt F) → (⟨S8x128x128, .f32⟩ : BufTy).Contents (Elt F) → (⟨S8x128x128, .f32⟩ : BufTy).Contents (Elt F)),
    binary main_v183 main_v183 main_v184 (mulf : (⟨S8x128x128, .f32⟩ : BufTy).Contents (Elt F) → (⟨S8x128x128, .f32⟩ : BufTy).Contents (Elt F) → (⟨S8x128x128, .f32⟩ : BufTy).Contents (Elt F)),
    binary main_v184 main_v29 main_v185 (mulf : (⟨S8x128x128, .f32⟩ : BufTy).Contents (Elt F) → (⟨S8x128x128, .f32⟩ : BufTy).Contents (Elt F) → (⟨S8x128x128, .f32⟩ : BufTy).Contents (Elt F)),
    nullary main_cst_43 (constant S_ .f32 0x00000000#32),
    binary main_v185 main_cst_43 main_v186 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_44 (constant S_ .f32 0x3F800000#32),
    unary main_cst_44 main_v187 (broadcastInDim S8 ![] bcast_S_S8 : (⟨S_, .f32⟩ : BufTy).Contents (Elt F) → (⟨S8, .f32⟩ : BufTy).Contents (Elt F)),
    binary main_v23 main_v187 main_v188 (maximumf : (⟨S8, .f32⟩ : BufTy).Contents (Elt F) → (⟨S8, .f32⟩ : BufTy).Contents (Elt F) → (⟨S8, .f32⟩ : BufTy).Contents (Elt F)),
    binary main_v186 main_v188 main_v189 (Host.divf : (⟨S8, .f32⟩ : BufTy).Contents (Elt F) → (⟨S8, .f32⟩ : BufTy).Contents (Elt F) → (⟨S8, .f32⟩ : BufTy).Contents (Elt F)),
    binary main_v170 main_v189 main_v190 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call26_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call26_v1) (extractStridedSlice S8x256x127x128 ![0, 0, 0, 0] · slices_S8x256x128x128_S8x256x127x128_0_0_0_0) ]

set_option maxRecDepth 8192 in
set_option maxHeartbeats 100000000 in
theorem piece3_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v170 : U (Proc.devRef .tc main_v170) = val_main_v170 (F := F) x0 x1 x2)
    (i_main_v171 : U (Proc.devRef .tc main_v171) = val_main_v171 (F := F) x0)
    (i_main_v172 : U (Proc.devRef .tc main_v172) = val_main_v172 (F := F) x0)
    (i_main_call25_v3 : U (Proc.devRef .tc main_call25_v3) = val_main_call25_v3 (F := F) x1)
    (i_main_call25_v4 : U (Proc.devRef .tc main_call25_v4) = val_main_call25_v4 (F := F) x1) :
    (after (pc3_12 (F := F)) U (Proc.devRef .tc main_arg0) = x0
      ∧ after (pc3_12 (F := F)) U (Proc.devRef .tc main_arg1) = x1
      ∧ after (pc3_12 (F := F)) U (Proc.devRef .tc main_arg2) = x2)
    ∧ after (pc3_12 (F := F)) U (Proc.devRef .tc main_v20) = val_main_v20 (F := F) x1 x2
    ∧ after (pc3_12 (F := F)) U (Proc.devRef .tc main_v23) = val_main_v23 (F := F) x1 x2
    ∧ after (pc3_12 (F := F)) U (Proc.devRef .tc main_v28) = val_main_v28 (F := F) x0
    ∧ after (pc3_12 (F := F)) U (Proc.devRef .tc main_v29) = val_main_v29 (F := F) x1 x2
    ∧ after (pc3_12 (F := F)) U (Proc.devRef .tc main_v190) = val_main_v190 (F := F) x0 x1 x2
    ∧ after (pc3_12 (F := F)) U (Proc.devRef .tc main_call26_v0) = val_main_call26_v0 (F := F) x0
    ∧ after (pc3_12 (F := F)) U (Proc.devRef .tc main_call26_v1) = val_main_call26_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v170, i_main_v171, i_main_v172, i_main_call25_v3, i_main_call25_v4])
  all_goals (try rw [i_main_v20])
  all_goals (try rw [i_main_v23])
  all_goals (try rw [i_main_v28])
  all_goals (try rw [i_main_v29])
  all_goals (try rw [i_main_v170])
  all_goals (try rw [i_main_v171])
  all_goals (try rw [i_main_v172])
  all_goals (try rw [i_main_call25_v3])
  all_goals (try rw [i_main_call25_v4])
  all_goals (try rfl)

/-- Operations 365 to 367 of the line. -/
abbrev pc3_13 : List (HloOp τ sig (Elt F)) :=
  [ TRef.binary (TRef.of (T := ⟨S8x256x1x128, .f32⟩) main_call26_v0) (TRef.of (T := ⟨S8x256x127x128, .f32⟩) main_call26_v1) (TRef.of (T := ⟨S8x256x128x128, .f32⟩) main_call26_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call26_v2) (TRef.of (T := ⟨S8x256x128x127, .f32⟩) main_call26_v3) (extractStridedSlice S8x256x128x127 ![0, 0, 0, 1] · slices_S8x256x128x128_S8x256x128x127_0_0_0_1),
    TRef.unary (TRef.of (T := ⟨S8x256x128x128, .f32⟩) main_call26_v2) (TRef.of (T := ⟨S8x256x128x1, .f32⟩) main_call26_v4) (extractStridedSlice S8x256x128x1 ![0, 0, 0, 0] · slices_S8x256x128x128_S8x256x128x1_0_0_0_0) ]

set_option maxRecDepth 8192 in
set_option maxHeartbeats 100000000 in
theorem piece3_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_call26_v0 : U (Proc.devRef .tc main_call26_v0) = val_main_call26_v0 (F := F) x0)
    (i_main_call26_v1 : U (Proc.devRef .tc main_call26_v1) = val_main_call26_v1 (F := F) x0) :
    (after (pc3_13 (F := F)) U (Proc.devRef .tc main_arg0) = x0
      ∧ after (pc3_13 (F := F)) U (Proc.devRef .tc main_arg1) = x1
      ∧ after (pc3_13 (F := F)) U (Proc.devRef .tc main_arg2) = x2)
    ∧ after (pc3_13 (F := F)) U (Proc.devRef .tc main_v20) = val_main_v20 (F := F) x1 x2
    ∧ after (pc3_13 (F := F)) U (Proc.devRef .tc main_v23) = val_main_v23 (F := F) x1 x2
    ∧ after (pc3_13 (F := F)) U (Proc.devRef .tc main_v28) = val_main_v28 (F := F) x0
    ∧ after (pc3_13 (F := F)) U (Proc.devRef .tc main_v29) = val_main_v29 (F := F) x1 x2
    ∧ after (pc3_13 (F := F)) U (Proc.devRef .tc main_v190) = val_main_v190 (F := F) x0 x1 x2
    ∧ after (pc3_13 (F := F)) U (Proc.devRef .tc main_call26_v3) = val_main_call26_v3 (F := F) x0
    ∧ after (pc3_13 (F := F)) U (Proc.devRef .tc main_call26_v4) = val_main_call26_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v190, i_main_call26_v0, i_main_call26_v1])
  all_goals (try rw [i_main_v20])
  all_goals (try rw [i_main_v23])
  all_goals (try rw [i_main_v28])
  all_goals (try rw [i_main_v29])
  all_goals (try rw [i_main_v190])
  all_goals (try rw [i_main_call26_v0])
  all_goals (try rw [i_main_call26_v1])
  all_goals (try rfl)

/-- Operations 368 to 370 of the line. -/
abbrev pc3_14 : List (HloOp τ sig (Elt F)) :=
  [ TRef.binary (TRef.of (T := ⟨S8x256x128x127, .f32⟩) main_call26_v3) (TRef.of (T := ⟨S8x256x128x1, .f32⟩) main_call26_v4) (TRef.of (T := ⟨S8x256x128x128, .f32⟩) main_v191) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x1x128, .f32⟩) main_call27_v0) (extractStridedSlice S8x1x128 ![0, 127, 0] · slices_S8x128x128_S8x1x128_0_127_0),
    TRef.unary (TRef.of (T := ⟨S8x128x128, .f32⟩) main_v28) (TRef.of (T := ⟨S8x127x128, .f32⟩) main_call27_v1) (extractStridedSlice S8x127x128 ![0, 0, 0] · slices_S8x128x128_S8x127x128_0_0_0) ]

set_option maxRecDepth 8192 in
set_option maxHeartbeats 100000000 in
theorem piece3_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_call26_v3 : U (Proc.devRef .tc main_call26_v3) = val_main_call26_v3 (F := F) x0)
    (i_main_call26_v4 : U (Proc.devRef .tc main_call26_v4) = val_main_call26_v4 (F := F) x0) :
    (after (pc3_14 (F := F)) U (Proc.devRef .tc main_arg0) = x0
      ∧ after (pc3_14 (F := F)) U (Proc.devRef .tc main_arg1) = x1
      ∧ after (pc3_14 (F := F)) U (Proc.devRef .tc main_arg2) = x2)
    ∧ after (pc3_14 (F := F)) U (Proc.devRef .tc main_v20) = val_main_v20 (F := F) x1 x2
    ∧ after (pc3_14 (F := F)) U (Proc.devRef .tc main_v23) = val_main_v23 (F := F) x1 x2
    ∧ after (pc3_14 (F := F)) U (Proc.devRef .tc main_v28) = val_main_v28 (F := F) x0
    ∧ after (pc3_14 (F := F)) U (Proc.devRef .tc main_v29) = val_main_v29 (F := F) x1 x2
    ∧ after (pc3_14 (F := F)) U (Proc.devRef .tc main_v190) = val_main_v190 (F := F) x0 x1 x2
    ∧ after (pc3_14 (F := F)) U (Proc.devRef .tc main_v191) = val_main_v191 (F := F) x0
    ∧ after (pc3_14 (F := F)) U (Proc.devRef .tc main_call27_v0) = val_main_call27_v0 (F := F) x0
    ∧ after (pc3_14 (F := F)) U (Proc.devRef .tc main_call27_v1) = val_main_call27_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v190, i_main_call26_v3, i_main_call26_v4])
  all_goals (try rw [i_main_v20])
  all_goals (try rw [i_main_v23])
  all_goals (try rw [i_main_v28])
  all_goals (try rw [i_main_v29])
  all_goals (try rw [i_main_v190])
  all_goals (try rw [i_main_call26_v3])
  all_goals (try rw [i_main_call26_v4])
  all_goals (try rfl)

/-- Operations 371 to 373 of the line. -/
abbrev pc3_15 : List (HloOp τ sig (Elt F)) :=
  [ TRef.binary (TRef.of (T := ⟨S8x1x128, .f32⟩) main_call27_v0) (TRef.of (T := ⟨S8x127x128, .f32⟩) main_call27_v1) (TRef.of (T := ⟨S8x128x128, .f32⟩) main_call27_v2) (fun a b => concatenate S8x128x128 1 [⟨S8x1x128, a⟩, ⟨S8x127x128, b⟩] concatenates_S8x1x128_S8x127x128_S8x128x128_d1),
    TRef.unary (TRef.of (T := ⟨S8x128x128, .f32⟩) main_call27_v2) (TRef.of (T := ⟨S8x128x127, .f32⟩) main_call27_v3) (extractStridedSlice S8x128x127 ![0, 0, 1] · slices_S8x128x128_S8x128x127_0_0_1),
    TRef.unary (TRef.of (T := ⟨S8x128x128, .f32⟩) main_call27_v2) (TRef.of (T := ⟨S8x128x1, .f32⟩) main_call27_v4) (extractStridedSlice S8x128x1 ![0, 0, 0] · slices_S8x128x128_S8x128x1_0_0_0) ]

set_option maxRecDepth 8192 in
set_option maxHeartbeats 100000000 in
theorem piece3_15 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_v191 : U (Proc.devRef .tc main_v191) = val_main_v191 (F := F) x0)
    (i_main_call27_v0 : U (Proc.devRef .tc main_call27_v0) = val_main_call27_v0 (F := F) x0)
    (i_main_call27_v1 : U (Proc.devRef .tc main_call27_v1) = val_main_call27_v1 (F := F) x0) :
    (after (pc3_15 (F := F)) U (Proc.devRef .tc main_arg0) = x0
      ∧ after (pc3_15 (F := F)) U (Proc.devRef .tc main_arg1) = x1
      ∧ after (pc3_15 (F := F)) U (Proc.devRef .tc main_arg2) = x2)
    ∧ after (pc3_15 (F := F)) U (Proc.devRef .tc main_v20) = val_main_v20 (F := F) x1 x2
    ∧ after (pc3_15 (F := F)) U (Proc.devRef .tc main_v23) = val_main_v23 (F := F) x1 x2
    ∧ after (pc3_15 (F := F)) U (Proc.devRef .tc main_v28) = val_main_v28 (F := F) x0
    ∧ after (pc3_15 (F := F)) U (Proc.devRef .tc main_v29) = val_main_v29 (F := F) x1 x2
    ∧ after (pc3_15 (F := F)) U (Proc.devRef .tc main_v190) = val_main_v190 (F := F) x0 x1 x2
    ∧ after (pc3_15 (F := F)) U (Proc.devRef .tc main_v191) = val_main_v191 (F := F) x0
    ∧ after (pc3_15 (F := F)) U (Proc.devRef .tc main_call27_v3) = val_main_call27_v3 (F := F) x0
    ∧ after (pc3_15 (F := F)) U (Proc.devRef .tc main_call27_v4) = val_main_call27_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v190, i_main_v191, i_main_call27_v0, i_main_call27_v1])
  all_goals (try rw [i_main_v20])
  all_goals (try rw [i_main_v23])
  all_goals (try rw [i_main_v28])
  all_goals (try rw [i_main_v29])
  all_goals (try rw [i_main_v190])
  all_goals (try rw [i_main_v191])
  all_goals (try rw [i_main_call27_v0])
  all_goals (try rw [i_main_call27_v1])
  all_goals (try rfl)

/-- Operations 374 to 374 of the line. -/
abbrev pc3_16 : List (HloOp τ sig (Elt F)) :=
  [ TRef.binary (TRef.of (T := ⟨S8x128x127, .f32⟩) main_call27_v3) (TRef.of (T := ⟨S8x128x1, .f32⟩) main_call27_v4) (TRef.of (T := ⟨S8x128x128, .f32⟩) main_v192) (fun a b => concatenate S8x128x128 2 [⟨S8x128x127, a⟩, ⟨S8x128x1, b⟩] concatenates_S8x128x127_S8x128x1_S8x128x128_d2) ]

set_option maxRecDepth 8192 in
set_option maxHeartbeats 100000000 in
theorem piece3_16 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_v191 : U (Proc.devRef .tc main_v191) = val_main_v191 (F := F) x0)
    (i_main_call27_v3 : U (Proc.devRef .tc main_call27_v3) = val_main_call27_v3 (F := F) x0)
    (i_main_call27_v4 : U (Proc.devRef .tc main_call27_v4) = val_main_call27_v4 (F := F) x0) :
    (after (pc3_16 (F := F)) U (Proc.devRef .tc main_arg0) = x0
      ∧ after (pc3_16 (F := F)) U (Proc.devRef .tc main_arg1) = x1
      ∧ after (pc3_16 (F := F)) U (Proc.devRef .tc main_arg2) = x2)
    ∧ after (pc3_16 (F := F)) U (Proc.devRef .tc main_v20) = val_main_v20 (F := F) x1 x2
    ∧ after (pc3_16 (F := F)) U (Proc.devRef .tc main_v23) = val_main_v23 (F := F) x1 x2
    ∧ after (pc3_16 (F := F)) U (Proc.devRef .tc main_v28) = val_main_v28 (F := F) x0
    ∧ after (pc3_16 (F := F)) U (Proc.devRef .tc main_v29) = val_main_v29 (F := F) x1 x2
    ∧ after (pc3_16 (F := F)) U (Proc.devRef .tc main_v190) = val_main_v190 (F := F) x0 x1 x2
    ∧ after (pc3_16 (F := F)) U (Proc.devRef .tc main_v191) = val_main_v191 (F := F) x0
    ∧ after (pc3_16 (F := F)) U (Proc.devRef .tc main_v192) = val_main_v192 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v190, i_main_v191, i_main_call27_v3, i_main_call27_v4])
  all_goals (try rw [i_main_v20])
  all_goals (try rw [i_main_v23])
  all_goals (try rw [i_main_v28])
  all_goals (try rw [i_main_v29])
  all_goals (try rw [i_main_v190])
  all_goals (try rw [i_main_v191])
  all_goals (try rw [i_main_call27_v3])
  all_goals (try rw [i_main_call27_v4])
  all_goals (try rfl)

set_option maxRecDepth 8192 in
/-- The part's operations are its pieces laid end to end. -/
theorem ops3_split : (ops3 (F := F)) = pc3_0 ++ (pc3_1 ++ (pc3_2 ++ (pc3_3 ++ (pc3_4 ++ (pc3_5 ++ (pc3_6 ++ (pc3_7 ++ (pc3_8 ++ (pc3_9 ++ (pc3_10 ++ (pc3_11 ++ (pc3_12 ++ (pc3_13 ++ (pc3_14 ++ (pc3_15 ++ (pc3_16)))))))))))))))) := rfl

theorem chunk3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v130 : U (Proc.devRef .tc main_v130) = val_main_v130 (F := F) x0 x1 x2)
    (i_main_v137 : U (Proc.devRef .tc main_v137) = val_main_v137 (F := F) x0)
    (i_main_v142 : U (Proc.devRef .tc main_v142) = val_main_v142 (F := F) x1) :
    (after (ops3 (F := F)) U (Proc.devRef .tc main_arg0) = x0
      ∧ after (ops3 (F := F)) U (Proc.devRef .tc main_arg1) = x1
      ∧ after (ops3 (F := F)) U (Proc.devRef .tc main_arg2) = x2)
    ∧ after (ops3 (F := F)) U (Proc.devRef .tc main_v20) = val_main_v20 (F := F) x1 x2
    ∧ after (ops3 (F := F)) U (Proc.devRef .tc main_v23) = val_main_v23 (F := F) x1 x2
    ∧ after (ops3 (F := F)) U (Proc.devRef .tc main_v28) = val_main_v28 (F := F) x0
    ∧ after (ops3 (F := F)) U (Proc.devRef .tc main_v29) = val_main_v29 (F := F) x1 x2
    ∧ after (ops3 (F := F)) U (Proc.devRef .tc main_v190) = val_main_v190 (F := F) x0 x1 x2
    ∧ after (ops3 (F := F)) U (Proc.devRef .tc main_v191) = val_main_v191 (F := F) x0
    ∧ after (ops3 (F := F)) U (Proc.devRef .tc main_v192) = val_main_v192 (F := F) x0 := by
  rw [ops3_split]
  simp only [after_append]
  have p0 := piece3_0 (F := F) U x0 x1 x2 h0 h1 h2 i_main_v20 i_main_v23 i_main_v28 i_main_v29 i_main_v130 i_main_v137 i_main_v142
  have p1 := piece3_1 (F := F) (after (pc3_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2
  have p2 := piece3_2 (F := F) (after (pc3_1 (F := F)) (after (pc3_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2
  have p3 := piece3_3 (F := F) (after (pc3_2 (F := F)) (after (pc3_1 (F := F)) (after (pc3_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2.1 p2.2.2.2.2.2.2.2.2
  have p4 := piece3_4 (F := F) (after (pc3_3 (F := F)) (after (pc3_2 (F := F)) (after (pc3_1 (F := F)) (after (pc3_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2.1 p3.2.2.2.2.2.2.2.2
  have p5 := piece3_5 (F := F) (after (pc3_4 (F := F)) (after (pc3_3 (F := F)) (after (pc3_2 (F := F)) (after (pc3_1 (F := F)) (after (pc3_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2.1 p4.2.2.2.2.2.2.2.2.2
  have p6 := piece3_6 (F := F) (after (pc3_5 (F := F)) (after (pc3_4 (F := F)) (after (pc3_3 (F := F)) (after (pc3_2 (F := F)) (after (pc3_1 (F := F)) (after (pc3_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2.1 p5.2.2.2.2.2.2.2.2.2
  have p7 := piece3_7 (F := F) (after (pc3_6 (F := F)) (after (pc3_5 (F := F)) (after (pc3_4 (F := F)) (after (pc3_3 (F := F)) (after (pc3_2 (F := F)) (after (pc3_1 (F := F)) (after (pc3_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2
  have p8 := piece3_8 (F := F) (after (pc3_7 (F := F)) (after (pc3_6 (F := F)) (after (pc3_5 (F := F)) (after (pc3_4 (F := F)) (after (pc3_3 (F := F)) (after (pc3_2 (F := F)) (after (pc3_1 (F := F)) (after (pc3_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2
  have p9 := piece3_9 (F := F) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2.1 p8.2.2.2.2.2.2.2.2
  have p10 := piece3_10 (F := F) (after (pc3_9 (F := F)) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2.1 p9.2.2.2.2.2.2.2.2
  have p11 := piece3_11 (F := F) (after (pc3_10 (F := F)) (after (pc3_9 (F := F)) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2.1 p10.2.2.2.2.2.2.2.2.2
  have p12 := piece3_12 (F := F) (after (pc3_11 (F := F)) (after (pc3_10 (F := F)) (after (pc3_9 (F := F)) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2.1 p11.2.2.2.2.2.2.2.2.2
  have p13 := piece3_13 (F := F) (after (pc3_12 (F := F)) (after (pc3_11 (F := F)) (after (pc3_10 (F := F)) (after (pc3_9 (F := F)) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2
  have p14 := piece3_14 (F := F) (after (pc3_13 (F := F)) (after (pc3_12 (F := F)) (after (pc3_11 (F := F)) (after (pc3_10 (F := F)) (after (pc3_9 (F := F)) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2
  have p15 := piece3_15 (F := F) (after (pc3_14 (F := F)) (after (pc3_13 (F := F)) (after (pc3_12 (F := F)) (after (pc3_11 (F := F)) (after (pc3_10 (F := F)) (after (pc3_9 (F := F)) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U))))))))))))))) x0 x1 x2 p14.1.1 p14.1.2.1 p14.1.2.2 p14.2.1 p14.2.2.1 p14.2.2.2.1 p14.2.2.2.2.1 p14.2.2.2.2.2.1 p14.2.2.2.2.2.2.1 p14.2.2.2.2.2.2.2.1 p14.2.2.2.2.2.2.2.2
  have p16 := piece3_16 (F := F) (after (pc3_15 (F := F)) (after (pc3_14 (F := F)) (after (pc3_13 (F := F)) (after (pc3_12 (F := F)) (after (pc3_11 (F := F)) (after (pc3_10 (F := F)) (after (pc3_9 (F := F)) (after (pc3_8 (F := F)) (after (pc3_7 (F := F)) (after (pc3_6 (F := F)) (after (pc3_5 (F := F)) (after (pc3_4 (F := F)) (after (pc3_3 (F := F)) (after (pc3_2 (F := F)) (after (pc3_1 (F := F)) (after (pc3_0 (F := F)) U)))))))))))))))) x0 x1 x2 p15.1.1 p15.1.2.1 p15.1.2.2 p15.2.1 p15.2.2.1 p15.2.2.2.1 p15.2.2.2.2.1 p15.2.2.2.2.2.1 p15.2.2.2.2.2.2.1 p15.2.2.2.2.2.2.2.1 p15.2.2.2.2.2.2.2.2
  exact p16

end Cert.Bridge.RefRun

end
-- ==== Proof.RefRunPart4.lean ====
/-
  Part 4 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 375 to 376 of the line. -/
abbrev pc4_0 : List (HloOp τ sig (Elt F)) :=
  [ TRef.unary (TRef.of (T := ⟨S8x128x128, .i32⟩) main_arg1) (TRef.of (T := ⟨S8x1x128, .i32⟩) main_call28_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call28_v1) (extractStridedSlice S8x127x128 ![0, 0, 0] · slices_S8x128x128_S8x127x128_0_0_0) ]

set_option maxRecDepth 8192 in
set_option maxHeartbeats 100000000 in
theorem piece4_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_v191 : U (Proc.devRef .tc main_v191) = val_main_v191 (F := F) x0)
    (i_main_v192 : U (Proc.devRef .tc main_v192) = val_main_v192 (F := F) x0) :
    (after (pc4_0 (F := F)) U (Proc.devRef .tc main_arg0) = x0
      ∧ after (pc4_0 (F := F)) U (Proc.devRef .tc main_arg1) = x1
      ∧ after (pc4_0 (F := F)) U (Proc.devRef .tc main_arg2) = x2)
    ∧ after (pc4_0 (F := F)) U (Proc.devRef .tc main_v20) = val_main_v20 (F := F) x1 x2
    ∧ after (pc4_0 (F := F)) U (Proc.devRef .tc main_v23) = val_main_v23 (F := F) x1 x2
    ∧ after (pc4_0 (F := F)) U (Proc.devRef .tc main_v28) = val_main_v28 (F := F) x0
    ∧ after (pc4_0 (F := F)) U (Proc.devRef .tc main_v29) = val_main_v29 (F := F) x1 x2
    ∧ after (pc4_0 (F := F)) U (Proc.devRef .tc main_v190) = val_main_v190 (F := F) x0 x1 x2
    ∧ after (pc4_0 (F := F)) U (Proc.devRef .tc main_v191) = val_main_v191 (F := F) x0
    ∧ after (pc4_0 (F := F)) U (Proc.devRef .tc main_v192) = val_main_v192 (F := F) x0
    ∧ after (pc4_0 (F := F)) U (Proc.devRef .tc main_call28_v0) = val_main_call28_v0 (F := F) x1
    ∧ after (pc4_0 (F := F)) U (Proc.devRef .tc main_call28_v1) = val_main_call28_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v190, i_main_v191, i_main_v192])
  all_goals (try rw [i_main_v20])
  all_goals (try rw [i_main_v23])
  all_goals (try rw [i_main_v28])
  all_goals (try rw [i_main_v29])
  all_goals (try rw [i_main_v190])
  all_goals (try rw [i_main_v191])
  all_goals (try rw [i_main_v192])
  all_goals (try rfl)

/-- Operations 377 to 379 of the line. -/
abbrev pc4_1 : List (HloOp τ sig (Elt F)) :=
  [ TRef.binary (TRef.of (T := ⟨S8x1x128, .i32⟩) main_call28_v0) (TRef.of (T := ⟨S8x127x128, .i32⟩) main_call28_v1) (TRef.of (T := ⟨S8x128x128, .i32⟩) main_call28_v2) (fun a b => concatenate S8x128x128 1 [⟨S8x1x128, a⟩, ⟨S8x127x128, b⟩] concatenates_S8x1x128_S8x127x128_S8x128x128_d1),
    TRef.unary (TRef.of (T := ⟨S8x128x128, .i32⟩) main_call28_v2) (TRef.of (T := ⟨S8x128x127, .i32⟩) main_call28_v3) (extractStridedSlice S8x128x127 ![0, 0, 1] · slices_S8x128x128_S8x128x127_0_0_1),
    TRef.unary (TRef.of (T := ⟨S8x128x128, .i32⟩) main_call28_v2) (TRef.of (T := ⟨S8x128x1, .i32⟩) main_call28_v4) (extractStridedSlice S8x128x1 ![0, 0, 0] · slices_S8x128x128_S8x128x1_0_0_0) ]

set_option maxRecDepth 8192 in
set_option maxHeartbeats 100000000 in
theorem piece4_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_v191 : U (Proc.devRef .tc main_v191) = val_main_v191 (F := F) x0)
    (i_main_v192 : U (Proc.devRef .tc main_v192) = val_main_v192 (F := F) x0)
    (i_main_call28_v0 : U (Proc.devRef .tc main_call28_v0) = val_main_call28_v0 (F := F) x1)
    (i_main_call28_v1 : U (Proc.devRef .tc main_call28_v1) = val_main_call28_v1 (F := F) x1) :
    (after (pc4_1 (F := F)) U (Proc.devRef .tc main_arg0) = x0
      ∧ after (pc4_1 (F := F)) U (Proc.devRef .tc main_arg1) = x1
      ∧ after (pc4_1 (F := F)) U (Proc.devRef .tc main_arg2) = x2)
    ∧ after (pc4_1 (F := F)) U (Proc.devRef .tc main_v20) = val_main_v20 (F := F) x1 x2
    ∧ after (pc4_1 (F := F)) U (Proc.devRef .tc main_v23) = val_main_v23 (F := F) x1 x2
    ∧ after (pc4_1 (F := F)) U (Proc.devRef .tc main_v28) = val_main_v28 (F := F) x0
    ∧ after (pc4_1 (F := F)) U (Proc.devRef .tc main_v29) = val_main_v29 (F := F) x1 x2
    ∧ after (pc4_1 (F := F)) U (Proc.devRef .tc main_v190) = val_main_v190 (F := F) x0 x1 x2
    ∧ after (pc4_1 (F := F)) U (Proc.devRef .tc main_v191) = val_main_v191 (F := F) x0
    ∧ after (pc4_1 (F := F)) U (Proc.devRef .tc main_v192) = val_main_v192 (F := F) x0
    ∧ after (pc4_1 (F := F)) U (Proc.devRef .tc main_call28_v3) = val_main_call28_v3 (F := F) x1
    ∧ after (pc4_1 (F := F)) U (Proc.devRef .tc main_call28_v4) = val_main_call28_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v190, i_main_v191, i_main_v192, i_main_call28_v0, i_main_call28_v1])
  all_goals (try rw [i_main_v20])
  all_goals (try rw [i_main_v23])
  all_goals (try rw [i_main_v28])
  all_goals (try rw [i_main_v29])
  all_goals (try rw [i_main_v190])
  all_goals (try rw [i_main_v191])
  all_goals (try rw [i_main_v192])
  all_goals (try rw [i_main_call28_v0])
  all_goals (try rw [i_main_call28_v1])
  all_goals (try rfl)

/-- Operations 380 to 403 of the line. -/
abbrev pc4_2 : List (HloOp τ sig (Elt F)) :=
  [ TRef.binary (TRef.of (T := ⟨S8x128x127, .i32⟩) main_call28_v3) (TRef.of (T := ⟨S8x128x1, .i32⟩) main_call28_v4) (TRef.of (T := ⟨S8x128x128, .i32⟩) main_v193) (fun a b => concatenate S8x128x128 2 [⟨S8x128x127, a⟩, ⟨S8x128x1, b⟩] concatenates_S8x128x127_S8x128x1_S8x128x128_d2),
    binary main_arg0 main_v191 main_v194 (mulf : (⟨S8x256x128x128, .f32⟩ : BufTy).Contents (Elt F) → (⟨S8x256x128x128, .f32⟩ : BufTy).Contents (Elt F) → (⟨S8x256x128x128, .f32⟩ : BufTy).Contents (Elt F)),
    nullary main_cst_45 (constant S_ .f32 0x00000000#32),
    binary main_v194 main_cst_45 main_v195 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v192 main_v196 (mulf : (⟨S8x128x128, .f32⟩ : BufTy).Contents (Elt F) → (⟨S8x128x128, .f32⟩ : BufTy).Contents (Elt F) → (⟨S8x128x128, .f32⟩ : BufTy).Contents (Elt F)),
    binary main_v195 main_v196 main_v197 (Host.divf : (⟨S8x128x128, .f32⟩ : BufTy).Contents (Elt F) → (⟨S8x128x128, .f32⟩ : BufTy).Contents (Elt F) → (⟨S8x128x128, .f32⟩ : BufTy).Contents (Elt F)),
    binary main_arg1 main_v193 main_v198 (cmpi .eq : (⟨S8x128x128, .i32⟩ : BufTy).Contents (Elt F) → (⟨S8x128x128, .i32⟩ : BufTy).Contents (Elt F) → (⟨S8x128x128, .i1⟩ : BufTy).Contents (Elt F)),
    nullary main_c_46 (constantI S_ 32 2#32),
    unary main_c_46 main_v199 (broadcastInDim S8x128x128 ![] bcast_S_S8x128x128 : (⟨S_, .i32⟩ : BufTy).Contents (Elt F) → (⟨S8x128x128, .i32⟩ : BufTy).Contents (Elt F)),
    binary main_arg1 main_v199 main_v200 (cmpi .slt : (⟨S8x128x128, .i32⟩ : BufTy).Contents (Elt F) → (⟨S8x128x128, .i32⟩ : BufTy).Contents (Elt F) → (⟨S8x128x128, .i1⟩ : BufTy).Contents (Elt F)),
    binary main_v198 main_v200 main_v201 (andi : (⟨S8x128x128, .i1⟩ : BufTy).Contents (Elt F) → (⟨S8x128x128, .i1⟩ : BufTy).Contents (Elt F) → (⟨S8x128x128, .i1⟩ : BufTy).Contents (Elt F)),
    unary main_v201 main_v202 (uitofp .f32 : (⟨S8x128x128, .i1⟩ : BufTy).Contents (Elt F) → (⟨S8x128x128, .f32⟩ : BufTy).Contents (Elt F)),
    binary main_v197 main_v202 main_v203 (subf : (⟨S8x128x128, .f32⟩ : BufTy).Contents (Elt F) → (⟨S8x128x128, .f32⟩ : BufTy).Contents (Elt F) → (⟨S8x128x128, .f32⟩ : BufTy).Contents (Elt F)),
    binary main_v203 main_v203 main_v204 (mulf : (⟨S8x128x128, .f32⟩ : BufTy).Contents (Elt F) → (⟨S8x128x128, .f32⟩ : BufTy).Contents (Elt F) → (⟨S8x128x128, .f32⟩ : BufTy).Contents (Elt F)),
    binary main_v204 main_v29 main_v205 (mulf : (⟨S8x128x128, .f32⟩ : BufTy).Contents (Elt F) → (⟨S8x128x128, .f32⟩ : BufTy).Contents (Elt F) → (⟨S8x128x128, .f32⟩ : BufTy).Contents (Elt F)),
    nullary main_cst_47 (constant S_ .f32 0x00000000#32),
    binary main_v205 main_cst_47 main_v206 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_48 (constant S_ .f32 0x3F800000#32),
    unary main_cst_48 main_v207 (broadcastInDim S8 ![] bcast_S_S8 : (⟨S_, .f32⟩ : BufTy).Contents (Elt F) → (⟨S8, .f32⟩ : BufTy).Contents (Elt F)),
    binary main_v23 main_v207 main_v208 (maximumf : (⟨S8, .f32⟩ : BufTy).Contents (Elt F) → (⟨S8, .f32⟩ : BufTy).Contents (Elt F) → (⟨S8, .f32⟩ : BufTy).Contents (Elt F)),
    binary main_v206 main_v208 main_v209 (Host.divf : (⟨S8, .f32⟩ : BufTy).Contents (Elt F) → (⟨S8, .f32⟩ : BufTy).Contents (Elt F) → (⟨S8, .f32⟩ : BufTy).Contents (Elt F)),
    binary main_v190 main_v209 main_v210 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x1x128, .f32⟩) main_call29_v0) (extractStridedSlice S8x256x1x128 ![0, 0, 127, 0] · slices_S8x256x128x128_S8x256x1x128_0_0_127_0),
    TRef.unary (TRef.of (T := ⟨S8x256x128x128, .f32⟩) main_arg0) (TRef.of (T := ⟨S8x256x127x128, .f32⟩) main_call29_v1) (extractStridedSlice S8x256x127x128 ![0, 0, 0, 0] · slices_S8x256x128x128_S8x256x127x128_0_0_0_0) ]

set_option maxRecDepth 8192 in
set_option maxHeartbeats 100000000 in
theorem piece4_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_v191 : U (Proc.devRef .tc main_v191) = val_main_v191 (F := F) x0)
    (i_main_v192 : U (Proc.devRef .tc main_v192) = val_main_v192 (F := F) x0)
    (i_main_call28_v3 : U (Proc.devRef .tc main_call28_v3) = val_main_call28_v3 (F := F) x1)
    (i_main_call28_v4 : U (Proc.devRef .tc main_call28_v4) = val_main_call28_v4 (F := F) x1) :
    (after (pc4_2 (F := F)) U (Proc.devRef .tc main_arg0) = x0
      ∧ after (pc4_2 (F := F)) U (Proc.devRef .tc main_arg1) = x1
      ∧ after (pc4_2 (F := F)) U (Proc.devRef .tc main_arg2) = x2)
    ∧ after (pc4_2 (F := F)) U (Proc.devRef .tc main_v20) = val_main_v20 (F := F) x1 x2
    ∧ after (pc4_2 (F := F)) U (Proc.devRef .tc main_v23) = val_main_v23 (F := F) x1 x2
    ∧ after (pc4_2 (F := F)) U (Proc.devRef .tc main_v28) = val_main_v28 (F := F) x0
    ∧ after (pc4_2 (F := F)) U (Proc.devRef .tc main_v29) = val_main_v29 (F := F) x1 x2
    ∧ after (pc4_2 (F := F)) U (Proc.devRef .tc main_v210) = val_main_v210 (F := F) x0 x1 x2
    ∧ after (pc4_2 (F := F)) U (Proc.devRef .tc main_call29_v0) = val_main_call29_v0 (F := F) x0
    ∧ after (pc4_2 (F := F)) U (Proc.devRef .tc main_call29_v1) = val_main_call29_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v190, i_main_v191, i_main_v192, i_main_call28_v3, i_main_call28_v4])
  all_goals (try rw [i_main_v20])
  all_goals (try rw [i_main_v23])
  all_goals (try rw [i_main_v28])
  all_goals (try rw [i_main_v29])
  all_goals (try rw [i_main_v190])
  all_goals (try rw [i_main_v191])
  all_goals (try rw [i_main_v192])
  all_goals (try rw [i_main_call28_v3])
  all_goals (try rw [i_main_call28_v4])
  all_goals (try rfl)

/-- Operations 404 to 406 of the line. -/
abbrev pc4_3 : List (HloOp τ sig (Elt F)) :=
  [ TRef.binary (TRef.of (T := ⟨S8x256x1x128, .f32⟩) main_call29_v0) (TRef.of (T := ⟨S8x256x127x128, .f32⟩) main_call29_v1) (TRef.of (T := ⟨S8x256x128x128, .f32⟩) main_call29_v2) (fun a b => concatenate S8x256x128x128 2 [⟨S8x256x1x128, a⟩, ⟨S8x256x127x128, b⟩] concatenates_S8x256x1x128_S8x256x127x128_S8x256x128x128_d2),
    TRef.unary (TRef.of (T := ⟨S8x256x128x128, .f32⟩) main_call29_v2) (TRef.of (T := ⟨S8x256x128x126, .f32⟩) main_call29_v3) (extractStridedSlice S8x256x128x126 ![0, 0, 0, 2] · slices_S8x256x128x128_S8x256x128x126_0_0_0_2),
    TRef.unary (TRef.of (T := ⟨S8x256x128x128, .f32⟩) main_call29_v2) (TRef.of (T := ⟨S8x256x128x2, .f32⟩) main_call29_v4) (extractStridedSlice S8x256x128x2 ![0, 0, 0, 0] · slices_S8x256x128x128_S8x256x128x2_0_0_0_0) ]

set_option maxRecDepth 8192 in
set_option maxHeartbeats 100000000 in
theorem piece4_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v210 : U (Proc.devRef .tc main_v210) = val_main_v210 (F := F) x0 x1 x2)
    (i_main_call29_v0 : U (Proc.devRef .tc main_call29_v0) = val_main_call29_v0 (F := F) x0)
    (i_main_call29_v1 : U (Proc.devRef .tc main_call29_v1) = val_main_call29_v1 (F := F) x0) :
    (after (pc4_3 (F := F)) U (Proc.devRef .tc main_arg0) = x0
      ∧ after (pc4_3 (F := F)) U (Proc.devRef .tc main_arg1) = x1
      ∧ after (pc4_3 (F := F)) U (Proc.devRef .tc main_arg2) = x2)
    ∧ after (pc4_3 (F := F)) U (Proc.devRef .tc main_v20) = val_main_v20 (F := F) x1 x2
    ∧ after (pc4_3 (F := F)) U (Proc.devRef .tc main_v23) = val_main_v23 (F := F) x1 x2
    ∧ after (pc4_3 (F := F)) U (Proc.devRef .tc main_v28) = val_main_v28 (F := F) x0
    ∧ after (pc4_3 (F := F)) U (Proc.devRef .tc main_v29) = val_main_v29 (F := F) x1 x2
    ∧ after (pc4_3 (F := F)) U (Proc.devRef .tc main_v210) = val_main_v210 (F := F) x0 x1 x2
    ∧ after (pc4_3 (F := F)) U (Proc.devRef .tc main_call29_v3) = val_main_call29_v3 (F := F) x0
    ∧ after (pc4_3 (F := F)) U (Proc.devRef .tc main_call29_v4) = val_main_call29_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v210, i_main_call29_v0, i_main_call29_v1])
  all_goals (try rw [i_main_v20])
  all_goals (try rw [i_main_v23])
  all_goals (try rw [i_main_v28])
  all_goals (try rw [i_main_v29])
  all_goals (try rw [i_main_v210])
  all_goals (try rw [i_main_call29_v0])
  all_goals (try rw [i_main_call29_v1])
  all_goals (try rfl)

/-- Operations 407 to 409 of the line. -/
abbrev pc4_4 : List (HloOp τ sig (Elt F)) :=
  [ TRef.binary (TRef.of (T := ⟨S8x256x128x126, .f32⟩) main_call29_v3) (TRef.of (T := ⟨S8x256x128x2, .f32⟩) main_call29_v4) (TRef.of (T := ⟨S8x256x128x128, .f32⟩) main_v211) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x1x128, .f32⟩) main_call30_v0) (extractStridedSlice S8x1x128 ![0, 127, 0] · slices_S8x128x128_S8x1x128_0_127_0),
    TRef.unary (TRef.of (T := ⟨S8x128x128, .f32⟩) main_v28) (TRef.of (T := ⟨S8x127x128, .f32⟩) main_call30_v1) (extractStridedSlice S8x127x128 ![0, 0, 0] · slices_S8x128x128_S8x127x128_0_0_0) ]

set_option maxRecDepth 8192 in
set_option maxHeartbeats 100000000 in
theorem piece4_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v210 : U (Proc.devRef .tc main_v210) = val_main_v210 (F := F) x0 x1 x2)
    (i_main_call29_v3 : U (Proc.devRef .tc main_call29_v3) = val_main_call29_v3 (F := F) x0)
    (i_main_call29_v4 : U (Proc.devRef .tc main_call29_v4) = val_main_call29_v4 (F := F) x0) :
    (after (pc4_4 (F := F)) U (Proc.devRef .tc main_arg0) = x0
      ∧ after (pc4_4 (F := F)) U (Proc.devRef .tc main_arg1) = x1
      ∧ after (pc4_4 (F := F)) U (Proc.devRef .tc main_arg2) = x2)
    ∧ after (pc4_4 (F := F)) U (Proc.devRef .tc main_v20) = val_main_v20 (F := F) x1 x2
    ∧ after (pc4_4 (F := F)) U (Proc.devRef .tc main_v23) = val_main_v23 (F := F) x1 x2
    ∧ after (pc4_4 (F := F)) U (Proc.devRef .tc main_v28) = val_main_v28 (F := F) x0
    ∧ after (pc4_4 (F := F)) U (Proc.devRef .tc main_v29) = val_main_v29 (F := F) x1 x2
    ∧ after (pc4_4 (F := F)) U (Proc.devRef .tc main_v210) = val_main_v210 (F := F) x0 x1 x2
    ∧ after (pc4_4 (F := F)) U (Proc.devRef .tc main_v211) = val_main_v211 (F := F) x0
    ∧ after (pc4_4 (F := F)) U (Proc.devRef .tc main_call30_v0) = val_main_call30_v0 (F := F) x0
    ∧ after (pc4_4 (F := F)) U (Proc.devRef .tc main_call30_v1) = val_main_call30_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v210, i_main_call29_v3, i_main_call29_v4])
  all_goals (try rw [i_main_v20])
  all_goals (try rw [i_main_v23])
  all_goals (try rw [i_main_v28])
  all_goals (try rw [i_main_v29])
  all_goals (try rw [i_main_v210])
  all_goals (try rw [i_main_call29_v3])
  all_goals (try rw [i_main_call29_v4])
  all_goals (try rfl)

/-- Operations 410 to 412 of the line. -/
abbrev pc4_5 : List (HloOp τ sig (Elt F)) :=
  [ TRef.binary (TRef.of (T := ⟨S8x1x128, .f32⟩) main_call30_v0) (TRef.of (T := ⟨S8x127x128, .f32⟩) main_call30_v1) (TRef.of (T := ⟨S8x128x128, .f32⟩) main_call30_v2) (fun a b => concatenate S8x128x128 1 [⟨S8x1x128, a⟩, ⟨S8x127x128, b⟩] concatenates_S8x1x128_S8x127x128_S8x128x128_d1),
    TRef.unary (TRef.of (T := ⟨S8x128x128, .f32⟩) main_call30_v2) (TRef.of (T := ⟨S8x128x126, .f32⟩) main_call30_v3) (extractStridedSlice S8x128x126 ![0, 0, 2] · slices_S8x128x128_S8x128x126_0_0_2),
    TRef.unary (TRef.of (T := ⟨S8x128x128, .f32⟩) main_call30_v2) (TRef.of (T := ⟨S8x128x2, .f32⟩) main_call30_v4) (extractStridedSlice S8x128x2 ![0, 0, 0] · slices_S8x128x128_S8x128x2_0_0_0) ]

set_option maxRecDepth 8192 in
set_option maxHeartbeats 100000000 in
theorem piece4_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v210 : U (Proc.devRef .tc main_v210) = val_main_v210 (F := F) x0 x1 x2)
    (i_main_v211 : U (Proc.devRef .tc main_v211) = val_main_v211 (F := F) x0)
    (i_main_call30_v0 : U (Proc.devRef .tc main_call30_v0) = val_main_call30_v0 (F := F) x0)
    (i_main_call30_v1 : U (Proc.devRef .tc main_call30_v1) = val_main_call30_v1 (F := F) x0) :
    (after (pc4_5 (F := F)) U (Proc.devRef .tc main_arg0) = x0
      ∧ after (pc4_5 (F := F)) U (Proc.devRef .tc main_arg1) = x1
      ∧ after (pc4_5 (F := F)) U (Proc.devRef .tc main_arg2) = x2)
    ∧ after (pc4_5 (F := F)) U (Proc.devRef .tc main_v20) = val_main_v20 (F := F) x1 x2
    ∧ after (pc4_5 (F := F)) U (Proc.devRef .tc main_v23) = val_main_v23 (F := F) x1 x2
    ∧ after (pc4_5 (F := F)) U (Proc.devRef .tc main_v28) = val_main_v28 (F := F) x0
    ∧ after (pc4_5 (F := F)) U (Proc.devRef .tc main_v29) = val_main_v29 (F := F) x1 x2
    ∧ after (pc4_5 (F := F)) U (Proc.devRef .tc main_v210) = val_main_v210 (F := F) x0 x1 x2
    ∧ after (pc4_5 (F := F)) U (Proc.devRef .tc main_v211) = val_main_v211 (F := F) x0
    ∧ after (pc4_5 (F := F)) U (Proc.devRef .tc main_call30_v3) = val_main_call30_v3 (F := F) x0
    ∧ after (pc4_5 (F := F)) U (Proc.devRef .tc main_call30_v4) = val_main_call30_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v210, i_main_v211, i_main_call30_v0, i_main_call30_v1])
  all_goals (try rw [i_main_v20])
  all_goals (try rw [i_main_v23])
  all_goals (try rw [i_main_v28])
  all_goals (try rw [i_main_v29])
  all_goals (try rw [i_main_v210])
  all_goals (try rw [i_main_v211])
  all_goals (try rw [i_main_call30_v0])
  all_goals (try rw [i_main_call30_v1])
  all_goals (try rfl)

/-- Operations 413 to 415 of the line. -/
abbrev pc4_6 : List (HloOp τ sig (Elt F)) :=
  [ TRef.binary (TRef.of (T := ⟨S8x128x126, .f32⟩) main_call30_v3) (TRef.of (T := ⟨S8x128x2, .f32⟩) main_call30_v4) (TRef.of (T := ⟨S8x128x128, .f32⟩) main_v212) (fun a b => concatenate S8x128x128 2 [⟨S8x128x126, a⟩, ⟨S8x128x2, b⟩] concatenates_S8x128x126_S8x128x2_S8x128x128_d2),
    TRef.unary (TRef.of (T := ⟨S8x128x128, .i32⟩) main_arg1) (TRef.of (T := ⟨S8x1x128, .i32⟩) main_call31_v0) (extractStridedSlice S8x1x128 ![0, 127, 0] · slices_S8x128x128_S8x1x128_0_127_0),
    TRef.unary (TRef.of (T := ⟨S8x128x128, .i32⟩) main_arg1) (TRef.of (T := ⟨S8x127x128, .i32⟩) main_call31_v1) (extractStridedSlice S8x127x128 ![0, 0, 0] · slices_S8x128x128_S8x127x128_0_0_0) ]

set_option maxRecDepth 8192 in
set_option maxHeartbeats 100000000 in
theorem piece4_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v210 : U (Proc.devRef .tc main_v210) = val_main_v210 (F := F) x0 x1 x2)
    (i_main_v211 : U (Proc.devRef .tc main_v211) = val_main_v211 (F := F) x0)
    (i_main_call30_v3 : U (Proc.devRef .tc main_call30_v3) = val_main_call30_v3 (F := F) x0)
    (i_main_call30_v4 : U (Proc.devRef .tc main_call30_v4) = val_main_call30_v4 (F := F) x0) :
    (after (pc4_6 (F := F)) U (Proc.devRef .tc main_arg0) = x0
      ∧ after (pc4_6 (F := F)) U (Proc.devRef .tc main_arg1) = x1
      ∧ after (pc4_6 (F := F)) U (Proc.devRef .tc main_arg2) = x2)
    ∧ after (pc4_6 (F := F)) U (Proc.devRef .tc main_v20) = val_main_v20 (F := F) x1 x2
    ∧ after (pc4_6 (F := F)) U (Proc.devRef .tc main_v23) = val_main_v23 (F := F) x1 x2
    ∧ after (pc4_6 (F := F)) U (Proc.devRef .tc main_v28) = val_main_v28 (F := F) x0
    ∧ after (pc4_6 (F := F)) U (Proc.devRef .tc main_v29) = val_main_v29 (F := F) x1 x2
    ∧ after (pc4_6 (F := F)) U (Proc.devRef .tc main_v210) = val_main_v210 (F := F) x0 x1 x2
    ∧ after (pc4_6 (F := F)) U (Proc.devRef .tc main_v211) = val_main_v211 (F := F) x0
    ∧ after (pc4_6 (F := F)) U (Proc.devRef .tc main_v212) = val_main_v212 (F := F) x0
    ∧ after (pc4_6 (F := F)) U (Proc.devRef .tc main_call31_v0) = val_main_call31_v0 (F := F) x1
    ∧ after (pc4_6 (F := F)) U (Proc.devRef .tc main_call31_v1) = val_main_call31_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v210, i_main_v211, i_main_call30_v3, i_main_call30_v4])
  all_goals (try rw [i_main_v20])
  all_goals (try rw [i_main_v23])
  all_goals (try rw [i_main_v28])
  all_goals (try rw [i_main_v29])
  all_goals (try rw [i_main_v210])
  all_goals (try rw [i_main_v211])
  all_goals (try rw [i_main_call30_v3])
  all_goals (try rw [i_main_call30_v4])
  all_goals (try rfl)

/-- Operations 416 to 418 of the line. -/
abbrev pc4_7 : List (HloOp τ sig (Elt F)) :=
  [ TRef.binary (TRef.of (T := ⟨S8x1x128, .i32⟩) main_call31_v0) (TRef.of (T := ⟨S8x127x128, .i32⟩) main_call31_v1) (TRef.of (T := ⟨S8x128x128, .i32⟩) main_call31_v2) (fun a b => concatenate S8x128x128 1 [⟨S8x1x128, a⟩, ⟨S8x127x128, b⟩] concatenates_S8x1x128_S8x127x128_S8x128x128_d1),
    TRef.unary (TRef.of (T := ⟨S8x128x128, .i32⟩) main_call31_v2) (TRef.of (T := ⟨S8x128x126, .i32⟩) main_call31_v3) (extractStridedSlice S8x128x126 ![0, 0, 2] · slices_S8x128x128_S8x128x126_0_0_2),
    TRef.unary (TRef.of (T := ⟨S8x128x128, .i32⟩) main_call31_v2) (TRef.of (T := ⟨S8x128x2, .i32⟩) main_call31_v4) (extractStridedSlice S8x128x2 ![0, 0, 0] · slices_S8x128x128_S8x128x2_0_0_0) ]

set_option maxRecDepth 8192 in
set_option maxHeartbeats 100000000 in
theorem piece4_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v210 : U (Proc.devRef .tc main_v210) = val_main_v210 (F := F) x0 x1 x2)
    (i_main_v211 : U (Proc.devRef .tc main_v211) = val_main_v211 (F := F) x0)
    (i_main_v212 : U (Proc.devRef .tc main_v212) = val_main_v212 (F := F) x0)
    (i_main_call31_v0 : U (Proc.devRef .tc main_call31_v0) = val_main_call31_v0 (F := F) x1)
    (i_main_call31_v1 : U (Proc.devRef .tc main_call31_v1) = val_main_call31_v1 (F := F) x1) :
    (after (pc4_7 (F := F)) U (Proc.devRef .tc main_arg0) = x0
      ∧ after (pc4_7 (F := F)) U (Proc.devRef .tc main_arg1) = x1
      ∧ after (pc4_7 (F := F)) U (Proc.devRef .tc main_arg2) = x2)
    ∧ after (pc4_7 (F := F)) U (Proc.devRef .tc main_v20) = val_main_v20 (F := F) x1 x2
    ∧ after (pc4_7 (F := F)) U (Proc.devRef .tc main_v23) = val_main_v23 (F := F) x1 x2
    ∧ after (pc4_7 (F := F)) U (Proc.devRef .tc main_v28) = val_main_v28 (F := F) x0
    ∧ after (pc4_7 (F := F)) U (Proc.devRef .tc main_v29) = val_main_v29 (F := F) x1 x2
    ∧ after (pc4_7 (F := F)) U (Proc.devRef .tc main_v210) = val_main_v210 (F := F) x0 x1 x2
    ∧ after (pc4_7 (F := F)) U (Proc.devRef .tc main_v211) = val_main_v211 (F := F) x0
    ∧ after (pc4_7 (F := F)) U (Proc.devRef .tc main_v212) = val_main_v212 (F := F) x0
    ∧ after (pc4_7 (F := F)) U (Proc.devRef .tc main_call31_v3) = val_main_call31_v3 (F := F) x1
    ∧ after (pc4_7 (F := F)) U (Proc.devRef .tc main_call31_v4) = val_main_call31_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v210, i_main_v211, i_main_v212, i_main_call31_v0, i_main_call31_v1])
  all_goals (try rw [i_main_v20])
  all_goals (try rw [i_main_v23])
  all_goals (try rw [i_main_v28])
  all_goals (try rw [i_main_v29])
  all_goals (try rw [i_main_v210])
  all_goals (try rw [i_main_v211])
  all_goals (try rw [i_main_v212])
  all_goals (try rw [i_main_call31_v0])
  all_goals (try rw [i_main_call31_v1])
  all_goals (try rfl)

/-- Operations 419 to 442 of the line. -/
abbrev pc4_8 : List (HloOp τ sig (Elt F)) :=
  [ TRef.binary (TRef.of (T := ⟨S8x128x126, .i32⟩) main_call31_v3) (TRef.of (T := ⟨S8x128x2, .i32⟩) main_call31_v4) (TRef.of (T := ⟨S8x128x128, .i32⟩) main_v213) (fun a b => concatenate S8x128x128 2 [⟨S8x128x126, a⟩, ⟨S8x128x2, b⟩] concatenates_S8x128x126_S8x128x2_S8x128x128_d2),
    binary main_arg0 main_v211 main_v214 (mulf : (⟨S8x256x128x128, .f32⟩ : BufTy).Contents (Elt F) → (⟨S8x256x128x128, .f32⟩ : BufTy).Contents (Elt F) → (⟨S8x256x128x128, .f32⟩ : BufTy).Contents (Elt F)),
    nullary main_cst_49 (constant S_ .f32 0x00000000#32),
    binary main_v214 main_cst_49 main_v215 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v212 main_v216 (mulf : (⟨S8x128x128, .f32⟩ : BufTy).Contents (Elt F) → (⟨S8x128x128, .f32⟩ : BufTy).Contents (Elt F) → (⟨S8x128x128, .f32⟩ : BufTy).Contents (Elt F)),
    binary main_v215 main_v216 main_v217 (Host.divf : (⟨S8x128x128, .f32⟩ : BufTy).Contents (Elt F) → (⟨S8x128x128, .f32⟩ : BufTy).Contents (Elt F) → (⟨S8x128x128, .f32⟩ : BufTy).Contents (Elt F)),
    binary main_arg1 main_v213 main_v218 (cmpi .eq : (⟨S8x128x128, .i32⟩ : BufTy).Contents (Elt F) → (⟨S8x128x128, .i32⟩ : BufTy).Contents (Elt F) → (⟨S8x128x128, .i1⟩ : BufTy).Contents (Elt F)),
    nullary main_c_50 (constantI S_ 32 2#32),
    unary main_c_50 main_v219 (broadcastInDim S8x128x128 ![] bcast_S_S8x128x128 : (⟨S_, .i32⟩ : BufTy).Contents (Elt F) → (⟨S8x128x128, .i32⟩ : BufTy).Contents (Elt F)),
    binary main_arg1 main_v219 main_v220 (cmpi .slt : (⟨S8x128x128, .i32⟩ : BufTy).Contents (Elt F) → (⟨S8x128x128, .i32⟩ : BufTy).Contents (Elt F) → (⟨S8x128x128, .i1⟩ : BufTy).Contents (Elt F)),
    binary main_v218 main_v220 main_v221 (andi : (⟨S8x128x128, .i1⟩ : BufTy).Contents (Elt F) → (⟨S8x128x128, .i1⟩ : BufTy).Contents (Elt F) → (⟨S8x128x128, .i1⟩ : BufTy).Contents (Elt F)),
    unary main_v221 main_v222 (uitofp .f32 : (⟨S8x128x128, .i1⟩ : BufTy).Contents (Elt F) → (⟨S8x128x128, .f32⟩ : BufTy).Contents (Elt F)),
    binary main_v217 main_v222 main_v223 (subf : (⟨S8x128x128, .f32⟩ : BufTy).Contents (Elt F) → (⟨S8x128x128, .f32⟩ : BufTy).Contents (Elt F) → (⟨S8x128x128, .f32⟩ : BufTy).Contents (Elt F)),
    binary main_v223 main_v223 main_v224 (mulf : (⟨S8x128x128, .f32⟩ : BufTy).Contents (Elt F) → (⟨S8x128x128, .f32⟩ : BufTy).Contents (Elt F) → (⟨S8x128x128, .f32⟩ : BufTy).Contents (Elt F)),
    binary main_v224 main_v29 main_v225 (mulf : (⟨S8x128x128, .f32⟩ : BufTy).Contents (Elt F) → (⟨S8x128x128, .f32⟩ : BufTy).Contents (Elt F) → (⟨S8x128x128, .f32⟩ : BufTy).Contents (Elt F)),
    nullary main_cst_51 (constant S_ .f32 0x00000000#32),
    binary main_v225 main_cst_51 main_v226 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_52 (constant S_ .f32 0x3F800000#32),
    unary main_cst_52 main_v227 (broadcastInDim S8 ![] bcast_S_S8 : (⟨S_, .f32⟩ : BufTy).Contents (Elt F) → (⟨S8, .f32⟩ : BufTy).Contents (Elt F)),
    binary main_v23 main_v227 main_v228 (maximumf : (⟨S8, .f32⟩ : BufTy).Contents (Elt F) → (⟨S8, .f32⟩ : BufTy).Contents (Elt F) → (⟨S8, .f32⟩ : BufTy).Contents (Elt F)),
    binary main_v226 main_v228 main_v229 (Host.divf : (⟨S8, .f32⟩ : BufTy).Contents (Elt F) → (⟨S8, .f32⟩ : BufTy).Contents (Elt F) → (⟨S8, .f32⟩ : BufTy).Contents (Elt F)),
    binary main_v210 main_v229 main_v230 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call32_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call32_v1) (extractStridedSlice S8x256x0x128 ![0, 0, 0, 0] · slices_S8x256x128x128_S8x256x0x128_0_0_0_0) ]

set_option maxRecDepth 8192 in
set_option maxHeartbeats 100000000 in
theorem piece4_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v210 : U (Proc.devRef .tc main_v210) = val_main_v210 (F := F) x0 x1 x2)
    (i_main_v211 : U (Proc.devRef .tc main_v211) = val_main_v211 (F := F) x0)
    (i_main_v212 : U (Proc.devRef .tc main_v212) = val_main_v212 (F := F) x0)
    (i_main_call31_v3 : U (Proc.devRef .tc main_call31_v3) = val_main_call31_v3 (F := F) x1)
    (i_main_call31_v4 : U (Proc.devRef .tc main_call31_v4) = val_main_call31_v4 (F := F) x1) :
    (after (pc4_8 (F := F)) U (Proc.devRef .tc main_arg0) = x0
      ∧ after (pc4_8 (F := F)) U (Proc.devRef .tc main_arg1) = x1
      ∧ after (pc4_8 (F := F)) U (Proc.devRef .tc main_arg2) = x2)
    ∧ after (pc4_8 (F := F)) U (Proc.devRef .tc main_v20) = val_main_v20 (F := F) x1 x2
    ∧ after (pc4_8 (F := F)) U (Proc.devRef .tc main_v23) = val_main_v23 (F := F) x1 x2
    ∧ after (pc4_8 (F := F)) U (Proc.devRef .tc main_v28) = val_main_v28 (F := F) x0
    ∧ after (pc4_8 (F := F)) U (Proc.devRef .tc main_v29) = val_main_v29 (F := F) x1 x2
    ∧ after (pc4_8 (F := F)) U (Proc.devRef .tc main_v230) = val_main_v230 (F := F) x0 x1 x2
    ∧ after (pc4_8 (F := F)) U (Proc.devRef .tc main_call32_v0) = val_main_call32_v0 (F := F) x0
    ∧ after (pc4_8 (F := F)) U (Proc.devRef .tc main_call32_v1) = val_main_call32_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v210, i_main_v211, i_main_v212, i_main_call31_v3, i_main_call31_v4])
  all_goals (try rw [i_main_v20])
  all_goals (try rw [i_main_v23])
  all_goals (try rw [i_main_v28])
  all_goals (try rw [i_main_v29])
  all_goals (try rw [i_main_v210])
  all_goals (try rw [i_main_v211])
  all_goals (try rw [i_main_v212])
  all_goals (try rw [i_main_call31_v3])
  all_goals (try rw [i_main_call31_v4])
  all_goals (try rfl)

/-- Operations 443 to 445 of the line. -/
abbrev pc4_9 : List (HloOp τ sig (Elt F)) :=
  [ TRef.binary (TRef.of (T := ⟨S8x256x128x128, .f32⟩) main_call32_v0) (TRef.of (T := ⟨S8x256x0x128, .f32⟩) main_call32_v1) (TRef.of (T := ⟨S8x256x128x128, .f32⟩) main_call32_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call32_v2) (TRef.of (T := ⟨S8x256x128x2, .f32⟩) main_call32_v3) (extractStridedSlice S8x256x128x2 ![0, 0, 0, 126] · slices_S8x256x128x128_S8x256x128x2_0_0_0_126),
    TRef.unary (TRef.of (T := ⟨S8x256x128x128, .f32⟩) main_call32_v2) (TRef.of (T := ⟨S8x256x128x126, .f32⟩) main_call32_v4) (extractStridedSlice S8x256x128x126 ![0, 0, 0, 0] · slices_S8x256x128x128_S8x256x128x126_0_0_0_0) ]

set_option maxRecDepth 8192 in
set_option maxHeartbeats 100000000 in
theorem piece4_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_call32_v0 : U (Proc.devRef .tc main_call32_v0) = val_main_call32_v0 (F := F) x0)
    (i_main_call32_v1 : U (Proc.devRef .tc main_call32_v1) = val_main_call32_v1 (F := F) x0) :
    (after (pc4_9 (F := F)) U (Proc.devRef .tc main_arg0) = x0
      ∧ after (pc4_9 (F := F)) U (Proc.devRef .tc main_arg1) = x1
      ∧ after (pc4_9 (F := F)) U (Proc.devRef .tc main_arg2) = x2)
    ∧ after (pc4_9 (F := F)) U (Proc.devRef .tc main_v20) = val_main_v20 (F := F) x1 x2
    ∧ after (pc4_9 (F := F)) U (Proc.devRef .tc main_v23) = val_main_v23 (F := F) x1 x2
    ∧ after (pc4_9 (F := F)) U (Proc.devRef .tc main_v28) = val_main_v28 (F := F) x0
    ∧ after (pc4_9 (F := F)) U (Proc.devRef .tc main_v29) = val_main_v29 (F := F) x1 x2
    ∧ after (pc4_9 (F := F)) U (Proc.devRef .tc main_v230) = val_main_v230 (F := F) x0 x1 x2
    ∧ after (pc4_9 (F := F)) U (Proc.devRef .tc main_call32_v3) = val_main_call32_v3 (F := F) x0
    ∧ after (pc4_9 (F := F)) U (Proc.devRef .tc main_call32_v4) = val_main_call32_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v230, i_main_call32_v0, i_main_call32_v1])
  all_goals (try rw [i_main_v20])
  all_goals (try rw [i_main_v23])
  all_goals (try rw [i_main_v28])
  all_goals (try rw [i_main_v29])
  all_goals (try rw [i_main_v230])
  all_goals (try rw [i_main_call32_v0])
  all_goals (try rw [i_main_call32_v1])
  all_goals (try rfl)

/-- Operations 446 to 448 of the line. -/
abbrev pc4_10 : List (HloOp τ sig (Elt F)) :=
  [ TRef.binary (TRef.of (T := ⟨S8x256x128x2, .f32⟩) main_call32_v3) (TRef.of (T := ⟨S8x256x128x126, .f32⟩) main_call32_v4) (TRef.of (T := ⟨S8x256x128x128, .f32⟩) main_v231) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x128x128, .f32⟩) main_call33_v0) (extractStridedSlice S8x128x128 ![0, 0, 0] · slices_S8x128x128_S8x128x128_0_0_0),
    TRef.unary (TRef.of (T := ⟨S8x128x128, .f32⟩) main_v28) (TRef.of (T := ⟨S8x0x128, .f32⟩) main_call33_v1) (extractStridedSlice S8x0x128 ![0, 0, 0] · slices_S8x128x128_S8x0x128_0_0_0) ]

set_option maxRecDepth 8192 in
set_option maxHeartbeats 100000000 in
theorem piece4_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_call32_v3 : U (Proc.devRef .tc main_call32_v3) = val_main_call32_v3 (F := F) x0)
    (i_main_call32_v4 : U (Proc.devRef .tc main_call32_v4) = val_main_call32_v4 (F := F) x0) :
    (after (pc4_10 (F := F)) U (Proc.devRef .tc main_arg0) = x0
      ∧ after (pc4_10 (F := F)) U (Proc.devRef .tc main_arg1) = x1
      ∧ after (pc4_10 (F := F)) U (Proc.devRef .tc main_arg2) = x2)
    ∧ after (pc4_10 (F := F)) U (Proc.devRef .tc main_v20) = val_main_v20 (F := F) x1 x2
    ∧ after (pc4_10 (F := F)) U (Proc.devRef .tc main_v23) = val_main_v23 (F := F) x1 x2
    ∧ after (pc4_10 (F := F)) U (Proc.devRef .tc main_v28) = val_main_v28 (F := F) x0
    ∧ after (pc4_10 (F := F)) U (Proc.devRef .tc main_v29) = val_main_v29 (F := F) x1 x2
    ∧ after (pc4_10 (F := F)) U (Proc.devRef .tc main_v230) = val_main_v230 (F := F) x0 x1 x2
    ∧ after (pc4_10 (F := F)) U (Proc.devRef .tc main_v231) = val_main_v231 (F := F) x0
    ∧ after (pc4_10 (F := F)) U (Proc.devRef .tc main_call33_v0) = val_main_call33_v0 (F := F) x0
    ∧ after (pc4_10 (F := F)) U (Proc.devRef .tc main_call33_v1) = val_main_call33_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v230, i_main_call32_v3, i_main_call32_v4])
  all_goals (try rw [i_main_v20])
  all_goals (try rw [i_main_v23])
  all_goals (try rw [i_main_v28])
  all_goals (try rw [i_main_v29])
  all_goals (try rw [i_main_v230])
  all_goals (try rw [i_main_call32_v3])
  all_goals (try rw [i_main_call32_v4])
  all_goals (try rfl)

/-- Operations 449 to 451 of the line. -/
abbrev pc4_11 : List (HloOp τ sig (Elt F)) :=
  [ TRef.binary (TRef.of (T := ⟨S8x128x128, .f32⟩) main_call33_v0) (TRef.of (T := ⟨S8x0x128, .f32⟩) main_call33_v1) (TRef.of (T := ⟨S8x128x128, .f32⟩) main_call33_v2) (fun a b => concatenate S8x128x128 1 [⟨S8x128x128, a⟩, ⟨S8x0x128, b⟩] concatenates_S8x128x128_S8x0x128_S8x128x128_d1),
    TRef.unary (TRef.of (T := ⟨S8x128x128, .f32⟩) main_call33_v2) (TRef.of (T := ⟨S8x128x2, .f32⟩) main_call33_v3) (extractStridedSlice S8x128x2 ![0, 0, 126] · slices_S8x128x128_S8x128x2_0_0_126),
    TRef.unary (TRef.of (T := ⟨S8x128x128, .f32⟩) main_call33_v2) (TRef.of (T := ⟨S8x128x126, .f32⟩) main_call33_v4) (extractStridedSlice S8x128x126 ![0, 0, 0] · slices_S8x128x128_S8x128x126_0_0_0) ]

set_option maxRecDepth 8192 in
set_option maxHeartbeats 100000000 in
theorem piece4_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_v231 : U (Proc.devRef .tc main_v231) = val_main_v231 (F := F) x0)
    (i_main_call33_v0 : U (Proc.devRef .tc main_call33_v0) = val_main_call33_v0 (F := F) x0)
    (i_main_call33_v1 : U (Proc.devRef .tc main_call33_v1) = val_main_call33_v1 (F := F) x0) :
    (after (pc4_11 (F := F)) U (Proc.devRef .tc main_arg0) = x0
      ∧ after (pc4_11 (F := F)) U (Proc.devRef .tc main_arg1) = x1
      ∧ after (pc4_11 (F := F)) U (Proc.devRef .tc main_arg2) = x2)
    ∧ after (pc4_11 (F := F)) U (Proc.devRef .tc main_v20) = val_main_v20 (F := F) x1 x2
    ∧ after (pc4_11 (F := F)) U (Proc.devRef .tc main_v23) = val_main_v23 (F := F) x1 x2
    ∧ after (pc4_11 (F := F)) U (Proc.devRef .tc main_v28) = val_main_v28 (F := F) x0
    ∧ after (pc4_11 (F := F)) U (Proc.devRef .tc main_v29) = val_main_v29 (F := F) x1 x2
    ∧ after (pc4_11 (F := F)) U (Proc.devRef .tc main_v230) = val_main_v230 (F := F) x0 x1 x2
    ∧ after (pc4_11 (F := F)) U (Proc.devRef .tc main_v231) = val_main_v231 (F := F) x0
    ∧ after (pc4_11 (F := F)) U (Proc.devRef .tc main_call33_v3) = val_main_call33_v3 (F := F) x0
    ∧ after (pc4_11 (F := F)) U (Proc.devRef .tc main_call33_v4) = val_main_call33_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v230, i_main_v231, i_main_call33_v0, i_main_call33_v1])
  all_goals (try rw [i_main_v20])
  all_goals (try rw [i_main_v23])
  all_goals (try rw [i_main_v28])
  all_goals (try rw [i_main_v29])
  all_goals (try rw [i_main_v230])
  all_goals (try rw [i_main_v231])
  all_goals (try rw [i_main_call33_v0])
  all_goals (try rw [i_main_call33_v1])
  all_goals (try rfl)

/-- Operations 452 to 454 of the line. -/
abbrev pc4_12 : List (HloOp τ sig (Elt F)) :=
  [ TRef.binary (TRef.of (T := ⟨S8x128x2, .f32⟩) main_call33_v3) (TRef.of (T := ⟨S8x128x126, .f32⟩) main_call33_v4) (TRef.of (T := ⟨S8x128x128, .f32⟩) main_v232) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x128x128, .i32⟩) main_call34_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call34_v1) (extractStridedSlice S8x0x128 ![0, 0, 0] · slices_S8x128x128_S8x0x128_0_0_0) ]

set_option maxRecDepth 8192 in
set_option maxHeartbeats 100000000 in
theorem piece4_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_v231 : U (Proc.devRef .tc main_v231) = val_main_v231 (F := F) x0)
    (i_main_call33_v3 : U (Proc.devRef .tc main_call33_v3) = val_main_call33_v3 (F := F) x0)
    (i_main_call33_v4 : U (Proc.devRef .tc main_call33_v4) = val_main_call33_v4 (F := F) x0) :
    (after (pc4_12 (F := F)) U (Proc.devRef .tc main_arg0) = x0
      ∧ after (pc4_12 (F := F)) U (Proc.devRef .tc main_arg1) = x1
      ∧ after (pc4_12 (F := F)) U (Proc.devRef .tc main_arg2) = x2)
    ∧ after (pc4_12 (F := F)) U (Proc.devRef .tc main_v20) = val_main_v20 (F := F) x1 x2
    ∧ after (pc4_12 (F := F)) U (Proc.devRef .tc main_v23) = val_main_v23 (F := F) x1 x2
    ∧ after (pc4_12 (F := F)) U (Proc.devRef .tc main_v28) = val_main_v28 (F := F) x0
    ∧ after (pc4_12 (F := F)) U (Proc.devRef .tc main_v29) = val_main_v29 (F := F) x1 x2
    ∧ after (pc4_12 (F := F)) U (Proc.devRef .tc main_v230) = val_main_v230 (F := F) x0 x1 x2
    ∧ after (pc4_12 (F := F)) U (Proc.devRef .tc main_v231) = val_main_v231 (F := F) x0
    ∧ after (pc4_12 (F := F)) U (Proc.devRef .tc main_v232) = val_main_v232 (F := F) x0
    ∧ after (pc4_12 (F := F)) U (Proc.devRef .tc main_call34_v0) = val_main_call34_v0 (F := F) x1
    ∧ after (pc4_12 (F := F)) U (Proc.devRef .tc main_call34_v1) = val_main_call34_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v230, i_main_v231, i_main_call33_v3, i_main_call33_v4])
  all_goals (try rw [i_main_v20])
  all_goals (try rw [i_main_v23])
  all_goals (try rw [i_main_v28])
  all_goals (try rw [i_main_v29])
  all_goals (try rw [i_main_v230])
  all_goals (try rw [i_main_v231])
  all_goals (try rw [i_main_call33_v3])
  all_goals (try rw [i_main_call33_v4])
  all_goals (try rfl)

/-- Operations 455 to 457 of the line. -/
abbrev pc4_13 : List (HloOp τ sig (Elt F)) :=
  [ TRef.binary (TRef.of (T := ⟨S8x128x128, .i32⟩) main_call34_v0) (TRef.of (T := ⟨S8x0x128, .i32⟩) main_call34_v1) (TRef.of (T := ⟨S8x128x128, .i32⟩) main_call34_v2) (fun a b => concatenate S8x128x128 1 [⟨S8x128x128, a⟩, ⟨S8x0x128, b⟩] concatenates_S8x128x128_S8x0x128_S8x128x128_d1),
    TRef.unary (TRef.of (T := ⟨S8x128x128, .i32⟩) main_call34_v2) (TRef.of (T := ⟨S8x128x2, .i32⟩) main_call34_v3) (extractStridedSlice S8x128x2 ![0, 0, 126] · slices_S8x128x128_S8x128x2_0_0_126),
    TRef.unary (TRef.of (T := ⟨S8x128x128, .i32⟩) main_call34_v2) (TRef.of (T := ⟨S8x128x126, .i32⟩) main_call34_v4) (extractStridedSlice S8x128x126 ![0, 0, 0] · slices_S8x128x128_S8x128x126_0_0_0) ]

set_option maxRecDepth 8192 in
set_option maxHeartbeats 100000000 in
theorem piece4_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_v231 : U (Proc.devRef .tc main_v231) = val_main_v231 (F := F) x0)
    (i_main_v232 : U (Proc.devRef .tc main_v232) = val_main_v232 (F := F) x0)
    (i_main_call34_v0 : U (Proc.devRef .tc main_call34_v0) = val_main_call34_v0 (F := F) x1)
    (i_main_call34_v1 : U (Proc.devRef .tc main_call34_v1) = val_main_call34_v1 (F := F) x1) :
    (after (pc4_13 (F := F)) U (Proc.devRef .tc main_arg0) = x0
      ∧ after (pc4_13 (F := F)) U (Proc.devRef .tc main_arg1) = x1
      ∧ after (pc4_13 (F := F)) U (Proc.devRef .tc main_arg2) = x2)
    ∧ after (pc4_13 (F := F)) U (Proc.devRef .tc main_v20) = val_main_v20 (F := F) x1 x2
    ∧ after (pc4_13 (F := F)) U (Proc.devRef .tc main_v23) = val_main_v23 (F := F) x1 x2
    ∧ after (pc4_13 (F := F)) U (Proc.devRef .tc main_v28) = val_main_v28 (F := F) x0
    ∧ after (pc4_13 (F := F)) U (Proc.devRef .tc main_v29) = val_main_v29 (F := F) x1 x2
    ∧ after (pc4_13 (F := F)) U (Proc.devRef .tc main_v230) = val_main_v230 (F := F) x0 x1 x2
    ∧ after (pc4_13 (F := F)) U (Proc.devRef .tc main_v231) = val_main_v231 (F := F) x0
    ∧ after (pc4_13 (F := F)) U (Proc.devRef .tc main_v232) = val_main_v232 (F := F) x0
    ∧ after (pc4_13 (F := F)) U (Proc.devRef .tc main_call34_v3) = val_main_call34_v3 (F := F) x1
    ∧ after (pc4_13 (F := F)) U (Proc.devRef .tc main_call34_v4) = val_main_call34_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v230, i_main_v231, i_main_v232, i_main_call34_v0, i_main_call34_v1])
  all_goals (try rw [i_main_v20])
  all_goals (try rw [i_main_v23])
  all_goals (try rw [i_main_v28])
  all_goals (try rw [i_main_v29])
  all_goals (try rw [i_main_v230])
  all_goals (try rw [i_main_v231])
  all_goals (try rw [i_main_v232])
  all_goals (try rw [i_main_call34_v0])
  all_goals (try rw [i_main_call34_v1])
  all_goals (try rfl)

/-- Operations 458 to 469 of the line. -/
abbrev pc4_14 : List (HloOp τ sig (Elt F)) :=
  [ TRef.binary (TRef.of (T := ⟨S8x128x2, .i32⟩) main_call34_v3) (TRef.of (T := ⟨S8x128x126, .i32⟩) main_call34_v4) (TRef.of (T := ⟨S8x128x128, .i32⟩) main_v233) (fun a b => concatenate S8x128x128 2 [⟨S8x128x2, a⟩, ⟨S8x128x126, b⟩] concatenates_S8x128x2_S8x128x126_S8x128x128_d2),
    binary main_arg0 main_v231 main_v234 (mulf : (⟨S8x256x128x128, .f32⟩ : BufTy).Contents (Elt F) → (⟨S8x256x128x128, .f32⟩ : BufTy).Contents (Elt F) → (⟨S8x256x128x128, .f32⟩ : BufTy).Contents (Elt F)),
    nullary main_cst_53 (constant S_ .f32 0x00000000#32),
    binary main_v234 main_cst_53 main_v235 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v232 main_v236 (mulf : (⟨S8x128x128, .f32⟩ : BufTy).Contents (Elt F) → (⟨S8x128x128, .f32⟩ : BufTy).Contents (Elt F) → (⟨S8x128x128, .f32⟩ : BufTy).Contents (Elt F)),
    binary main_v235 main_v236 main_v237 (Host.divf : (⟨S8x128x128, .f32⟩ : BufTy).Contents (Elt F) → (⟨S8x128x128, .f32⟩ : BufTy).Contents (Elt F) → (⟨S8x128x128, .f32⟩ : BufTy).Contents (Elt F)),
    binary main_arg1 main_v233 main_v238 (cmpi .eq : (⟨S8x128x128, .i32⟩ : BufTy).Contents (Elt F) → (⟨S8x128x128, .i32⟩ : BufTy).Contents (Elt F) → (⟨S8x128x128, .i1⟩ : BufTy).Contents (Elt F)),
    nullary main_c_54 (constantI S_ 32 2#32),
    unary main_c_54 main_v239 (broadcastInDim S8x128x128 ![] bcast_S_S8x128x128 : (⟨S_, .i32⟩ : BufTy).Contents (Elt F) → (⟨S8x128x128, .i32⟩ : BufTy).Contents (Elt F)),
    binary main_arg1 main_v239 main_v240 (cmpi .slt : (⟨S8x128x128, .i32⟩ : BufTy).Contents (Elt F) → (⟨S8x128x128, .i32⟩ : BufTy).Contents (Elt F) → (⟨S8x128x128, .i1⟩ : BufTy).Contents (Elt F)),
    binary main_v238 main_v240 main_v241 (andi : (⟨S8x128x128, .i1⟩ : BufTy).Contents (Elt F) → (⟨S8x128x128, .i1⟩ : BufTy).Contents (Elt F) → (⟨S8x128x128, .i1⟩ : BufTy).Contents (Elt F)),
    unary main_v241 main_v242 (uitofp .f32 : (⟨S8x128x128, .i1⟩ : BufTy).Contents (Elt F) → (⟨S8x128x128, .f32⟩ : BufTy).Contents (Elt F)) ]

set_option maxRecDepth 8192 in
set_option maxHeartbeats 100000000 in
theorem piece4_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_v231 : U (Proc.devRef .tc main_v231) = val_main_v231 (F := F) x0)
    (i_main_v232 : U (Proc.devRef .tc main_v232) = val_main_v232 (F := F) x0)
    (i_main_call34_v3 : U (Proc.devRef .tc main_call34_v3) = val_main_call34_v3 (F := F) x1)
    (i_main_call34_v4 : U (Proc.devRef .tc main_call34_v4) = val_main_call34_v4 (F := F) x1) :
    (after (pc4_14 (F := F)) U (Proc.devRef .tc main_arg0) = x0
      ∧ after (pc4_14 (F := F)) U (Proc.devRef .tc main_arg1) = x1
      ∧ after (pc4_14 (F := F)) U (Proc.devRef .tc main_arg2) = x2)
    ∧ after (pc4_14 (F := F)) U (Proc.devRef .tc main_v20) = val_main_v20 (F := F) x1 x2
    ∧ after (pc4_14 (F := F)) U (Proc.devRef .tc main_v23) = val_main_v23 (F := F) x1 x2
    ∧ after (pc4_14 (F := F)) U (Proc.devRef .tc main_v28) = val_main_v28 (F := F) x0
    ∧ after (pc4_14 (F := F)) U (Proc.devRef .tc main_v29) = val_main_v29 (F := F) x1 x2
    ∧ after (pc4_14 (F := F)) U (Proc.devRef .tc main_v230) = val_main_v230 (F := F) x0 x1 x2
    ∧ after (pc4_14 (F := F)) U (Proc.devRef .tc main_v237) = val_main_v237 (F := F) x0
    ∧ after (pc4_14 (F := F)) U (Proc.devRef .tc main_v242) = val_main_v242 (F := F) x1 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v230, i_main_v231, i_main_v232, i_main_call34_v3, i_main_call34_v4])
  all_goals (try rw [i_main_v20])
  all_goals (try rw [i_main_v23])
  all_goals (try rw [i_main_v28])
  all_goals (try rw [i_main_v29])
  all_goals (try rw [i_main_v230])
  all_goals (try rw [i_main_v231])
  all_goals (try rw [i_main_v232])
  all_goals (try rw [i_main_call34_v3])
  all_goals (try rw [i_main_call34_v4])
  all_goals (try rfl)

set_option maxRecDepth 8192 in
/-- The part's operations are its pieces laid end to end. -/
theorem ops4_split : (ops4 (F := F)) = pc4_0 ++ (pc4_1 ++ (pc4_2 ++ (pc4_3 ++ (pc4_4 ++ (pc4_5 ++ (pc4_6 ++ (pc4_7 ++ (pc4_8 ++ (pc4_9 ++ (pc4_10 ++ (pc4_11 ++ (pc4_12 ++ (pc4_13 ++ (pc4_14)))))))))))))) := rfl

theorem chunk4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v190 : U (Proc.devRef .tc main_v190) = val_main_v190 (F := F) x0 x1 x2)
    (i_main_v191 : U (Proc.devRef .tc main_v191) = val_main_v191 (F := F) x0)
    (i_main_v192 : U (Proc.devRef .tc main_v192) = val_main_v192 (F := F) x0) :
    (after (ops4 (F := F)) U (Proc.devRef .tc main_arg0) = x0
      ∧ after (ops4 (F := F)) U (Proc.devRef .tc main_arg1) = x1
      ∧ after (ops4 (F := F)) U (Proc.devRef .tc main_arg2) = x2)
    ∧ after (ops4 (F := F)) U (Proc.devRef .tc main_v20) = val_main_v20 (F := F) x1 x2
    ∧ after (ops4 (F := F)) U (Proc.devRef .tc main_v23) = val_main_v23 (F := F) x1 x2
    ∧ after (ops4 (F := F)) U (Proc.devRef .tc main_v28) = val_main_v28 (F := F) x0
    ∧ after (ops4 (F := F)) U (Proc.devRef .tc main_v29) = val_main_v29 (F := F) x1 x2
    ∧ after (ops4 (F := F)) U (Proc.devRef .tc main_v230) = val_main_v230 (F := F) x0 x1 x2
    ∧ after (ops4 (F := F)) U (Proc.devRef .tc main_v237) = val_main_v237 (F := F) x0
    ∧ after (ops4 (F := F)) U (Proc.devRef .tc main_v242) = val_main_v242 (F := F) x1 := by
  rw [ops4_split]
  simp only [after_append]
  have p0 := piece4_0 (F := F) U x0 x1 x2 h0 h1 h2 i_main_v20 i_main_v23 i_main_v28 i_main_v29 i_main_v190 i_main_v191 i_main_v192
  have p1 := piece4_1 (F := F) (after (pc4_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2.1 p0.2.2.2.2.2.2.2.2.1 p0.2.2.2.2.2.2.2.2.2
  have p2 := piece4_2 (F := F) (after (pc4_1 (F := F)) (after (pc4_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2.1 p1.2.2.2.2.2.2.2.2.1 p1.2.2.2.2.2.2.2.2.2
  have p3 := piece4_3 (F := F) (after (pc4_2 (F := F)) (after (pc4_1 (F := F)) (after (pc4_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2
  have p4 := piece4_4 (F := F) (after (pc4_3 (F := F)) (after (pc4_2 (F := F)) (after (pc4_1 (F := F)) (after (pc4_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2
  have p5 := piece4_5 (F := F) (after (pc4_4 (F := F)) (after (pc4_3 (F := F)) (after (pc4_2 (F := F)) (after (pc4_1 (F := F)) (after (pc4_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2
  have p6 := piece4_6 (F := F) (after (pc4_5 (F := F)) (after (pc4_4 (F := F)) (after (pc4_3 (F := F)) (after (pc4_2 (F := F)) (after (pc4_1 (F := F)) (after (pc4_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2
  have p7 := piece4_7 (F := F) (after (pc4_6 (F := F)) (after (pc4_5 (F := F)) (after (pc4_4 (F := F)) (after (pc4_3 (F := F)) (after (pc4_2 (F := F)) (after (pc4_1 (F := F)) (after (pc4_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2.1 p6.2.2.2.2.2.2.2.2.1 p6.2.2.2.2.2.2.2.2.2
  have p8 := piece4_8 (F := F) (after (pc4_7 (F := F)) (after (pc4_6 (F := F)) (after (pc4_5 (F := F)) (after (pc4_4 (F := F)) (after (pc4_3 (F := F)) (after (pc4_2 (F := F)) (after (pc4_1 (F := F)) (after (pc4_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2.1 p7.2.2.2.2.2.2.2.2.1 p7.2.2.2.2.2.2.2.2.2
  have p9 := piece4_9 (F := F) (after (pc4_8 (F := F)) (after (pc4_7 (F := F)) (after (pc4_6 (F := F)) (after (pc4_5 (F := F)) (after (pc4_4 (F := F)) (after (pc4_3 (F := F)) (after (pc4_2 (F := F)) (after (pc4_1 (F := F)) (after (pc4_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2
  have p10 := piece4_10 (F := F) (after (pc4_9 (F := F)) (after (pc4_8 (F := F)) (after (pc4_7 (F := F)) (after (pc4_6 (F := F)) (after (pc4_5 (F := F)) (after (pc4_4 (F := F)) (after (pc4_3 (F := F)) (after (pc4_2 (F := F)) (after (pc4_1 (F := F)) (after (pc4_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2
  have p11 := piece4_11 (F := F) (after (pc4_10 (F := F)) (after (pc4_9 (F := F)) (after (pc4_8 (F := F)) (after (pc4_7 (F := F)) (after (pc4_6 (F := F)) (after (pc4_5 (F := F)) (after (pc4_4 (F := F)) (after (pc4_3 (F := F)) (after (pc4_2 (F := F)) (after (pc4_1 (F := F)) (after (pc4_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2
  have p12 := piece4_12 (F := F) (after (pc4_11 (F := F)) (after (pc4_10 (F := F)) (after (pc4_9 (F := F)) (after (pc4_8 (F := F)) (after (pc4_7 (F := F)) (after (pc4_6 (F := F)) (after (pc4_5 (F := F)) (after (pc4_4 (F := F)) (after (pc4_3 (F := F)) (after (pc4_2 (F := F)) (after (pc4_1 (F := F)) (after (pc4_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2
  have p13 := piece4_13 (F := F) (after (pc4_12 (F := F)) (after (pc4_11 (F := F)) (after (pc4_10 (F := F)) (after (pc4_9 (F := F)) (after (pc4_8 (F := F)) (after (pc4_7 (F := F)) (after (pc4_6 (F := F)) (after (pc4_5 (F := F)) (after (pc4_4 (F := F)) (after (pc4_3 (F := F)) (after (pc4_2 (F := F)) (after (pc4_1 (F := F)) (after (pc4_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2.1 p12.2.2.2.2.2.2.2.2.1 p12.2.2.2.2.2.2.2.2.2
  have p14 := piece4_14 (F := F) (after (pc4_13 (F := F)) (after (pc4_12 (F := F)) (after (pc4_11 (F := F)) (after (pc4_10 (F := F)) (after (pc4_9 (F := F)) (after (pc4_8 (F := F)) (after (pc4_7 (F := F)) (after (pc4_6 (F := F)) (after (pc4_5 (F := F)) (after (pc4_4 (F := F)) (after (pc4_3 (F := F)) (after (pc4_2 (F := F)) (after (pc4_1 (F := F)) (after (pc4_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2.1 p13.2.2.2.2.2.2.2.2.1 p13.2.2.2.2.2.2.2.2.2
  exact p14

end Cert.Bridge.RefRun

end
-- ==== Proof.RefRunPart5.lean ====
/-
  Part 5 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 470 to 481 of the line. -/
abbrev pc5_0 : List (HloOp τ sig (Elt F)) :=
  [ binary main_v237 main_v242 main_v243 (subf : (⟨S8x128x128, .f32⟩ : BufTy).Contents (Elt F) → (⟨S8x128x128, .f32⟩ : BufTy).Contents (Elt F) → (⟨S8x128x128, .f32⟩ : BufTy).Contents (Elt F)),
    binary main_v243 main_v243 main_v244 (mulf : (⟨S8x128x128, .f32⟩ : BufTy).Contents (Elt F) → (⟨S8x128x128, .f32⟩ : BufTy).Contents (Elt F) → (⟨S8x128x128, .f32⟩ : BufTy).Contents (Elt F)),
    binary main_v244 main_v29 main_v245 (mulf : (⟨S8x128x128, .f32⟩ : BufTy).Contents (Elt F) → (⟨S8x128x128, .f32⟩ : BufTy).Contents (Elt F) → (⟨S8x128x128, .f32⟩ : BufTy).Contents (Elt F)),
    nullary main_cst_55 (constant S_ .f32 0x00000000#32),
    binary main_v245 main_cst_55 main_v246 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_56 (constant S_ .f32 0x3F800000#32),
    unary main_cst_56 main_v247 (broadcastInDim S8 ![] bcast_S_S8 : (⟨S_, .f32⟩ : BufTy).Contents (Elt F) → (⟨S8, .f32⟩ : BufTy).Contents (Elt F)),
    binary main_v23 main_v247 main_v248 (maximumf : (⟨S8, .f32⟩ : BufTy).Contents (Elt F) → (⟨S8, .f32⟩ : BufTy).Contents (Elt F) → (⟨S8, .f32⟩ : BufTy).Contents (Elt F)),
    binary main_v246 main_v248 main_v249 (Host.divf : (⟨S8, .f32⟩ : BufTy).Contents (Elt F) → (⟨S8, .f32⟩ : BufTy).Contents (Elt F) → (⟨S8, .f32⟩ : BufTy).Contents (Elt F)),
    binary main_v230 main_v249 main_v250 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call35_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call35_v1) (extractStridedSlice S8x256x0x128 ![0, 0, 0, 0] · slices_S8x256x128x128_S8x256x0x128_0_0_0_0) ]

set_option maxRecDepth 8192 in
set_option maxHeartbeats 100000000 in
theorem piece5_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_v237 : U (Proc.devRef .tc main_v237) = val_main_v237 (F := F) x0)
    (i_main_v242 : U (Proc.devRef .tc main_v242) = val_main_v242 (F := F) x1) :
    (after (pc5_0 (F := F)) U (Proc.devRef .tc main_arg0) = x0
      ∧ after (pc5_0 (F := F)) U (Proc.devRef .tc main_arg1) = x1
      ∧ after (pc5_0 (F := F)) U (Proc.devRef .tc main_arg2) = x2)
    ∧ after (pc5_0 (F := F)) U (Proc.devRef .tc main_v20) = val_main_v20 (F := F) x1 x2
    ∧ after (pc5_0 (F := F)) U (Proc.devRef .tc main_v23) = val_main_v23 (F := F) x1 x2
    ∧ after (pc5_0 (F := F)) U (Proc.devRef .tc main_v28) = val_main_v28 (F := F) x0
    ∧ after (pc5_0 (F := F)) U (Proc.devRef .tc main_v29) = val_main_v29 (F := F) x1 x2
    ∧ after (pc5_0 (F := F)) U (Proc.devRef .tc main_v250) = val_main_v250 (F := F) x0 x1 x2
    ∧ after (pc5_0 (F := F)) U (Proc.devRef .tc main_call35_v0) = val_main_call35_v0 (F := F) x0
    ∧ after (pc5_0 (F := F)) U (Proc.devRef .tc main_call35_v1) = val_main_call35_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v230, i_main_v237, i_main_v242])
  all_goals (try rw [i_main_v20])
  all_goals (try rw [i_main_v23])
  all_goals (try rw [i_main_v28])
  all_goals (try rw [i_main_v29])
  all_goals (try rw [i_main_v230])
  all_goals (try rw [i_main_v237])
  all_goals (try rw [i_main_v242])
  all_goals (try rfl)

/-- Operations 482 to 484 of the line. -/
abbrev pc5_1 : List (HloOp τ sig (Elt F)) :=
  [ TRef.binary (TRef.of (T := ⟨S8x256x128x128, .f32⟩) main_call35_v0) (TRef.of (T := ⟨S8x256x0x128, .f32⟩) main_call35_v1) (TRef.of (T := ⟨S8x256x128x128, .f32⟩) main_call35_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call35_v2) (TRef.of (T := ⟨S8x256x128x1, .f32⟩) main_call35_v3) (extractStridedSlice S8x256x128x1 ![0, 0, 0, 127] · slices_S8x256x128x128_S8x256x128x1_0_0_0_127),
    TRef.unary (TRef.of (T := ⟨S8x256x128x128, .f32⟩) main_call35_v2) (TRef.of (T := ⟨S8x256x128x127, .f32⟩) main_call35_v4) (extractStridedSlice S8x256x128x127 ![0, 0, 0, 0] · slices_S8x256x128x128_S8x256x128x127_0_0_0_0) ]

set_option maxRecDepth 8192 in
set_option maxHeartbeats 100000000 in
theorem piece5_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v250 : U (Proc.devRef .tc main_v250) = val_main_v250 (F := F) x0 x1 x2)
    (i_main_call35_v0 : U (Proc.devRef .tc main_call35_v0) = val_main_call35_v0 (F := F) x0)
    (i_main_call35_v1 : U (Proc.devRef .tc main_call35_v1) = val_main_call35_v1 (F := F) x0) :
    (after (pc5_1 (F := F)) U (Proc.devRef .tc main_arg0) = x0
      ∧ after (pc5_1 (F := F)) U (Proc.devRef .tc main_arg1) = x1
      ∧ after (pc5_1 (F := F)) U (Proc.devRef .tc main_arg2) = x2)
    ∧ after (pc5_1 (F := F)) U (Proc.devRef .tc main_v20) = val_main_v20 (F := F) x1 x2
    ∧ after (pc5_1 (F := F)) U (Proc.devRef .tc main_v23) = val_main_v23 (F := F) x1 x2
    ∧ after (pc5_1 (F := F)) U (Proc.devRef .tc main_v28) = val_main_v28 (F := F) x0
    ∧ after (pc5_1 (F := F)) U (Proc.devRef .tc main_v29) = val_main_v29 (F := F) x1 x2
    ∧ after (pc5_1 (F := F)) U (Proc.devRef .tc main_v250) = val_main_v250 (F := F) x0 x1 x2
    ∧ after (pc5_1 (F := F)) U (Proc.devRef .tc main_call35_v3) = val_main_call35_v3 (F := F) x0
    ∧ after (pc5_1 (F := F)) U (Proc.devRef .tc main_call35_v4) = val_main_call35_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v250, i_main_call35_v0, i_main_call35_v1])
  all_goals (try rw [i_main_v20])
  all_goals (try rw [i_main_v23])
  all_goals (try rw [i_main_v28])
  all_goals (try rw [i_main_v29])
  all_goals (try rw [i_main_v250])
  all_goals (try rw [i_main_call35_v0])
  all_goals (try rw [i_main_call35_v1])
  all_goals (try rfl)

/-- Operations 485 to 487 of the line. -/
abbrev pc5_2 : List (HloOp τ sig (Elt F)) :=
  [ TRef.binary (TRef.of (T := ⟨S8x256x128x1, .f32⟩) main_call35_v3) (TRef.of (T := ⟨S8x256x128x127, .f32⟩) main_call35_v4) (TRef.of (T := ⟨S8x256x128x128, .f32⟩) main_v251) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x128x128, .f32⟩) main_call36_v0) (extractStridedSlice S8x128x128 ![0, 0, 0] · slices_S8x128x128_S8x128x128_0_0_0),
    TRef.unary (TRef.of (T := ⟨S8x128x128, .f32⟩) main_v28) (TRef.of (T := ⟨S8x0x128, .f32⟩) main_call36_v1) (extractStridedSlice S8x0x128 ![0, 0, 0] · slices_S8x128x128_S8x0x128_0_0_0) ]

set_option maxRecDepth 8192 in
set_option maxHeartbeats 100000000 in
theorem piece5_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v250 : U (Proc.devRef .tc main_v250) = val_main_v250 (F := F) x0 x1 x2)
    (i_main_call35_v3 : U (Proc.devRef .tc main_call35_v3) = val_main_call35_v3 (F := F) x0)
    (i_main_call35_v4 : U (Proc.devRef .tc main_call35_v4) = val_main_call35_v4 (F := F) x0) :
    (after (pc5_2 (F := F)) U (Proc.devRef .tc main_arg0) = x0
      ∧ after (pc5_2 (F := F)) U (Proc.devRef .tc main_arg1) = x1
      ∧ after (pc5_2 (F := F)) U (Proc.devRef .tc main_arg2) = x2)
    ∧ after (pc5_2 (F := F)) U (Proc.devRef .tc main_v20) = val_main_v20 (F := F) x1 x2
    ∧ after (pc5_2 (F := F)) U (Proc.devRef .tc main_v23) = val_main_v23 (F := F) x1 x2
    ∧ after (pc5_2 (F := F)) U (Proc.devRef .tc main_v28) = val_main_v28 (F := F) x0
    ∧ after (pc5_2 (F := F)) U (Proc.devRef .tc main_v29) = val_main_v29 (F := F) x1 x2
    ∧ after (pc5_2 (F := F)) U (Proc.devRef .tc main_v250) = val_main_v250 (F := F) x0 x1 x2
    ∧ after (pc5_2 (F := F)) U (Proc.devRef .tc main_v251) = val_main_v251 (F := F) x0
    ∧ after (pc5_2 (F := F)) U (Proc.devRef .tc main_call36_v0) = val_main_call36_v0 (F := F) x0
    ∧ after (pc5_2 (F := F)) U (Proc.devRef .tc main_call36_v1) = val_main_call36_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v250, i_main_call35_v3, i_main_call35_v4])
  all_goals (try rw [i_main_v20])
  all_goals (try rw [i_main_v23])
  all_goals (try rw [i_main_v28])
  all_goals (try rw [i_main_v29])
  all_goals (try rw [i_main_v250])
  all_goals (try rw [i_main_call35_v3])
  all_goals (try rw [i_main_call35_v4])
  all_goals (try rfl)

/-- Operations 488 to 490 of the line. -/
abbrev pc5_3 : List (HloOp τ sig (Elt F)) :=
  [ TRef.binary (TRef.of (T := ⟨S8x128x128, .f32⟩) main_call36_v0) (TRef.of (T := ⟨S8x0x128, .f32⟩) main_call36_v1) (TRef.of (T := ⟨S8x128x128, .f32⟩) main_call36_v2) (fun a b => concatenate S8x128x128 1 [⟨S8x128x128, a⟩, ⟨S8x0x128, b⟩] concatenates_S8x128x128_S8x0x128_S8x128x128_d1),
    TRef.unary (TRef.of (T := ⟨S8x128x128, .f32⟩) main_call36_v2) (TRef.of (T := ⟨S8x128x1, .f32⟩) main_call36_v3) (extractStridedSlice S8x128x1 ![0, 0, 127] · slices_S8x128x128_S8x128x1_0_0_127),
    TRef.unary (TRef.of (T := ⟨S8x128x128, .f32⟩) main_call36_v2) (TRef.of (T := ⟨S8x128x127, .f32⟩) main_call36_v4) (extractStridedSlice S8x128x127 ![0, 0, 0] · slices_S8x128x128_S8x128x127_0_0_0) ]

set_option maxRecDepth 8192 in
set_option maxHeartbeats 100000000 in
theorem piece5_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v250 : U (Proc.devRef .tc main_v250) = val_main_v250 (F := F) x0 x1 x2)
    (i_main_v251 : U (Proc.devRef .tc main_v251) = val_main_v251 (F := F) x0)
    (i_main_call36_v0 : U (Proc.devRef .tc main_call36_v0) = val_main_call36_v0 (F := F) x0)
    (i_main_call36_v1 : U (Proc.devRef .tc main_call36_v1) = val_main_call36_v1 (F := F) x0) :
    (after (pc5_3 (F := F)) U (Proc.devRef .tc main_arg0) = x0
      ∧ after (pc5_3 (F := F)) U (Proc.devRef .tc main_arg1) = x1
      ∧ after (pc5_3 (F := F)) U (Proc.devRef .tc main_arg2) = x2)
    ∧ after (pc5_3 (F := F)) U (Proc.devRef .tc main_v20) = val_main_v20 (F := F) x1 x2
    ∧ after (pc5_3 (F := F)) U (Proc.devRef .tc main_v23) = val_main_v23 (F := F) x1 x2
    ∧ after (pc5_3 (F := F)) U (Proc.devRef .tc main_v28) = val_main_v28 (F := F) x0
    ∧ after (pc5_3 (F := F)) U (Proc.devRef .tc main_v29) = val_main_v29 (F := F) x1 x2
    ∧ after (pc5_3 (F := F)) U (Proc.devRef .tc main_v250) = val_main_v250 (F := F) x0 x1 x2
    ∧ after (pc5_3 (F := F)) U (Proc.devRef .tc main_v251) = val_main_v251 (F := F) x0
    ∧ after (pc5_3 (F := F)) U (Proc.devRef .tc main_call36_v3) = val_main_call36_v3 (F := F) x0
    ∧ after (pc5_3 (F := F)) U (Proc.devRef .tc main_call36_v4) = val_main_call36_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v250, i_main_v251, i_main_call36_v0, i_main_call36_v1])
  all_goals (try rw [i_main_v20])
  all_goals (try rw [i_main_v23])
  all_goals (try rw [i_main_v28])
  all_goals (try rw [i_main_v29])
  all_goals (try rw [i_main_v250])
  all_goals (try rw [i_main_v251])
  all_goals (try rw [i_main_call36_v0])
  all_goals (try rw [i_main_call36_v1])
  all_goals (try rfl)

/-- Operations 491 to 493 of the line. -/
abbrev pc5_4 : List (HloOp τ sig (Elt F)) :=
  [ TRef.binary (TRef.of (T := ⟨S8x128x1, .f32⟩) main_call36_v3) (TRef.of (T := ⟨S8x128x127, .f32⟩) main_call36_v4) (TRef.of (T := ⟨S8x128x128, .f32⟩) main_v252) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x128x128, .i32⟩) main_call37_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call37_v1) (extractStridedSlice S8x0x128 ![0, 0, 0] · slices_S8x128x128_S8x0x128_0_0_0) ]

set_option maxRecDepth 8192 in
set_option maxHeartbeats 100000000 in
theorem piece5_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v250 : U (Proc.devRef .tc main_v250) = val_main_v250 (F := F) x0 x1 x2)
    (i_main_v251 : U (Proc.devRef .tc main_v251) = val_main_v251 (F := F) x0)
    (i_main_call36_v3 : U (Proc.devRef .tc main_call36_v3) = val_main_call36_v3 (F := F) x0)
    (i_main_call36_v4 : U (Proc.devRef .tc main_call36_v4) = val_main_call36_v4 (F := F) x0) :
    (after (pc5_4 (F := F)) U (Proc.devRef .tc main_arg0) = x0
      ∧ after (pc5_4 (F := F)) U (Proc.devRef .tc main_arg1) = x1
      ∧ after (pc5_4 (F := F)) U (Proc.devRef .tc main_arg2) = x2)
    ∧ after (pc5_4 (F := F)) U (Proc.devRef .tc main_v20) = val_main_v20 (F := F) x1 x2
    ∧ after (pc5_4 (F := F)) U (Proc.devRef .tc main_v23) = val_main_v23 (F := F) x1 x2
    ∧ after (pc5_4 (F := F)) U (Proc.devRef .tc main_v28) = val_main_v28 (F := F) x0
    ∧ after (pc5_4 (F := F)) U (Proc.devRef .tc main_v29) = val_main_v29 (F := F) x1 x2
    ∧ after (pc5_4 (F := F)) U (Proc.devRef .tc main_v250) = val_main_v250 (F := F) x0 x1 x2
    ∧ after (pc5_4 (F := F)) U (Proc.devRef .tc main_v251) = val_main_v251 (F := F) x0
    ∧ after (pc5_4 (F := F)) U (Proc.devRef .tc main_v252) = val_main_v252 (F := F) x0
    ∧ after (pc5_4 (F := F)) U (Proc.devRef .tc main_call37_v0) = val_main_call37_v0 (F := F) x1
    ∧ after (pc5_4 (F := F)) U (Proc.devRef .tc main_call37_v1) = val_main_call37_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v250, i_main_v251, i_main_call36_v3, i_main_call36_v4])
  all_goals (try rw [i_main_v20])
  all_goals (try rw [i_main_v23])
  all_goals (try rw [i_main_v28])
  all_goals (try rw [i_main_v29])
  all_goals (try rw [i_main_v250])
  all_goals (try rw [i_main_v251])
  all_goals (try rw [i_main_call36_v3])
  all_goals (try rw [i_main_call36_v4])
  all_goals (try rfl)

/-- Operations 494 to 496 of the line. -/
abbrev pc5_5 : List (HloOp τ sig (Elt F)) :=
  [ TRef.binary (TRef.of (T := ⟨S8x128x128, .i32⟩) main_call37_v0) (TRef.of (T := ⟨S8x0x128, .i32⟩) main_call37_v1) (TRef.of (T := ⟨S8x128x128, .i32⟩) main_call37_v2) (fun a b => concatenate S8x128x128 1 [⟨S8x128x128, a⟩, ⟨S8x0x128, b⟩] concatenates_S8x128x128_S8x0x128_S8x128x128_d1),
    TRef.unary (TRef.of (T := ⟨S8x128x128, .i32⟩) main_call37_v2) (TRef.of (T := ⟨S8x128x1, .i32⟩) main_call37_v3) (extractStridedSlice S8x128x1 ![0, 0, 127] · slices_S8x128x128_S8x128x1_0_0_127),
    TRef.unary (TRef.of (T := ⟨S8x128x128, .i32⟩) main_call37_v2) (TRef.of (T := ⟨S8x128x127, .i32⟩) main_call37_v4) (extractStridedSlice S8x128x127 ![0, 0, 0] · slices_S8x128x128_S8x128x127_0_0_0) ]

set_option maxRecDepth 8192 in
set_option maxHeartbeats 100000000 in
theorem piece5_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v250 : U (Proc.devRef .tc main_v250) = val_main_v250 (F := F) x0 x1 x2)
    (i_main_v251 : U (Proc.devRef .tc main_v251) = val_main_v251 (F := F) x0)
    (i_main_v252 : U (Proc.devRef .tc main_v252) = val_main_v252 (F := F) x0)
    (i_main_call37_v0 : U (Proc.devRef .tc main_call37_v0) = val_main_call37_v0 (F := F) x1)
    (i_main_call37_v1 : U (Proc.devRef .tc main_call37_v1) = val_main_call37_v1 (F := F) x1) :
    (after (pc5_5 (F := F)) U (Proc.devRef .tc main_arg0) = x0
      ∧ after (pc5_5 (F := F)) U (Proc.devRef .tc main_arg1) = x1
      ∧ after (pc5_5 (F := F)) U (Proc.devRef .tc main_arg2) = x2)
    ∧ after (pc5_5 (F := F)) U (Proc.devRef .tc main_v20) = val_main_v20 (F := F) x1 x2
    ∧ after (pc5_5 (F := F)) U (Proc.devRef .tc main_v23) = val_main_v23 (F := F) x1 x2
    ∧ after (pc5_5 (F := F)) U (Proc.devRef .tc main_v28) = val_main_v28 (F := F) x0
    ∧ after (pc5_5 (F := F)) U (Proc.devRef .tc main_v29) = val_main_v29 (F := F) x1 x2
    ∧ after (pc5_5 (F := F)) U (Proc.devRef .tc main_v250) = val_main_v250 (F := F) x0 x1 x2
    ∧ after (pc5_5 (F := F)) U (Proc.devRef .tc main_v251) = val_main_v251 (F := F) x0
    ∧ after (pc5_5 (F := F)) U (Proc.devRef .tc main_v252) = val_main_v252 (F := F) x0
    ∧ after (pc5_5 (F := F)) U (Proc.devRef .tc main_call37_v3) = val_main_call37_v3 (F := F) x1
    ∧ after (pc5_5 (F := F)) U (Proc.devRef .tc main_call37_v4) = val_main_call37_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v250, i_main_v251, i_main_v252, i_main_call37_v0, i_main_call37_v1])
  all_goals (try rw [i_main_v20])
  all_goals (try rw [i_main_v23])
  all_goals (try rw [i_main_v28])
  all_goals (try rw [i_main_v29])
  all_goals (try rw [i_main_v250])
  all_goals (try rw [i_main_v251])
  all_goals (try rw [i_main_v252])
  all_goals (try rw [i_main_call37_v0])
  all_goals (try rw [i_main_call37_v1])
  all_goals (try rfl)

/-- Operations 497 to 520 of the line. -/
abbrev pc5_6 : List (HloOp τ sig (Elt F)) :=
  [ TRef.binary (TRef.of (T := ⟨S8x128x1, .i32⟩) main_call37_v3) (TRef.of (T := ⟨S8x128x127, .i32⟩) main_call37_v4) (TRef.of (T := ⟨S8x128x128, .i32⟩) main_v253) (fun a b => concatenate S8x128x128 2 [⟨S8x128x1, a⟩, ⟨S8x128x127, b⟩] concatenates_S8x128x1_S8x128x127_S8x128x128_d2),
    binary main_arg0 main_v251 main_v254 (mulf : (⟨S8x256x128x128, .f32⟩ : BufTy).Contents (Elt F) → (⟨S8x256x128x128, .f32⟩ : BufTy).Contents (Elt F) → (⟨S8x256x128x128, .f32⟩ : BufTy).Contents (Elt F)),
    nullary main_cst_57 (constant S_ .f32 0x00000000#32),
    binary main_v254 main_cst_57 main_v255 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v252 main_v256 (mulf : (⟨S8x128x128, .f32⟩ : BufTy).Contents (Elt F) → (⟨S8x128x128, .f32⟩ : BufTy).Contents (Elt F) → (⟨S8x128x128, .f32⟩ : BufTy).Contents (Elt F)),
    binary main_v255 main_v256 main_v257 (Host.divf : (⟨S8x128x128, .f32⟩ : BufTy).Contents (Elt F) → (⟨S8x128x128, .f32⟩ : BufTy).Contents (Elt F) → (⟨S8x128x128, .f32⟩ : BufTy).Contents (Elt F)),
    binary main_arg1 main_v253 main_v258 (cmpi .eq : (⟨S8x128x128, .i32⟩ : BufTy).Contents (Elt F) → (⟨S8x128x128, .i32⟩ : BufTy).Contents (Elt F) → (⟨S8x128x128, .i1⟩ : BufTy).Contents (Elt F)),
    nullary main_c_58 (constantI S_ 32 2#32),
    unary main_c_58 main_v259 (broadcastInDim S8x128x128 ![] bcast_S_S8x128x128 : (⟨S_, .i32⟩ : BufTy).Contents (Elt F) → (⟨S8x128x128, .i32⟩ : BufTy).Contents (Elt F)),
    binary main_arg1 main_v259 main_v260 (cmpi .slt : (⟨S8x128x128, .i32⟩ : BufTy).Contents (Elt F) → (⟨S8x128x128, .i32⟩ : BufTy).Contents (Elt F) → (⟨S8x128x128, .i1⟩ : BufTy).Contents (Elt F)),
    binary main_v258 main_v260 main_v261 (andi : (⟨S8x128x128, .i1⟩ : BufTy).Contents (Elt F) → (⟨S8x128x128, .i1⟩ : BufTy).Contents (Elt F) → (⟨S8x128x128, .i1⟩ : BufTy).Contents (Elt F)),
    unary main_v261 main_v262 (uitofp .f32 : (⟨S8x128x128, .i1⟩ : BufTy).Contents (Elt F) → (⟨S8x128x128, .f32⟩ : BufTy).Contents (Elt F)),
    binary main_v257 main_v262 main_v263 (subf : (⟨S8x128x128, .f32⟩ : BufTy).Contents (Elt F) → (⟨S8x128x128, .f32⟩ : BufTy).Contents (Elt F) → (⟨S8x128x128, .f32⟩ : BufTy).Contents (Elt F)),
    binary main_v263 main_v263 main_v264 (mulf : (⟨S8x128x128, .f32⟩ : BufTy).Contents (Elt F) → (⟨S8x128x128, .f32⟩ : BufTy).Contents (Elt F) → (⟨S8x128x128, .f32⟩ : BufTy).Contents (Elt F)),
    binary main_v264 main_v29 main_v265 (mulf : (⟨S8x128x128, .f32⟩ : BufTy).Contents (Elt F) → (⟨S8x128x128, .f32⟩ : BufTy).Contents (Elt F) → (⟨S8x128x128, .f32⟩ : BufTy).Contents (Elt F)),
    nullary main_cst_59 (constant S_ .f32 0x00000000#32),
    binary main_v265 main_cst_59 main_v266 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_60 (constant S_ .f32 0x3F800000#32),
    unary main_cst_60 main_v267 (broadcastInDim S8 ![] bcast_S_S8 : (⟨S_, .f32⟩ : BufTy).Contents (Elt F) → (⟨S8, .f32⟩ : BufTy).Contents (Elt F)),
    binary main_v23 main_v267 main_v268 (maximumf : (⟨S8, .f32⟩ : BufTy).Contents (Elt F) → (⟨S8, .f32⟩ : BufTy).Contents (Elt F) → (⟨S8, .f32⟩ : BufTy).Contents (Elt F)),
    binary main_v266 main_v268 main_v269 (Host.divf : (⟨S8, .f32⟩ : BufTy).Contents (Elt F) → (⟨S8, .f32⟩ : BufTy).Contents (Elt F) → (⟨S8, .f32⟩ : BufTy).Contents (Elt F)),
    binary main_v250 main_v269 main_v270 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call38_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call38_v1) (extractStridedSlice S8x256x0x128 ![0, 0, 0, 0] · slices_S8x256x128x128_S8x256x0x128_0_0_0_0) ]

set_option maxRecDepth 8192 in
set_option maxHeartbeats 100000000 in
theorem piece5_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v250 : U (Proc.devRef .tc main_v250) = val_main_v250 (F := F) x0 x1 x2)
    (i_main_v251 : U (Proc.devRef .tc main_v251) = val_main_v251 (F := F) x0)
    (i_main_v252 : U (Proc.devRef .tc main_v252) = val_main_v252 (F := F) x0)
    (i_main_call37_v3 : U (Proc.devRef .tc main_call37_v3) = val_main_call37_v3 (F := F) x1)
    (i_main_call37_v4 : U (Proc.devRef .tc main_call37_v4) = val_main_call37_v4 (F := F) x1) :
    (after (pc5_6 (F := F)) U (Proc.devRef .tc main_arg0) = x0
      ∧ after (pc5_6 (F := F)) U (Proc.devRef .tc main_arg1) = x1
      ∧ after (pc5_6 (F := F)) U (Proc.devRef .tc main_arg2) = x2)
    ∧ after (pc5_6 (F := F)) U (Proc.devRef .tc main_v20) = val_main_v20 (F := F) x1 x2
    ∧ after (pc5_6 (F := F)) U (Proc.devRef .tc main_v23) = val_main_v23 (F := F) x1 x2
    ∧ after (pc5_6 (F := F)) U (Proc.devRef .tc main_v28) = val_main_v28 (F := F) x0
    ∧ after (pc5_6 (F := F)) U (Proc.devRef .tc main_v29) = val_main_v29 (F := F) x1 x2
    ∧ after (pc5_6 (F := F)) U (Proc.devRef .tc main_v270) = val_main_v270 (F := F) x0 x1 x2
    ∧ after (pc5_6 (F := F)) U (Proc.devRef .tc main_call38_v0) = val_main_call38_v0 (F := F) x0
    ∧ after (pc5_6 (F := F)) U (Proc.devRef .tc main_call38_v1) = val_main_call38_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v250, i_main_v251, i_main_v252, i_main_call37_v3, i_main_call37_v4])
  all_goals (try rw [i_main_v20])
  all_goals (try rw [i_main_v23])
  all_goals (try rw [i_main_v28])
  all_goals (try rw [i_main_v29])
  all_goals (try rw [i_main_v250])
  all_goals (try rw [i_main_v251])
  all_goals (try rw [i_main_v252])
  all_goals (try rw [i_main_call37_v3])
  all_goals (try rw [i_main_call37_v4])
  all_goals (try rfl)

/-- Operations 521 to 523 of the line. -/
abbrev pc5_7 : List (HloOp τ sig (Elt F)) :=
  [ TRef.binary (TRef.of (T := ⟨S8x256x128x128, .f32⟩) main_call38_v0) (TRef.of (T := ⟨S8x256x0x128, .f32⟩) main_call38_v1) (TRef.of (T := ⟨S8x256x128x128, .f32⟩) main_call38_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call38_v2) (TRef.of (T := ⟨S8x256x128x127, .f32⟩) main_call38_v3) (extractStridedSlice S8x256x128x127 ![0, 0, 0, 1] · slices_S8x256x128x128_S8x256x128x127_0_0_0_1),
    TRef.unary (TRef.of (T := ⟨S8x256x128x128, .f32⟩) main_call38_v2) (TRef.of (T := ⟨S8x256x128x1, .f32⟩) main_call38_v4) (extractStridedSlice S8x256x128x1 ![0, 0, 0, 0] · slices_S8x256x128x128_S8x256x128x1_0_0_0_0) ]

set_option maxRecDepth 8192 in
set_option maxHeartbeats 100000000 in
theorem piece5_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v270 : U (Proc.devRef .tc main_v270) = val_main_v270 (F := F) x0 x1 x2)
    (i_main_call38_v0 : U (Proc.devRef .tc main_call38_v0) = val_main_call38_v0 (F := F) x0)
    (i_main_call38_v1 : U (Proc.devRef .tc main_call38_v1) = val_main_call38_v1 (F := F) x0) :
    (after (pc5_7 (F := F)) U (Proc.devRef .tc main_arg0) = x0
      ∧ after (pc5_7 (F := F)) U (Proc.devRef .tc main_arg1) = x1
      ∧ after (pc5_7 (F := F)) U (Proc.devRef .tc main_arg2) = x2)
    ∧ after (pc5_7 (F := F)) U (Proc.devRef .tc main_v20) = val_main_v20 (F := F) x1 x2
    ∧ after (pc5_7 (F := F)) U (Proc.devRef .tc main_v23) = val_main_v23 (F := F) x1 x2
    ∧ after (pc5_7 (F := F)) U (Proc.devRef .tc main_v28) = val_main_v28 (F := F) x0
    ∧ after (pc5_7 (F := F)) U (Proc.devRef .tc main_v29) = val_main_v29 (F := F) x1 x2
    ∧ after (pc5_7 (F := F)) U (Proc.devRef .tc main_v270) = val_main_v270 (F := F) x0 x1 x2
    ∧ after (pc5_7 (F := F)) U (Proc.devRef .tc main_call38_v3) = val_main_call38_v3 (F := F) x0
    ∧ after (pc5_7 (F := F)) U (Proc.devRef .tc main_call38_v4) = val_main_call38_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v270, i_main_call38_v0, i_main_call38_v1])
  all_goals (try rw [i_main_v20])
  all_goals (try rw [i_main_v23])
  all_goals (try rw [i_main_v28])
  all_goals (try rw [i_main_v29])
  all_goals (try rw [i_main_v270])
  all_goals (try rw [i_main_call38_v0])
  all_goals (try rw [i_main_call38_v1])
  all_goals (try rfl)

/-- Operations 524 to 526 of the line. -/
abbrev pc5_8 : List (HloOp τ sig (Elt F)) :=
  [ TRef.binary (TRef.of (T := ⟨S8x256x128x127, .f32⟩) main_call38_v3) (TRef.of (T := ⟨S8x256x128x1, .f32⟩) main_call38_v4) (TRef.of (T := ⟨S8x256x128x128, .f32⟩) main_v271) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x128x128, .f32⟩) main_call39_v0) (extractStridedSlice S8x128x128 ![0, 0, 0] · slices_S8x128x128_S8x128x128_0_0_0),
    TRef.unary (TRef.of (T := ⟨S8x128x128, .f32⟩) main_v28) (TRef.of (T := ⟨S8x0x128, .f32⟩) main_call39_v1) (extractStridedSlice S8x0x128 ![0, 0, 0] · slices_S8x128x128_S8x0x128_0_0_0) ]

set_option maxRecDepth 8192 in
set_option maxHeartbeats 100000000 in
theorem piece5_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v270 : U (Proc.devRef .tc main_v270) = val_main_v270 (F := F) x0 x1 x2)
    (i_main_call38_v3 : U (Proc.devRef .tc main_call38_v3) = val_main_call38_v3 (F := F) x0)
    (i_main_call38_v4 : U (Proc.devRef .tc main_call38_v4) = val_main_call38_v4 (F := F) x0) :
    (after (pc5_8 (F := F)) U (Proc.devRef .tc main_arg0) = x0
      ∧ after (pc5_8 (F := F)) U (Proc.devRef .tc main_arg1) = x1
      ∧ after (pc5_8 (F := F)) U (Proc.devRef .tc main_arg2) = x2)
    ∧ after (pc5_8 (F := F)) U (Proc.devRef .tc main_v20) = val_main_v20 (F := F) x1 x2
    ∧ after (pc5_8 (F := F)) U (Proc.devRef .tc main_v23) = val_main_v23 (F := F) x1 x2
    ∧ after (pc5_8 (F := F)) U (Proc.devRef .tc main_v28) = val_main_v28 (F := F) x0
    ∧ after (pc5_8 (F := F)) U (Proc.devRef .tc main_v29) = val_main_v29 (F := F) x1 x2
    ∧ after (pc5_8 (F := F)) U (Proc.devRef .tc main_v270) = val_main_v270 (F := F) x0 x1 x2
    ∧ after (pc5_8 (F := F)) U (Proc.devRef .tc main_v271) = val_main_v271 (F := F) x0
    ∧ after (pc5_8 (F := F)) U (Proc.devRef .tc main_call39_v0) = val_main_call39_v0 (F := F) x0
    ∧ after (pc5_8 (F := F)) U (Proc.devRef .tc main_call39_v1) = val_main_call39_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v270, i_main_call38_v3, i_main_call38_v4])
  all_goals (try rw [i_main_v20])
  all_goals (try rw [i_main_v23])
  all_goals (try rw [i_main_v28])
  all_goals (try rw [i_main_v29])
  all_goals (try rw [i_main_v270])
  all_goals (try rw [i_main_call38_v3])
  all_goals (try rw [i_main_call38_v4])
  all_goals (try rfl)

/-- Operations 527 to 529 of the line. -/
abbrev pc5_9 : List (HloOp τ sig (Elt F)) :=
  [ TRef.binary (TRef.of (T := ⟨S8x128x128, .f32⟩) main_call39_v0) (TRef.of (T := ⟨S8x0x128, .f32⟩) main_call39_v1) (TRef.of (T := ⟨S8x128x128, .f32⟩) main_call39_v2) (fun a b => concatenate S8x128x128 1 [⟨S8x128x128, a⟩, ⟨S8x0x128, b⟩] concatenates_S8x128x128_S8x0x128_S8x128x128_d1),
    TRef.unary (TRef.of (T := ⟨S8x128x128, .f32⟩) main_call39_v2) (TRef.of (T := ⟨S8x128x127, .f32⟩) main_call39_v3) (extractStridedSlice S8x128x127 ![0, 0, 1] · slices_S8x128x128_S8x128x127_0_0_1),
    TRef.unary (TRef.of (T := ⟨S8x128x128, .f32⟩) main_call39_v2) (TRef.of (T := ⟨S8x128x1, .f32⟩) main_call39_v4) (extractStridedSlice S8x128x1 ![0, 0, 0] · slices_S8x128x128_S8x128x1_0_0_0) ]

set_option maxRecDepth 8192 in
set_option maxHeartbeats 100000000 in
theorem piece5_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v270 : U (Proc.devRef .tc main_v270) = val_main_v270 (F := F) x0 x1 x2)
    (i_main_v271 : U (Proc.devRef .tc main_v271) = val_main_v271 (F := F) x0)
    (i_main_call39_v0 : U (Proc.devRef .tc main_call39_v0) = val_main_call39_v0 (F := F) x0)
    (i_main_call39_v1 : U (Proc.devRef .tc main_call39_v1) = val_main_call39_v1 (F := F) x0) :
    (after (pc5_9 (F := F)) U (Proc.devRef .tc main_arg0) = x0
      ∧ after (pc5_9 (F := F)) U (Proc.devRef .tc main_arg1) = x1
      ∧ after (pc5_9 (F := F)) U (Proc.devRef .tc main_arg2) = x2)
    ∧ after (pc5_9 (F := F)) U (Proc.devRef .tc main_v20) = val_main_v20 (F := F) x1 x2
    ∧ after (pc5_9 (F := F)) U (Proc.devRef .tc main_v23) = val_main_v23 (F := F) x1 x2
    ∧ after (pc5_9 (F := F)) U (Proc.devRef .tc main_v28) = val_main_v28 (F := F) x0
    ∧ after (pc5_9 (F := F)) U (Proc.devRef .tc main_v29) = val_main_v29 (F := F) x1 x2
    ∧ after (pc5_9 (F := F)) U (Proc.devRef .tc main_v270) = val_main_v270 (F := F) x0 x1 x2
    ∧ after (pc5_9 (F := F)) U (Proc.devRef .tc main_v271) = val_main_v271 (F := F) x0
    ∧ after (pc5_9 (F := F)) U (Proc.devRef .tc main_call39_v3) = val_main_call39_v3 (F := F) x0
    ∧ after (pc5_9 (F := F)) U (Proc.devRef .tc main_call39_v4) = val_main_call39_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v270, i_main_v271, i_main_call39_v0, i_main_call39_v1])
  all_goals (try rw [i_main_v20])
  all_goals (try rw [i_main_v23])
  all_goals (try rw [i_main_v28])
  all_goals (try rw [i_main_v29])
  all_goals (try rw [i_main_v270])
  all_goals (try rw [i_main_v271])
  all_goals (try rw [i_main_call39_v0])
  all_goals (try rw [i_main_call39_v1])
  all_goals (try rfl)

/-- Operations 530 to 532 of the line. -/
abbrev pc5_10 : List (HloOp τ sig (Elt F)) :=
  [ TRef.binary (TRef.of (T := ⟨S8x128x127, .f32⟩) main_call39_v3) (TRef.of (T := ⟨S8x128x1, .f32⟩) main_call39_v4) (TRef.of (T := ⟨S8x128x128, .f32⟩) main_v272) (fun a b => concatenate S8x128x128 2 [⟨S8x128x127, a⟩, ⟨S8x128x1, b⟩] concatenates_S8x128x127_S8x128x1_S8x128x128_d2),
    TRef.unary (TRef.of (T := ⟨S8x128x128, .i32⟩) main_arg1) (TRef.of (T := ⟨S8x128x128, .i32⟩) main_call40_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call40_v1) (extractStridedSlice S8x0x128 ![0, 0, 0] · slices_S8x128x128_S8x0x128_0_0_0) ]

set_option maxRecDepth 8192 in
set_option maxHeartbeats 100000000 in
theorem piece5_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v270 : U (Proc.devRef .tc main_v270) = val_main_v270 (F := F) x0 x1 x2)
    (i_main_v271 : U (Proc.devRef .tc main_v271) = val_main_v271 (F := F) x0)
    (i_main_call39_v3 : U (Proc.devRef .tc main_call39_v3) = val_main_call39_v3 (F := F) x0)
    (i_main_call39_v4 : U (Proc.devRef .tc main_call39_v4) = val_main_call39_v4 (F := F) x0) :
    (after (pc5_10 (F := F)) U (Proc.devRef .tc main_arg0) = x0
      ∧ after (pc5_10 (F := F)) U (Proc.devRef .tc main_arg1) = x1
      ∧ after (pc5_10 (F := F)) U (Proc.devRef .tc main_arg2) = x2)
    ∧ after (pc5_10 (F := F)) U (Proc.devRef .tc main_v20) = val_main_v20 (F := F) x1 x2
    ∧ after (pc5_10 (F := F)) U (Proc.devRef .tc main_v23) = val_main_v23 (F := F) x1 x2
    ∧ after (pc5_10 (F := F)) U (Proc.devRef .tc main_v28) = val_main_v28 (F := F) x0
    ∧ after (pc5_10 (F := F)) U (Proc.devRef .tc main_v29) = val_main_v29 (F := F) x1 x2
    ∧ after (pc5_10 (F := F)) U (Proc.devRef .tc main_v270) = val_main_v270 (F := F) x0 x1 x2
    ∧ after (pc5_10 (F := F)) U (Proc.devRef .tc main_v271) = val_main_v271 (F := F) x0
    ∧ after (pc5_10 (F := F)) U (Proc.devRef .tc main_v272) = val_main_v272 (F := F) x0
    ∧ after (pc5_10 (F := F)) U (Proc.devRef .tc main_call40_v0) = val_main_call40_v0 (F := F) x1
    ∧ after (pc5_10 (F := F)) U (Proc.devRef .tc main_call40_v1) = val_main_call40_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v270, i_main_v271, i_main_call39_v3, i_main_call39_v4])
  all_goals (try rw [i_main_v20])
  all_goals (try rw [i_main_v23])
  all_goals (try rw [i_main_v28])
  all_goals (try rw [i_main_v29])
  all_goals (try rw [i_main_v270])
  all_goals (try rw [i_main_v271])
  all_goals (try rw [i_main_call39_v3])
  all_goals (try rw [i_main_call39_v4])
  all_goals (try rfl)

/-- Operations 533 to 535 of the line. -/
abbrev pc5_11 : List (HloOp τ sig (Elt F)) :=
  [ TRef.binary (TRef.of (T := ⟨S8x128x128, .i32⟩) main_call40_v0) (TRef.of (T := ⟨S8x0x128, .i32⟩) main_call40_v1) (TRef.of (T := ⟨S8x128x128, .i32⟩) main_call40_v2) (fun a b => concatenate S8x128x128 1 [⟨S8x128x128, a⟩, ⟨S8x0x128, b⟩] concatenates_S8x128x128_S8x0x128_S8x128x128_d1),
    TRef.unary (TRef.of (T := ⟨S8x128x128, .i32⟩) main_call40_v2) (TRef.of (T := ⟨S8x128x127, .i32⟩) main_call40_v3) (extractStridedSlice S8x128x127 ![0, 0, 1] · slices_S8x128x128_S8x128x127_0_0_1),
    TRef.unary (TRef.of (T := ⟨S8x128x128, .i32⟩) main_call40_v2) (TRef.of (T := ⟨S8x128x1, .i32⟩) main_call40_v4) (extractStridedSlice S8x128x1 ![0, 0, 0] · slices_S8x128x128_S8x128x1_0_0_0) ]

set_option maxRecDepth 8192 in
set_option maxHeartbeats 100000000 in
theorem piece5_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v270 : U (Proc.devRef .tc main_v270) = val_main_v270 (F := F) x0 x1 x2)
    (i_main_v271 : U (Proc.devRef .tc main_v271) = val_main_v271 (F := F) x0)
    (i_main_v272 : U (Proc.devRef .tc main_v272) = val_main_v272 (F := F) x0)
    (i_main_call40_v0 : U (Proc.devRef .tc main_call40_v0) = val_main_call40_v0 (F := F) x1)
    (i_main_call40_v1 : U (Proc.devRef .tc main_call40_v1) = val_main_call40_v1 (F := F) x1) :
    (after (pc5_11 (F := F)) U (Proc.devRef .tc main_arg0) = x0
      ∧ after (pc5_11 (F := F)) U (Proc.devRef .tc main_arg1) = x1
      ∧ after (pc5_11 (F := F)) U (Proc.devRef .tc main_arg2) = x2)
    ∧ after (pc5_11 (F := F)) U (Proc.devRef .tc main_v20) = val_main_v20 (F := F) x1 x2
    ∧ after (pc5_11 (F := F)) U (Proc.devRef .tc main_v23) = val_main_v23 (F := F) x1 x2
    ∧ after (pc5_11 (F := F)) U (Proc.devRef .tc main_v28) = val_main_v28 (F := F) x0
    ∧ after (pc5_11 (F := F)) U (Proc.devRef .tc main_v29) = val_main_v29 (F := F) x1 x2
    ∧ after (pc5_11 (F := F)) U (Proc.devRef .tc main_v270) = val_main_v270 (F := F) x0 x1 x2
    ∧ after (pc5_11 (F := F)) U (Proc.devRef .tc main_v271) = val_main_v271 (F := F) x0
    ∧ after (pc5_11 (F := F)) U (Proc.devRef .tc main_v272) = val_main_v272 (F := F) x0
    ∧ after (pc5_11 (F := F)) U (Proc.devRef .tc main_call40_v3) = val_main_call40_v3 (F := F) x1
    ∧ after (pc5_11 (F := F)) U (Proc.devRef .tc main_call40_v4) = val_main_call40_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v270, i_main_v271, i_main_v272, i_main_call40_v0, i_main_call40_v1])
  all_goals (try rw [i_main_v20])
  all_goals (try rw [i_main_v23])
  all_goals (try rw [i_main_v28])
  all_goals (try rw [i_main_v29])
  all_goals (try rw [i_main_v270])
  all_goals (try rw [i_main_v271])
  all_goals (try rw [i_main_v272])
  all_goals (try rw [i_main_call40_v0])
  all_goals (try rw [i_main_call40_v1])
  all_goals (try rfl)

/-- Operations 536 to 559 of the line. -/
abbrev pc5_12 : List (HloOp τ sig (Elt F)) :=
  [ TRef.binary (TRef.of (T := ⟨S8x128x127, .i32⟩) main_call40_v3) (TRef.of (T := ⟨S8x128x1, .i32⟩) main_call40_v4) (TRef.of (T := ⟨S8x128x128, .i32⟩) main_v273) (fun a b => concatenate S8x128x128 2 [⟨S8x128x127, a⟩, ⟨S8x128x1, b⟩] concatenates_S8x128x127_S8x128x1_S8x128x128_d2),
    binary main_arg0 main_v271 main_v274 (mulf : (⟨S8x256x128x128, .f32⟩ : BufTy).Contents (Elt F) → (⟨S8x256x128x128, .f32⟩ : BufTy).Contents (Elt F) → (⟨S8x256x128x128, .f32⟩ : BufTy).Contents (Elt F)),
    nullary main_cst_61 (constant S_ .f32 0x00000000#32),
    binary main_v274 main_cst_61 main_v275 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v272 main_v276 (mulf : (⟨S8x128x128, .f32⟩ : BufTy).Contents (Elt F) → (⟨S8x128x128, .f32⟩ : BufTy).Contents (Elt F) → (⟨S8x128x128, .f32⟩ : BufTy).Contents (Elt F)),
    binary main_v275 main_v276 main_v277 (Host.divf : (⟨S8x128x128, .f32⟩ : BufTy).Contents (Elt F) → (⟨S8x128x128, .f32⟩ : BufTy).Contents (Elt F) → (⟨S8x128x128, .f32⟩ : BufTy).Contents (Elt F)),
    binary main_arg1 main_v273 main_v278 (cmpi .eq : (⟨S8x128x128, .i32⟩ : BufTy).Contents (Elt F) → (⟨S8x128x128, .i32⟩ : BufTy).Contents (Elt F) → (⟨S8x128x128, .i1⟩ : BufTy).Contents (Elt F)),
    nullary main_c_62 (constantI S_ 32 2#32),
    unary main_c_62 main_v279 (broadcastInDim S8x128x128 ![] bcast_S_S8x128x128 : (⟨S_, .i32⟩ : BufTy).Contents (Elt F) → (⟨S8x128x128, .i32⟩ : BufTy).Contents (Elt F)),
    binary main_arg1 main_v279 main_v280 (cmpi .slt : (⟨S8x128x128, .i32⟩ : BufTy).Contents (Elt F) → (⟨S8x128x128, .i32⟩ : BufTy).Contents (Elt F) → (⟨S8x128x128, .i1⟩ : BufTy).Contents (Elt F)),
    binary main_v278 main_v280 main_v281 (andi : (⟨S8x128x128, .i1⟩ : BufTy).Contents (Elt F) → (⟨S8x128x128, .i1⟩ : BufTy).Contents (Elt F) → (⟨S8x128x128, .i1⟩ : BufTy).Contents (Elt F)),
    unary main_v281 main_v282 (uitofp .f32 : (⟨S8x128x128, .i1⟩ : BufTy).Contents (Elt F) → (⟨S8x128x128, .f32⟩ : BufTy).Contents (Elt F)),
    binary main_v277 main_v282 main_v283 (subf : (⟨S8x128x128, .f32⟩ : BufTy).Contents (Elt F) → (⟨S8x128x128, .f32⟩ : BufTy).Contents (Elt F) → (⟨S8x128x128, .f32⟩ : BufTy).Contents (Elt F)),
    binary main_v283 main_v283 main_v284 (mulf : (⟨S8x128x128, .f32⟩ : BufTy).Contents (Elt F) → (⟨S8x128x128, .f32⟩ : BufTy).Contents (Elt F) → (⟨S8x128x128, .f32⟩ : BufTy).Contents (Elt F)),
    binary main_v284 main_v29 main_v285 (mulf : (⟨S8x128x128, .f32⟩ : BufTy).Contents (Elt F) → (⟨S8x128x128, .f32⟩ : BufTy).Contents (Elt F) → (⟨S8x128x128, .f32⟩ : BufTy).Contents (Elt F)),
    nullary main_cst_63 (constant S_ .f32 0x00000000#32),
    binary main_v285 main_cst_63 main_v286 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_64 (constant S_ .f32 0x3F800000#32),
    unary main_cst_64 main_v287 (broadcastInDim S8 ![] bcast_S_S8 : (⟨S_, .f32⟩ : BufTy).Contents (Elt F) → (⟨S8, .f32⟩ : BufTy).Contents (Elt F)),
    binary main_v23 main_v287 main_v288 (maximumf : (⟨S8, .f32⟩ : BufTy).Contents (Elt F) → (⟨S8, .f32⟩ : BufTy).Contents (Elt F) → (⟨S8, .f32⟩ : BufTy).Contents (Elt F)),
    binary main_v286 main_v288 main_v289 (Host.divf : (⟨S8, .f32⟩ : BufTy).Contents (Elt F) → (⟨S8, .f32⟩ : BufTy).Contents (Elt F) → (⟨S8, .f32⟩ : BufTy).Contents (Elt F)),
    binary main_v270 main_v289 main_v290 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x128x128, .f32⟩) main_call41_v0) (extractStridedSlice S8x256x128x128 ![0, 0, 0, 0] · slices_S8x256x128x128_S8x256x128x128_0_0_0_0),
    TRef.unary (TRef.of (T := ⟨S8x256x128x128, .f32⟩) main_arg0) (TRef.of (T := ⟨S8x256x0x128, .f32⟩) main_call41_v1) (extractStridedSlice S8x256x0x128 ![0, 0, 0, 0] · slices_S8x256x128x128_S8x256x0x128_0_0_0_0) ]

set_option maxRecDepth 8192 in
set_option maxHeartbeats 100000000 in
theorem piece5_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v270 : U (Proc.devRef .tc main_v270) = val_main_v270 (F := F) x0 x1 x2)
    (i_main_v271 : U (Proc.devRef .tc main_v271) = val_main_v271 (F := F) x0)
    (i_main_v272 : U (Proc.devRef .tc main_v272) = val_main_v272 (F := F) x0)
    (i_main_call40_v3 : U (Proc.devRef .tc main_call40_v3) = val_main_call40_v3 (F := F) x1)
    (i_main_call40_v4 : U (Proc.devRef .tc main_call40_v4) = val_main_call40_v4 (F := F) x1) :
    (after (pc5_12 (F := F)) U (Proc.devRef .tc main_arg0) = x0
      ∧ after (pc5_12 (F := F)) U (Proc.devRef .tc main_arg1) = x1
      ∧ after (pc5_12 (F := F)) U (Proc.devRef .tc main_arg2) = x2)
    ∧ after (pc5_12 (F := F)) U (Proc.devRef .tc main_v20) = val_main_v20 (F := F) x1 x2
    ∧ after (pc5_12 (F := F)) U (Proc.devRef .tc main_v23) = val_main_v23 (F := F) x1 x2
    ∧ after (pc5_12 (F := F)) U (Proc.devRef .tc main_v28) = val_main_v28 (F := F) x0
    ∧ after (pc5_12 (F := F)) U (Proc.devRef .tc main_v29) = val_main_v29 (F := F) x1 x2
    ∧ after (pc5_12 (F := F)) U (Proc.devRef .tc main_v290) = val_main_v290 (F := F) x0 x1 x2
    ∧ after (pc5_12 (F := F)) U (Proc.devRef .tc main_call41_v0) = val_main_call41_v0 (F := F) x0
    ∧ after (pc5_12 (F := F)) U (Proc.devRef .tc main_call41_v1) = val_main_call41_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v270, i_main_v271, i_main_v272, i_main_call40_v3, i_main_call40_v4])
  all_goals (try rw [i_main_v20])
  all_goals (try rw [i_main_v23])
  all_goals (try rw [i_main_v28])
  all_goals (try rw [i_main_v29])
  all_goals (try rw [i_main_v270])
  all_goals (try rw [i_main_v271])
  all_goals (try rw [i_main_v272])
  all_goals (try rw [i_main_call40_v3])
  all_goals (try rw [i_main_call40_v4])
  all_goals (try rfl)

/-- Operations 560 to 562 of the line. -/
abbrev pc5_13 : List (HloOp τ sig (Elt F)) :=
  [ TRef.binary (TRef.of (T := ⟨S8x256x128x128, .f32⟩) main_call41_v0) (TRef.of (T := ⟨S8x256x0x128, .f32⟩) main_call41_v1) (TRef.of (T := ⟨S8x256x128x128, .f32⟩) main_call41_v2) (fun a b => concatenate S8x256x128x128 2 [⟨S8x256x128x128, a⟩, ⟨S8x256x0x128, b⟩] concatenates_S8x256x128x128_S8x256x0x128_S8x256x128x128_d2),
    TRef.unary (TRef.of (T := ⟨S8x256x128x128, .f32⟩) main_call41_v2) (TRef.of (T := ⟨S8x256x128x126, .f32⟩) main_call41_v3) (extractStridedSlice S8x256x128x126 ![0, 0, 0, 2] · slices_S8x256x128x128_S8x256x128x126_0_0_0_2),
    TRef.unary (TRef.of (T := ⟨S8x256x128x128, .f32⟩) main_call41_v2) (TRef.of (T := ⟨S8x256x128x2, .f32⟩) main_call41_v4) (extractStridedSlice S8x256x128x2 ![0, 0, 0, 0] · slices_S8x256x128x128_S8x256x128x2_0_0_0_0) ]

set_option maxRecDepth 8192 in
set_option maxHeartbeats 100000000 in
theorem piece5_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_call41_v0 : U (Proc.devRef .tc main_call41_v0) = val_main_call41_v0 (F := F) x0)
    (i_main_call41_v1 : U (Proc.devRef .tc main_call41_v1) = val_main_call41_v1 (F := F) x0) :
    (after (pc5_13 (F := F)) U (Proc.devRef .tc main_arg0) = x0
      ∧ after (pc5_13 (F := F)) U (Proc.devRef .tc main_arg1) = x1
      ∧ after (pc5_13 (F := F)) U (Proc.devRef .tc main_arg2) = x2)
    ∧ after (pc5_13 (F := F)) U (Proc.devRef .tc main_v20) = val_main_v20 (F := F) x1 x2
    ∧ after (pc5_13 (F := F)) U (Proc.devRef .tc main_v23) = val_main_v23 (F := F) x1 x2
    ∧ after (pc5_13 (F := F)) U (Proc.devRef .tc main_v28) = val_main_v28 (F := F) x0
    ∧ after (pc5_13 (F := F)) U (Proc.devRef .tc main_v29) = val_main_v29 (F := F) x1 x2
    ∧ after (pc5_13 (F := F)) U (Proc.devRef .tc main_v290) = val_main_v290 (F := F) x0 x1 x2
    ∧ after (pc5_13 (F := F)) U (Proc.devRef .tc main_call41_v3) = val_main_call41_v3 (F := F) x0
    ∧ after (pc5_13 (F := F)) U (Proc.devRef .tc main_call41_v4) = val_main_call41_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v290, i_main_call41_v0, i_main_call41_v1])
  all_goals (try rw [i_main_v20])
  all_goals (try rw [i_main_v23])
  all_goals (try rw [i_main_v28])
  all_goals (try rw [i_main_v29])
  all_goals (try rw [i_main_v290])
  all_goals (try rw [i_main_call41_v0])
  all_goals (try rw [i_main_call41_v1])
  all_goals (try rfl)

/-- Operations 563 to 565 of the line. -/
abbrev pc5_14 : List (HloOp τ sig (Elt F)) :=
  [ TRef.binary (TRef.of (T := ⟨S8x256x128x126, .f32⟩) main_call41_v3) (TRef.of (T := ⟨S8x256x128x2, .f32⟩) main_call41_v4) (TRef.of (T := ⟨S8x256x128x128, .f32⟩) main_v291) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x128x128, .f32⟩) main_call42_v0) (extractStridedSlice S8x128x128 ![0, 0, 0] · slices_S8x128x128_S8x128x128_0_0_0),
    TRef.unary (TRef.of (T := ⟨S8x128x128, .f32⟩) main_v28) (TRef.of (T := ⟨S8x0x128, .f32⟩) main_call42_v1) (extractStridedSlice S8x0x128 ![0, 0, 0] · slices_S8x128x128_S8x0x128_0_0_0) ]

set_option maxRecDepth 8192 in
set_option maxHeartbeats 100000000 in
theorem piece5_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_call41_v3 : U (Proc.devRef .tc main_call41_v3) = val_main_call41_v3 (F := F) x0)
    (i_main_call41_v4 : U (Proc.devRef .tc main_call41_v4) = val_main_call41_v4 (F := F) x0) :
    (after (pc5_14 (F := F)) U (Proc.devRef .tc main_arg0) = x0
      ∧ after (pc5_14 (F := F)) U (Proc.devRef .tc main_arg1) = x1
      ∧ after (pc5_14 (F := F)) U (Proc.devRef .tc main_arg2) = x2)
    ∧ after (pc5_14 (F := F)) U (Proc.devRef .tc main_v20) = val_main_v20 (F := F) x1 x2
    ∧ after (pc5_14 (F := F)) U (Proc.devRef .tc main_v23) = val_main_v23 (F := F) x1 x2
    ∧ after (pc5_14 (F := F)) U (Proc.devRef .tc main_v28) = val_main_v28 (F := F) x0
    ∧ after (pc5_14 (F := F)) U (Proc.devRef .tc main_v29) = val_main_v29 (F := F) x1 x2
    ∧ after (pc5_14 (F := F)) U (Proc.devRef .tc main_v290) = val_main_v290 (F := F) x0 x1 x2
    ∧ after (pc5_14 (F := F)) U (Proc.devRef .tc main_v291) = val_main_v291 (F := F) x0
    ∧ after (pc5_14 (F := F)) U (Proc.devRef .tc main_call42_v0) = val_main_call42_v0 (F := F) x0
    ∧ after (pc5_14 (F := F)) U (Proc.devRef .tc main_call42_v1) = val_main_call42_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v290, i_main_call41_v3, i_main_call41_v4])
  all_goals (try rw [i_main_v20])
  all_goals (try rw [i_main_v23])
  all_goals (try rw [i_main_v28])
  all_goals (try rw [i_main_v29])
  all_goals (try rw [i_main_v290])
  all_goals (try rw [i_main_call41_v3])
  all_goals (try rw [i_main_call41_v4])
  all_goals (try rfl)

/-- Operations 566 to 568 of the line. -/
abbrev pc5_15 : List (HloOp τ sig (Elt F)) :=
  [ TRef.binary (TRef.of (T := ⟨S8x128x128, .f32⟩) main_call42_v0) (TRef.of (T := ⟨S8x0x128, .f32⟩) main_call42_v1) (TRef.of (T := ⟨S8x128x128, .f32⟩) main_call42_v2) (fun a b => concatenate S8x128x128 1 [⟨S8x128x128, a⟩, ⟨S8x0x128, b⟩] concatenates_S8x128x128_S8x0x128_S8x128x128_d1),
    TRef.unary (TRef.of (T := ⟨S8x128x128, .f32⟩) main_call42_v2) (TRef.of (T := ⟨S8x128x126, .f32⟩) main_call42_v3) (extractStridedSlice S8x128x126 ![0, 0, 2] · slices_S8x128x128_S8x128x126_0_0_2),
    TRef.unary (TRef.of (T := ⟨S8x128x128, .f32⟩) main_call42_v2) (TRef.of (T := ⟨S8x128x2, .f32⟩) main_call42_v4) (extractStridedSlice S8x128x2 ![0, 0, 0] · slices_S8x128x128_S8x128x2_0_0_0) ]

set_option maxRecDepth 8192 in
set_option maxHeartbeats 100000000 in
theorem piece5_15 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_v291 : U (Proc.devRef .tc main_v291) = val_main_v291 (F := F) x0)
    (i_main_call42_v0 : U (Proc.devRef .tc main_call42_v0) = val_main_call42_v0 (F := F) x0)
    (i_main_call42_v1 : U (Proc.devRef .tc main_call42_v1) = val_main_call42_v1 (F := F) x0) :
    (after (pc5_15 (F := F)) U (Proc.devRef .tc main_arg0) = x0
      ∧ after (pc5_15 (F := F)) U (Proc.devRef .tc main_arg1) = x1
      ∧ after (pc5_15 (F := F)) U (Proc.devRef .tc main_arg2) = x2)
    ∧ after (pc5_15 (F := F)) U (Proc.devRef .tc main_v20) = val_main_v20 (F := F) x1 x2
    ∧ after (pc5_15 (F := F)) U (Proc.devRef .tc main_v23) = val_main_v23 (F := F) x1 x2
    ∧ after (pc5_15 (F := F)) U (Proc.devRef .tc main_v28) = val_main_v28 (F := F) x0
    ∧ after (pc5_15 (F := F)) U (Proc.devRef .tc main_v29) = val_main_v29 (F := F) x1 x2
    ∧ after (pc5_15 (F := F)) U (Proc.devRef .tc main_v290) = val_main_v290 (F := F) x0 x1 x2
    ∧ after (pc5_15 (F := F)) U (Proc.devRef .tc main_v291) = val_main_v291 (F := F) x0
    ∧ after (pc5_15 (F := F)) U (Proc.devRef .tc main_call42_v3) = val_main_call42_v3 (F := F) x0
    ∧ after (pc5_15 (F := F)) U (Proc.devRef .tc main_call42_v4) = val_main_call42_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v290, i_main_v291, i_main_call42_v0, i_main_call42_v1])
  all_goals (try rw [i_main_v20])
  all_goals (try rw [i_main_v23])
  all_goals (try rw [i_main_v28])
  all_goals (try rw [i_main_v29])
  all_goals (try rw [i_main_v290])
  all_goals (try rw [i_main_v291])
  all_goals (try rw [i_main_call42_v0])
  all_goals (try rw [i_main_call42_v1])
  all_goals (try rfl)

/-- Operations 569 to 569 of the line. -/
abbrev pc5_16 : List (HloOp τ sig (Elt F)) :=
  [ TRef.binary (TRef.of (T := ⟨S8x128x126, .f32⟩) main_call42_v3) (TRef.of (T := ⟨S8x128x2, .f32⟩) main_call42_v4) (TRef.of (T := ⟨S8x128x128, .f32⟩) main_v292) (fun a b => concatenate S8x128x128 2 [⟨S8x128x126, a⟩, ⟨S8x128x2, b⟩] concatenates_S8x128x126_S8x128x2_S8x128x128_d2) ]

set_option maxRecDepth 8192 in
set_option maxHeartbeats 100000000 in
theorem piece5_16 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_v291 : U (Proc.devRef .tc main_v291) = val_main_v291 (F := F) x0)
    (i_main_call42_v3 : U (Proc.devRef .tc main_call42_v3) = val_main_call42_v3 (F := F) x0)
    (i_main_call42_v4 : U (Proc.devRef .tc main_call42_v4) = val_main_call42_v4 (F := F) x0) :
    (after (pc5_16 (F := F)) U (Proc.devRef .tc main_arg0) = x0
      ∧ after (pc5_16 (F := F)) U (Proc.devRef .tc main_arg1) = x1
      ∧ after (pc5_16 (F := F)) U (Proc.devRef .tc main_arg2) = x2)
    ∧ after (pc5_16 (F := F)) U (Proc.devRef .tc main_v20) = val_main_v20 (F := F) x1 x2
    ∧ after (pc5_16 (F := F)) U (Proc.devRef .tc main_v23) = val_main_v23 (F := F) x1 x2
    ∧ after (pc5_16 (F := F)) U (Proc.devRef .tc main_v28) = val_main_v28 (F := F) x0
    ∧ after (pc5_16 (F := F)) U (Proc.devRef .tc main_v29) = val_main_v29 (F := F) x1 x2
    ∧ after (pc5_16 (F := F)) U (Proc.devRef .tc main_v290) = val_main_v290 (F := F) x0 x1 x2
    ∧ after (pc5_16 (F := F)) U (Proc.devRef .tc main_v291) = val_main_v291 (F := F) x0
    ∧ after (pc5_16 (F := F)) U (Proc.devRef .tc main_v292) = val_main_v292 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v290, i_main_v291, i_main_call42_v3, i_main_call42_v4])
  all_goals (try rw [i_main_v20])
  all_goals (try rw [i_main_v23])
  all_goals (try rw [i_main_v28])
  all_goals (try rw [i_main_v29])
  all_goals (try rw [i_main_v290])
  all_goals (try rw [i_main_v291])
  all_goals (try rw [i_main_call42_v3])
  all_goals (try rw [i_main_call42_v4])
  all_goals (try rfl)

set_option maxRecDepth 8192 in
/-- The part's operations are its pieces laid end to end. -/
theorem ops5_split : (ops5 (F := F)) = pc5_0 ++ (pc5_1 ++ (pc5_2 ++ (pc5_3 ++ (pc5_4 ++ (pc5_5 ++ (pc5_6 ++ (pc5_7 ++ (pc5_8 ++ (pc5_9 ++ (pc5_10 ++ (pc5_11 ++ (pc5_12 ++ (pc5_13 ++ (pc5_14 ++ (pc5_15 ++ (pc5_16)))))))))))))))) := rfl

theorem chunk5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v230 : U (Proc.devRef .tc main_v230) = val_main_v230 (F := F) x0 x1 x2)
    (i_main_v237 : U (Proc.devRef .tc main_v237) = val_main_v237 (F := F) x0)
    (i_main_v242 : U (Proc.devRef .tc main_v242) = val_main_v242 (F := F) x1) :
    (after (ops5 (F := F)) U (Proc.devRef .tc main_arg0) = x0
      ∧ after (ops5 (F := F)) U (Proc.devRef .tc main_arg1) = x1
      ∧ after (ops5 (F := F)) U (Proc.devRef .tc main_arg2) = x2)
    ∧ after (ops5 (F := F)) U (Proc.devRef .tc main_v20) = val_main_v20 (F := F) x1 x2
    ∧ after (ops5 (F := F)) U (Proc.devRef .tc main_v23) = val_main_v23 (F := F) x1 x2
    ∧ after (ops5 (F := F)) U (Proc.devRef .tc main_v28) = val_main_v28 (F := F) x0
    ∧ after (ops5 (F := F)) U (Proc.devRef .tc main_v29) = val_main_v29 (F := F) x1 x2
    ∧ after (ops5 (F := F)) U (Proc.devRef .tc main_v290) = val_main_v290 (F := F) x0 x1 x2
    ∧ after (ops5 (F := F)) U (Proc.devRef .tc main_v291) = val_main_v291 (F := F) x0
    ∧ after (ops5 (F := F)) U (Proc.devRef .tc main_v292) = val_main_v292 (F := F) x0 := by
  rw [ops5_split]
  simp only [after_append]
  have p0 := piece5_0 (F := F) U x0 x1 x2 h0 h1 h2 i_main_v20 i_main_v23 i_main_v28 i_main_v29 i_main_v230 i_main_v237 i_main_v242
  have p1 := piece5_1 (F := F) (after (pc5_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2
  have p2 := piece5_2 (F := F) (after (pc5_1 (F := F)) (after (pc5_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2
  have p3 := piece5_3 (F := F) (after (pc5_2 (F := F)) (after (pc5_1 (F := F)) (after (pc5_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2.1 p2.2.2.2.2.2.2.2.2
  have p4 := piece5_4 (F := F) (after (pc5_3 (F := F)) (after (pc5_2 (F := F)) (after (pc5_1 (F := F)) (after (pc5_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2.1 p3.2.2.2.2.2.2.2.2
  have p5 := piece5_5 (F := F) (after (pc5_4 (F := F)) (after (pc5_3 (F := F)) (after (pc5_2 (F := F)) (after (pc5_1 (F := F)) (after (pc5_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2.1 p4.2.2.2.2.2.2.2.2.2
  have p6 := piece5_6 (F := F) (after (pc5_5 (F := F)) (after (pc5_4 (F := F)) (after (pc5_3 (F := F)) (after (pc5_2 (F := F)) (after (pc5_1 (F := F)) (after (pc5_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2.1 p5.2.2.2.2.2.2.2.2.2
  have p7 := piece5_7 (F := F) (after (pc5_6 (F := F)) (after (pc5_5 (F := F)) (after (pc5_4 (F := F)) (after (pc5_3 (F := F)) (after (pc5_2 (F := F)) (after (pc5_1 (F := F)) (after (pc5_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2
  have p8 := piece5_8 (F := F) (after (pc5_7 (F := F)) (after (pc5_6 (F := F)) (after (pc5_5 (F := F)) (after (pc5_4 (F := F)) (after (pc5_3 (F := F)) (after (pc5_2 (F := F)) (after (pc5_1 (F := F)) (after (pc5_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2
  have p9 := piece5_9 (F := F) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2.1 p8.2.2.2.2.2.2.2.2
  have p10 := piece5_10 (F := F) (after (pc5_9 (F := F)) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2.1 p9.2.2.2.2.2.2.2.2
  have p11 := piece5_11 (F := F) (after (pc5_10 (F := F)) (after (pc5_9 (F := F)) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2.1 p10.2.2.2.2.2.2.2.2.2
  have p12 := piece5_12 (F := F) (after (pc5_11 (F := F)) (after (pc5_10 (F := F)) (after (pc5_9 (F := F)) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2.1 p11.2.2.2.2.2.2.2.2.2
  have p13 := piece5_13 (F := F) (after (pc5_12 (F := F)) (after (pc5_11 (F := F)) (after (pc5_10 (F := F)) (after (pc5_9 (F := F)) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2
  have p14 := piece5_14 (F := F) (after (pc5_13 (F := F)) (after (pc5_12 (F := F)) (after (pc5_11 (F := F)) (after (pc5_10 (F := F)) (after (pc5_9 (F := F)) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2
  have p15 := piece5_15 (F := F) (after (pc5_14 (F := F)) (after (pc5_13 (F := F)) (after (pc5_12 (F := F)) (after (pc5_11 (F := F)) (after (pc5_10 (F := F)) (after (pc5_9 (F := F)) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U))))))))))))))) x0 x1 x2 p14.1.1 p14.1.2.1 p14.1.2.2 p14.2.1 p14.2.2.1 p14.2.2.2.1 p14.2.2.2.2.1 p14.2.2.2.2.2.1 p14.2.2.2.2.2.2.1 p14.2.2.2.2.2.2.2.1 p14.2.2.2.2.2.2.2.2
  have p16 := piece5_16 (F := F) (after (pc5_15 (F := F)) (after (pc5_14 (F := F)) (after (pc5_13 (F := F)) (after (pc5_12 (F := F)) (after (pc5_11 (F := F)) (after (pc5_10 (F := F)) (after (pc5_9 (F := F)) (after (pc5_8 (F := F)) (after (pc5_7 (F := F)) (after (pc5_6 (F := F)) (after (pc5_5 (F := F)) (after (pc5_4 (F := F)) (after (pc5_3 (F := F)) (after (pc5_2 (F := F)) (after (pc5_1 (F := F)) (after (pc5_0 (F := F)) U)))))))))))))))) x0 x1 x2 p15.1.1 p15.1.2.1 p15.1.2.2 p15.2.1 p15.2.2.1 p15.2.2.2.1 p15.2.2.2.2.1 p15.2.2.2.2.2.1 p15.2.2.2.2.2.2.1 p15.2.2.2.2.2.2.2.1 p15.2.2.2.2.2.2.2.2
  exact p16

end Cert.Bridge.RefRun

end
-- ==== Proof.RefRunPart6.lean ====
/-
  Part 6 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 570 to 571 of the line. -/
abbrev pc6_0 : List (HloOp τ sig (Elt F)) :=
  [ TRef.unary (TRef.of (T := ⟨S8x128x128, .i32⟩) main_arg1) (TRef.of (T := ⟨S8x128x128, .i32⟩) main_call43_v0) (extractStridedSlice S8x128x128 ![0, 0, 0] · slices_S8x128x128_S8x128x128_0_0_0),
    TRef.unary (TRef.of (T := ⟨S8x128x128, .i32⟩) main_arg1) (TRef.of (T := ⟨S8x0x128, .i32⟩) main_call43_v1) (extractStridedSlice S8x0x128 ![0, 0, 0] · slices_S8x128x128_S8x0x128_0_0_0) ]

set_option maxRecDepth 8192 in
set_option maxHeartbeats 100000000 in
theorem piece6_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_v291 : U (Proc.devRef .tc main_v291) = val_main_v291 (F := F) x0)
    (i_main_v292 : U (Proc.devRef .tc main_v292) = val_main_v292 (F := F) x0) :
    (after (pc6_0 (F := F)) U (Proc.devRef .tc main_arg0) = x0
      ∧ after (pc6_0 (F := F)) U (Proc.devRef .tc main_arg1) = x1
      ∧ after (pc6_0 (F := F)) U (Proc.devRef .tc main_arg2) = x2)
    ∧ after (pc6_0 (F := F)) U (Proc.devRef .tc main_v20) = val_main_v20 (F := F) x1 x2
    ∧ after (pc6_0 (F := F)) U (Proc.devRef .tc main_v23) = val_main_v23 (F := F) x1 x2
    ∧ after (pc6_0 (F := F)) U (Proc.devRef .tc main_v28) = val_main_v28 (F := F) x0
    ∧ after (pc6_0 (F := F)) U (Proc.devRef .tc main_v29) = val_main_v29 (F := F) x1 x2
    ∧ after (pc6_0 (F := F)) U (Proc.devRef .tc main_v290) = val_main_v290 (F := F) x0 x1 x2
    ∧ after (pc6_0 (F := F)) U (Proc.devRef .tc main_v291) = val_main_v291 (F := F) x0
    ∧ after (pc6_0 (F := F)) U (Proc.devRef .tc main_v292) = val_main_v292 (F := F) x0
    ∧ after (pc6_0 (F := F)) U (Proc.devRef .tc main_call43_v0) = val_main_call43_v0 (F := F) x1
    ∧ after (pc6_0 (F := F)) U (Proc.devRef .tc main_call43_v1) = val_main_call43_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v290, i_main_v291, i_main_v292])
  all_goals (try rw [i_main_v20])
  all_goals (try rw [i_main_v23])
  all_goals (try rw [i_main_v28])
  all_goals (try rw [i_main_v29])
  all_goals (try rw [i_main_v290])
  all_goals (try rw [i_main_v291])
  all_goals (try rw [i_main_v292])
  all_goals (try rfl)

/-- Operations 572 to 574 of the line. -/
abbrev pc6_1 : List (HloOp τ sig (Elt F)) :=
  [ TRef.binary (TRef.of (T := ⟨S8x128x128, .i32⟩) main_call43_v0) (TRef.of (T := ⟨S8x0x128, .i32⟩) main_call43_v1) (TRef.of (T := ⟨S8x128x128, .i32⟩) main_call43_v2) (fun a b => concatenate S8x128x128 1 [⟨S8x128x128, a⟩, ⟨S8x0x128, b⟩] concatenates_S8x128x128_S8x0x128_S8x128x128_d1),
    TRef.unary (TRef.of (T := ⟨S8x128x128, .i32⟩) main_call43_v2) (TRef.of (T := ⟨S8x128x126, .i32⟩) main_call43_v3) (extractStridedSlice S8x128x126 ![0, 0, 2] · slices_S8x128x128_S8x128x126_0_0_2),
    TRef.unary (TRef.of (T := ⟨S8x128x128, .i32⟩) main_call43_v2) (TRef.of (T := ⟨S8x128x2, .i32⟩) main_call43_v4) (extractStridedSlice S8x128x2 ![0, 0, 0] · slices_S8x128x128_S8x128x2_0_0_0) ]

set_option maxRecDepth 8192 in
set_option maxHeartbeats 100000000 in
theorem piece6_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_v291 : U (Proc.devRef .tc main_v291) = val_main_v291 (F := F) x0)
    (i_main_v292 : U (Proc.devRef .tc main_v292) = val_main_v292 (F := F) x0)
    (i_main_call43_v0 : U (Proc.devRef .tc main_call43_v0) = val_main_call43_v0 (F := F) x1)
    (i_main_call43_v1 : U (Proc.devRef .tc main_call43_v1) = val_main_call43_v1 (F := F) x1) :
    (after (pc6_1 (F := F)) U (Proc.devRef .tc main_arg0) = x0
      ∧ after (pc6_1 (F := F)) U (Proc.devRef .tc main_arg1) = x1
      ∧ after (pc6_1 (F := F)) U (Proc.devRef .tc main_arg2) = x2)
    ∧ after (pc6_1 (F := F)) U (Proc.devRef .tc main_v20) = val_main_v20 (F := F) x1 x2
    ∧ after (pc6_1 (F := F)) U (Proc.devRef .tc main_v23) = val_main_v23 (F := F) x1 x2
    ∧ after (pc6_1 (F := F)) U (Proc.devRef .tc main_v28) = val_main_v28 (F := F) x0
    ∧ after (pc6_1 (F := F)) U (Proc.devRef .tc main_v29) = val_main_v29 (F := F) x1 x2
    ∧ after (pc6_1 (F := F)) U (Proc.devRef .tc main_v290) = val_main_v290 (F := F) x0 x1 x2
    ∧ after (pc6_1 (F := F)) U (Proc.devRef .tc main_v291) = val_main_v291 (F := F) x0
    ∧ after (pc6_1 (F := F)) U (Proc.devRef .tc main_v292) = val_main_v292 (F := F) x0
    ∧ after (pc6_1 (F := F)) U (Proc.devRef .tc main_call43_v3) = val_main_call43_v3 (F := F) x1
    ∧ after (pc6_1 (F := F)) U (Proc.devRef .tc main_call43_v4) = val_main_call43_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v290, i_main_v291, i_main_v292, i_main_call43_v0, i_main_call43_v1])
  all_goals (try rw [i_main_v20])
  all_goals (try rw [i_main_v23])
  all_goals (try rw [i_main_v28])
  all_goals (try rw [i_main_v29])
  all_goals (try rw [i_main_v290])
  all_goals (try rw [i_main_v291])
  all_goals (try rw [i_main_v292])
  all_goals (try rw [i_main_call43_v0])
  all_goals (try rw [i_main_call43_v1])
  all_goals (try rfl)

/-- Operations 575 to 598 of the line. -/
abbrev pc6_2 : List (HloOp τ sig (Elt F)) :=
  [ TRef.binary (TRef.of (T := ⟨S8x128x126, .i32⟩) main_call43_v3) (TRef.of (T := ⟨S8x128x2, .i32⟩) main_call43_v4) (TRef.of (T := ⟨S8x128x128, .i32⟩) main_v293) (fun a b => concatenate S8x128x128 2 [⟨S8x128x126, a⟩, ⟨S8x128x2, b⟩] concatenates_S8x128x126_S8x128x2_S8x128x128_d2),
    binary main_arg0 main_v291 main_v294 (mulf : (⟨S8x256x128x128, .f32⟩ : BufTy).Contents (Elt F) → (⟨S8x256x128x128, .f32⟩ : BufTy).Contents (Elt F) → (⟨S8x256x128x128, .f32⟩ : BufTy).Contents (Elt F)),
    nullary main_cst_65 (constant S_ .f32 0x00000000#32),
    binary main_v294 main_cst_65 main_v295 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v292 main_v296 (mulf : (⟨S8x128x128, .f32⟩ : BufTy).Contents (Elt F) → (⟨S8x128x128, .f32⟩ : BufTy).Contents (Elt F) → (⟨S8x128x128, .f32⟩ : BufTy).Contents (Elt F)),
    binary main_v295 main_v296 main_v297 (Host.divf : (⟨S8x128x128, .f32⟩ : BufTy).Contents (Elt F) → (⟨S8x128x128, .f32⟩ : BufTy).Contents (Elt F) → (⟨S8x128x128, .f32⟩ : BufTy).Contents (Elt F)),
    binary main_arg1 main_v293 main_v298 (cmpi .eq : (⟨S8x128x128, .i32⟩ : BufTy).Contents (Elt F) → (⟨S8x128x128, .i32⟩ : BufTy).Contents (Elt F) → (⟨S8x128x128, .i1⟩ : BufTy).Contents (Elt F)),
    nullary main_c_66 (constantI S_ 32 2#32),
    unary main_c_66 main_v299 (broadcastInDim S8x128x128 ![] bcast_S_S8x128x128 : (⟨S_, .i32⟩ : BufTy).Contents (Elt F) → (⟨S8x128x128, .i32⟩ : BufTy).Contents (Elt F)),
    binary main_arg1 main_v299 main_v300 (cmpi .slt : (⟨S8x128x128, .i32⟩ : BufTy).Contents (Elt F) → (⟨S8x128x128, .i32⟩ : BufTy).Contents (Elt F) → (⟨S8x128x128, .i1⟩ : BufTy).Contents (Elt F)),
    binary main_v298 main_v300 main_v301 (andi : (⟨S8x128x128, .i1⟩ : BufTy).Contents (Elt F) → (⟨S8x128x128, .i1⟩ : BufTy).Contents (Elt F) → (⟨S8x128x128, .i1⟩ : BufTy).Contents (Elt F)),
    unary main_v301 main_v302 (uitofp .f32 : (⟨S8x128x128, .i1⟩ : BufTy).Contents (Elt F) → (⟨S8x128x128, .f32⟩ : BufTy).Contents (Elt F)),
    binary main_v297 main_v302 main_v303 (subf : (⟨S8x128x128, .f32⟩ : BufTy).Contents (Elt F) → (⟨S8x128x128, .f32⟩ : BufTy).Contents (Elt F) → (⟨S8x128x128, .f32⟩ : BufTy).Contents (Elt F)),
    binary main_v303 main_v303 main_v304 (mulf : (⟨S8x128x128, .f32⟩ : BufTy).Contents (Elt F) → (⟨S8x128x128, .f32⟩ : BufTy).Contents (Elt F) → (⟨S8x128x128, .f32⟩ : BufTy).Contents (Elt F)),
    binary main_v304 main_v29 main_v305 (mulf : (⟨S8x128x128, .f32⟩ : BufTy).Contents (Elt F) → (⟨S8x128x128, .f32⟩ : BufTy).Contents (Elt F) → (⟨S8x128x128, .f32⟩ : BufTy).Contents (Elt F)),
    nullary main_cst_67 (constant S_ .f32 0x00000000#32),
    binary main_v305 main_cst_67 main_v306 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_68 (constant S_ .f32 0x3F800000#32),
    unary main_cst_68 main_v307 (broadcastInDim S8 ![] bcast_S_S8 : (⟨S_, .f32⟩ : BufTy).Contents (Elt F) → (⟨S8, .f32⟩ : BufTy).Contents (Elt F)),
    binary main_v23 main_v307 main_v308 (maximumf : (⟨S8, .f32⟩ : BufTy).Contents (Elt F) → (⟨S8, .f32⟩ : BufTy).Contents (Elt F) → (⟨S8, .f32⟩ : BufTy).Contents (Elt F)),
    binary main_v306 main_v308 main_v309 (Host.divf : (⟨S8, .f32⟩ : BufTy).Contents (Elt F) → (⟨S8, .f32⟩ : BufTy).Contents (Elt F) → (⟨S8, .f32⟩ : BufTy).Contents (Elt F)),
    binary main_v290 main_v309 main_v310 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call44_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call44_v1) (extractStridedSlice S8x256x1x128 ![0, 0, 0, 0] · slices_S8x256x128x128_S8x256x1x128_0_0_0_0) ]

set_option maxRecDepth 8192 in
set_option maxHeartbeats 100000000 in
theorem piece6_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_v291 : U (Proc.devRef .tc main_v291) = val_main_v291 (F := F) x0)
    (i_main_v292 : U (Proc.devRef .tc main_v292) = val_main_v292 (F := F) x0)
    (i_main_call43_v3 : U (Proc.devRef .tc main_call43_v3) = val_main_call43_v3 (F := F) x1)
    (i_main_call43_v4 : U (Proc.devRef .tc main_call43_v4) = val_main_call43_v4 (F := F) x1) :
    (after (pc6_2 (F := F)) U (Proc.devRef .tc main_arg0) = x0
      ∧ after (pc6_2 (F := F)) U (Proc.devRef .tc main_arg1) = x1
      ∧ after (pc6_2 (F := F)) U (Proc.devRef .tc main_arg2) = x2)
    ∧ after (pc6_2 (F := F)) U (Proc.devRef .tc main_v20) = val_main_v20 (F := F) x1 x2
    ∧ after (pc6_2 (F := F)) U (Proc.devRef .tc main_v23) = val_main_v23 (F := F) x1 x2
    ∧ after (pc6_2 (F := F)) U (Proc.devRef .tc main_v28) = val_main_v28 (F := F) x0
    ∧ after (pc6_2 (F := F)) U (Proc.devRef .tc main_v29) = val_main_v29 (F := F) x1 x2
    ∧ after (pc6_2 (F := F)) U (Proc.devRef .tc main_v310) = val_main_v310 (F := F) x0 x1 x2
    ∧ after (pc6_2 (F := F)) U (Proc.devRef .tc main_call44_v0) = val_main_call44_v0 (F := F) x0
    ∧ after (pc6_2 (F := F)) U (Proc.devRef .tc main_call44_v1) = val_main_call44_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v290, i_main_v291, i_main_v292, i_main_call43_v3, i_main_call43_v4])
  all_goals (try rw [i_main_v20])
  all_goals (try rw [i_main_v23])
  all_goals (try rw [i_main_v28])
  all_goals (try rw [i_main_v29])
  all_goals (try rw [i_main_v290])
  all_goals (try rw [i_main_v291])
  all_goals (try rw [i_main_v292])
  all_goals (try rw [i_main_call43_v3])
  all_goals (try rw [i_main_call43_v4])
  all_goals (try rfl)

/-- Operations 599 to 601 of the line. -/
abbrev pc6_3 : List (HloOp τ sig (Elt F)) :=
  [ TRef.binary (TRef.of (T := ⟨S8x256x127x128, .f32⟩) main_call44_v0) (TRef.of (T := ⟨S8x256x1x128, .f32⟩) main_call44_v1) (TRef.of (T := ⟨S8x256x128x128, .f32⟩) main_call44_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call44_v2) (TRef.of (T := ⟨S8x256x128x2, .f32⟩) main_call44_v3) (extractStridedSlice S8x256x128x2 ![0, 0, 0, 126] · slices_S8x256x128x128_S8x256x128x2_0_0_0_126),
    TRef.unary (TRef.of (T := ⟨S8x256x128x128, .f32⟩) main_call44_v2) (TRef.of (T := ⟨S8x256x128x126, .f32⟩) main_call44_v4) (extractStridedSlice S8x256x128x126 ![0, 0, 0, 0] · slices_S8x256x128x128_S8x256x128x126_0_0_0_0) ]

set_option maxRecDepth 8192 in
set_option maxHeartbeats 100000000 in
theorem piece6_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v310 : U (Proc.devRef .tc main_v310) = val_main_v310 (F := F) x0 x1 x2)
    (i_main_call44_v0 : U (Proc.devRef .tc main_call44_v0) = val_main_call44_v0 (F := F) x0)
    (i_main_call44_v1 : U (Proc.devRef .tc main_call44_v1) = val_main_call44_v1 (F := F) x0) :
    (after (pc6_3 (F := F)) U (Proc.devRef .tc main_arg0) = x0
      ∧ after (pc6_3 (F := F)) U (Proc.devRef .tc main_arg1) = x1
      ∧ after (pc6_3 (F := F)) U (Proc.devRef .tc main_arg2) = x2)
    ∧ after (pc6_3 (F := F)) U (Proc.devRef .tc main_v20) = val_main_v20 (F := F) x1 x2
    ∧ after (pc6_3 (F := F)) U (Proc.devRef .tc main_v23) = val_main_v23 (F := F) x1 x2
    ∧ after (pc6_3 (F := F)) U (Proc.devRef .tc main_v28) = val_main_v28 (F := F) x0
    ∧ after (pc6_3 (F := F)) U (Proc.devRef .tc main_v29) = val_main_v29 (F := F) x1 x2
    ∧ after (pc6_3 (F := F)) U (Proc.devRef .tc main_v310) = val_main_v310 (F := F) x0 x1 x2
    ∧ after (pc6_3 (F := F)) U (Proc.devRef .tc main_call44_v3) = val_main_call44_v3 (F := F) x0
    ∧ after (pc6_3 (F := F)) U (Proc.devRef .tc main_call44_v4) = val_main_call44_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v310, i_main_call44_v0, i_main_call44_v1])
  all_goals (try rw [i_main_v20])
  all_goals (try rw [i_main_v23])
  all_goals (try rw [i_main_v28])
  all_goals (try rw [i_main_v29])
  all_goals (try rw [i_main_v310])
  all_goals (try rw [i_main_call44_v0])
  all_goals (try rw [i_main_call44_v1])
  all_goals (try rfl)

/-- Operations 602 to 604 of the line. -/
abbrev pc6_4 : List (HloOp τ sig (Elt F)) :=
  [ TRef.binary (TRef.of (T := ⟨S8x256x128x2, .f32⟩) main_call44_v3) (TRef.of (T := ⟨S8x256x128x126, .f32⟩) main_call44_v4) (TRef.of (T := ⟨S8x256x128x128, .f32⟩) main_v311) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x127x128, .f32⟩) main_call45_v0) (extractStridedSlice S8x127x128 ![0, 1, 0] · slices_S8x128x128_S8x127x128_0_1_0),
    TRef.unary (TRef.of (T := ⟨S8x128x128, .f32⟩) main_v28) (TRef.of (T := ⟨S8x1x128, .f32⟩) main_call45_v1) (extractStridedSlice S8x1x128 ![0, 0, 0] · slices_S8x128x128_S8x1x128_0_0_0) ]

set_option maxRecDepth 8192 in
set_option maxHeartbeats 100000000 in
theorem piece6_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v310 : U (Proc.devRef .tc main_v310) = val_main_v310 (F := F) x0 x1 x2)
    (i_main_call44_v3 : U (Proc.devRef .tc main_call44_v3) = val_main_call44_v3 (F := F) x0)
    (i_main_call44_v4 : U (Proc.devRef .tc main_call44_v4) = val_main_call44_v4 (F := F) x0) :
    (after (pc6_4 (F := F)) U (Proc.devRef .tc main_arg0) = x0
      ∧ after (pc6_4 (F := F)) U (Proc.devRef .tc main_arg1) = x1
      ∧ after (pc6_4 (F := F)) U (Proc.devRef .tc main_arg2) = x2)
    ∧ after (pc6_4 (F := F)) U (Proc.devRef .tc main_v20) = val_main_v20 (F := F) x1 x2
    ∧ after (pc6_4 (F := F)) U (Proc.devRef .tc main_v23) = val_main_v23 (F := F) x1 x2
    ∧ after (pc6_4 (F := F)) U (Proc.devRef .tc main_v28) = val_main_v28 (F := F) x0
    ∧ after (pc6_4 (F := F)) U (Proc.devRef .tc main_v29) = val_main_v29 (F := F) x1 x2
    ∧ after (pc6_4 (F := F)) U (Proc.devRef .tc main_v310) = val_main_v310 (F := F) x0 x1 x2
    ∧ after (pc6_4 (F := F)) U (Proc.devRef .tc main_v311) = val_main_v311 (F := F) x0
    ∧ after (pc6_4 (F := F)) U (Proc.devRef .tc main_call45_v0) = val_main_call45_v0 (F := F) x0
    ∧ after (pc6_4 (F := F)) U (Proc.devRef .tc main_call45_v1) = val_main_call45_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v310, i_main_call44_v3, i_main_call44_v4])
  all_goals (try rw [i_main_v20])
  all_goals (try rw [i_main_v23])
  all_goals (try rw [i_main_v28])
  all_goals (try rw [i_main_v29])
  all_goals (try rw [i_main_v310])
  all_goals (try rw [i_main_call44_v3])
  all_goals (try rw [i_main_call44_v4])
  all_goals (try rfl)

/-- Operations 605 to 607 of the line. -/
abbrev pc6_5 : List (HloOp τ sig (Elt F)) :=
  [ TRef.binary (TRef.of (T := ⟨S8x127x128, .f32⟩) main_call45_v0) (TRef.of (T := ⟨S8x1x128, .f32⟩) main_call45_v1) (TRef.of (T := ⟨S8x128x128, .f32⟩) main_call45_v2) (fun a b => concatenate S8x128x128 1 [⟨S8x127x128, a⟩, ⟨S8x1x128, b⟩] concatenates_S8x127x128_S8x1x128_S8x128x128_d1),
    TRef.unary (TRef.of (T := ⟨S8x128x128, .f32⟩) main_call45_v2) (TRef.of (T := ⟨S8x128x2, .f32⟩) main_call45_v3) (extractStridedSlice S8x128x2 ![0, 0, 126] · slices_S8x128x128_S8x128x2_0_0_126),
    TRef.unary (TRef.of (T := ⟨S8x128x128, .f32⟩) main_call45_v2) (TRef.of (T := ⟨S8x128x126, .f32⟩) main_call45_v4) (extractStridedSlice S8x128x126 ![0, 0, 0] · slices_S8x128x128_S8x128x126_0_0_0) ]

set_option maxRecDepth 8192 in
set_option maxHeartbeats 100000000 in
theorem piece6_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v310 : U (Proc.devRef .tc main_v310) = val_main_v310 (F := F) x0 x1 x2)
    (i_main_v311 : U (Proc.devRef .tc main_v311) = val_main_v311 (F := F) x0)
    (i_main_call45_v0 : U (Proc.devRef .tc main_call45_v0) = val_main_call45_v0 (F := F) x0)
    (i_main_call45_v1 : U (Proc.devRef .tc main_call45_v1) = val_main_call45_v1 (F := F) x0) :
    (after (pc6_5 (F := F)) U (Proc.devRef .tc main_arg0) = x0
      ∧ after (pc6_5 (F := F)) U (Proc.devRef .tc main_arg1) = x1
      ∧ after (pc6_5 (F := F)) U (Proc.devRef .tc main_arg2) = x2)
    ∧ after (pc6_5 (F := F)) U (Proc.devRef .tc main_v20) = val_main_v20 (F := F) x1 x2
    ∧ after (pc6_5 (F := F)) U (Proc.devRef .tc main_v23) = val_main_v23 (F := F) x1 x2
    ∧ after (pc6_5 (F := F)) U (Proc.devRef .tc main_v28) = val_main_v28 (F := F) x0
    ∧ after (pc6_5 (F := F)) U (Proc.devRef .tc main_v29) = val_main_v29 (F := F) x1 x2
    ∧ after (pc6_5 (F := F)) U (Proc.devRef .tc main_v310) = val_main_v310 (F := F) x0 x1 x2
    ∧ after (pc6_5 (F := F)) U (Proc.devRef .tc main_v311) = val_main_v311 (F := F) x0
    ∧ after (pc6_5 (F := F)) U (Proc.devRef .tc main_call45_v3) = val_main_call45_v3 (F := F) x0
    ∧ after (pc6_5 (F := F)) U (Proc.devRef .tc main_call45_v4) = val_main_call45_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v310, i_main_v311, i_main_call45_v0, i_main_call45_v1])
  all_goals (try rw [i_main_v20])
  all_goals (try rw [i_main_v23])
  all_goals (try rw [i_main_v28])
  all_goals (try rw [i_main_v29])
  all_goals (try rw [i_main_v310])
  all_goals (try rw [i_main_v311])
  all_goals (try rw [i_main_call45_v0])
  all_goals (try rw [i_main_call45_v1])
  all_goals (try rfl)

/-- Operations 608 to 610 of the line. -/
abbrev pc6_6 : List (HloOp τ sig (Elt F)) :=
  [ TRef.binary (TRef.of (T := ⟨S8x128x2, .f32⟩) main_call45_v3) (TRef.of (T := ⟨S8x128x126, .f32⟩) main_call45_v4) (TRef.of (T := ⟨S8x128x128, .f32⟩) main_v312) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x127x128, .i32⟩) main_call46_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call46_v1) (extractStridedSlice S8x1x128 ![0, 0, 0] · slices_S8x128x128_S8x1x128_0_0_0) ]

set_option maxRecDepth 8192 in
set_option maxHeartbeats 100000000 in
theorem piece6_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v310 : U (Proc.devRef .tc main_v310) = val_main_v310 (F := F) x0 x1 x2)
    (i_main_v311 : U (Proc.devRef .tc main_v311) = val_main_v311 (F := F) x0)
    (i_main_call45_v3 : U (Proc.devRef .tc main_call45_v3) = val_main_call45_v3 (F := F) x0)
    (i_main_call45_v4 : U (Proc.devRef .tc main_call45_v4) = val_main_call45_v4 (F := F) x0) :
    (after (pc6_6 (F := F)) U (Proc.devRef .tc main_arg0) = x0
      ∧ after (pc6_6 (F := F)) U (Proc.devRef .tc main_arg1) = x1
      ∧ after (pc6_6 (F := F)) U (Proc.devRef .tc main_arg2) = x2)
    ∧ after (pc6_6 (F := F)) U (Proc.devRef .tc main_v20) = val_main_v20 (F := F) x1 x2
    ∧ after (pc6_6 (F := F)) U (Proc.devRef .tc main_v23) = val_main_v23 (F := F) x1 x2
    ∧ after (pc6_6 (F := F)) U (Proc.devRef .tc main_v28) = val_main_v28 (F := F) x0
    ∧ after (pc6_6 (F := F)) U (Proc.devRef .tc main_v29) = val_main_v29 (F := F) x1 x2
    ∧ after (pc6_6 (F := F)) U (Proc.devRef .tc main_v310) = val_main_v310 (F := F) x0 x1 x2
    ∧ after (pc6_6 (F := F)) U (Proc.devRef .tc main_v311) = val_main_v311 (F := F) x0
    ∧ after (pc6_6 (F := F)) U (Proc.devRef .tc main_v312) = val_main_v312 (F := F) x0
    ∧ after (pc6_6 (F := F)) U (Proc.devRef .tc main_call46_v0) = val_main_call46_v0 (F := F) x1
    ∧ after (pc6_6 (F := F)) U (Proc.devRef .tc main_call46_v1) = val_main_call46_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v310, i_main_v311, i_main_call45_v3, i_main_call45_v4])
  all_goals (try rw [i_main_v20])
  all_goals (try rw [i_main_v23])
  all_goals (try rw [i_main_v28])
  all_goals (try rw [i_main_v29])
  all_goals (try rw [i_main_v310])
  all_goals (try rw [i_main_v311])
  all_goals (try rw [i_main_call45_v3])
  all_goals (try rw [i_main_call45_v4])
  all_goals (try rfl)

/-- Operations 611 to 613 of the line. -/
abbrev pc6_7 : List (HloOp τ sig (Elt F)) :=
  [ TRef.binary (TRef.of (T := ⟨S8x127x128, .i32⟩) main_call46_v0) (TRef.of (T := ⟨S8x1x128, .i32⟩) main_call46_v1) (TRef.of (T := ⟨S8x128x128, .i32⟩) main_call46_v2) (fun a b => concatenate S8x128x128 1 [⟨S8x127x128, a⟩, ⟨S8x1x128, b⟩] concatenates_S8x127x128_S8x1x128_S8x128x128_d1),
    TRef.unary (TRef.of (T := ⟨S8x128x128, .i32⟩) main_call46_v2) (TRef.of (T := ⟨S8x128x2, .i32⟩) main_call46_v3) (extractStridedSlice S8x128x2 ![0, 0, 126] · slices_S8x128x128_S8x128x2_0_0_126),
    TRef.unary (TRef.of (T := ⟨S8x128x128, .i32⟩) main_call46_v2) (TRef.of (T := ⟨S8x128x126, .i32⟩) main_call46_v4) (extractStridedSlice S8x128x126 ![0, 0, 0] · slices_S8x128x128_S8x128x126_0_0_0) ]

set_option maxRecDepth 8192 in
set_option maxHeartbeats 100000000 in
theorem piece6_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v310 : U (Proc.devRef .tc main_v310) = val_main_v310 (F := F) x0 x1 x2)
    (i_main_v311 : U (Proc.devRef .tc main_v311) = val_main_v311 (F := F) x0)
    (i_main_v312 : U (Proc.devRef .tc main_v312) = val_main_v312 (F := F) x0)
    (i_main_call46_v0 : U (Proc.devRef .tc main_call46_v0) = val_main_call46_v0 (F := F) x1)
    (i_main_call46_v1 : U (Proc.devRef .tc main_call46_v1) = val_main_call46_v1 (F := F) x1) :
    (after (pc6_7 (F := F)) U (Proc.devRef .tc main_arg0) = x0
      ∧ after (pc6_7 (F := F)) U (Proc.devRef .tc main_arg1) = x1
      ∧ after (pc6_7 (F := F)) U (Proc.devRef .tc main_arg2) = x2)
    ∧ after (pc6_7 (F := F)) U (Proc.devRef .tc main_v20) = val_main_v20 (F := F) x1 x2
    ∧ after (pc6_7 (F := F)) U (Proc.devRef .tc main_v23) = val_main_v23 (F := F) x1 x2
    ∧ after (pc6_7 (F := F)) U (Proc.devRef .tc main_v28) = val_main_v28 (F := F) x0
    ∧ after (pc6_7 (F := F)) U (Proc.devRef .tc main_v29) = val_main_v29 (F := F) x1 x2
    ∧ after (pc6_7 (F := F)) U (Proc.devRef .tc main_v310) = val_main_v310 (F := F) x0 x1 x2
    ∧ after (pc6_7 (F := F)) U (Proc.devRef .tc main_v311) = val_main_v311 (F := F) x0
    ∧ after (pc6_7 (F := F)) U (Proc.devRef .tc main_v312) = val_main_v312 (F := F) x0
    ∧ after (pc6_7 (F := F)) U (Proc.devRef .tc main_call46_v3) = val_main_call46_v3 (F := F) x1
    ∧ after (pc6_7 (F := F)) U (Proc.devRef .tc main_call46_v4) = val_main_call46_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v310, i_main_v311, i_main_v312, i_main_call46_v0, i_main_call46_v1])
  all_goals (try rw [i_main_v20])
  all_goals (try rw [i_main_v23])
  all_goals (try rw [i_main_v28])
  all_goals (try rw [i_main_v29])
  all_goals (try rw [i_main_v310])
  all_goals (try rw [i_main_v311])
  all_goals (try rw [i_main_v312])
  all_goals (try rw [i_main_call46_v0])
  all_goals (try rw [i_main_call46_v1])
  all_goals (try rfl)

/-- Operations 614 to 637 of the line. -/
abbrev pc6_8 : List (HloOp τ sig (Elt F)) :=
  [ TRef.binary (TRef.of (T := ⟨S8x128x2, .i32⟩) main_call46_v3) (TRef.of (T := ⟨S8x128x126, .i32⟩) main_call46_v4) (TRef.of (T := ⟨S8x128x128, .i32⟩) main_v313) (fun a b => concatenate S8x128x128 2 [⟨S8x128x2, a⟩, ⟨S8x128x126, b⟩] concatenates_S8x128x2_S8x128x126_S8x128x128_d2),
    binary main_arg0 main_v311 main_v314 (mulf : (⟨S8x256x128x128, .f32⟩ : BufTy).Contents (Elt F) → (⟨S8x256x128x128, .f32⟩ : BufTy).Contents (Elt F) → (⟨S8x256x128x128, .f32⟩ : BufTy).Contents (Elt F)),
    nullary main_cst_69 (constant S_ .f32 0x00000000#32),
    binary main_v314 main_cst_69 main_v315 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v312 main_v316 (mulf : (⟨S8x128x128, .f32⟩ : BufTy).Contents (Elt F) → (⟨S8x128x128, .f32⟩ : BufTy).Contents (Elt F) → (⟨S8x128x128, .f32⟩ : BufTy).Contents (Elt F)),
    binary main_v315 main_v316 main_v317 (Host.divf : (⟨S8x128x128, .f32⟩ : BufTy).Contents (Elt F) → (⟨S8x128x128, .f32⟩ : BufTy).Contents (Elt F) → (⟨S8x128x128, .f32⟩ : BufTy).Contents (Elt F)),
    binary main_arg1 main_v313 main_v318 (cmpi .eq : (⟨S8x128x128, .i32⟩ : BufTy).Contents (Elt F) → (⟨S8x128x128, .i32⟩ : BufTy).Contents (Elt F) → (⟨S8x128x128, .i1⟩ : BufTy).Contents (Elt F)),
    nullary main_c_70 (constantI S_ 32 2#32),
    unary main_c_70 main_v319 (broadcastInDim S8x128x128 ![] bcast_S_S8x128x128 : (⟨S_, .i32⟩ : BufTy).Contents (Elt F) → (⟨S8x128x128, .i32⟩ : BufTy).Contents (Elt F)),
    binary main_arg1 main_v319 main_v320 (cmpi .slt : (⟨S8x128x128, .i32⟩ : BufTy).Contents (Elt F) → (⟨S8x128x128, .i32⟩ : BufTy).Contents (Elt F) → (⟨S8x128x128, .i1⟩ : BufTy).Contents (Elt F)),
    binary main_v318 main_v320 main_v321 (andi : (⟨S8x128x128, .i1⟩ : BufTy).Contents (Elt F) → (⟨S8x128x128, .i1⟩ : BufTy).Contents (Elt F) → (⟨S8x128x128, .i1⟩ : BufTy).Contents (Elt F)),
    unary main_v321 main_v322 (uitofp .f32 : (⟨S8x128x128, .i1⟩ : BufTy).Contents (Elt F) → (⟨S8x128x128, .f32⟩ : BufTy).Contents (Elt F)),
    binary main_v317 main_v322 main_v323 (subf : (⟨S8x128x128, .f32⟩ : BufTy).Contents (Elt F) → (⟨S8x128x128, .f32⟩ : BufTy).Contents (Elt F) → (⟨S8x128x128, .f32⟩ : BufTy).Contents (Elt F)),
    binary main_v323 main_v323 main_v324 (mulf : (⟨S8x128x128, .f32⟩ : BufTy).Contents (Elt F) → (⟨S8x128x128, .f32⟩ : BufTy).Contents (Elt F) → (⟨S8x128x128, .f32⟩ : BufTy).Contents (Elt F)),
    binary main_v324 main_v29 main_v325 (mulf : (⟨S8x128x128, .f32⟩ : BufTy).Contents (Elt F) → (⟨S8x128x128, .f32⟩ : BufTy).Contents (Elt F) → (⟨S8x128x128, .f32⟩ : BufTy).Contents (Elt F)),
    nullary main_cst_71 (constant S_ .f32 0x00000000#32),
    binary main_v325 main_cst_71 main_v326 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_72 (constant S_ .f32 0x3F800000#32),
    unary main_cst_72 main_v327 (broadcastInDim S8 ![] bcast_S_S8 : (⟨S_, .f32⟩ : BufTy).Contents (Elt F) → (⟨S8, .f32⟩ : BufTy).Contents (Elt F)),
    binary main_v23 main_v327 main_v328 (maximumf : (⟨S8, .f32⟩ : BufTy).Contents (Elt F) → (⟨S8, .f32⟩ : BufTy).Contents (Elt F) → (⟨S8, .f32⟩ : BufTy).Contents (Elt F)),
    binary main_v326 main_v328 main_v329 (Host.divf : (⟨S8, .f32⟩ : BufTy).Contents (Elt F) → (⟨S8, .f32⟩ : BufTy).Contents (Elt F) → (⟨S8, .f32⟩ : BufTy).Contents (Elt F)),
    binary main_v310 main_v329 main_v330 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call47_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call47_v1) (extractStridedSlice S8x256x1x128 ![0, 0, 0, 0] · slices_S8x256x128x128_S8x256x1x128_0_0_0_0) ]

set_option maxRecDepth 8192 in
set_option maxHeartbeats 100000000 in
theorem piece6_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v310 : U (Proc.devRef .tc main_v310) = val_main_v310 (F := F) x0 x1 x2)
    (i_main_v311 : U (Proc.devRef .tc main_v311) = val_main_v311 (F := F) x0)
    (i_main_v312 : U (Proc.devRef .tc main_v312) = val_main_v312 (F := F) x0)
    (i_main_call46_v3 : U (Proc.devRef .tc main_call46_v3) = val_main_call46_v3 (F := F) x1)
    (i_main_call46_v4 : U (Proc.devRef .tc main_call46_v4) = val_main_call46_v4 (F := F) x1) :
    (after (pc6_8 (F := F)) U (Proc.devRef .tc main_arg0) = x0
      ∧ after (pc6_8 (F := F)) U (Proc.devRef .tc main_arg1) = x1
      ∧ after (pc6_8 (F := F)) U (Proc.devRef .tc main_arg2) = x2)
    ∧ after (pc6_8 (F := F)) U (Proc.devRef .tc main_v20) = val_main_v20 (F := F) x1 x2
    ∧ after (pc6_8 (F := F)) U (Proc.devRef .tc main_v23) = val_main_v23 (F := F) x1 x2
    ∧ after (pc6_8 (F := F)) U (Proc.devRef .tc main_v28) = val_main_v28 (F := F) x0
    ∧ after (pc6_8 (F := F)) U (Proc.devRef .tc main_v29) = val_main_v29 (F := F) x1 x2
    ∧ after (pc6_8 (F := F)) U (Proc.devRef .tc main_v330) = val_main_v330 (F := F) x0 x1 x2
    ∧ after (pc6_8 (F := F)) U (Proc.devRef .tc main_call47_v0) = val_main_call47_v0 (F := F) x0
    ∧ after (pc6_8 (F := F)) U (Proc.devRef .tc main_call47_v1) = val_main_call47_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v310, i_main_v311, i_main_v312, i_main_call46_v3, i_main_call46_v4])
  all_goals (try rw [i_main_v20])
  all_goals (try rw [i_main_v23])
  all_goals (try rw [i_main_v28])
  all_goals (try rw [i_main_v29])
  all_goals (try rw [i_main_v310])
  all_goals (try rw [i_main_v311])
  all_goals (try rw [i_main_v312])
  all_goals (try rw [i_main_call46_v3])
  all_goals (try rw [i_main_call46_v4])
  all_goals (try rfl)

/-- Operations 638 to 640 of the line. -/
abbrev pc6_9 : List (HloOp τ sig (Elt F)) :=
  [ TRef.binary (TRef.of (T := ⟨S8x256x127x128, .f32⟩) main_call47_v0) (TRef.of (T := ⟨S8x256x1x128, .f32⟩) main_call47_v1) (TRef.of (T := ⟨S8x256x128x128, .f32⟩) main_call47_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call47_v2) (TRef.of (T := ⟨S8x256x128x1, .f32⟩) main_call47_v3) (extractStridedSlice S8x256x128x1 ![0, 0, 0, 127] · slices_S8x256x128x128_S8x256x128x1_0_0_0_127),
    TRef.unary (TRef.of (T := ⟨S8x256x128x128, .f32⟩) main_call47_v2) (TRef.of (T := ⟨S8x256x128x127, .f32⟩) main_call47_v4) (extractStridedSlice S8x256x128x127 ![0, 0, 0, 0] · slices_S8x256x128x128_S8x256x128x127_0_0_0_0) ]

set_option maxRecDepth 8192 in
set_option maxHeartbeats 100000000 in
theorem piece6_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_call47_v0 : U (Proc.devRef .tc main_call47_v0) = val_main_call47_v0 (F := F) x0)
    (i_main_call47_v1 : U (Proc.devRef .tc main_call47_v1) = val_main_call47_v1 (F := F) x0) :
    (after (pc6_9 (F := F)) U (Proc.devRef .tc main_arg0) = x0
      ∧ after (pc6_9 (F := F)) U (Proc.devRef .tc main_arg1) = x1
      ∧ after (pc6_9 (F := F)) U (Proc.devRef .tc main_arg2) = x2)
    ∧ after (pc6_9 (F := F)) U (Proc.devRef .tc main_v20) = val_main_v20 (F := F) x1 x2
    ∧ after (pc6_9 (F := F)) U (Proc.devRef .tc main_v23) = val_main_v23 (F := F) x1 x2
    ∧ after (pc6_9 (F := F)) U (Proc.devRef .tc main_v28) = val_main_v28 (F := F) x0
    ∧ after (pc6_9 (F := F)) U (Proc.devRef .tc main_v29) = val_main_v29 (F := F) x1 x2
    ∧ after (pc6_9 (F := F)) U (Proc.devRef .tc main_v330) = val_main_v330 (F := F) x0 x1 x2
    ∧ after (pc6_9 (F := F)) U (Proc.devRef .tc main_call47_v3) = val_main_call47_v3 (F := F) x0
    ∧ after (pc6_9 (F := F)) U (Proc.devRef .tc main_call47_v4) = val_main_call47_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v330, i_main_call47_v0, i_main_call47_v1])
  all_goals (try rw [i_main_v20])
  all_goals (try rw [i_main_v23])
  all_goals (try rw [i_main_v28])
  all_goals (try rw [i_main_v29])
  all_goals (try rw [i_main_v330])
  all_goals (try rw [i_main_call47_v0])
  all_goals (try rw [i_main_call47_v1])
  all_goals (try rfl)

/-- Operations 641 to 643 of the line. -/
abbrev pc6_10 : List (HloOp τ sig (Elt F)) :=
  [ TRef.binary (TRef.of (T := ⟨S8x256x128x1, .f32⟩) main_call47_v3) (TRef.of (T := ⟨S8x256x128x127, .f32⟩) main_call47_v4) (TRef.of (T := ⟨S8x256x128x128, .f32⟩) main_v331) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x127x128, .f32⟩) main_call48_v0) (extractStridedSlice S8x127x128 ![0, 1, 0] · slices_S8x128x128_S8x127x128_0_1_0),
    TRef.unary (TRef.of (T := ⟨S8x128x128, .f32⟩) main_v28) (TRef.of (T := ⟨S8x1x128, .f32⟩) main_call48_v1) (extractStridedSlice S8x1x128 ![0, 0, 0] · slices_S8x128x128_S8x1x128_0_0_0) ]

set_option maxRecDepth 8192 in
set_option maxHeartbeats 100000000 in
theorem piece6_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_call47_v3 : U (Proc.devRef .tc main_call47_v3) = val_main_call47_v3 (F := F) x0)
    (i_main_call47_v4 : U (Proc.devRef .tc main_call47_v4) = val_main_call47_v4 (F := F) x0) :
    (after (pc6_10 (F := F)) U (Proc.devRef .tc main_arg0) = x0
      ∧ after (pc6_10 (F := F)) U (Proc.devRef .tc main_arg1) = x1
      ∧ after (pc6_10 (F := F)) U (Proc.devRef .tc main_arg2) = x2)
    ∧ after (pc6_10 (F := F)) U (Proc.devRef .tc main_v20) = val_main_v20 (F := F) x1 x2
    ∧ after (pc6_10 (F := F)) U (Proc.devRef .tc main_v23) = val_main_v23 (F := F) x1 x2
    ∧ after (pc6_10 (F := F)) U (Proc.devRef .tc main_v28) = val_main_v28 (F := F) x0
    ∧ after (pc6_10 (F := F)) U (Proc.devRef .tc main_v29) = val_main_v29 (F := F) x1 x2
    ∧ after (pc6_10 (F := F)) U (Proc.devRef .tc main_v330) = val_main_v330 (F := F) x0 x1 x2
    ∧ after (pc6_10 (F := F)) U (Proc.devRef .tc main_v331) = val_main_v331 (F := F) x0
    ∧ after (pc6_10 (F := F)) U (Proc.devRef .tc main_call48_v0) = val_main_call48_v0 (F := F) x0
    ∧ after (pc6_10 (F := F)) U (Proc.devRef .tc main_call48_v1) = val_main_call48_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v330, i_main_call47_v3, i_main_call47_v4])
  all_goals (try rw [i_main_v20])
  all_goals (try rw [i_main_v23])
  all_goals (try rw [i_main_v28])
  all_goals (try rw [i_main_v29])
  all_goals (try rw [i_main_v330])
  all_goals (try rw [i_main_call47_v3])
  all_goals (try rw [i_main_call47_v4])
  all_goals (try rfl)

/-- Operations 644 to 646 of the line. -/
abbrev pc6_11 : List (HloOp τ sig (Elt F)) :=
  [ TRef.binary (TRef.of (T := ⟨S8x127x128, .f32⟩) main_call48_v0) (TRef.of (T := ⟨S8x1x128, .f32⟩) main_call48_v1) (TRef.of (T := ⟨S8x128x128, .f32⟩) main_call48_v2) (fun a b => concatenate S8x128x128 1 [⟨S8x127x128, a⟩, ⟨S8x1x128, b⟩] concatenates_S8x127x128_S8x1x128_S8x128x128_d1),
    TRef.unary (TRef.of (T := ⟨S8x128x128, .f32⟩) main_call48_v2) (TRef.of (T := ⟨S8x128x1, .f32⟩) main_call48_v3) (extractStridedSlice S8x128x1 ![0, 0, 127] · slices_S8x128x128_S8x128x1_0_0_127),
    TRef.unary (TRef.of (T := ⟨S8x128x128, .f32⟩) main_call48_v2) (TRef.of (T := ⟨S8x128x127, .f32⟩) main_call48_v4) (extractStridedSlice S8x128x127 ![0, 0, 0] · slices_S8x128x128_S8x128x127_0_0_0) ]

set_option maxRecDepth 8192 in
set_option maxHeartbeats 100000000 in
theorem piece6_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_v331 : U (Proc.devRef .tc main_v331) = val_main_v331 (F := F) x0)
    (i_main_call48_v0 : U (Proc.devRef .tc main_call48_v0) = val_main_call48_v0 (F := F) x0)
    (i_main_call48_v1 : U (Proc.devRef .tc main_call48_v1) = val_main_call48_v1 (F := F) x0) :
    (after (pc6_11 (F := F)) U (Proc.devRef .tc main_arg0) = x0
      ∧ after (pc6_11 (F := F)) U (Proc.devRef .tc main_arg1) = x1
      ∧ after (pc6_11 (F := F)) U (Proc.devRef .tc main_arg2) = x2)
    ∧ after (pc6_11 (F := F)) U (Proc.devRef .tc main_v20) = val_main_v20 (F := F) x1 x2
    ∧ after (pc6_11 (F := F)) U (Proc.devRef .tc main_v23) = val_main_v23 (F := F) x1 x2
    ∧ after (pc6_11 (F := F)) U (Proc.devRef .tc main_v28) = val_main_v28 (F := F) x0
    ∧ after (pc6_11 (F := F)) U (Proc.devRef .tc main_v29) = val_main_v29 (F := F) x1 x2
    ∧ after (pc6_11 (F := F)) U (Proc.devRef .tc main_v330) = val_main_v330 (F := F) x0 x1 x2
    ∧ after (pc6_11 (F := F)) U (Proc.devRef .tc main_v331) = val_main_v331 (F := F) x0
    ∧ after (pc6_11 (F := F)) U (Proc.devRef .tc main_call48_v3) = val_main_call48_v3 (F := F) x0
    ∧ after (pc6_11 (F := F)) U (Proc.devRef .tc main_call48_v4) = val_main_call48_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v330, i_main_v331, i_main_call48_v0, i_main_call48_v1])
  all_goals (try rw [i_main_v20])
  all_goals (try rw [i_main_v23])
  all_goals (try rw [i_main_v28])
  all_goals (try rw [i_main_v29])
  all_goals (try rw [i_main_v330])
  all_goals (try rw [i_main_v331])
  all_goals (try rw [i_main_call48_v0])
  all_goals (try rw [i_main_call48_v1])
  all_goals (try rfl)

/-- Operations 647 to 649 of the line. -/
abbrev pc6_12 : List (HloOp τ sig (Elt F)) :=
  [ TRef.binary (TRef.of (T := ⟨S8x128x1, .f32⟩) main_call48_v3) (TRef.of (T := ⟨S8x128x127, .f32⟩) main_call48_v4) (TRef.of (T := ⟨S8x128x128, .f32⟩) main_v332) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x127x128, .i32⟩) main_call49_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call49_v1) (extractStridedSlice S8x1x128 ![0, 0, 0] · slices_S8x128x128_S8x1x128_0_0_0) ]

set_option maxRecDepth 8192 in
set_option maxHeartbeats 100000000 in
theorem piece6_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_v331 : U (Proc.devRef .tc main_v331) = val_main_v331 (F := F) x0)
    (i_main_call48_v3 : U (Proc.devRef .tc main_call48_v3) = val_main_call48_v3 (F := F) x0)
    (i_main_call48_v4 : U (Proc.devRef .tc main_call48_v4) = val_main_call48_v4 (F := F) x0) :
    (after (pc6_12 (F := F)) U (Proc.devRef .tc main_arg0) = x0
      ∧ after (pc6_12 (F := F)) U (Proc.devRef .tc main_arg1) = x1
      ∧ after (pc6_12 (F := F)) U (Proc.devRef .tc main_arg2) = x2)
    ∧ after (pc6_12 (F := F)) U (Proc.devRef .tc main_v20) = val_main_v20 (F := F) x1 x2
    ∧ after (pc6_12 (F := F)) U (Proc.devRef .tc main_v23) = val_main_v23 (F := F) x1 x2
    ∧ after (pc6_12 (F := F)) U (Proc.devRef .tc main_v28) = val_main_v28 (F := F) x0
    ∧ after (pc6_12 (F := F)) U (Proc.devRef .tc main_v29) = val_main_v29 (F := F) x1 x2
    ∧ after (pc6_12 (F := F)) U (Proc.devRef .tc main_v330) = val_main_v330 (F := F) x0 x1 x2
    ∧ after (pc6_12 (F := F)) U (Proc.devRef .tc main_v331) = val_main_v331 (F := F) x0
    ∧ after (pc6_12 (F := F)) U (Proc.devRef .tc main_v332) = val_main_v332 (F := F) x0
    ∧ after (pc6_12 (F := F)) U (Proc.devRef .tc main_call49_v0) = val_main_call49_v0 (F := F) x1
    ∧ after (pc6_12 (F := F)) U (Proc.devRef .tc main_call49_v1) = val_main_call49_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v330, i_main_v331, i_main_call48_v3, i_main_call48_v4])
  all_goals (try rw [i_main_v20])
  all_goals (try rw [i_main_v23])
  all_goals (try rw [i_main_v28])
  all_goals (try rw [i_main_v29])
  all_goals (try rw [i_main_v330])
  all_goals (try rw [i_main_v331])
  all_goals (try rw [i_main_call48_v3])
  all_goals (try rw [i_main_call48_v4])
  all_goals (try rfl)

/-- Operations 650 to 652 of the line. -/
abbrev pc6_13 : List (HloOp τ sig (Elt F)) :=
  [ TRef.binary (TRef.of (T := ⟨S8x127x128, .i32⟩) main_call49_v0) (TRef.of (T := ⟨S8x1x128, .i32⟩) main_call49_v1) (TRef.of (T := ⟨S8x128x128, .i32⟩) main_call49_v2) (fun a b => concatenate S8x128x128 1 [⟨S8x127x128, a⟩, ⟨S8x1x128, b⟩] concatenates_S8x127x128_S8x1x128_S8x128x128_d1),
    TRef.unary (TRef.of (T := ⟨S8x128x128, .i32⟩) main_call49_v2) (TRef.of (T := ⟨S8x128x1, .i32⟩) main_call49_v3) (extractStridedSlice S8x128x1 ![0, 0, 127] · slices_S8x128x128_S8x128x1_0_0_127),
    TRef.unary (TRef.of (T := ⟨S8x128x128, .i32⟩) main_call49_v2) (TRef.of (T := ⟨S8x128x127, .i32⟩) main_call49_v4) (extractStridedSlice S8x128x127 ![0, 0, 0] · slices_S8x128x128_S8x128x127_0_0_0) ]

set_option maxRecDepth 8192 in
set_option maxHeartbeats 100000000 in
theorem piece6_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_v331 : U (Proc.devRef .tc main_v331) = val_main_v331 (F := F) x0)
    (i_main_v332 : U (Proc.devRef .tc main_v332) = val_main_v332 (F := F) x0)
    (i_main_call49_v0 : U (Proc.devRef .tc main_call49_v0) = val_main_call49_v0 (F := F) x1)
    (i_main_call49_v1 : U (Proc.devRef .tc main_call49_v1) = val_main_call49_v1 (F := F) x1) :
    (after (pc6_13 (F := F)) U (Proc.devRef .tc main_arg0) = x0
      ∧ after (pc6_13 (F := F)) U (Proc.devRef .tc main_arg1) = x1
      ∧ after (pc6_13 (F := F)) U (Proc.devRef .tc main_arg2) = x2)
    ∧ after (pc6_13 (F := F)) U (Proc.devRef .tc main_v20) = val_main_v20 (F := F) x1 x2
    ∧ after (pc6_13 (F := F)) U (Proc.devRef .tc main_v23) = val_main_v23 (F := F) x1 x2
    ∧ after (pc6_13 (F := F)) U (Proc.devRef .tc main_v28) = val_main_v28 (F := F) x0
    ∧ after (pc6_13 (F := F)) U (Proc.devRef .tc main_v29) = val_main_v29 (F := F) x1 x2
    ∧ after (pc6_13 (F := F)) U (Proc.devRef .tc main_v330) = val_main_v330 (F := F) x0 x1 x2
    ∧ after (pc6_13 (F := F)) U (Proc.devRef .tc main_v331) = val_main_v331 (F := F) x0
    ∧ after (pc6_13 (F := F)) U (Proc.devRef .tc main_v332) = val_main_v332 (F := F) x0
    ∧ after (pc6_13 (F := F)) U (Proc.devRef .tc main_call49_v3) = val_main_call49_v3 (F := F) x1
    ∧ after (pc6_13 (F := F)) U (Proc.devRef .tc main_call49_v4) = val_main_call49_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v330, i_main_v331, i_main_v332, i_main_call49_v0, i_main_call49_v1])
  all_goals (try rw [i_main_v20])
  all_goals (try rw [i_main_v23])
  all_goals (try rw [i_main_v28])
  all_goals (try rw [i_main_v29])
  all_goals (try rw [i_main_v330])
  all_goals (try rw [i_main_v331])
  all_goals (try rw [i_main_v332])
  all_goals (try rw [i_main_call49_v0])
  all_goals (try rw [i_main_call49_v1])
  all_goals (try rfl)

/-- Operations 653 to 664 of the line. -/
abbrev pc6_14 : List (HloOp τ sig (Elt F)) :=
  [ TRef.binary (TRef.of (T := ⟨S8x128x1, .i32⟩) main_call49_v3) (TRef.of (T := ⟨S8x128x127, .i32⟩) main_call49_v4) (TRef.of (T := ⟨S8x128x128, .i32⟩) main_v333) (fun a b => concatenate S8x128x128 2 [⟨S8x128x1, a⟩, ⟨S8x128x127, b⟩] concatenates_S8x128x1_S8x128x127_S8x128x128_d2),
    binary main_arg0 main_v331 main_v334 (mulf : (⟨S8x256x128x128, .f32⟩ : BufTy).Contents (Elt F) → (⟨S8x256x128x128, .f32⟩ : BufTy).Contents (Elt F) → (⟨S8x256x128x128, .f32⟩ : BufTy).Contents (Elt F)),
    nullary main_cst_73 (constant S_ .f32 0x00000000#32),
    binary main_v334 main_cst_73 main_v335 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v332 main_v336 (mulf : (⟨S8x128x128, .f32⟩ : BufTy).Contents (Elt F) → (⟨S8x128x128, .f32⟩ : BufTy).Contents (Elt F) → (⟨S8x128x128, .f32⟩ : BufTy).Contents (Elt F)),
    binary main_v335 main_v336 main_v337 (Host.divf : (⟨S8x128x128, .f32⟩ : BufTy).Contents (Elt F) → (⟨S8x128x128, .f32⟩ : BufTy).Contents (Elt F) → (⟨S8x128x128, .f32⟩ : BufTy).Contents (Elt F)),
    binary main_arg1 main_v333 main_v338 (cmpi .eq : (⟨S8x128x128, .i32⟩ : BufTy).Contents (Elt F) → (⟨S8x128x128, .i32⟩ : BufTy).Contents (Elt F) → (⟨S8x128x128, .i1⟩ : BufTy).Contents (Elt F)),
    nullary main_c_74 (constantI S_ 32 2#32),
    unary main_c_74 main_v339 (broadcastInDim S8x128x128 ![] bcast_S_S8x128x128 : (⟨S_, .i32⟩ : BufTy).Contents (Elt F) → (⟨S8x128x128, .i32⟩ : BufTy).Contents (Elt F)),
    binary main_arg1 main_v339 main_v340 (cmpi .slt : (⟨S8x128x128, .i32⟩ : BufTy).Contents (Elt F) → (⟨S8x128x128, .i32⟩ : BufTy).Contents (Elt F) → (⟨S8x128x128, .i1⟩ : BufTy).Contents (Elt F)),
    binary main_v338 main_v340 main_v341 (andi : (⟨S8x128x128, .i1⟩ : BufTy).Contents (Elt F) → (⟨S8x128x128, .i1⟩ : BufTy).Contents (Elt F) → (⟨S8x128x128, .i1⟩ : BufTy).Contents (Elt F)),
    unary main_v341 main_v342 (uitofp .f32 : (⟨S8x128x128, .i1⟩ : BufTy).Contents (Elt F) → (⟨S8x128x128, .f32⟩ : BufTy).Contents (Elt F)) ]

set_option maxRecDepth 8192 in
set_option maxHeartbeats 100000000 in
theorem piece6_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_v331 : U (Proc.devRef .tc main_v331) = val_main_v331 (F := F) x0)
    (i_main_v332 : U (Proc.devRef .tc main_v332) = val_main_v332 (F := F) x0)
    (i_main_call49_v3 : U (Proc.devRef .tc main_call49_v3) = val_main_call49_v3 (F := F) x1)
    (i_main_call49_v4 : U (Proc.devRef .tc main_call49_v4) = val_main_call49_v4 (F := F) x1) :
    (after (pc6_14 (F := F)) U (Proc.devRef .tc main_arg0) = x0
      ∧ after (pc6_14 (F := F)) U (Proc.devRef .tc main_arg1) = x1
      ∧ after (pc6_14 (F := F)) U (Proc.devRef .tc main_arg2) = x2)
    ∧ after (pc6_14 (F := F)) U (Proc.devRef .tc main_v20) = val_main_v20 (F := F) x1 x2
    ∧ after (pc6_14 (F := F)) U (Proc.devRef .tc main_v23) = val_main_v23 (F := F) x1 x2
    ∧ after (pc6_14 (F := F)) U (Proc.devRef .tc main_v28) = val_main_v28 (F := F) x0
    ∧ after (pc6_14 (F := F)) U (Proc.devRef .tc main_v29) = val_main_v29 (F := F) x1 x2
    ∧ after (pc6_14 (F := F)) U (Proc.devRef .tc main_v330) = val_main_v330 (F := F) x0 x1 x2
    ∧ after (pc6_14 (F := F)) U (Proc.devRef .tc main_v337) = val_main_v337 (F := F) x0
    ∧ after (pc6_14 (F := F)) U (Proc.devRef .tc main_v342) = val_main_v342 (F := F) x1 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v330, i_main_v331, i_main_v332, i_main_call49_v3, i_main_call49_v4])
  all_goals (try rw [i_main_v20])
  all_goals (try rw [i_main_v23])
  all_goals (try rw [i_main_v28])
  all_goals (try rw [i_main_v29])
  all_goals (try rw [i_main_v330])
  all_goals (try rw [i_main_v331])
  all_goals (try rw [i_main_v332])
  all_goals (try rw [i_main_call49_v3])
  all_goals (try rw [i_main_call49_v4])
  all_goals (try rfl)

set_option maxRecDepth 8192 in
/-- The part's operations are its pieces laid end to end. -/
theorem ops6_split : (ops6 (F := F)) = pc6_0 ++ (pc6_1 ++ (pc6_2 ++ (pc6_3 ++ (pc6_4 ++ (pc6_5 ++ (pc6_6 ++ (pc6_7 ++ (pc6_8 ++ (pc6_9 ++ (pc6_10 ++ (pc6_11 ++ (pc6_12 ++ (pc6_13 ++ (pc6_14)))))))))))))) := rfl

theorem chunk6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v290 : U (Proc.devRef .tc main_v290) = val_main_v290 (F := F) x0 x1 x2)
    (i_main_v291 : U (Proc.devRef .tc main_v291) = val_main_v291 (F := F) x0)
    (i_main_v292 : U (Proc.devRef .tc main_v292) = val_main_v292 (F := F) x0) :
    (after (ops6 (F := F)) U (Proc.devRef .tc main_arg0) = x0
      ∧ after (ops6 (F := F)) U (Proc.devRef .tc main_arg1) = x1
      ∧ after (ops6 (F := F)) U (Proc.devRef .tc main_arg2) = x2)
    ∧ after (ops6 (F := F)) U (Proc.devRef .tc main_v20) = val_main_v20 (F := F) x1 x2
    ∧ after (ops6 (F := F)) U (Proc.devRef .tc main_v23) = val_main_v23 (F := F) x1 x2
    ∧ after (ops6 (F := F)) U (Proc.devRef .tc main_v28) = val_main_v28 (F := F) x0
    ∧ after (ops6 (F := F)) U (Proc.devRef .tc main_v29) = val_main_v29 (F := F) x1 x2
    ∧ after (ops6 (F := F)) U (Proc.devRef .tc main_v330) = val_main_v330 (F := F) x0 x1 x2
    ∧ after (ops6 (F := F)) U (Proc.devRef .tc main_v337) = val_main_v337 (F := F) x0
    ∧ after (ops6 (F := F)) U (Proc.devRef .tc main_v342) = val_main_v342 (F := F) x1 := by
  rw [ops6_split]
  simp only [after_append]
  have p0 := piece6_0 (F := F) U x0 x1 x2 h0 h1 h2 i_main_v20 i_main_v23 i_main_v28 i_main_v29 i_main_v290 i_main_v291 i_main_v292
  have p1 := piece6_1 (F := F) (after (pc6_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2.1 p0.2.2.2.2.2.2.2.2.1 p0.2.2.2.2.2.2.2.2.2
  have p2 := piece6_2 (F := F) (after (pc6_1 (F := F)) (after (pc6_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2.1 p1.2.2.2.2.2.2.2.2.1 p1.2.2.2.2.2.2.2.2.2
  have p3 := piece6_3 (F := F) (after (pc6_2 (F := F)) (after (pc6_1 (F := F)) (after (pc6_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2
  have p4 := piece6_4 (F := F) (after (pc6_3 (F := F)) (after (pc6_2 (F := F)) (after (pc6_1 (F := F)) (after (pc6_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2
  have p5 := piece6_5 (F := F) (after (pc6_4 (F := F)) (after (pc6_3 (F := F)) (after (pc6_2 (F := F)) (after (pc6_1 (F := F)) (after (pc6_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2
  have p6 := piece6_6 (F := F) (after (pc6_5 (F := F)) (after (pc6_4 (F := F)) (after (pc6_3 (F := F)) (after (pc6_2 (F := F)) (after (pc6_1 (F := F)) (after (pc6_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2
  have p7 := piece6_7 (F := F) (after (pc6_6 (F := F)) (after (pc6_5 (F := F)) (after (pc6_4 (F := F)) (after (pc6_3 (F := F)) (after (pc6_2 (F := F)) (after (pc6_1 (F := F)) (after (pc6_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2.1 p6.2.2.2.2.2.2.2.2.1 p6.2.2.2.2.2.2.2.2.2
  have p8 := piece6_8 (F := F) (after (pc6_7 (F := F)) (after (pc6_6 (F := F)) (after (pc6_5 (F := F)) (after (pc6_4 (F := F)) (after (pc6_3 (F := F)) (after (pc6_2 (F := F)) (after (pc6_1 (F := F)) (after (pc6_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2.1 p7.2.2.2.2.2.2.2.2.1 p7.2.2.2.2.2.2.2.2.2
  have p9 := piece6_9 (F := F) (after (pc6_8 (F := F)) (after (pc6_7 (F := F)) (after (pc6_6 (F := F)) (after (pc6_5 (F := F)) (after (pc6_4 (F := F)) (after (pc6_3 (F := F)) (after (pc6_2 (F := F)) (after (pc6_1 (F := F)) (after (pc6_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2
  have p10 := piece6_10 (F := F) (after (pc6_9 (F := F)) (after (pc6_8 (F := F)) (after (pc6_7 (F := F)) (after (pc6_6 (F := F)) (after (pc6_5 (F := F)) (after (pc6_4 (F := F)) (after (pc6_3 (F := F)) (after (pc6_2 (F := F)) (after (pc6_1 (F := F)) (after (pc6_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2
  have p11 := piece6_11 (F := F) (after (pc6_10 (F := F)) (after (pc6_9 (F := F)) (after (pc6_8 (F := F)) (after (pc6_7 (F := F)) (after (pc6_6 (F := F)) (after (pc6_5 (F := F)) (after (pc6_4 (F := F)) (after (pc6_3 (F := F)) (after (pc6_2 (F := F)) (after (pc6_1 (F := F)) (after (pc6_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2
  have p12 := piece6_12 (F := F) (after (pc6_11 (F := F)) (after (pc6_10 (F := F)) (after (pc6_9 (F := F)) (after (pc6_8 (F := F)) (after (pc6_7 (F := F)) (after (pc6_6 (F := F)) (after (pc6_5 (F := F)) (after (pc6_4 (F := F)) (after (pc6_3 (F := F)) (after (pc6_2 (F := F)) (after (pc6_1 (F := F)) (after (pc6_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2
  have p13 := piece6_13 (F := F) (after (pc6_12 (F := F)) (after (pc6_11 (F := F)) (after (pc6_10 (F := F)) (after (pc6_9 (F := F)) (after (pc6_8 (F := F)) (after (pc6_7 (F := F)) (after (pc6_6 (F := F)) (after (pc6_5 (F := F)) (after (pc6_4 (F := F)) (after (pc6_3 (F := F)) (after (pc6_2 (F := F)) (after (pc6_1 (F := F)) (after (pc6_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2.1 p12.2.2.2.2.2.2.2.2.1 p12.2.2.2.2.2.2.2.2.2
  have p14 := piece6_14 (F := F) (after (pc6_13 (F := F)) (after (pc6_12 (F := F)) (after (pc6_11 (F := F)) (after (pc6_10 (F := F)) (after (pc6_9 (F := F)) (after (pc6_8 (F := F)) (after (pc6_7 (F := F)) (after (pc6_6 (F := F)) (after (pc6_5 (F := F)) (after (pc6_4 (F := F)) (after (pc6_3 (F := F)) (after (pc6_2 (F := F)) (after (pc6_1 (F := F)) (after (pc6_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2.1 p13.2.2.2.2.2.2.2.2.1 p13.2.2.2.2.2.2.2.2.2
  exact p14

end Cert.Bridge.RefRun

end
-- ==== Proof.RefRunPart7.lean ====
/-
  Part 7 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 665 to 676 of the line. -/
abbrev pc7_0 : List (HloOp τ sig (Elt F)) :=
  [ binary main_v337 main_v342 main_v343 (subf : (⟨S8x128x128, .f32⟩ : BufTy).Contents (Elt F) → (⟨S8x128x128, .f32⟩ : BufTy).Contents (Elt F) → (⟨S8x128x128, .f32⟩ : BufTy).Contents (Elt F)),
    binary main_v343 main_v343 main_v344 (mulf : (⟨S8x128x128, .f32⟩ : BufTy).Contents (Elt F) → (⟨S8x128x128, .f32⟩ : BufTy).Contents (Elt F) → (⟨S8x128x128, .f32⟩ : BufTy).Contents (Elt F)),
    binary main_v344 main_v29 main_v345 (mulf : (⟨S8x128x128, .f32⟩ : BufTy).Contents (Elt F) → (⟨S8x128x128, .f32⟩ : BufTy).Contents (Elt F) → (⟨S8x128x128, .f32⟩ : BufTy).Contents (Elt F)),
    nullary main_cst_75 (constant S_ .f32 0x00000000#32),
    binary main_v345 main_cst_75 main_v346 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_76 (constant S_ .f32 0x3F800000#32),
    unary main_cst_76 main_v347 (broadcastInDim S8 ![] bcast_S_S8 : (⟨S_, .f32⟩ : BufTy).Contents (Elt F) → (⟨S8, .f32⟩ : BufTy).Contents (Elt F)),
    binary main_v23 main_v347 main_v348 (maximumf : (⟨S8, .f32⟩ : BufTy).Contents (Elt F) → (⟨S8, .f32⟩ : BufTy).Contents (Elt F) → (⟨S8, .f32⟩ : BufTy).Contents (Elt F)),
    binary main_v346 main_v348 main_v349 (Host.divf : (⟨S8, .f32⟩ : BufTy).Contents (Elt F) → (⟨S8, .f32⟩ : BufTy).Contents (Elt F) → (⟨S8, .f32⟩ : BufTy).Contents (Elt F)),
    binary main_v330 main_v349 main_v350 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call50_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call50_v1) (extractStridedSlice S8x256x1x128 ![0, 0, 0, 0] · slices_S8x256x128x128_S8x256x1x128_0_0_0_0) ]

set_option maxRecDepth 8192 in
set_option maxHeartbeats 100000000 in
theorem piece7_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_v337 : U (Proc.devRef .tc main_v337) = val_main_v337 (F := F) x0)
    (i_main_v342 : U (Proc.devRef .tc main_v342) = val_main_v342 (F := F) x1) :
    (after (pc7_0 (F := F)) U (Proc.devRef .tc main_arg0) = x0
      ∧ after (pc7_0 (F := F)) U (Proc.devRef .tc main_arg1) = x1
      ∧ after (pc7_0 (F := F)) U (Proc.devRef .tc main_arg2) = x2)
    ∧ after (pc7_0 (F := F)) U (Proc.devRef .tc main_v20) = val_main_v20 (F := F) x1 x2
    ∧ after (pc7_0 (F := F)) U (Proc.devRef .tc main_v23) = val_main_v23 (F := F) x1 x2
    ∧ after (pc7_0 (F := F)) U (Proc.devRef .tc main_v28) = val_main_v28 (F := F) x0
    ∧ after (pc7_0 (F := F)) U (Proc.devRef .tc main_v29) = val_main_v29 (F := F) x1 x2
    ∧ after (pc7_0 (F := F)) U (Proc.devRef .tc main_v350) = val_main_v350 (F := F) x0 x1 x2
    ∧ after (pc7_0 (F := F)) U (Proc.devRef .tc main_call50_v0) = val_main_call50_v0 (F := F) x0
    ∧ after (pc7_0 (F := F)) U (Proc.devRef .tc main_call50_v1) = val_main_call50_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v330, i_main_v337, i_main_v342])
  all_goals (try rw [i_main_v20])
  all_goals (try rw [i_main_v23])
  all_goals (try rw [i_main_v28])
  all_goals (try rw [i_main_v29])
  all_goals (try rw [i_main_v330])
  all_goals (try rw [i_main_v337])
  all_goals (try rw [i_main_v342])
  all_goals (try rfl)

/-- Operations 677 to 679 of the line. -/
abbrev pc7_1 : List (HloOp τ sig (Elt F)) :=
  [ TRef.binary (TRef.of (T := ⟨S8x256x127x128, .f32⟩) main_call50_v0) (TRef.of (T := ⟨S8x256x1x128, .f32⟩) main_call50_v1) (TRef.of (T := ⟨S8x256x128x128, .f32⟩) main_call50_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call50_v2) (TRef.of (T := ⟨S8x256x128x128, .f32⟩) main_call50_v3) (extractStridedSlice S8x256x128x128 ![0, 0, 0, 0] · slices_S8x256x128x128_S8x256x128x128_0_0_0_0),
    TRef.unary (TRef.of (T := ⟨S8x256x128x128, .f32⟩) main_call50_v2) (TRef.of (T := ⟨S8x256x128x0, .f32⟩) main_call50_v4) (extractStridedSlice S8x256x128x0 ![0, 0, 0, 0] · slices_S8x256x128x128_S8x256x128x0_0_0_0_0) ]

set_option maxRecDepth 8192 in
set_option maxHeartbeats 100000000 in
theorem piece7_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v350 : U (Proc.devRef .tc main_v350) = val_main_v350 (F := F) x0 x1 x2)
    (i_main_call50_v0 : U (Proc.devRef .tc main_call50_v0) = val_main_call50_v0 (F := F) x0)
    (i_main_call50_v1 : U (Proc.devRef .tc main_call50_v1) = val_main_call50_v1 (F := F) x0) :
    (after (pc7_1 (F := F)) U (Proc.devRef .tc main_arg0) = x0
      ∧ after (pc7_1 (F := F)) U (Proc.devRef .tc main_arg1) = x1
      ∧ after (pc7_1 (F := F)) U (Proc.devRef .tc main_arg2) = x2)
    ∧ after (pc7_1 (F := F)) U (Proc.devRef .tc main_v20) = val_main_v20 (F := F) x1 x2
    ∧ after (pc7_1 (F := F)) U (Proc.devRef .tc main_v23) = val_main_v23 (F := F) x1 x2
    ∧ after (pc7_1 (F := F)) U (Proc.devRef .tc main_v28) = val_main_v28 (F := F) x0
    ∧ after (pc7_1 (F := F)) U (Proc.devRef .tc main_v29) = val_main_v29 (F := F) x1 x2
    ∧ after (pc7_1 (F := F)) U (Proc.devRef .tc main_v350) = val_main_v350 (F := F) x0 x1 x2
    ∧ after (pc7_1 (F := F)) U (Proc.devRef .tc main_call50_v3) = val_main_call50_v3 (F := F) x0
    ∧ after (pc7_1 (F := F)) U (Proc.devRef .tc main_call50_v4) = val_main_call50_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v350, i_main_call50_v0, i_main_call50_v1])
  all_goals (try rw [i_main_v20])
  all_goals (try rw [i_main_v23])
  all_goals (try rw [i_main_v28])
  all_goals (try rw [i_main_v29])
  all_goals (try rw [i_main_v350])
  all_goals (try rw [i_main_call50_v0])
  all_goals (try rw [i_main_call50_v1])
  all_goals (try rfl)

/-- Operations 680 to 682 of the line. -/
abbrev pc7_2 : List (HloOp τ sig (Elt F)) :=
  [ TRef.binary (TRef.of (T := ⟨S8x256x128x128, .f32⟩) main_call50_v3) (TRef.of (T := ⟨S8x256x128x0, .f32⟩) main_call50_v4) (TRef.of (T := ⟨S8x256x128x128, .f32⟩) main_v351) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x127x128, .f32⟩) main_call51_v0) (extractStridedSlice S8x127x128 ![0, 1, 0] · slices_S8x128x128_S8x127x128_0_1_0),
    TRef.unary (TRef.of (T := ⟨S8x128x128, .f32⟩) main_v28) (TRef.of (T := ⟨S8x1x128, .f32⟩) main_call51_v1) (extractStridedSlice S8x1x128 ![0, 0, 0] · slices_S8x128x128_S8x1x128_0_0_0) ]

set_option maxRecDepth 8192 in
set_option maxHeartbeats 100000000 in
theorem piece7_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v350 : U (Proc.devRef .tc main_v350) = val_main_v350 (F := F) x0 x1 x2)
    (i_main_call50_v3 : U (Proc.devRef .tc main_call50_v3) = val_main_call50_v3 (F := F) x0)
    (i_main_call50_v4 : U (Proc.devRef .tc main_call50_v4) = val_main_call50_v4 (F := F) x0) :
    (after (pc7_2 (F := F)) U (Proc.devRef .tc main_arg0) = x0
      ∧ after (pc7_2 (F := F)) U (Proc.devRef .tc main_arg1) = x1
      ∧ after (pc7_2 (F := F)) U (Proc.devRef .tc main_arg2) = x2)
    ∧ after (pc7_2 (F := F)) U (Proc.devRef .tc main_v20) = val_main_v20 (F := F) x1 x2
    ∧ after (pc7_2 (F := F)) U (Proc.devRef .tc main_v23) = val_main_v23 (F := F) x1 x2
    ∧ after (pc7_2 (F := F)) U (Proc.devRef .tc main_v28) = val_main_v28 (F := F) x0
    ∧ after (pc7_2 (F := F)) U (Proc.devRef .tc main_v29) = val_main_v29 (F := F) x1 x2
    ∧ after (pc7_2 (F := F)) U (Proc.devRef .tc main_v350) = val_main_v350 (F := F) x0 x1 x2
    ∧ after (pc7_2 (F := F)) U (Proc.devRef .tc main_v351) = val_main_v351 (F := F) x0
    ∧ after (pc7_2 (F := F)) U (Proc.devRef .tc main_call51_v0) = val_main_call51_v0 (F := F) x0
    ∧ after (pc7_2 (F := F)) U (Proc.devRef .tc main_call51_v1) = val_main_call51_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v350, i_main_call50_v3, i_main_call50_v4])
  all_goals (try rw [i_main_v20])
  all_goals (try rw [i_main_v23])
  all_goals (try rw [i_main_v28])
  all_goals (try rw [i_main_v29])
  all_goals (try rw [i_main_v350])
  all_goals (try rw [i_main_call50_v3])
  all_goals (try rw [i_main_call50_v4])
  all_goals (try rfl)

/-- Operations 683 to 685 of the line. -/
abbrev pc7_3 : List (HloOp τ sig (Elt F)) :=
  [ TRef.binary (TRef.of (T := ⟨S8x127x128, .f32⟩) main_call51_v0) (TRef.of (T := ⟨S8x1x128, .f32⟩) main_call51_v1) (TRef.of (T := ⟨S8x128x128, .f32⟩) main_call51_v2) (fun a b => concatenate S8x128x128 1 [⟨S8x127x128, a⟩, ⟨S8x1x128, b⟩] concatenates_S8x127x128_S8x1x128_S8x128x128_d1),
    TRef.unary (TRef.of (T := ⟨S8x128x128, .f32⟩) main_call51_v2) (TRef.of (T := ⟨S8x128x128, .f32⟩) main_call51_v3) (extractStridedSlice S8x128x128 ![0, 0, 0] · slices_S8x128x128_S8x128x128_0_0_0),
    TRef.unary (TRef.of (T := ⟨S8x128x128, .f32⟩) main_call51_v2) (TRef.of (T := ⟨S8x128x0, .f32⟩) main_call51_v4) (extractStridedSlice S8x128x0 ![0, 0, 0] · slices_S8x128x128_S8x128x0_0_0_0) ]

set_option maxRecDepth 8192 in
set_option maxHeartbeats 100000000 in
theorem piece7_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v350 : U (Proc.devRef .tc main_v350) = val_main_v350 (F := F) x0 x1 x2)
    (i_main_v351 : U (Proc.devRef .tc main_v351) = val_main_v351 (F := F) x0)
    (i_main_call51_v0 : U (Proc.devRef .tc main_call51_v0) = val_main_call51_v0 (F := F) x0)
    (i_main_call51_v1 : U (Proc.devRef .tc main_call51_v1) = val_main_call51_v1 (F := F) x0) :
    (after (pc7_3 (F := F)) U (Proc.devRef .tc main_arg0) = x0
      ∧ after (pc7_3 (F := F)) U (Proc.devRef .tc main_arg1) = x1
      ∧ after (pc7_3 (F := F)) U (Proc.devRef .tc main_arg2) = x2)
    ∧ after (pc7_3 (F := F)) U (Proc.devRef .tc main_v20) = val_main_v20 (F := F) x1 x2
    ∧ after (pc7_3 (F := F)) U (Proc.devRef .tc main_v23) = val_main_v23 (F := F) x1 x2
    ∧ after (pc7_3 (F := F)) U (Proc.devRef .tc main_v28) = val_main_v28 (F := F) x0
    ∧ after (pc7_3 (F := F)) U (Proc.devRef .tc main_v29) = val_main_v29 (F := F) x1 x2
    ∧ after (pc7_3 (F := F)) U (Proc.devRef .tc main_v350) = val_main_v350 (F := F) x0 x1 x2
    ∧ after (pc7_3 (F := F)) U (Proc.devRef .tc main_v351) = val_main_v351 (F := F) x0
    ∧ after (pc7_3 (F := F)) U (Proc.devRef .tc main_call51_v3) = val_main_call51_v3 (F := F) x0
    ∧ after (pc7_3 (F := F)) U (Proc.devRef .tc main_call51_v4) = val_main_call51_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v350, i_main_v351, i_main_call51_v0, i_main_call51_v1])
  all_goals (try rw [i_main_v20])
  all_goals (try rw [i_main_v23])
  all_goals (try rw [i_main_v28])
  all_goals (try rw [i_main_v29])
  all_goals (try rw [i_main_v350])
  all_goals (try rw [i_main_v351])
  all_goals (try rw [i_main_call51_v0])
  all_goals (try rw [i_main_call51_v1])
  all_goals (try rfl)

/-- Operations 686 to 688 of the line. -/
abbrev pc7_4 : List (HloOp τ sig (Elt F)) :=
  [ TRef.binary (TRef.of (T := ⟨S8x128x128, .f32⟩) main_call51_v3) (TRef.of (T := ⟨S8x128x0, .f32⟩) main_call51_v4) (TRef.of (T := ⟨S8x128x128, .f32⟩) main_v352) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x127x128, .i32⟩) main_call52_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call52_v1) (extractStridedSlice S8x1x128 ![0, 0, 0] · slices_S8x128x128_S8x1x128_0_0_0) ]

set_option maxRecDepth 8192 in
set_option maxHeartbeats 100000000 in
theorem piece7_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v350 : U (Proc.devRef .tc main_v350) = val_main_v350 (F := F) x0 x1 x2)
    (i_main_v351 : U (Proc.devRef .tc main_v351) = val_main_v351 (F := F) x0)
    (i_main_call51_v3 : U (Proc.devRef .tc main_call51_v3) = val_main_call51_v3 (F := F) x0)
    (i_main_call51_v4 : U (Proc.devRef .tc main_call51_v4) = val_main_call51_v4 (F := F) x0) :
    (after (pc7_4 (F := F)) U (Proc.devRef .tc main_arg0) = x0
      ∧ after (pc7_4 (F := F)) U (Proc.devRef .tc main_arg1) = x1
      ∧ after (pc7_4 (F := F)) U (Proc.devRef .tc main_arg2) = x2)
    ∧ after (pc7_4 (F := F)) U (Proc.devRef .tc main_v20) = val_main_v20 (F := F) x1 x2
    ∧ after (pc7_4 (F := F)) U (Proc.devRef .tc main_v23) = val_main_v23 (F := F) x1 x2
    ∧ after (pc7_4 (F := F)) U (Proc.devRef .tc main_v28) = val_main_v28 (F := F) x0
    ∧ after (pc7_4 (F := F)) U (Proc.devRef .tc main_v29) = val_main_v29 (F := F) x1 x2
    ∧ after (pc7_4 (F := F)) U (Proc.devRef .tc main_v350) = val_main_v350 (F := F) x0 x1 x2
    ∧ after (pc7_4 (F := F)) U (Proc.devRef .tc main_v351) = val_main_v351 (F := F) x0
    ∧ after (pc7_4 (F := F)) U (Proc.devRef .tc main_v352) = val_main_v352 (F := F) x0
    ∧ after (pc7_4 (F := F)) U (Proc.devRef .tc main_call52_v0) = val_main_call52_v0 (F := F) x1
    ∧ after (pc7_4 (F := F)) U (Proc.devRef .tc main_call52_v1) = val_main_call52_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v350, i_main_v351, i_main_call51_v3, i_main_call51_v4])
  all_goals (try rw [i_main_v20])
  all_goals (try rw [i_main_v23])
  all_goals (try rw [i_main_v28])
  all_goals (try rw [i_main_v29])
  all_goals (try rw [i_main_v350])
  all_goals (try rw [i_main_v351])
  all_goals (try rw [i_main_call51_v3])
  all_goals (try rw [i_main_call51_v4])
  all_goals (try rfl)

/-- Operations 689 to 691 of the line. -/
abbrev pc7_5 : List (HloOp τ sig (Elt F)) :=
  [ TRef.binary (TRef.of (T := ⟨S8x127x128, .i32⟩) main_call52_v0) (TRef.of (T := ⟨S8x1x128, .i32⟩) main_call52_v1) (TRef.of (T := ⟨S8x128x128, .i32⟩) main_call52_v2) (fun a b => concatenate S8x128x128 1 [⟨S8x127x128, a⟩, ⟨S8x1x128, b⟩] concatenates_S8x127x128_S8x1x128_S8x128x128_d1),
    TRef.unary (TRef.of (T := ⟨S8x128x128, .i32⟩) main_call52_v2) (TRef.of (T := ⟨S8x128x128, .i32⟩) main_call52_v3) (extractStridedSlice S8x128x128 ![0, 0, 0] · slices_S8x128x128_S8x128x128_0_0_0),
    TRef.unary (TRef.of (T := ⟨S8x128x128, .i32⟩) main_call52_v2) (TRef.of (T := ⟨S8x128x0, .i32⟩) main_call52_v4) (extractStridedSlice S8x128x0 ![0, 0, 0] · slices_S8x128x128_S8x128x0_0_0_0) ]

set_option maxRecDepth 8192 in
set_option maxHeartbeats 100000000 in
theorem piece7_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v350 : U (Proc.devRef .tc main_v350) = val_main_v350 (F := F) x0 x1 x2)
    (i_main_v351 : U (Proc.devRef .tc main_v351) = val_main_v351 (F := F) x0)
    (i_main_v352 : U (Proc.devRef .tc main_v352) = val_main_v352 (F := F) x0)
    (i_main_call52_v0 : U (Proc.devRef .tc main_call52_v0) = val_main_call52_v0 (F := F) x1)
    (i_main_call52_v1 : U (Proc.devRef .tc main_call52_v1) = val_main_call52_v1 (F := F) x1) :
    (after (pc7_5 (F := F)) U (Proc.devRef .tc main_arg0) = x0
      ∧ after (pc7_5 (F := F)) U (Proc.devRef .tc main_arg1) = x1
      ∧ after (pc7_5 (F := F)) U (Proc.devRef .tc main_arg2) = x2)
    ∧ after (pc7_5 (F := F)) U (Proc.devRef .tc main_v20) = val_main_v20 (F := F) x1 x2
    ∧ after (pc7_5 (F := F)) U (Proc.devRef .tc main_v23) = val_main_v23 (F := F) x1 x2
    ∧ after (pc7_5 (F := F)) U (Proc.devRef .tc main_v28) = val_main_v28 (F := F) x0
    ∧ after (pc7_5 (F := F)) U (Proc.devRef .tc main_v29) = val_main_v29 (F := F) x1 x2
    ∧ after (pc7_5 (F := F)) U (Proc.devRef .tc main_v350) = val_main_v350 (F := F) x0 x1 x2
    ∧ after (pc7_5 (F := F)) U (Proc.devRef .tc main_v351) = val_main_v351 (F := F) x0
    ∧ after (pc7_5 (F := F)) U (Proc.devRef .tc main_v352) = val_main_v352 (F := F) x0
    ∧ after (pc7_5 (F := F)) U (Proc.devRef .tc main_call52_v3) = val_main_call52_v3 (F := F) x1
    ∧ after (pc7_5 (F := F)) U (Proc.devRef .tc main_call52_v4) = val_main_call52_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v350, i_main_v351, i_main_v352, i_main_call52_v0, i_main_call52_v1])
  all_goals (try rw [i_main_v20])
  all_goals (try rw [i_main_v23])
  all_goals (try rw [i_main_v28])
  all_goals (try rw [i_main_v29])
  all_goals (try rw [i_main_v350])
  all_goals (try rw [i_main_v351])
  all_goals (try rw [i_main_v352])
  all_goals (try rw [i_main_call52_v0])
  all_goals (try rw [i_main_call52_v1])
  all_goals (try rfl)

/-- Operations 692 to 715 of the line. -/
abbrev pc7_6 : List (HloOp τ sig (Elt F)) :=
  [ TRef.binary (TRef.of (T := ⟨S8x128x128, .i32⟩) main_call52_v3) (TRef.of (T := ⟨S8x128x0, .i32⟩) main_call52_v4) (TRef.of (T := ⟨S8x128x128, .i32⟩) main_v353) (fun a b => concatenate S8x128x128 2 [⟨S8x128x128, a⟩, ⟨S8x128x0, b⟩] concatenates_S8x128x128_S8x128x0_S8x128x128_d2),
    binary main_arg0 main_v351 main_v354 (mulf : (⟨S8x256x128x128, .f32⟩ : BufTy).Contents (Elt F) → (⟨S8x256x128x128, .f32⟩ : BufTy).Contents (Elt F) → (⟨S8x256x128x128, .f32⟩ : BufTy).Contents (Elt F)),
    nullary main_cst_77 (constant S_ .f32 0x00000000#32),
    binary main_v354 main_cst_77 main_v355 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v352 main_v356 (mulf : (⟨S8x128x128, .f32⟩ : BufTy).Contents (Elt F) → (⟨S8x128x128, .f32⟩ : BufTy).Contents (Elt F) → (⟨S8x128x128, .f32⟩ : BufTy).Contents (Elt F)),
    binary main_v355 main_v356 main_v357 (Host.divf : (⟨S8x128x128, .f32⟩ : BufTy).Contents (Elt F) → (⟨S8x128x128, .f32⟩ : BufTy).Contents (Elt F) → (⟨S8x128x128, .f32⟩ : BufTy).Contents (Elt F)),
    binary main_arg1 main_v353 main_v358 (cmpi .eq : (⟨S8x128x128, .i32⟩ : BufTy).Contents (Elt F) → (⟨S8x128x128, .i32⟩ : BufTy).Contents (Elt F) → (⟨S8x128x128, .i1⟩ : BufTy).Contents (Elt F)),
    nullary main_c_78 (constantI S_ 32 2#32),
    unary main_c_78 main_v359 (broadcastInDim S8x128x128 ![] bcast_S_S8x128x128 : (⟨S_, .i32⟩ : BufTy).Contents (Elt F) → (⟨S8x128x128, .i32⟩ : BufTy).Contents (Elt F)),
    binary main_arg1 main_v359 main_v360 (cmpi .slt : (⟨S8x128x128, .i32⟩ : BufTy).Contents (Elt F) → (⟨S8x128x128, .i32⟩ : BufTy).Contents (Elt F) → (⟨S8x128x128, .i1⟩ : BufTy).Contents (Elt F)),
    binary main_v358 main_v360 main_v361 (andi : (⟨S8x128x128, .i1⟩ : BufTy).Contents (Elt F) → (⟨S8x128x128, .i1⟩ : BufTy).Contents (Elt F) → (⟨S8x128x128, .i1⟩ : BufTy).Contents (Elt F)),
    unary main_v361 main_v362 (uitofp .f32 : (⟨S8x128x128, .i1⟩ : BufTy).Contents (Elt F) → (⟨S8x128x128, .f32⟩ : BufTy).Contents (Elt F)),
    binary main_v357 main_v362 main_v363 (subf : (⟨S8x128x128, .f32⟩ : BufTy).Contents (Elt F) → (⟨S8x128x128, .f32⟩ : BufTy).Contents (Elt F) → (⟨S8x128x128, .f32⟩ : BufTy).Contents (Elt F)),
    binary main_v363 main_v363 main_v364 (mulf : (⟨S8x128x128, .f32⟩ : BufTy).Contents (Elt F) → (⟨S8x128x128, .f32⟩ : BufTy).Contents (Elt F) → (⟨S8x128x128, .f32⟩ : BufTy).Contents (Elt F)),
    binary main_v364 main_v29 main_v365 (mulf : (⟨S8x128x128, .f32⟩ : BufTy).Contents (Elt F) → (⟨S8x128x128, .f32⟩ : BufTy).Contents (Elt F) → (⟨S8x128x128, .f32⟩ : BufTy).Contents (Elt F)),
    nullary main_cst_79 (constant S_ .f32 0x00000000#32),
    binary main_v365 main_cst_79 main_v366 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_80 (constant S_ .f32 0x3F800000#32),
    unary main_cst_80 main_v367 (broadcastInDim S8 ![] bcast_S_S8 : (⟨S_, .f32⟩ : BufTy).Contents (Elt F) → (⟨S8, .f32⟩ : BufTy).Contents (Elt F)),
    binary main_v23 main_v367 main_v368 (maximumf : (⟨S8, .f32⟩ : BufTy).Contents (Elt F) → (⟨S8, .f32⟩ : BufTy).Contents (Elt F) → (⟨S8, .f32⟩ : BufTy).Contents (Elt F)),
    binary main_v366 main_v368 main_v369 (Host.divf : (⟨S8, .f32⟩ : BufTy).Contents (Elt F) → (⟨S8, .f32⟩ : BufTy).Contents (Elt F) → (⟨S8, .f32⟩ : BufTy).Contents (Elt F)),
    binary main_v350 main_v369 main_v370 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call53_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call53_v1) (extractStridedSlice S8x256x1x128 ![0, 0, 0, 0] · slices_S8x256x128x128_S8x256x1x128_0_0_0_0) ]

set_option maxRecDepth 8192 in
set_option maxHeartbeats 100000000 in
theorem piece7_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v350 : U (Proc.devRef .tc main_v350) = val_main_v350 (F := F) x0 x1 x2)
    (i_main_v351 : U (Proc.devRef .tc main_v351) = val_main_v351 (F := F) x0)
    (i_main_v352 : U (Proc.devRef .tc main_v352) = val_main_v352 (F := F) x0)
    (i_main_call52_v3 : U (Proc.devRef .tc main_call52_v3) = val_main_call52_v3 (F := F) x1)
    (i_main_call52_v4 : U (Proc.devRef .tc main_call52_v4) = val_main_call52_v4 (F := F) x1) :
    (after (pc7_6 (F := F)) U (Proc.devRef .tc main_arg0) = x0
      ∧ after (pc7_6 (F := F)) U (Proc.devRef .tc main_arg1) = x1
      ∧ after (pc7_6 (F := F)) U (Proc.devRef .tc main_arg2) = x2)
    ∧ after (pc7_6 (F := F)) U (Proc.devRef .tc main_v20) = val_main_v20 (F := F) x1 x2
    ∧ after (pc7_6 (F := F)) U (Proc.devRef .tc main_v23) = val_main_v23 (F := F) x1 x2
    ∧ after (pc7_6 (F := F)) U (Proc.devRef .tc main_v28) = val_main_v28 (F := F) x0
    ∧ after (pc7_6 (F := F)) U (Proc.devRef .tc main_v29) = val_main_v29 (F := F) x1 x2
    ∧ after (pc7_6 (F := F)) U (Proc.devRef .tc main_v370) = val_main_v370 (F := F) x0 x1 x2
    ∧ after (pc7_6 (F := F)) U (Proc.devRef .tc main_call53_v0) = val_main_call53_v0 (F := F) x0
    ∧ after (pc7_6 (F := F)) U (Proc.devRef .tc main_call53_v1) = val_main_call53_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v350, i_main_v351, i_main_v352, i_main_call52_v3, i_main_call52_v4])
  all_goals (try rw [i_main_v20])
  all_goals (try rw [i_main_v23])
  all_goals (try rw [i_main_v28])
  all_goals (try rw [i_main_v29])
  all_goals (try rw [i_main_v350])
  all_goals (try rw [i_main_v351])
  all_goals (try rw [i_main_v352])
  all_goals (try rw [i_main_call52_v3])
  all_goals (try rw [i_main_call52_v4])
  all_goals (try rfl)

/-- Operations 716 to 718 of the line. -/
abbrev pc7_7 : List (HloOp τ sig (Elt F)) :=
  [ TRef.binary (TRef.of (T := ⟨S8x256x127x128, .f32⟩) main_call53_v0) (TRef.of (T := ⟨S8x256x1x128, .f32⟩) main_call53_v1) (TRef.of (T := ⟨S8x256x128x128, .f32⟩) main_call53_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call53_v2) (TRef.of (T := ⟨S8x256x128x127, .f32⟩) main_call53_v3) (extractStridedSlice S8x256x128x127 ![0, 0, 0, 1] · slices_S8x256x128x128_S8x256x128x127_0_0_0_1),
    TRef.unary (TRef.of (T := ⟨S8x256x128x128, .f32⟩) main_call53_v2) (TRef.of (T := ⟨S8x256x128x1, .f32⟩) main_call53_v4) (extractStridedSlice S8x256x128x1 ![0, 0, 0, 0] · slices_S8x256x128x128_S8x256x128x1_0_0_0_0) ]

set_option maxRecDepth 8192 in
set_option maxHeartbeats 100000000 in
theorem piece7_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v370 : U (Proc.devRef .tc main_v370) = val_main_v370 (F := F) x0 x1 x2)
    (i_main_call53_v0 : U (Proc.devRef .tc main_call53_v0) = val_main_call53_v0 (F := F) x0)
    (i_main_call53_v1 : U (Proc.devRef .tc main_call53_v1) = val_main_call53_v1 (F := F) x0) :
    (after (pc7_7 (F := F)) U (Proc.devRef .tc main_arg0) = x0
      ∧ after (pc7_7 (F := F)) U (Proc.devRef .tc main_arg1) = x1
      ∧ after (pc7_7 (F := F)) U (Proc.devRef .tc main_arg2) = x2)
    ∧ after (pc7_7 (F := F)) U (Proc.devRef .tc main_v20) = val_main_v20 (F := F) x1 x2
    ∧ after (pc7_7 (F := F)) U (Proc.devRef .tc main_v23) = val_main_v23 (F := F) x1 x2
    ∧ after (pc7_7 (F := F)) U (Proc.devRef .tc main_v28) = val_main_v28 (F := F) x0
    ∧ after (pc7_7 (F := F)) U (Proc.devRef .tc main_v29) = val_main_v29 (F := F) x1 x2
    ∧ after (pc7_7 (F := F)) U (Proc.devRef .tc main_v370) = val_main_v370 (F := F) x0 x1 x2
    ∧ after (pc7_7 (F := F)) U (Proc.devRef .tc main_call53_v3) = val_main_call53_v3 (F := F) x0
    ∧ after (pc7_7 (F := F)) U (Proc.devRef .tc main_call53_v4) = val_main_call53_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v370, i_main_call53_v0, i_main_call53_v1])
  all_goals (try rw [i_main_v20])
  all_goals (try rw [i_main_v23])
  all_goals (try rw [i_main_v28])
  all_goals (try rw [i_main_v29])
  all_goals (try rw [i_main_v370])
  all_goals (try rw [i_main_call53_v0])
  all_goals (try rw [i_main_call53_v1])
  all_goals (try rfl)

/-- Operations 719 to 721 of the line. -/
abbrev pc7_8 : List (HloOp τ sig (Elt F)) :=
  [ TRef.binary (TRef.of (T := ⟨S8x256x128x127, .f32⟩) main_call53_v3) (TRef.of (T := ⟨S8x256x128x1, .f32⟩) main_call53_v4) (TRef.of (T := ⟨S8x256x128x128, .f32⟩) main_v371) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x127x128, .f32⟩) main_call54_v0) (extractStridedSlice S8x127x128 ![0, 1, 0] · slices_S8x128x128_S8x127x128_0_1_0),
    TRef.unary (TRef.of (T := ⟨S8x128x128, .f32⟩) main_v28) (TRef.of (T := ⟨S8x1x128, .f32⟩) main_call54_v1) (extractStridedSlice S8x1x128 ![0, 0, 0] · slices_S8x128x128_S8x1x128_0_0_0) ]

set_option maxRecDepth 8192 in
set_option maxHeartbeats 100000000 in
theorem piece7_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v370 : U (Proc.devRef .tc main_v370) = val_main_v370 (F := F) x0 x1 x2)
    (i_main_call53_v3 : U (Proc.devRef .tc main_call53_v3) = val_main_call53_v3 (F := F) x0)
    (i_main_call53_v4 : U (Proc.devRef .tc main_call53_v4) = val_main_call53_v4 (F := F) x0) :
    (after (pc7_8 (F := F)) U (Proc.devRef .tc main_arg0) = x0
      ∧ after (pc7_8 (F := F)) U (Proc.devRef .tc main_arg1) = x1
      ∧ after (pc7_8 (F := F)) U (Proc.devRef .tc main_arg2) = x2)
    ∧ after (pc7_8 (F := F)) U (Proc.devRef .tc main_v20) = val_main_v20 (F := F) x1 x2
    ∧ after (pc7_8 (F := F)) U (Proc.devRef .tc main_v23) = val_main_v23 (F := F) x1 x2
    ∧ after (pc7_8 (F := F)) U (Proc.devRef .tc main_v28) = val_main_v28 (F := F) x0
    ∧ after (pc7_8 (F := F)) U (Proc.devRef .tc main_v29) = val_main_v29 (F := F) x1 x2
    ∧ after (pc7_8 (F := F)) U (Proc.devRef .tc main_v370) = val_main_v370 (F := F) x0 x1 x2
    ∧ after (pc7_8 (F := F)) U (Proc.devRef .tc main_v371) = val_main_v371 (F := F) x0
    ∧ after (pc7_8 (F := F)) U (Proc.devRef .tc main_call54_v0) = val_main_call54_v0 (F := F) x0
    ∧ after (pc7_8 (F := F)) U (Proc.devRef .tc main_call54_v1) = val_main_call54_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v370, i_main_call53_v3, i_main_call53_v4])
  all_goals (try rw [i_main_v20])
  all_goals (try rw [i_main_v23])
  all_goals (try rw [i_main_v28])
  all_goals (try rw [i_main_v29])
  all_goals (try rw [i_main_v370])
  all_goals (try rw [i_main_call53_v3])
  all_goals (try rw [i_main_call53_v4])
  all_goals (try rfl)

/-- Operations 722 to 724 of the line. -/
abbrev pc7_9 : List (HloOp τ sig (Elt F)) :=
  [ TRef.binary (TRef.of (T := ⟨S8x127x128, .f32⟩) main_call54_v0) (TRef.of (T := ⟨S8x1x128, .f32⟩) main_call54_v1) (TRef.of (T := ⟨S8x128x128, .f32⟩) main_call54_v2) (fun a b => concatenate S8x128x128 1 [⟨S8x127x128, a⟩, ⟨S8x1x128, b⟩] concatenates_S8x127x128_S8x1x128_S8x128x128_d1),
    TRef.unary (TRef.of (T := ⟨S8x128x128, .f32⟩) main_call54_v2) (TRef.of (T := ⟨S8x128x127, .f32⟩) main_call54_v3) (extractStridedSlice S8x128x127 ![0, 0, 1] · slices_S8x128x128_S8x128x127_0_0_1),
    TRef.unary (TRef.of (T := ⟨S8x128x128, .f32⟩) main_call54_v2) (TRef.of (T := ⟨S8x128x1, .f32⟩) main_call54_v4) (extractStridedSlice S8x128x1 ![0, 0, 0] · slices_S8x128x128_S8x128x1_0_0_0) ]

set_option maxRecDepth 8192 in
set_option maxHeartbeats 100000000 in
theorem piece7_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v370 : U (Proc.devRef .tc main_v370) = val_main_v370 (F := F) x0 x1 x2)
    (i_main_v371 : U (Proc.devRef .tc main_v371) = val_main_v371 (F := F) x0)
    (i_main_call54_v0 : U (Proc.devRef .tc main_call54_v0) = val_main_call54_v0 (F := F) x0)
    (i_main_call54_v1 : U (Proc.devRef .tc main_call54_v1) = val_main_call54_v1 (F := F) x0) :
    (after (pc7_9 (F := F)) U (Proc.devRef .tc main_arg0) = x0
      ∧ after (pc7_9 (F := F)) U (Proc.devRef .tc main_arg1) = x1
      ∧ after (pc7_9 (F := F)) U (Proc.devRef .tc main_arg2) = x2)
    ∧ after (pc7_9 (F := F)) U (Proc.devRef .tc main_v20) = val_main_v20 (F := F) x1 x2
    ∧ after (pc7_9 (F := F)) U (Proc.devRef .tc main_v23) = val_main_v23 (F := F) x1 x2
    ∧ after (pc7_9 (F := F)) U (Proc.devRef .tc main_v28) = val_main_v28 (F := F) x0
    ∧ after (pc7_9 (F := F)) U (Proc.devRef .tc main_v29) = val_main_v29 (F := F) x1 x2
    ∧ after (pc7_9 (F := F)) U (Proc.devRef .tc main_v370) = val_main_v370 (F := F) x0 x1 x2
    ∧ after (pc7_9 (F := F)) U (Proc.devRef .tc main_v371) = val_main_v371 (F := F) x0
    ∧ after (pc7_9 (F := F)) U (Proc.devRef .tc main_call54_v3) = val_main_call54_v3 (F := F) x0
    ∧ after (pc7_9 (F := F)) U (Proc.devRef .tc main_call54_v4) = val_main_call54_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v370, i_main_v371, i_main_call54_v0, i_main_call54_v1])
  all_goals (try rw [i_main_v20])
  all_goals (try rw [i_main_v23])
  all_goals (try rw [i_main_v28])
  all_goals (try rw [i_main_v29])
  all_goals (try rw [i_main_v370])
  all_goals (try rw [i_main_v371])
  all_goals (try rw [i_main_call54_v0])
  all_goals (try rw [i_main_call54_v1])
  all_goals (try rfl)

/-- Operations 725 to 727 of the line. -/
abbrev pc7_10 : List (HloOp τ sig (Elt F)) :=
  [ TRef.binary (TRef.of (T := ⟨S8x128x127, .f32⟩) main_call54_v3) (TRef.of (T := ⟨S8x128x1, .f32⟩) main_call54_v4) (TRef.of (T := ⟨S8x128x128, .f32⟩) main_v372) (fun a b => concatenate S8x128x128 2 [⟨S8x128x127, a⟩, ⟨S8x128x1, b⟩] concatenates_S8x128x127_S8x128x1_S8x128x128_d2),
    TRef.unary (TRef.of (T := ⟨S8x128x128, .i32⟩) main_arg1) (TRef.of (T := ⟨S8x127x128, .i32⟩) main_call55_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call55_v1) (extractStridedSlice S8x1x128 ![0, 0, 0] · slices_S8x128x128_S8x1x128_0_0_0) ]

set_option maxRecDepth 8192 in
set_option maxHeartbeats 100000000 in
theorem piece7_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v370 : U (Proc.devRef .tc main_v370) = val_main_v370 (F := F) x0 x1 x2)
    (i_main_v371 : U (Proc.devRef .tc main_v371) = val_main_v371 (F := F) x0)
    (i_main_call54_v3 : U (Proc.devRef .tc main_call54_v3) = val_main_call54_v3 (F := F) x0)
    (i_main_call54_v4 : U (Proc.devRef .tc main_call54_v4) = val_main_call54_v4 (F := F) x0) :
    (after (pc7_10 (F := F)) U (Proc.devRef .tc main_arg0) = x0
      ∧ after (pc7_10 (F := F)) U (Proc.devRef .tc main_arg1) = x1
      ∧ after (pc7_10 (F := F)) U (Proc.devRef .tc main_arg2) = x2)
    ∧ after (pc7_10 (F := F)) U (Proc.devRef .tc main_v20) = val_main_v20 (F := F) x1 x2
    ∧ after (pc7_10 (F := F)) U (Proc.devRef .tc main_v23) = val_main_v23 (F := F) x1 x2
    ∧ after (pc7_10 (F := F)) U (Proc.devRef .tc main_v28) = val_main_v28 (F := F) x0
    ∧ after (pc7_10 (F := F)) U (Proc.devRef .tc main_v29) = val_main_v29 (F := F) x1 x2
    ∧ after (pc7_10 (F := F)) U (Proc.devRef .tc main_v370) = val_main_v370 (F := F) x0 x1 x2
    ∧ after (pc7_10 (F := F)) U (Proc.devRef .tc main_v371) = val_main_v371 (F := F) x0
    ∧ after (pc7_10 (F := F)) U (Proc.devRef .tc main_v372) = val_main_v372 (F := F) x0
    ∧ after (pc7_10 (F := F)) U (Proc.devRef .tc main_call55_v0) = val_main_call55_v0 (F := F) x1
    ∧ after (pc7_10 (F := F)) U (Proc.devRef .tc main_call55_v1) = val_main_call55_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v370, i_main_v371, i_main_call54_v3, i_main_call54_v4])
  all_goals (try rw [i_main_v20])
  all_goals (try rw [i_main_v23])
  all_goals (try rw [i_main_v28])
  all_goals (try rw [i_main_v29])
  all_goals (try rw [i_main_v370])
  all_goals (try rw [i_main_v371])
  all_goals (try rw [i_main_call54_v3])
  all_goals (try rw [i_main_call54_v4])
  all_goals (try rfl)

/-- Operations 728 to 730 of the line. -/
abbrev pc7_11 : List (HloOp τ sig (Elt F)) :=
  [ TRef.binary (TRef.of (T := ⟨S8x127x128, .i32⟩) main_call55_v0) (TRef.of (T := ⟨S8x1x128, .i32⟩) main_call55_v1) (TRef.of (T := ⟨S8x128x128, .i32⟩) main_call55_v2) (fun a b => concatenate S8x128x128 1 [⟨S8x127x128, a⟩, ⟨S8x1x128, b⟩] concatenates_S8x127x128_S8x1x128_S8x128x128_d1),
    TRef.unary (TRef.of (T := ⟨S8x128x128, .i32⟩) main_call55_v2) (TRef.of (T := ⟨S8x128x127, .i32⟩) main_call55_v3) (extractStridedSlice S8x128x127 ![0, 0, 1] · slices_S8x128x128_S8x128x127_0_0_1),
    TRef.unary (TRef.of (T := ⟨S8x128x128, .i32⟩) main_call55_v2) (TRef.of (T := ⟨S8x128x1, .i32⟩) main_call55_v4) (extractStridedSlice S8x128x1 ![0, 0, 0] · slices_S8x128x128_S8x128x1_0_0_0) ]

set_option maxRecDepth 8192 in
set_option maxHeartbeats 100000000 in
theorem piece7_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v370 : U (Proc.devRef .tc main_v370) = val_main_v370 (F := F) x0 x1 x2)
    (i_main_v371 : U (Proc.devRef .tc main_v371) = val_main_v371 (F := F) x0)
    (i_main_v372 : U (Proc.devRef .tc main_v372) = val_main_v372 (F := F) x0)
    (i_main_call55_v0 : U (Proc.devRef .tc main_call55_v0) = val_main_call55_v0 (F := F) x1)
    (i_main_call55_v1 : U (Proc.devRef .tc main_call55_v1) = val_main_call55_v1 (F := F) x1) :
    (after (pc7_11 (F := F)) U (Proc.devRef .tc main_arg0) = x0
      ∧ after (pc7_11 (F := F)) U (Proc.devRef .tc main_arg1) = x1
      ∧ after (pc7_11 (F := F)) U (Proc.devRef .tc main_arg2) = x2)
    ∧ after (pc7_11 (F := F)) U (Proc.devRef .tc main_v20) = val_main_v20 (F := F) x1 x2
    ∧ after (pc7_11 (F := F)) U (Proc.devRef .tc main_v23) = val_main_v23 (F := F) x1 x2
    ∧ after (pc7_11 (F := F)) U (Proc.devRef .tc main_v28) = val_main_v28 (F := F) x0
    ∧ after (pc7_11 (F := F)) U (Proc.devRef .tc main_v29) = val_main_v29 (F := F) x1 x2
    ∧ after (pc7_11 (F := F)) U (Proc.devRef .tc main_v370) = val_main_v370 (F := F) x0 x1 x2
    ∧ after (pc7_11 (F := F)) U (Proc.devRef .tc main_v371) = val_main_v371 (F := F) x0
    ∧ after (pc7_11 (F := F)) U (Proc.devRef .tc main_v372) = val_main_v372 (F := F) x0
    ∧ after (pc7_11 (F := F)) U (Proc.devRef .tc main_call55_v3) = val_main_call55_v3 (F := F) x1
    ∧ after (pc7_11 (F := F)) U (Proc.devRef .tc main_call55_v4) = val_main_call55_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v370, i_main_v371, i_main_v372, i_main_call55_v0, i_main_call55_v1])
  all_goals (try rw [i_main_v20])
  all_goals (try rw [i_main_v23])
  all_goals (try rw [i_main_v28])
  all_goals (try rw [i_main_v29])
  all_goals (try rw [i_main_v370])
  all_goals (try rw [i_main_v371])
  all_goals (try rw [i_main_v372])
  all_goals (try rw [i_main_call55_v0])
  all_goals (try rw [i_main_call55_v1])
  all_goals (try rfl)

/-- Operations 731 to 754 of the line. -/
abbrev pc7_12 : List (HloOp τ sig (Elt F)) :=
  [ TRef.binary (TRef.of (T := ⟨S8x128x127, .i32⟩) main_call55_v3) (TRef.of (T := ⟨S8x128x1, .i32⟩) main_call55_v4) (TRef.of (T := ⟨S8x128x128, .i32⟩) main_v373) (fun a b => concatenate S8x128x128 2 [⟨S8x128x127, a⟩, ⟨S8x128x1, b⟩] concatenates_S8x128x127_S8x128x1_S8x128x128_d2),
    binary main_arg0 main_v371 main_v374 (mulf : (⟨S8x256x128x128, .f32⟩ : BufTy).Contents (Elt F) → (⟨S8x256x128x128, .f32⟩ : BufTy).Contents (Elt F) → (⟨S8x256x128x128, .f32⟩ : BufTy).Contents (Elt F)),
    nullary main_cst_81 (constant S_ .f32 0x00000000#32),
    binary main_v374 main_cst_81 main_v375 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v372 main_v376 (mulf : (⟨S8x128x128, .f32⟩ : BufTy).Contents (Elt F) → (⟨S8x128x128, .f32⟩ : BufTy).Contents (Elt F) → (⟨S8x128x128, .f32⟩ : BufTy).Contents (Elt F)),
    binary main_v375 main_v376 main_v377 (Host.divf : (⟨S8x128x128, .f32⟩ : BufTy).Contents (Elt F) → (⟨S8x128x128, .f32⟩ : BufTy).Contents (Elt F) → (⟨S8x128x128, .f32⟩ : BufTy).Contents (Elt F)),
    binary main_arg1 main_v373 main_v378 (cmpi .eq : (⟨S8x128x128, .i32⟩ : BufTy).Contents (Elt F) → (⟨S8x128x128, .i32⟩ : BufTy).Contents (Elt F) → (⟨S8x128x128, .i1⟩ : BufTy).Contents (Elt F)),
    nullary main_c_82 (constantI S_ 32 2#32),
    unary main_c_82 main_v379 (broadcastInDim S8x128x128 ![] bcast_S_S8x128x128 : (⟨S_, .i32⟩ : BufTy).Contents (Elt F) → (⟨S8x128x128, .i32⟩ : BufTy).Contents (Elt F)),
    binary main_arg1 main_v379 main_v380 (cmpi .slt : (⟨S8x128x128, .i32⟩ : BufTy).Contents (Elt F) → (⟨S8x128x128, .i32⟩ : BufTy).Contents (Elt F) → (⟨S8x128x128, .i1⟩ : BufTy).Contents (Elt F)),
    binary main_v378 main_v380 main_v381 (andi : (⟨S8x128x128, .i1⟩ : BufTy).Contents (Elt F) → (⟨S8x128x128, .i1⟩ : BufTy).Contents (Elt F) → (⟨S8x128x128, .i1⟩ : BufTy).Contents (Elt F)),
    unary main_v381 main_v382 (uitofp .f32 : (⟨S8x128x128, .i1⟩ : BufTy).Contents (Elt F) → (⟨S8x128x128, .f32⟩ : BufTy).Contents (Elt F)),
    binary main_v377 main_v382 main_v383 (subf : (⟨S8x128x128, .f32⟩ : BufTy).Contents (Elt F) → (⟨S8x128x128, .f32⟩ : BufTy).Contents (Elt F) → (⟨S8x128x128, .f32⟩ : BufTy).Contents (Elt F)),
    binary main_v383 main_v383 main_v384 (mulf : (⟨S8x128x128, .f32⟩ : BufTy).Contents (Elt F) → (⟨S8x128x128, .f32⟩ : BufTy).Contents (Elt F) → (⟨S8x128x128, .f32⟩ : BufTy).Contents (Elt F)),
    binary main_v384 main_v29 main_v385 (mulf : (⟨S8x128x128, .f32⟩ : BufTy).Contents (Elt F) → (⟨S8x128x128, .f32⟩ : BufTy).Contents (Elt F) → (⟨S8x128x128, .f32⟩ : BufTy).Contents (Elt F)),
    nullary main_cst_83 (constant S_ .f32 0x00000000#32),
    binary main_v385 main_cst_83 main_v386 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_84 (constant S_ .f32 0x3F800000#32),
    unary main_cst_84 main_v387 (broadcastInDim S8 ![] bcast_S_S8 : (⟨S_, .f32⟩ : BufTy).Contents (Elt F) → (⟨S8, .f32⟩ : BufTy).Contents (Elt F)),
    binary main_v23 main_v387 main_v388 (maximumf : (⟨S8, .f32⟩ : BufTy).Contents (Elt F) → (⟨S8, .f32⟩ : BufTy).Contents (Elt F) → (⟨S8, .f32⟩ : BufTy).Contents (Elt F)),
    binary main_v386 main_v388 main_v389 (Host.divf : (⟨S8, .f32⟩ : BufTy).Contents (Elt F) → (⟨S8, .f32⟩ : BufTy).Contents (Elt F) → (⟨S8, .f32⟩ : BufTy).Contents (Elt F)),
    binary main_v370 main_v389 main_v390 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x127x128, .f32⟩) main_call56_v0) (extractStridedSlice S8x256x127x128 ![0, 0, 1, 0] · slices_S8x256x128x128_S8x256x127x128_0_0_1_0),
    TRef.unary (TRef.of (T := ⟨S8x256x128x128, .f32⟩) main_arg0) (TRef.of (T := ⟨S8x256x1x128, .f32⟩) main_call56_v1) (extractStridedSlice S8x256x1x128 ![0, 0, 0, 0] · slices_S8x256x128x128_S8x256x1x128_0_0_0_0) ]

set_option maxRecDepth 8192 in
set_option maxHeartbeats 100000000 in
theorem piece7_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v370 : U (Proc.devRef .tc main_v370) = val_main_v370 (F := F) x0 x1 x2)
    (i_main_v371 : U (Proc.devRef .tc main_v371) = val_main_v371 (F := F) x0)
    (i_main_v372 : U (Proc.devRef .tc main_v372) = val_main_v372 (F := F) x0)
    (i_main_call55_v3 : U (Proc.devRef .tc main_call55_v3) = val_main_call55_v3 (F := F) x1)
    (i_main_call55_v4 : U (Proc.devRef .tc main_call55_v4) = val_main_call55_v4 (F := F) x1) :
    (after (pc7_12 (F := F)) U (Proc.devRef .tc main_arg0) = x0
      ∧ after (pc7_12 (F := F)) U (Proc.devRef .tc main_arg1) = x1
      ∧ after (pc7_12 (F := F)) U (Proc.devRef .tc main_arg2) = x2)
    ∧ after (pc7_12 (F := F)) U (Proc.devRef .tc main_v20) = val_main_v20 (F := F) x1 x2
    ∧ after (pc7_12 (F := F)) U (Proc.devRef .tc main_v23) = val_main_v23 (F := F) x1 x2
    ∧ after (pc7_12 (F := F)) U (Proc.devRef .tc main_v28) = val_main_v28 (F := F) x0
    ∧ after (pc7_12 (F := F)) U (Proc.devRef .tc main_v29) = val_main_v29 (F := F) x1 x2
    ∧ after (pc7_12 (F := F)) U (Proc.devRef .tc main_v390) = val_main_v390 (F := F) x0 x1 x2
    ∧ after (pc7_12 (F := F)) U (Proc.devRef .tc main_call56_v0) = val_main_call56_v0 (F := F) x0
    ∧ after (pc7_12 (F := F)) U (Proc.devRef .tc main_call56_v1) = val_main_call56_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v370, i_main_v371, i_main_v372, i_main_call55_v3, i_main_call55_v4])
  all_goals (try rw [i_main_v20])
  all_goals (try rw [i_main_v23])
  all_goals (try rw [i_main_v28])
  all_goals (try rw [i_main_v29])
  all_goals (try rw [i_main_v370])
  all_goals (try rw [i_main_v371])
  all_goals (try rw [i_main_v372])
  all_goals (try rw [i_main_call55_v3])
  all_goals (try rw [i_main_call55_v4])
  all_goals (try rfl)

/-- Operations 755 to 757 of the line. -/
abbrev pc7_13 : List (HloOp τ sig (Elt F)) :=
  [ TRef.binary (TRef.of (T := ⟨S8x256x127x128, .f32⟩) main_call56_v0) (TRef.of (T := ⟨S8x256x1x128, .f32⟩) main_call56_v1) (TRef.of (T := ⟨S8x256x128x128, .f32⟩) main_call56_v2) (fun a b => concatenate S8x256x128x128 2 [⟨S8x256x127x128, a⟩, ⟨S8x256x1x128, b⟩] concatenates_S8x256x127x128_S8x256x1x128_S8x256x128x128_d2),
    TRef.unary (TRef.of (T := ⟨S8x256x128x128, .f32⟩) main_call56_v2) (TRef.of (T := ⟨S8x256x128x126, .f32⟩) main_call56_v3) (extractStridedSlice S8x256x128x126 ![0, 0, 0, 2] · slices_S8x256x128x128_S8x256x128x126_0_0_0_2),
    TRef.unary (TRef.of (T := ⟨S8x256x128x128, .f32⟩) main_call56_v2) (TRef.of (T := ⟨S8x256x128x2, .f32⟩) main_call56_v4) (extractStridedSlice S8x256x128x2 ![0, 0, 0, 0] · slices_S8x256x128x128_S8x256x128x2_0_0_0_0) ]

set_option maxRecDepth 8192 in
set_option maxHeartbeats 100000000 in
theorem piece7_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_call56_v0 : U (Proc.devRef .tc main_call56_v0) = val_main_call56_v0 (F := F) x0)
    (i_main_call56_v1 : U (Proc.devRef .tc main_call56_v1) = val_main_call56_v1 (F := F) x0) :
    (after (pc7_13 (F := F)) U (Proc.devRef .tc main_arg0) = x0
      ∧ after (pc7_13 (F := F)) U (Proc.devRef .tc main_arg1) = x1
      ∧ after (pc7_13 (F := F)) U (Proc.devRef .tc main_arg2) = x2)
    ∧ after (pc7_13 (F := F)) U (Proc.devRef .tc main_v20) = val_main_v20 (F := F) x1 x2
    ∧ after (pc7_13 (F := F)) U (Proc.devRef .tc main_v23) = val_main_v23 (F := F) x1 x2
    ∧ after (pc7_13 (F := F)) U (Proc.devRef .tc main_v28) = val_main_v28 (F := F) x0
    ∧ after (pc7_13 (F := F)) U (Proc.devRef .tc main_v29) = val_main_v29 (F := F) x1 x2
    ∧ after (pc7_13 (F := F)) U (Proc.devRef .tc main_v390) = val_main_v390 (F := F) x0 x1 x2
    ∧ after (pc7_13 (F := F)) U (Proc.devRef .tc main_call56_v3) = val_main_call56_v3 (F := F) x0
    ∧ after (pc7_13 (F := F)) U (Proc.devRef .tc main_call56_v4) = val_main_call56_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v390, i_main_call56_v0, i_main_call56_v1])
  all_goals (try rw [i_main_v20])
  all_goals (try rw [i_main_v23])
  all_goals (try rw [i_main_v28])
  all_goals (try rw [i_main_v29])
  all_goals (try rw [i_main_v390])
  all_goals (try rw [i_main_call56_v0])
  all_goals (try rw [i_main_call56_v1])
  all_goals (try rfl)

/-- Operations 758 to 760 of the line. -/
abbrev pc7_14 : List (HloOp τ sig (Elt F)) :=
  [ TRef.binary (TRef.of (T := ⟨S8x256x128x126, .f32⟩) main_call56_v3) (TRef.of (T := ⟨S8x256x128x2, .f32⟩) main_call56_v4) (TRef.of (T := ⟨S8x256x128x128, .f32⟩) main_v391) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x127x128, .f32⟩) main_call57_v0) (extractStridedSlice S8x127x128 ![0, 1, 0] · slices_S8x128x128_S8x127x128_0_1_0),
    TRef.unary (TRef.of (T := ⟨S8x128x128, .f32⟩) main_v28) (TRef.of (T := ⟨S8x1x128, .f32⟩) main_call57_v1) (extractStridedSlice S8x1x128 ![0, 0, 0] · slices_S8x128x128_S8x1x128_0_0_0) ]

set_option maxRecDepth 8192 in
set_option maxHeartbeats 100000000 in
theorem piece7_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_call56_v3 : U (Proc.devRef .tc main_call56_v3) = val_main_call56_v3 (F := F) x0)
    (i_main_call56_v4 : U (Proc.devRef .tc main_call56_v4) = val_main_call56_v4 (F := F) x0) :
    (after (pc7_14 (F := F)) U (Proc.devRef .tc main_arg0) = x0
      ∧ after (pc7_14 (F := F)) U (Proc.devRef .tc main_arg1) = x1
      ∧ after (pc7_14 (F := F)) U (Proc.devRef .tc main_arg2) = x2)
    ∧ after (pc7_14 (F := F)) U (Proc.devRef .tc main_v20) = val_main_v20 (F := F) x1 x2
    ∧ after (pc7_14 (F := F)) U (Proc.devRef .tc main_v23) = val_main_v23 (F := F) x1 x2
    ∧ after (pc7_14 (F := F)) U (Proc.devRef .tc main_v28) = val_main_v28 (F := F) x0
    ∧ after (pc7_14 (F := F)) U (Proc.devRef .tc main_v29) = val_main_v29 (F := F) x1 x2
    ∧ after (pc7_14 (F := F)) U (Proc.devRef .tc main_v390) = val_main_v390 (F := F) x0 x1 x2
    ∧ after (pc7_14 (F := F)) U (Proc.devRef .tc main_v391) = val_main_v391 (F := F) x0
    ∧ after (pc7_14 (F := F)) U (Proc.devRef .tc main_call57_v0) = val_main_call57_v0 (F := F) x0
    ∧ after (pc7_14 (F := F)) U (Proc.devRef .tc main_call57_v1) = val_main_call57_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v390, i_main_call56_v3, i_main_call56_v4])
  all_goals (try rw [i_main_v20])
  all_goals (try rw [i_main_v23])
  all_goals (try rw [i_main_v28])
  all_goals (try rw [i_main_v29])
  all_goals (try rw [i_main_v390])
  all_goals (try rw [i_main_call56_v3])
  all_goals (try rw [i_main_call56_v4])
  all_goals (try rfl)

/-- Operations 761 to 763 of the line. -/
abbrev pc7_15 : List (HloOp τ sig (Elt F)) :=
  [ TRef.binary (TRef.of (T := ⟨S8x127x128, .f32⟩) main_call57_v0) (TRef.of (T := ⟨S8x1x128, .f32⟩) main_call57_v1) (TRef.of (T := ⟨S8x128x128, .f32⟩) main_call57_v2) (fun a b => concatenate S8x128x128 1 [⟨S8x127x128, a⟩, ⟨S8x1x128, b⟩] concatenates_S8x127x128_S8x1x128_S8x128x128_d1),
    TRef.unary (TRef.of (T := ⟨S8x128x128, .f32⟩) main_call57_v2) (TRef.of (T := ⟨S8x128x126, .f32⟩) main_call57_v3) (extractStridedSlice S8x128x126 ![0, 0, 2] · slices_S8x128x128_S8x128x126_0_0_2),
    TRef.unary (TRef.of (T := ⟨S8x128x128, .f32⟩) main_call57_v2) (TRef.of (T := ⟨S8x128x2, .f32⟩) main_call57_v4) (extractStridedSlice S8x128x2 ![0, 0, 0] · slices_S8x128x128_S8x128x2_0_0_0) ]

set_option maxRecDepth 8192 in
set_option maxHeartbeats 100000000 in
theorem piece7_15 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_v391 : U (Proc.devRef .tc main_v391) = val_main_v391 (F := F) x0)
    (i_main_call57_v0 : U (Proc.devRef .tc main_call57_v0) = val_main_call57_v0 (F := F) x0)
    (i_main_call57_v1 : U (Proc.devRef .tc main_call57_v1) = val_main_call57_v1 (F := F) x0) :
    (after (pc7_15 (F := F)) U (Proc.devRef .tc main_arg0) = x0
      ∧ after (pc7_15 (F := F)) U (Proc.devRef .tc main_arg1) = x1
      ∧ after (pc7_15 (F := F)) U (Proc.devRef .tc main_arg2) = x2)
    ∧ after (pc7_15 (F := F)) U (Proc.devRef .tc main_v20) = val_main_v20 (F := F) x1 x2
    ∧ after (pc7_15 (F := F)) U (Proc.devRef .tc main_v23) = val_main_v23 (F := F) x1 x2
    ∧ after (pc7_15 (F := F)) U (Proc.devRef .tc main_v28) = val_main_v28 (F := F) x0
    ∧ after (pc7_15 (F := F)) U (Proc.devRef .tc main_v29) = val_main_v29 (F := F) x1 x2
    ∧ after (pc7_15 (F := F)) U (Proc.devRef .tc main_v390) = val_main_v390 (F := F) x0 x1 x2
    ∧ after (pc7_15 (F := F)) U (Proc.devRef .tc main_v391) = val_main_v391 (F := F) x0
    ∧ after (pc7_15 (F := F)) U (Proc.devRef .tc main_call57_v3) = val_main_call57_v3 (F := F) x0
    ∧ after (pc7_15 (F := F)) U (Proc.devRef .tc main_call57_v4) = val_main_call57_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v390, i_main_v391, i_main_call57_v0, i_main_call57_v1])
  all_goals (try rw [i_main_v20])
  all_goals (try rw [i_main_v23])
  all_goals (try rw [i_main_v28])
  all_goals (try rw [i_main_v29])
  all_goals (try rw [i_main_v390])
  all_goals (try rw [i_main_v391])
  all_goals (try rw [i_main_call57_v0])
  all_goals (try rw [i_main_call57_v1])
  all_goals (try rfl)

/-- Operations 764 to 764 of the line. -/
abbrev pc7_16 : List (HloOp τ sig (Elt F)) :=
  [ TRef.binary (TRef.of (T := ⟨S8x128x126, .f32⟩) main_call57_v3) (TRef.of (T := ⟨S8x128x2, .f32⟩) main_call57_v4) (TRef.of (T := ⟨S8x128x128, .f32⟩) main_v392) (fun a b => concatenate S8x128x128 2 [⟨S8x128x126, a⟩, ⟨S8x128x2, b⟩] concatenates_S8x128x126_S8x128x2_S8x128x128_d2) ]

set_option maxRecDepth 8192 in
set_option maxHeartbeats 100000000 in
theorem piece7_16 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_v391 : U (Proc.devRef .tc main_v391) = val_main_v391 (F := F) x0)
    (i_main_call57_v3 : U (Proc.devRef .tc main_call57_v3) = val_main_call57_v3 (F := F) x0)
    (i_main_call57_v4 : U (Proc.devRef .tc main_call57_v4) = val_main_call57_v4 (F := F) x0) :
    (after (pc7_16 (F := F)) U (Proc.devRef .tc main_arg0) = x0
      ∧ after (pc7_16 (F := F)) U (Proc.devRef .tc main_arg1) = x1
      ∧ after (pc7_16 (F := F)) U (Proc.devRef .tc main_arg2) = x2)
    ∧ after (pc7_16 (F := F)) U (Proc.devRef .tc main_v20) = val_main_v20 (F := F) x1 x2
    ∧ after (pc7_16 (F := F)) U (Proc.devRef .tc main_v23) = val_main_v23 (F := F) x1 x2
    ∧ after (pc7_16 (F := F)) U (Proc.devRef .tc main_v28) = val_main_v28 (F := F) x0
    ∧ after (pc7_16 (F := F)) U (Proc.devRef .tc main_v29) = val_main_v29 (F := F) x1 x2
    ∧ after (pc7_16 (F := F)) U (Proc.devRef .tc main_v390) = val_main_v390 (F := F) x0 x1 x2
    ∧ after (pc7_16 (F := F)) U (Proc.devRef .tc main_v391) = val_main_v391 (F := F) x0
    ∧ after (pc7_16 (F := F)) U (Proc.devRef .tc main_v392) = val_main_v392 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v390, i_main_v391, i_main_call57_v3, i_main_call57_v4])
  all_goals (try rw [i_main_v20])
  all_goals (try rw [i_main_v23])
  all_goals (try rw [i_main_v28])
  all_goals (try rw [i_main_v29])
  all_goals (try rw [i_main_v390])
  all_goals (try rw [i_main_v391])
  all_goals (try rw [i_main_call57_v3])
  all_goals (try rw [i_main_call57_v4])
  all_goals (try rfl)

set_option maxRecDepth 8192 in
/-- The part's operations are its pieces laid end to end. -/
theorem ops7_split : (ops7 (F := F)) = pc7_0 ++ (pc7_1 ++ (pc7_2 ++ (pc7_3 ++ (pc7_4 ++ (pc7_5 ++ (pc7_6 ++ (pc7_7 ++ (pc7_8 ++ (pc7_9 ++ (pc7_10 ++ (pc7_11 ++ (pc7_12 ++ (pc7_13 ++ (pc7_14 ++ (pc7_15 ++ (pc7_16)))))))))))))))) := rfl

theorem chunk7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v330 : U (Proc.devRef .tc main_v330) = val_main_v330 (F := F) x0 x1 x2)
    (i_main_v337 : U (Proc.devRef .tc main_v337) = val_main_v337 (F := F) x0)
    (i_main_v342 : U (Proc.devRef .tc main_v342) = val_main_v342 (F := F) x1) :
    (after (ops7 (F := F)) U (Proc.devRef .tc main_arg0) = x0
      ∧ after (ops7 (F := F)) U (Proc.devRef .tc main_arg1) = x1
      ∧ after (ops7 (F := F)) U (Proc.devRef .tc main_arg2) = x2)
    ∧ after (ops7 (F := F)) U (Proc.devRef .tc main_v20) = val_main_v20 (F := F) x1 x2
    ∧ after (ops7 (F := F)) U (Proc.devRef .tc main_v23) = val_main_v23 (F := F) x1 x2
    ∧ after (ops7 (F := F)) U (Proc.devRef .tc main_v28) = val_main_v28 (F := F) x0
    ∧ after (ops7 (F := F)) U (Proc.devRef .tc main_v29) = val_main_v29 (F := F) x1 x2
    ∧ after (ops7 (F := F)) U (Proc.devRef .tc main_v390) = val_main_v390 (F := F) x0 x1 x2
    ∧ after (ops7 (F := F)) U (Proc.devRef .tc main_v391) = val_main_v391 (F := F) x0
    ∧ after (ops7 (F := F)) U (Proc.devRef .tc main_v392) = val_main_v392 (F := F) x0 := by
  rw [ops7_split]
  simp only [after_append]
  have p0 := piece7_0 (F := F) U x0 x1 x2 h0 h1 h2 i_main_v20 i_main_v23 i_main_v28 i_main_v29 i_main_v330 i_main_v337 i_main_v342
  have p1 := piece7_1 (F := F) (after (pc7_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2
  have p2 := piece7_2 (F := F) (after (pc7_1 (F := F)) (after (pc7_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2
  have p3 := piece7_3 (F := F) (after (pc7_2 (F := F)) (after (pc7_1 (F := F)) (after (pc7_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2.1 p2.2.2.2.2.2.2.2.2
  have p4 := piece7_4 (F := F) (after (pc7_3 (F := F)) (after (pc7_2 (F := F)) (after (pc7_1 (F := F)) (after (pc7_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2.1 p3.2.2.2.2.2.2.2.2
  have p5 := piece7_5 (F := F) (after (pc7_4 (F := F)) (after (pc7_3 (F := F)) (after (pc7_2 (F := F)) (after (pc7_1 (F := F)) (after (pc7_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2.1 p4.2.2.2.2.2.2.2.2.2
  have p6 := piece7_6 (F := F) (after (pc7_5 (F := F)) (after (pc7_4 (F := F)) (after (pc7_3 (F := F)) (after (pc7_2 (F := F)) (after (pc7_1 (F := F)) (after (pc7_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2.1 p5.2.2.2.2.2.2.2.2.2
  have p7 := piece7_7 (F := F) (after (pc7_6 (F := F)) (after (pc7_5 (F := F)) (after (pc7_4 (F := F)) (after (pc7_3 (F := F)) (after (pc7_2 (F := F)) (after (pc7_1 (F := F)) (after (pc7_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2
  have p8 := piece7_8 (F := F) (after (pc7_7 (F := F)) (after (pc7_6 (F := F)) (after (pc7_5 (F := F)) (after (pc7_4 (F := F)) (after (pc7_3 (F := F)) (after (pc7_2 (F := F)) (after (pc7_1 (F := F)) (after (pc7_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2
  have p9 := piece7_9 (F := F) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2.1 p8.2.2.2.2.2.2.2.2
  have p10 := piece7_10 (F := F) (after (pc7_9 (F := F)) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2.1 p9.2.2.2.2.2.2.2.2
  have p11 := piece7_11 (F := F) (after (pc7_10 (F := F)) (after (pc7_9 (F := F)) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2.1 p10.2.2.2.2.2.2.2.2.2
  have p12 := piece7_12 (F := F) (after (pc7_11 (F := F)) (after (pc7_10 (F := F)) (after (pc7_9 (F := F)) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2.1 p11.2.2.2.2.2.2.2.2.2
  have p13 := piece7_13 (F := F) (after (pc7_12 (F := F)) (after (pc7_11 (F := F)) (after (pc7_10 (F := F)) (after (pc7_9 (F := F)) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2
  have p14 := piece7_14 (F := F) (after (pc7_13 (F := F)) (after (pc7_12 (F := F)) (after (pc7_11 (F := F)) (after (pc7_10 (F := F)) (after (pc7_9 (F := F)) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2
  have p15 := piece7_15 (F := F) (after (pc7_14 (F := F)) (after (pc7_13 (F := F)) (after (pc7_12 (F := F)) (after (pc7_11 (F := F)) (after (pc7_10 (F := F)) (after (pc7_9 (F := F)) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U))))))))))))))) x0 x1 x2 p14.1.1 p14.1.2.1 p14.1.2.2 p14.2.1 p14.2.2.1 p14.2.2.2.1 p14.2.2.2.2.1 p14.2.2.2.2.2.1 p14.2.2.2.2.2.2.1 p14.2.2.2.2.2.2.2.1 p14.2.2.2.2.2.2.2.2
  have p16 := piece7_16 (F := F) (after (pc7_15 (F := F)) (after (pc7_14 (F := F)) (after (pc7_13 (F := F)) (after (pc7_12 (F := F)) (after (pc7_11 (F := F)) (after (pc7_10 (F := F)) (after (pc7_9 (F := F)) (after (pc7_8 (F := F)) (after (pc7_7 (F := F)) (after (pc7_6 (F := F)) (after (pc7_5 (F := F)) (after (pc7_4 (F := F)) (after (pc7_3 (F := F)) (after (pc7_2 (F := F)) (after (pc7_1 (F := F)) (after (pc7_0 (F := F)) U)))))))))))))))) x0 x1 x2 p15.1.1 p15.1.2.1 p15.1.2.2 p15.2.1 p15.2.2.1 p15.2.2.2.1 p15.2.2.2.2.1 p15.2.2.2.2.2.1 p15.2.2.2.2.2.2.1 p15.2.2.2.2.2.2.2.1 p15.2.2.2.2.2.2.2.2
  exact p16

end Cert.Bridge.RefRun

end
-- ==== Proof.RefRunPart8.lean ====
/-
  Part 8 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 765 to 766 of the line. -/
abbrev pc8_0 : List (HloOp τ sig (Elt F)) :=
  [ TRef.unary (TRef.of (T := ⟨S8x128x128, .i32⟩) main_arg1) (TRef.of (T := ⟨S8x127x128, .i32⟩) main_call58_v0) (extractStridedSlice S8x127x128 ![0, 1, 0] · slices_S8x128x128_S8x127x128_0_1_0),
    TRef.unary (TRef.of (T := ⟨S8x128x128, .i32⟩) main_arg1) (TRef.of (T := ⟨S8x1x128, .i32⟩) main_call58_v1) (extractStridedSlice S8x1x128 ![0, 0, 0] · slices_S8x128x128_S8x1x128_0_0_0) ]

set_option maxRecDepth 8192 in
set_option maxHeartbeats 100000000 in
theorem piece8_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_v391 : U (Proc.devRef .tc main_v391) = val_main_v391 (F := F) x0)
    (i_main_v392 : U (Proc.devRef .tc main_v392) = val_main_v392 (F := F) x0) :
    (after (pc8_0 (F := F)) U (Proc.devRef .tc main_arg0) = x0
      ∧ after (pc8_0 (F := F)) U (Proc.devRef .tc main_arg1) = x1
      ∧ after (pc8_0 (F := F)) U (Proc.devRef .tc main_arg2) = x2)
    ∧ after (pc8_0 (F := F)) U (Proc.devRef .tc main_v20) = val_main_v20 (F := F) x1 x2
    ∧ after (pc8_0 (F := F)) U (Proc.devRef .tc main_v23) = val_main_v23 (F := F) x1 x2
    ∧ after (pc8_0 (F := F)) U (Proc.devRef .tc main_v28) = val_main_v28 (F := F) x0
    ∧ after (pc8_0 (F := F)) U (Proc.devRef .tc main_v29) = val_main_v29 (F := F) x1 x2
    ∧ after (pc8_0 (F := F)) U (Proc.devRef .tc main_v390) = val_main_v390 (F := F) x0 x1 x2
    ∧ after (pc8_0 (F := F)) U (Proc.devRef .tc main_v391) = val_main_v391 (F := F) x0
    ∧ after (pc8_0 (F := F)) U (Proc.devRef .tc main_v392) = val_main_v392 (F := F) x0
    ∧ after (pc8_0 (F := F)) U (Proc.devRef .tc main_call58_v0) = val_main_call58_v0 (F := F) x1
    ∧ after (pc8_0 (F := F)) U (Proc.devRef .tc main_call58_v1) = val_main_call58_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v390, i_main_v391, i_main_v392])
  all_goals (try rw [i_main_v20])
  all_goals (try rw [i_main_v23])
  all_goals (try rw [i_main_v28])
  all_goals (try rw [i_main_v29])
  all_goals (try rw [i_main_v390])
  all_goals (try rw [i_main_v391])
  all_goals (try rw [i_main_v392])
  all_goals (try rfl)

/-- Operations 767 to 769 of the line. -/
abbrev pc8_1 : List (HloOp τ sig (Elt F)) :=
  [ TRef.binary (TRef.of (T := ⟨S8x127x128, .i32⟩) main_call58_v0) (TRef.of (T := ⟨S8x1x128, .i32⟩) main_call58_v1) (TRef.of (T := ⟨S8x128x128, .i32⟩) main_call58_v2) (fun a b => concatenate S8x128x128 1 [⟨S8x127x128, a⟩, ⟨S8x1x128, b⟩] concatenates_S8x127x128_S8x1x128_S8x128x128_d1),
    TRef.unary (TRef.of (T := ⟨S8x128x128, .i32⟩) main_call58_v2) (TRef.of (T := ⟨S8x128x126, .i32⟩) main_call58_v3) (extractStridedSlice S8x128x126 ![0, 0, 2] · slices_S8x128x128_S8x128x126_0_0_2),
    TRef.unary (TRef.of (T := ⟨S8x128x128, .i32⟩) main_call58_v2) (TRef.of (T := ⟨S8x128x2, .i32⟩) main_call58_v4) (extractStridedSlice S8x128x2 ![0, 0, 0] · slices_S8x128x128_S8x128x2_0_0_0) ]

set_option maxRecDepth 8192 in
set_option maxHeartbeats 100000000 in
theorem piece8_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_v391 : U (Proc.devRef .tc main_v391) = val_main_v391 (F := F) x0)
    (i_main_v392 : U (Proc.devRef .tc main_v392) = val_main_v392 (F := F) x0)
    (i_main_call58_v0 : U (Proc.devRef .tc main_call58_v0) = val_main_call58_v0 (F := F) x1)
    (i_main_call58_v1 : U (Proc.devRef .tc main_call58_v1) = val_main_call58_v1 (F := F) x1) :
    (after (pc8_1 (F := F)) U (Proc.devRef .tc main_arg0) = x0
      ∧ after (pc8_1 (F := F)) U (Proc.devRef .tc main_arg1) = x1
      ∧ after (pc8_1 (F := F)) U (Proc.devRef .tc main_arg2) = x2)
    ∧ after (pc8_1 (F := F)) U (Proc.devRef .tc main_v20) = val_main_v20 (F := F) x1 x2
    ∧ after (pc8_1 (F := F)) U (Proc.devRef .tc main_v23) = val_main_v23 (F := F) x1 x2
    ∧ after (pc8_1 (F := F)) U (Proc.devRef .tc main_v28) = val_main_v28 (F := F) x0
    ∧ after (pc8_1 (F := F)) U (Proc.devRef .tc main_v29) = val_main_v29 (F := F) x1 x2
    ∧ after (pc8_1 (F := F)) U (Proc.devRef .tc main_v390) = val_main_v390 (F := F) x0 x1 x2
    ∧ after (pc8_1 (F := F)) U (Proc.devRef .tc main_v391) = val_main_v391 (F := F) x0
    ∧ after (pc8_1 (F := F)) U (Proc.devRef .tc main_v392) = val_main_v392 (F := F) x0
    ∧ after (pc8_1 (F := F)) U (Proc.devRef .tc main_call58_v3) = val_main_call58_v3 (F := F) x1
    ∧ after (pc8_1 (F := F)) U (Proc.devRef .tc main_call58_v4) = val_main_call58_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v390, i_main_v391, i_main_v392, i_main_call58_v0, i_main_call58_v1])
  all_goals (try rw [i_main_v20])
  all_goals (try rw [i_main_v23])
  all_goals (try rw [i_main_v28])
  all_goals (try rw [i_main_v29])
  all_goals (try rw [i_main_v390])
  all_goals (try rw [i_main_v391])
  all_goals (try rw [i_main_v392])
  all_goals (try rw [i_main_call58_v0])
  all_goals (try rw [i_main_call58_v1])
  all_goals (try rfl)

/-- Operations 770 to 793 of the line. -/
abbrev pc8_2 : List (HloOp τ sig (Elt F)) :=
  [ TRef.binary (TRef.of (T := ⟨S8x128x126, .i32⟩) main_call58_v3) (TRef.of (T := ⟨S8x128x2, .i32⟩) main_call58_v4) (TRef.of (T := ⟨S8x128x128, .i32⟩) main_v393) (fun a b => concatenate S8x128x128 2 [⟨S8x128x126, a⟩, ⟨S8x128x2, b⟩] concatenates_S8x128x126_S8x128x2_S8x128x128_d2),
    binary main_arg0 main_v391 main_v394 (mulf : (⟨S8x256x128x128, .f32⟩ : BufTy).Contents (Elt F) → (⟨S8x256x128x128, .f32⟩ : BufTy).Contents (Elt F) → (⟨S8x256x128x128, .f32⟩ : BufTy).Contents (Elt F)),
    nullary main_cst_85 (constant S_ .f32 0x00000000#32),
    binary main_v394 main_cst_85 main_v395 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v392 main_v396 (mulf : (⟨S8x128x128, .f32⟩ : BufTy).Contents (Elt F) → (⟨S8x128x128, .f32⟩ : BufTy).Contents (Elt F) → (⟨S8x128x128, .f32⟩ : BufTy).Contents (Elt F)),
    binary main_v395 main_v396 main_v397 (Host.divf : (⟨S8x128x128, .f32⟩ : BufTy).Contents (Elt F) → (⟨S8x128x128, .f32⟩ : BufTy).Contents (Elt F) → (⟨S8x128x128, .f32⟩ : BufTy).Contents (Elt F)),
    binary main_arg1 main_v393 main_v398 (cmpi .eq : (⟨S8x128x128, .i32⟩ : BufTy).Contents (Elt F) → (⟨S8x128x128, .i32⟩ : BufTy).Contents (Elt F) → (⟨S8x128x128, .i1⟩ : BufTy).Contents (Elt F)),
    nullary main_c_86 (constantI S_ 32 2#32),
    unary main_c_86 main_v399 (broadcastInDim S8x128x128 ![] bcast_S_S8x128x128 : (⟨S_, .i32⟩ : BufTy).Contents (Elt F) → (⟨S8x128x128, .i32⟩ : BufTy).Contents (Elt F)),
    binary main_arg1 main_v399 main_v400 (cmpi .slt : (⟨S8x128x128, .i32⟩ : BufTy).Contents (Elt F) → (⟨S8x128x128, .i32⟩ : BufTy).Contents (Elt F) → (⟨S8x128x128, .i1⟩ : BufTy).Contents (Elt F)),
    binary main_v398 main_v400 main_v401 (andi : (⟨S8x128x128, .i1⟩ : BufTy).Contents (Elt F) → (⟨S8x128x128, .i1⟩ : BufTy).Contents (Elt F) → (⟨S8x128x128, .i1⟩ : BufTy).Contents (Elt F)),
    unary main_v401 main_v402 (uitofp .f32 : (⟨S8x128x128, .i1⟩ : BufTy).Contents (Elt F) → (⟨S8x128x128, .f32⟩ : BufTy).Contents (Elt F)),
    binary main_v397 main_v402 main_v403 (subf : (⟨S8x128x128, .f32⟩ : BufTy).Contents (Elt F) → (⟨S8x128x128, .f32⟩ : BufTy).Contents (Elt F) → (⟨S8x128x128, .f32⟩ : BufTy).Contents (Elt F)),
    binary main_v403 main_v403 main_v404 (mulf : (⟨S8x128x128, .f32⟩ : BufTy).Contents (Elt F) → (⟨S8x128x128, .f32⟩ : BufTy).Contents (Elt F) → (⟨S8x128x128, .f32⟩ : BufTy).Contents (Elt F)),
    binary main_v404 main_v29 main_v405 (mulf : (⟨S8x128x128, .f32⟩ : BufTy).Contents (Elt F) → (⟨S8x128x128, .f32⟩ : BufTy).Contents (Elt F) → (⟨S8x128x128, .f32⟩ : BufTy).Contents (Elt F)),
    nullary main_cst_87 (constant S_ .f32 0x00000000#32),
    binary main_v405 main_cst_87 main_v406 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_88 (constant S_ .f32 0x3F800000#32),
    unary main_cst_88 main_v407 (broadcastInDim S8 ![] bcast_S_S8 : (⟨S_, .f32⟩ : BufTy).Contents (Elt F) → (⟨S8, .f32⟩ : BufTy).Contents (Elt F)),
    binary main_v23 main_v407 main_v408 (maximumf : (⟨S8, .f32⟩ : BufTy).Contents (Elt F) → (⟨S8, .f32⟩ : BufTy).Contents (Elt F) → (⟨S8, .f32⟩ : BufTy).Contents (Elt F)),
    binary main_v406 main_v408 main_v409 (Host.divf : (⟨S8, .f32⟩ : BufTy).Contents (Elt F) → (⟨S8, .f32⟩ : BufTy).Contents (Elt F) → (⟨S8, .f32⟩ : BufTy).Contents (Elt F)),
    binary main_v390 main_v409 main_v410 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call59_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call59_v1) (extractStridedSlice S8x256x2x128 ![0, 0, 0, 0] · slices_S8x256x128x128_S8x256x2x128_0_0_0_0) ]

set_option maxRecDepth 8192 in
set_option maxHeartbeats 100000000 in
theorem piece8_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_v391 : U (Proc.devRef .tc main_v391) = val_main_v391 (F := F) x0)
    (i_main_v392 : U (Proc.devRef .tc main_v392) = val_main_v392 (F := F) x0)
    (i_main_call58_v3 : U (Proc.devRef .tc main_call58_v3) = val_main_call58_v3 (F := F) x1)
    (i_main_call58_v4 : U (Proc.devRef .tc main_call58_v4) = val_main_call58_v4 (F := F) x1) :
    (after (pc8_2 (F := F)) U (Proc.devRef .tc main_arg0) = x0
      ∧ after (pc8_2 (F := F)) U (Proc.devRef .tc main_arg1) = x1
      ∧ after (pc8_2 (F := F)) U (Proc.devRef .tc main_arg2) = x2)
    ∧ after (pc8_2 (F := F)) U (Proc.devRef .tc main_v20) = val_main_v20 (F := F) x1 x2
    ∧ after (pc8_2 (F := F)) U (Proc.devRef .tc main_v23) = val_main_v23 (F := F) x1 x2
    ∧ after (pc8_2 (F := F)) U (Proc.devRef .tc main_v28) = val_main_v28 (F := F) x0
    ∧ after (pc8_2 (F := F)) U (Proc.devRef .tc main_v29) = val_main_v29 (F := F) x1 x2
    ∧ after (pc8_2 (F := F)) U (Proc.devRef .tc main_v410) = val_main_v410 (F := F) x0 x1 x2
    ∧ after (pc8_2 (F := F)) U (Proc.devRef .tc main_call59_v0) = val_main_call59_v0 (F := F) x0
    ∧ after (pc8_2 (F := F)) U (Proc.devRef .tc main_call59_v1) = val_main_call59_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v390, i_main_v391, i_main_v392, i_main_call58_v3, i_main_call58_v4])
  all_goals (try rw [i_main_v20])
  all_goals (try rw [i_main_v23])
  all_goals (try rw [i_main_v28])
  all_goals (try rw [i_main_v29])
  all_goals (try rw [i_main_v390])
  all_goals (try rw [i_main_v391])
  all_goals (try rw [i_main_v392])
  all_goals (try rw [i_main_call58_v3])
  all_goals (try rw [i_main_call58_v4])
  all_goals (try rfl)

/-- Operations 794 to 796 of the line. -/
abbrev pc8_3 : List (HloOp τ sig (Elt F)) :=
  [ TRef.binary (TRef.of (T := ⟨S8x256x126x128, .f32⟩) main_call59_v0) (TRef.of (T := ⟨S8x256x2x128, .f32⟩) main_call59_v1) (TRef.of (T := ⟨S8x256x128x128, .f32⟩) main_call59_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call59_v2) (TRef.of (T := ⟨S8x256x128x2, .f32⟩) main_call59_v3) (extractStridedSlice S8x256x128x2 ![0, 0, 0, 126] · slices_S8x256x128x128_S8x256x128x2_0_0_0_126),
    TRef.unary (TRef.of (T := ⟨S8x256x128x128, .f32⟩) main_call59_v2) (TRef.of (T := ⟨S8x256x128x126, .f32⟩) main_call59_v4) (extractStridedSlice S8x256x128x126 ![0, 0, 0, 0] · slices_S8x256x128x128_S8x256x128x126_0_0_0_0) ]

set_option maxRecDepth 8192 in
set_option maxHeartbeats 100000000 in
theorem piece8_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v410 : U (Proc.devRef .tc main_v410) = val_main_v410 (F := F) x0 x1 x2)
    (i_main_call59_v0 : U (Proc.devRef .tc main_call59_v0) = val_main_call59_v0 (F := F) x0)
    (i_main_call59_v1 : U (Proc.devRef .tc main_call59_v1) = val_main_call59_v1 (F := F) x0) :
    (after (pc8_3 (F := F)) U (Proc.devRef .tc main_arg0) = x0
      ∧ after (pc8_3 (F := F)) U (Proc.devRef .tc main_arg1) = x1
      ∧ after (pc8_3 (F := F)) U (Proc.devRef .tc main_arg2) = x2)
    ∧ after (pc8_3 (F := F)) U (Proc.devRef .tc main_v20) = val_main_v20 (F := F) x1 x2
    ∧ after (pc8_3 (F := F)) U (Proc.devRef .tc main_v23) = val_main_v23 (F := F) x1 x2
    ∧ after (pc8_3 (F := F)) U (Proc.devRef .tc main_v28) = val_main_v28 (F := F) x0
    ∧ after (pc8_3 (F := F)) U (Proc.devRef .tc main_v29) = val_main_v29 (F := F) x1 x2
    ∧ after (pc8_3 (F := F)) U (Proc.devRef .tc main_v410) = val_main_v410 (F := F) x0 x1 x2
    ∧ after (pc8_3 (F := F)) U (Proc.devRef .tc main_call59_v3) = val_main_call59_v3 (F := F) x0
    ∧ after (pc8_3 (F := F)) U (Proc.devRef .tc main_call59_v4) = val_main_call59_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v410, i_main_call59_v0, i_main_call59_v1])
  all_goals (try rw [i_main_v20])
  all_goals (try rw [i_main_v23])
  all_goals (try rw [i_main_v28])
  all_goals (try rw [i_main_v29])
  all_goals (try rw [i_main_v410])
  all_goals (try rw [i_main_call59_v0])
  all_goals (try rw [i_main_call59_v1])
  all_goals (try rfl)

/-- Operations 797 to 799 of the line. -/
abbrev pc8_4 : List (HloOp τ sig (Elt F)) :=
  [ TRef.binary (TRef.of (T := ⟨S8x256x128x2, .f32⟩) main_call59_v3) (TRef.of (T := ⟨S8x256x128x126, .f32⟩) main_call59_v4) (TRef.of (T := ⟨S8x256x128x128, .f32⟩) main_v411) (fun a b => concatenate S8x256x128x128 3 [⟨S8x256x128x2, a⟩, ⟨S8x256x128x126, b⟩] concatenates_S8x256x128x2_S8x256x128x126_S8x256x128x128_d3),
    TRef.unary (TRef.of (T := ⟨S8x128x128, .f32⟩) main_v28) (TRef.of (T := ⟨S8x126x128, .f32⟩) main_call60_v0) (extractStridedSlice S8x126x128 ![0, 2, 0] · slices_S8x128x128_S8x126x128_0_2_0),
    TRef.unary (TRef.of (T := ⟨S8x128x128, .f32⟩) main_v28) (TRef.of (T := ⟨S8x2x128, .f32⟩) main_call60_v1) (extractStridedSlice S8x2x128 ![0, 0, 0] · slices_S8x128x128_S8x2x128_0_0_0) ]

set_option maxRecDepth 8192 in
set_option maxHeartbeats 100000000 in
theorem piece8_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v410 : U (Proc.devRef .tc main_v410) = val_main_v410 (F := F) x0 x1 x2)
    (i_main_call59_v3 : U (Proc.devRef .tc main_call59_v3) = val_main_call59_v3 (F := F) x0)
    (i_main_call59_v4 : U (Proc.devRef .tc main_call59_v4) = val_main_call59_v4 (F := F) x0) :
    (after (pc8_4 (F := F)) U (Proc.devRef .tc main_arg0) = x0
      ∧ after (pc8_4 (F := F)) U (Proc.devRef .tc main_arg1) = x1
      ∧ after (pc8_4 (F := F)) U (Proc.devRef .tc main_arg2) = x2)
    ∧ after (pc8_4 (F := F)) U (Proc.devRef .tc main_v20) = val_main_v20 (F := F) x1 x2
    ∧ after (pc8_4 (F := F)) U (Proc.devRef .tc main_v23) = val_main_v23 (F := F) x1 x2
    ∧ after (pc8_4 (F := F)) U (Proc.devRef .tc main_v28) = val_main_v28 (F := F) x0
    ∧ after (pc8_4 (F := F)) U (Proc.devRef .tc main_v29) = val_main_v29 (F := F) x1 x2
    ∧ after (pc8_4 (F := F)) U (Proc.devRef .tc main_v410) = val_main_v410 (F := F) x0 x1 x2
    ∧ after (pc8_4 (F := F)) U (Proc.devRef .tc main_v411) = val_main_v411 (F := F) x0
    ∧ after (pc8_4 (F := F)) U (Proc.devRef .tc main_call60_v0) = val_main_call60_v0 (F := F) x0
    ∧ after (pc8_4 (F := F)) U (Proc.devRef .tc main_call60_v1) = val_main_call60_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v410, i_main_call59_v3, i_main_call59_v4])
  all_goals (try rw [i_main_v20])
  all_goals (try rw [i_main_v23])
  all_goals (try rw [i_main_v28])
  all_goals (try rw [i_main_v29])
  all_goals (try rw [i_main_v410])
  all_goals (try rw [i_main_call59_v3])
  all_goals (try rw [i_main_call59_v4])
  all_goals (try rfl)

/-- Operations 800 to 802 of the line. -/
abbrev pc8_5 : List (HloOp τ sig (Elt F)) :=
  [ TRef.binary (TRef.of (T := ⟨S8x126x128, .f32⟩) main_call60_v0) (TRef.of (T := ⟨S8x2x128, .f32⟩) main_call60_v1) (TRef.of (T := ⟨S8x128x128, .f32⟩) main_call60_v2) (fun a b => concatenate S8x128x128 1 [⟨S8x126x128, a⟩, ⟨S8x2x128, b⟩] concatenates_S8x126x128_S8x2x128_S8x128x128_d1),
    TRef.unary (TRef.of (T := ⟨S8x128x128, .f32⟩) main_call60_v2) (TRef.of (T := ⟨S8x128x2, .f32⟩) main_call60_v3) (extractStridedSlice S8x128x2 ![0, 0, 126] · slices_S8x128x128_S8x128x2_0_0_126),
    TRef.unary (TRef.of (T := ⟨S8x128x128, .f32⟩) main_call60_v2) (TRef.of (T := ⟨S8x128x126, .f32⟩) main_call60_v4) (extractStridedSlice S8x128x126 ![0, 0, 0] · slices_S8x128x128_S8x128x126_0_0_0) ]

set_option maxRecDepth 8192 in
set_option maxHeartbeats 100000000 in
theorem piece8_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v410 : U (Proc.devRef .tc main_v410) = val_main_v410 (F := F) x0 x1 x2)
    (i_main_v411 : U (Proc.devRef .tc main_v411) = val_main_v411 (F := F) x0)
    (i_main_call60_v0 : U (Proc.devRef .tc main_call60_v0) = val_main_call60_v0 (F := F) x0)
    (i_main_call60_v1 : U (Proc.devRef .tc main_call60_v1) = val_main_call60_v1 (F := F) x0) :
    (after (pc8_5 (F := F)) U (Proc.devRef .tc main_arg0) = x0
      ∧ after (pc8_5 (F := F)) U (Proc.devRef .tc main_arg1) = x1
      ∧ after (pc8_5 (F := F)) U (Proc.devRef .tc main_arg2) = x2)
    ∧ after (pc8_5 (F := F)) U (Proc.devRef .tc main_v20) = val_main_v20 (F := F) x1 x2
    ∧ after (pc8_5 (F := F)) U (Proc.devRef .tc main_v23) = val_main_v23 (F := F) x1 x2
    ∧ after (pc8_5 (F := F)) U (Proc.devRef .tc main_v28) = val_main_v28 (F := F) x0
    ∧ after (pc8_5 (F := F)) U (Proc.devRef .tc main_v29) = val_main_v29 (F := F) x1 x2
    ∧ after (pc8_5 (F := F)) U (Proc.devRef .tc main_v410) = val_main_v410 (F := F) x0 x1 x2
    ∧ after (pc8_5 (F := F)) U (Proc.devRef .tc main_v411) = val_main_v411 (F := F) x0
    ∧ after (pc8_5 (F := F)) U (Proc.devRef .tc main_call60_v3) = val_main_call60_v3 (F := F) x0
    ∧ after (pc8_5 (F := F)) U (Proc.devRef .tc main_call60_v4) = val_main_call60_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v410, i_main_v411, i_main_call60_v0, i_main_call60_v1])
  all_goals (try rw [i_main_v20])
  all_goals (try rw [i_main_v23])
  all_goals (try rw [i_main_v28])
  all_goals (try rw [i_main_v29])
  all_goals (try rw [i_main_v410])
  all_goals (try rw [i_main_v411])
  all_goals (try rw [i_main_call60_v0])
  all_goals (try rw [i_main_call60_v1])
  all_goals (try rfl)

/-- Operations 803 to 805 of the line. -/
abbrev pc8_6 : List (HloOp τ sig (Elt F)) :=
  [ TRef.binary (TRef.of (T := ⟨S8x128x2, .f32⟩) main_call60_v3) (TRef.of (T := ⟨S8x128x126, .f32⟩) main_call60_v4) (TRef.of (T := ⟨S8x128x128, .f32⟩) main_v412) (fun a b => concatenate S8x128x128 2 [⟨S8x128x2, a⟩, ⟨S8x128x126, b⟩] concatenates_S8x128x2_S8x128x126_S8x128x128_d2),
    TRef.unary (TRef.of (T := ⟨S8x128x128, .i32⟩) main_arg1) (TRef.of (T := ⟨S8x126x128, .i32⟩) main_call61_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call61_v1) (extractStridedSlice S8x2x128 ![0, 0, 0] · slices_S8x128x128_S8x2x128_0_0_0) ]

set_option maxRecDepth 8192 in
set_option maxHeartbeats 100000000 in
theorem piece8_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v410 : U (Proc.devRef .tc main_v410) = val_main_v410 (F := F) x0 x1 x2)
    (i_main_v411 : U (Proc.devRef .tc main_v411) = val_main_v411 (F := F) x0)
    (i_main_call60_v3 : U (Proc.devRef .tc main_call60_v3) = val_main_call60_v3 (F := F) x0)
    (i_main_call60_v4 : U (Proc.devRef .tc main_call60_v4) = val_main_call60_v4 (F := F) x0) :
    (after (pc8_6 (F := F)) U (Proc.devRef .tc main_arg0) = x0
      ∧ after (pc8_6 (F := F)) U (Proc.devRef .tc main_arg1) = x1
      ∧ after (pc8_6 (F := F)) U (Proc.devRef .tc main_arg2) = x2)
    ∧ after (pc8_6 (F := F)) U (Proc.devRef .tc main_v20) = val_main_v20 (F := F) x1 x2
    ∧ after (pc8_6 (F := F)) U (Proc.devRef .tc main_v23) = val_main_v23 (F := F) x1 x2
    ∧ after (pc8_6 (F := F)) U (Proc.devRef .tc main_v28) = val_main_v28 (F := F) x0
    ∧ after (pc8_6 (F := F)) U (Proc.devRef .tc main_v29) = val_main_v29 (F := F) x1 x2
    ∧ after (pc8_6 (F := F)) U (Proc.devRef .tc main_v410) = val_main_v410 (F := F) x0 x1 x2
    ∧ after (pc8_6 (F := F)) U (Proc.devRef .tc main_v411) = val_main_v411 (F := F) x0
    ∧ after (pc8_6 (F := F)) U (Proc.devRef .tc main_v412) = val_main_v412 (F := F) x0
    ∧ after (pc8_6 (F := F)) U (Proc.devRef .tc main_call61_v0) = val_main_call61_v0 (F := F) x1
    ∧ after (pc8_6 (F := F)) U (Proc.devRef .tc main_call61_v1) = val_main_call61_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v410, i_main_v411, i_main_call60_v3, i_main_call60_v4])
  all_goals (try rw [i_main_v20])
  all_goals (try rw [i_main_v23])
  all_goals (try rw [i_main_v28])
  all_goals (try rw [i_main_v29])
  all_goals (try rw [i_main_v410])
  all_goals (try rw [i_main_v411])
  all_goals (try rw [i_main_call60_v3])
  all_goals (try rw [i_main_call60_v4])
  all_goals (try rfl)

/-- Operations 806 to 808 of the line. -/
abbrev pc8_7 : List (HloOp τ sig (Elt F)) :=
  [ TRef.binary (TRef.of (T := ⟨S8x126x128, .i32⟩) main_call61_v0) (TRef.of (T := ⟨S8x2x128, .i32⟩) main_call61_v1) (TRef.of (T := ⟨S8x128x128, .i32⟩) main_call61_v2) (fun a b => concatenate S8x128x128 1 [⟨S8x126x128, a⟩, ⟨S8x2x128, b⟩] concatenates_S8x126x128_S8x2x128_S8x128x128_d1),
    TRef.unary (TRef.of (T := ⟨S8x128x128, .i32⟩) main_call61_v2) (TRef.of (T := ⟨S8x128x2, .i32⟩) main_call61_v3) (extractStridedSlice S8x128x2 ![0, 0, 126] · slices_S8x128x128_S8x128x2_0_0_126),
    TRef.unary (TRef.of (T := ⟨S8x128x128, .i32⟩) main_call61_v2) (TRef.of (T := ⟨S8x128x126, .i32⟩) main_call61_v4) (extractStridedSlice S8x128x126 ![0, 0, 0] · slices_S8x128x128_S8x128x126_0_0_0) ]

set_option maxRecDepth 8192 in
set_option maxHeartbeats 100000000 in
theorem piece8_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v410 : U (Proc.devRef .tc main_v410) = val_main_v410 (F := F) x0 x1 x2)
    (i_main_v411 : U (Proc.devRef .tc main_v411) = val_main_v411 (F := F) x0)
    (i_main_v412 : U (Proc.devRef .tc main_v412) = val_main_v412 (F := F) x0)
    (i_main_call61_v0 : U (Proc.devRef .tc main_call61_v0) = val_main_call61_v0 (F := F) x1)
    (i_main_call61_v1 : U (Proc.devRef .tc main_call61_v1) = val_main_call61_v1 (F := F) x1) :
    (after (pc8_7 (F := F)) U (Proc.devRef .tc main_arg0) = x0
      ∧ after (pc8_7 (F := F)) U (Proc.devRef .tc main_arg1) = x1
      ∧ after (pc8_7 (F := F)) U (Proc.devRef .tc main_arg2) = x2)
    ∧ after (pc8_7 (F := F)) U (Proc.devRef .tc main_v20) = val_main_v20 (F := F) x1 x2
    ∧ after (pc8_7 (F := F)) U (Proc.devRef .tc main_v23) = val_main_v23 (F := F) x1 x2
    ∧ after (pc8_7 (F := F)) U (Proc.devRef .tc main_v28) = val_main_v28 (F := F) x0
    ∧ after (pc8_7 (F := F)) U (Proc.devRef .tc main_v29) = val_main_v29 (F := F) x1 x2
    ∧ after (pc8_7 (F := F)) U (Proc.devRef .tc main_v410) = val_main_v410 (F := F) x0 x1 x2
    ∧ after (pc8_7 (F := F)) U (Proc.devRef .tc main_v411) = val_main_v411 (F := F) x0
    ∧ after (pc8_7 (F := F)) U (Proc.devRef .tc main_v412) = val_main_v412 (F := F) x0
    ∧ after (pc8_7 (F := F)) U (Proc.devRef .tc main_call61_v3) = val_main_call61_v3 (F := F) x1
    ∧ after (pc8_7 (F := F)) U (Proc.devRef .tc main_call61_v4) = val_main_call61_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v410, i_main_v411, i_main_v412, i_main_call61_v0, i_main_call61_v1])
  all_goals (try rw [i_main_v20])
  all_goals (try rw [i_main_v23])
  all_goals (try rw [i_main_v28])
  all_goals (try rw [i_main_v29])
  all_goals (try rw [i_main_v410])
  all_goals (try rw [i_main_v411])
  all_goals (try rw [i_main_v412])
  all_goals (try rw [i_main_call61_v0])
  all_goals (try rw [i_main_call61_v1])
  all_goals (try rfl)

/-- Operations 809 to 832 of the line. -/
abbrev pc8_8 : List (HloOp τ sig (Elt F)) :=
  [ TRef.binary (TRef.of (T := ⟨S8x128x2, .i32⟩) main_call61_v3) (TRef.of (T := ⟨S8x128x126, .i32⟩) main_call61_v4) (TRef.of (T := ⟨S8x128x128, .i32⟩) main_v413) (fun a b => concatenate S8x128x128 2 [⟨S8x128x2, a⟩, ⟨S8x128x126, b⟩] concatenates_S8x128x2_S8x128x126_S8x128x128_d2),
    binary main_arg0 main_v411 main_v414 (mulf : (⟨S8x256x128x128, .f32⟩ : BufTy).Contents (Elt F) → (⟨S8x256x128x128, .f32⟩ : BufTy).Contents (Elt F) → (⟨S8x256x128x128, .f32⟩ : BufTy).Contents (Elt F)),
    nullary main_cst_89 (constant S_ .f32 0x00000000#32),
    binary main_v414 main_cst_89 main_v415 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v412 main_v416 (mulf : (⟨S8x128x128, .f32⟩ : BufTy).Contents (Elt F) → (⟨S8x128x128, .f32⟩ : BufTy).Contents (Elt F) → (⟨S8x128x128, .f32⟩ : BufTy).Contents (Elt F)),
    binary main_v415 main_v416 main_v417 (Host.divf : (⟨S8x128x128, .f32⟩ : BufTy).Contents (Elt F) → (⟨S8x128x128, .f32⟩ : BufTy).Contents (Elt F) → (⟨S8x128x128, .f32⟩ : BufTy).Contents (Elt F)),
    binary main_arg1 main_v413 main_v418 (cmpi .eq : (⟨S8x128x128, .i32⟩ : BufTy).Contents (Elt F) → (⟨S8x128x128, .i32⟩ : BufTy).Contents (Elt F) → (⟨S8x128x128, .i1⟩ : BufTy).Contents (Elt F)),
    nullary main_c_90 (constantI S_ 32 2#32),
    unary main_c_90 main_v419 (broadcastInDim S8x128x128 ![] bcast_S_S8x128x128 : (⟨S_, .i32⟩ : BufTy).Contents (Elt F) → (⟨S8x128x128, .i32⟩ : BufTy).Contents (Elt F)),
    binary main_arg1 main_v419 main_v420 (cmpi .slt : (⟨S8x128x128, .i32⟩ : BufTy).Contents (Elt F) → (⟨S8x128x128, .i32⟩ : BufTy).Contents (Elt F) → (⟨S8x128x128, .i1⟩ : BufTy).Contents (Elt F)),
    binary main_v418 main_v420 main_v421 (andi : (⟨S8x128x128, .i1⟩ : BufTy).Contents (Elt F) → (⟨S8x128x128, .i1⟩ : BufTy).Contents (Elt F) → (⟨S8x128x128, .i1⟩ : BufTy).Contents (Elt F)),
    unary main_v421 main_v422 (uitofp .f32 : (⟨S8x128x128, .i1⟩ : BufTy).Contents (Elt F) → (⟨S8x128x128, .f32⟩ : BufTy).Contents (Elt F)),
    binary main_v417 main_v422 main_v423 (subf : (⟨S8x128x128, .f32⟩ : BufTy).Contents (Elt F) → (⟨S8x128x128, .f32⟩ : BufTy).Contents (Elt F) → (⟨S8x128x128, .f32⟩ : BufTy).Contents (Elt F)),
    binary main_v423 main_v423 main_v424 (mulf : (⟨S8x128x128, .f32⟩ : BufTy).Contents (Elt F) → (⟨S8x128x128, .f32⟩ : BufTy).Contents (Elt F) → (⟨S8x128x128, .f32⟩ : BufTy).Contents (Elt F)),
    binary main_v424 main_v29 main_v425 (mulf : (⟨S8x128x128, .f32⟩ : BufTy).Contents (Elt F) → (⟨S8x128x128, .f32⟩ : BufTy).Contents (Elt F) → (⟨S8x128x128, .f32⟩ : BufTy).Contents (Elt F)),
    nullary main_cst_91 (constant S_ .f32 0x00000000#32),
    binary main_v425 main_cst_91 main_v426 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_92 (constant S_ .f32 0x3F800000#32),
    unary main_cst_92 main_v427 (broadcastInDim S8 ![] bcast_S_S8 : (⟨S_, .f32⟩ : BufTy).Contents (Elt F) → (⟨S8, .f32⟩ : BufTy).Contents (Elt F)),
    binary main_v23 main_v427 main_v428 (maximumf : (⟨S8, .f32⟩ : BufTy).Contents (Elt F) → (⟨S8, .f32⟩ : BufTy).Contents (Elt F) → (⟨S8, .f32⟩ : BufTy).Contents (Elt F)),
    binary main_v426 main_v428 main_v429 (Host.divf : (⟨S8, .f32⟩ : BufTy).Contents (Elt F) → (⟨S8, .f32⟩ : BufTy).Contents (Elt F) → (⟨S8, .f32⟩ : BufTy).Contents (Elt F)),
    binary main_v410 main_v429 main_v430 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call62_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call62_v1) (extractStridedSlice S8x256x2x128 ![0, 0, 0, 0] · slices_S8x256x128x128_S8x256x2x128_0_0_0_0) ]

set_option maxRecDepth 8192 in
set_option maxHeartbeats 100000000 in
theorem piece8_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v410 : U (Proc.devRef .tc main_v410) = val_main_v410 (F := F) x0 x1 x2)
    (i_main_v411 : U (Proc.devRef .tc main_v411) = val_main_v411 (F := F) x0)
    (i_main_v412 : U (Proc.devRef .tc main_v412) = val_main_v412 (F := F) x0)
    (i_main_call61_v3 : U (Proc.devRef .tc main_call61_v3) = val_main_call61_v3 (F := F) x1)
    (i_main_call61_v4 : U (Proc.devRef .tc main_call61_v4) = val_main_call61_v4 (F := F) x1) :
    (after (pc8_8 (F := F)) U (Proc.devRef .tc main_arg0) = x0
      ∧ after (pc8_8 (F := F)) U (Proc.devRef .tc main_arg1) = x1
      ∧ after (pc8_8 (F := F)) U (Proc.devRef .tc main_arg2) = x2)
    ∧ after (pc8_8 (F := F)) U (Proc.devRef .tc main_v20) = val_main_v20 (F := F) x1 x2
    ∧ after (pc8_8 (F := F)) U (Proc.devRef .tc main_v23) = val_main_v23 (F := F) x1 x2
    ∧ after (pc8_8 (F := F)) U (Proc.devRef .tc main_v28) = val_main_v28 (F := F) x0
    ∧ after (pc8_8 (F := F)) U (Proc.devRef .tc main_v29) = val_main_v29 (F := F) x1 x2
    ∧ after (pc8_8 (F := F)) U (Proc.devRef .tc main_v430) = val_main_v430 (F := F) x0 x1 x2
    ∧ after (pc8_8 (F := F)) U (Proc.devRef .tc main_call62_v0) = val_main_call62_v0 (F := F) x0
    ∧ after (pc8_8 (F := F)) U (Proc.devRef .tc main_call62_v1) = val_main_call62_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v410, i_main_v411, i_main_v412, i_main_call61_v3, i_main_call61_v4])
  all_goals (try rw [i_main_v20])
  all_goals (try rw [i_main_v23])
  all_goals (try rw [i_main_v28])
  all_goals (try rw [i_main_v29])
  all_goals (try rw [i_main_v410])
  all_goals (try rw [i_main_v411])
  all_goals (try rw [i_main_v412])
  all_goals (try rw [i_main_call61_v3])
  all_goals (try rw [i_main_call61_v4])
  all_goals (try rfl)

/-- Operations 833 to 835 of the line. -/
abbrev pc8_9 : List (HloOp τ sig (Elt F)) :=
  [ TRef.binary (TRef.of (T := ⟨S8x256x126x128, .f32⟩) main_call62_v0) (TRef.of (T := ⟨S8x256x2x128, .f32⟩) main_call62_v1) (TRef.of (T := ⟨S8x256x128x128, .f32⟩) main_call62_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call62_v2) (TRef.of (T := ⟨S8x256x128x1, .f32⟩) main_call62_v3) (extractStridedSlice S8x256x128x1 ![0, 0, 0, 127] · slices_S8x256x128x128_S8x256x128x1_0_0_0_127),
    TRef.unary (TRef.of (T := ⟨S8x256x128x128, .f32⟩) main_call62_v2) (TRef.of (T := ⟨S8x256x128x127, .f32⟩) main_call62_v4) (extractStridedSlice S8x256x128x127 ![0, 0, 0, 0] · slices_S8x256x128x128_S8x256x128x127_0_0_0_0) ]

set_option maxRecDepth 8192 in
set_option maxHeartbeats 100000000 in
theorem piece8_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_call62_v0 : U (Proc.devRef .tc main_call62_v0) = val_main_call62_v0 (F := F) x0)
    (i_main_call62_v1 : U (Proc.devRef .tc main_call62_v1) = val_main_call62_v1 (F := F) x0) :
    (after (pc8_9 (F := F)) U (Proc.devRef .tc main_arg0) = x0
      ∧ after (pc8_9 (F := F)) U (Proc.devRef .tc main_arg1) = x1
      ∧ after (pc8_9 (F := F)) U (Proc.devRef .tc main_arg2) = x2)
    ∧ after (pc8_9 (F := F)) U (Proc.devRef .tc main_v20) = val_main_v20 (F := F) x1 x2
    ∧ after (pc8_9 (F := F)) U (Proc.devRef .tc main_v23) = val_main_v23 (F := F) x1 x2
    ∧ after (pc8_9 (F := F)) U (Proc.devRef .tc main_v28) = val_main_v28 (F := F) x0
    ∧ after (pc8_9 (F := F)) U (Proc.devRef .tc main_v29) = val_main_v29 (F := F) x1 x2
    ∧ after (pc8_9 (F := F)) U (Proc.devRef .tc main_v430) = val_main_v430 (F := F) x0 x1 x2
    ∧ after (pc8_9 (F := F)) U (Proc.devRef .tc main_call62_v3) = val_main_call62_v3 (F := F) x0
    ∧ after (pc8_9 (F := F)) U (Proc.devRef .tc main_call62_v4) = val_main_call62_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v430, i_main_call62_v0, i_main_call62_v1])
  all_goals (try rw [i_main_v20])
  all_goals (try rw [i_main_v23])
  all_goals (try rw [i_main_v28])
  all_goals (try rw [i_main_v29])
  all_goals (try rw [i_main_v430])
  all_goals (try rw [i_main_call62_v0])
  all_goals (try rw [i_main_call62_v1])
  all_goals (try rfl)

/-- Operations 836 to 838 of the line. -/
abbrev pc8_10 : List (HloOp τ sig (Elt F)) :=
  [ TRef.binary (TRef.of (T := ⟨S8x256x128x1, .f32⟩) main_call62_v3) (TRef.of (T := ⟨S8x256x128x127, .f32⟩) main_call62_v4) (TRef.of (T := ⟨S8x256x128x128, .f32⟩) main_v431) (fun a b => concatenate S8x256x128x128 3 [⟨S8x256x128x1, a⟩, ⟨S8x256x128x127, b⟩] concatenates_S8x256x128x1_S8x256x128x127_S8x256x128x128_d3),
    TRef.unary (TRef.of (T := ⟨S8x128x128, .f32⟩) main_v28) (TRef.of (T := ⟨S8x126x128, .f32⟩) main_call63_v0) (extractStridedSlice S8x126x128 ![0, 2, 0] · slices_S8x128x128_S8x126x128_0_2_0),
    TRef.unary (TRef.of (T := ⟨S8x128x128, .f32⟩) main_v28) (TRef.of (T := ⟨S8x2x128, .f32⟩) main_call63_v1) (extractStridedSlice S8x2x128 ![0, 0, 0] · slices_S8x128x128_S8x2x128_0_0_0) ]

set_option maxRecDepth 8192 in
set_option maxHeartbeats 100000000 in
theorem piece8_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_call62_v3 : U (Proc.devRef .tc main_call62_v3) = val_main_call62_v3 (F := F) x0)
    (i_main_call62_v4 : U (Proc.devRef .tc main_call62_v4) = val_main_call62_v4 (F := F) x0) :
    (after (pc8_10 (F := F)) U (Proc.devRef .tc main_arg0) = x0
      ∧ after (pc8_10 (F := F)) U (Proc.devRef .tc main_arg1) = x1
      ∧ after (pc8_10 (F := F)) U (Proc.devRef .tc main_arg2) = x2)
    ∧ after (pc8_10 (F := F)) U (Proc.devRef .tc main_v20) = val_main_v20 (F := F) x1 x2
    ∧ after (pc8_10 (F := F)) U (Proc.devRef .tc main_v23) = val_main_v23 (F := F) x1 x2
    ∧ after (pc8_10 (F := F)) U (Proc.devRef .tc main_v28) = val_main_v28 (F := F) x0
    ∧ after (pc8_10 (F := F)) U (Proc.devRef .tc main_v29) = val_main_v29 (F := F) x1 x2
    ∧ after (pc8_10 (F := F)) U (Proc.devRef .tc main_v430) = val_main_v430 (F := F) x0 x1 x2
    ∧ after (pc8_10 (F := F)) U (Proc.devRef .tc main_v431) = val_main_v431 (F := F) x0
    ∧ after (pc8_10 (F := F)) U (Proc.devRef .tc main_call63_v0) = val_main_call63_v0 (F := F) x0
    ∧ after (pc8_10 (F := F)) U (Proc.devRef .tc main_call63_v1) = val_main_call63_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v430, i_main_call62_v3, i_main_call62_v4])
  all_goals (try rw [i_main_v20])
  all_goals (try rw [i_main_v23])
  all_goals (try rw [i_main_v28])
  all_goals (try rw [i_main_v29])
  all_goals (try rw [i_main_v430])
  all_goals (try rw [i_main_call62_v3])
  all_goals (try rw [i_main_call62_v4])
  all_goals (try rfl)

/-- Operations 839 to 841 of the line. -/
abbrev pc8_11 : List (HloOp τ sig (Elt F)) :=
  [ TRef.binary (TRef.of (T := ⟨S8x126x128, .f32⟩) main_call63_v0) (TRef.of (T := ⟨S8x2x128, .f32⟩) main_call63_v1) (TRef.of (T := ⟨S8x128x128, .f32⟩) main_call63_v2) (fun a b => concatenate S8x128x128 1 [⟨S8x126x128, a⟩, ⟨S8x2x128, b⟩] concatenates_S8x126x128_S8x2x128_S8x128x128_d1),
    TRef.unary (TRef.of (T := ⟨S8x128x128, .f32⟩) main_call63_v2) (TRef.of (T := ⟨S8x128x1, .f32⟩) main_call63_v3) (extractStridedSlice S8x128x1 ![0, 0, 127] · slices_S8x128x128_S8x128x1_0_0_127),
    TRef.unary (TRef.of (T := ⟨S8x128x128, .f32⟩) main_call63_v2) (TRef.of (T := ⟨S8x128x127, .f32⟩) main_call63_v4) (extractStridedSlice S8x128x127 ![0, 0, 0] · slices_S8x128x128_S8x128x127_0_0_0) ]

set_option maxRecDepth 8192 in
set_option maxHeartbeats 100000000 in
theorem piece8_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_v431 : U (Proc.devRef .tc main_v431) = val_main_v431 (F := F) x0)
    (i_main_call63_v0 : U (Proc.devRef .tc main_call63_v0) = val_main_call63_v0 (F := F) x0)
    (i_main_call63_v1 : U (Proc.devRef .tc main_call63_v1) = val_main_call63_v1 (F := F) x0) :
    (after (pc8_11 (F := F)) U (Proc.devRef .tc main_arg0) = x0
      ∧ after (pc8_11 (F := F)) U (Proc.devRef .tc main_arg1) = x1
      ∧ after (pc8_11 (F := F)) U (Proc.devRef .tc main_arg2) = x2)
    ∧ after (pc8_11 (F := F)) U (Proc.devRef .tc main_v20) = val_main_v20 (F := F) x1 x2
    ∧ after (pc8_11 (F := F)) U (Proc.devRef .tc main_v23) = val_main_v23 (F := F) x1 x2
    ∧ after (pc8_11 (F := F)) U (Proc.devRef .tc main_v28) = val_main_v28 (F := F) x0
    ∧ after (pc8_11 (F := F)) U (Proc.devRef .tc main_v29) = val_main_v29 (F := F) x1 x2
    ∧ after (pc8_11 (F := F)) U (Proc.devRef .tc main_v430) = val_main_v430 (F := F) x0 x1 x2
    ∧ after (pc8_11 (F := F)) U (Proc.devRef .tc main_v431) = val_main_v431 (F := F) x0
    ∧ after (pc8_11 (F := F)) U (Proc.devRef .tc main_call63_v3) = val_main_call63_v3 (F := F) x0
    ∧ after (pc8_11 (F := F)) U (Proc.devRef .tc main_call63_v4) = val_main_call63_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v430, i_main_v431, i_main_call63_v0, i_main_call63_v1])
  all_goals (try rw [i_main_v20])
  all_goals (try rw [i_main_v23])
  all_goals (try rw [i_main_v28])
  all_goals (try rw [i_main_v29])
  all_goals (try rw [i_main_v430])
  all_goals (try rw [i_main_v431])
  all_goals (try rw [i_main_call63_v0])
  all_goals (try rw [i_main_call63_v1])
  all_goals (try rfl)

/-- Operations 842 to 844 of the line. -/
abbrev pc8_12 : List (HloOp τ sig (Elt F)) :=
  [ TRef.binary (TRef.of (T := ⟨S8x128x1, .f32⟩) main_call63_v3) (TRef.of (T := ⟨S8x128x127, .f32⟩) main_call63_v4) (TRef.of (T := ⟨S8x128x128, .f32⟩) main_v432) (fun a b => concatenate S8x128x128 2 [⟨S8x128x1, a⟩, ⟨S8x128x127, b⟩] concatenates_S8x128x1_S8x128x127_S8x128x128_d2),
    TRef.unary (TRef.of (T := ⟨S8x128x128, .i32⟩) main_arg1) (TRef.of (T := ⟨S8x126x128, .i32⟩) main_call64_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call64_v1) (extractStridedSlice S8x2x128 ![0, 0, 0] · slices_S8x128x128_S8x2x128_0_0_0) ]

set_option maxRecDepth 8192 in
set_option maxHeartbeats 100000000 in
theorem piece8_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_v431 : U (Proc.devRef .tc main_v431) = val_main_v431 (F := F) x0)
    (i_main_call63_v3 : U (Proc.devRef .tc main_call63_v3) = val_main_call63_v3 (F := F) x0)
    (i_main_call63_v4 : U (Proc.devRef .tc main_call63_v4) = val_main_call63_v4 (F := F) x0) :
    (after (pc8_12 (F := F)) U (Proc.devRef .tc main_arg0) = x0
      ∧ after (pc8_12 (F := F)) U (Proc.devRef .tc main_arg1) = x1
      ∧ after (pc8_12 (F := F)) U (Proc.devRef .tc main_arg2) = x2)
    ∧ after (pc8_12 (F := F)) U (Proc.devRef .tc main_v20) = val_main_v20 (F := F) x1 x2
    ∧ after (pc8_12 (F := F)) U (Proc.devRef .tc main_v23) = val_main_v23 (F := F) x1 x2
    ∧ after (pc8_12 (F := F)) U (Proc.devRef .tc main_v28) = val_main_v28 (F := F) x0
    ∧ after (pc8_12 (F := F)) U (Proc.devRef .tc main_v29) = val_main_v29 (F := F) x1 x2
    ∧ after (pc8_12 (F := F)) U (Proc.devRef .tc main_v430) = val_main_v430 (F := F) x0 x1 x2
    ∧ after (pc8_12 (F := F)) U (Proc.devRef .tc main_v431) = val_main_v431 (F := F) x0
    ∧ after (pc8_12 (F := F)) U (Proc.devRef .tc main_v432) = val_main_v432 (F := F) x0
    ∧ after (pc8_12 (F := F)) U (Proc.devRef .tc main_call64_v0) = val_main_call64_v0 (F := F) x1
    ∧ after (pc8_12 (F := F)) U (Proc.devRef .tc main_call64_v1) = val_main_call64_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v430, i_main_v431, i_main_call63_v3, i_main_call63_v4])
  all_goals (try rw [i_main_v20])
  all_goals (try rw [i_main_v23])
  all_goals (try rw [i_main_v28])
  all_goals (try rw [i_main_v29])
  all_goals (try rw [i_main_v430])
  all_goals (try rw [i_main_v431])
  all_goals (try rw [i_main_call63_v3])
  all_goals (try rw [i_main_call63_v4])
  all_goals (try rfl)

/-- Operations 845 to 847 of the line. -/
abbrev pc8_13 : List (HloOp τ sig (Elt F)) :=
  [ TRef.binary (TRef.of (T := ⟨S8x126x128, .i32⟩) main_call64_v0) (TRef.of (T := ⟨S8x2x128, .i32⟩) main_call64_v1) (TRef.of (T := ⟨S8x128x128, .i32⟩) main_call64_v2) (fun a b => concatenate S8x128x128 1 [⟨S8x126x128, a⟩, ⟨S8x2x128, b⟩] concatenates_S8x126x128_S8x2x128_S8x128x128_d1),
    TRef.unary (TRef.of (T := ⟨S8x128x128, .i32⟩) main_call64_v2) (TRef.of (T := ⟨S8x128x1, .i32⟩) main_call64_v3) (extractStridedSlice S8x128x1 ![0, 0, 127] · slices_S8x128x128_S8x128x1_0_0_127),
    TRef.unary (TRef.of (T := ⟨S8x128x128, .i32⟩) main_call64_v2) (TRef.of (T := ⟨S8x128x127, .i32⟩) main_call64_v4) (extractStridedSlice S8x128x127 ![0, 0, 0] · slices_S8x128x128_S8x128x127_0_0_0) ]

set_option maxRecDepth 8192 in
set_option maxHeartbeats 100000000 in
theorem piece8_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_v431 : U (Proc.devRef .tc main_v431) = val_main_v431 (F := F) x0)
    (i_main_v432 : U (Proc.devRef .tc main_v432) = val_main_v432 (F := F) x0)
    (i_main_call64_v0 : U (Proc.devRef .tc main_call64_v0) = val_main_call64_v0 (F := F) x1)
    (i_main_call64_v1 : U (Proc.devRef .tc main_call64_v1) = val_main_call64_v1 (F := F) x1) :
    (after (pc8_13 (F := F)) U (Proc.devRef .tc main_arg0) = x0
      ∧ after (pc8_13 (F := F)) U (Proc.devRef .tc main_arg1) = x1
      ∧ after (pc8_13 (F := F)) U (Proc.devRef .tc main_arg2) = x2)
    ∧ after (pc8_13 (F := F)) U (Proc.devRef .tc main_v20) = val_main_v20 (F := F) x1 x2
    ∧ after (pc8_13 (F := F)) U (Proc.devRef .tc main_v23) = val_main_v23 (F := F) x1 x2
    ∧ after (pc8_13 (F := F)) U (Proc.devRef .tc main_v28) = val_main_v28 (F := F) x0
    ∧ after (pc8_13 (F := F)) U (Proc.devRef .tc main_v29) = val_main_v29 (F := F) x1 x2
    ∧ after (pc8_13 (F := F)) U (Proc.devRef .tc main_v430) = val_main_v430 (F := F) x0 x1 x2
    ∧ after (pc8_13 (F := F)) U (Proc.devRef .tc main_v431) = val_main_v431 (F := F) x0
    ∧ after (pc8_13 (F := F)) U (Proc.devRef .tc main_v432) = val_main_v432 (F := F) x0
    ∧ after (pc8_13 (F := F)) U (Proc.devRef .tc main_call64_v3) = val_main_call64_v3 (F := F) x1
    ∧ after (pc8_13 (F := F)) U (Proc.devRef .tc main_call64_v4) = val_main_call64_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v430, i_main_v431, i_main_v432, i_main_call64_v0, i_main_call64_v1])
  all_goals (try rw [i_main_v20])
  all_goals (try rw [i_main_v23])
  all_goals (try rw [i_main_v28])
  all_goals (try rw [i_main_v29])
  all_goals (try rw [i_main_v430])
  all_goals (try rw [i_main_v431])
  all_goals (try rw [i_main_v432])
  all_goals (try rw [i_main_call64_v0])
  all_goals (try rw [i_main_call64_v1])
  all_goals (try rfl)

/-- Operations 848 to 859 of the line. -/
abbrev pc8_14 : List (HloOp τ sig (Elt F)) :=
  [ TRef.binary (TRef.of (T := ⟨S8x128x1, .i32⟩) main_call64_v3) (TRef.of (T := ⟨S8x128x127, .i32⟩) main_call64_v4) (TRef.of (T := ⟨S8x128x128, .i32⟩) main_v433) (fun a b => concatenate S8x128x128 2 [⟨S8x128x1, a⟩, ⟨S8x128x127, b⟩] concatenates_S8x128x1_S8x128x127_S8x128x128_d2),
    binary main_arg0 main_v431 main_v434 (mulf : (⟨S8x256x128x128, .f32⟩ : BufTy).Contents (Elt F) → (⟨S8x256x128x128, .f32⟩ : BufTy).Contents (Elt F) → (⟨S8x256x128x128, .f32⟩ : BufTy).Contents (Elt F)),
    nullary main_cst_93 (constant S_ .f32 0x00000000#32),
    binary main_v434 main_cst_93 main_v435 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v432 main_v436 (mulf : (⟨S8x128x128, .f32⟩ : BufTy).Contents (Elt F) → (⟨S8x128x128, .f32⟩ : BufTy).Contents (Elt F) → (⟨S8x128x128, .f32⟩ : BufTy).Contents (Elt F)),
    binary main_v435 main_v436 main_v437 (Host.divf : (⟨S8x128x128, .f32⟩ : BufTy).Contents (Elt F) → (⟨S8x128x128, .f32⟩ : BufTy).Contents (Elt F) → (⟨S8x128x128, .f32⟩ : BufTy).Contents (Elt F)),
    binary main_arg1 main_v433 main_v438 (cmpi .eq : (⟨S8x128x128, .i32⟩ : BufTy).Contents (Elt F) → (⟨S8x128x128, .i32⟩ : BufTy).Contents (Elt F) → (⟨S8x128x128, .i1⟩ : BufTy).Contents (Elt F)),
    nullary main_c_94 (constantI S_ 32 2#32),
    unary main_c_94 main_v439 (broadcastInDim S8x128x128 ![] bcast_S_S8x128x128 : (⟨S_, .i32⟩ : BufTy).Contents (Elt F) → (⟨S8x128x128, .i32⟩ : BufTy).Contents (Elt F)),
    binary main_arg1 main_v439 main_v440 (cmpi .slt : (⟨S8x128x128, .i32⟩ : BufTy).Contents (Elt F) → (⟨S8x128x128, .i32⟩ : BufTy).Contents (Elt F) → (⟨S8x128x128, .i1⟩ : BufTy).Contents (Elt F)),
    binary main_v438 main_v440 main_v441 (andi : (⟨S8x128x128, .i1⟩ : BufTy).Contents (Elt F) → (⟨S8x128x128, .i1⟩ : BufTy).Contents (Elt F) → (⟨S8x128x128, .i1⟩ : BufTy).Contents (Elt F)),
    unary main_v441 main_v442 (uitofp .f32 : (⟨S8x128x128, .i1⟩ : BufTy).Contents (Elt F) → (⟨S8x128x128, .f32⟩ : BufTy).Contents (Elt F)) ]

set_option maxRecDepth 8192 in
set_option maxHeartbeats 100000000 in
theorem piece8_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_v431 : U (Proc.devRef .tc main_v431) = val_main_v431 (F := F) x0)
    (i_main_v432 : U (Proc.devRef .tc main_v432) = val_main_v432 (F := F) x0)
    (i_main_call64_v3 : U (Proc.devRef .tc main_call64_v3) = val_main_call64_v3 (F := F) x1)
    (i_main_call64_v4 : U (Proc.devRef .tc main_call64_v4) = val_main_call64_v4 (F := F) x1) :
    (after (pc8_14 (F := F)) U (Proc.devRef .tc main_arg0) = x0
      ∧ after (pc8_14 (F := F)) U (Proc.devRef .tc main_arg1) = x1
      ∧ after (pc8_14 (F := F)) U (Proc.devRef .tc main_arg2) = x2)
    ∧ after (pc8_14 (F := F)) U (Proc.devRef .tc main_v20) = val_main_v20 (F := F) x1 x2
    ∧ after (pc8_14 (F := F)) U (Proc.devRef .tc main_v23) = val_main_v23 (F := F) x1 x2
    ∧ after (pc8_14 (F := F)) U (Proc.devRef .tc main_v28) = val_main_v28 (F := F) x0
    ∧ after (pc8_14 (F := F)) U (Proc.devRef .tc main_v29) = val_main_v29 (F := F) x1 x2
    ∧ after (pc8_14 (F := F)) U (Proc.devRef .tc main_v430) = val_main_v430 (F := F) x0 x1 x2
    ∧ after (pc8_14 (F := F)) U (Proc.devRef .tc main_v437) = val_main_v437 (F := F) x0
    ∧ after (pc8_14 (F := F)) U (Proc.devRef .tc main_v442) = val_main_v442 (F := F) x1 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v430, i_main_v431, i_main_v432, i_main_call64_v3, i_main_call64_v4])
  all_goals (try rw [i_main_v20])
  all_goals (try rw [i_main_v23])
  all_goals (try rw [i_main_v28])
  all_goals (try rw [i_main_v29])
  all_goals (try rw [i_main_v430])
  all_goals (try rw [i_main_v431])
  all_goals (try rw [i_main_v432])
  all_goals (try rw [i_main_call64_v3])
  all_goals (try rw [i_main_call64_v4])
  all_goals (try rfl)

set_option maxRecDepth 8192 in
/-- The part's operations are its pieces laid end to end. -/
theorem ops8_split : (ops8 (F := F)) = pc8_0 ++ (pc8_1 ++ (pc8_2 ++ (pc8_3 ++ (pc8_4 ++ (pc8_5 ++ (pc8_6 ++ (pc8_7 ++ (pc8_8 ++ (pc8_9 ++ (pc8_10 ++ (pc8_11 ++ (pc8_12 ++ (pc8_13 ++ (pc8_14)))))))))))))) := rfl

theorem chunk8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v390 : U (Proc.devRef .tc main_v390) = val_main_v390 (F := F) x0 x1 x2)
    (i_main_v391 : U (Proc.devRef .tc main_v391) = val_main_v391 (F := F) x0)
    (i_main_v392 : U (Proc.devRef .tc main_v392) = val_main_v392 (F := F) x0) :
    (after (ops8 (F := F)) U (Proc.devRef .tc main_arg0) = x0
      ∧ after (ops8 (F := F)) U (Proc.devRef .tc main_arg1) = x1
      ∧ after (ops8 (F := F)) U (Proc.devRef .tc main_arg2) = x2)
    ∧ after (ops8 (F := F)) U (Proc.devRef .tc main_v20) = val_main_v20 (F := F) x1 x2
    ∧ after (ops8 (F := F)) U (Proc.devRef .tc main_v23) = val_main_v23 (F := F) x1 x2
    ∧ after (ops8 (F := F)) U (Proc.devRef .tc main_v28) = val_main_v28 (F := F) x0
    ∧ after (ops8 (F := F)) U (Proc.devRef .tc main_v29) = val_main_v29 (F := F) x1 x2
    ∧ after (ops8 (F := F)) U (Proc.devRef .tc main_v430) = val_main_v430 (F := F) x0 x1 x2
    ∧ after (ops8 (F := F)) U (Proc.devRef .tc main_v437) = val_main_v437 (F := F) x0
    ∧ after (ops8 (F := F)) U (Proc.devRef .tc main_v442) = val_main_v442 (F := F) x1 := by
  rw [ops8_split]
  simp only [after_append]
  have p0 := piece8_0 (F := F) U x0 x1 x2 h0 h1 h2 i_main_v20 i_main_v23 i_main_v28 i_main_v29 i_main_v390 i_main_v391 i_main_v392
  have p1 := piece8_1 (F := F) (after (pc8_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2.1 p0.2.2.2.2.2.2.2.2.1 p0.2.2.2.2.2.2.2.2.2
  have p2 := piece8_2 (F := F) (after (pc8_1 (F := F)) (after (pc8_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2.1 p1.2.2.2.2.2.2.2.2.1 p1.2.2.2.2.2.2.2.2.2
  have p3 := piece8_3 (F := F) (after (pc8_2 (F := F)) (after (pc8_1 (F := F)) (after (pc8_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2
  have p4 := piece8_4 (F := F) (after (pc8_3 (F := F)) (after (pc8_2 (F := F)) (after (pc8_1 (F := F)) (after (pc8_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2
  have p5 := piece8_5 (F := F) (after (pc8_4 (F := F)) (after (pc8_3 (F := F)) (after (pc8_2 (F := F)) (after (pc8_1 (F := F)) (after (pc8_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2
  have p6 := piece8_6 (F := F) (after (pc8_5 (F := F)) (after (pc8_4 (F := F)) (after (pc8_3 (F := F)) (after (pc8_2 (F := F)) (after (pc8_1 (F := F)) (after (pc8_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2
  have p7 := piece8_7 (F := F) (after (pc8_6 (F := F)) (after (pc8_5 (F := F)) (after (pc8_4 (F := F)) (after (pc8_3 (F := F)) (after (pc8_2 (F := F)) (after (pc8_1 (F := F)) (after (pc8_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2.1 p6.2.2.2.2.2.2.2.2.1 p6.2.2.2.2.2.2.2.2.2
  have p8 := piece8_8 (F := F) (after (pc8_7 (F := F)) (after (pc8_6 (F := F)) (after (pc8_5 (F := F)) (after (pc8_4 (F := F)) (after (pc8_3 (F := F)) (after (pc8_2 (F := F)) (after (pc8_1 (F := F)) (after (pc8_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2.1 p7.2.2.2.2.2.2.2.2.1 p7.2.2.2.2.2.2.2.2.2
  have p9 := piece8_9 (F := F) (after (pc8_8 (F := F)) (after (pc8_7 (F := F)) (after (pc8_6 (F := F)) (after (pc8_5 (F := F)) (after (pc8_4 (F := F)) (after (pc8_3 (F := F)) (after (pc8_2 (F := F)) (after (pc8_1 (F := F)) (after (pc8_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2
  have p10 := piece8_10 (F := F) (after (pc8_9 (F := F)) (after (pc8_8 (F := F)) (after (pc8_7 (F := F)) (after (pc8_6 (F := F)) (after (pc8_5 (F := F)) (after (pc8_4 (F := F)) (after (pc8_3 (F := F)) (after (pc8_2 (F := F)) (after (pc8_1 (F := F)) (after (pc8_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2
  have p11 := piece8_11 (F := F) (after (pc8_10 (F := F)) (after (pc8_9 (F := F)) (after (pc8_8 (F := F)) (after (pc8_7 (F := F)) (after (pc8_6 (F := F)) (after (pc8_5 (F := F)) (after (pc8_4 (F := F)) (after (pc8_3 (F := F)) (after (pc8_2 (F := F)) (after (pc8_1 (F := F)) (after (pc8_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2
  have p12 := piece8_12 (F := F) (after (pc8_11 (F := F)) (after (pc8_10 (F := F)) (after (pc8_9 (F := F)) (after (pc8_8 (F := F)) (after (pc8_7 (F := F)) (after (pc8_6 (F := F)) (after (pc8_5 (F := F)) (after (pc8_4 (F := F)) (after (pc8_3 (F := F)) (after (pc8_2 (F := F)) (after (pc8_1 (F := F)) (after (pc8_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2
  have p13 := piece8_13 (F := F) (after (pc8_12 (F := F)) (after (pc8_11 (F := F)) (after (pc8_10 (F := F)) (after (pc8_9 (F := F)) (after (pc8_8 (F := F)) (after (pc8_7 (F := F)) (after (pc8_6 (F := F)) (after (pc8_5 (F := F)) (after (pc8_4 (F := F)) (after (pc8_3 (F := F)) (after (pc8_2 (F := F)) (after (pc8_1 (F := F)) (after (pc8_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2.1 p12.2.2.2.2.2.2.2.2.1 p12.2.2.2.2.2.2.2.2.2
  have p14 := piece8_14 (F := F) (after (pc8_13 (F := F)) (after (pc8_12 (F := F)) (after (pc8_11 (F := F)) (after (pc8_10 (F := F)) (after (pc8_9 (F := F)) (after (pc8_8 (F := F)) (after (pc8_7 (F := F)) (after (pc8_6 (F := F)) (after (pc8_5 (F := F)) (after (pc8_4 (F := F)) (after (pc8_3 (F := F)) (after (pc8_2 (F := F)) (after (pc8_1 (F := F)) (after (pc8_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2.1 p13.2.2.2.2.2.2.2.2.1 p13.2.2.2.2.2.2.2.2.2
  exact p14

end Cert.Bridge.RefRun

end
-- ==== Proof.RefRunPart9.lean ====
/-
  Part 9 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 860 to 871 of the line. -/
abbrev pc9_0 : List (HloOp τ sig (Elt F)) :=
  [ binary main_v437 main_v442 main_v443 (subf : (⟨S8x128x128, .f32⟩ : BufTy).Contents (Elt F) → (⟨S8x128x128, .f32⟩ : BufTy).Contents (Elt F) → (⟨S8x128x128, .f32⟩ : BufTy).Contents (Elt F)),
    binary main_v443 main_v443 main_v444 (mulf : (⟨S8x128x128, .f32⟩ : BufTy).Contents (Elt F) → (⟨S8x128x128, .f32⟩ : BufTy).Contents (Elt F) → (⟨S8x128x128, .f32⟩ : BufTy).Contents (Elt F)),
    binary main_v444 main_v29 main_v445 (mulf : (⟨S8x128x128, .f32⟩ : BufTy).Contents (Elt F) → (⟨S8x128x128, .f32⟩ : BufTy).Contents (Elt F) → (⟨S8x128x128, .f32⟩ : BufTy).Contents (Elt F)),
    nullary main_cst_95 (constant S_ .f32 0x00000000#32),
    binary main_v445 main_cst_95 main_v446 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_96 (constant S_ .f32 0x3F800000#32),
    unary main_cst_96 main_v447 (broadcastInDim S8 ![] bcast_S_S8 : (⟨S_, .f32⟩ : BufTy).Contents (Elt F) → (⟨S8, .f32⟩ : BufTy).Contents (Elt F)),
    binary main_v23 main_v447 main_v448 (maximumf : (⟨S8, .f32⟩ : BufTy).Contents (Elt F) → (⟨S8, .f32⟩ : BufTy).Contents (Elt F) → (⟨S8, .f32⟩ : BufTy).Contents (Elt F)),
    binary main_v446 main_v448 main_v449 (Host.divf : (⟨S8, .f32⟩ : BufTy).Contents (Elt F) → (⟨S8, .f32⟩ : BufTy).Contents (Elt F) → (⟨S8, .f32⟩ : BufTy).Contents (Elt F)),
    binary main_v430 main_v449 main_v450 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call65_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call65_v1) (extractStridedSlice S8x256x2x128 ![0, 0, 0, 0] · slices_S8x256x128x128_S8x256x2x128_0_0_0_0) ]

set_option maxRecDepth 8192 in
set_option maxHeartbeats 100000000 in
theorem piece9_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_v437 : U (Proc.devRef .tc main_v437) = val_main_v437 (F := F) x0)
    (i_main_v442 : U (Proc.devRef .tc main_v442) = val_main_v442 (F := F) x1) :
    (after (pc9_0 (F := F)) U (Proc.devRef .tc main_arg0) = x0
      ∧ after (pc9_0 (F := F)) U (Proc.devRef .tc main_arg1) = x1
      ∧ after (pc9_0 (F := F)) U (Proc.devRef .tc main_arg2) = x2)
    ∧ after (pc9_0 (F := F)) U (Proc.devRef .tc main_v20) = val_main_v20 (F := F) x1 x2
    ∧ after (pc9_0 (F := F)) U (Proc.devRef .tc main_v23) = val_main_v23 (F := F) x1 x2
    ∧ after (pc9_0 (F := F)) U (Proc.devRef .tc main_v28) = val_main_v28 (F := F) x0
    ∧ after (pc9_0 (F := F)) U (Proc.devRef .tc main_v29) = val_main_v29 (F := F) x1 x2
    ∧ after (pc9_0 (F := F)) U (Proc.devRef .tc main_v450) = val_main_v450 (F := F) x0 x1 x2
    ∧ after (pc9_0 (F := F)) U (Proc.devRef .tc main_call65_v0) = val_main_call65_v0 (F := F) x0
    ∧ after (pc9_0 (F := F)) U (Proc.devRef .tc main_call65_v1) = val_main_call65_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v430, i_main_v437, i_main_v442])
  all_goals (try rw [i_main_v20])
  all_goals (try rw [i_main_v23])
  all_goals (try rw [i_main_v28])
  all_goals (try rw [i_main_v29])
  all_goals (try rw [i_main_v430])
  all_goals (try rw [i_main_v437])
  all_goals (try rw [i_main_v442])
  all_goals (try rfl)

/-- Operations 872 to 874 of the line. -/
abbrev pc9_1 : List (HloOp τ sig (Elt F)) :=
  [ TRef.binary (TRef.of (T := ⟨S8x256x126x128, .f32⟩) main_call65_v0) (TRef.of (T := ⟨S8x256x2x128, .f32⟩) main_call65_v1) (TRef.of (T := ⟨S8x256x128x128, .f32⟩) main_call65_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call65_v2) (TRef.of (T := ⟨S8x256x128x128, .f32⟩) main_call65_v3) (extractStridedSlice S8x256x128x128 ![0, 0, 0, 0] · slices_S8x256x128x128_S8x256x128x128_0_0_0_0),
    TRef.unary (TRef.of (T := ⟨S8x256x128x128, .f32⟩) main_call65_v2) (TRef.of (T := ⟨S8x256x128x0, .f32⟩) main_call65_v4) (extractStridedSlice S8x256x128x0 ![0, 0, 0, 0] · slices_S8x256x128x128_S8x256x128x0_0_0_0_0) ]

set_option maxRecDepth 8192 in
set_option maxHeartbeats 100000000 in
theorem piece9_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v450 : U (Proc.devRef .tc main_v450) = val_main_v450 (F := F) x0 x1 x2)
    (i_main_call65_v0 : U (Proc.devRef .tc main_call65_v0) = val_main_call65_v0 (F := F) x0)
    (i_main_call65_v1 : U (Proc.devRef .tc main_call65_v1) = val_main_call65_v1 (F := F) x0) :
    (after (pc9_1 (F := F)) U (Proc.devRef .tc main_arg0) = x0
      ∧ after (pc9_1 (F := F)) U (Proc.devRef .tc main_arg1) = x1
      ∧ after (pc9_1 (F := F)) U (Proc.devRef .tc main_arg2) = x2)
    ∧ after (pc9_1 (F := F)) U (Proc.devRef .tc main_v20) = val_main_v20 (F := F) x1 x2
    ∧ after (pc9_1 (F := F)) U (Proc.devRef .tc main_v23) = val_main_v23 (F := F) x1 x2
    ∧ after (pc9_1 (F := F)) U (Proc.devRef .tc main_v28) = val_main_v28 (F := F) x0
    ∧ after (pc9_1 (F := F)) U (Proc.devRef .tc main_v29) = val_main_v29 (F := F) x1 x2
    ∧ after (pc9_1 (F := F)) U (Proc.devRef .tc main_v450) = val_main_v450 (F := F) x0 x1 x2
    ∧ after (pc9_1 (F := F)) U (Proc.devRef .tc main_call65_v3) = val_main_call65_v3 (F := F) x0
    ∧ after (pc9_1 (F := F)) U (Proc.devRef .tc main_call65_v4) = val_main_call65_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v450, i_main_call65_v0, i_main_call65_v1])
  all_goals (try rw [i_main_v20])
  all_goals (try rw [i_main_v23])
  all_goals (try rw [i_main_v28])
  all_goals (try rw [i_main_v29])
  all_goals (try rw [i_main_v450])
  all_goals (try rw [i_main_call65_v0])
  all_goals (try rw [i_main_call65_v1])
  all_goals (try rfl)

/-- Operations 875 to 877 of the line. -/
abbrev pc9_2 : List (HloOp τ sig (Elt F)) :=
  [ TRef.binary (TRef.of (T := ⟨S8x256x128x128, .f32⟩) main_call65_v3) (TRef.of (T := ⟨S8x256x128x0, .f32⟩) main_call65_v4) (TRef.of (T := ⟨S8x256x128x128, .f32⟩) main_v451) (fun a b => concatenate S8x256x128x128 3 [⟨S8x256x128x128, a⟩, ⟨S8x256x128x0, b⟩] concatenates_S8x256x128x128_S8x256x128x0_S8x256x128x128_d3),
    TRef.unary (TRef.of (T := ⟨S8x128x128, .f32⟩) main_v28) (TRef.of (T := ⟨S8x126x128, .f32⟩) main_call66_v0) (extractStridedSlice S8x126x128 ![0, 2, 0] · slices_S8x128x128_S8x126x128_0_2_0),
    TRef.unary (TRef.of (T := ⟨S8x128x128, .f32⟩) main_v28) (TRef.of (T := ⟨S8x2x128, .f32⟩) main_call66_v1) (extractStridedSlice S8x2x128 ![0, 0, 0] · slices_S8x128x128_S8x2x128_0_0_0) ]

set_option maxRecDepth 8192 in
set_option maxHeartbeats 100000000 in
theorem piece9_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v450 : U (Proc.devRef .tc main_v450) = val_main_v450 (F := F) x0 x1 x2)
    (i_main_call65_v3 : U (Proc.devRef .tc main_call65_v3) = val_main_call65_v3 (F := F) x0)
    (i_main_call65_v4 : U (Proc.devRef .tc main_call65_v4) = val_main_call65_v4 (F := F) x0) :
    (after (pc9_2 (F := F)) U (Proc.devRef .tc main_arg0) = x0
      ∧ after (pc9_2 (F := F)) U (Proc.devRef .tc main_arg1) = x1
      ∧ after (pc9_2 (F := F)) U (Proc.devRef .tc main_arg2) = x2)
    ∧ after (pc9_2 (F := F)) U (Proc.devRef .tc main_v20) = val_main_v20 (F := F) x1 x2
    ∧ after (pc9_2 (F := F)) U (Proc.devRef .tc main_v23) = val_main_v23 (F := F) x1 x2
    ∧ after (pc9_2 (F := F)) U (Proc.devRef .tc main_v28) = val_main_v28 (F := F) x0
    ∧ after (pc9_2 (F := F)) U (Proc.devRef .tc main_v29) = val_main_v29 (F := F) x1 x2
    ∧ after (pc9_2 (F := F)) U (Proc.devRef .tc main_v450) = val_main_v450 (F := F) x0 x1 x2
    ∧ after (pc9_2 (F := F)) U (Proc.devRef .tc main_v451) = val_main_v451 (F := F) x0
    ∧ after (pc9_2 (F := F)) U (Proc.devRef .tc main_call66_v0) = val_main_call66_v0 (F := F) x0
    ∧ after (pc9_2 (F := F)) U (Proc.devRef .tc main_call66_v1) = val_main_call66_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v450, i_main_call65_v3, i_main_call65_v4])
  all_goals (try rw [i_main_v20])
  all_goals (try rw [i_main_v23])
  all_goals (try rw [i_main_v28])
  all_goals (try rw [i_main_v29])
  all_goals (try rw [i_main_v450])
  all_goals (try rw [i_main_call65_v3])
  all_goals (try rw [i_main_call65_v4])
  all_goals (try rfl)

/-- Operations 878 to 880 of the line. -/
abbrev pc9_3 : List (HloOp τ sig (Elt F)) :=
  [ TRef.binary (TRef.of (T := ⟨S8x126x128, .f32⟩) main_call66_v0) (TRef.of (T := ⟨S8x2x128, .f32⟩) main_call66_v1) (TRef.of (T := ⟨S8x128x128, .f32⟩) main_call66_v2) (fun a b => concatenate S8x128x128 1 [⟨S8x126x128, a⟩, ⟨S8x2x128, b⟩] concatenates_S8x126x128_S8x2x128_S8x128x128_d1),
    TRef.unary (TRef.of (T := ⟨S8x128x128, .f32⟩) main_call66_v2) (TRef.of (T := ⟨S8x128x128, .f32⟩) main_call66_v3) (extractStridedSlice S8x128x128 ![0, 0, 0] · slices_S8x128x128_S8x128x128_0_0_0),
    TRef.unary (TRef.of (T := ⟨S8x128x128, .f32⟩) main_call66_v2) (TRef.of (T := ⟨S8x128x0, .f32⟩) main_call66_v4) (extractStridedSlice S8x128x0 ![0, 0, 0] · slices_S8x128x128_S8x128x0_0_0_0) ]

set_option maxRecDepth 8192 in
set_option maxHeartbeats 100000000 in
theorem piece9_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v450 : U (Proc.devRef .tc main_v450) = val_main_v450 (F := F) x0 x1 x2)
    (i_main_v451 : U (Proc.devRef .tc main_v451) = val_main_v451 (F := F) x0)
    (i_main_call66_v0 : U (Proc.devRef .tc main_call66_v0) = val_main_call66_v0 (F := F) x0)
    (i_main_call66_v1 : U (Proc.devRef .tc main_call66_v1) = val_main_call66_v1 (F := F) x0) :
    (after (pc9_3 (F := F)) U (Proc.devRef .tc main_arg0) = x0
      ∧ after (pc9_3 (F := F)) U (Proc.devRef .tc main_arg1) = x1
      ∧ after (pc9_3 (F := F)) U (Proc.devRef .tc main_arg2) = x2)
    ∧ after (pc9_3 (F := F)) U (Proc.devRef .tc main_v20) = val_main_v20 (F := F) x1 x2
    ∧ after (pc9_3 (F := F)) U (Proc.devRef .tc main_v23) = val_main_v23 (F := F) x1 x2
    ∧ after (pc9_3 (F := F)) U (Proc.devRef .tc main_v28) = val_main_v28 (F := F) x0
    ∧ after (pc9_3 (F := F)) U (Proc.devRef .tc main_v29) = val_main_v29 (F := F) x1 x2
    ∧ after (pc9_3 (F := F)) U (Proc.devRef .tc main_v450) = val_main_v450 (F := F) x0 x1 x2
    ∧ after (pc9_3 (F := F)) U (Proc.devRef .tc main_v451) = val_main_v451 (F := F) x0
    ∧ after (pc9_3 (F := F)) U (Proc.devRef .tc main_call66_v3) = val_main_call66_v3 (F := F) x0
    ∧ after (pc9_3 (F := F)) U (Proc.devRef .tc main_call66_v4) = val_main_call66_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v450, i_main_v451, i_main_call66_v0, i_main_call66_v1])
  all_goals (try rw [i_main_v20])
  all_goals (try rw [i_main_v23])
  all_goals (try rw [i_main_v28])
  all_goals (try rw [i_main_v29])
  all_goals (try rw [i_main_v450])
  all_goals (try rw [i_main_v451])
  all_goals (try rw [i_main_call66_v0])
  all_goals (try rw [i_main_call66_v1])
  all_goals (try rfl)

/-- Operations 881 to 883 of the line. -/
abbrev pc9_4 : List (HloOp τ sig (Elt F)) :=
  [ TRef.binary (TRef.of (T := ⟨S8x128x128, .f32⟩) main_call66_v3) (TRef.of (T := ⟨S8x128x0, .f32⟩) main_call66_v4) (TRef.of (T := ⟨S8x128x128, .f32⟩) main_v452) (fun a b => concatenate S8x128x128 2 [⟨S8x128x128, a⟩, ⟨S8x128x0, b⟩] concatenates_S8x128x128_S8x128x0_S8x128x128_d2),
    TRef.unary (TRef.of (T := ⟨S8x128x128, .i32⟩) main_arg1) (TRef.of (T := ⟨S8x126x128, .i32⟩) main_call67_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call67_v1) (extractStridedSlice S8x2x128 ![0, 0, 0] · slices_S8x128x128_S8x2x128_0_0_0) ]

set_option maxRecDepth 8192 in
set_option maxHeartbeats 100000000 in
theorem piece9_4 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v450 : U (Proc.devRef .tc main_v450) = val_main_v450 (F := F) x0 x1 x2)
    (i_main_v451 : U (Proc.devRef .tc main_v451) = val_main_v451 (F := F) x0)
    (i_main_call66_v3 : U (Proc.devRef .tc main_call66_v3) = val_main_call66_v3 (F := F) x0)
    (i_main_call66_v4 : U (Proc.devRef .tc main_call66_v4) = val_main_call66_v4 (F := F) x0) :
    (after (pc9_4 (F := F)) U (Proc.devRef .tc main_arg0) = x0
      ∧ after (pc9_4 (F := F)) U (Proc.devRef .tc main_arg1) = x1
      ∧ after (pc9_4 (F := F)) U (Proc.devRef .tc main_arg2) = x2)
    ∧ after (pc9_4 (F := F)) U (Proc.devRef .tc main_v20) = val_main_v20 (F := F) x1 x2
    ∧ after (pc9_4 (F := F)) U (Proc.devRef .tc main_v23) = val_main_v23 (F := F) x1 x2
    ∧ after (pc9_4 (F := F)) U (Proc.devRef .tc main_v28) = val_main_v28 (F := F) x0
    ∧ after (pc9_4 (F := F)) U (Proc.devRef .tc main_v29) = val_main_v29 (F := F) x1 x2
    ∧ after (pc9_4 (F := F)) U (Proc.devRef .tc main_v450) = val_main_v450 (F := F) x0 x1 x2
    ∧ after (pc9_4 (F := F)) U (Proc.devRef .tc main_v451) = val_main_v451 (F := F) x0
    ∧ after (pc9_4 (F := F)) U (Proc.devRef .tc main_v452) = val_main_v452 (F := F) x0
    ∧ after (pc9_4 (F := F)) U (Proc.devRef .tc main_call67_v0) = val_main_call67_v0 (F := F) x1
    ∧ after (pc9_4 (F := F)) U (Proc.devRef .tc main_call67_v1) = val_main_call67_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v450, i_main_v451, i_main_call66_v3, i_main_call66_v4])
  all_goals (try rw [i_main_v20])
  all_goals (try rw [i_main_v23])
  all_goals (try rw [i_main_v28])
  all_goals (try rw [i_main_v29])
  all_goals (try rw [i_main_v450])
  all_goals (try rw [i_main_v451])
  all_goals (try rw [i_main_call66_v3])
  all_goals (try rw [i_main_call66_v4])
  all_goals (try rfl)

/-- Operations 884 to 886 of the line. -/
abbrev pc9_5 : List (HloOp τ sig (Elt F)) :=
  [ TRef.binary (TRef.of (T := ⟨S8x126x128, .i32⟩) main_call67_v0) (TRef.of (T := ⟨S8x2x128, .i32⟩) main_call67_v1) (TRef.of (T := ⟨S8x128x128, .i32⟩) main_call67_v2) (fun a b => concatenate S8x128x128 1 [⟨S8x126x128, a⟩, ⟨S8x2x128, b⟩] concatenates_S8x126x128_S8x2x128_S8x128x128_d1),
    TRef.unary (TRef.of (T := ⟨S8x128x128, .i32⟩) main_call67_v2) (TRef.of (T := ⟨S8x128x128, .i32⟩) main_call67_v3) (extractStridedSlice S8x128x128 ![0, 0, 0] · slices_S8x128x128_S8x128x128_0_0_0),
    TRef.unary (TRef.of (T := ⟨S8x128x128, .i32⟩) main_call67_v2) (TRef.of (T := ⟨S8x128x0, .i32⟩) main_call67_v4) (extractStridedSlice S8x128x0 ![0, 0, 0] · slices_S8x128x128_S8x128x0_0_0_0) ]

set_option maxRecDepth 8192 in
set_option maxHeartbeats 100000000 in
theorem piece9_5 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v450 : U (Proc.devRef .tc main_v450) = val_main_v450 (F := F) x0 x1 x2)
    (i_main_v451 : U (Proc.devRef .tc main_v451) = val_main_v451 (F := F) x0)
    (i_main_v452 : U (Proc.devRef .tc main_v452) = val_main_v452 (F := F) x0)
    (i_main_call67_v0 : U (Proc.devRef .tc main_call67_v0) = val_main_call67_v0 (F := F) x1)
    (i_main_call67_v1 : U (Proc.devRef .tc main_call67_v1) = val_main_call67_v1 (F := F) x1) :
    (after (pc9_5 (F := F)) U (Proc.devRef .tc main_arg0) = x0
      ∧ after (pc9_5 (F := F)) U (Proc.devRef .tc main_arg1) = x1
      ∧ after (pc9_5 (F := F)) U (Proc.devRef .tc main_arg2) = x2)
    ∧ after (pc9_5 (F := F)) U (Proc.devRef .tc main_v20) = val_main_v20 (F := F) x1 x2
    ∧ after (pc9_5 (F := F)) U (Proc.devRef .tc main_v23) = val_main_v23 (F := F) x1 x2
    ∧ after (pc9_5 (F := F)) U (Proc.devRef .tc main_v28) = val_main_v28 (F := F) x0
    ∧ after (pc9_5 (F := F)) U (Proc.devRef .tc main_v29) = val_main_v29 (F := F) x1 x2
    ∧ after (pc9_5 (F := F)) U (Proc.devRef .tc main_v450) = val_main_v450 (F := F) x0 x1 x2
    ∧ after (pc9_5 (F := F)) U (Proc.devRef .tc main_v451) = val_main_v451 (F := F) x0
    ∧ after (pc9_5 (F := F)) U (Proc.devRef .tc main_v452) = val_main_v452 (F := F) x0
    ∧ after (pc9_5 (F := F)) U (Proc.devRef .tc main_call67_v3) = val_main_call67_v3 (F := F) x1
    ∧ after (pc9_5 (F := F)) U (Proc.devRef .tc main_call67_v4) = val_main_call67_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v450, i_main_v451, i_main_v452, i_main_call67_v0, i_main_call67_v1])
  all_goals (try rw [i_main_v20])
  all_goals (try rw [i_main_v23])
  all_goals (try rw [i_main_v28])
  all_goals (try rw [i_main_v29])
  all_goals (try rw [i_main_v450])
  all_goals (try rw [i_main_v451])
  all_goals (try rw [i_main_v452])
  all_goals (try rw [i_main_call67_v0])
  all_goals (try rw [i_main_call67_v1])
  all_goals (try rfl)

/-- Operations 887 to 910 of the line. -/
abbrev pc9_6 : List (HloOp τ sig (Elt F)) :=
  [ TRef.binary (TRef.of (T := ⟨S8x128x128, .i32⟩) main_call67_v3) (TRef.of (T := ⟨S8x128x0, .i32⟩) main_call67_v4) (TRef.of (T := ⟨S8x128x128, .i32⟩) main_v453) (fun a b => concatenate S8x128x128 2 [⟨S8x128x128, a⟩, ⟨S8x128x0, b⟩] concatenates_S8x128x128_S8x128x0_S8x128x128_d2),
    binary main_arg0 main_v451 main_v454 (mulf : (⟨S8x256x128x128, .f32⟩ : BufTy).Contents (Elt F) → (⟨S8x256x128x128, .f32⟩ : BufTy).Contents (Elt F) → (⟨S8x256x128x128, .f32⟩ : BufTy).Contents (Elt F)),
    nullary main_cst_97 (constant S_ .f32 0x00000000#32),
    binary main_v454 main_cst_97 main_v455 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v452 main_v456 (mulf : (⟨S8x128x128, .f32⟩ : BufTy).Contents (Elt F) → (⟨S8x128x128, .f32⟩ : BufTy).Contents (Elt F) → (⟨S8x128x128, .f32⟩ : BufTy).Contents (Elt F)),
    binary main_v455 main_v456 main_v457 (Host.divf : (⟨S8x128x128, .f32⟩ : BufTy).Contents (Elt F) → (⟨S8x128x128, .f32⟩ : BufTy).Contents (Elt F) → (⟨S8x128x128, .f32⟩ : BufTy).Contents (Elt F)),
    binary main_arg1 main_v453 main_v458 (cmpi .eq : (⟨S8x128x128, .i32⟩ : BufTy).Contents (Elt F) → (⟨S8x128x128, .i32⟩ : BufTy).Contents (Elt F) → (⟨S8x128x128, .i1⟩ : BufTy).Contents (Elt F)),
    nullary main_c_98 (constantI S_ 32 2#32),
    unary main_c_98 main_v459 (broadcastInDim S8x128x128 ![] bcast_S_S8x128x128 : (⟨S_, .i32⟩ : BufTy).Contents (Elt F) → (⟨S8x128x128, .i32⟩ : BufTy).Contents (Elt F)),
    binary main_arg1 main_v459 main_v460 (cmpi .slt : (⟨S8x128x128, .i32⟩ : BufTy).Contents (Elt F) → (⟨S8x128x128, .i32⟩ : BufTy).Contents (Elt F) → (⟨S8x128x128, .i1⟩ : BufTy).Contents (Elt F)),
    binary main_v458 main_v460 main_v461 (andi : (⟨S8x128x128, .i1⟩ : BufTy).Contents (Elt F) → (⟨S8x128x128, .i1⟩ : BufTy).Contents (Elt F) → (⟨S8x128x128, .i1⟩ : BufTy).Contents (Elt F)),
    unary main_v461 main_v462 (uitofp .f32 : (⟨S8x128x128, .i1⟩ : BufTy).Contents (Elt F) → (⟨S8x128x128, .f32⟩ : BufTy).Contents (Elt F)),
    binary main_v457 main_v462 main_v463 (subf : (⟨S8x128x128, .f32⟩ : BufTy).Contents (Elt F) → (⟨S8x128x128, .f32⟩ : BufTy).Contents (Elt F) → (⟨S8x128x128, .f32⟩ : BufTy).Contents (Elt F)),
    binary main_v463 main_v463 main_v464 (mulf : (⟨S8x128x128, .f32⟩ : BufTy).Contents (Elt F) → (⟨S8x128x128, .f32⟩ : BufTy).Contents (Elt F) → (⟨S8x128x128, .f32⟩ : BufTy).Contents (Elt F)),
    binary main_v464 main_v29 main_v465 (mulf : (⟨S8x128x128, .f32⟩ : BufTy).Contents (Elt F) → (⟨S8x128x128, .f32⟩ : BufTy).Contents (Elt F) → (⟨S8x128x128, .f32⟩ : BufTy).Contents (Elt F)),
    nullary main_cst_99 (constant S_ .f32 0x00000000#32),
    binary main_v465 main_cst_99 main_v466 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_100 (constant S_ .f32 0x3F800000#32),
    unary main_cst_100 main_v467 (broadcastInDim S8 ![] bcast_S_S8 : (⟨S_, .f32⟩ : BufTy).Contents (Elt F) → (⟨S8, .f32⟩ : BufTy).Contents (Elt F)),
    binary main_v23 main_v467 main_v468 (maximumf : (⟨S8, .f32⟩ : BufTy).Contents (Elt F) → (⟨S8, .f32⟩ : BufTy).Contents (Elt F) → (⟨S8, .f32⟩ : BufTy).Contents (Elt F)),
    binary main_v466 main_v468 main_v469 (Host.divf : (⟨S8, .f32⟩ : BufTy).Contents (Elt F) → (⟨S8, .f32⟩ : BufTy).Contents (Elt F) → (⟨S8, .f32⟩ : BufTy).Contents (Elt F)),
    binary main_v450 main_v469 main_v470 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call68_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call68_v1) (extractStridedSlice S8x256x2x128 ![0, 0, 0, 0] · slices_S8x256x128x128_S8x256x2x128_0_0_0_0) ]

set_option maxRecDepth 8192 in
set_option maxHeartbeats 100000000 in
theorem piece9_6 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v450 : U (Proc.devRef .tc main_v450) = val_main_v450 (F := F) x0 x1 x2)
    (i_main_v451 : U (Proc.devRef .tc main_v451) = val_main_v451 (F := F) x0)
    (i_main_v452 : U (Proc.devRef .tc main_v452) = val_main_v452 (F := F) x0)
    (i_main_call67_v3 : U (Proc.devRef .tc main_call67_v3) = val_main_call67_v3 (F := F) x1)
    (i_main_call67_v4 : U (Proc.devRef .tc main_call67_v4) = val_main_call67_v4 (F := F) x1) :
    (after (pc9_6 (F := F)) U (Proc.devRef .tc main_arg0) = x0
      ∧ after (pc9_6 (F := F)) U (Proc.devRef .tc main_arg1) = x1
      ∧ after (pc9_6 (F := F)) U (Proc.devRef .tc main_arg2) = x2)
    ∧ after (pc9_6 (F := F)) U (Proc.devRef .tc main_v20) = val_main_v20 (F := F) x1 x2
    ∧ after (pc9_6 (F := F)) U (Proc.devRef .tc main_v23) = val_main_v23 (F := F) x1 x2
    ∧ after (pc9_6 (F := F)) U (Proc.devRef .tc main_v28) = val_main_v28 (F := F) x0
    ∧ after (pc9_6 (F := F)) U (Proc.devRef .tc main_v29) = val_main_v29 (F := F) x1 x2
    ∧ after (pc9_6 (F := F)) U (Proc.devRef .tc main_v470) = val_main_v470 (F := F) x0 x1 x2
    ∧ after (pc9_6 (F := F)) U (Proc.devRef .tc main_call68_v0) = val_main_call68_v0 (F := F) x0
    ∧ after (pc9_6 (F := F)) U (Proc.devRef .tc main_call68_v1) = val_main_call68_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v450, i_main_v451, i_main_v452, i_main_call67_v3, i_main_call67_v4])
  all_goals (try rw [i_main_v20])
  all_goals (try rw [i_main_v23])
  all_goals (try rw [i_main_v28])
  all_goals (try rw [i_main_v29])
  all_goals (try rw [i_main_v450])
  all_goals (try rw [i_main_v451])
  all_goals (try rw [i_main_v452])
  all_goals (try rw [i_main_call67_v3])
  all_goals (try rw [i_main_call67_v4])
  all_goals (try rfl)

/-- Operations 911 to 913 of the line. -/
abbrev pc9_7 : List (HloOp τ sig (Elt F)) :=
  [ TRef.binary (TRef.of (T := ⟨S8x256x126x128, .f32⟩) main_call68_v0) (TRef.of (T := ⟨S8x256x2x128, .f32⟩) main_call68_v1) (TRef.of (T := ⟨S8x256x128x128, .f32⟩) main_call68_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call68_v2) (TRef.of (T := ⟨S8x256x128x127, .f32⟩) main_call68_v3) (extractStridedSlice S8x256x128x127 ![0, 0, 0, 1] · slices_S8x256x128x128_S8x256x128x127_0_0_0_1),
    TRef.unary (TRef.of (T := ⟨S8x256x128x128, .f32⟩) main_call68_v2) (TRef.of (T := ⟨S8x256x128x1, .f32⟩) main_call68_v4) (extractStridedSlice S8x256x128x1 ![0, 0, 0, 0] · slices_S8x256x128x128_S8x256x128x1_0_0_0_0) ]

set_option maxRecDepth 8192 in
set_option maxHeartbeats 100000000 in
theorem piece9_7 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v470 : U (Proc.devRef .tc main_v470) = val_main_v470 (F := F) x0 x1 x2)
    (i_main_call68_v0 : U (Proc.devRef .tc main_call68_v0) = val_main_call68_v0 (F := F) x0)
    (i_main_call68_v1 : U (Proc.devRef .tc main_call68_v1) = val_main_call68_v1 (F := F) x0) :
    (after (pc9_7 (F := F)) U (Proc.devRef .tc main_arg0) = x0
      ∧ after (pc9_7 (F := F)) U (Proc.devRef .tc main_arg1) = x1
      ∧ after (pc9_7 (F := F)) U (Proc.devRef .tc main_arg2) = x2)
    ∧ after (pc9_7 (F := F)) U (Proc.devRef .tc main_v20) = val_main_v20 (F := F) x1 x2
    ∧ after (pc9_7 (F := F)) U (Proc.devRef .tc main_v23) = val_main_v23 (F := F) x1 x2
    ∧ after (pc9_7 (F := F)) U (Proc.devRef .tc main_v28) = val_main_v28 (F := F) x0
    ∧ after (pc9_7 (F := F)) U (Proc.devRef .tc main_v29) = val_main_v29 (F := F) x1 x2
    ∧ after (pc9_7 (F := F)) U (Proc.devRef .tc main_v470) = val_main_v470 (F := F) x0 x1 x2
    ∧ after (pc9_7 (F := F)) U (Proc.devRef .tc main_call68_v3) = val_main_call68_v3 (F := F) x0
    ∧ after (pc9_7 (F := F)) U (Proc.devRef .tc main_call68_v4) = val_main_call68_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v470, i_main_call68_v0, i_main_call68_v1])
  all_goals (try rw [i_main_v20])
  all_goals (try rw [i_main_v23])
  all_goals (try rw [i_main_v28])
  all_goals (try rw [i_main_v29])
  all_goals (try rw [i_main_v470])
  all_goals (try rw [i_main_call68_v0])
  all_goals (try rw [i_main_call68_v1])
  all_goals (try rfl)

/-- Operations 914 to 916 of the line. -/
abbrev pc9_8 : List (HloOp τ sig (Elt F)) :=
  [ TRef.binary (TRef.of (T := ⟨S8x256x128x127, .f32⟩) main_call68_v3) (TRef.of (T := ⟨S8x256x128x1, .f32⟩) main_call68_v4) (TRef.of (T := ⟨S8x256x128x128, .f32⟩) main_v471) (fun a b => concatenate S8x256x128x128 3 [⟨S8x256x128x127, a⟩, ⟨S8x256x128x1, b⟩] concatenates_S8x256x128x127_S8x256x128x1_S8x256x128x128_d3),
    TRef.unary (TRef.of (T := ⟨S8x128x128, .f32⟩) main_v28) (TRef.of (T := ⟨S8x126x128, .f32⟩) main_call69_v0) (extractStridedSlice S8x126x128 ![0, 2, 0] · slices_S8x128x128_S8x126x128_0_2_0),
    TRef.unary (TRef.of (T := ⟨S8x128x128, .f32⟩) main_v28) (TRef.of (T := ⟨S8x2x128, .f32⟩) main_call69_v1) (extractStridedSlice S8x2x128 ![0, 0, 0] · slices_S8x128x128_S8x2x128_0_0_0) ]

set_option maxRecDepth 8192 in
set_option maxHeartbeats 100000000 in
theorem piece9_8 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v470 : U (Proc.devRef .tc main_v470) = val_main_v470 (F := F) x0 x1 x2)
    (i_main_call68_v3 : U (Proc.devRef .tc main_call68_v3) = val_main_call68_v3 (F := F) x0)
    (i_main_call68_v4 : U (Proc.devRef .tc main_call68_v4) = val_main_call68_v4 (F := F) x0) :
    (after (pc9_8 (F := F)) U (Proc.devRef .tc main_arg0) = x0
      ∧ after (pc9_8 (F := F)) U (Proc.devRef .tc main_arg1) = x1
      ∧ after (pc9_8 (F := F)) U (Proc.devRef .tc main_arg2) = x2)
    ∧ after (pc9_8 (F := F)) U (Proc.devRef .tc main_v20) = val_main_v20 (F := F) x1 x2
    ∧ after (pc9_8 (F := F)) U (Proc.devRef .tc main_v23) = val_main_v23 (F := F) x1 x2
    ∧ after (pc9_8 (F := F)) U (Proc.devRef .tc main_v28) = val_main_v28 (F := F) x0
    ∧ after (pc9_8 (F := F)) U (Proc.devRef .tc main_v29) = val_main_v29 (F := F) x1 x2
    ∧ after (pc9_8 (F := F)) U (Proc.devRef .tc main_v470) = val_main_v470 (F := F) x0 x1 x2
    ∧ after (pc9_8 (F := F)) U (Proc.devRef .tc main_v471) = val_main_v471 (F := F) x0
    ∧ after (pc9_8 (F := F)) U (Proc.devRef .tc main_call69_v0) = val_main_call69_v0 (F := F) x0
    ∧ after (pc9_8 (F := F)) U (Proc.devRef .tc main_call69_v1) = val_main_call69_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v470, i_main_call68_v3, i_main_call68_v4])
  all_goals (try rw [i_main_v20])
  all_goals (try rw [i_main_v23])
  all_goals (try rw [i_main_v28])
  all_goals (try rw [i_main_v29])
  all_goals (try rw [i_main_v470])
  all_goals (try rw [i_main_call68_v3])
  all_goals (try rw [i_main_call68_v4])
  all_goals (try rfl)

/-- Operations 917 to 919 of the line. -/
abbrev pc9_9 : List (HloOp τ sig (Elt F)) :=
  [ TRef.binary (TRef.of (T := ⟨S8x126x128, .f32⟩) main_call69_v0) (TRef.of (T := ⟨S8x2x128, .f32⟩) main_call69_v1) (TRef.of (T := ⟨S8x128x128, .f32⟩) main_call69_v2) (fun a b => concatenate S8x128x128 1 [⟨S8x126x128, a⟩, ⟨S8x2x128, b⟩] concatenates_S8x126x128_S8x2x128_S8x128x128_d1),
    TRef.unary (TRef.of (T := ⟨S8x128x128, .f32⟩) main_call69_v2) (TRef.of (T := ⟨S8x128x127, .f32⟩) main_call69_v3) (extractStridedSlice S8x128x127 ![0, 0, 1] · slices_S8x128x128_S8x128x127_0_0_1),
    TRef.unary (TRef.of (T := ⟨S8x128x128, .f32⟩) main_call69_v2) (TRef.of (T := ⟨S8x128x1, .f32⟩) main_call69_v4) (extractStridedSlice S8x128x1 ![0, 0, 0] · slices_S8x128x128_S8x128x1_0_0_0) ]

set_option maxRecDepth 8192 in
set_option maxHeartbeats 100000000 in
theorem piece9_9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v470 : U (Proc.devRef .tc main_v470) = val_main_v470 (F := F) x0 x1 x2)
    (i_main_v471 : U (Proc.devRef .tc main_v471) = val_main_v471 (F := F) x0)
    (i_main_call69_v0 : U (Proc.devRef .tc main_call69_v0) = val_main_call69_v0 (F := F) x0)
    (i_main_call69_v1 : U (Proc.devRef .tc main_call69_v1) = val_main_call69_v1 (F := F) x0) :
    (after (pc9_9 (F := F)) U (Proc.devRef .tc main_arg0) = x0
      ∧ after (pc9_9 (F := F)) U (Proc.devRef .tc main_arg1) = x1
      ∧ after (pc9_9 (F := F)) U (Proc.devRef .tc main_arg2) = x2)
    ∧ after (pc9_9 (F := F)) U (Proc.devRef .tc main_v20) = val_main_v20 (F := F) x1 x2
    ∧ after (pc9_9 (F := F)) U (Proc.devRef .tc main_v23) = val_main_v23 (F := F) x1 x2
    ∧ after (pc9_9 (F := F)) U (Proc.devRef .tc main_v28) = val_main_v28 (F := F) x0
    ∧ after (pc9_9 (F := F)) U (Proc.devRef .tc main_v29) = val_main_v29 (F := F) x1 x2
    ∧ after (pc9_9 (F := F)) U (Proc.devRef .tc main_v470) = val_main_v470 (F := F) x0 x1 x2
    ∧ after (pc9_9 (F := F)) U (Proc.devRef .tc main_v471) = val_main_v471 (F := F) x0
    ∧ after (pc9_9 (F := F)) U (Proc.devRef .tc main_call69_v3) = val_main_call69_v3 (F := F) x0
    ∧ after (pc9_9 (F := F)) U (Proc.devRef .tc main_call69_v4) = val_main_call69_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v470, i_main_v471, i_main_call69_v0, i_main_call69_v1])
  all_goals (try rw [i_main_v20])
  all_goals (try rw [i_main_v23])
  all_goals (try rw [i_main_v28])
  all_goals (try rw [i_main_v29])
  all_goals (try rw [i_main_v470])
  all_goals (try rw [i_main_v471])
  all_goals (try rw [i_main_call69_v0])
  all_goals (try rw [i_main_call69_v1])
  all_goals (try rfl)

/-- Operations 920 to 922 of the line. -/
abbrev pc9_10 : List (HloOp τ sig (Elt F)) :=
  [ TRef.binary (TRef.of (T := ⟨S8x128x127, .f32⟩) main_call69_v3) (TRef.of (T := ⟨S8x128x1, .f32⟩) main_call69_v4) (TRef.of (T := ⟨S8x128x128, .f32⟩) main_v472) (fun a b => concatenate S8x128x128 2 [⟨S8x128x127, a⟩, ⟨S8x128x1, b⟩] concatenates_S8x128x127_S8x128x1_S8x128x128_d2),
    TRef.unary (TRef.of (T := ⟨S8x128x128, .i32⟩) main_arg1) (TRef.of (T := ⟨S8x126x128, .i32⟩) main_call70_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call70_v1) (extractStridedSlice S8x2x128 ![0, 0, 0] · slices_S8x128x128_S8x2x128_0_0_0) ]

set_option maxRecDepth 8192 in
set_option maxHeartbeats 100000000 in
theorem piece9_10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v470 : U (Proc.devRef .tc main_v470) = val_main_v470 (F := F) x0 x1 x2)
    (i_main_v471 : U (Proc.devRef .tc main_v471) = val_main_v471 (F := F) x0)
    (i_main_call69_v3 : U (Proc.devRef .tc main_call69_v3) = val_main_call69_v3 (F := F) x0)
    (i_main_call69_v4 : U (Proc.devRef .tc main_call69_v4) = val_main_call69_v4 (F := F) x0) :
    (after (pc9_10 (F := F)) U (Proc.devRef .tc main_arg0) = x0
      ∧ after (pc9_10 (F := F)) U (Proc.devRef .tc main_arg1) = x1
      ∧ after (pc9_10 (F := F)) U (Proc.devRef .tc main_arg2) = x2)
    ∧ after (pc9_10 (F := F)) U (Proc.devRef .tc main_v20) = val_main_v20 (F := F) x1 x2
    ∧ after (pc9_10 (F := F)) U (Proc.devRef .tc main_v23) = val_main_v23 (F := F) x1 x2
    ∧ after (pc9_10 (F := F)) U (Proc.devRef .tc main_v28) = val_main_v28 (F := F) x0
    ∧ after (pc9_10 (F := F)) U (Proc.devRef .tc main_v29) = val_main_v29 (F := F) x1 x2
    ∧ after (pc9_10 (F := F)) U (Proc.devRef .tc main_v470) = val_main_v470 (F := F) x0 x1 x2
    ∧ after (pc9_10 (F := F)) U (Proc.devRef .tc main_v471) = val_main_v471 (F := F) x0
    ∧ after (pc9_10 (F := F)) U (Proc.devRef .tc main_v472) = val_main_v472 (F := F) x0
    ∧ after (pc9_10 (F := F)) U (Proc.devRef .tc main_call70_v0) = val_main_call70_v0 (F := F) x1
    ∧ after (pc9_10 (F := F)) U (Proc.devRef .tc main_call70_v1) = val_main_call70_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v470, i_main_v471, i_main_call69_v3, i_main_call69_v4])
  all_goals (try rw [i_main_v20])
  all_goals (try rw [i_main_v23])
  all_goals (try rw [i_main_v28])
  all_goals (try rw [i_main_v29])
  all_goals (try rw [i_main_v470])
  all_goals (try rw [i_main_v471])
  all_goals (try rw [i_main_call69_v3])
  all_goals (try rw [i_main_call69_v4])
  all_goals (try rfl)

/-- Operations 923 to 925 of the line. -/
abbrev pc9_11 : List (HloOp τ sig (Elt F)) :=
  [ TRef.binary (TRef.of (T := ⟨S8x126x128, .i32⟩) main_call70_v0) (TRef.of (T := ⟨S8x2x128, .i32⟩) main_call70_v1) (TRef.of (T := ⟨S8x128x128, .i32⟩) main_call70_v2) (fun a b => concatenate S8x128x128 1 [⟨S8x126x128, a⟩, ⟨S8x2x128, b⟩] concatenates_S8x126x128_S8x2x128_S8x128x128_d1),
    TRef.unary (TRef.of (T := ⟨S8x128x128, .i32⟩) main_call70_v2) (TRef.of (T := ⟨S8x128x127, .i32⟩) main_call70_v3) (extractStridedSlice S8x128x127 ![0, 0, 1] · slices_S8x128x128_S8x128x127_0_0_1),
    TRef.unary (TRef.of (T := ⟨S8x128x128, .i32⟩) main_call70_v2) (TRef.of (T := ⟨S8x128x1, .i32⟩) main_call70_v4) (extractStridedSlice S8x128x1 ![0, 0, 0] · slices_S8x128x128_S8x128x1_0_0_0) ]

set_option maxRecDepth 8192 in
set_option maxHeartbeats 100000000 in
theorem piece9_11 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v470 : U (Proc.devRef .tc main_v470) = val_main_v470 (F := F) x0 x1 x2)
    (i_main_v471 : U (Proc.devRef .tc main_v471) = val_main_v471 (F := F) x0)
    (i_main_v472 : U (Proc.devRef .tc main_v472) = val_main_v472 (F := F) x0)
    (i_main_call70_v0 : U (Proc.devRef .tc main_call70_v0) = val_main_call70_v0 (F := F) x1)
    (i_main_call70_v1 : U (Proc.devRef .tc main_call70_v1) = val_main_call70_v1 (F := F) x1) :
    (after (pc9_11 (F := F)) U (Proc.devRef .tc main_arg0) = x0
      ∧ after (pc9_11 (F := F)) U (Proc.devRef .tc main_arg1) = x1
      ∧ after (pc9_11 (F := F)) U (Proc.devRef .tc main_arg2) = x2)
    ∧ after (pc9_11 (F := F)) U (Proc.devRef .tc main_v20) = val_main_v20 (F := F) x1 x2
    ∧ after (pc9_11 (F := F)) U (Proc.devRef .tc main_v23) = val_main_v23 (F := F) x1 x2
    ∧ after (pc9_11 (F := F)) U (Proc.devRef .tc main_v28) = val_main_v28 (F := F) x0
    ∧ after (pc9_11 (F := F)) U (Proc.devRef .tc main_v29) = val_main_v29 (F := F) x1 x2
    ∧ after (pc9_11 (F := F)) U (Proc.devRef .tc main_v470) = val_main_v470 (F := F) x0 x1 x2
    ∧ after (pc9_11 (F := F)) U (Proc.devRef .tc main_v471) = val_main_v471 (F := F) x0
    ∧ after (pc9_11 (F := F)) U (Proc.devRef .tc main_v472) = val_main_v472 (F := F) x0
    ∧ after (pc9_11 (F := F)) U (Proc.devRef .tc main_call70_v3) = val_main_call70_v3 (F := F) x1
    ∧ after (pc9_11 (F := F)) U (Proc.devRef .tc main_call70_v4) = val_main_call70_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v470, i_main_v471, i_main_v472, i_main_call70_v0, i_main_call70_v1])
  all_goals (try rw [i_main_v20])
  all_goals (try rw [i_main_v23])
  all_goals (try rw [i_main_v28])
  all_goals (try rw [i_main_v29])
  all_goals (try rw [i_main_v470])
  all_goals (try rw [i_main_v471])
  all_goals (try rw [i_main_v472])
  all_goals (try rw [i_main_call70_v0])
  all_goals (try rw [i_main_call70_v1])
  all_goals (try rfl)

/-- Operations 926 to 949 of the line. -/
abbrev pc9_12 : List (HloOp τ sig (Elt F)) :=
  [ TRef.binary (TRef.of (T := ⟨S8x128x127, .i32⟩) main_call70_v3) (TRef.of (T := ⟨S8x128x1, .i32⟩) main_call70_v4) (TRef.of (T := ⟨S8x128x128, .i32⟩) main_v473) (fun a b => concatenate S8x128x128 2 [⟨S8x128x127, a⟩, ⟨S8x128x1, b⟩] concatenates_S8x128x127_S8x128x1_S8x128x128_d2),
    binary main_arg0 main_v471 main_v474 (mulf : (⟨S8x256x128x128, .f32⟩ : BufTy).Contents (Elt F) → (⟨S8x256x128x128, .f32⟩ : BufTy).Contents (Elt F) → (⟨S8x256x128x128, .f32⟩ : BufTy).Contents (Elt F)),
    nullary main_cst_101 (constant S_ .f32 0x00000000#32),
    binary main_v474 main_cst_101 main_v475 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v472 main_v476 (mulf : (⟨S8x128x128, .f32⟩ : BufTy).Contents (Elt F) → (⟨S8x128x128, .f32⟩ : BufTy).Contents (Elt F) → (⟨S8x128x128, .f32⟩ : BufTy).Contents (Elt F)),
    binary main_v475 main_v476 main_v477 (Host.divf : (⟨S8x128x128, .f32⟩ : BufTy).Contents (Elt F) → (⟨S8x128x128, .f32⟩ : BufTy).Contents (Elt F) → (⟨S8x128x128, .f32⟩ : BufTy).Contents (Elt F)),
    binary main_arg1 main_v473 main_v478 (cmpi .eq : (⟨S8x128x128, .i32⟩ : BufTy).Contents (Elt F) → (⟨S8x128x128, .i32⟩ : BufTy).Contents (Elt F) → (⟨S8x128x128, .i1⟩ : BufTy).Contents (Elt F)),
    nullary main_c_102 (constantI S_ 32 2#32),
    unary main_c_102 main_v479 (broadcastInDim S8x128x128 ![] bcast_S_S8x128x128 : (⟨S_, .i32⟩ : BufTy).Contents (Elt F) → (⟨S8x128x128, .i32⟩ : BufTy).Contents (Elt F)),
    binary main_arg1 main_v479 main_v480 (cmpi .slt : (⟨S8x128x128, .i32⟩ : BufTy).Contents (Elt F) → (⟨S8x128x128, .i32⟩ : BufTy).Contents (Elt F) → (⟨S8x128x128, .i1⟩ : BufTy).Contents (Elt F)),
    binary main_v478 main_v480 main_v481 (andi : (⟨S8x128x128, .i1⟩ : BufTy).Contents (Elt F) → (⟨S8x128x128, .i1⟩ : BufTy).Contents (Elt F) → (⟨S8x128x128, .i1⟩ : BufTy).Contents (Elt F)),
    unary main_v481 main_v482 (uitofp .f32 : (⟨S8x128x128, .i1⟩ : BufTy).Contents (Elt F) → (⟨S8x128x128, .f32⟩ : BufTy).Contents (Elt F)),
    binary main_v477 main_v482 main_v483 (subf : (⟨S8x128x128, .f32⟩ : BufTy).Contents (Elt F) → (⟨S8x128x128, .f32⟩ : BufTy).Contents (Elt F) → (⟨S8x128x128, .f32⟩ : BufTy).Contents (Elt F)),
    binary main_v483 main_v483 main_v484 (mulf : (⟨S8x128x128, .f32⟩ : BufTy).Contents (Elt F) → (⟨S8x128x128, .f32⟩ : BufTy).Contents (Elt F) → (⟨S8x128x128, .f32⟩ : BufTy).Contents (Elt F)),
    binary main_v484 main_v29 main_v485 (mulf : (⟨S8x128x128, .f32⟩ : BufTy).Contents (Elt F) → (⟨S8x128x128, .f32⟩ : BufTy).Contents (Elt F) → (⟨S8x128x128, .f32⟩ : BufTy).Contents (Elt F)),
    nullary main_cst_103 (constant S_ .f32 0x00000000#32),
    binary main_v485 main_cst_103 main_v486 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_104 (constant S_ .f32 0x3F800000#32),
    unary main_cst_104 main_v487 (broadcastInDim S8 ![] bcast_S_S8 : (⟨S_, .f32⟩ : BufTy).Contents (Elt F) → (⟨S8, .f32⟩ : BufTy).Contents (Elt F)),
    binary main_v23 main_v487 main_v488 (maximumf : (⟨S8, .f32⟩ : BufTy).Contents (Elt F) → (⟨S8, .f32⟩ : BufTy).Contents (Elt F) → (⟨S8, .f32⟩ : BufTy).Contents (Elt F)),
    binary main_v486 main_v488 main_v489 (Host.divf : (⟨S8, .f32⟩ : BufTy).Contents (Elt F) → (⟨S8, .f32⟩ : BufTy).Contents (Elt F) → (⟨S8, .f32⟩ : BufTy).Contents (Elt F)),
    binary main_v470 main_v489 main_v490 (addf : (⟨S8, .f32⟩ : BufTy).Contents (Elt F) → (⟨S8, .f32⟩ : BufTy).Contents (Elt F) → (⟨S8, .f32⟩ : BufTy).Contents (Elt F)),
    TRef.unary (TRef.of (T := ⟨S8x256x128x128, .f32⟩) main_arg0) (TRef.of (T := ⟨S8x256x126x128, .f32⟩) main_call71_v0) (extractStridedSlice S8x256x126x128 ![0, 0, 2, 0] · slices_S8x256x128x128_S8x256x126x128_0_0_2_0),
    TRef.unary (TRef.of (T := ⟨S8x256x128x128, .f32⟩) main_arg0) (TRef.of (T := ⟨S8x256x2x128, .f32⟩) main_call71_v1) (extractStridedSlice S8x256x2x128 ![0, 0, 0, 0] · slices_S8x256x128x128_S8x256x2x128_0_0_0_0) ]

set_option maxRecDepth 8192 in
set_option maxHeartbeats 100000000 in
theorem piece9_12 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v470 : U (Proc.devRef .tc main_v470) = val_main_v470 (F := F) x0 x1 x2)
    (i_main_v471 : U (Proc.devRef .tc main_v471) = val_main_v471 (F := F) x0)
    (i_main_v472 : U (Proc.devRef .tc main_v472) = val_main_v472 (F := F) x0)
    (i_main_call70_v3 : U (Proc.devRef .tc main_call70_v3) = val_main_call70_v3 (F := F) x1)
    (i_main_call70_v4 : U (Proc.devRef .tc main_call70_v4) = val_main_call70_v4 (F := F) x1) :
    (after (pc9_12 (F := F)) U (Proc.devRef .tc main_arg0) = x0
      ∧ after (pc9_12 (F := F)) U (Proc.devRef .tc main_arg1) = x1
      ∧ after (pc9_12 (F := F)) U (Proc.devRef .tc main_arg2) = x2)
    ∧ after (pc9_12 (F := F)) U (Proc.devRef .tc main_v20) = val_main_v20 (F := F) x1 x2
    ∧ after (pc9_12 (F := F)) U (Proc.devRef .tc main_v23) = val_main_v23 (F := F) x1 x2
    ∧ after (pc9_12 (F := F)) U (Proc.devRef .tc main_v28) = val_main_v28 (F := F) x0
    ∧ after (pc9_12 (F := F)) U (Proc.devRef .tc main_v29) = val_main_v29 (F := F) x1 x2
    ∧ after (pc9_12 (F := F)) U (Proc.devRef .tc main_v490) = val_main_v490 (F := F) x0 x1 x2
    ∧ after (pc9_12 (F := F)) U (Proc.devRef .tc main_call71_v0) = val_main_call71_v0 (F := F) x0
    ∧ after (pc9_12 (F := F)) U (Proc.devRef .tc main_call71_v1) = val_main_call71_v1 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v470, i_main_v471, i_main_v472, i_main_call70_v3, i_main_call70_v4])
  all_goals (try rw [i_main_v20])
  all_goals (try rw [i_main_v23])
  all_goals (try rw [i_main_v28])
  all_goals (try rw [i_main_v29])
  all_goals (try rw [i_main_v470])
  all_goals (try rw [i_main_v471])
  all_goals (try rw [i_main_v472])
  all_goals (try rw [i_main_call70_v3])
  all_goals (try rw [i_main_call70_v4])
  all_goals (try rfl)

/-- Operations 950 to 952 of the line. -/
abbrev pc9_13 : List (HloOp τ sig (Elt F)) :=
  [ TRef.binary (TRef.of (T := ⟨S8x256x126x128, .f32⟩) main_call71_v0) (TRef.of (T := ⟨S8x256x2x128, .f32⟩) main_call71_v1) (TRef.of (T := ⟨S8x256x128x128, .f32⟩) main_call71_v2) (fun a b => concatenate S8x256x128x128 2 [⟨S8x256x126x128, a⟩, ⟨S8x256x2x128, b⟩] concatenates_S8x256x126x128_S8x256x2x128_S8x256x128x128_d2),
    TRef.unary (TRef.of (T := ⟨S8x256x128x128, .f32⟩) main_call71_v2) (TRef.of (T := ⟨S8x256x128x126, .f32⟩) main_call71_v3) (extractStridedSlice S8x256x128x126 ![0, 0, 0, 2] · slices_S8x256x128x128_S8x256x128x126_0_0_0_2),
    TRef.unary (TRef.of (T := ⟨S8x256x128x128, .f32⟩) main_call71_v2) (TRef.of (T := ⟨S8x256x128x2, .f32⟩) main_call71_v4) (extractStridedSlice S8x256x128x2 ![0, 0, 0, 0] · slices_S8x256x128x128_S8x256x128x2_0_0_0_0) ]

set_option maxRecDepth 8192 in
set_option maxHeartbeats 100000000 in
theorem piece9_13 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_call71_v0 : U (Proc.devRef .tc main_call71_v0) = val_main_call71_v0 (F := F) x0)
    (i_main_call71_v1 : U (Proc.devRef .tc main_call71_v1) = val_main_call71_v1 (F := F) x0) :
    (after (pc9_13 (F := F)) U (Proc.devRef .tc main_arg0) = x0
      ∧ after (pc9_13 (F := F)) U (Proc.devRef .tc main_arg1) = x1
      ∧ after (pc9_13 (F := F)) U (Proc.devRef .tc main_arg2) = x2)
    ∧ after (pc9_13 (F := F)) U (Proc.devRef .tc main_v20) = val_main_v20 (F := F) x1 x2
    ∧ after (pc9_13 (F := F)) U (Proc.devRef .tc main_v23) = val_main_v23 (F := F) x1 x2
    ∧ after (pc9_13 (F := F)) U (Proc.devRef .tc main_v28) = val_main_v28 (F := F) x0
    ∧ after (pc9_13 (F := F)) U (Proc.devRef .tc main_v29) = val_main_v29 (F := F) x1 x2
    ∧ after (pc9_13 (F := F)) U (Proc.devRef .tc main_v490) = val_main_v490 (F := F) x0 x1 x2
    ∧ after (pc9_13 (F := F)) U (Proc.devRef .tc main_call71_v3) = val_main_call71_v3 (F := F) x0
    ∧ after (pc9_13 (F := F)) U (Proc.devRef .tc main_call71_v4) = val_main_call71_v4 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v490, i_main_call71_v0, i_main_call71_v1])
  all_goals (try rw [i_main_v20])
  all_goals (try rw [i_main_v23])
  all_goals (try rw [i_main_v28])
  all_goals (try rw [i_main_v29])
  all_goals (try rw [i_main_v490])
  all_goals (try rw [i_main_call71_v0])
  all_goals (try rw [i_main_call71_v1])
  all_goals (try rfl)

/-- Operations 953 to 955 of the line. -/
abbrev pc9_14 : List (HloOp τ sig (Elt F)) :=
  [ TRef.binary (TRef.of (T := ⟨S8x256x128x126, .f32⟩) main_call71_v3) (TRef.of (T := ⟨S8x256x128x2, .f32⟩) main_call71_v4) (TRef.of (T := ⟨S8x256x128x128, .f32⟩) main_v491) (fun a b => concatenate S8x256x128x128 3 [⟨S8x256x128x126, a⟩, ⟨S8x256x128x2, b⟩] concatenates_S8x256x128x126_S8x256x128x2_S8x256x128x128_d3),
    TRef.unary (TRef.of (T := ⟨S8x128x128, .f32⟩) main_v28) (TRef.of (T := ⟨S8x126x128, .f32⟩) main_call72_v0) (extractStridedSlice S8x126x128 ![0, 2, 0] · slices_S8x128x128_S8x126x128_0_2_0),
    TRef.unary (TRef.of (T := ⟨S8x128x128, .f32⟩) main_v28) (TRef.of (T := ⟨S8x2x128, .f32⟩) main_call72_v1) (extractStridedSlice S8x2x128 ![0, 0, 0] · slices_S8x128x128_S8x2x128_0_0_0) ]

set_option maxRecDepth 8192 in
set_option maxHeartbeats 100000000 in
theorem piece9_14 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_call71_v3 : U (Proc.devRef .tc main_call71_v3) = val_main_call71_v3 (F := F) x0)
    (i_main_call71_v4 : U (Proc.devRef .tc main_call71_v4) = val_main_call71_v4 (F := F) x0) :
    (after (pc9_14 (F := F)) U (Proc.devRef .tc main_arg0) = x0
      ∧ after (pc9_14 (F := F)) U (Proc.devRef .tc main_arg1) = x1
      ∧ after (pc9_14 (F := F)) U (Proc.devRef .tc main_arg2) = x2)
    ∧ after (pc9_14 (F := F)) U (Proc.devRef .tc main_v20) = val_main_v20 (F := F) x1 x2
    ∧ after (pc9_14 (F := F)) U (Proc.devRef .tc main_v23) = val_main_v23 (F := F) x1 x2
    ∧ after (pc9_14 (F := F)) U (Proc.devRef .tc main_v28) = val_main_v28 (F := F) x0
    ∧ after (pc9_14 (F := F)) U (Proc.devRef .tc main_v29) = val_main_v29 (F := F) x1 x2
    ∧ after (pc9_14 (F := F)) U (Proc.devRef .tc main_v490) = val_main_v490 (F := F) x0 x1 x2
    ∧ after (pc9_14 (F := F)) U (Proc.devRef .tc main_v491) = val_main_v491 (F := F) x0
    ∧ after (pc9_14 (F := F)) U (Proc.devRef .tc main_call72_v0) = val_main_call72_v0 (F := F) x0
    ∧ after (pc9_14 (F := F)) U (Proc.devRef .tc main_call72_v1) = val_main_call72_v1 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v490, i_main_call71_v3, i_main_call71_v4])
  all_goals (try rw [i_main_v20])
  all_goals (try rw [i_main_v23])
  all_goals (try rw [i_main_v28])
  all_goals (try rw [i_main_v29])
  all_goals (try rw [i_main_v490])
  all_goals (try rw [i_main_call71_v3])
  all_goals (try rw [i_main_call71_v4])
  all_goals (try rfl)

/-- Operations 956 to 958 of the line. -/
abbrev pc9_15 : List (HloOp τ sig (Elt F)) :=
  [ TRef.binary (TRef.of (T := ⟨S8x126x128, .f32⟩) main_call72_v0) (TRef.of (T := ⟨S8x2x128, .f32⟩) main_call72_v1) (TRef.of (T := ⟨S8x128x128, .f32⟩) main_call72_v2) (fun a b => concatenate S8x128x128 1 [⟨S8x126x128, a⟩, ⟨S8x2x128, b⟩] concatenates_S8x126x128_S8x2x128_S8x128x128_d1),
    TRef.unary (TRef.of (T := ⟨S8x128x128, .f32⟩) main_call72_v2) (TRef.of (T := ⟨S8x128x126, .f32⟩) main_call72_v3) (extractStridedSlice S8x128x126 ![0, 0, 2] · slices_S8x128x128_S8x128x126_0_0_2),
    TRef.unary (TRef.of (T := ⟨S8x128x128, .f32⟩) main_call72_v2) (TRef.of (T := ⟨S8x128x2, .f32⟩) main_call72_v4) (extractStridedSlice S8x128x2 ![0, 0, 0] · slices_S8x128x128_S8x128x2_0_0_0) ]

set_option maxRecDepth 8192 in
set_option maxHeartbeats 100000000 in
theorem piece9_15 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_v491 : U (Proc.devRef .tc main_v491) = val_main_v491 (F := F) x0)
    (i_main_call72_v0 : U (Proc.devRef .tc main_call72_v0) = val_main_call72_v0 (F := F) x0)
    (i_main_call72_v1 : U (Proc.devRef .tc main_call72_v1) = val_main_call72_v1 (F := F) x0) :
    (after (pc9_15 (F := F)) U (Proc.devRef .tc main_arg0) = x0
      ∧ after (pc9_15 (F := F)) U (Proc.devRef .tc main_arg1) = x1
      ∧ after (pc9_15 (F := F)) U (Proc.devRef .tc main_arg2) = x2)
    ∧ after (pc9_15 (F := F)) U (Proc.devRef .tc main_v20) = val_main_v20 (F := F) x1 x2
    ∧ after (pc9_15 (F := F)) U (Proc.devRef .tc main_v23) = val_main_v23 (F := F) x1 x2
    ∧ after (pc9_15 (F := F)) U (Proc.devRef .tc main_v28) = val_main_v28 (F := F) x0
    ∧ after (pc9_15 (F := F)) U (Proc.devRef .tc main_v29) = val_main_v29 (F := F) x1 x2
    ∧ after (pc9_15 (F := F)) U (Proc.devRef .tc main_v490) = val_main_v490 (F := F) x0 x1 x2
    ∧ after (pc9_15 (F := F)) U (Proc.devRef .tc main_v491) = val_main_v491 (F := F) x0
    ∧ after (pc9_15 (F := F)) U (Proc.devRef .tc main_call72_v3) = val_main_call72_v3 (F := F) x0
    ∧ after (pc9_15 (F := F)) U (Proc.devRef .tc main_call72_v4) = val_main_call72_v4 (F := F) x0 := by
  subst h0 h1 h2
  refine ⟨⟨?_, ?_, ?_⟩, ?_, ?_, ?_, ?_, ?_, ?_, ?_, ?_⟩
  all_goals after_results_simp
  all_goals (try simp only [i_main_v20, i_main_v23, i_main_v28, i_main_v29, i_main_v490, i_main_v491, i_main_call72_v0, i_main_call72_v1])
  all_goals (try rw [i_main_v20])
  all_goals (try rw [i_main_v23])
  all_goals (try rw [i_main_v28])
  all_goals (try rw [i_main_v29])
  all_goals (try rw [i_main_v490])
  all_goals (try rw [i_main_v491])
  all_goals (try rw [i_main_call72_v0])
  all_goals (try rw [i_main_call72_v1])
  all_goals (try rfl)

/-- Operations 959 to 959 of the line. -/
abbrev pc9_16 : List (HloOp τ sig (Elt F)) :=
  [ TRef.binary (TRef.of (T := ⟨S8x128x126, .f32⟩) main_call72_v3) (TRef.of (T := ⟨S8x128x2, .f32⟩) main_call72_v4) (TRef.of (T := ⟨S8x128x128, .f32⟩) main_v492) (fun a b => concatenate S8x128x128 2 [⟨S8x128x126, a⟩, ⟨S8x128x2, b⟩] concatenates_S8x128x126_S8x128x2_S8x128x128_d2) ]

set_option maxRecDepth 8192 in
set_option maxHeartbeats 100000000 in
theorem piece9_16 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_v491 : U (Proc.devRef .tc main_v491) = val_main_v491 (F := F) x0)
    (i_main_call72_v3 : U (Proc.devRef .tc main_call72_v3) = val_main_call72_v3 (F := F) x0)
    (i_main_call72_v4 : U (Proc.devRef .tc main_call72_v4) = val_main_call72_v4 (F := F) x0) :
    (after (pc9_16 (F := F)) U (Proc.devRef .tc main_arg0) = x0
      ∧ after (pc9_16 (F := F)) U (Proc.devRef .tc main_arg1) = x1
      ∧ after (pc9_16 (F := F)) U (Proc.devRef .tc main_arg2) = x2)
    ∧ after (pc9_16 (F := F)) U (Proc.devRef .tc main_v20) = val_main_v20 (F := F) x1 x2
    ∧ after (pc9_16 (F := F)) U (Proc.devRef .tc main_v23) = val_main_v23 (F := F) x1 x2
    ∧ after (pc9_16 (F := F)) U (Proc.devRef .tc main_v28) = val_main_v28 (F := F) x0
    ∧ after (pc9_16 (F := F)) U (Proc.devRef .tc main_v29) = val_main_v29 (F := F) x1 x2
    ∧ after (pc9_16 (F := F)) U (Proc.devRef .tc main_v490) = val_main_v490 (F := F) x0 x1 x2
    ∧ after (pc9_16 (F := F)) U (Proc.devRef .tc main_v491) = val_main_v491 (F := F) x0
    ∧ after (pc9_16 (F := F)) U (Proc.devRef .tc main_v492) = val_main_v492 (F := F) x0 := by
  subst h0 h1 h2
  refine ⟨⟨?_, ?_, ?_⟩, ?_, ?_, ?_, ?_, ?_, ?_, ?_⟩
  all_goals after_results_simp
  all_goals (try simp only [i_main_v20, i_main_v23, i_main_v28, i_main_v29, i_main_v490, i_main_v491, i_main_call72_v3, i_main_call72_v4])
  all_goals (try rw [i_main_v20])
  all_goals (try rw [i_main_v23])
  all_goals (try rw [i_main_v28])
  all_goals (try rw [i_main_v29])
  all_goals (try rw [i_main_v490])
  all_goals (try rw [i_main_v491])
  all_goals (try rw [i_main_call72_v3])
  all_goals (try rw [i_main_call72_v4])
  all_goals (try rfl)

set_option maxRecDepth 8192 in
/-- The part's operations are its pieces laid end to end. -/
theorem ops9_split : (ops9 (F := F)) = pc9_0 ++ (pc9_1 ++ (pc9_2 ++ (pc9_3 ++ (pc9_4 ++ (pc9_5 ++ (pc9_6 ++ (pc9_7 ++ (pc9_8 ++ (pc9_9 ++ (pc9_10 ++ (pc9_11 ++ (pc9_12 ++ (pc9_13 ++ (pc9_14 ++ (pc9_15 ++ (pc9_16)))))))))))))))) := rfl

theorem chunk9 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v430 : U (Proc.devRef .tc main_v430) = val_main_v430 (F := F) x0 x1 x2)
    (i_main_v437 : U (Proc.devRef .tc main_v437) = val_main_v437 (F := F) x0)
    (i_main_v442 : U (Proc.devRef .tc main_v442) = val_main_v442 (F := F) x1) :
    (after (ops9 (F := F)) U (Proc.devRef .tc main_arg0) = x0
      ∧ after (ops9 (F := F)) U (Proc.devRef .tc main_arg1) = x1
      ∧ after (ops9 (F := F)) U (Proc.devRef .tc main_arg2) = x2)
    ∧ after (ops9 (F := F)) U (Proc.devRef .tc main_v20) = val_main_v20 (F := F) x1 x2
    ∧ after (ops9 (F := F)) U (Proc.devRef .tc main_v23) = val_main_v23 (F := F) x1 x2
    ∧ after (ops9 (F := F)) U (Proc.devRef .tc main_v28) = val_main_v28 (F := F) x0
    ∧ after (ops9 (F := F)) U (Proc.devRef .tc main_v29) = val_main_v29 (F := F) x1 x2
    ∧ after (ops9 (F := F)) U (Proc.devRef .tc main_v490) = val_main_v490 (F := F) x0 x1 x2
    ∧ after (ops9 (F := F)) U (Proc.devRef .tc main_v491) = val_main_v491 (F := F) x0
    ∧ after (ops9 (F := F)) U (Proc.devRef .tc main_v492) = val_main_v492 (F := F) x0 := by
  rw [ops9_split]
  simp only [after_append]
  have p0 := piece9_0 (F := F) U x0 x1 x2 h0 h1 h2 i_main_v20 i_main_v23 i_main_v28 i_main_v29 i_main_v430 i_main_v437 i_main_v442
  have p1 := piece9_1 (F := F) (after (pc9_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2
  have p2 := piece9_2 (F := F) (after (pc9_1 (F := F)) (after (pc9_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2
  have p3 := piece9_3 (F := F) (after (pc9_2 (F := F)) (after (pc9_1 (F := F)) (after (pc9_0 (F := F)) U))) x0 x1 x2 p2.1.1 p2.1.2.1 p2.1.2.2 p2.2.1 p2.2.2.1 p2.2.2.2.1 p2.2.2.2.2.1 p2.2.2.2.2.2.1 p2.2.2.2.2.2.2.1 p2.2.2.2.2.2.2.2.1 p2.2.2.2.2.2.2.2.2
  have p4 := piece9_4 (F := F) (after (pc9_3 (F := F)) (after (pc9_2 (F := F)) (after (pc9_1 (F := F)) (after (pc9_0 (F := F)) U)))) x0 x1 x2 p3.1.1 p3.1.2.1 p3.1.2.2 p3.2.1 p3.2.2.1 p3.2.2.2.1 p3.2.2.2.2.1 p3.2.2.2.2.2.1 p3.2.2.2.2.2.2.1 p3.2.2.2.2.2.2.2.1 p3.2.2.2.2.2.2.2.2
  have p5 := piece9_5 (F := F) (after (pc9_4 (F := F)) (after (pc9_3 (F := F)) (after (pc9_2 (F := F)) (after (pc9_1 (F := F)) (after (pc9_0 (F := F)) U))))) x0 x1 x2 p4.1.1 p4.1.2.1 p4.1.2.2 p4.2.1 p4.2.2.1 p4.2.2.2.1 p4.2.2.2.2.1 p4.2.2.2.2.2.1 p4.2.2.2.2.2.2.1 p4.2.2.2.2.2.2.2.1 p4.2.2.2.2.2.2.2.2.1 p4.2.2.2.2.2.2.2.2.2
  have p6 := piece9_6 (F := F) (after (pc9_5 (F := F)) (after (pc9_4 (F := F)) (after (pc9_3 (F := F)) (after (pc9_2 (F := F)) (after (pc9_1 (F := F)) (after (pc9_0 (F := F)) U)))))) x0 x1 x2 p5.1.1 p5.1.2.1 p5.1.2.2 p5.2.1 p5.2.2.1 p5.2.2.2.1 p5.2.2.2.2.1 p5.2.2.2.2.2.1 p5.2.2.2.2.2.2.1 p5.2.2.2.2.2.2.2.1 p5.2.2.2.2.2.2.2.2.1 p5.2.2.2.2.2.2.2.2.2
  have p7 := piece9_7 (F := F) (after (pc9_6 (F := F)) (after (pc9_5 (F := F)) (after (pc9_4 (F := F)) (after (pc9_3 (F := F)) (after (pc9_2 (F := F)) (after (pc9_1 (F := F)) (after (pc9_0 (F := F)) U))))))) x0 x1 x2 p6.1.1 p6.1.2.1 p6.1.2.2 p6.2.1 p6.2.2.1 p6.2.2.2.1 p6.2.2.2.2.1 p6.2.2.2.2.2.1 p6.2.2.2.2.2.2.1 p6.2.2.2.2.2.2.2
  have p8 := piece9_8 (F := F) (after (pc9_7 (F := F)) (after (pc9_6 (F := F)) (after (pc9_5 (F := F)) (after (pc9_4 (F := F)) (after (pc9_3 (F := F)) (after (pc9_2 (F := F)) (after (pc9_1 (F := F)) (after (pc9_0 (F := F)) U)))))))) x0 x1 x2 p7.1.1 p7.1.2.1 p7.1.2.2 p7.2.1 p7.2.2.1 p7.2.2.2.1 p7.2.2.2.2.1 p7.2.2.2.2.2.1 p7.2.2.2.2.2.2.1 p7.2.2.2.2.2.2.2
  have p9 := piece9_9 (F := F) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U))))))))) x0 x1 x2 p8.1.1 p8.1.2.1 p8.1.2.2 p8.2.1 p8.2.2.1 p8.2.2.2.1 p8.2.2.2.2.1 p8.2.2.2.2.2.1 p8.2.2.2.2.2.2.1 p8.2.2.2.2.2.2.2.1 p8.2.2.2.2.2.2.2.2
  have p10 := piece9_10 (F := F) (after (pc9_9 (F := F)) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U)))))))))) x0 x1 x2 p9.1.1 p9.1.2.1 p9.1.2.2 p9.2.1 p9.2.2.1 p9.2.2.2.1 p9.2.2.2.2.1 p9.2.2.2.2.2.1 p9.2.2.2.2.2.2.1 p9.2.2.2.2.2.2.2.1 p9.2.2.2.2.2.2.2.2
  have p11 := piece9_11 (F := F) (after (pc9_10 (F := F)) (after (pc9_9 (F := F)) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U))))))))))) x0 x1 x2 p10.1.1 p10.1.2.1 p10.1.2.2 p10.2.1 p10.2.2.1 p10.2.2.2.1 p10.2.2.2.2.1 p10.2.2.2.2.2.1 p10.2.2.2.2.2.2.1 p10.2.2.2.2.2.2.2.1 p10.2.2.2.2.2.2.2.2.1 p10.2.2.2.2.2.2.2.2.2
  have p12 := piece9_12 (F := F) (after (pc9_11 (F := F)) (after (pc9_10 (F := F)) (after (pc9_9 (F := F)) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U)))))))))))) x0 x1 x2 p11.1.1 p11.1.2.1 p11.1.2.2 p11.2.1 p11.2.2.1 p11.2.2.2.1 p11.2.2.2.2.1 p11.2.2.2.2.2.1 p11.2.2.2.2.2.2.1 p11.2.2.2.2.2.2.2.1 p11.2.2.2.2.2.2.2.2.1 p11.2.2.2.2.2.2.2.2.2
  have p13 := piece9_13 (F := F) (after (pc9_12 (F := F)) (after (pc9_11 (F := F)) (after (pc9_10 (F := F)) (after (pc9_9 (F := F)) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U))))))))))))) x0 x1 x2 p12.1.1 p12.1.2.1 p12.1.2.2 p12.2.1 p12.2.2.1 p12.2.2.2.1 p12.2.2.2.2.1 p12.2.2.2.2.2.1 p12.2.2.2.2.2.2.1 p12.2.2.2.2.2.2.2
  have p14 := piece9_14 (F := F) (after (pc9_13 (F := F)) (after (pc9_12 (F := F)) (after (pc9_11 (F := F)) (after (pc9_10 (F := F)) (after (pc9_9 (F := F)) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U)))))))))))))) x0 x1 x2 p13.1.1 p13.1.2.1 p13.1.2.2 p13.2.1 p13.2.2.1 p13.2.2.2.1 p13.2.2.2.2.1 p13.2.2.2.2.2.1 p13.2.2.2.2.2.2.1 p13.2.2.2.2.2.2.2
  have p15 := piece9_15 (F := F) (after (pc9_14 (F := F)) (after (pc9_13 (F := F)) (after (pc9_12 (F := F)) (after (pc9_11 (F := F)) (after (pc9_10 (F := F)) (after (pc9_9 (F := F)) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U))))))))))))))) x0 x1 x2 p14.1.1 p14.1.2.1 p14.1.2.2 p14.2.1 p14.2.2.1 p14.2.2.2.1 p14.2.2.2.2.1 p14.2.2.2.2.2.1 p14.2.2.2.2.2.2.1 p14.2.2.2.2.2.2.2.1 p14.2.2.2.2.2.2.2.2
  have p16 := piece9_16 (F := F) (after (pc9_15 (F := F)) (after (pc9_14 (F := F)) (after (pc9_13 (F := F)) (after (pc9_12 (F := F)) (after (pc9_11 (F := F)) (after (pc9_10 (F := F)) (after (pc9_9 (F := F)) (after (pc9_8 (F := F)) (after (pc9_7 (F := F)) (after (pc9_6 (F := F)) (after (pc9_5 (F := F)) (after (pc9_4 (F := F)) (after (pc9_3 (F := F)) (after (pc9_2 (F := F)) (after (pc9_1 (F := F)) (after (pc9_0 (F := F)) U)))))))))))))))) x0 x1 x2 p15.1.1 p15.1.2.1 p15.1.2.2 p15.2.1 p15.2.2.1 p15.2.2.2.1 p15.2.2.2.2.1 p15.2.2.2.2.2.1 p15.2.2.2.2.2.2.1 p15.2.2.2.2.2.2.2.1 p15.2.2.2.2.2.2.2.2
  exact p16

end Cert.Bridge.RefRun

end
-- ==== Proof.RefRunPart10.lean ====
/-
  Part 10 of the reference's run: what its operations leave in the buffers later parts read.

  The part's line is cut into short pieces. From any contents `U` that hold the arguments and, in the buffers a piece
  reads from before it, those buffers' stages of the arguments, the piece's operations leave the arguments as they were
  and each buffer read after it at its stage; the pieces in order give the same for the part.
-/
import proofs.«133983_j1632087573343_1_alg».proof.Proof.RefRunOps
import proofs.«133983_j1632087573343_1_alg».proof.Proof.RefRunLemmas
import proofs.«133983_j1632087573343_1_alg».proof.Proof.RefReadP

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- Operations 960 to 961 of the line. -/
abbrev pc10_0 : List (HloOp τ sig (Elt F)) :=
  [ TRef.unary (TRef.of (T := ⟨S8x128x128, .i32⟩) main_arg1) (TRef.of (T := ⟨S8x126x128, .i32⟩) main_call73_v0) (extractStridedSlice S8x126x128 ![0, 2, 0] · slices_S8x128x128_S8x126x128_0_2_0),
    TRef.unary (TRef.of (T := ⟨S8x128x128, .i32⟩) main_arg1) (TRef.of (T := ⟨S8x2x128, .i32⟩) main_call73_v1) (extractStridedSlice S8x2x128 ![0, 0, 0] · slices_S8x128x128_S8x2x128_0_0_0) ]

set_option maxRecDepth 8192 in
set_option maxHeartbeats 100000000 in
theorem piece10_0 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_v491 : U (Proc.devRef .tc main_v491) = val_main_v491 (F := F) x0)
    (i_main_v492 : U (Proc.devRef .tc main_v492) = val_main_v492 (F := F) x0) :
    (after (pc10_0 (F := F)) U (Proc.devRef .tc main_arg0) = x0
      ∧ after (pc10_0 (F := F)) U (Proc.devRef .tc main_arg1) = x1
      ∧ after (pc10_0 (F := F)) U (Proc.devRef .tc main_arg2) = x2)
    ∧ after (pc10_0 (F := F)) U (Proc.devRef .tc main_v20) = val_main_v20 (F := F) x1 x2
    ∧ after (pc10_0 (F := F)) U (Proc.devRef .tc main_v23) = val_main_v23 (F := F) x1 x2
    ∧ after (pc10_0 (F := F)) U (Proc.devRef .tc main_v28) = val_main_v28 (F := F) x0
    ∧ after (pc10_0 (F := F)) U (Proc.devRef .tc main_v29) = val_main_v29 (F := F) x1 x2
    ∧ after (pc10_0 (F := F)) U (Proc.devRef .tc main_v490) = val_main_v490 (F := F) x0 x1 x2
    ∧ after (pc10_0 (F := F)) U (Proc.devRef .tc main_v491) = val_main_v491 (F := F) x0
    ∧ after (pc10_0 (F := F)) U (Proc.devRef .tc main_v492) = val_main_v492 (F := F) x0
    ∧ after (pc10_0 (F := F)) U (Proc.devRef .tc main_call73_v0) = val_main_call73_v0 (F := F) x1
    ∧ after (pc10_0 (F := F)) U (Proc.devRef .tc main_call73_v1) = val_main_call73_v1 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v490, i_main_v491, i_main_v492])
  all_goals (try rw [i_main_v20])
  all_goals (try rw [i_main_v23])
  all_goals (try rw [i_main_v28])
  all_goals (try rw [i_main_v29])
  all_goals (try rw [i_main_v490])
  all_goals (try rw [i_main_v491])
  all_goals (try rw [i_main_v492])
  all_goals (try rfl)

/-- Operations 962 to 964 of the line. -/
abbrev pc10_1 : List (HloOp τ sig (Elt F)) :=
  [ TRef.binary (TRef.of (T := ⟨S8x126x128, .i32⟩) main_call73_v0) (TRef.of (T := ⟨S8x2x128, .i32⟩) main_call73_v1) (TRef.of (T := ⟨S8x128x128, .i32⟩) main_call73_v2) (fun a b => concatenate S8x128x128 1 [⟨S8x126x128, a⟩, ⟨S8x2x128, b⟩] concatenates_S8x126x128_S8x2x128_S8x128x128_d1),
    TRef.unary (TRef.of (T := ⟨S8x128x128, .i32⟩) main_call73_v2) (TRef.of (T := ⟨S8x128x126, .i32⟩) main_call73_v3) (extractStridedSlice S8x128x126 ![0, 0, 2] · slices_S8x128x128_S8x128x126_0_0_2),
    TRef.unary (TRef.of (T := ⟨S8x128x128, .i32⟩) main_call73_v2) (TRef.of (T := ⟨S8x128x2, .i32⟩) main_call73_v4) (extractStridedSlice S8x128x2 ![0, 0, 0] · slices_S8x128x128_S8x128x2_0_0_0) ]

set_option maxRecDepth 8192 in
set_option maxHeartbeats 100000000 in
theorem piece10_1 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_v491 : U (Proc.devRef .tc main_v491) = val_main_v491 (F := F) x0)
    (i_main_v492 : U (Proc.devRef .tc main_v492) = val_main_v492 (F := F) x0)
    (i_main_call73_v0 : U (Proc.devRef .tc main_call73_v0) = val_main_call73_v0 (F := F) x1)
    (i_main_call73_v1 : U (Proc.devRef .tc main_call73_v1) = val_main_call73_v1 (F := F) x1) :
    (after (pc10_1 (F := F)) U (Proc.devRef .tc main_arg0) = x0
      ∧ after (pc10_1 (F := F)) U (Proc.devRef .tc main_arg1) = x1
      ∧ after (pc10_1 (F := F)) U (Proc.devRef .tc main_arg2) = x2)
    ∧ after (pc10_1 (F := F)) U (Proc.devRef .tc main_v20) = val_main_v20 (F := F) x1 x2
    ∧ after (pc10_1 (F := F)) U (Proc.devRef .tc main_v23) = val_main_v23 (F := F) x1 x2
    ∧ after (pc10_1 (F := F)) U (Proc.devRef .tc main_v28) = val_main_v28 (F := F) x0
    ∧ after (pc10_1 (F := F)) U (Proc.devRef .tc main_v29) = val_main_v29 (F := F) x1 x2
    ∧ after (pc10_1 (F := F)) U (Proc.devRef .tc main_v490) = val_main_v490 (F := F) x0 x1 x2
    ∧ after (pc10_1 (F := F)) U (Proc.devRef .tc main_v491) = val_main_v491 (F := F) x0
    ∧ after (pc10_1 (F := F)) U (Proc.devRef .tc main_v492) = val_main_v492 (F := F) x0
    ∧ after (pc10_1 (F := F)) U (Proc.devRef .tc main_call73_v3) = val_main_call73_v3 (F := F) x1
    ∧ after (pc10_1 (F := F)) U (Proc.devRef .tc main_call73_v4) = val_main_call73_v4 (F := F) x1 := by
  subst h0 h1 h2
  refine ⟨⟨?_, ?_, ?_⟩, ?_, ?_, ?_, ?_, ?_, ?_, ?_, ?_, ?_⟩
  all_goals after_results_simp
  all_goals (try simp only [i_main_v20, i_main_v23, i_main_v28, i_main_v29, i_main_v490, i_main_v491, i_main_v492, i_main_call73_v0, i_main_call73_v1])
  all_goals (try rw [i_main_v20])
  all_goals (try rw [i_main_v23])
  all_goals (try rw [i_main_v28])
  all_goals (try rw [i_main_v29])
  all_goals (try rw [i_main_v490])
  all_goals (try rw [i_main_v491])
  all_goals (try rw [i_main_v492])
  all_goals (try rw [i_main_call73_v0])
  all_goals (try rw [i_main_call73_v1])
  all_goals (try rfl)

/-- Operations 965 to 989 of the line. -/
abbrev pc10_2 : List (HloOp τ sig (Elt F)) :=
  [ TRef.binary (TRef.of (T := ⟨S8x128x126, .i32⟩) main_call73_v3) (TRef.of (T := ⟨S8x128x2, .i32⟩) main_call73_v4) (TRef.of (T := ⟨S8x128x128, .i32⟩) main_v493) (fun a b => concatenate S8x128x128 2 [⟨S8x128x126, a⟩, ⟨S8x128x2, b⟩] concatenates_S8x128x126_S8x128x2_S8x128x128_d2),
    binary main_arg0 main_v491 main_v494 (mulf : (⟨S8x256x128x128, .f32⟩ : BufTy).Contents (Elt F) → (⟨S8x256x128x128, .f32⟩ : BufTy).Contents (Elt F) → (⟨S8x256x128x128, .f32⟩ : BufTy).Contents (Elt F)),
    nullary main_cst_105 (constant S_ .f32 0x00000000#32),
    binary main_v494 main_cst_105 main_v495 ((fun x v => Host.reduceAdd x v reducesTo_S8x256x128x128_S8x128x128_d1 h_S_) : (⟨S8x256x128x128, .f32⟩ : BufTy).Contents (Elt F) → (⟨S_, .f32⟩ : BufTy).Contents (Elt F) → (⟨S8x128x128, .f32⟩ : BufTy).Contents (Elt F)),
    binary main_v28 main_v492 main_v496 (mulf : (⟨S8x128x128, .f32⟩ : BufTy).Contents (Elt F) → (⟨S8x128x128, .f32⟩ : BufTy).Contents (Elt F) → (⟨S8x128x128, .f32⟩ : BufTy).Contents (Elt F)),
    binary main_v495 main_v496 main_v497 (Host.divf : (⟨S8x128x128, .f32⟩ : BufTy).Contents (Elt F) → (⟨S8x128x128, .f32⟩ : BufTy).Contents (Elt F) → (⟨S8x128x128, .f32⟩ : BufTy).Contents (Elt F)),
    binary main_arg1 main_v493 main_v498 (cmpi .eq : (⟨S8x128x128, .i32⟩ : BufTy).Contents (Elt F) → (⟨S8x128x128, .i32⟩ : BufTy).Contents (Elt F) → (⟨S8x128x128, .i1⟩ : BufTy).Contents (Elt F)),
    nullary main_c_106 (constantI S_ 32 2#32),
    unary main_c_106 main_v499 (broadcastInDim S8x128x128 ![] bcast_S_S8x128x128 : (⟨S_, .i32⟩ : BufTy).Contents (Elt F) → (⟨S8x128x128, .i32⟩ : BufTy).Contents (Elt F)),
    binary main_arg1 main_v499 main_v500 (cmpi .slt : (⟨S8x128x128, .i32⟩ : BufTy).Contents (Elt F) → (⟨S8x128x128, .i32⟩ : BufTy).Contents (Elt F) → (⟨S8x128x128, .i1⟩ : BufTy).Contents (Elt F)),
    binary main_v498 main_v500 main_v501 (andi : (⟨S8x128x128, .i1⟩ : BufTy).Contents (Elt F) → (⟨S8x128x128, .i1⟩ : BufTy).Contents (Elt F) → (⟨S8x128x128, .i1⟩ : BufTy).Contents (Elt F)),
    unary main_v501 main_v502 (uitofp .f32 : (⟨S8x128x128, .i1⟩ : BufTy).Contents (Elt F) → (⟨S8x128x128, .f32⟩ : BufTy).Contents (Elt F)),
    binary main_v497 main_v502 main_v503 (subf : (⟨S8x128x128, .f32⟩ : BufTy).Contents (Elt F) → (⟨S8x128x128, .f32⟩ : BufTy).Contents (Elt F) → (⟨S8x128x128, .f32⟩ : BufTy).Contents (Elt F)),
    binary main_v503 main_v503 main_v504 (mulf : (⟨S8x128x128, .f32⟩ : BufTy).Contents (Elt F) → (⟨S8x128x128, .f32⟩ : BufTy).Contents (Elt F) → (⟨S8x128x128, .f32⟩ : BufTy).Contents (Elt F)),
    binary main_v504 main_v29 main_v505 (mulf : (⟨S8x128x128, .f32⟩ : BufTy).Contents (Elt F) → (⟨S8x128x128, .f32⟩ : BufTy).Contents (Elt F) → (⟨S8x128x128, .f32⟩ : BufTy).Contents (Elt F)),
    nullary main_cst_107 (constant S_ .f32 0x00000000#32),
    binary main_v505 main_cst_107 main_v506 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    nullary main_cst_108 (constant S_ .f32 0x3F800000#32),
    unary main_cst_108 main_v507 (broadcastInDim S8 ![] bcast_S_S8 : (⟨S_, .f32⟩ : BufTy).Contents (Elt F) → (⟨S8, .f32⟩ : BufTy).Contents (Elt F)),
    binary main_v23 main_v507 main_v508 (maximumf : (⟨S8, .f32⟩ : BufTy).Contents (Elt F) → (⟨S8, .f32⟩ : BufTy).Contents (Elt F) → (⟨S8, .f32⟩ : BufTy).Contents (Elt F)),
    binary main_v506 main_v508 main_v509 (Host.divf : (⟨S8, .f32⟩ : BufTy).Contents (Elt F) → (⟨S8, .f32⟩ : BufTy).Contents (Elt F) → (⟨S8, .f32⟩ : BufTy).Contents (Elt F)),
    binary main_v490 main_v509 main_v510 (addf : (⟨S8, .f32⟩ : BufTy).Contents (Elt F) → (⟨S8, .f32⟩ : BufTy).Contents (Elt F) → (⟨S8, .f32⟩ : BufTy).Contents (Elt F)),
    nullary main_cst_109 (constant S_ .f32 0x41C00000#32),
    unary main_cst_109 main_v511 (broadcastInDim S8 ![] bcast_S_S8 : (⟨S_, .f32⟩ : BufTy).Contents (Elt F) → (⟨S8, .f32⟩ : BufTy).Contents (Elt F)),
    binary main_v510 main_v511 main_v512 (Host.divf : (⟨S8, .f32⟩ : BufTy).Contents (Elt F) → (⟨S8, .f32⟩ : BufTy).Contents (Elt F) → (⟨S8, .f32⟩ : BufTy).Contents (Elt F)) ]

set_option maxRecDepth 8192 in
set_option maxHeartbeats 100000000 in
theorem piece10_2 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_v491 : U (Proc.devRef .tc main_v491) = val_main_v491 (F := F) x0)
    (i_main_v492 : U (Proc.devRef .tc main_v492) = val_main_v492 (F := F) x0)
    (i_main_call73_v3 : U (Proc.devRef .tc main_call73_v3) = val_main_call73_v3 (F := F) x1)
    (i_main_call73_v4 : U (Proc.devRef .tc main_call73_v4) = val_main_call73_v4 (F := F) x1) :
    (after (pc10_2 (F := F)) U (Proc.devRef .tc main_arg0) = x0
      ∧ after (pc10_2 (F := F)) U (Proc.devRef .tc main_arg1) = x1
      ∧ after (pc10_2 (F := F)) U (Proc.devRef .tc main_arg2) = x2)
    ∧ after (pc10_2 (F := F)) U (Proc.devRef .tc main_v20) = val_main_v20 (F := F) x1 x2
    ∧ after (pc10_2 (F := F)) U (Proc.devRef .tc main_v512) = val_main_v512 (F := F) x0 x1 x2 := by
  subst h0 h1 h2
  refine ⟨⟨?_, ?_, ?_⟩, ?_, ?_⟩
  all_goals after_results_simp
  all_goals (try simp only [i_main_v20, i_main_v23, i_main_v28, i_main_v29, i_main_v490, i_main_v491, i_main_v492, i_main_call73_v3, i_main_call73_v4])
  all_goals (try rw [i_main_v20])
  all_goals (try rw [i_main_v23])
  all_goals (try rw [i_main_v28])
  all_goals (try rw [i_main_v29])
  all_goals (try rw [i_main_v490])
  all_goals (try rw [i_main_v491])
  all_goals (try rw [i_main_v492])
  all_goals (try rw [i_main_call73_v3])
  all_goals (try rw [i_main_call73_v4])
  all_goals (try rfl)

/-- Operations 990 to 1000 of the line. -/
abbrev pc10_3 : List (HloOp τ sig (Elt F)) :=
  [ unary main_v20 main_v513 ((extui 32 · natLt_1_32) : (⟨S8, .i1⟩ : BufTy).Contents (Elt F) → (⟨S8, .i32⟩ : BufTy).Contents (Elt F)),
    nullary main_c_110 (constantI S_ 32 0#32),
    binary main_v513 main_c_110 main_v514 ((fun x v => Host.reduce IntOp.addi x v reducesTo_S8_S_d0 h_S_) : (⟨S8, .i32⟩ : BufTy).Contents (Elt F) → (⟨S_, .i32⟩ : BufTy).Contents (Elt F) → (⟨S_, .i32⟩ : BufTy).Contents (Elt F)),
    nullary main_c_111 (constantI S_ 32 1#32),
    binary main_v514 main_c_111 main_v515 (maxsi : (⟨S_, .i32⟩ : BufTy).Contents (Elt F) → (⟨S_, .i32⟩ : BufTy).Contents (Elt F) → (⟨S_, .i32⟩ : BufTy).Contents (Elt F)),
    unary main_v20 main_v516 (uitofp .f32 : (⟨S8, .i1⟩ : BufTy).Contents (Elt F) → (⟨S8, .f32⟩ : BufTy).Contents (Elt F)),
    binary main_v512 main_v516 main_v517 (mulf : (⟨S8, .f32⟩ : BufTy).Contents (Elt F) → (⟨S8, .f32⟩ : BufTy).Contents (Elt F) → (⟨S8, .f32⟩ : BufTy).Contents (Elt F)),
    nullary main_cst_112 (constant S_ .f32 0x00000000#32),
    binary main_v517 main_cst_112 main_v518 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v515 main_v519 (sitofp .f32 : (⟨S_, .i32⟩ : BufTy).Contents (Elt F) → (⟨S_, .f32⟩ : BufTy).Contents (Elt F)),
    binary main_v518 main_v519 main_v520 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 100000000 in
theorem piece10_3 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v512 : U (Proc.devRef .tc main_v512) = val_main_v512 (F := F) x0 x1 x2) :
    (after (pc10_3 (F := F)) U (Proc.devRef .tc main_arg0) = x0
      ∧ after (pc10_3 (F := F)) U (Proc.devRef .tc main_arg1) = x1
      ∧ after (pc10_3 (F := F)) U (Proc.devRef .tc main_arg2) = x2)
    ∧ after (pc10_3 (F := F)) U (Proc.devRef .tc main_v520) = val_main_v520 (F := F) x0 x1 x2 := by
  subst h0 h1 h2
  refine ⟨⟨?_, ?_, ?_⟩, ?_⟩
  all_goals after_results_simp
  all_goals (try simp only [i_main_v20, i_main_v512])
  all_goals (try rw [i_main_v20])
  all_goals (try rw [i_main_v512])
  all_goals (try rfl)

set_option maxRecDepth 8192 in
/-- The part's operations are its pieces laid end to end. -/
theorem ops10_split : (ops10 (F := F)) = pc10_0 ++ (pc10_1 ++ (pc10_2 ++ (pc10_3))) := rfl

theorem chunk10 (U : Valuation τ sig (Elt F))
    (x0 : (⟨S8x256x128x128, .f32⟩ : BufTy).Contents (Elt F)) (x1 x2 : (⟨S8x128x128, .i32⟩ : BufTy).Contents (Elt F))
    (h0 : U (Proc.devRef .tc main_arg0) = x0) (h1 : U (Proc.devRef .tc main_arg1) = x1) (h2 : U (Proc.devRef .tc main_arg2) = x2)
    (i_main_v20 : U (Proc.devRef .tc main_v20) = val_main_v20 (F := F) x1 x2)
    (i_main_v23 : U (Proc.devRef .tc main_v23) = val_main_v23 (F := F) x1 x2)
    (i_main_v28 : U (Proc.devRef .tc main_v28) = val_main_v28 (F := F) x0)
    (i_main_v29 : U (Proc.devRef .tc main_v29) = val_main_v29 (F := F) x1 x2)
    (i_main_v490 : U (Proc.devRef .tc main_v490) = val_main_v490 (F := F) x0 x1 x2)
    (i_main_v491 : U (Proc.devRef .tc main_v491) = val_main_v491 (F := F) x0)
    (i_main_v492 : U (Proc.devRef .tc main_v492) = val_main_v492 (F := F) x0) :
    (after (ops10 (F := F)) U (Proc.devRef .tc main_arg0) = x0
      ∧ after (ops10 (F := F)) U (Proc.devRef .tc main_arg1) = x1
      ∧ after (ops10 (F := F)) U (Proc.devRef .tc main_arg2) = x2)
    ∧ after (ops10 (F := F)) U (Proc.devRef .tc main_v520) = val_main_v520 (F := F) x0 x1 x2 := by
  rw [ops10_split]
  simp only [after_append]
  have p0 := piece10_0 (F := F) U x0 x1 x2 h0 h1 h2 i_main_v20 i_main_v23 i_main_v28 i_main_v29 i_main_v490 i_main_v491 i_main_v492
  have p1 := piece10_1 (F := F) (after (pc10_0 (F := F)) U) x0 x1 x2 p0.1.1 p0.1.2.1 p0.1.2.2 p0.2.1 p0.2.2.1 p0.2.2.2.1 p0.2.2.2.2.1 p0.2.2.2.2.2.1 p0.2.2.2.2.2.2.1 p0.2.2.2.2.2.2.2.1 p0.2.2.2.2.2.2.2.2.1 p0.2.2.2.2.2.2.2.2.2
  have p2 := piece10_2 (F := F) (after (pc10_1 (F := F)) (after (pc10_0 (F := F)) U)) x0 x1 x2 p1.1.1 p1.1.2.1 p1.1.2.2 p1.2.1 p1.2.2.1 p1.2.2.2.1 p1.2.2.2.2.1 p1.2.2.2.2.2.1 p1.2.2.2.2.2.2.1 p1.2.2.2.2.2.2.2.1 p1.2.2.2.2.2.2.2.2.1 p1.2.2.2.2.2.2.2.2.2
  have p3 := piece10_3 (F := F) (after (pc10_2 (F := F)) (after (pc10_1 (F := F)) (after (pc10_0 (F := F)) U))) x0 x1 x2 p2.1.1 p2.1.2.1 p2.1.2.2 p2.2.1 p2.2.2
  exact p3

end Cert.Bridge.RefRun

end
-- ==== Proof.RefRun.lean ====
/-
  The reference's run.

  The program is the straight line of its operations, part after part; so every weakly fair execution from a memory
  with zero counters terminates, with each buffer at the fold of the operations' results over the launch contents.
  Folding part by part, each part's lemma hands the next the stages of the buffers it reads; at the end the result
  buffer holds the last stage of the three arguments, and the arguments are as they were.
-/
import proofs.«133983_j1632087573343_1_alg».proof.Proof.RefRunSide
import proofs.«133983_j1632087573343_1_alg».proof.Proof.RefRunLemmas
import proofs.«133983_j1632087573343_1_alg».proof.Proof.RefRunPart0
import proofs.«133983_j1632087573343_1_alg».proof.Proof.RefRunPart1
import proofs.«133983_j1632087573343_1_alg».proof.Proof.RefRunPart2
import proofs.«133983_j1632087573343_1_alg».proof.Proof.RefRunPart3
import proofs.«133983_j1632087573343_1_alg».proof.Proof.RefRunPart4
import proofs.«133983_j1632087573343_1_alg».proof.Proof.RefRunPart5
import proofs.«133983_j1632087573343_1_alg».proof.Proof.RefRunPart6
import proofs.«133983_j1632087573343_1_alg».proof.Proof.RefRunPart7
import proofs.«133983_j1632087573343_1_alg».proof.Proof.RefRunPart8
import proofs.«133983_j1632087573343_1_alg».proof.Proof.RefRunPart9
import proofs.«133983_j1632087573343_1_alg».proof.Proof.RefRunPart10

noncomputable section

namespace Cert.Bridge.RefRun

open Cert.ReferenceIdeal Cert.ReferenceIdeal.Gen Idealize.ShloMosaic Idealize.ShloMosaic.TcCoe Idealize.SL.Sem Idealize.ShloMosaic.StableHlo

open Cert.ReferenceIdeal.Read

variable {F : FTy → Type} [FloatOps F]

/-- All the operations, in order. -/
abbrev opsAll : List (HloOp τ sig (Elt F)) :=
  ops0 ++ (ops1 ++ (ops2 ++ (ops3 ++ (ops4 ++ (ops5 ++ (ops6 ++ (ops7 ++ (ops8 ++ (ops9 ++ (ops10))))))))))

theorem main_eq (c : Dev nD) : main (F := F) c = seq (opsAll (F := F)) := by
  simp only [opsAll, seq_append]
  rw [← part0_eq c, ← part1_eq c, ← part2_eq c, ← part3_eq c, ← part4_eq c, ← part5_eq c, ← part6_eq c, ← part7_eq c, ← part8_eq c, ← part9_eq c, ← part10_eq c]
  rfl

theorem mem_opsAll {op : HloOp τ sig (Elt F)} (h : op ∈ (opsAll (F := F))) :
    op ∈ (ops0 (F := F)) ∨ op ∈ (ops1 (F := F)) ∨ op ∈ (ops2 (F := F)) ∨ op ∈ (ops3 (F := F)) ∨ op ∈ (ops4 (F := F)) ∨ op ∈ (ops5 (F := F)) ∨ op ∈ (ops6 (F := F)) ∨ op ∈ (ops7 (F := F)) ∨ op ∈ (ops8 (F := F)) ∨ op ∈ (ops9 (F := F)) ∨ op ∈ (ops10 (F := F)) := by
  simpa only [opsAll, List.mem_append] using h

theorem ops_sub : (opsAll (F := F)).Forall fun op => op.bufs ⊆ tcRefs τ sig :=
  List.forall_iff_forall_mem.2 fun op h => by
    rcases mem_opsAll h with h | h | h | h | h | h | h | h | h | h | h
    exacts [sub0 op h, sub1 op h, sub2 op h, sub3 op h, sub4 op h, sub5 op h, sub6 op h, sub7 op h, sub8 op h, sub9 op h, sub10 op h]

theorem ops_fresh : ∀ op ∈ (opsAll (F := F)), op.fresh = ∅ := fun op h => by
  rcases mem_opsAll h with h | h | h | h | h | h | h | h | h | h | h
  exacts [fresh0 op h, fresh1 op h, fresh2 op h, fresh3 op h, fresh4 op h, fresh5 op h, fresh6 op h, fresh7 op h, fresh8 op h, fresh9 op h, fresh10 op h]

theorem scopedRefs_eq : (Finset.univ.filter fun b : Ref sig .tc => b.isScoped) = ∅ := by decide
theorem scopedSems_eq : (Finset.univ.filter fun sm : SemLoc sig => sm.isScoped .tc) = ∅ := by decide

/-- What the fold leaves: the result buffer at the last stage of the arguments, the arguments unchanged. -/
theorem after_all (m : (ℓ : Loc nD τ sig) → Buf (Elt F) ℓ) (c : Dev nD) :
    after (opsAll (F := F)) (launchContents m c) (Proc.devRef .tc main_v520)
        = val_main_v520 (F := F) (m ((c.tc : Thread nD τ).loc main_arg0)) (m ((c.tc : Thread nD τ).loc main_arg1)) (m ((c.tc : Thread nD τ).loc main_arg2))
      ∧ after (opsAll (F := F)) (launchContents m c) (Proc.devRef .tc main_arg0) = m ((c.tc : Thread nD τ).loc main_arg0)
      ∧ after (opsAll (F := F)) (launchContents m c) (Proc.devRef .tc main_arg1) = m ((c.tc : Thread nD τ).loc main_arg1)
      ∧ after (opsAll (F := F)) (launchContents m c) (Proc.devRef .tc main_arg2) = m ((c.tc : Thread nD τ).loc main_arg2) := by
  simp only [opsAll, after_append]
  have c0 := chunk0 (F := F) (launchContents m c) _ _ _ rfl rfl rfl
  have c1 := chunk1 (F := F) (after (ops0 (F := F)) (launchContents m c)) _ _ _ c0.1.1 c0.1.2.1 c0.1.2.2 c0.2.1 c0.2.2.1 c0.2.2.2.1 c0.2.2.2.2.1 c0.2.2.2.2.2.1 c0.2.2.2.2.2.2.1 c0.2.2.2.2.2.2.2
  have c2 := chunk2 (F := F) (after (ops1 (F := F)) (after (ops0 (F := F)) (launchContents m c))) _ _ _ c1.1.1 c1.1.2.1 c1.1.2.2 c1.2.1 c1.2.2.1 c1.2.2.2.1 c1.2.2.2.2.1 c1.2.2.2.2.2.1 c1.2.2.2.2.2.2.1 c1.2.2.2.2.2.2.2
  have c3 := chunk3 (F := F) (after (ops2 (F := F)) (after (ops1 (F := F)) (after (ops0 (F := F)) (launchContents m c)))) _ _ _ c2.1.1 c2.1.2.1 c2.1.2.2 c2.2.1 c2.2.2.1 c2.2.2.2.1 c2.2.2.2.2.1 c2.2.2.2.2.2.1 c2.2.2.2.2.2.2.1 c2.2.2.2.2.2.2.2
  have c4 := chunk4 (F := F) (after (ops3 (F := F)) (after (ops2 (F := F)) (after (ops1 (F := F)) (after (ops0 (F := F)) (launchContents m c))))) _ _ _ c3.1.1 c3.1.2.1 c3.1.2.2 c3.2.1 c3.2.2.1 c3.2.2.2.1 c3.2.2.2.2.1 c3.2.2.2.2.2.1 c3.2.2.2.2.2.2.1 c3.2.2.2.2.2.2.2
  have c5 := chunk5 (F := F) (after (ops4 (F := F)) (after (ops3 (F := F)) (after (ops2 (F := F)) (after (ops1 (F := F)) (after (ops0 (F := F)) (launchContents m c)))))) _ _ _ c4.1.1 c4.1.2.1 c4.1.2.2 c4.2.1 c4.2.2.1 c4.2.2.2.1 c4.2.2.2.2.1 c4.2.2.2.2.2.1 c4.2.2.2.2.2.2.1 c4.2.2.2.2.2.2.2
  have c6 := chunk6 (F := F) (after (ops5 (F := F)) (after (ops4 (F := F)) (after (ops3 (F := F)) (after (ops2 (F := F)) (after (ops1 (F := F)) (after (ops0 (F := F)) (launchContents m c))))))) _ _ _ c5.1.1 c5.1.2.1 c5.1.2.2 c5.2.1 c5.2.2.1 c5.2.2.2.1 c5.2.2.2.2.1 c5.2.2.2.2.2.1 c5.2.2.2.2.2.2.1 c5.2.2.2.2.2.2.2
  have c7 := chunk7 (F := F) (after (ops6 (F := F)) (after (ops5 (F := F)) (after (ops4 (F := F)) (after (ops3 (F := F)) (after (ops2 (F := F)) (after (ops1 (F := F)) (after (ops0 (F := F)) (launchContents m c)))))))) _ _ _ c6.1.1 c6.1.2.1 c6.1.2.2 c6.2.1 c6.2.2.1 c6.2.2.2.1 c6.2.2.2.2.1 c6.2.2.2.2.2.1 c6.2.2.2.2.2.2.1 c6.2.2.2.2.2.2.2
  have c8 := chunk8 (F := F) (after (ops7 (F := F)) (after (ops6 (F := F)) (after (ops5 (F := F)) (after (ops4 (F := F)) (after (ops3 (F := F)) (after (ops2 (F := F)) (after (ops1 (F := F)) (after (ops0 (F := F)) (launchContents m c))))))))) _ _ _ c7.1.1 c7.1.2.1 c7.1.2.2 c7.2.1 c7.2.2.1 c7.2.2.2.1 c7.2.2.2.2.1 c7.2.2.2.2.2.1 c7.2.2.2.2.2.2.1 c7.2.2.2.2.2.2.2
  have c9 := chunk9 (F := F) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) _ _ _ c8.1.1 c8.1.2.1 c8.1.2.2 c8.2.1 c8.2.2.1 c8.2.2.2.1 c8.2.2.2.2.1 c8.2.2.2.2.2.1 c8.2.2.2.2.2.2.1 c8.2.2.2.2.2.2.2
  have c10 := chunk10 (F := F) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) _ _ _ c9.1.1 c9.1.2.1 c9.1.2.2 c9.2.1 c9.2.2.1 c9.2.2.2.1 c9.2.2.2.2.1 c9.2.2.2.2.2.1 c9.2.2.2.2.2.2.1 c9.2.2.2.2.2.2.2
  exact ⟨c10.2, c10.1.1, c10.1.2.1, c10.1.2.2⟩

/-- On every device, for any float values, from any memory with zero counters: every weakly fair execution of the
    reference terminates with its result at the last stage of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v520)
          = val_main_v520 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v520).trans (after_all m c).1,
      (h c main_arg0).trans (after_all m c).2.1,
      (h c main_arg1).trans (after_all m c).2.2.1,
      (h c main_arg2).trans (after_all m c).2.2.2⟩)
    (run_seq scopedRefs_eq scopedSems_eq defs main (fun _ => opsAll) main_eq (fun _ => ops_sub) m ρ (fun _ => ops_fresh))

end Cert.Bridge.RefRun

end
-- ==== Proof.lean ====
/- The proof of `Cert.Claim`: the three frames, the (empty) idealization ledger, and the equality of the two idealized
   programs' results.

   The kernel computes, per image, the sum over 24 neighbour offsets of the squared gap between the cosine similarity of
   a pixel's feature vector with its neighbour's and the agreement of their labels, over the image's boundary pixels;
   the host lines around it divide by the pixel count and by 24 and average over the images. It accumulates the inner
   products and the squared lengths over 32 channel tiles in scratch memory (by induction on the grid point the
   accumulators are the sums over the channels seen so far), and at the last point adds the 24 terms. The reference adds
   the same 24 terms, each divided by the pixel count first. Over the extended reals the two agree because the pixel
   count floored at one is a positive real, and multiplying by a nonnegative real distributes over any sum. -/
import proofs.«133983_j1632087573343_1_alg».proof.Defs
import proofs.«133983_j1632087573343_1_alg».proof.Proof.Gen.Kernel
import proofs.«133983_j1632087573343_1_alg».proof.Proof.Gen.Kernel.Skeleton
import proofs.«133983_j1632087573343_1_alg».proof.Proof.Gen.Kernel.Launch
import proofs.«133983_j1632087573343_1_alg».proof.Proof.Gen.Kernel.Points
import proofs.«133983_j1632087573343_1_alg».proof.Proof.Gen.Kernel.Frame
import proofs.«133983_j1632087573343_1_alg».proof.Proof.Gen.KernelIdeal
import proofs.«133983_j1632087573343_1_alg».proof.Proof.Gen.KernelIdeal.Skeleton
import proofs.«133983_j1632087573343_1_alg».proof.Proof.Gen.KernelIdeal.Launch
import proofs.«133983_j1632087573343_1_alg».proof.Proof.Gen.KernelIdeal.Points
import proofs.«133983_j1632087573343_1_alg».proof.Proof.Gen.KernelIdeal.Frame
import proofs.«133983_j1632087573343_1_alg».proof.Proof.Gen.ReferenceIdeal
import proofs.«133983_j1632087573343_1_alg».proof.Proof.Gen.Pre_finite_inputs
import proofs.«133983_j1632087573343_1_alg».proof.Proof.Bridge
import proofs.«133983_j1632087573343_1_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.RefRun.ref_run m ρ)

/-- Both idealized programs end with the same scalar: the kernel's tail of its raw sum is the reference's composed
    term of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Acc.tailK (Cert.KernelIdeal.Acc.rawSum m c)
      (Cert.KernelIdeal.Gen.V m c Cert.KernelIdeal.main_v23) (Cert.KernelIdeal.Gen.V m c Cert.KernelIdeal.main_v20),
    Cert.KernelIdeal.Acc.run m ρ, ?_⟩
  refine (θ_run Cert.ReferenceIdeal.defs _ _).mono (fun _ h c => ⟨(h c).1.trans ?_, (h c).2⟩)
    (Cert.Bridge.RefRun.ref_run m' ρ')
  rw [(hagree c).1, (hagree c).2.1, (hagree c).2.2]
  exact (Cert.KernelIdeal.Acc.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
